-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)) →
    ∃ (v0 : (c : Dev Cert.KernelIdeal.nD) → Buf (Elt Ideal) ((c.tc : Thread Cert.KernelIdeal.nD Cert.KernelIdeal.τ).loc Cert.KernelIdeal.main_v153)) (v1 : (c : Dev Cert.KernelIdeal.nD) → Buf (Elt Ideal) ((c.tc : Thread Cert.KernelIdeal.nD Cert.KernelIdeal.τ).loc Cert.KernelIdeal.main_v155)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_v155) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_v239) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000x128 : Shape := ⟨2, ![100000, 128]⟩
abbrev S2x500000 : Shape := ⟨2, ![2, 500000]⟩
abbrev S128x128 : Shape := ⟨2, ![128, 128]⟩
abbrev S128 : Shape := ⟨1, ![128]⟩
abbrev S256x128 : Shape := ⟨2, ![256, 128]⟩
abbrev S128x4 : Shape := ⟨2, ![128, 4]⟩
abbrev S4 : Shape := ⟨1, ![4]⟩
abbrev S128x7 : Shape := ⟨2, ![128, 7]⟩
abbrev S7 : Shape := ⟨1, ![7]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S128x7 : S_.BroadcastsInDim S128x7 (![] : Fin 0 → Fin S128x7.rank)
  reducesTo_S128x7_S_d0_1 : S128x7.ReducesTo [0, 1] S_
  bcast_S_S7 : S_.BroadcastsInDim S7 (![] : Fin 0 → Fin S7.rank)
  reducesTo_S7_S_d0 : S7.ReducesTo [0] S_

variable [Facts]

def fn_part11 {F : FTy → Type} [FloatOps F] (main_v183 : IVec S_ 1) (main_v187 : IVec S_ 1) : IVec S_ 1 :=
  let main_v188 : IVec S_ 1 := andi main_v183 main_v187
  main_v188

def fn_part10 {F : FTy → Type} [FloatOps F] (main_arg37 : FVec F S4 .f32) (main_arg38 : FVec F S128x7 .f32) (main_arg39 : FVec F S7 .f32) (main_v168 : IVec S_ 1) (main_v169 : FVec F S128x4 .f32) (main_v170 : FVec F S128x4 .f32) : IVec S_ 1 :=
  let main_v171 : IVec S128x4 1 := cmpf .olt main_v169 main_v170
  let main_c_67 : IVec S_ 1 := constantI S_ 1 1#1
  let main_v172 : IVec S_ 1 := (fun x v => Host.reduce IntOp.andi x v reducesTo_S128x4_S_d0_1 h_S_) main_v171 main_c_67
  let main_v173 : IVec S_ 1 := andi main_v168 main_v172
  let main_v174 : FVec F S4 .f32 := Host.absf main_arg37
  let main_cst_68 : FVec F S_ .f32 := constant S_ .f32 0x7F800000#32
  let main_v175 : FVec F S4 .f32 := broadcastInDim S4 ![] bcast_S_S4 main_cst_68
  let main_v176 : IVec S4 1 := cmpf .olt main_v174 main_v175
  let main_c_69 : IVec S_ 1 := constantI S_ 1 1#1
  let main_v177 : IVec S_ 1 := (fun x v => Host.reduce IntOp.andi x v reducesTo_S4_S_d0 h_S_) main_v176 main_c_69
  let main_v178 : IVec S_ 1 := andi main_v173 main_v177
  let main_v179 : FVec F S128x7 .f32 := Host.absf main_arg38
  let main_cst_70 : FVec F S_ .f32 := constant S_ .f32 0x7F800000#32
  let main_v180 : FVec F S128x7 .f32 := broadcastInDim S128x7 ![] bcast_S_S128x7 main_cst_70
  let main_v181 : IVec S128x7 1 := cmpf .olt main_v179 main_v180
  let main_c_71 : IVec S_ 1 := constantI S_ 1 1#1
  let main_v182 : IVec S_ 1 := (fun x v => Host.reduce IntOp.andi x v reducesTo_S128x7_S_d0_1 h_S_) main_v181 main_c_71
  let main_v183 : IVec S_ 1 := andi main_v178 main_v182
  let main_v184 : FVec F S7 .f32 := Host.absf main_arg39
  let main_cst_72 : FVec F S_ .f32 := constant S_ .f32 0x7F800000#32
  let main_v185 : FVec F S7 .f32 := broadcastInDim S7 ![] bcast_S_S7 main_cst_72
  let main_v186 : IVec S7 1 := cmpf .olt main_v184 main_v185
  let main_c_73 : IVec S_ 1 := constantI S_ 1 1#1
  let main_v187 : IVec S_ 1 := (fun x v => Host.reduce IntOp.andi x v reducesTo_S7_S_d0 h_S_) main_v186 main_c_73
  fn_part11 (F := F) main_v183 main_v187

def fn_part9 {F : FTy → Type} [FloatOps F] (main_arg33 : FVec F S128 .f32) (main_arg34 : FVec F S128 .f32) (main_arg35 : FVec F S128 .f32) (main_arg36 : FVec F S128x4 .f32) (main_arg37 : FVec F S4 .f32) (main_arg38 : FVec F S128x7 .f32) (main_arg39 : FVec F S7 .f32) (main_v153 : IVec S_ 1) : IVec S_ 1 :=
  let main_v154 : FVec F S128 .f32 := Host.absf main_arg33
  let main_cst_60 : FVec F S_ .f32 := constant S_ .f32 0x7F800000#32
  let main_v155 : FVec F S128 .f32 := broadcastInDim S128 ![] bcast_S_S128 main_cst_60
  let main_v156 : IVec S128 1 := cmpf .olt main_v154 main_v155
  let main_c_61 : IVec S_ 1 := constantI S_ 1 1#1
  let main_v157 : IVec S_ 1 := (fun x v => Host.reduce IntOp.andi x v reducesTo_S128_S_d0 h_S_) main_v156 main_c_61
  let main_v158 : IVec S_ 1 := andi main_v153 main_v157
  let main_v159 : FVec F S128 .f32 := Host.absf main_arg34
  let main_cst_62 : FVec F S_ .f32 := constant S_ .f32 0x7F800000#32
  let main_v160 : FVec F S128 .f32 := broadcastInDim S128 ![] bcast_S_S128 main_cst_62
  let main_v161 : IVec S128 1 := cmpf .olt main_v159 main_v160
  let main_c_63 : IVec S_ 1 := constantI S_ 1 1#1
  let main_v162 : IVec S_ 1 := (fun x v => Host.reduce IntOp.andi x v reducesTo_S128_S_d0 h_S_) main_v161 main_c_63
  let main_v163 : IVec S_ 1 := andi main_v158 main_v162
  let main_v164 : FVec F S128 .f32 := Host.absf main_arg35
  let main_cst_64 : FVec F S_ .f32 := constant S_ .f32 0x7F800000#32
  let main_v165 : FVec F S128 .f32 := broadcastInDim S128 ![] bcast_S_S128 main_cst_64
  let main_v166 : IVec S128 1 := cmpf .olt main_v164 main_v165
  let main_c_65 : IVec S_ 1 := constantI S_ 1 1#1
  let main_v167 : IVec S_ 1 := (fun x v => Host.reduce IntOp.andi x v reducesTo_S128_S_d0 h_S_) main_v166 main_c_65
  let main_v168 : IVec S_ 1 := andi main_v163 main_v167
  let main_v169 : FVec F S128x4 .f32 := Host.absf main_arg36
  let main_cst_66 : FVec F S_ .f32 := constant S_ .f32 0x7F800000#32
  let main_v170 : FVec F S128x4 .f32 := broadcastInDim S128x4 ![] bcast_S_S128x4 main_cst_66
  fn_part10 (F := F) main_arg37 main_arg38 main_arg39 main_v168 main_v169 main_v170

def fn_part8 {F : FTy → Type} [FloatOps F] (main_arg30 : FVec F S128 .f32) (main_arg31 : FVec F S128 .f32) (main_arg32 : FVec F S128 .f32) (main_arg33 : FVec F S128 .f32) (main_arg34 : FVec F S128 .f32) (main_arg35 : FVec F S128 .f32) (main_arg36 : FVec F S128x4 .f32) (main_arg37 : FVec F S4 .f32) (main_arg38 : FVec F S128x7 .f32) (main_arg39 : FVec F S7 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128 .f32 := Host.absf main_arg30
  let main_cst_54 : FVec F S_ .f32 := constant S_ .f32 0x7F800000#32
  let main_v140 : FVec F S128 .f32 := broadcastInDim S128 ![] bcast_S_S128 main_cst_54
  let main_v141 : IVec S128 1 := cmpf .olt main_v139 main_v140
  let main_c_55 : IVec S_ 1 := constantI S_ 1 1#1
  let main_v142 : IVec S_ 1 := (fun x v => Host.reduce IntOp.andi x v reducesTo_S128_S_d0 h_S_) main_v141 main_c_55
  let main_v143 : IVec S_ 1 := andi main_v138 main_v142
  let main_v144 : FVec F S128 .f32 := Host.absf main_arg31
  let main_cst_56 : FVec F S_ .f32 := constant S_ .f32 0x7F800000#32
  let main_v145 : FVec F S128 .f32 := broadcastInDim S128 ![] bcast_S_S128 main_cst_56
  let main_v146 : IVec S128 1 := cmpf .olt main_v144 main_v145
  let main_c_57 : IVec S_ 1 := constantI S_ 1 1#1
  let main_v147 : IVec S_ 1 := (fun x v => Host.reduce IntOp.andi x v reducesTo_S128_S_d0 h_S_) main_v146 main_c_57
  let main_v148 : IVec S_ 1 := andi main_v143 main_v147
  let main_v149 : FVec F S128 .f32 := Host.absf main_arg32
  let main_cst_58 : FVec F S_ .f32 := constant S_ .f32 0x7F800000#32
  let main_v150 : FVec F S128 .f32 := broadcastInDim S128 ![] bcast_S_S128 main_cst_58
  let main_v151 : IVec S128 1 := cmpf .olt main_v149 main_v150
  let main_c_59 : IVec S_ 1 := constantI S_ 1 1#1
  let main_v152 : IVec S_ 1 := (fun x v => Host.reduce IntOp.andi x v reducesTo_S128_S_d0 h_S_) main_v151 main_c_59
  let main_v153 : IVec S_ 1 := andi main_v148 main_v152
  fn_part9 (F := F) main_arg33 main_arg34 main_arg35 main_arg36 main_arg37 main_arg38 main_arg39 main_v153

def fn_part7 {F : FTy → Type} [FloatOps F] (main_arg27 : FVec F S128 .f32) (main_arg28 : FVec F S128 .f32) (main_arg29 : FVec F S128 .f32) (main_arg30 : FVec F S128 .f32) (main_arg31 : FVec F S128 .f32) (main_arg32 : FVec F S128 .f32) (main_arg33 : FVec F S128 .f32) (main_arg34 : FVec F S128 .f32) (main_arg35 : FVec F S128 .f32) (main_arg36 : FVec F S128x4 .f32) (main_arg37 : FVec F S4 .f32) (main_arg38 : FVec F S128x7 .f32) (main_arg39 : FVec F S7 .f32) (main_v118 : IVec S_ 1) (main_v119 : FVec F S256x128 .f32) : IVec S_ 1 :=
  let main_cst_46 : FVec F S_ .f32 := constant S_ .f32 0x7F800000#32
  let main_v120 : FVec F S256x128 .f32 := broadcastInDim S256x128 ![] bcast_S_S256x128 main_cst_46
  let main_v121 : IVec S256x128 1 := cmpf .olt main_v119 main_v120
  let main_c_47 : IVec S_ 1 := constantI S_ 1 1#1
  let main_v122 : IVec S_ 1 := (fun x v => Host.reduce IntOp.andi x v reducesTo_S256x128_S_d0_1 h_S_) main_v121 main_c_47
  let main_v123 : IVec S_ 1 := andi main_v118 main_v122
  let main_v124 : FVec F S128 .f32 := Host.absf main_arg27
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128 .f32 := Host.absf main_arg28
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128 .f32 := Host.absf main_arg29
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg30 main_arg31 main_arg32 main_arg33 main_arg34 main_arg35 main_arg36 main_arg37 main_arg38 main_arg39 main_v133 main_v136

def fn_part6 {F : FTy → Type} [FloatOps F] (main_arg23 : FVec F S128 .f32) (main_arg24 : FVec F S128x128 .f32) (main_arg25 : FVec F S128 .f32) (main_arg26 : FVec F S256x128 .f32) (main_arg27 : FVec F S128 .f32) (main_arg28 : FVec F S128 .f32) (main_arg29 : FVec F S128 .f32) (main_arg30 : FVec F S128 .f32) (main_arg31 : FVec F S128 .f32) (main_arg32 : FVec F S128 .f32) (main_arg33 : FVec F S128 .f32) (main_arg34 : FVec F S128 .f32) (main_arg35 : FVec F S128 .f32) (main_arg36 : FVec F S128x4 .f32) (main_arg37 : FVec F S4 .f32) (main_arg38 : FVec F S128x7 .f32) (main_arg39 : FVec F S7 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x128 .f32 := Host.absf main_arg24
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S256x128 .f32 := Host.absf main_arg26
  fn_part7 (F := F) main_arg27 main_arg28 main_arg29 main_arg30 main_arg31 main_arg32 main_arg33 main_arg34 main_arg35 main_arg36 main_arg37 main_arg38 main_arg39 main_v118 main_v119

def fn_part5 {F : FTy → Type} [FloatOps F] (main_arg20 : FVec F S256x128 .f32) (main_arg21 : FVec F S128 .f32) (main_arg22 : FVec F S128x128 .f32) (main_arg23 : FVec F S128 .f32) (main_arg24 : FVec F S128x128 .f32) (main_arg25 : FVec F S128 .f32) (main_arg26 : FVec F S256x128 .f32) (main_arg27 : FVec F S128 .f32) (main_arg28 : FVec F S128 .f32) (main_arg29 : FVec F S128 .f32) (main_arg30 : FVec F S128 .f32) (main_arg31 : FVec F S128 .f32) (main_arg32 : FVec F S128 .f32) (main_arg33 : FVec F S128 .f32) (main_arg34 : FVec F S128 .f32) (main_arg35 : FVec F S128 .f32) (main_arg36 : FVec F S128x4 .f32) (main_arg37 : FVec F S4 .f32) (main_arg38 : FVec F S128x7 .f32) (main_arg39 : FVec F S7 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S256x128 .f32 := Host.absf main_arg20
  let main_cst_34 : FVec F S_ .f32 := constant S_ .f32 0x7F800000#32
  let main_v90 : FVec F S256x128 .f32 := broadcastInDim S256x128 ![] bcast_S_S256x128 main_cst_34
  let main_v91 : IVec S256x128 1 := cmpf .olt main_v89 main_v90
  let main_c_35 : IVec S_ 1 := constantI S_ 1 1#1
  let main_v92 : IVec S_ 1 := (fun x v => Host.reduce IntOp.andi x v reducesTo_S256x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128 .f32 := Host.absf main_arg22
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg23 main_arg24 main_arg25 main_arg26 main_arg27 main_arg28 main_arg29 main_arg30 main_arg31 main_arg32 main_arg33 main_arg34 main_arg35 main_arg36 main_arg37 main_arg38 main_arg39 main_v98 main_v101 main_c_39

def fn_part4 {F : FTy → Type} [FloatOps F] (main_arg16 : FVec F S128x128 .f32) (main_arg17 : FVec F S128 .f32) (main_arg18 : FVec F S128x128 .f32) (main_arg19 : FVec F S128 .f32) (main_arg20 : FVec F S256x128 .f32) (main_arg21 : FVec F S128 .f32) (main_arg22 : FVec F S128x128 .f32) (main_arg23 : FVec F S128 .f32) (main_arg24 : FVec F S128x128 .f32) (main_arg25 : FVec F S128 .f32) (main_arg26 : FVec F S256x128 .f32) (main_arg27 : FVec F S128 .f32) (main_arg28 : FVec F S128 .f32) (main_arg29 : FVec F S128 .f32) (main_arg30 : FVec F S128 .f32) (main_arg31 : FVec F S128 .f32) (main_arg32 : FVec F S128 .f32) (main_arg33 : FVec F S128 .f32) (main_arg34 : FVec F S128 .f32) (main_arg35 : FVec F S128 .f32) (main_arg36 : FVec F S128x4 .f32) (main_arg37 : FVec F S4 .f32) (main_arg38 : FVec F S128x7 .f32) (main_arg39 : FVec F S7 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_arg31 main_arg32 main_arg33 main_arg34 main_arg35 main_arg36 main_arg37 main_arg38 main_arg39 main_v83 main_v84 main_cst_32

def fn_part3 {F : FTy → Type} [FloatOps F] (main_arg13 : FVec F S128 .f32) (main_arg14 : FVec F S256x128 .f32) (main_arg15 : FVec F S128 .f32) (main_arg16 : FVec F S128x128 .f32) (main_arg17 : FVec F S128 .f32) (main_arg18 : FVec F S128x128 .f32) (main_arg19 : FVec F S128 .f32) (main_arg20 : FVec F S256x128 .f32) (main_arg21 : FVec F S128 .f32) (main_arg22 : FVec F S128x128 .f32) (main_arg23 : FVec F S128 .f32) (main_arg24 : FVec F S128x128 .f32) (main_arg25 : FVec F S128 .f32) (main_arg26 : FVec F S256x128 .f32) (main_arg27 : FVec F S128 .f32) (main_arg28 : FVec F S128 .f32) (main_arg29 : FVec F S128 .f32) (main_arg30 : FVec F S128 .f32) (main_arg31 : FVec F S128 .f32) (main_arg32 : FVec F S128 .f32) (main_arg33 : FVec F S128 .f32) (main_arg34 : FVec F S128 .f32) (main_arg35 : FVec F S128 .f32) (main_arg36 : FVec F S128x4 .f32) (main_arg37 : FVec F S4 .f32) (main_arg38 : FVec F S128x7 .f32) (main_arg39 : FVec F S7 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S256x128 .f32 := Host.absf main_arg14
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_v63 main_v67

def fn_part2 {F : FTy → Type} [FloatOps F] (main_arg9 : FVec F S128 .f32) (main_arg10 : FVec F S256x128 .f32) (main_arg11 : FVec F S128 .f32) (main_arg12 : FVec F S128x128 .f32) (main_arg13 : FVec F S128 .f32) (main_arg14 : FVec F S256x128 .f32) (main_arg15 : FVec F S128 .f32) (main_arg16 : FVec F S128x128 .f32) (main_arg17 : FVec F S128 .f32) (main_arg18 : FVec F S128x128 .f32) (main_arg19 : FVec F S128 .f32) (main_arg20 : FVec F S256x128 .f32) (main_arg21 : FVec F S128 .f32) (main_arg22 : FVec F S128x128 .f32) (main_arg23 : FVec F S128 .f32) (main_arg24 : FVec F S128x128 .f32) (main_arg25 : FVec F S128 .f32) (main_arg26 : FVec F S256x128 .f32) (main_arg27 : FVec F S128 .f32) (main_arg28 : FVec F S128 .f32) (main_arg29 : FVec F S128 .f32) (main_arg30 : FVec F S128 .f32) (main_arg31 : FVec F S128 .f32) (main_arg32 : FVec F S128 .f32) (main_arg33 : FVec F S128 .f32) (main_arg34 : FVec F S128 .f32) (main_arg35 : FVec F S128 .f32) (main_arg36 : FVec F S128x4 .f32) (main_arg37 : FVec F S4 .f32) (main_arg38 : FVec F S128x7 .f32) (main_arg39 : FVec F S7 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_v48 main_v49 main_v50

def fn_part1 {F : FTy → Type} [FloatOps F] (main_arg6 : FVec F S256x128 .f32) (main_arg7 : FVec F S128 .f32) (main_arg8 : FVec F S256x128 .f32) (main_arg9 : FVec F S128 .f32) (main_arg10 : FVec F S256x128 .f32) (main_arg11 : FVec F S128 .f32) (main_arg12 : FVec F S128x128 .f32) (main_arg13 : FVec F S128 .f32) (main_arg14 : FVec F S256x128 .f32) (main_arg15 : FVec F S128 .f32) (main_arg16 : FVec F S128x128 .f32) (main_arg17 : FVec F S128 .f32) (main_arg18 : FVec F S128x128 .f32) (main_arg19 : FVec F S128 .f32) (main_arg20 : FVec F S256x128 .f32) (main_arg21 : FVec F S128 .f32) (main_arg22 : FVec F S128x128 .f32) (main_arg23 : FVec F S128 .f32) (main_arg24 : FVec F S128x128 .f32) (main_arg25 : FVec F S128 .f32) (main_arg26 : FVec F S256x128 .f32) (main_arg27 : FVec F S128 .f32) (main_arg28 : FVec F S128 .f32) (main_arg29 : FVec F S128 .f32) (main_arg30 : FVec F S128 .f32) (main_arg31 : FVec F S128 .f32) (main_arg32 : FVec F S128 .f32) (main_arg33 : FVec F S128 .f32) (main_arg34 : FVec F S128 .f32) (main_arg35 : FVec F S128 .f32) (main_arg36 : FVec F S128x4 .f32) (main_arg37 : FVec F S4 .f32) (main_arg38 : FVec F S128x7 .f32) (main_arg39 : FVec F S7 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_v33

def fn {F : FTy → Type} [FloatOps F] (main_arg0 : FVec F S100000x256 .f32) (main_arg1 : FVec F S100000x128 .f32) (main_arg2 : IVec S2x500000 32) (main_arg3 : IVec S2x500000 32) (main_arg4 : FVec F S128x128 .f32) (main_arg5 : FVec F S128 .f32) (main_arg6 : FVec F S256x128 .f32) (main_arg7 : FVec F S128 .f32) (main_arg8 : FVec F S256x128 .f32) (main_arg9 : FVec F S128 .f32) (main_arg10 : FVec F S256x128 .f32) (main_arg11 : FVec F S128 .f32) (main_arg12 : FVec F S128x128 .f32) (main_arg13 : FVec F S128 .f32) (main_arg14 : FVec F S256x128 .f32) (main_arg15 : FVec F S128 .f32) (main_arg16 : FVec F S128x128 .f32) (main_arg17 : FVec F S128 .f32) (main_arg18 : FVec F S128x128 .f32) (main_arg19 : FVec F S128 .f32) (main_arg20 : FVec F S256x128 .f32) (main_arg21 : FVec F S128 .f32) (main_arg22 : FVec F S128x128 .f32) (main_arg23 : FVec F S128 .f32) (main_arg24 : FVec F S128x128 .f32) (main_arg25 : FVec F S128 .f32) (main_arg26 : FVec F S256x128 .f32) (main_arg27 : FVec F S128 .f32) (main_arg28 : FVec F S128 .f32) (main_arg29 : FVec F S128 .f32) (main_arg30 : FVec F S128 .f32) (main_arg31 : FVec F S128 .f32) (main_arg32 : FVec F S128 .f32) (main_arg33 : FVec F S128 .f32) (main_arg34 : FVec F S128 .f32) (main_arg35 : FVec F S128 .f32) (main_arg36 : FVec F S128x4 .f32) (main_arg37 : FVec F S4 .f32) (main_arg38 : FVec F S128x7 .f32) (main_arg39 : FVec F S7 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_v13 main_v16
-- ==== Kernel.lean ====
abbrev S100000x256 : Shape := ⟨2, ![100000, 256]⟩
abbrev S100000x128 : Shape := ⟨2, ![100000, 128]⟩
abbrev S2x500000 : Shape := ⟨2, ![2, 500000]⟩
abbrev S128x128 : Shape := ⟨2, ![128, 128]⟩
abbrev S128 : Shape := ⟨1, ![128]⟩
abbrev S256x128 : Shape := ⟨2, ![256, 128]⟩
abbrev S128x4 : Shape := ⟨2, ![128, 4]⟩
abbrev S4 : Shape := ⟨1, ![4]⟩
abbrev S128x7 : Shape := ⟨2, ![128, 7]⟩
abbrev S7 : Shape := ⟨1, ![7]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S500000x256 : Shape := ⟨2, ![500000, 256]⟩
abbrev S1x128 : Shape := ⟨2, ![1, 128]⟩
abbrev S4000x256 : Shape := ⟨2, ![4000, 256]⟩
abbrev S4000x128 : Shape := ⟨2, ![4000, 128]⟩
abbrev S1x4 : Shape := ⟨2, ![1, 4]⟩
abbrev S100000x4 : Shape := ⟨2, ![100000, 4]⟩
abbrev S4000x4 : Shape := ⟨2, ![4000, 4]⟩
abbrev S1x7 : Shape := ⟨2, ![1, 7]⟩
abbrev S100000x7 : Shape := ⟨2, ![100000, 7]⟩
abbrev S4000x7 : Shape := ⟨2, ![4000, 7]⟩

abbrev nBuf : Space → Nat
  | .hbm => 240
  | .vmem => 112
  | .smem => 0
  | _ => 0

abbrev hbmTy0_0 (i : Nat) : BufTy := match i % 128 with
  | 0 => ⟨S100000x256, .f32⟩
  | 1 => ⟨S100000x128, .f32⟩
  | 2 => ⟨S2x500000, .i32⟩
  | 3 => ⟨S2x500000, .i32⟩
  | 4 => ⟨S128x128, .f32⟩
  | 5 => ⟨S128, .f32⟩
  | 6 => ⟨S256x128, .f32⟩
  | 7 => ⟨S128, .f32⟩
  | 8 => ⟨S256x128, .f32⟩
  | 9 => ⟨S128, .f32⟩
  | 10 => ⟨S256x128, .f32⟩
  | 11 => ⟨S128, .f32⟩
  | 12 => ⟨S128x128, .f32⟩
  | 13 => ⟨S128, .f32⟩
  | 14 => ⟨S256x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S256x128, .f32⟩
  | 21 => ⟨S128, .f32⟩
  | 22 => ⟨S128x128, .f32⟩
  | 23 => ⟨S128, .f32⟩
  | 24 => ⟨S128x128, .f32⟩
  | 25 => ⟨S128, .f32⟩
  | 26 => ⟨S256x128, .f32⟩
  | 27 => ⟨S128, .f32⟩
  | 28 => ⟨S128, .f32⟩
  | 29 => ⟨S128, .f32⟩
  | 30 => ⟨S128, .f32⟩
  | 31 => ⟨S128, .f32⟩
  | 32 => ⟨S128, .f32⟩
  | 33 => ⟨S128, .f32⟩
  | 34 => ⟨S128, .f32⟩
  | 35 => ⟨S128, .f32⟩
  | 36 => ⟨S128x4, .f32⟩
  | 37 => ⟨S4, .f32⟩
  | 38 => ⟨S128x7, .f32⟩
  | 39 => ⟨S7, .f32⟩
  | 40 => ⟨S1x500000, .i32⟩
  | 41 => ⟨S500000, .i32⟩
  | 42 => ⟨S1x500000, .i32⟩
  | 43 => ⟨S500000, .i32⟩
  | 44 => ⟨S1x500000, .i32⟩
  | 45 => ⟨S500000, .i32⟩
  | 46 => ⟨S1x500000, .i32⟩
  | 47 => ⟨S500000, .i32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x128, .f32⟩
  | 57 => ⟨S_, .f32⟩
  | 58 => ⟨S100000x128, .f32⟩
  | 59 => ⟨S500000x1, .i32⟩
  | 60 => ⟨S100000x128, .f32⟩
  | 61 => ⟨S_, .f32⟩
  | 62 => ⟨S500000, .f32⟩
  | 63 => ⟨S_, .f32⟩
  | 64 => ⟨S100000, .f32⟩
  | 65 => ⟨S500000x1, .i32⟩
  | 66 => ⟨S100000, .f32⟩
  | 67 => ⟨S_, .f32⟩
  | 68 => ⟨S100000, .f32⟩
  | 69 => ⟨S100000, .f32⟩
  | 70 => ⟨S100000x1, .f32⟩
  | 71 => ⟨S100000x128, .f32⟩
  | 72 => ⟨S100000x128, .f32⟩
  | 73 => ⟨S_, .i32⟩
  | 74 => ⟨S500000, .i32⟩
  | 75 => ⟨S500000, .i1⟩
  | 76 => ⟨S_, .i32⟩
  | 77 => ⟨S500000, .i32⟩
  | 78 => ⟨S500000, .i32⟩
  | 79 => ⟨S500000, .i32⟩
  | 80 => ⟨S500000x1, .i32⟩
  | 81 => ⟨S500000x256, .f32⟩
  | 82 => ⟨S_, .f32⟩
  | 83 => ⟨S100000x256, .f32⟩
  | 84 => ⟨S500000x1, .i32⟩
  | 85 => ⟨S100000x256, .f32⟩
  | 86 => ⟨S_, .f32⟩
  | 87 => ⟨S500000, .f32⟩
  | 88 => ⟨S_, .f32⟩
  | 89 => ⟨S100000, .f32⟩
  | 90 => ⟨S500000x1, .i32⟩
  | 91 => ⟨S100000, .f32⟩
  | 92 => ⟨S_, .f32⟩
  | 93 => ⟨S100000, .f32⟩
  | 94 => ⟨S100000, .f32⟩
  | 95 => ⟨S100000x1, .f32⟩
  | 96 => ⟨S100000x256, .f32⟩
  | 97 => ⟨S100000x256, .f32⟩
  | 98 => ⟨S128x128, .f32⟩
  | 99 => ⟨S128x128, .f32⟩
  | 100 => ⟨S1x128, .f32⟩
  | 101 => ⟨S1x128, .f32⟩
  | 102 => ⟨S1x128, .f32⟩
  | 103 => ⟨S100000x128, .f32⟩
  | 104 => ⟨S1x128, .f32⟩
  | 105 => ⟨S1x128, .f32⟩
  | 106 => ⟨S128x128, .f32⟩
  | 107 => ⟨S128x128, .f32⟩
  | 108 => ⟨S1x128, .f32⟩
  | 109 => ⟨S1x128, .f32⟩
  | 110 => ⟨S1x128, .f32⟩
  | 111 => ⟨S100000x128, .f32⟩
  | 112 => ⟨S1x128, .f32⟩
  | 113 => ⟨S1x128, .f32⟩
  | 114 => ⟨S_, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S1x128, .f32⟩
  | 121 => ⟨S1x128, .f32⟩
  | 122 => ⟨S_, .f32⟩
  | 123 => ⟨S1x128, .f32⟩
  | 124 => ⟨S1x128, .f32⟩
  | 125 => ⟨S_, .f32⟩
  | 126 => ⟨S1x128, .f32⟩
  | 127 => ⟨S1x128, .f32⟩
  | _ => ⟨S100000x256, .f32⟩

abbrev hbmTy0_1 (i : Nat) : BufTy := match i % 128 with
  | 0 => ⟨S_, .f32⟩
  | 1 => ⟨S1x128, .f32⟩
  | 2 => ⟨S1x128, .f32⟩
  | 3 => ⟨S1x128, .f32⟩
  | 4 => ⟨S1x128, .f32⟩
  | 5 => ⟨S_, .f32⟩
  | 6 => ⟨S1x128, .f32⟩
  | 7 => ⟨S1x128, .f32⟩
  | 8 => ⟨S1x128, .f32⟩
  | 9 => ⟨S1x128, .f32⟩
  | 10 => ⟨S100000x128, .f32⟩
  | 11 => ⟨S1x128, .f32⟩
  | 12 => ⟨S1x128, .f32⟩
  | 13 => ⟨S100000x128, .f32⟩
  | 14 => ⟨S_, .i32⟩
  | 15 => ⟨S500000, .i32⟩
  | 16 => ⟨S500000, .i1⟩
  | 17 => ⟨S_, .i32⟩
  | 18 => ⟨S500000, .i32⟩
  | 19 => ⟨S500000, .i32⟩
  | 20 => ⟨S500000, .i32⟩
  | 21 => ⟨S500000x1, .i32⟩
  | 22 => ⟨S500000x128, .f32⟩
  | 23 => ⟨S_, .f32⟩
  | 24 => ⟨S100000x128, .f32⟩
  | 25 => ⟨S500000x1, .i32⟩
  | 26 => ⟨S100000x128, .f32⟩
  | 27 => ⟨S_, .f32⟩
  | 28 => ⟨S500000, .f32⟩
  | 29 => ⟨S_, .f32⟩
  | 30 => ⟨S100000, .f32⟩
  | 31 => ⟨S500000x1, .i32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x128, .f32⟩
  | 38 => ⟨S100000x128, .f32⟩
  | 39 => ⟨S_, .i32⟩
  | 40 => ⟨S500000, .i32⟩
  | 41 => ⟨S500000, .i1⟩
  | 42 => ⟨S_, .i32⟩
  | 43 => ⟨S500000, .i32⟩
  | 44 => ⟨S500000, .i32⟩
  | 45 => ⟨S500000, .i32⟩
  | 46 => ⟨S500000x1, .i32⟩
  | 47 => ⟨S500000x128, .f32⟩
  | 48 => ⟨S_, .f32⟩
  | 49 => ⟨S100000x128, .f32⟩
  | 50 => ⟨S500000x1, .i32⟩
  | 51 => ⟨S100000x128, .f32⟩
  | 52 => ⟨S_, .f32⟩
  | 53 => ⟨S500000, .f32⟩
  | 54 => ⟨S_, .f32⟩
  | 55 => ⟨S100000, .f32⟩
  | 56 => ⟨S500000x1, .i32⟩
  | 57 => ⟨S100000, .f32⟩
  | 58 => ⟨S_, .f32⟩
  | 59 => ⟨S100000, .f32⟩
  | 60 => ⟨S100000, .f32⟩
  | 61 => ⟨S100000x1, .f32⟩
  | 62 => ⟨S100000x128, .f32⟩
  | 63 => ⟨S100000x128, .f32⟩
  | 64 => ⟨S128x128, .f32⟩
  | 65 => ⟨S128x128, .f32⟩
  | 66 => ⟨S1x128, .f32⟩
  | 67 => ⟨S1x128, .f32⟩
  | 68 => ⟨S1x128, .f32⟩
  | 69 => ⟨S100000x128, .f32⟩
  | 70 => ⟨S1x128, .f32⟩
  | 71 => ⟨S1x128, .f32⟩
  | 72 => ⟨S128x128, .f32⟩
  | 73 => ⟨S128x128, .f32⟩
  | 74 => ⟨S1x128, .f32⟩
  | 75 => ⟨S1x128, .f32⟩
  | 76 => ⟨S1x128, .f32⟩
  | 77 => ⟨S100000x128, .f32⟩
  | 78 => ⟨S1x128, .f32⟩
  | 79 => ⟨S1x128, .f32⟩
  | 80 => ⟨S_, .f32⟩
  | 81 => ⟨S1x128, .f32⟩
  | 82 => ⟨S1x128, .f32⟩
  | 83 => ⟨S_, .f32⟩
  | 84 => ⟨S1x128, .f32⟩
  | 85 => ⟨S1x128, .f32⟩
  | 86 => ⟨S1x128, .f32⟩
  | 87 => ⟨S1x128, .f32⟩
  | 88 => ⟨S_, .f32⟩
  | 89 => ⟨S1x128, .f32⟩
  | 90 => ⟨S1x128, .f32⟩
  | 91 => ⟨S_, .f32⟩
  | 92 => ⟨S1x128, .f32⟩
  | 93 => ⟨S1x128, .f32⟩
  | 94 => ⟨S_, .f32⟩
  | 95 => ⟨S1x128, .f32⟩
  | 96 => ⟨S1x128, .f32⟩
  | 97 => ⟨S1x128, .f32⟩
  | 98 => ⟨S1x128, .f32⟩
  | 99 => ⟨S_, .f32⟩
  | 100 => ⟨S1x128, .f32⟩
  | 101 => ⟨S1x128, .f32⟩
  | 102 => ⟨S1x128, .f32⟩
  | 103 => ⟨S1x128, .f32⟩
  | 104 => ⟨S100000x128, .f32⟩
  | 105 => ⟨S1x128, .f32⟩
  | 106 => ⟨S1x128, .f32⟩
  | 107 => ⟨S100000x128, .f32⟩
  | 108 => ⟨S1x4, .f32⟩
  | 109 => ⟨S100000x4, .f32⟩
  | 110 => ⟨S1x7, .f32⟩
  | 111 => ⟨S100000x7, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S4000x256, .f32⟩
  | .local _ .vmem, ⟨1, _⟩ => ⟨S4000x256, .f32⟩
  | .local _ .vmem, ⟨2, _⟩ => ⟨S4000x128, .f32⟩
  | .local _ .vmem, ⟨3, _⟩ => ⟨S4000x128, .f32⟩
  | .local _ .vmem, ⟨4, _⟩ => ⟨S256x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S4000x128, .f32⟩
  | .local _ .vmem, ⟨12, _⟩ => ⟨S4000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S4000x128, .f32⟩
  | .local _ .vmem, ⟨18, _⟩ => ⟨S4000x128, .f32⟩
  | .local _ .vmem, ⟨19, _⟩ => ⟨S4000x256, .f32⟩
  | .local _ .vmem, ⟨20, _⟩ => ⟨S4000x256, .f32⟩
  | .local _ .vmem, ⟨21, _⟩ => ⟨S128x128, .f32⟩
  | .local _ .vmem, ⟨22, _⟩ => ⟨S1x128, .f32⟩
  | .local _ .vmem, ⟨23, _⟩ => ⟨S256x128, .f32⟩
  | .local _ .vmem, ⟨24, _⟩ => ⟨S1x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S4000x128, .f32⟩
  | .local _ .vmem, ⟨35, _⟩ => ⟨S4000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S4000x128, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S4000x128, .f32⟩
  | .local _ .vmem, ⟨49, _⟩ => ⟨S4000x128, .f32⟩
  | .local _ .vmem, ⟨50, _⟩ => ⟨S4000x128, .f32⟩
  | .local _ .vmem, ⟨51, _⟩ => ⟨S4000x128, .f32⟩
  | .local _ .vmem, ⟨52, _⟩ => ⟨S4000x128, .f32⟩
  | .local _ .vmem, ⟨53, _⟩ => ⟨S4000x128, .f32⟩
  | .local _ .vmem, ⟨54, _⟩ => ⟨S128x128, .f32⟩
  | .local _ .vmem, ⟨55, _⟩ => ⟨S1x128, .f32⟩
  | .local _ .vmem, ⟨56, _⟩ => ⟨S128x128, .f32⟩
  | .local _ .vmem, ⟨57, _⟩ => ⟨S1x128, .f32⟩
  | .local _ .vmem, ⟨58, _⟩ => ⟨S128x128, .f32⟩
  | .local _ .vmem, ⟨59, _⟩ => ⟨S128x128, .f32⟩
  | .local _ .vmem, ⟨60, _⟩ => ⟨S1x128, .f32⟩
  | .local _ .vmem, ⟨61, _⟩ => ⟨S4000x128, .f32⟩
  | .local _ .vmem, ⟨62, _⟩ => ⟨S4000x128, .f32⟩
  | .local _ .vmem, ⟨63, _⟩ => ⟨S1x128, .f32⟩
  | .local _ .vmem, ⟨64, _⟩ => ⟨S1x128, .f32⟩
  | .local _ .vmem, ⟨65, _⟩ => ⟨S1x128, .f32⟩
  | .local _ .vmem, ⟨66, _⟩ => ⟨S1x128, .f32⟩
  | .local _ .vmem, ⟨67, _⟩ => ⟨S4000x128, .f32⟩
  | .local _ .vmem, ⟨68, _⟩ => ⟨S4000x128, .f32⟩
  | .local _ .vmem, ⟨69, _⟩ => ⟨S4000x128, .f32⟩
  | .local _ .vmem, ⟨70, _⟩ => ⟨S4000x128, .f32⟩
  | .local _ .vmem, ⟨71, _⟩ => ⟨S128x128, .f32⟩
  | .local _ .vmem, ⟨72, _⟩ => ⟨S1x128, .f32⟩
  | .local _ .vmem, ⟨73, _⟩ => ⟨S128x128, .f32⟩
  | .local _ .vmem, ⟨74, _⟩ => ⟨S1x128, .f32⟩
  | .local _ .vmem, ⟨75, _⟩ => ⟨S128x128, .f32⟩
  | .local _ .vmem, ⟨76, _⟩ => ⟨S128x128, .f32⟩
  | .local _ .vmem, ⟨77, _⟩ => ⟨S1x128, .f32⟩
  | .local _ .vmem, ⟨78, _⟩ => ⟨S4000x128, .f32⟩
  | .local _ .vmem, ⟨79, _⟩ => ⟨S4000x128, .f32⟩
  | .local _ .vmem, ⟨80, _⟩ => ⟨S1x128, .f32⟩
  | .local _ .vmem, ⟨81, _⟩ => ⟨S1x128, .f32⟩
  | .local _ .vmem, ⟨82, _⟩ => ⟨S1x128, .f32⟩
  | .local _ .vmem, ⟨83, _⟩ => ⟨S1x128, .f32⟩
  | .local _ .vmem, ⟨84, _⟩ => ⟨S4000x128, .f32⟩
  | .local _ .vmem, ⟨85, _⟩ => ⟨S4000x128, .f32⟩
  | .local _ .vmem, ⟨86, _⟩ => ⟨S1x128, .f32⟩
  | .local _ .vmem, ⟨87, _⟩ => ⟨S1x128, .f32⟩
  | .local _ .vmem, ⟨88, _⟩ => ⟨S1x128, .f32⟩
  | .local _ .vmem, ⟨89, _⟩ => ⟨S1x128, .f32⟩
  | .local _ .vmem, ⟨90, _⟩ => ⟨S4000x128, .f32⟩
  | .local _ .vmem, ⟨91, _⟩ => ⟨S4000x128, .f32⟩
  | .local _ .vmem, ⟨92, _⟩ => ⟨S4000x128, .f32⟩
  | .local _ .vmem, ⟨93, _⟩ => ⟨S4000x128, .f32⟩
  | .local _ .vmem, ⟨94, _⟩ => ⟨S1x128, .f32⟩
  | .local _ .vmem, ⟨95, _⟩ => ⟨S1x128, .f32⟩
  | .local _ .vmem, ⟨96, _⟩ => ⟨S1x128, .f32⟩
  | .local _ .vmem, ⟨97, _⟩ => ⟨S1x128, .f32⟩
  | .local _ .vmem, ⟨98, _⟩ => ⟨S4000x128, .f32⟩
  | .local _ .vmem, ⟨99, _⟩ => ⟨S4000x128, .f32⟩
  | .local _ .vmem, ⟨100, _⟩ => ⟨S4000x128, .f32⟩
  | .local _ .vmem, ⟨101, _⟩ => ⟨S4000x128, .f32⟩
  | .local _ .vmem, ⟨102, _⟩ => ⟨S128x4, .f32⟩
  | .local _ .vmem, ⟨103, _⟩ => ⟨S1x4, .f32⟩
  | .local _ .vmem, ⟨104, _⟩ => ⟨S4000x4, .f32⟩
  | .local _ .vmem, ⟨105, _⟩ => ⟨S4000x4, .f32⟩
  | .local _ .vmem, ⟨106, _⟩ => ⟨S4000x128, .f32⟩
  | .local _ .vmem, ⟨107, _⟩ => ⟨S4000x128, .f32⟩
  | .local _ .vmem, ⟨108, _⟩ => ⟨S128x7, .f32⟩
  | .local _ .vmem, ⟨109, _⟩ => ⟨S1x7, .f32⟩
  | .local _ .vmem, ⟨110, _⟩ => ⟨S4000x7, .f32⟩
  | .local _ .vmem, ⟨111, _⟩ => ⟨S4000x7, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | _, _ => false

abbrev semScoped : Fin 0 → Bool
  | ⟨_, h⟩ => absurd h (Nat.not_lt_zero _)

abbrev dmaSemScoped : Fin 104 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  ofTc nBuf bufTy 0 104 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_c : Ref sig .tc := ⟨.hbm, 48, rfl⟩
abbrev main_v8 : Ref sig .tc := ⟨.hbm, 49, rfl⟩
abbrev main_v9 : Ref sig .tc := ⟨.hbm, 50, rfl⟩
abbrev main_c_0 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_cst : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_cst_1 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_cst_3 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_c_4 : Ref sig .tc := ⟨.hbm, 73, rfl⟩
abbrev main_v27 : Ref sig .tc := ⟨.hbm, 74, rfl⟩
abbrev main_v28 : Ref sig .tc := ⟨.hbm, 75, rfl⟩
abbrev main_c_5 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_cst_6 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_cst_7 : Ref sig .tc := ⟨.hbm, 86, rfl⟩
abbrev main_v37 : Ref sig .tc := ⟨.hbm, 87, rfl⟩
abbrev main_cst_8 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_cst_9 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51_0 : Ref sig .tc := ⟨.hbm, 103, rfl⟩
abbrev main_v51_1 : Ref sig .tc := ⟨.hbm, 104, rfl⟩
abbrev main_v51_2 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57_0 : Ref sig .tc := ⟨.hbm, 111, rfl⟩
abbrev main_v57_1 : Ref sig .tc := ⟨.hbm, 112, rfl⟩
abbrev main_v57_2 : Ref sig .tc := ⟨.hbm, 113, rfl⟩
abbrev main_cst_10 : Ref sig .tc := ⟨.hbm, 114, rfl⟩
abbrev main_v58 : Ref sig .tc := ⟨.hbm, 115, rfl⟩
abbrev main_v59 : Ref sig .tc := ⟨.hbm, 116, rfl⟩
abbrev main_cst_11 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_cst_12 : Ref sig .tc := ⟨.hbm, 122, rfl⟩
abbrev main_v64 : Ref sig .tc := ⟨.hbm, 123, rfl⟩
abbrev main_v65 : Ref sig .tc := ⟨.hbm, 124, rfl⟩
abbrev main_cst_13 : Ref sig .tc := ⟨.hbm, 125, rfl⟩
abbrev main_v66 : Ref sig .tc := ⟨.hbm, 126, rfl⟩
abbrev main_v67 : Ref sig .tc := ⟨.hbm, 127, rfl⟩
abbrev main_cst_14 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_cst_15 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_c_16 : Ref sig .tc := ⟨.hbm, 142, rfl⟩
abbrev main_v80 : Ref sig .tc := ⟨.hbm, 143, rfl⟩
abbrev main_v81 : Ref sig .tc := ⟨.hbm, 144, rfl⟩
abbrev main_c_17 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_cst_18 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_cst_19 : Ref sig .tc := ⟨.hbm, 155, rfl⟩
abbrev main_v90 : Ref sig .tc := ⟨.hbm, 156, rfl⟩
abbrev main_cst_20 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_21 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_c_22 : Ref sig .tc := ⟨.hbm, 167, rfl⟩
abbrev main_v99 : Ref sig .tc := ⟨.hbm, 168, rfl⟩
abbrev main_v100 : Ref sig .tc := ⟨.hbm, 169, rfl⟩
abbrev main_c_23 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_cst_24 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_cst_25 : Ref sig .tc := ⟨.hbm, 180, rfl⟩
abbrev main_v109 : Ref sig .tc := ⟨.hbm, 181, rfl⟩
abbrev main_cst_26 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_cst_27 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123_0 : Ref sig .tc := ⟨.hbm, 197, rfl⟩
abbrev main_v123_1 : Ref sig .tc := ⟨.hbm, 198, rfl⟩
abbrev main_v123_2 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129_0 : Ref sig .tc := ⟨.hbm, 205, rfl⟩
abbrev main_v129_1 : Ref sig .tc := ⟨.hbm, 206, rfl⟩
abbrev main_v129_2 : Ref sig .tc := ⟨.hbm, 207, rfl⟩
abbrev main_cst_28 : Ref sig .tc := ⟨.hbm, 208, rfl⟩
abbrev main_v130 : Ref sig .tc := ⟨.hbm, 209, rfl⟩
abbrev main_v131 : Ref sig .tc := ⟨.hbm, 210, rfl⟩
abbrev main_cst_29 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_cst_30 : Ref sig .tc := ⟨.hbm, 216, rfl⟩
abbrev main_v136 : Ref sig .tc := ⟨.hbm, 217, rfl⟩
abbrev main_v137 : Ref sig .tc := ⟨.hbm, 218, rfl⟩
abbrev main_cst_31 : Ref sig .tc := ⟨.hbm, 219, rfl⟩
abbrev main_v138 : Ref sig .tc := ⟨.hbm, 220, rfl⟩
abbrev main_v139 : Ref sig .tc := ⟨.hbm, 221, rfl⟩
abbrev main_cst_32 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_cst_33 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_scratch1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg11_0 : Ref sig .tc := ⟨.vmem, 31, rfl⟩
abbrev cc1_scratch0 : Ref sig .tc := ⟨.vmem, 32, rfl⟩
abbrev cc1_scratch1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg2_0 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg5_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg2_0 : Ref sig .tc := ⟨.vmem, 45, rfl⟩
abbrev cc3_stg3_0 : Ref sig .tc := ⟨.vmem, 46, rfl⟩
abbrev cc3_stg4_0 : Ref sig .tc := ⟨.vmem, 47, rfl⟩
abbrev cc3_stg5_0 : Ref sig .tc := ⟨.vmem, 48, rfl⟩
abbrev cc3_stg5_1 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg1_1 : Ref sig .tc := ⟨.vmem, 53, rfl⟩
abbrev cc4_stg2_0 : Ref sig .tc := ⟨.vmem, 54, rfl⟩
abbrev cc4_stg3_0 : Ref sig .tc := ⟨.vmem, 55, rfl⟩
abbrev cc4_stg4_0 : Ref sig .tc := ⟨.vmem, 56, rfl⟩
abbrev cc4_stg5_0 : Ref sig .tc := ⟨.vmem, 57, rfl⟩
abbrev cc4_stg6_0 : Ref sig .tc := ⟨.vmem, 58, rfl⟩
abbrev cc4_stg7_0 : Ref sig .tc := ⟨.vmem, 59, rfl⟩
abbrev cc4_stg8_0 : Ref sig .tc := ⟨.vmem, 60, rfl⟩
abbrev cc4_stg9_0 : Ref sig .tc := ⟨.vmem, 61, rfl⟩
abbrev cc4_stg9_1 : Ref sig .tc := ⟨.vmem, 62, rfl⟩
abbrev cc4_stg10_0 : Ref sig .tc := ⟨.vmem, 63, rfl⟩
abbrev cc4_stg11_0 : Ref sig .tc := ⟨.vmem, 64, rfl⟩
abbrev cc4_scratch0 : Ref sig .tc := ⟨.vmem, 65, rfl⟩
abbrev cc4_scratch1 : Ref sig .tc := ⟨.vmem, 66, rfl⟩
abbrev cc5_stg0_0 : Ref sig .tc := ⟨.vmem, 67, rfl⟩
abbrev cc5_stg0_1 : Ref sig .tc := ⟨.vmem, 68, rfl⟩
abbrev cc5_stg1_0 : Ref sig .tc := ⟨.vmem, 69, rfl⟩
abbrev cc5_stg1_1 : Ref sig .tc := ⟨.vmem, 70, rfl⟩
abbrev cc5_stg2_0 : Ref sig .tc := ⟨.vmem, 71, rfl⟩
abbrev cc5_stg3_0 : Ref sig .tc := ⟨.vmem, 72, rfl⟩
abbrev cc5_stg4_0 : Ref sig .tc := ⟨.vmem, 73, rfl⟩
abbrev cc5_stg5_0 : Ref sig .tc := ⟨.vmem, 74, rfl⟩
abbrev cc5_stg6_0 : Ref sig .tc := ⟨.vmem, 75, rfl⟩
abbrev cc5_stg7_0 : Ref sig .tc := ⟨.vmem, 76, rfl⟩
abbrev cc5_stg8_0 : Ref sig .tc := ⟨.vmem, 77, rfl⟩
abbrev cc5_stg9_0 : Ref sig .tc := ⟨.vmem, 78, rfl⟩
abbrev cc5_stg9_1 : Ref sig .tc := ⟨.vmem, 79, rfl⟩
abbrev cc5_stg10_0 : Ref sig .tc := ⟨.vmem, 80, rfl⟩
abbrev cc5_stg11_0 : Ref sig .tc := ⟨.vmem, 81, rfl⟩
abbrev cc5_scratch0 : Ref sig .tc := ⟨.vmem, 82, rfl⟩
abbrev cc5_scratch1 : Ref sig .tc := ⟨.vmem, 83, rfl⟩
abbrev cc6_stg0_0 : Ref sig .tc := ⟨.vmem, 84, rfl⟩
abbrev cc6_stg0_1 : Ref sig .tc := ⟨.vmem, 85, rfl⟩
abbrev cc6_stg1_0 : Ref sig .tc := ⟨.vmem, 86, rfl⟩
abbrev cc6_stg2_0 : Ref sig .tc := ⟨.vmem, 87, rfl⟩
abbrev cc6_stg3_0 : Ref sig .tc := ⟨.vmem, 88, rfl⟩
abbrev cc6_stg4_0 : Ref sig .tc := ⟨.vmem, 89, rfl⟩
abbrev cc6_stg5_0 : Ref sig .tc := ⟨.vmem, 90, rfl⟩
abbrev cc6_stg5_1 : Ref sig .tc := ⟨.vmem, 91, rfl⟩
abbrev cc7_stg0_0 : Ref sig .tc := ⟨.vmem, 92, rfl⟩
abbrev cc7_stg0_1 : Ref sig .tc := ⟨.vmem, 93, rfl⟩
abbrev cc7_stg1_0 : Ref sig .tc := ⟨.vmem, 94, rfl⟩
abbrev cc7_stg2_0 : Ref sig .tc := ⟨.vmem, 95, rfl⟩
abbrev cc7_stg3_0 : Ref sig .tc := ⟨.vmem, 96, rfl⟩
abbrev cc7_stg4_0 : Ref sig .tc := ⟨.vmem, 97, rfl⟩
abbrev cc7_stg5_0 : Ref sig .tc := ⟨.vmem, 98, rfl⟩
abbrev cc7_stg5_1 : Ref sig .tc := ⟨.vmem, 99, rfl⟩
abbrev cc8_stg0_0 : Ref sig .tc := ⟨.vmem, 100, rfl⟩
abbrev cc8_stg0_1 : Ref sig .tc := ⟨.vmem, 101, rfl⟩
abbrev cc8_stg1_0 : Ref sig .tc := ⟨.vmem, 102, rfl⟩
abbrev cc8_stg2_0 : Ref sig .tc := ⟨.vmem, 103, rfl⟩
abbrev cc8_stg3_0 : Ref sig .tc := ⟨.vmem, 104, rfl⟩
abbrev cc8_stg3_1 : Ref sig .tc := ⟨.vmem, 105, rfl⟩
abbrev cc9_stg0_0 : Ref sig .tc := ⟨.vmem, 106, rfl⟩
abbrev cc9_stg0_1 : Ref sig .tc := ⟨.vmem, 107, rfl⟩
abbrev cc9_stg1_0 : Ref sig .tc := ⟨.vmem, 108, rfl⟩
abbrev cc9_stg2_0 : Ref sig .tc := ⟨.vmem, 109, rfl⟩
abbrev cc9_stg3_0 : Ref sig .tc := ⟨.vmem, 110, rfl⟩
abbrev cc9_stg3_1 : Ref sig .tc := ⟨.vmem, 111, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem11_0 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27
abbrev cc1_sem10_0 : DmaSem sig := 28
abbrev cc1_sem11_0 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem3_0 : DmaSem sig := 34
abbrev cc2_sem4_0 : DmaSem sig := 35
abbrev cc2_sem5_0 : DmaSem sig := 36
abbrev cc2_sem5_1 : DmaSem sig := 37
abbrev cc3_sem0_0 : DmaSem sig := 38
abbrev cc3_sem0_1 : DmaSem sig := 39
abbrev cc3_sem1_0 : DmaSem sig := 40
abbrev cc3_sem2_0 : DmaSem sig := 41
abbrev cc3_sem3_0 : DmaSem sig := 42
abbrev cc3_sem4_0 : DmaSem sig := 43
abbrev cc3_sem5_0 : DmaSem sig := 44
abbrev cc3_sem5_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem3_0 : DmaSem sig := 51
abbrev cc4_sem4_0 : DmaSem sig := 52
abbrev cc4_sem5_0 : DmaSem sig := 53
abbrev cc4_sem6_0 : DmaSem sig := 54
abbrev cc4_sem7_0 : DmaSem sig := 55
abbrev cc4_sem8_0 : DmaSem sig := 56
abbrev cc4_sem9_0 : DmaSem sig := 57
abbrev cc4_sem9_1 : DmaSem sig := 58
abbrev cc4_sem10_0 : DmaSem sig := 59
abbrev cc4_sem11_0 : DmaSem sig := 60
abbrev cc5_sem0_0 : DmaSem sig := 61
abbrev cc5_sem0_1 : DmaSem sig := 62
abbrev cc5_sem1_0 : DmaSem sig := 63
abbrev cc5_sem1_1 : DmaSem sig := 64
abbrev cc5_sem2_0 : DmaSem sig := 65
abbrev cc5_sem3_0 : DmaSem sig := 66
abbrev cc5_sem4_0 : DmaSem sig := 67
abbrev cc5_sem5_0 : DmaSem sig := 68
abbrev cc5_sem6_0 : DmaSem sig := 69
abbrev cc5_sem7_0 : DmaSem sig := 70
abbrev cc5_sem8_0 : DmaSem sig := 71
abbrev cc5_sem9_0 : DmaSem sig := 72
abbrev cc5_sem9_1 : DmaSem sig := 73
abbrev cc5_sem10_0 : DmaSem sig := 74
abbrev cc5_sem11_0 : DmaSem sig := 75
abbrev cc6_sem0_0 : DmaSem sig := 76
abbrev cc6_sem0_1 : DmaSem sig := 77
abbrev cc6_sem1_0 : DmaSem sig := 78
abbrev cc6_sem2_0 : DmaSem sig := 79
abbrev cc6_sem3_0 : DmaSem sig := 80
abbrev cc6_sem4_0 : DmaSem sig := 81
abbrev cc6_sem5_0 : DmaSem sig := 82
abbrev cc6_sem5_1 : DmaSem sig := 83
abbrev cc7_sem0_0 : DmaSem sig := 84
abbrev cc7_sem0_1 : DmaSem sig := 85
abbrev cc7_sem1_0 : DmaSem sig := 86
abbrev cc7_sem2_0 : DmaSem sig := 87
abbrev cc7_sem3_0 : DmaSem sig := 88
abbrev cc7_sem4_0 : DmaSem sig := 89
abbrev cc7_sem5_0 : DmaSem sig := 90
abbrev cc7_sem5_1 : DmaSem sig := 91
abbrev cc8_sem0_0 : DmaSem sig := 92
abbrev cc8_sem0_1 : DmaSem sig := 93
abbrev cc8_sem1_0 : DmaSem sig := 94
abbrev cc8_sem2_0 : DmaSem sig := 95
abbrev cc8_sem3_0 : DmaSem sig := 96
abbrev cc8_sem3_1 : DmaSem sig := 97
abbrev cc9_sem0_0 : DmaSem sig := 98
abbrev cc9_sem0_1 : DmaSem sig := 99
abbrev cc9_sem1_0 : DmaSem sig := 100
abbrev cc9_sem2_0 : DmaSem sig := 101
abbrev cc9_sem3_0 : DmaSem sig := 102
abbrev cc9_sem3_1 : DmaSem sig := 103

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v53 : BitVec 1 := Scalar.cmpi .eq arg0 c24_i32
  let v54 : BitVec 32 := Scalar.extui v53
  let c0_i32_33 : BitVec 32 := 0#32
  let v55 : BitVec 1 := Scalar.cmpi .ne v54 c0_i32_33
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v53 : BitVec 1 := Scalar.cmpi .eq arg0 c24_i32
  let v54 : BitVec 32 := Scalar.extui v53
  let c0_i32_33 : BitVec 32 := 0#32
  let v55 : BitVec 1 := Scalar.cmpi .ne v54 c0_i32_33
  v55

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v54 : BitVec 1 := Scalar.cmpi .eq arg0 c24_i32
  let v55 : BitVec 32 := Scalar.extui v54
  let c0_i32_33 : BitVec 32 := 0#32
  let v56 : BitVec 1 := Scalar.cmpi .ne v55 c0_i32_33
  v56

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S4000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 1 → Memref sig .tc .vmem S1x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x128 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev grid5 : Pipeline.Grid := ⟨1, ![25], ![false]⟩

def k5_cond2 (i : grid5.Coords) : BitVec 1 :=
  let arg0 : BitVec 32 := BitVec.ofNat 32 (i 0).val
  let c24_i32 : BitVec 32 := 24#32
  let v54 : BitVec 1 := Scalar.cmpi .eq arg0 c24_i32
  let v55 : BitVec 32 := Scalar.extui v54
  let c0_i32_33 : BitVec 32 := 0#32
  let v56 : BitVec 1 := Scalar.cmpi .ne v55 c0_i32_33
  v56

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S128x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S4000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev stage5_10 : Fin 1 → Memref sig .tc .vmem S1x128 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S1x128 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S4000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x4 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x4 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S4000x4 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x7 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x7 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S4000x7 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  slices_S256x128_S128x128_0_0 : S256x128.Slices ![0, 0] S128x128
  slices_S256x128_S128x128_128_0 : S256x128.Slices ![128, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S256x128_S256x128_0_0 : ∀ a, (![0, 0] : Fin 2 → Nat) a + S256x128.size a ≤ S256x128.size a
  h_S256x128 : 0 < S256x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S4000x128 : S1x128.Broadcasts S4000x128
  reduces_S4000x128_S128 : S4000x128.Reduces [0] S128
  shapeCasts_S4000x256_S4000x256 : S4000x256.ShapeCasts S4000x256
  bcast_S_S1x128 : S_.BroadcastsInDim S1x128 (![] : Fin 0 → Fin S1x128.rank)
  shapeCasts_S4_S1x4 : S4.ShapeCasts S1x4
  inb_S128x4_S128x4_0_0 : ∀ a, (![0, 0] : Fin 2 → Nat) a + S128x4.size a ≤ S128x4.size a
  h_S128x4 : 0 < S128x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S4000x4 : S1x4.Broadcasts S4000x4
  inb_S4000x4_S4000x4_0_0 : ∀ a, (![0, 0] : Fin 2 → Nat) a + S4000x4.size a ≤ S4000x4.size a
  h_S4000x4 : 0 < S4000x4.numel
  shapeCasts_S7_S1x7 : S7.ShapeCasts S1x7
  inb_S128x7_S128x7_0_0 : ∀ a, (![0, 0] : Fin 2 → Nat) a + S128x7.size a ≤ S128x7.size a
  h_S128x7 : 0 < S128x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S4000x7 : S1x7.Broadcasts S4000x7
  inb_S4000x7_S4000x7_0_0 : ∀ a, (![0, 0] : Fin 2 → Nat) a + S4000x7.size a ≤ S4000x7.size a
  h_S4000x7 : 0 < S4000x7.numel
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  gather_S100000x256_S500000x1_S500000x256_1_0_n_n_0_1_1256_wf : GatherDims.WF S100000x256 S500000x1 S500000x256 [1] [0] [] [0] [] 1 ![1, 256]
  scatter_S100000x256_S500000x1_S500000x256_1_0_0_1_wf : ScatterDims.WF S100000x256 S500000x1 S500000x256 [1] [0] [0] 1
  dot_S4000x256_S256x128_S4000x128_1_0_0_1_n_n_wf : DotDims.WF S4000x256 S256x128 S4000x128 [1] [0] [0] [1] [] []
  dot_S4000x128_S128x128_S4000x128_1_0_0_1_n_n_wf : DotDims.WF S4000x128 S128x128 S4000x128 [1] [0] [0] [1] [] []
  dot_S4000x128_S128x4_S4000x4_1_0_0_1_n_n_wf : DotDims.WF S4000x128 S128x4 S4000x4 [1] [0] [0] [1] [] []
  dot_S4000x128_S128x7_S4000x7_1_0_0_1_n_n_wf : DotDims.WF S4000x128 S128x7 S4000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S100000x128.size a
  hwx0_9 : ∀ i : grid0.Coords, EltTy.bits .f32 = 32 ∨ (Rect.block (s := S100000x128) S4000x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S100000x256.size a
  hwx1_1 : ∀ i : grid1.Coords, EltTy.bits .f32 = 32 ∨ (Rect.block (s := S100000x256) S4000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x128.size a ≤ S100000x128.size a
  hwx1_9 : ∀ i : grid1.Coords, EltTy.bits .f32 = 32 ∨ (Rect.block (s := S100000x128) S4000x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S100000x128.size a
  hwx3_5 : ∀ i : grid3.Coords, EltTy.bits .f32 = 32 ∨ (Rect.block (s := S100000x128) S4000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S100000x128.size a
  hwx4_1 : ∀ i : grid4.Coords, EltTy.bits .f32 = 32 ∨ (Rect.block (s := S100000x128) S4000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x128.size a ≤ S128x128.size a
  hwx4_7 : ∀ i : grid4.Coords, EltTy.bits .f32 = 32 ∨ (Rect.block (s := S128x128) S128x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S4000x128.size a ≤ S100000x128.size a
  hwx4_9 : ∀ i : grid4.Coords, EltTy.bits .f32 = 32 ∨ (Rect.block (s := S100000x128) S4000x128.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x128.size a ≤ S1x128.size a
  hwx4_10 : ∀ i : grid4.Coords, EltTy.bits .f32 = 32 ∨ (Rect.block (s := S1x128) S1x128.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x128.size a ≤ S1x128.size a
  hwx4_11 : ∀ i : grid4.Coords, EltTy.bits .f32 = 32 ∨ (Rect.block (s := S1x128) S1x128.size (cc4_transform_11 i) (hinb4_11 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S100000x128.size a
  hwx5_1 : ∀ i : grid5.Coords, EltTy.bits .f32 = 32 ∨ (Rect.block (s := S100000x128) S4000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128x128.size a ≤ S128x128.size a
  hwx5_6 : ∀ i : grid5.Coords, EltTy.bits .f32 = 32 ∨ (Rect.block (s := S128x128) S128x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S128x128.size a ≤ S128x128.size a
  hwx5_7 : ∀ i : grid5.Coords, EltTy.bits .f32 = 32 ∨ (Rect.block (s := S128x128) S128x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S4000x128.size a ≤ S100000x128.size a
  hwx5_9 : ∀ i : grid5.Coords, EltTy.bits .f32 = 32 ∨ (Rect.block (s := S100000x128) S4000x128.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x128.size a ≤ S1x128.size a
  hwx5_10 : ∀ i : grid5.Coords, EltTy.bits .f32 = 32 ∨ (Rect.block (s := S1x128) S1x128.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S1x128.size a ≤ S1x128.size a
  hwx5_11 : ∀ i : grid5.Coords, EltTy.bits .f32 = 32 ∨ (Rect.block (s := S1x128) S1x128.size (cc5_transform_11 i) (hinb5_11 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S100000x128.size a
  hwx6_0 : ∀ i : grid6.Coords, EltTy.bits .f32 = 32 ∨ (Rect.block (s := S100000x128) S4000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4000x128.size a ≤ S100000x128.size a
  hwx6_5 : ∀ i : grid6.Coords, EltTy.bits .f32 = 32 ∨ (Rect.block (s := S100000x128) S4000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S100000x128.size a
  hwx7_0 : ∀ i : grid7.Coords, EltTy.bits .f32 = 32 ∨ (Rect.block (s := S100000x128) S4000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S4000x128.size a ≤ S100000x128.size a
  hwx7_5 : ∀ i : grid7.Coords, EltTy.bits .f32 = 32 ∨ (Rect.block (s := S100000x128) S4000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x128.size a ≤ S100000x128.size a
  hwx8_0 : ∀ i : grid8.Coords, EltTy.bits .f32 = 32 ∨ (Rect.block (s := S100000x128) S4000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x4.size a ≤ S128x4.size a
  hwx8_1 : ∀ i : grid8.Coords, EltTy.bits .f32 = 32 ∨ (Rect.block (s := S128x4) S128x4.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x4.size a ≤ S1x4.size a
  hwx8_2 : ∀ i : grid8.Coords, EltTy.bits .f32 = 32 ∨ (Rect.block (s := S1x4) S1x4.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S4000x4.size a ≤ S100000x4.size a
  hwx8_3 : ∀ i : grid8.Coords, EltTy.bits .f32 = 32 ∨ (Rect.block (s := S100000x4) S4000x4.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x128.size a ≤ S100000x128.size a
  hwx9_0 : ∀ i : grid9.Coords, EltTy.bits .f32 = 32 ∨ (Rect.block (s := S100000x128) S4000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x7.size a ≤ S128x7.size a
  hwx9_1 : ∀ i : grid9.Coords, EltTy.bits .f32 = 32 ∨ (Rect.block (s := S128x7) S128x7.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x7.size a ≤ S1x7.size a
  hwx9_2 : ∀ i : grid9.Coords, EltTy.bits .f32 = 32 ∨ (Rect.block (s := S1x7) S1x7.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S4000x7.size a ≤ S100000x7.size a
  hwx9_3 : ∀ i : grid9.Coords, EltTy.bits .f32 = 32 ∨ (Rect.block (s := S100000x7) S4000x7.size (cc9_transform_3 i) (hinb9_3 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x4_S4000x4_1_0_0_1_n_n : DotDims S4000x128 S128x4 S4000x4 where
  lhsContracting := [1]
  rhsContracting := [0]
  lhsNonContracting := [0]
  rhsNonContracting := [1]
  lhsBatch := []
  rhsBatch := []
  wf := dot_S4000x128_S128x4_S4000x4_1_0_0_1_n_n_wf
def dot_S4000x128_S128x7_S4000x7_1_0_0_1_n_n : DotDims S4000x128 S128x7 S4000x7 where
  lhsContracting := [1]
  rhsContracting := [0]
  lhsNonContracting := [0]
  rhsNonContracting := [1]
  lhsBatch := []
  rhsBatch := []
  wf := dot_S4000x128_S128x7_S4000x7_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v48) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v49) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v46) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v47) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v50) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v51_0) S4000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v51_1) S1x128.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v51_2) S1x128.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | ⟨_ + 12, h⟩ => absurd h (Nat.not_lt.2 (Nat.le_add_left _ _))

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v53) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v56) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v57_0) S4000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v57_1) S1x128.size cc1_transform_10 reads1_10 true true 1 stage1_10 sem1_10
    hrank1 hreads1_10 hinb1_10 nbuf1_10 (Memref.isWhole_whole _) hwx1_10 hstage1_10

abbrev win1_11 : Pipeline.Window sig grid1 :=
  Pipeline.Window.ofSpec (Memref.whole main_v57_2) S1x128.size cc1_transform_11 reads1_11 true true 1 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev idle1 : Fin 12 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k1_cond2 i == 1#1) | 11 => fun i => !(k1_cond2 i == 1#1) | ⟨_ + 12, h⟩ => absurd h (Nat.not_lt.2 (Nat.le_add_left _ _))

abbrev win2_0 : Pipeline.Window sig grid2 :=
  Pipeline.Window.ofSpec (Memref.whole main_v51_0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v75) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v76) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v57_0) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v79) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v76) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v98) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg18) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v120) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg16) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v121) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v118) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v119) S128x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v122) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v123_0) S4000x128.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v123_1) S1x128.size cc4_transform_10 reads4_10 true true 1 stage4_10 sem4_10
    hrank4 hreads4_10 hinb4_10 nbuf4_10 (Memref.isWhole_whole _) hwx4_10 hstage4_10

abbrev win4_11 : Pipeline.Window sig grid4 :=
  Pipeline.Window.ofSpec (Memref.whole main_v123_2) S1x128.size cc4_transform_11 reads4_11 true true 1 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

abbrev idle4 : Fin 12 → grid4.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k4_cond2 i == 1#1) | 11 => fun i => !(k4_cond2 i == 1#1) | ⟨_ + 12, h⟩ => absurd h (Nat.not_lt.2 (Nat.le_add_left _ _))

abbrev win5_0 : Pipeline.Window sig grid5 :=
  Pipeline.Window.ofSpec (Memref.whole main_v79) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v117) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg24) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v126) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg22) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v127) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v124) S128x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v125) S128x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v128) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v129_0) S4000x128.size cc5_transform_9 reads5_9 true false 2 stage5_9 sem5_9
    hrank5 hreads5_9 hinb5_9 nbuf5_9 (Memref.isWhole_whole _) hwx5_9 hstage5_9

abbrev win5_10 : Pipeline.Window sig grid5 :=
  Pipeline.Window.ofSpec (Memref.whole main_v129_1) S1x128.size cc5_transform_10 reads5_10 true true 1 stage5_10 sem5_10
    hrank5 hreads5_10 hinb5_10 nbuf5_10 (Memref.isWhole_whole _) hwx5_10 hstage5_10

abbrev win5_11 : Pipeline.Window sig grid5 :=
  Pipeline.Window.ofSpec (Memref.whole main_v129_2) S1x128.size cc5_transform_11 reads5_11 true true 1 stage5_11 sem5_11
    hrank5 hreads5_11 hinb5_11 nbuf5_11 (Memref.isWhole_whole _) hwx5_11 hstage5_11

abbrev win5 : Fin 12 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | ⟨_ + 12, h⟩ => absurd h (Nat.not_lt.2 (Nat.le_add_left _ _))
abbrev spec5 : Fin 12 → Pipeline.WinSpec sig grid5.rank := fun w => (win5 w).toWinSpec

abbrev idle5 : Fin 12 → grid5.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k5_cond2 i == 1#1) | 11 => fun i => !(k5_cond2 i == 1#1) | ⟨_ + 12, h⟩ => absurd h (Nat.not_lt.2 (Nat.le_add_left _ _))

abbrev win6_0 : Pipeline.Window sig grid6 :=
  Pipeline.Window.ofSpec (Memref.whole main_v123_0) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v146) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v147) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v131) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v137) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v148) S4000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v129_0) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v149) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v150) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v139) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v145) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v151) S4000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v148) S4000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg36) S128x4.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v152) S1x4.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v153) S4000x4.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v151) S4000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg38) S128x7.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v154) S1x7.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v155) S4000x7.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S100000x256 : Shape := ⟨2, ![100000, 256]⟩
abbrev S100000x128 : Shape := ⟨2, ![100000, 128]⟩
abbrev S2x500000 : Shape := ⟨2, ![2, 500000]⟩
abbrev S128x128 : Shape := ⟨2, ![128, 128]⟩
abbrev S128 : Shape := ⟨1, ![128]⟩
abbrev S256x128 : Shape := ⟨2, ![256, 128]⟩
abbrev S128x4 : Shape := ⟨2, ![128, 4]⟩
abbrev S4 : Shape := ⟨1, ![4]⟩
abbrev S128x7 : Shape := ⟨2, ![128, 7]⟩
abbrev S7 : Shape := ⟨1, ![7]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S1x128 : Shape := ⟨2, ![1, 128]⟩
abbrev S500000x256 : Shape := ⟨2, ![500000, 256]⟩
abbrev S100000x4 : Shape := ⟨2, ![100000, 4]⟩
abbrev S1x4 : Shape := ⟨2, ![1, 4]⟩
abbrev S100000x7 : Shape := ⟨2, ![100000, 7]⟩
abbrev S1x7 : Shape := ⟨2, ![1, 7]⟩

abbrev nBuf : Space → Nat
  | .hbm => 412
  | .vmem => 0
  | .smem => 0
  | _ => 0

abbrev hbmTy0_0 (i : Nat) : BufTy := match i % 128 with
  | 0 => ⟨S100000x256, .f32⟩
  | 1 => ⟨S100000x128, .f32⟩
  | 2 => ⟨S2x500000, .i32⟩
  | 3 => ⟨S2x500000, .i32⟩
  | 4 => ⟨S128x128, .f32⟩
  | 5 => ⟨S128, .f32⟩
  | 6 => ⟨S256x128, .f32⟩
  | 7 => ⟨S128, .f32⟩
  | 8 => ⟨S256x128, .f32⟩
  | 9 => ⟨S128, .f32⟩
  | 10 => ⟨S256x128, .f32⟩
  | 11 => ⟨S128, .f32⟩
  | 12 => ⟨S128x128, .f32⟩
  | 13 => ⟨S128, .f32⟩
  | 14 => ⟨S256x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S256x128, .f32⟩
  | 21 => ⟨S128, .f32⟩
  | 22 => ⟨S128x128, .f32⟩
  | 23 => ⟨S128, .f32⟩
  | 24 => ⟨S128x128, .f32⟩
  | 25 => ⟨S128, .f32⟩
  | 26 => ⟨S256x128, .f32⟩
  | 27 => ⟨S128, .f32⟩
  | 28 => ⟨S128, .f32⟩
  | 29 => ⟨S128, .f32⟩
  | 30 => ⟨S128, .f32⟩
  | 31 => ⟨S128, .f32⟩
  | 32 => ⟨S128, .f32⟩
  | 33 => ⟨S128, .f32⟩
  | 34 => ⟨S128, .f32⟩
  | 35 => ⟨S128, .f32⟩
  | 36 => ⟨S128x4, .f32⟩
  | 37 => ⟨S4, .f32⟩
  | 38 => ⟨S128x7, .f32⟩
  | 39 => ⟨S7, .f32⟩
  | 40 => ⟨S1x500000, .i32⟩
  | 41 => ⟨S500000, .i32⟩
  | 42 => ⟨S1x500000, .i32⟩
  | 43 => ⟨S500000, .i32⟩
  | 44 => ⟨S1x500000, .i32⟩
  | 45 => ⟨S500000, .i32⟩
  | 46 => ⟨S1x500000, .i32⟩
  | 47 => ⟨S500000, .i32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x128, .f32⟩
  | 57 => ⟨S_, .f32⟩
  | 58 => ⟨S100000x128, .f32⟩
  | 59 => ⟨S500000x1, .i32⟩
  | 60 => ⟨S100000x128, .f32⟩
  | 61 => ⟨S_, .f32⟩
  | 62 => ⟨S500000, .f32⟩
  | 63 => ⟨S_, .f32⟩
  | 64 => ⟨S100000, .f32⟩
  | 65 => ⟨S500000x1, .i32⟩
  | 66 => ⟨S100000, .f32⟩
  | 67 => ⟨S_, .f32⟩
  | 68 => ⟨S100000, .f32⟩
  | 69 => ⟨S100000, .f32⟩
  | 70 => ⟨S100000x1, .f32⟩
  | 71 => ⟨S100000x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S100000x256, .f32⟩
  | 82 => ⟨S100000x128, .f32⟩
  | 83 => ⟨S1x128, .f32⟩
  | 84 => ⟨S100000x128, .f32⟩
  | 85 => ⟨S100000x128, .f32⟩
  | 86 => ⟨S_, .i32⟩
  | 87 => ⟨S500000, .i32⟩
  | 88 => ⟨S500000, .i1⟩
  | 89 => ⟨S_, .i32⟩
  | 90 => ⟨S500000, .i32⟩
  | 91 => ⟨S500000, .i32⟩
  | 92 => ⟨S500000, .i32⟩
  | 93 => ⟨S500000x1, .i32⟩
  | 94 => ⟨S500000x256, .f32⟩
  | 95 => ⟨S_, .f32⟩
  | 96 => ⟨S100000x256, .f32⟩
  | 97 => ⟨S500000x1, .i32⟩
  | 98 => ⟨S100000x256, .f32⟩
  | 99 => ⟨S_, .f32⟩
  | 100 => ⟨S500000, .f32⟩
  | 101 => ⟨S_, .f32⟩
  | 102 => ⟨S100000, .f32⟩
  | 103 => ⟨S500000x1, .i32⟩
  | 104 => ⟨S100000, .f32⟩
  | 105 => ⟨S_, .f32⟩
  | 106 => ⟨S100000, .f32⟩
  | 107 => ⟨S100000, .f32⟩
  | 108 => ⟨S100000x1, .f32⟩
  | 109 => ⟨S100000x256, .f32⟩
  | 110 => ⟨S100000x256, .f32⟩
  | 111 => ⟨S100000x128, .f32⟩
  | 112 => ⟨S1x128, .f32⟩
  | 113 => ⟨S100000x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S100000x256, .f32⟩
  | 120 => ⟨S100000x128, .f32⟩
  | 121 => ⟨S1x128, .f32⟩
  | 122 => ⟨S100000x128, .f32⟩
  | 123 => ⟨S100000x128, .f32⟩
  | 124 => ⟨S_, .f32⟩
  | 125 => ⟨S128, .f32⟩
  | 126 => ⟨S_, .f32⟩
  | 127 => ⟨S128, .f32⟩
  | _ => ⟨S100000x256, .f32⟩

abbrev hbmTy0_1 (i : Nat) : BufTy := match i % 128 with
  | 0 => ⟨S128, .f32⟩
  | 1 => ⟨S_, .i32⟩
  | 2 => ⟨S_, .f32⟩
  | 3 => ⟨S128, .f32⟩
  | 4 => ⟨S1x128, .f32⟩
  | 5 => ⟨S_, .f32⟩
  | 6 => ⟨S1x128, .f32⟩
  | 7 => ⟨S1x128, .f32⟩
  | 8 => ⟨S100000x128, .f32⟩
  | 9 => ⟨S100000x128, .f32⟩
  | 10 => ⟨S100000x128, .f32⟩
  | 11 => ⟨S_, .f32⟩
  | 12 => ⟨S_, .f32⟩
  | 13 => ⟨S_, .f32⟩
  | 14 => ⟨S_, .f32⟩
  | 15 => ⟨S128, .f32⟩
  | 16 => ⟨S128, .f32⟩
  | 17 => ⟨S128, .f32⟩
  | 18 => ⟨S_, .f32⟩
  | 19 => ⟨S_, .i1⟩
  | 20 => ⟨S_, .f32⟩
  | 21 => ⟨S_, .f32⟩
  | 22 => ⟨S128, .f32⟩
  | 23 => ⟨S128, .f32⟩
  | 24 => ⟨S1x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S_, .f32⟩
  | 31 => ⟨S128, .f32⟩
  | 32 => ⟨S128, .f32⟩
  | 33 => ⟨S128, .f32⟩
  | 34 => ⟨S1x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S_, .f32⟩
  | 41 => ⟨S100000x128, .f32⟩
  | 42 => ⟨S100000x128, .i1⟩
  | 43 => ⟨S_, .f32⟩
  | 44 => ⟨S100000x128, .f32⟩
  | 45 => ⟨S100000x128, .f32⟩
  | 46 => ⟨S100000x128, .f32⟩
  | 47 => ⟨S_, .f32⟩
  | 48 => ⟨S128, .f32⟩
  | 49 => ⟨S_, .f32⟩
  | 50 => ⟨S128, .f32⟩
  | 51 => ⟨S128, .f32⟩
  | 52 => ⟨S_, .i32⟩
  | 53 => ⟨S_, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S100000x128, .f32⟩
  | 60 => ⟨S100000x128, .f32⟩
  | 61 => ⟨S100000x128, .f32⟩
  | 62 => ⟨S_, .f32⟩
  | 63 => ⟨S_, .f32⟩
  | 64 => ⟨S_, .f32⟩
  | 65 => ⟨S_, .f32⟩
  | 66 => ⟨S128, .f32⟩
  | 67 => ⟨S128, .f32⟩
  | 68 => ⟨S128, .f32⟩
  | 69 => ⟨S_, .f32⟩
  | 70 => ⟨S_, .i1⟩
  | 71 => ⟨S_, .f32⟩
  | 72 => ⟨S_, .f32⟩
  | 73 => ⟨S128, .f32⟩
  | 74 => ⟨S128, .f32⟩
  | 75 => ⟨S1x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S128, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S100000x128, .f32⟩
  | 93 => ⟨S100000x128, .i1⟩
  | 94 => ⟨S_, .f32⟩
  | 95 => ⟨S100000x128, .f32⟩
  | 96 => ⟨S100000x128, .f32⟩
  | 97 => ⟨S100000x128, .f32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S500000x128, .f32⟩
  | 107 => ⟨S_, .f32⟩
  | 108 => ⟨S100000x128, .f32⟩
  | 109 => ⟨S500000x1, .i32⟩
  | 110 => ⟨S100000x128, .f32⟩
  | 111 => ⟨S_, .f32⟩
  | 112 => ⟨S500000, .f32⟩
  | 113 => ⟨S_, .f32⟩
  | 114 => ⟨S100000, .f32⟩
  | 115 => ⟨S500000x1, .i32⟩
  | 116 => ⟨S100000, .f32⟩
  | 117 => ⟨S_, .f32⟩
  | 118 => ⟨S100000, .f32⟩
  | 119 => ⟨S100000, .f32⟩
  | 120 => ⟨S100000x1, .f32⟩
  | 121 => ⟨S100000x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S100000x128, .f32⟩
  | _ => ⟨S100000x256, .f32⟩

abbrev hbmTy0_2 (i : Nat) : BufTy := match i % 128 with
  | 0 => ⟨S1x128, .f32⟩
  | 1 => ⟨S100000x128, .f32⟩
  | 2 => ⟨S100000x128, .f32⟩
  | 3 => ⟨S100000x256, .f32⟩
  | 4 => ⟨S100000x128, .f32⟩
  | 5 => ⟨S1x128, .f32⟩
  | 6 => ⟨S100000x128, .f32⟩
  | 7 => ⟨S100000x128, .f32⟩
  | 8 => ⟨S_, .i32⟩
  | 9 => ⟨S500000, .i32⟩
  | 10 => ⟨S500000, .i1⟩
  | 11 => ⟨S_, .i32⟩
  | 12 => ⟨S500000, .i32⟩
  | 13 => ⟨S500000, .i32⟩
  | 14 => ⟨S500000, .i32⟩
  | 15 => ⟨S500000x1, .i32⟩
  | 16 => ⟨S500000x128, .f32⟩
  | 17 => ⟨S_, .f32⟩
  | 18 => ⟨S100000x128, .f32⟩
  | 19 => ⟨S500000x1, .i32⟩
  | 20 => ⟨S100000x128, .f32⟩
  | 21 => ⟨S_, .f32⟩
  | 22 => ⟨S500000, .f32⟩
  | 23 => ⟨S_, .f32⟩
  | 24 => ⟨S100000, .f32⟩
  | 25 => ⟨S500000x1, .i32⟩
  | 26 => ⟨S100000, .f32⟩
  | 27 => ⟨S_, .f32⟩
  | 28 => ⟨S100000, .f32⟩
  | 29 => ⟨S100000, .f32⟩
  | 30 => ⟨S100000x1, .f32⟩
  | 31 => ⟨S100000x128, .f32⟩
  | 32 => ⟨S100000x128, .f32⟩
  | 33 => ⟨S100000x128, .f32⟩
  | 34 => ⟨S1x128, .f32⟩
  | 35 => ⟨S100000x128, .f32⟩
  | 36 => ⟨S100000x128, .f32⟩
  | 37 => ⟨S100000x128, .f32⟩
  | 38 => ⟨S1x128, .f32⟩
  | 39 => ⟨S100000x128, .f32⟩
  | 40 => ⟨S100000x128, .f32⟩
  | 41 => ⟨S100000x256, .f32⟩
  | 42 => ⟨S100000x128, .f32⟩
  | 43 => ⟨S1x128, .f32⟩
  | 44 => ⟨S100000x128, .f32⟩
  | 45 => ⟨S100000x128, .f32⟩
  | 46 => ⟨S_, .f32⟩
  | 47 => ⟨S128, .f32⟩
  | 48 => ⟨S_, .f32⟩
  | 49 => ⟨S128, .f32⟩
  | 50 => ⟨S128, .f32⟩
  | 51 => ⟨S_, .i32⟩
  | 52 => ⟨S_, .f32⟩
  | 53 => ⟨S128, .f32⟩
  | 54 => ⟨S1x128, .f32⟩
  | 55 => ⟨S_, .f32⟩
  | 56 => ⟨S1x128, .f32⟩
  | 57 => ⟨S1x128, .f32⟩
  | 58 => ⟨S100000x128, .f32⟩
  | 59 => ⟨S100000x128, .f32⟩
  | 60 => ⟨S100000x128, .f32⟩
  | 61 => ⟨S_, .f32⟩
  | 62 => ⟨S_, .f32⟩
  | 63 => ⟨S_, .f32⟩
  | 64 => ⟨S_, .f32⟩
  | 65 => ⟨S128, .f32⟩
  | 66 => ⟨S128, .f32⟩
  | 67 => ⟨S128, .f32⟩
  | 68 => ⟨S_, .f32⟩
  | 69 => ⟨S_, .i1⟩
  | 70 => ⟨S_, .f32⟩
  | 71 => ⟨S_, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S128, .f32⟩
  | 82 => ⟨S128, .f32⟩
  | 83 => ⟨S128, .f32⟩
  | 84 => ⟨S1x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .i1⟩
  | 93 => ⟨S_, .f32⟩
  | 94 => ⟨S100000x128, .f32⟩
  | 95 => ⟨S100000x128, .f32⟩
  | 96 => ⟨S100000x128, .f32⟩
  | 97 => ⟨S_, .f32⟩
  | 98 => ⟨S128, .f32⟩
  | 99 => ⟨S_, .f32⟩
  | 100 => ⟨S128, .f32⟩
  | 101 => ⟨S128, .f32⟩
  | 102 => ⟨S_, .i32⟩
  | 103 => ⟨S_, .f32⟩
  | 104 => ⟨S128, .f32⟩
  | 105 => ⟨S1x128, .f32⟩
  | 106 => ⟨S_, .f32⟩
  | 107 => ⟨S1x128, .f32⟩
  | 108 => ⟨S1x128, .f32⟩
  | 109 => ⟨S100000x128, .f32⟩
  | 110 => ⟨S100000x128, .f32⟩
  | 111 => ⟨S100000x128, .f32⟩
  | 112 => ⟨S_, .f32⟩
  | 113 => ⟨S_, .f32⟩
  | 114 => ⟨S_, .f32⟩
  | 115 => ⟨S_, .f32⟩
  | 116 => ⟨S128, .f32⟩
  | 117 => ⟨S128, .f32⟩
  | 118 => ⟨S128, .f32⟩
  | 119 => ⟨S_, .f32⟩
  | 120 => ⟨S_, .i1⟩
  | 121 => ⟨S_, .f32⟩
  | 122 => ⟨S_, .f32⟩
  | 123 => ⟨S128, .f32⟩
  | 124 => ⟨S128, .f32⟩
  | 125 => ⟨S1x128, .f32⟩
  | 126 => ⟨S100000x128, .f32⟩
  | 127 => ⟨S100000x128, .f32⟩
  | _ => ⟨S100000x256, .f32⟩

abbrev hbmTy0_3 (i : Nat) : BufTy := match i % 128 with
  | 0 => ⟨S1x128, .f32⟩
  | 1 => ⟨S100000x128, .f32⟩
  | 2 => ⟨S100000x128, .f32⟩
  | 3 => ⟨S_, .f32⟩
  | 4 => ⟨S128, .f32⟩
  | 5 => ⟨S128, .f32⟩
  | 6 => ⟨S128, .f32⟩
  | 7 => ⟨S1x128, .f32⟩
  | 8 => ⟨S100000x128, .f32⟩
  | 9 => ⟨S100000x128, .f32⟩
  | 10 => ⟨S1x128, .f32⟩
  | 11 => ⟨S100000x128, .f32⟩
  | 12 => ⟨S100000x128, .f32⟩
  | 13 => ⟨S_, .f32⟩
  | 14 => ⟨S100000x128, .f32⟩
  | 15 => ⟨S100000x128, .i1⟩
  | 16 => ⟨S_, .f32⟩
  | 17 => ⟨S100000x128, .f32⟩
  | 18 => ⟨S100000x128, .f32⟩
  | 19 => ⟨S100000x128, .f32⟩
  | 20 => ⟨S100000x4, .f32⟩
  | 21 => ⟨S1x4, .f32⟩
  | 22 => ⟨S100000x4, .f32⟩
  | 23 => ⟨S100000x4, .f32⟩
  | 24 => ⟨S100000x7, .f32⟩
  | 25 => ⟨S1x7, .f32⟩
  | 26 => ⟨S100000x7, .f32⟩
  | 27 => ⟨S100000x7, .f32⟩
  | _ => ⟨S100000x256, .f32⟩

abbrev hbmTy (i : Nat) : BufTy := match i / 128 with
  | 0 => hbmTy0_0 i
  | 1 => hbmTy0_1 i
  | 2 => hbmTy0_2 i
  | 3 => hbmTy0_3 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_c : Ref sig .tc := ⟨.hbm, 48, rfl⟩
abbrev main_v8 : Ref sig .tc := ⟨.hbm, 49, rfl⟩
abbrev main_v9 : Ref sig .tc := ⟨.hbm, 50, rfl⟩
abbrev main_c_0 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_cst : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_cst_1 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_cst_3 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_c_4 : Ref sig .tc := ⟨.hbm, 86, rfl⟩
abbrev main_v40 : Ref sig .tc := ⟨.hbm, 87, rfl⟩
abbrev main_v41 : Ref sig .tc := ⟨.hbm, 88, rfl⟩
abbrev main_c_5 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_cst_6 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_cst_7 : Ref sig .tc := ⟨.hbm, 99, rfl⟩
abbrev main_v50 : Ref sig .tc := ⟨.hbm, 100, rfl⟩
abbrev main_cst_8 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_cst_9 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_10 : Ref sig .tc := ⟨.hbm, 124, rfl⟩
abbrev main_v72 : Ref sig .tc := ⟨.hbm, 125, rfl⟩
abbrev main_cst_11 : Ref sig .tc := ⟨.hbm, 126, rfl⟩
abbrev main_v73 : Ref sig .tc := ⟨.hbm, 127, rfl⟩
abbrev main_v74 : Ref sig .tc := ⟨.hbm, 128, rfl⟩
abbrev main_c_12 : Ref sig .tc := ⟨.hbm, 129, rfl⟩
abbrev main_call0_cst : Ref sig .tc := ⟨.hbm, 130, rfl⟩
abbrev main_call0_v0 : Ref sig .tc := ⟨.hbm, 131, rfl⟩
abbrev main_call0_v1 : Ref sig .tc := ⟨.hbm, 132, rfl⟩
abbrev main_call0_cst_0 : Ref sig .tc := ⟨.hbm, 133, rfl⟩
abbrev main_call0_v2 : Ref sig .tc := ⟨.hbm, 134, rfl⟩
abbrev main_call0_v3 : Ref sig .tc := ⟨.hbm, 135, rfl⟩
abbrev main_call0_v4 : Ref sig .tc := ⟨.hbm, 136, rfl⟩
abbrev main_call0_v5 : Ref sig .tc := ⟨.hbm, 137, rfl⟩
abbrev main_call0_v6 : Ref sig .tc := ⟨.hbm, 138, rfl⟩
abbrev main_call0_v7 : Ref sig .tc := ⟨.hbm, 139, rfl⟩
abbrev main_call0_cst_1 : Ref sig .tc := ⟨.hbm, 140, rfl⟩
abbrev main_call0_v8 : Ref sig .tc := ⟨.hbm, 141, rfl⟩
abbrev main_call0_cst_2 : Ref sig .tc := ⟨.hbm, 142, rfl⟩
abbrev main_call0_v9 : Ref sig .tc := ⟨.hbm, 143, rfl⟩
abbrev main_call0_v10 : Ref sig .tc := ⟨.hbm, 144, rfl⟩
abbrev main_call0_v11 : Ref sig .tc := ⟨.hbm, 145, rfl⟩
abbrev main_call0_cst_3 : Ref sig .tc := ⟨.hbm, 146, rfl⟩
abbrev main_call0_v12 : Ref sig .tc := ⟨.hbm, 147, rfl⟩
abbrev main_call0_cst_4 : Ref sig .tc := ⟨.hbm, 148, rfl⟩
abbrev main_call0_call0_v0 : Ref sig .tc := ⟨.hbm, 149, rfl⟩
abbrev main_call0_call0_v1 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_cst_13 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_cst_14 : Ref sig .tc := ⟨.hbm, 168, rfl⟩
abbrev main_v91 : Ref sig .tc := ⟨.hbm, 169, rfl⟩
abbrev main_v92 : Ref sig .tc := ⟨.hbm, 170, rfl⟩
abbrev main_cst_15 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_cst_16 : Ref sig .tc := ⟨.hbm, 175, rfl⟩
abbrev main_v96 : Ref sig .tc := ⟨.hbm, 176, rfl⟩
abbrev main_cst_17 : Ref sig .tc := ⟨.hbm, 177, rfl⟩
abbrev main_v97 : Ref sig .tc := ⟨.hbm, 178, rfl⟩
abbrev main_v98 : Ref sig .tc := ⟨.hbm, 179, rfl⟩
abbrev main_c_18 : Ref sig .tc := ⟨.hbm, 180, rfl⟩
abbrev main_call2_cst : Ref sig .tc := ⟨.hbm, 181, rfl⟩
abbrev main_call2_v0 : Ref sig .tc := ⟨.hbm, 182, rfl⟩
abbrev main_call2_v1 : Ref sig .tc := ⟨.hbm, 183, rfl⟩
abbrev main_call2_cst_0 : Ref sig .tc := ⟨.hbm, 184, rfl⟩
abbrev main_call2_v2 : Ref sig .tc := ⟨.hbm, 185, rfl⟩
abbrev main_call2_v3 : Ref sig .tc := ⟨.hbm, 186, rfl⟩
abbrev main_call2_v4 : Ref sig .tc := ⟨.hbm, 187, rfl⟩
abbrev main_call2_v5 : Ref sig .tc := ⟨.hbm, 188, rfl⟩
abbrev main_call2_v6 : Ref sig .tc := ⟨.hbm, 189, rfl⟩
abbrev main_call2_v7 : Ref sig .tc := ⟨.hbm, 190, rfl⟩
abbrev main_call2_cst_1 : Ref sig .tc := ⟨.hbm, 191, rfl⟩
abbrev main_call2_v8 : Ref sig .tc := ⟨.hbm, 192, rfl⟩
abbrev main_call2_cst_2 : Ref sig .tc := ⟨.hbm, 193, rfl⟩
abbrev main_call2_v9 : Ref sig .tc := ⟨.hbm, 194, rfl⟩
abbrev main_call2_v10 : Ref sig .tc := ⟨.hbm, 195, rfl⟩
abbrev main_call2_v11 : Ref sig .tc := ⟨.hbm, 196, rfl⟩
abbrev main_call2_cst_3 : Ref sig .tc := ⟨.hbm, 197, rfl⟩
abbrev main_call2_v12 : Ref sig .tc := ⟨.hbm, 198, rfl⟩
abbrev main_call2_cst_4 : Ref sig .tc := ⟨.hbm, 199, rfl⟩
abbrev main_call2_call0_v0 : Ref sig .tc := ⟨.hbm, 200, rfl⟩
abbrev main_call2_call0_v1 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_v105 : Ref sig .tc := ⟨.hbm, 208, rfl⟩
abbrev main_cst_19 : Ref sig .tc := ⟨.hbm, 209, rfl⟩
abbrev main_v106 : Ref sig .tc := ⟨.hbm, 210, rfl⟩
abbrev main_v107 : Ref sig .tc := ⟨.hbm, 211, rfl⟩
abbrev main_v108 : Ref sig .tc := ⟨.hbm, 212, rfl⟩
abbrev main_v109 : Ref sig .tc := ⟨.hbm, 213, rfl⟩
abbrev main_v110 : Ref sig .tc := ⟨.hbm, 214, rfl⟩
abbrev main_v111 : Ref sig .tc := ⟨.hbm, 215, rfl⟩
abbrev main_v112 : Ref sig .tc := ⟨.hbm, 216, rfl⟩
abbrev main_v113 : Ref sig .tc := ⟨.hbm, 217, rfl⟩
abbrev main_v114 : Ref sig .tc := ⟨.hbm, 218, rfl⟩
abbrev main_cst_20 : Ref sig .tc := ⟨.hbm, 219, rfl⟩
abbrev main_v115 : Ref sig .tc := ⟨.hbm, 220, rfl⟩
abbrev main_v116 : Ref sig .tc := ⟨.hbm, 221, rfl⟩
abbrev main_cst_21 : Ref sig .tc := ⟨.hbm, 222, rfl⟩
abbrev main_v117 : Ref sig .tc := ⟨.hbm, 223, rfl⟩
abbrev main_v118 : Ref sig .tc := ⟨.hbm, 224, rfl⟩
abbrev main_v119 : Ref sig .tc := ⟨.hbm, 225, rfl⟩
abbrev main_c_22 : Ref sig .tc := ⟨.hbm, 226, rfl⟩
abbrev main_v120 : Ref sig .tc := ⟨.hbm, 227, rfl⟩
abbrev main_v121 : Ref sig .tc := ⟨.hbm, 228, rfl⟩
abbrev main_c_23 : Ref sig .tc := ⟨.hbm, 229, rfl⟩
abbrev main_v122 : Ref sig .tc := ⟨.hbm, 230, rfl⟩
abbrev main_v123 : Ref sig .tc := ⟨.hbm, 231, rfl⟩
abbrev main_v124 : Ref sig .tc := ⟨.hbm, 232, rfl⟩
abbrev main_v125 : Ref sig .tc := ⟨.hbm, 233, rfl⟩
abbrev main_v126 : Ref sig .tc := ⟨.hbm, 234, rfl⟩
abbrev main_cst_24 : Ref sig .tc := ⟨.hbm, 235, rfl⟩
abbrev main_v127 : Ref sig .tc := ⟨.hbm, 236, rfl⟩
abbrev main_v128 : Ref sig .tc := ⟨.hbm, 237, rfl⟩
abbrev main_v129 : Ref sig .tc := ⟨.hbm, 238, rfl⟩
abbrev main_cst_25 : Ref sig .tc := ⟨.hbm, 239, rfl⟩
abbrev main_v130 : Ref sig .tc := ⟨.hbm, 240, rfl⟩
abbrev main_cst_26 : Ref sig .tc := ⟨.hbm, 241, rfl⟩
abbrev main_v131 : Ref sig .tc := ⟨.hbm, 242, rfl⟩
abbrev main_v132 : Ref sig .tc := ⟨.hbm, 243, rfl⟩
abbrev main_v133 : Ref sig .tc := ⟨.hbm, 244, rfl⟩
abbrev main_cst_27 : Ref sig .tc := ⟨.hbm, 245, rfl⟩
abbrev main_v134 : Ref sig .tc := ⟨.hbm, 246, rfl⟩
abbrev main_v135 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_v139 : Ref sig .tc := ⟨.hbm, 251, rfl⟩
abbrev main_v140 : Ref sig .tc := ⟨.hbm, 252, rfl⟩
abbrev main_v141 : Ref sig .tc := ⟨.hbm, 253, rfl⟩
abbrev main_v142 : Ref sig .tc := ⟨.hbm, 254, rfl⟩
abbrev main_v143 : Ref sig .tc := ⟨.hbm, 255, rfl⟩
abbrev main_v144 : Ref sig .tc := ⟨.hbm, 256, rfl⟩
abbrev main_v145 : Ref sig .tc := ⟨.hbm, 257, rfl⟩
abbrev main_v146 : Ref sig .tc := ⟨.hbm, 258, rfl⟩
abbrev main_v147 : Ref sig .tc := ⟨.hbm, 259, rfl⟩
abbrev main_v148 : Ref sig .tc := ⟨.hbm, 260, rfl⟩
abbrev main_v149 : Ref sig .tc := ⟨.hbm, 261, rfl⟩
abbrev main_v150 : Ref sig .tc := ⟨.hbm, 262, rfl⟩
abbrev main_v151 : Ref sig .tc := ⟨.hbm, 263, rfl⟩
abbrev main_c_28 : Ref sig .tc := ⟨.hbm, 264, rfl⟩
abbrev main_v152 : Ref sig .tc := ⟨.hbm, 265, rfl⟩
abbrev main_v153 : Ref sig .tc := ⟨.hbm, 266, rfl⟩
abbrev main_c_29 : Ref sig .tc := ⟨.hbm, 267, rfl⟩
abbrev main_v154 : Ref sig .tc := ⟨.hbm, 268, rfl⟩
abbrev main_v155 : Ref sig .tc := ⟨.hbm, 269, rfl⟩
abbrev main_v156 : Ref sig .tc := ⟨.hbm, 270, rfl⟩
abbrev main_v157 : Ref sig .tc := ⟨.hbm, 271, rfl⟩
abbrev main_v158 : Ref sig .tc := ⟨.hbm, 272, rfl⟩
abbrev main_cst_30 : Ref sig .tc := ⟨.hbm, 273, rfl⟩
abbrev main_v159 : Ref sig .tc := ⟨.hbm, 274, rfl⟩
abbrev main_v160 : Ref sig .tc := ⟨.hbm, 275, rfl⟩
abbrev main_v161 : Ref sig .tc := ⟨.hbm, 276, rfl⟩
abbrev main_cst_31 : Ref sig .tc := ⟨.hbm, 277, rfl⟩
abbrev main_v162 : Ref sig .tc := ⟨.hbm, 278, rfl⟩
abbrev main_cst_32 : Ref sig .tc := ⟨.hbm, 279, rfl⟩
abbrev main_v163 : Ref sig .tc := ⟨.hbm, 280, rfl⟩
abbrev main_v164 : Ref sig .tc := ⟨.hbm, 281, rfl⟩
abbrev main_v165 : Ref sig .tc := ⟨.hbm, 282, rfl⟩
abbrev main_cst_33 : Ref sig .tc := ⟨.hbm, 283, rfl⟩
abbrev main_v166 : Ref sig .tc := ⟨.hbm, 284, rfl⟩
abbrev main_v167 : Ref sig .tc := ⟨.hbm, 285, rfl⟩
abbrev main_v168 : Ref sig .tc := ⟨.hbm, 286, rfl⟩
abbrev main_v169 : Ref sig .tc := ⟨.hbm, 287, rfl⟩
abbrev main_v170 : Ref sig .tc := ⟨.hbm, 288, rfl⟩
abbrev main_v171 : Ref sig .tc := ⟨.hbm, 289, rfl⟩
abbrev main_v172 : Ref sig .tc := ⟨.hbm, 290, rfl⟩
abbrev main_v173 : Ref sig .tc := ⟨.hbm, 291, rfl⟩
abbrev main_v174 : Ref sig .tc := ⟨.hbm, 292, rfl⟩
abbrev main_v175 : Ref sig .tc := ⟨.hbm, 293, rfl⟩
abbrev main_v176 : Ref sig .tc := ⟨.hbm, 294, rfl⟩
abbrev main_v177 : Ref sig .tc := ⟨.hbm, 295, rfl⟩
abbrev main_v178 : Ref sig .tc := ⟨.hbm, 296, rfl⟩
abbrev main_v179 : Ref sig .tc := ⟨.hbm, 297, rfl⟩
abbrev main_v180 : Ref sig .tc := ⟨.hbm, 298, rfl⟩
abbrev main_v181 : Ref sig .tc := ⟨.hbm, 299, rfl⟩
abbrev main_v182 : Ref sig .tc := ⟨.hbm, 300, rfl⟩
abbrev main_v183 : Ref sig .tc := ⟨.hbm, 301, rfl⟩
abbrev main_cst_34 : Ref sig .tc := ⟨.hbm, 302, rfl⟩
abbrev main_v184 : Ref sig .tc := ⟨.hbm, 303, rfl⟩
abbrev main_cst_35 : Ref sig .tc := ⟨.hbm, 304, rfl⟩
abbrev main_v185 : Ref sig .tc := ⟨.hbm, 305, rfl⟩
abbrev main_v186 : Ref sig .tc := ⟨.hbm, 306, rfl⟩
abbrev main_c_36 : Ref sig .tc := ⟨.hbm, 307, rfl⟩
abbrev main_call4_cst : Ref sig .tc := ⟨.hbm, 308, rfl⟩
abbrev main_call4_v0 : Ref sig .tc := ⟨.hbm, 309, rfl⟩
abbrev main_call4_v1 : Ref sig .tc := ⟨.hbm, 310, rfl⟩
abbrev main_call4_cst_0 : Ref sig .tc := ⟨.hbm, 311, rfl⟩
abbrev main_call4_v2 : Ref sig .tc := ⟨.hbm, 312, rfl⟩
abbrev main_call4_v3 : Ref sig .tc := ⟨.hbm, 313, rfl⟩
abbrev main_call4_v4 : Ref sig .tc := ⟨.hbm, 314, rfl⟩
abbrev main_call4_v5 : Ref sig .tc := ⟨.hbm, 315, rfl⟩
abbrev main_call4_v6 : Ref sig .tc := ⟨.hbm, 316, rfl⟩
abbrev main_call4_v7 : Ref sig .tc := ⟨.hbm, 317, rfl⟩
abbrev main_call4_cst_1 : Ref sig .tc := ⟨.hbm, 318, rfl⟩
abbrev main_call4_v8 : Ref sig .tc := ⟨.hbm, 319, rfl⟩
abbrev main_call4_cst_2 : Ref sig .tc := ⟨.hbm, 320, rfl⟩
abbrev main_call4_v9 : Ref sig .tc := ⟨.hbm, 321, rfl⟩
abbrev main_call4_v10 : Ref sig .tc := ⟨.hbm, 322, rfl⟩
abbrev main_call4_v11 : Ref sig .tc := ⟨.hbm, 323, rfl⟩
abbrev main_call4_cst_3 : Ref sig .tc := ⟨.hbm, 324, rfl⟩
abbrev main_call4_v12 : Ref sig .tc := ⟨.hbm, 325, rfl⟩
abbrev main_call4_cst_4 : Ref sig .tc := ⟨.hbm, 326, rfl⟩
abbrev main_call4_call0_v0 : Ref sig .tc := ⟨.hbm, 327, rfl⟩
abbrev main_call4_call0_v1 : Ref sig .tc := ⟨.hbm, 328, rfl⟩
abbrev main_v187 : Ref sig .tc := ⟨.hbm, 329, rfl⟩
abbrev main_v188 : Ref sig .tc := ⟨.hbm, 330, rfl⟩
abbrev main_v189 : Ref sig .tc := ⟨.hbm, 331, rfl⟩
abbrev main_v190 : Ref sig .tc := ⟨.hbm, 332, rfl⟩
abbrev main_v191 : Ref sig .tc := ⟨.hbm, 333, rfl⟩
abbrev main_v192 : Ref sig .tc := ⟨.hbm, 334, rfl⟩
abbrev main_v193 : Ref sig .tc := ⟨.hbm, 335, rfl⟩
abbrev main_cst_37 : Ref sig .tc := ⟨.hbm, 336, rfl⟩
abbrev main_v194 : Ref sig .tc := ⟨.hbm, 337, rfl⟩
abbrev main_v195 : Ref sig .tc := ⟨.hbm, 338, rfl⟩
abbrev main_v196 : Ref sig .tc := ⟨.hbm, 339, rfl⟩
abbrev main_v197 : Ref sig .tc := ⟨.hbm, 340, rfl⟩
abbrev main_v198 : Ref sig .tc := ⟨.hbm, 341, rfl⟩
abbrev main_v199 : Ref sig .tc := ⟨.hbm, 342, rfl⟩
abbrev main_v200 : Ref sig .tc := ⟨.hbm, 343, rfl⟩
abbrev main_v201 : Ref sig .tc := ⟨.hbm, 344, rfl⟩
abbrev main_v202 : Ref sig .tc := ⟨.hbm, 345, rfl⟩
abbrev main_cst_38 : Ref sig .tc := ⟨.hbm, 346, rfl⟩
abbrev main_v203 : Ref sig .tc := ⟨.hbm, 347, rfl⟩
abbrev main_v204 : Ref sig .tc := ⟨.hbm, 348, rfl⟩
abbrev main_cst_39 : Ref sig .tc := ⟨.hbm, 349, rfl⟩
abbrev main_v205 : Ref sig .tc := ⟨.hbm, 350, rfl⟩
abbrev main_v206 : Ref sig .tc := ⟨.hbm, 351, rfl⟩
abbrev main_v207 : Ref sig .tc := ⟨.hbm, 352, rfl⟩
abbrev main_cst_40 : Ref sig .tc := ⟨.hbm, 353, rfl⟩
abbrev main_v208 : Ref sig .tc := ⟨.hbm, 354, rfl⟩
abbrev main_cst_41 : Ref sig .tc := ⟨.hbm, 355, rfl⟩
abbrev main_v209 : Ref sig .tc := ⟨.hbm, 356, rfl⟩
abbrev main_v210 : Ref sig .tc := ⟨.hbm, 357, rfl⟩
abbrev main_c_42 : Ref sig .tc := ⟨.hbm, 358, rfl⟩
abbrev main_call6_cst : Ref sig .tc := ⟨.hbm, 359, rfl⟩
abbrev main_call6_v0 : Ref sig .tc := ⟨.hbm, 360, rfl⟩
abbrev main_call6_v1 : Ref sig .tc := ⟨.hbm, 361, rfl⟩
abbrev main_call6_cst_0 : Ref sig .tc := ⟨.hbm, 362, rfl⟩
abbrev main_call6_v2 : Ref sig .tc := ⟨.hbm, 363, rfl⟩
abbrev main_call6_v3 : Ref sig .tc := ⟨.hbm, 364, rfl⟩
abbrev main_call6_v4 : Ref sig .tc := ⟨.hbm, 365, rfl⟩
abbrev main_call6_v5 : Ref sig .tc := ⟨.hbm, 366, rfl⟩
abbrev main_call6_v6 : Ref sig .tc := ⟨.hbm, 367, rfl⟩
abbrev main_call6_v7 : Ref sig .tc := ⟨.hbm, 368, rfl⟩
abbrev main_call6_cst_1 : Ref sig .tc := ⟨.hbm, 369, rfl⟩
abbrev main_call6_v8 : Ref sig .tc := ⟨.hbm, 370, rfl⟩
abbrev main_call6_cst_2 : Ref sig .tc := ⟨.hbm, 371, rfl⟩
abbrev main_call6_v9 : Ref sig .tc := ⟨.hbm, 372, rfl⟩
abbrev main_call6_v10 : Ref sig .tc := ⟨.hbm, 373, rfl⟩
abbrev main_call6_v11 : Ref sig .tc := ⟨.hbm, 374, rfl⟩
abbrev main_call6_cst_3 : Ref sig .tc := ⟨.hbm, 375, rfl⟩
abbrev main_call6_v12 : Ref sig .tc := ⟨.hbm, 376, rfl⟩
abbrev main_call6_cst_4 : Ref sig .tc := ⟨.hbm, 377, rfl⟩
abbrev main_call6_call0_v0 : Ref sig .tc := ⟨.hbm, 378, rfl⟩
abbrev main_call6_call0_v1 : Ref sig .tc := ⟨.hbm, 379, rfl⟩
abbrev main_v211 : Ref sig .tc := ⟨.hbm, 380, rfl⟩
abbrev main_v212 : Ref sig .tc := ⟨.hbm, 381, rfl⟩
abbrev main_v213 : Ref sig .tc := ⟨.hbm, 382, rfl⟩
abbrev main_v214 : Ref sig .tc := ⟨.hbm, 383, rfl⟩
abbrev main_v215 : Ref sig .tc := ⟨.hbm, 384, rfl⟩
abbrev main_v216 : Ref sig .tc := ⟨.hbm, 385, rfl⟩
abbrev main_v217 : Ref sig .tc := ⟨.hbm, 386, rfl⟩
abbrev main_cst_43 : Ref sig .tc := ⟨.hbm, 387, rfl⟩
abbrev main_v218 : Ref sig .tc := ⟨.hbm, 388, rfl⟩
abbrev main_v219 : Ref sig .tc := ⟨.hbm, 389, rfl⟩
abbrev main_v220 : Ref sig .tc := ⟨.hbm, 390, rfl⟩
abbrev main_v221 : Ref sig .tc := ⟨.hbm, 391, rfl⟩
abbrev main_v222 : Ref sig .tc := ⟨.hbm, 392, rfl⟩
abbrev main_v223 : Ref sig .tc := ⟨.hbm, 393, rfl⟩
abbrev main_v224 : Ref sig .tc := ⟨.hbm, 394, rfl⟩
abbrev main_v225 : Ref sig .tc := ⟨.hbm, 395, rfl⟩
abbrev main_v226 : Ref sig .tc := ⟨.hbm, 396, rfl⟩
abbrev main_cst_44 : Ref sig .tc := ⟨.hbm, 397, rfl⟩
abbrev main_v227 : Ref sig .tc := ⟨.hbm, 398, rfl⟩
abbrev main_v228 : Ref sig .tc := ⟨.hbm, 399, rfl⟩
abbrev main_cst_45 : Ref sig .tc := ⟨.hbm, 400, rfl⟩
abbrev main_v229 : Ref sig .tc := ⟨.hbm, 401, rfl⟩
abbrev main_v230 : Ref sig .tc := ⟨.hbm, 402, rfl⟩
abbrev main_v231 : Ref sig .tc := ⟨.hbm, 403, rfl⟩
abbrev main_v232 : Ref sig .tc := ⟨.hbm, 404, rfl⟩
abbrev main_v233 : Ref sig .tc := ⟨.hbm, 405, rfl⟩
abbrev main_v234 : Ref sig .tc := ⟨.hbm, 406, rfl⟩
abbrev main_v235 : Ref sig .tc := ⟨.hbm, 407, rfl⟩
abbrev main_v236 : Ref sig .tc := ⟨.hbm, 408, rfl⟩
abbrev main_v237 : Ref sig .tc := ⟨.hbm, 409, rfl⟩
abbrev main_v238 : Ref sig .tc := ⟨.hbm, 410, rfl⟩
abbrev main_v239 : Ref sig .tc := ⟨.hbm, 411, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  gather_S100000x256_S500000x1_S500000x256_1_0_n_n_0_1_1256_wf : GatherDims.WF S100000x256 S500000x1 S500000x256 [1] [0] [] [0] [] 1 ![1, 256]
  scatter_S100000x256_S500000x1_S500000x256_1_0_0_1_wf : ScatterDims.WF S100000x256 S500000x1 S500000x256 [1] [0] [0] 1
  dot_S100000x128_S128x4_S100000x4_1_0_0_1_n_n_wf : DotDims.WF S100000x128 S128x4 S100000x4 [1] [0] [0] [1] [] []
  dot_S100000x128_S128x7_S100000x7_1_0_0_1_n_n_wf : DotDims.WF S100000x128 S128x7 S100000x7 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def dot_S100000x128_S128x4_S100000x4_1_0_0_1_n_n : DotDims S100000x128 S128x4 S100000x4 where
  lhsContracting := [1]
  rhsContracting := [0]
  lhsNonContracting := [0]
  rhsNonContracting := [1]
  lhsBatch := []
  rhsBatch := []
  wf := dot_S100000x128_S128x4_S100000x4_1_0_0_1_n_n_wf
def dot_S100000x128_S128x7_S100000x7_1_0_0_1_n_n : DotDims S100000x128 S128x7 S100000x7 where
  lhsContracting := [1]
  rhsContracting := [0]
  lhsNonContracting := [0]
  rhsNonContracting := [1]
  lhsBatch := []
  rhsBatch := []
  wf := dot_S100000x128_S128x7_S100000x7_1_0_0_1_n_n_wf

class Facts : Prop extends Facts₀ where

variable [Facts]
-- ==== Proof.K.Region0.Kit.lean ====
import proofs.«154353_j88940182765819_1_alg».proof.Proof.Gen.Kernel.Launch
import proofs.«154353_j88940182765819_1_alg».proof.Proof.Gen.Kernel.Skeleton
import proofs.«154353_j88940182765819_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks

Region 0 is the fused convolution-and-statistics call: windows 0 and 1 are the two 4000-row blocks of the
destination features and of the aggregated neighbour features, windows 2..8 the resident weights and bias rows,
window 9 the 4000-row block of the result `h`, windows 10 and 11 the two [1,128] rows of column sums of `h` and of
`h*h`, which the body stores at the last grid point only. -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an input not
    fetched at a point has not moved its block index), for any proof data whose array is `V`'s and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an input not
    fetched at a point has not moved its block index), for any proof data whose array is `V`'s and whose body leaves
    the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an input not
    fetched at a point has not moved its block index), for any proof data whose array is `V`'s and whose body leaves
    the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (an input not
    fetched at a point has not moved its block index), for any proof data whose array is `V`'s and whose body leaves
    the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (an input not
    fetched at a point has not moved its block index), for any proof data whose array is `V`'s and whose body leaves
    the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (an input not
    fetched at a point has not moved its block index), for any proof data whose array is `V`'s and whose body leaves
    the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (an input not
    fetched at a point has not moved its block index), for any proof data whose array is `V`'s and whose body leaves
    the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not (an input not
    fetched at a point has not moved its block index), for any proof data whose array is `V`'s and whose body leaves
    the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not (an input not
    fetched at a point has not moved its block index), for any proof data whose array is `V`'s and whose body leaves
    the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions

The body zeroes its two accumulator rows under `i == 0` and copies them to the two row outputs under `i == 24`;
over the 25 grid points this gives three cases: the first point, the points 1..23, the last point. -/

/-- The condition of the first conditional (zero the accumulators), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The condition of the second conditional (copy the accumulators out), from the grid coordinates. -/
abbrev cond0_1 (i : grid0.Coords) : Prop := k0_cond2 i = 1#1
/-- It holds at the last point only. -/
theorem hcond0_1 : ∀ t : Fin cfg0.N, cond0_1 (grid0.coords t) ↔ t.val = 24 :=
  (by decide +kernel : ∀ t : Fin grid0.N, cond0_1 (grid0.coords t) ↔ t.val = 24)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
/-- Before the last point the body stores nothing into row output 10: the window is idle there and not written back. -/
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
/-- At the last point it is live: the body stores the accumulator row into it. -/
theorem liveAt0_10_C : ∀ t : Fin cfg0.N, cond0_1 (grid0.coords t) → cfg0.idle 10 (grid0.coords t) = false := by decide +kernel
/-- Before the last point the body stores nothing into row output 11: the window is idle there and not written back. -/
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
/-- At the last point it is live: the body stores the accumulator row into it. -/
theorem liveAt0_11_C : ∀ t : Fin cfg0.N, cond0_1 (grid0.coords t) → cfg0.idle 11 (grid0.coords t) = false := by decide +kernel

/-! ## Staging memrefs, scratch rows and the views their contents are stated through -/
abbrev ms0_0 (t : Fin cfg0.N) : Memref sig .tc .vmem S4000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4000x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
/-- The two accumulator rows: whole scoped buffers of the kernel's own, carried from one grid point to the next. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view
/-- One staging buffer of each output window, through which its contents are stated (the choice does not matter). -/
abbrev VO0_9 : View sig .tc .vmem S4000x128 .f32 := (Memref.whole cc0_stg9_0 : Memref sig .tc .vmem S4000x128 .f32).view
abbrev VO0_10 : View sig .tc .vmem S1x128 .f32 := (Memref.whole cc0_stg10_0 : Memref sig .tc .vmem S1x128 .f32).view
abbrev VO0_11 : View sig .tc .vmem S1x128 .f32 := (Memref.whole cc0_stg11_0 : Memref sig .tc .vmem S1x128 .f32).view

/-- The rest of the scoped buffers, beside the two accumulator rows: never opened. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The class invariant with the two accumulator rows as memrefs owned at some contents: what the body
    obligation hands the run at the first point and what the region gives back at the end. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA; rw [scopedRest0_split]; simp only [scM0_0, scM0_1, owns_whole]; try rfl

end Cert.Kernel.Hand

end
-- ==== Proof.K.Region0.RunA.lean ====
import proofs.«154353_j88940182765819_1_alg».proof.Proof.K.Region0.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body AT THE FIRST POINT (the accumulators zeroed first; nothing copied out), run on whole staging memrefs: the nine
    inputs at their contents `x·`, the block output's buffer at anything, the two row outputs' buffers at contents `xi·` handed back untouched (the body stores nothing into them here),
    the two accumulator rows at anything (the body overwrites them before reading). The body runs to the continuation holding the
    inputs as they were and every stored buffer with its pieces written; the pieces (last store first) are the
    witness the run finds. -/
noncomputable def kernelRun0_A (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) :
    Σ' (L9 : List (View.Piece (Elt F) S4000x128 .f32)) (LS0 : List (View.Piece (Elt F) S1x128 .f32)), { LS1 : List (View.Piece (Elt F) S1x128 .f32) //
      ∀ (xi10 xi11 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__conv_stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    haveI : Fact (cond0_0 i) := ⟨hc0⟩
    haveI : Fact (¬cond0_1 i) := ⟨hc1⟩
    simp only [cc0__conv_stats_kernel_eq_skeleton]; unfold cc0__conv_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.Kernel.Hand

end
-- ==== Proof.K.Region0.RunB.lean ====
import proofs.«154353_j88940182765819_1_alg».proof.Proof.K.Region0.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body AT THE POINTS 1..23 (neither conditional taken), run on whole staging memrefs: the nine
    inputs at their contents `x·`, the block output's buffer at anything, the two row outputs' buffers at contents `xi·` handed back untouched (the body stores nothing into them here),
    the two accumulator rows at what the point before left in them (`xs·`). The body runs to the continuation holding the
    inputs as they were and every stored buffer with its pieces written; the pieces (last store first) are the
    witness the run finds. -/
noncomputable def kernelRun0_B (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S1x128 .f32) (xs1 : Vec F S1x128 .f32) :
    Σ' (L9 : List (View.Piece (Elt F) S4000x128 .f32)) (LS0 : List (View.Piece (Elt F) S1x128 .f32)), { LS1 : List (View.Piece (Elt F) S1x128 .f32) //
      ∀ (xi10 xi11 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__conv_stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    haveI : Fact (¬cond0_0 i) := ⟨hc0⟩
    haveI : Fact (¬cond0_1 i) := ⟨hc1⟩
    simp only [cc0__conv_stats_kernel_eq_skeleton]; unfold cc0__conv_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.Kernel.Hand

end
-- ==== Proof.K.Region0.RunC.lean ====
import proofs.«154353_j88940182765819_1_alg».proof.Proof.K.Region0.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body AT THE LAST POINT (the accumulators copied to the two row outputs at the end), run on whole staging memrefs: the nine
    inputs at their contents `x·`, the block output's buffer at anything, the two row outputs' buffers at anything,
    the two accumulator rows at what the point before left in them (`xs·`). The body runs to the continuation holding the
    inputs as they were and every stored buffer with its pieces written; the pieces (last store first) are the
    witness the run finds. -/
noncomputable def kernelRun0_C (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S1x128 .f32) (xs1 : Vec F S1x128 .f32) :
    Σ' (L9 : List (View.Piece (Elt F) S4000x128 .f32)) (L10 : List (View.Piece (Elt F) S1x128 .f32)) (L11 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__conv_stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    haveI : Fact (¬cond0_0 i) := ⟨hc0⟩
    haveI : Fact (cond0_1 i) := ⟨hc1⟩
    simp only [cc0__conv_stats_kernel_eq_skeleton]; unfold cc0__conv_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.Kernel.Hand

end
-- ==== Proof.K.Region0.lean ====
import proofs.«154353_j88940182765819_1_alg».proof.Proof.K.Region0.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The three runs at a grid point

Each case's run of the body, taken at the staging memrefs the pipeline passes at point `t`, the two accumulator
rows, and the input blocks read off the arrays as the region finds them. -/

/-- The first point: the accumulators are zeroed, then the block is processed. -/
def runA0 (c : Dev nD) (t : Fin cfg0.N) (h0 : t.val = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
    ((hcond0_0 t).mpr h0) (fun h => by have h' := (hcond0_1 t).mp h; omega) (iblk0 V c 0 t) (iblk0 V c 1 t) (iblk0 V c 2 t) (iblk0 V c 3 t) (iblk0 V c 4 t) (iblk0 V c 5 t) (iblk0 V c 6 t) (iblk0 V c 7 t) (iblk0 V c 8 t)

/-- A point 1..23: the block is processed, the accumulators found at `xs·`. -/
def runB0 (c : Dev nD) (t : Fin cfg0.N) (h0 : ¬t.val = 0) (h1 : ¬t.val = 24) (xs0 xs1 : Vec F S1x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
    (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) xs0 xs1

/-- The last point: the block is processed, then the accumulators are copied to the two row outputs. -/
def runC0 (c : Dev nD) (t : Fin cfg0.N) (h0 : ¬t.val = 0) (h1 : t.val = 24) (xs0 xs1 : Vec F S1x128 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
    (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) xs0 xs1

/-! ## What each case leaves: the pieces read back, and that they cover -/

/-- A row output the body does not store into at a point: a placeholder nothing consults (the window is idle there,
    neither written back nor read at the next point). -/
def idleRow0_10 : Vec F S1x128 .f32 := VO0_10.read (Elt F) (VO0_10.writes (Elt F) VO0_10.junk [])
def idleRow0_11 : Vec F S1x128 .f32 := VO0_11.read (Elt F) (VO0_11.writes (Elt F) VO0_11.junk [])

/-- Case A's stores into the block output's staging buffer cover it (each store writes the whole buffer). -/
theorem cover_o9A0 (c : Dev nD) (t : Fin cfg0.N) (h0 : t.val = 0) (y : S4000x128.Idx) :
    ∃ pc ∈ (runA0 V c t h0).1, y ∈ pc.1.set :=
  View.cover_of_tiledL (runA0 V c t h0).1 S4000x128.size (by sl_kernel_rfl) y
/-- What case A leaves in the block output's staging buffer: its pieces read back. -/
def o9A0 (c : Dev nD) (t : Fin cfg0.N) (h0 : t.val = 0) : Vec F S4000x128 .f32 :=
  VO0_9.read (Elt F) (VO0_9.writes (Elt F) VO0_9.junk (runA0 V c t h0).1)

/-- Case A's stores into accumulator row 0 cover it (each store writes the whole buffer). -/
theorem cover_s0A0 (c : Dev nD) (t : Fin cfg0.N) (h0 : t.val = 0) (y : S1x128.Idx) :
    ∃ pc ∈ (runA0 V c t h0).2.1, y ∈ pc.1.set :=
  View.cover_of_tiledL (runA0 V c t h0).2.1 S1x128.size (by sl_kernel_rfl) y
/-- What case A leaves in accumulator row 0: its pieces read back. -/
def s0A0 (c : Dev nD) (t : Fin cfg0.N) (h0 : t.val = 0) : Vec F S1x128 .f32 :=
  VS0_0.read (Elt F) (VS0_0.writes (Elt F) VS0_0.junk (runA0 V c t h0).2.1)

/-- Case A's stores into accumulator row 1 cover it (each store writes the whole buffer). -/
theorem cover_s1A0 (c : Dev nD) (t : Fin cfg0.N) (h0 : t.val = 0) (y : S1x128.Idx) :
    ∃ pc ∈ (runA0 V c t h0).2.2.1, y ∈ pc.1.set :=
  View.cover_of_tiledL (runA0 V c t h0).2.2.1 S1x128.size (by sl_kernel_rfl) y
/-- What case A leaves in accumulator row 1: its pieces read back. -/
def s1A0 (c : Dev nD) (t : Fin cfg0.N) (h0 : t.val = 0) : Vec F S1x128 .f32 :=
  VS0_1.read (Elt F) (VS0_1.writes (Elt F) VS0_1.junk (runA0 V c t h0).2.2.1)

/-- Case B's stores into the block output's staging buffer cover it (each store writes the whole buffer). -/
theorem cover_o9B0 (c : Dev nD) (t : Fin cfg0.N) (h0 : ¬t.val = 0) (h1 : ¬t.val = 24) (xs0 xs1 : Vec F S1x128 .f32) (y : S4000x128.Idx) :
    ∃ pc ∈ (runB0 V c t h0 h1 xs0 xs1).1, y ∈ pc.1.set :=
  View.cover_of_tiledL (runB0 V c t h0 h1 xs0 xs1).1 S4000x128.size (by sl_kernel_rfl) y
/-- What case B leaves in the block output's staging buffer: its pieces read back. -/
def o9B0 (c : Dev nD) (t : Fin cfg0.N) (h0 : ¬t.val = 0) (h1 : ¬t.val = 24) (xs0 xs1 : Vec F S1x128 .f32) : Vec F S4000x128 .f32 :=
  VO0_9.read (Elt F) (VO0_9.writes (Elt F) VO0_9.junk (runB0 V c t h0 h1 xs0 xs1).1)

/-- Case B's stores into accumulator row 0 cover it (each store writes the whole buffer). -/
theorem cover_s0B0 (c : Dev nD) (t : Fin cfg0.N) (h0 : ¬t.val = 0) (h1 : ¬t.val = 24) (xs0 xs1 : Vec F S1x128 .f32) (y : S1x128.Idx) :
    ∃ pc ∈ (runB0 V c t h0 h1 xs0 xs1).2.1, y ∈ pc.1.set :=
  View.cover_of_tiledL (runB0 V c t h0 h1 xs0 xs1).2.1 S1x128.size (by sl_kernel_rfl) y
/-- What case B leaves in accumulator row 0: its pieces read back. -/
def s0B0 (c : Dev nD) (t : Fin cfg0.N) (h0 : ¬t.val = 0) (h1 : ¬t.val = 24) (xs0 xs1 : Vec F S1x128 .f32) : Vec F S1x128 .f32 :=
  VS0_0.read (Elt F) (VS0_0.writes (Elt F) VS0_0.junk (runB0 V c t h0 h1 xs0 xs1).2.1)

/-- Case B's stores into accumulator row 1 cover it (each store writes the whole buffer). -/
theorem cover_s1B0 (c : Dev nD) (t : Fin cfg0.N) (h0 : ¬t.val = 0) (h1 : ¬t.val = 24) (xs0 xs1 : Vec F S1x128 .f32) (y : S1x128.Idx) :
    ∃ pc ∈ (runB0 V c t h0 h1 xs0 xs1).2.2.1, y ∈ pc.1.set :=
  View.cover_of_tiledL (runB0 V c t h0 h1 xs0 xs1).2.2.1 S1x128.size (by sl_kernel_rfl) y
/-- What case B leaves in accumulator row 1: its pieces read back. -/
def s1B0 (c : Dev nD) (t : Fin cfg0.N) (h0 : ¬t.val = 0) (h1 : ¬t.val = 24) (xs0 xs1 : Vec F S1x128 .f32) : Vec F S1x128 .f32 :=
  VS0_1.read (Elt F) (VS0_1.writes (Elt F) VS0_1.junk (runB0 V c t h0 h1 xs0 xs1).2.2.1)

/-- Case C's stores into the block output's staging buffer cover it (each store writes the whole buffer). -/
theorem cover_o9C0 (c : Dev nD) (t : Fin cfg0.N) (h0 : ¬t.val = 0) (h1 : t.val = 24) (xs0 xs1 : Vec F S1x128 .f32) (y : S4000x128.Idx) :
    ∃ pc ∈ (runC0 V c t h0 h1 xs0 xs1).1, y ∈ pc.1.set :=
  View.cover_of_tiledL (runC0 V c t h0 h1 xs0 xs1).1 S4000x128.size (by sl_kernel_rfl) y
/-- What case C leaves in the block output's staging buffer: its pieces read back. -/
def o9C0 (c : Dev nD) (t : Fin cfg0.N) (h0 : ¬t.val = 0) (h1 : t.val = 24) (xs0 xs1 : Vec F S1x128 .f32) : Vec F S4000x128 .f32 :=
  VO0_9.read (Elt F) (VO0_9.writes (Elt F) VO0_9.junk (runC0 V c t h0 h1 xs0 xs1).1)

/-- Case C's stores into row output 10's staging buffer cover it (each store writes the whole buffer). -/
theorem cover_o10C0 (c : Dev nD) (t : Fin cfg0.N) (h0 : ¬t.val = 0) (h1 : t.val = 24) (xs0 xs1 : Vec F S1x128 .f32) (y : S1x128.Idx) :
    ∃ pc ∈ (runC0 V c t h0 h1 xs0 xs1).2.1, y ∈ pc.1.set :=
  View.cover_of_tiledL (runC0 V c t h0 h1 xs0 xs1).2.1 S1x128.size (by sl_kernel_rfl) y
/-- What case C leaves in row output 10's staging buffer: its pieces read back. -/
def o10C0 (c : Dev nD) (t : Fin cfg0.N) (h0 : ¬t.val = 0) (h1 : t.val = 24) (xs0 xs1 : Vec F S1x128 .f32) : Vec F S1x128 .f32 :=
  VO0_10.read (Elt F) (VO0_10.writes (Elt F) VO0_10.junk (runC0 V c t h0 h1 xs0 xs1).2.1)

/-- Case C's stores into row output 11's staging buffer cover it (each store writes the whole buffer). -/
theorem cover_o11C0 (c : Dev nD) (t : Fin cfg0.N) (h0 : ¬t.val = 0) (h1 : t.val = 24) (xs0 xs1 : Vec F S1x128 .f32) (y : S1x128.Idx) :
    ∃ pc ∈ (runC0 V c t h0 h1 xs0 xs1).2.2.1, y ∈ pc.1.set :=
  View.cover_of_tiledL (runC0 V c t h0 h1 xs0 xs1).2.2.1 S1x128.size (by sl_kernel_rfl) y
/-- What case C leaves in row output 11's staging buffer: its pieces read back. -/
def o11C0 (c : Dev nD) (t : Fin cfg0.N) (h0 : ¬t.val = 0) (h1 : t.val = 24) (xs0 xs1 : Vec F S1x128 .f32) : Vec F S1x128 .f32 :=
  VO0_11.read (Elt F) (VO0_11.writes (Elt F) VO0_11.junk (runC0 V c t h0 h1 xs0 xs1).2.2.1)

/-- Case C's stores into accumulator row 0 cover it (each store writes the whole buffer). -/
theorem cover_s0C0 (c : Dev nD) (t : Fin cfg0.N) (h0 : ¬t.val = 0) (h1 : t.val = 24) (xs0 xs1 : Vec F S1x128 .f32) (y : S1x128.Idx) :
    ∃ pc ∈ (runC0 V c t h0 h1 xs0 xs1).2.2.2.1, y ∈ pc.1.set :=
  View.cover_of_tiledL (runC0 V c t h0 h1 xs0 xs1).2.2.2.1 S1x128.size (by sl_kernel_rfl) y
/-- What case C leaves in accumulator row 0: its pieces read back. -/
def s0C0 (c : Dev nD) (t : Fin cfg0.N) (h0 : ¬t.val = 0) (h1 : t.val = 24) (xs0 xs1 : Vec F S1x128 .f32) : Vec F S1x128 .f32 :=
  VS0_0.read (Elt F) (VS0_0.writes (Elt F) VS0_0.junk (runC0 V c t h0 h1 xs0 xs1).2.2.2.1)

/-- Case C's stores into accumulator row 1 cover it (each store writes the whole buffer). -/
theorem cover_s1C0 (c : Dev nD) (t : Fin cfg0.N) (h0 : ¬t.val = 0) (h1 : t.val = 24) (xs0 xs1 : Vec F S1x128 .f32) (y : S1x128.Idx) :
    ∃ pc ∈ (runC0 V c t h0 h1 xs0 xs1).2.2.2.2.1, y ∈ pc.1.set :=
  View.cover_of_tiledL (runC0 V c t h0 h1 xs0 xs1).2.2.2.2.1 S1x128.size (by sl_kernel_rfl) y
/-- What case C leaves in accumulator row 1: its pieces read back. -/
def s1C0 (c : Dev nD) (t : Fin cfg0.N) (h0 : ¬t.val = 0) (h1 : t.val = 24) (xs0 xs1 : Vec F S1x128 .f32) : Vec F S1x128 .f32 :=
  VS0_1.read (Elt F) (VS0_1.writes (Elt F) VS0_1.junk (runC0 V c t h0 h1 xs0 xs1).2.2.2.2.1)

/-! ## What the outputs and the accumulators hold after each point -/

/-- THE ACCUMULATION. After the body at position `n`: the block output's staging buffer, the two row outputs'
    staging buffers, and the two accumulator rows. The first point zeroes the accumulators and adds the block's
    column sums; every later point adds its block's column sums to what the point before left; the last point also
    copies the two accumulators into the row outputs. -/
def outsAt0 (c : Dev nD) : (n : ℕ) → n < cfg0.N → Vec F S4000x128 .f32 × Vec F S1x128 .f32 × Vec F S1x128 .f32 × Vec F S1x128 .f32 × Vec F S1x128 .f32
  | 0, hn => (o9A0 V c ⟨0, hn⟩ rfl, idleRow0_10, idleRow0_11, s0A0 V c ⟨0, hn⟩ rfl, s1A0 V c ⟨0, hn⟩ rfl)
  | n + 1, hn =>
    if h1 : n + 1 = 24 then
      (o9C0 V c ⟨n + 1, hn⟩ (Nat.succ_ne_zero n) h1 (outsAt0 c n (Nat.lt_of_succ_lt hn)).2.2.2.1 (outsAt0 c n (Nat.lt_of_succ_lt hn)).2.2.2.2, o10C0 V c ⟨n + 1, hn⟩ (Nat.succ_ne_zero n) h1 (outsAt0 c n (Nat.lt_of_succ_lt hn)).2.2.2.1 (outsAt0 c n (Nat.lt_of_succ_lt hn)).2.2.2.2, o11C0 V c ⟨n + 1, hn⟩ (Nat.succ_ne_zero n) h1 (outsAt0 c n (Nat.lt_of_succ_lt hn)).2.2.2.1 (outsAt0 c n (Nat.lt_of_succ_lt hn)).2.2.2.2, s0C0 V c ⟨n + 1, hn⟩ (Nat.succ_ne_zero n) h1 (outsAt0 c n (Nat.lt_of_succ_lt hn)).2.2.2.1 (outsAt0 c n (Nat.lt_of_succ_lt hn)).2.2.2.2, s1C0 V c ⟨n + 1, hn⟩ (Nat.succ_ne_zero n) h1 (outsAt0 c n (Nat.lt_of_succ_lt hn)).2.2.2.1 (outsAt0 c n (Nat.lt_of_succ_lt hn)).2.2.2.2)
    else
      (o9B0 V c ⟨n + 1, hn⟩ (Nat.succ_ne_zero n) h1 (outsAt0 c n (Nat.lt_of_succ_lt hn)).2.2.2.1 (outsAt0 c n (Nat.lt_of_succ_lt hn)).2.2.2.2, idleRow0_10, idleRow0_11, s0B0 V c ⟨n + 1, hn⟩ (Nat.succ_ne_zero n) h1 (outsAt0 c n (Nat.lt_of_succ_lt hn)).2.2.2.1 (outsAt0 c n (Nat.lt_of_succ_lt hn)).2.2.2.2, s1B0 V c ⟨n + 1, hn⟩ (Nat.succ_ne_zero n) h1 (outsAt0 c n (Nat.lt_of_succ_lt hn)).2.2.2.1 (outsAt0 c n (Nat.lt_of_succ_lt hn)).2.2.2.2)

/-- `outsAt0` at the first point. -/
theorem outsAt0_A (c : Dev nD) (t : Fin cfg0.N) (h0 : t.val = 0) :
    outsAt0 V c t.val t.isLt = (o9A0 V c t h0, idleRow0_10, idleRow0_11, s0A0 V c t h0, s1A0 V c t h0) := by
  obtain ⟨n, hn⟩ := t
  cases n with
  | zero => exact rfl
  | succ n => exact absurd h0 (Nat.succ_ne_zero n)

/-- `outsAt0` at a point 1..23: over what the point before left in the accumulators. -/
theorem outsAt0_B (c : Dev nD) (t : Fin cfg0.N) (h0 : ¬t.val = 0) (h1 : ¬t.val = 24) :
    outsAt0 V c t.val t.isLt = (o9B0 V c t h0 h1 (outsAt0 V c (t.val - 1) (Nat.lt_of_le_of_lt (Nat.sub_le _ _) t.isLt)).2.2.2.1 (outsAt0 V c (t.val - 1) (Nat.lt_of_le_of_lt (Nat.sub_le _ _) t.isLt)).2.2.2.2, idleRow0_10, idleRow0_11, s0B0 V c t h0 h1 (outsAt0 V c (t.val - 1) (Nat.lt_of_le_of_lt (Nat.sub_le _ _) t.isLt)).2.2.2.1 (outsAt0 V c (t.val - 1) (Nat.lt_of_le_of_lt (Nat.sub_le _ _) t.isLt)).2.2.2.2, s1B0 V c t h0 h1 (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt0` at the last point: over what the point before left in the accumulators. -/
theorem outsAt0_C (c : Dev nD) (t : Fin cfg0.N) (h0 : ¬t.val = 0) (h1 : t.val = 24) :
    outsAt0 V c t.val t.isLt = (o9C0 V c t h0 h1 (outsAt0 V c (t.val - 1) (Nat.lt_of_le_of_lt (Nat.sub_le _ _) t.isLt)).2.2.2.1 (outsAt0 V c (t.val - 1) (Nat.lt_of_le_of_lt (Nat.sub_le _ _) t.isLt)).2.2.2.2, o10C0 V c t h0 h1 (outsAt0 V c (t.val - 1) (Nat.lt_of_le_of_lt (Nat.sub_le _ _) t.isLt)).2.2.2.1 (outsAt0 V c (t.val - 1) (Nat.lt_of_le_of_lt (Nat.sub_le _ _) t.isLt)).2.2.2.2, o11C0 V c t h0 h1 (outsAt0 V c (t.val - 1) (Nat.lt_of_le_of_lt (Nat.sub_le _ _) t.isLt)).2.2.2.1 (outsAt0 V c (t.val - 1) (Nat.lt_of_le_of_lt (Nat.sub_le _ _) t.isLt)).2.2.2.2, s0C0 V c t h0 h1 (outsAt0 V c (t.val - 1) (Nat.lt_of_le_of_lt (Nat.sub_le _ _) t.isLt)).2.2.2.1 (outsAt0 V c (t.val - 1) (Nat.lt_of_le_of_lt (Nat.sub_le _ _) t.isLt)).2.2.2.2, s1C0 V c t h0 h1 (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The region invariant before position `n`: before the first point the class invariant (both accumulator rows at
    anything); afterwards the two accumulator rows at what the point before left in them, the other scoped buffers
    unopened, and the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2)) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2)) ∗ rest0 (F := F) c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2)) ∗ rest0 (F := F) c) ∗ (∃ r, prngReg c r)) := by
  cases n with
  | zero => exact absurd rfl hz
  | succ n => rfl

/-! ## The pipeline's proof data -/

/-- The proof data of region 0 on core `c`: the arrays as the region finds them (`V`); after the body at point `t`
    each input's buffer at its block and the three outputs' at `outsAt0`'s components; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (outsAt0 V c t.val t.isLt).1
    | ⟨10, _⟩ => (outsAt0 V c t.val t.isLt).2.1
    | ⟨11, _⟩ => (outsAt0 V c t.val t.isLt).2.2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (outsAt0 V c t.val t.isLt).1 := by dsimp only [dat0]
theorem after0_10 (c : Dev nD) (t : Fin cfg0.N) : (dat0 V c).after 10 t = (outsAt0 V c t.val t.isLt).2.1 := by dsimp only [dat0]
theorem after0_11 (c : Dev nD) (t : Fin cfg0.N) : (dat0 V c).after 11 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t)

set_option maxHeartbeats 8000000 in
/-- The body at any point. The inputs' memrefs hold their blocks; the point is the first, a middle one or the
    last, and that case's run applies. The invariant hands the body the two accumulator rows — at anything at the
    first point, afterwards at what the point before left — and takes them back at this point's contents; the other
    scoped buffers and the generator register pass through; the core owes nothing throughout. A row output is
    handed back untouched at a point that does not store into it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS0 V c (t.val + 1) t.isLt from rfl, PhiS0_succ]
  have hN : t.val < 25 := lt_of_lt_of_eq t.isLt (show cfg0.N = 25 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  rw [show (dat0 V c).leavesExact 9 t = owns (c : Thread nD τ) (ms0_9 t) fullShare ((dat0 V c).after 9 t) from by
    unfold Dat.leavesExact; rw [liveAt0_9 t], after0_9]
  by_cases h0 : t.val = 0
  · have hc1 : ¬cond0_1 (grid0.coords t) := fun h => by have h' := (hcond0_1 t).mp h; omega
    rw [Dat.leavesExact_idle (dat0 V c) 10 t (idleAt0_10 t hc1) (noFlush0_10 t hc1), Dat.leavesExact_idle (dat0 V c) 11 t (idleAt0_11 t hc1) (noFlush0_11 t hc1)]
    rw [outsAt0_A V c t h0]
    unfold o9A0 s0A0 s1A0; (try dsimp only)
    rw [PhiS0_castSucc V c t, PhiS0_zero V c _ _ h0, PhiA0_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA0 V c t h0).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, H10, H11, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (cover_s0A0 V c t h0)
          · unfold owns; iexists _; isplitr
            swap; · iexact HS1
            ipureintro; exact View.read_writes_of_cover _ _ _ _ _ (cover_s1A0 V c t h0)
        · iexact Hr
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover_o9A0 V c t h0)
    isplitl [H10]; · iexists _; iexact H10
    iexists _; iexact H11

  · by_cases h1 : t.val = 24
    · have hc1 : cond0_1 (grid0.coords t) := (hcond0_1 t).mpr h1
      rw [show (dat0 V c).leavesExact 10 t = owns (c : Thread nD τ) (ms0_10 t) fullShare ((dat0 V c).after 10 t) from by
        unfold Dat.leavesExact; rw [liveAt0_10_C t hc1], after0_10]
      rw [show (dat0 V c).leavesExact 11 t = owns (c : Thread nD τ) (ms0_11 t) fullShare ((dat0 V c).after 11 t) from by
        unfold Dat.leavesExact; rw [liveAt0_11_C t hc1], after0_11]
      rw [outsAt0_C V c t h0 h1]
      unfold o9C0 o10C0 o11C0 s0C0 s1C0; (try dsimp only)
      rw [PhiS0_castSucc V c t, PhiS0_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runC0 V c t h0 h1 _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (cover_s0C0 V c t h0 h1 _ _)
            · unfold owns; iexists _; isplitr
              swap; · iexact HS1
              ipureintro; exact View.read_writes_of_cover _ _ _ _ _ (cover_s1C0 V c t h0 h1 _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover_o9C0 V c t h0 h1 _ _)
      isplitl [H10]
      · unfold owns; iexists _; isplitr
        swap; · iexact H10
        ipureintro; exact View.read_writes_of_cover _ _ _ _ _ (cover_o10C0 V c t h0 h1 _ _)
      unfold owns; iexists _; isplitr
      swap; · iexact H11
      ipureintro; exact View.read_writes_of_cover _ _ _ _ _ (cover_o11C0 V c t h0 h1 _ _)
    · have hc1 : ¬cond0_1 (grid0.coords t) := fun h => h1 ((hcond0_1 t).mp h)
      rw [Dat.leavesExact_idle (dat0 V c) 10 t (idleAt0_10 t hc1) (noFlush0_10 t hc1), Dat.leavesExact_idle (dat0 V c) 11 t (idleAt0_11 t hc1) (noFlush0_11 t hc1)]
      rw [outsAt0_B V c t h0 h1]
      unfold o9B0 s0B0 s1B0; (try dsimp only)
      rw [PhiS0_castSucc V c t, PhiS0_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB0 V c t h0 h1 _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, H10, H11, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (cover_s0B0 V c t h0 h1 _ _)
            · unfold owns; iexists _; isplitr
              swap; · iexact HS1
              ipureintro; exact View.read_writes_of_cover _ _ _ _ _ (cover_s1B0 V c t h0 h1 _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover_o9B0 V c t h0 h1 _ _)
      isplitl [H10]; · iexists _; iexact H10
      iexists _; iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

/-- The same after the last point. -/
theorem hout0 (c : Dev nD) : (dat0 V c).Φ (Fin.last cfg0.N) ⊢ Pipeline.ΦA spec0 c :=
  Phi_out0 V c _ (by rw [Fin.val_last]; have : cfg0.N = 25 := N_0; omega)

end Cert.Kernel.Hand

end
-- ==== Proof.K.Region1.Kit.lean ====
import proofs.«154353_j88940182765819_1_alg».proof.Proof.Gen.Kernel.Launch
import proofs.«154353_j88940182765819_1_alg».proof.Proof.Gen.Kernel.Skeleton
import proofs.«154353_j88940182765819_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks

Region 1 is the fused convolution-and-statistics call: windows 0 and 1 are the two 4000-row blocks of the
destination features and of the aggregated neighbour features, windows 2..8 the resident weights and bias rows,
window 9 the 4000-row block of the result `h`, windows 10 and 11 the two [1,128] rows of column sums of `h` and of
`h*h`, which the body stores at the last grid point only. -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (an input not
    fetched at a point has not moved its block index), for any proof data whose array is `V`'s and whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (an input not
    fetched at a point has not moved its block index), for any proof data whose array is `V`'s and whose body leaves
    the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (an input not
    fetched at a point has not moved its block index), for any proof data whose array is `V`'s and whose body leaves
    the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (an input not
    fetched at a point has not moved its block index), for any proof data whose array is `V`'s and whose body leaves
    the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (an input not
    fetched at a point has not moved its block index), for any proof data whose array is `V`'s and whose body leaves
    the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (an input not
    fetched at a point has not moved its block index), for any proof data whose array is `V`'s and whose body leaves
    the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not (an input not
    fetched at a point has not moved its block index), for any proof data whose array is `V`'s and whose body leaves
    the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not (an input not
    fetched at a point has not moved its block index), for any proof data whose array is `V`'s and whose body leaves
    the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not (an input not
    fetched at a point has not moved its block index), for any proof data whose array is `V`'s and whose body leaves
    the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions

The body zeroes its two accumulator rows under `i == 0` and copies them to the two row outputs under `i == 24`;
over the 25 grid points this gives three cases: the first point, the points 1..23, the last point. -/

/-- The condition of the first conditional (zero the accumulators), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The condition of the second conditional (copy the accumulators out), from the grid coordinates. -/
abbrev cond1_1 (i : grid1.Coords) : Prop := k1_cond2 i = 1#1
/-- It holds at the last point only. -/
theorem hcond1_1 : ∀ t : Fin cfg1.N, cond1_1 (grid1.coords t) ↔ t.val = 24 :=
  (by decide +kernel : ∀ t : Fin grid1.N, cond1_1 (grid1.coords t) ↔ t.val = 24)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
/-- Before the last point the body stores nothing into row output 10: the window is idle there and not written back. -/
theorem idleAt1_10 : ∀ t : Fin cfg1.N, ¬cond1_1 (grid1.coords t) → cfg1.idle 10 (grid1.coords t) = true := by decide +kernel
theorem noFlush1_10 : ∀ t : Fin cfg1.N, ¬cond1_1 (grid1.coords t) → (cfg1.win 10).flush t = false := by decide +kernel
/-- At the last point it is live: the body stores the accumulator row into it. -/
theorem liveAt1_10_C : ∀ t : Fin cfg1.N, cond1_1 (grid1.coords t) → cfg1.idle 10 (grid1.coords t) = false := by decide +kernel
/-- Before the last point the body stores nothing into row output 11: the window is idle there and not written back. -/
theorem idleAt1_11 : ∀ t : Fin cfg1.N, ¬cond1_1 (grid1.coords t) → cfg1.idle 11 (grid1.coords t) = true := by decide +kernel
theorem noFlush1_11 : ∀ t : Fin cfg1.N, ¬cond1_1 (grid1.coords t) → (cfg1.win 11).flush t = false := by decide +kernel
/-- At the last point it is live: the body stores the accumulator row into it. -/
theorem liveAt1_11_C : ∀ t : Fin cfg1.N, cond1_1 (grid1.coords t) → cfg1.idle 11 (grid1.coords t) = false := by decide +kernel

/-! ## Staging memrefs, scratch rows and the views their contents are stated through -/
abbrev ms1_0 (t : Fin cfg1.N) : Memref sig .tc .vmem S4000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4000x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S4000x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x128 .f32 := win1_11.stage (cfg1.slots t 11)
abbrev hs1_11 (t : Fin cfg1.N) : (ms1_11 t).IsWhole := hstage1_11 ((cfg1.slots t 11).cast nbuf1_11)
/-- The two accumulator rows: whole scoped buffers of the kernel's own, carried from one grid point to the next. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view
/-- One staging buffer of each output window, through which its contents are stated (the choice does not matter). -/
abbrev VO1_9 : View sig .tc .vmem S4000x128 .f32 := (Memref.whole cc1_stg9_0 : Memref sig .tc .vmem S4000x128 .f32).view
abbrev VO1_10 : View sig .tc .vmem S1x128 .f32 := (Memref.whole cc1_stg10_0 : Memref sig .tc .vmem S1x128 .f32).view
abbrev VO1_11 : View sig .tc .vmem S1x128 .f32 := (Memref.whole cc1_stg11_0 : Memref sig .tc .vmem S1x128 .f32).view

/-- The rest of the scoped buffers, beside the two accumulator rows: never opened. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The class invariant with the two accumulator rows as memrefs owned at some contents: what the body
    obligation hands the run at the first point and what the region gives back at the end. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

end Cert.Kernel.Hand

end
-- ==== Proof.K.Region1.RunA.lean ====
import proofs.«154353_j88940182765819_1_alg».proof.Proof.K.Region1.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body AT THE FIRST POINT (the accumulators zeroed first; nothing copied out), run on whole staging memrefs: the nine
    inputs at their contents `x·`, the block output's buffer at anything, the two row outputs' buffers at contents `xi·` handed back untouched (the body stores nothing into them here),
    the two accumulator rows at anything (the body overwrites them before reading). The body runs to the continuation holding the
    inputs as they were and every stored buffer with its pieces written; the pieces (last store first) are the
    witness the run finds. -/
noncomputable def kernelRun1_A (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond1_0 i) (hc1 : ¬cond1_1 i)
    (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) :
    Σ' (L9 : List (View.Piece (Elt F) S4000x128 .f32)) (LS0 : List (View.Piece (Elt F) S1x128 .f32)), { LS1 : List (View.Piece (Elt F) S1x128 .f32) //
      ∀ (xi10 xi11 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1__conv_stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    haveI : Fact (cond1_0 i) := ⟨hc0⟩
    haveI : Fact (¬cond1_1 i) := ⟨hc1⟩
    simp only [cc1__conv_stats_kernel_eq_skeleton]; unfold cc1__conv_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.Kernel.Hand

end
-- ==== Proof.K.Region1.RunB.lean ====
import proofs.«154353_j88940182765819_1_alg».proof.Proof.K.Region1.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body AT THE POINTS 1..23 (neither conditional taken), run on whole staging memrefs: the nine
    inputs at their contents `x·`, the block output's buffer at anything, the two row outputs' buffers at contents `xi·` handed back untouched (the body stores nothing into them here),
    the two accumulator rows at what the point before left in them (`xs·`). The body runs to the continuation holding the
    inputs as they were and every stored buffer with its pieces written; the pieces (last store first) are the
    witness the run finds. -/
noncomputable def kernelRun1_B (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond1_0 i) (hc1 : ¬cond1_1 i)
    (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) (xs0 : Vec F S1x128 .f32) (xs1 : Vec F S1x128 .f32) :
    Σ' (L9 : List (View.Piece (Elt F) S4000x128 .f32)) (LS0 : List (View.Piece (Elt F) S1x128 .f32)), { LS1 : List (View.Piece (Elt F) S1x128 .f32) //
      ∀ (xi10 xi11 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1__conv_stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    haveI : Fact (¬cond1_0 i) := ⟨hc0⟩
    haveI : Fact (¬cond1_1 i) := ⟨hc1⟩
    simp only [cc1__conv_stats_kernel_eq_skeleton]; unfold cc1__conv_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.Kernel.Hand

end
-- ==== Proof.K.Region1.RunC.lean ====
import proofs.«154353_j88940182765819_1_alg».proof.Proof.K.Region1.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body AT THE LAST POINT (the accumulators copied to the two row outputs at the end), run on whole staging memrefs: the nine
    inputs at their contents `x·`, the block output's buffer at anything, the two row outputs' buffers at anything,
    the two accumulator rows at what the point before left in them (`xs·`). The body runs to the continuation holding the
    inputs as they were and every stored buffer with its pieces written; the pieces (last store first) are the
    witness the run finds. -/
noncomputable def kernelRun1_C (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond1_0 i) (hc1 : cond1_1 i)
    (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) (xs0 : Vec F S1x128 .f32) (xs1 : Vec F S1x128 .f32) :
    Σ' (L9 : List (View.Piece (Elt F) S4000x128 .f32)) (L10 : List (View.Piece (Elt F) S1x128 .f32)) (L11 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1__conv_stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    haveI : Fact (¬cond1_0 i) := ⟨hc0⟩
    haveI : Fact (cond1_1 i) := ⟨hc1⟩
    simp only [cc1__conv_stats_kernel_eq_skeleton]; unfold cc1__conv_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.Kernel.Hand

end
-- ==== Proof.K.Region1.lean ====
import proofs.«154353_j88940182765819_1_alg».proof.Proof.K.Region1.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The three runs at a grid point

Each case's run of the body, taken at the staging memrefs the pipeline passes at point `t`, the two accumulator
rows, and the input blocks read off the arrays as the region finds them. -/

/-- The first point: the accumulators are zeroed, then the block is processed. -/
def runA1 (c : Dev nD) (t : Fin cfg1.N) (h0 : t.val = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _)
    ((hcond1_0 t).mpr h0) (fun h => by have h' := (hcond1_1 t).mp h; omega) (iblk1 V c 0 t) (iblk1 V c 1 t) (iblk1 V c 2 t) (iblk1 V c 3 t) (iblk1 V c 4 t) (iblk1 V c 5 t) (iblk1 V c 6 t) (iblk1 V c 7 t) (iblk1 V c 8 t)

/-- A point 1..23: the block is processed, the accumulators found at `xs·`. -/
def runB1 (c : Dev nD) (t : Fin cfg1.N) (h0 : ¬t.val = 0) (h1 : ¬t.val = 24) (xs0 xs1 : Vec F S1x128 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _)
    (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) xs0 xs1

/-- The last point: the block is processed, then the accumulators are copied to the two row outputs. -/
def runC1 (c : Dev nD) (t : Fin cfg1.N) (h0 : ¬t.val = 0) (h1 : t.val = 24) (xs0 xs1 : Vec F S1x128 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _)
    (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) xs0 xs1

/-! ## What each case leaves: the pieces read back, and that they cover -/

/-- A row output the body does not store into at a point: a placeholder nothing consults (the window is idle there,
    neither written back nor read at the next point). -/
def idleRow1_10 : Vec F S1x128 .f32 := VO1_10.read (Elt F) (VO1_10.writes (Elt F) VO1_10.junk [])
def idleRow1_11 : Vec F S1x128 .f32 := VO1_11.read (Elt F) (VO1_11.writes (Elt F) VO1_11.junk [])

/-- Case A's stores into the block output's staging buffer cover it (each store writes the whole buffer). -/
theorem cover_o9A1 (c : Dev nD) (t : Fin cfg1.N) (h0 : t.val = 0) (y : S4000x128.Idx) :
    ∃ pc ∈ (runA1 V c t h0).1, y ∈ pc.1.set :=
  View.cover_of_tiledL (runA1 V c t h0).1 S4000x128.size (by sl_kernel_rfl) y
/-- What case A leaves in the block output's staging buffer: its pieces read back. -/
def o9A1 (c : Dev nD) (t : Fin cfg1.N) (h0 : t.val = 0) : Vec F S4000x128 .f32 :=
  VO1_9.read (Elt F) (VO1_9.writes (Elt F) VO1_9.junk (runA1 V c t h0).1)

/-- Case A's stores into accumulator row 0 cover it (each store writes the whole buffer). -/
theorem cover_s0A1 (c : Dev nD) (t : Fin cfg1.N) (h0 : t.val = 0) (y : S1x128.Idx) :
    ∃ pc ∈ (runA1 V c t h0).2.1, y ∈ pc.1.set :=
  View.cover_of_tiledL (runA1 V c t h0).2.1 S1x128.size (by sl_kernel_rfl) y
/-- What case A leaves in accumulator row 0: its pieces read back. -/
def s0A1 (c : Dev nD) (t : Fin cfg1.N) (h0 : t.val = 0) : Vec F S1x128 .f32 :=
  VS1_0.read (Elt F) (VS1_0.writes (Elt F) VS1_0.junk (runA1 V c t h0).2.1)

/-- Case A's stores into accumulator row 1 cover it (each store writes the whole buffer). -/
theorem cover_s1A1 (c : Dev nD) (t : Fin cfg1.N) (h0 : t.val = 0) (y : S1x128.Idx) :
    ∃ pc ∈ (runA1 V c t h0).2.2.1, y ∈ pc.1.set :=
  View.cover_of_tiledL (runA1 V c t h0).2.2.1 S1x128.size (by sl_kernel_rfl) y
/-- What case A leaves in accumulator row 1: its pieces read back. -/
def s1A1 (c : Dev nD) (t : Fin cfg1.N) (h0 : t.val = 0) : Vec F S1x128 .f32 :=
  VS1_1.read (Elt F) (VS1_1.writes (Elt F) VS1_1.junk (runA1 V c t h0).2.2.1)

/-- Case B's stores into the block output's staging buffer cover it (each store writes the whole buffer). -/
theorem cover_o9B1 (c : Dev nD) (t : Fin cfg1.N) (h0 : ¬t.val = 0) (h1 : ¬t.val = 24) (xs0 xs1 : Vec F S1x128 .f32) (y : S4000x128.Idx) :
    ∃ pc ∈ (runB1 V c t h0 h1 xs0 xs1).1, y ∈ pc.1.set :=
  View.cover_of_tiledL (runB1 V c t h0 h1 xs0 xs1).1 S4000x128.size (by sl_kernel_rfl) y
/-- What case B leaves in the block output's staging buffer: its pieces read back. -/
def o9B1 (c : Dev nD) (t : Fin cfg1.N) (h0 : ¬t.val = 0) (h1 : ¬t.val = 24) (xs0 xs1 : Vec F S1x128 .f32) : Vec F S4000x128 .f32 :=
  VO1_9.read (Elt F) (VO1_9.writes (Elt F) VO1_9.junk (runB1 V c t h0 h1 xs0 xs1).1)

/-- Case B's stores into accumulator row 0 cover it (each store writes the whole buffer). -/
theorem cover_s0B1 (c : Dev nD) (t : Fin cfg1.N) (h0 : ¬t.val = 0) (h1 : ¬t.val = 24) (xs0 xs1 : Vec F S1x128 .f32) (y : S1x128.Idx) :
    ∃ pc ∈ (runB1 V c t h0 h1 xs0 xs1).2.1, y ∈ pc.1.set :=
  View.cover_of_tiledL (runB1 V c t h0 h1 xs0 xs1).2.1 S1x128.size (by sl_kernel_rfl) y
/-- What case B leaves in accumulator row 0: its pieces read back. -/
def s0B1 (c : Dev nD) (t : Fin cfg1.N) (h0 : ¬t.val = 0) (h1 : ¬t.val = 24) (xs0 xs1 : Vec F S1x128 .f32) : Vec F S1x128 .f32 :=
  VS1_0.read (Elt F) (VS1_0.writes (Elt F) VS1_0.junk (runB1 V c t h0 h1 xs0 xs1).2.1)

/-- Case B's stores into accumulator row 1 cover it (each store writes the whole buffer). -/
theorem cover_s1B1 (c : Dev nD) (t : Fin cfg1.N) (h0 : ¬t.val = 0) (h1 : ¬t.val = 24) (xs0 xs1 : Vec F S1x128 .f32) (y : S1x128.Idx) :
    ∃ pc ∈ (runB1 V c t h0 h1 xs0 xs1).2.2.1, y ∈ pc.1.set :=
  View.cover_of_tiledL (runB1 V c t h0 h1 xs0 xs1).2.2.1 S1x128.size (by sl_kernel_rfl) y
/-- What case B leaves in accumulator row 1: its pieces read back. -/
def s1B1 (c : Dev nD) (t : Fin cfg1.N) (h0 : ¬t.val = 0) (h1 : ¬t.val = 24) (xs0 xs1 : Vec F S1x128 .f32) : Vec F S1x128 .f32 :=
  VS1_1.read (Elt F) (VS1_1.writes (Elt F) VS1_1.junk (runB1 V c t h0 h1 xs0 xs1).2.2.1)

/-- Case C's stores into the block output's staging buffer cover it (each store writes the whole buffer). -/
theorem cover_o9C1 (c : Dev nD) (t : Fin cfg1.N) (h0 : ¬t.val = 0) (h1 : t.val = 24) (xs0 xs1 : Vec F S1x128 .f32) (y : S4000x128.Idx) :
    ∃ pc ∈ (runC1 V c t h0 h1 xs0 xs1).1, y ∈ pc.1.set :=
  View.cover_of_tiledL (runC1 V c t h0 h1 xs0 xs1).1 S4000x128.size (by sl_kernel_rfl) y
/-- What case C leaves in the block output's staging buffer: its pieces read back. -/
def o9C1 (c : Dev nD) (t : Fin cfg1.N) (h0 : ¬t.val = 0) (h1 : t.val = 24) (xs0 xs1 : Vec F S1x128 .f32) : Vec F S4000x128 .f32 :=
  VO1_9.read (Elt F) (VO1_9.writes (Elt F) VO1_9.junk (runC1 V c t h0 h1 xs0 xs1).1)

/-- Case C's stores into row output 10's staging buffer cover it (each store writes the whole buffer). -/
theorem cover_o10C1 (c : Dev nD) (t : Fin cfg1.N) (h0 : ¬t.val = 0) (h1 : t.val = 24) (xs0 xs1 : Vec F S1x128 .f32) (y : S1x128.Idx) :
    ∃ pc ∈ (runC1 V c t h0 h1 xs0 xs1).2.1, y ∈ pc.1.set :=
  View.cover_of_tiledL (runC1 V c t h0 h1 xs0 xs1).2.1 S1x128.size (by sl_kernel_rfl) y
/-- What case C leaves in row output 10's staging buffer: its pieces read back. -/
def o10C1 (c : Dev nD) (t : Fin cfg1.N) (h0 : ¬t.val = 0) (h1 : t.val = 24) (xs0 xs1 : Vec F S1x128 .f32) : Vec F S1x128 .f32 :=
  VO1_10.read (Elt F) (VO1_10.writes (Elt F) VO1_10.junk (runC1 V c t h0 h1 xs0 xs1).2.1)

/-- Case C's stores into row output 11's staging buffer cover it (each store writes the whole buffer). -/
theorem cover_o11C1 (c : Dev nD) (t : Fin cfg1.N) (h0 : ¬t.val = 0) (h1 : t.val = 24) (xs0 xs1 : Vec F S1x128 .f32) (y : S1x128.Idx) :
    ∃ pc ∈ (runC1 V c t h0 h1 xs0 xs1).2.2.1, y ∈ pc.1.set :=
  View.cover_of_tiledL (runC1 V c t h0 h1 xs0 xs1).2.2.1 S1x128.size (by sl_kernel_rfl) y
/-- What case C leaves in row output 11's staging buffer: its pieces read back. -/
def o11C1 (c : Dev nD) (t : Fin cfg1.N) (h0 : ¬t.val = 0) (h1 : t.val = 24) (xs0 xs1 : Vec F S1x128 .f32) : Vec F S1x128 .f32 :=
  VO1_11.read (Elt F) (VO1_11.writes (Elt F) VO1_11.junk (runC1 V c t h0 h1 xs0 xs1).2.2.1)

/-- Case C's stores into accumulator row 0 cover it (each store writes the whole buffer). -/
theorem cover_s0C1 (c : Dev nD) (t : Fin cfg1.N) (h0 : ¬t.val = 0) (h1 : t.val = 24) (xs0 xs1 : Vec F S1x128 .f32) (y : S1x128.Idx) :
    ∃ pc ∈ (runC1 V c t h0 h1 xs0 xs1).2.2.2.1, y ∈ pc.1.set :=
  View.cover_of_tiledL (runC1 V c t h0 h1 xs0 xs1).2.2.2.1 S1x128.size (by sl_kernel_rfl) y
/-- What case C leaves in accumulator row 0: its pieces read back. -/
def s0C1 (c : Dev nD) (t : Fin cfg1.N) (h0 : ¬t.val = 0) (h1 : t.val = 24) (xs0 xs1 : Vec F S1x128 .f32) : Vec F S1x128 .f32 :=
  VS1_0.read (Elt F) (VS1_0.writes (Elt F) VS1_0.junk (runC1 V c t h0 h1 xs0 xs1).2.2.2.1)

/-- Case C's stores into accumulator row 1 cover it (each store writes the whole buffer). -/
theorem cover_s1C1 (c : Dev nD) (t : Fin cfg1.N) (h0 : ¬t.val = 0) (h1 : t.val = 24) (xs0 xs1 : Vec F S1x128 .f32) (y : S1x128.Idx) :
    ∃ pc ∈ (runC1 V c t h0 h1 xs0 xs1).2.2.2.2.1, y ∈ pc.1.set :=
  View.cover_of_tiledL (runC1 V c t h0 h1 xs0 xs1).2.2.2.2.1 S1x128.size (by sl_kernel_rfl) y
/-- What case C leaves in accumulator row 1: its pieces read back. -/
def s1C1 (c : Dev nD) (t : Fin cfg1.N) (h0 : ¬t.val = 0) (h1 : t.val = 24) (xs0 xs1 : Vec F S1x128 .f32) : Vec F S1x128 .f32 :=
  VS1_1.read (Elt F) (VS1_1.writes (Elt F) VS1_1.junk (runC1 V c t h0 h1 xs0 xs1).2.2.2.2.1)

/-! ## What the outputs and the accumulators hold after each point -/

/-- THE ACCUMULATION. After the body at position `n`: the block output's staging buffer, the two row outputs'
    staging buffers, and the two accumulator rows. The first point zeroes the accumulators and adds the block's
    column sums; every later point adds its block's column sums to what the point before left; the last point also
    copies the two accumulators into the row outputs. -/
def outsAt1 (c : Dev nD) : (n : ℕ) → n < cfg1.N → Vec F S4000x128 .f32 × Vec F S1x128 .f32 × Vec F S1x128 .f32 × Vec F S1x128 .f32 × Vec F S1x128 .f32
  | 0, hn => (o9A1 V c ⟨0, hn⟩ rfl, idleRow1_10, idleRow1_11, s0A1 V c ⟨0, hn⟩ rfl, s1A1 V c ⟨0, hn⟩ rfl)
  | n + 1, hn =>
    if h1 : n + 1 = 24 then
      (o9C1 V c ⟨n + 1, hn⟩ (Nat.succ_ne_zero n) h1 (outsAt1 c n (Nat.lt_of_succ_lt hn)).2.2.2.1 (outsAt1 c n (Nat.lt_of_succ_lt hn)).2.2.2.2, o10C1 V c ⟨n + 1, hn⟩ (Nat.succ_ne_zero n) h1 (outsAt1 c n (Nat.lt_of_succ_lt hn)).2.2.2.1 (outsAt1 c n (Nat.lt_of_succ_lt hn)).2.2.2.2, o11C1 V c ⟨n + 1, hn⟩ (Nat.succ_ne_zero n) h1 (outsAt1 c n (Nat.lt_of_succ_lt hn)).2.2.2.1 (outsAt1 c n (Nat.lt_of_succ_lt hn)).2.2.2.2, s0C1 V c ⟨n + 1, hn⟩ (Nat.succ_ne_zero n) h1 (outsAt1 c n (Nat.lt_of_succ_lt hn)).2.2.2.1 (outsAt1 c n (Nat.lt_of_succ_lt hn)).2.2.2.2, s1C1 V c ⟨n + 1, hn⟩ (Nat.succ_ne_zero n) h1 (outsAt1 c n (Nat.lt_of_succ_lt hn)).2.2.2.1 (outsAt1 c n (Nat.lt_of_succ_lt hn)).2.2.2.2)
    else
      (o9B1 V c ⟨n + 1, hn⟩ (Nat.succ_ne_zero n) h1 (outsAt1 c n (Nat.lt_of_succ_lt hn)).2.2.2.1 (outsAt1 c n (Nat.lt_of_succ_lt hn)).2.2.2.2, idleRow1_10, idleRow1_11, s0B1 V c ⟨n + 1, hn⟩ (Nat.succ_ne_zero n) h1 (outsAt1 c n (Nat.lt_of_succ_lt hn)).2.2.2.1 (outsAt1 c n (Nat.lt_of_succ_lt hn)).2.2.2.2, s1B1 V c ⟨n + 1, hn⟩ (Nat.succ_ne_zero n) h1 (outsAt1 c n (Nat.lt_of_succ_lt hn)).2.2.2.1 (outsAt1 c n (Nat.lt_of_succ_lt hn)).2.2.2.2)

/-- `outsAt1` at the first point. -/
theorem outsAt1_A (c : Dev nD) (t : Fin cfg1.N) (h0 : t.val = 0) :
    outsAt1 V c t.val t.isLt = (o9A1 V c t h0, idleRow1_10, idleRow1_11, s0A1 V c t h0, s1A1 V c t h0) := by
  obtain ⟨n, hn⟩ := t
  cases n with
  | zero => exact rfl
  | succ n => exact absurd h0 (Nat.succ_ne_zero n)

/-- `outsAt1` at a point 1..23: over what the point before left in the accumulators. -/
theorem outsAt1_B (c : Dev nD) (t : Fin cfg1.N) (h0 : ¬t.val = 0) (h1 : ¬t.val = 24) :
    outsAt1 V c t.val t.isLt = (o9B1 V c t h0 h1 (outsAt1 V c (t.val - 1) (Nat.lt_of_le_of_lt (Nat.sub_le _ _) t.isLt)).2.2.2.1 (outsAt1 V c (t.val - 1) (Nat.lt_of_le_of_lt (Nat.sub_le _ _) t.isLt)).2.2.2.2, idleRow1_10, idleRow1_11, s0B1 V c t h0 h1 (outsAt1 V c (t.val - 1) (Nat.lt_of_le_of_lt (Nat.sub_le _ _) t.isLt)).2.2.2.1 (outsAt1 V c (t.val - 1) (Nat.lt_of_le_of_lt (Nat.sub_le _ _) t.isLt)).2.2.2.2, s1B1 V c t h0 h1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt1` at the last point: over what the point before left in the accumulators. -/
theorem outsAt1_C (c : Dev nD) (t : Fin cfg1.N) (h0 : ¬t.val = 0) (h1 : t.val = 24) :
    outsAt1 V c t.val t.isLt = (o9C1 V c t h0 h1 (outsAt1 V c (t.val - 1) (Nat.lt_of_le_of_lt (Nat.sub_le _ _) t.isLt)).2.2.2.1 (outsAt1 V c (t.val - 1) (Nat.lt_of_le_of_lt (Nat.sub_le _ _) t.isLt)).2.2.2.2, o10C1 V c t h0 h1 (outsAt1 V c (t.val - 1) (Nat.lt_of_le_of_lt (Nat.sub_le _ _) t.isLt)).2.2.2.1 (outsAt1 V c (t.val - 1) (Nat.lt_of_le_of_lt (Nat.sub_le _ _) t.isLt)).2.2.2.2, o11C1 V c t h0 h1 (outsAt1 V c (t.val - 1) (Nat.lt_of_le_of_lt (Nat.sub_le _ _) t.isLt)).2.2.2.1 (outsAt1 V c (t.val - 1) (Nat.lt_of_le_of_lt (Nat.sub_le _ _) t.isLt)).2.2.2.2, s0C1 V c t h0 h1 (outsAt1 V c (t.val - 1) (Nat.lt_of_le_of_lt (Nat.sub_le _ _) t.isLt)).2.2.2.1 (outsAt1 V c (t.val - 1) (Nat.lt_of_le_of_lt (Nat.sub_le _ _) t.isLt)).2.2.2.2, s1C1 V c t h0 h1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The region invariant before position `n`: before the first point the class invariant (both accumulator rows at
    anything); afterwards the two accumulator rows at what the point before left in them, the other scoped buffers
    unopened, and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.1) ∗ owns (c : Thread nD τ) scM1_1 fullShare ((outsAt1 V c n hn).2.2.2.2)) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.2.1) ∗ owns (c : Thread nD τ) scM1_1 fullShare ((outsAt1 V c n hn).2.2.2.2)) ∗ rest1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.2.1) ∗ owns (c : Thread nD τ) scM1_1 fullShare ((outsAt1 V c (n - 1) (by omega)).2.2.2.2)) ∗ rest1 (F := F) c) ∗ (∃ r, prngReg c r)) := by
  cases n with
  | zero => exact absurd rfl hz
  | succ n => rfl

/-! ## The pipeline's proof data -/

/-- The proof data of region 1 on core `c`: the arrays as the region finds them (`V`); after the body at point `t`
    each input's buffer at its block and the three outputs' at `outsAt1`'s components; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
    | ⟨10, _⟩ => (outsAt1 V c t.val t.isLt).2.1
    | ⟨11, _⟩ => (outsAt1 V c t.val t.isLt).2.2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt).1 := by dsimp only [dat1]
theorem after1_10 (c : Dev nD) (t : Fin cfg1.N) : (dat1 V c).after 10 t = (outsAt1 V c t.val t.isLt).2.1 := by dsimp only [dat1]
theorem after1_11 (c : Dev nD) (t : Fin cfg1.N) : (dat1 V c).after 11 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 8000000 in
/-- The body at any point. The inputs' memrefs hold their blocks; the point is the first, a middle one or the
    last, and that case's run applies. The invariant hands the body the two accumulator rows — at anything at the
    first point, afterwards at what the point before left — and takes them back at this point's contents; the other
    scoped buffers and the generator register pass through; the core owes nothing throughout. A row output is
    handed back untouched at a point that does not store into it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  by_cases h0 : t.val = 0
  · have hc1 : ¬cond1_1 (grid1.coords t) := fun h => by have h' := (hcond1_1 t).mp h; omega
    rw [Dat.leavesExact_idle (dat1 V c) 10 t (idleAt1_10 t hc1) (noFlush1_10 t hc1), Dat.leavesExact_idle (dat1 V c) 11 t (idleAt1_11 t hc1) (noFlush1_11 t hc1)]
    rw [outsAt1_A V c t h0]
    unfold o9A1 s0A1 s1A1; (try dsimp only)
    rw [PhiS1_castSucc V c t, PhiS1_zero V c _ _ h0, PhiA1_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA1 V c t h0).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, H10, H11, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (cover_s0A1 V c t h0)
          · unfold owns; iexists _; isplitr
            swap; · iexact HS1
            ipureintro; exact View.read_writes_of_cover _ _ _ _ _ (cover_s1A1 V c t h0)
        · iexact Hr
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover_o9A1 V c t h0)
    isplitl [H10]; · iexists _; iexact H10
    iexists _; iexact H11

  · by_cases h1 : t.val = 24
    · have hc1 : cond1_1 (grid1.coords t) := (hcond1_1 t).mpr h1
      rw [show (dat1 V c).leavesExact 10 t = owns (c : Thread nD τ) (ms1_10 t) fullShare ((dat1 V c).after 10 t) from by
        unfold Dat.leavesExact; rw [liveAt1_10_C t hc1], after1_10]
      rw [show (dat1 V c).leavesExact 11 t = owns (c : Thread nD τ) (ms1_11 t) fullShare ((dat1 V c).after 11 t) from by
        unfold Dat.leavesExact; rw [liveAt1_11_C t hc1], after1_11]
      rw [outsAt1_C V c t h0 h1]
      unfold o9C1 o10C1 o11C1 s0C1 s1C1; (try dsimp only)
      rw [PhiS1_castSucc V c t, PhiS1_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runC1 V c t h0 h1 _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (cover_s0C1 V c t h0 h1 _ _)
            · unfold owns; iexists _; isplitr
              swap; · iexact HS1
              ipureintro; exact View.read_writes_of_cover _ _ _ _ _ (cover_s1C1 V c t h0 h1 _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover_o9C1 V c t h0 h1 _ _)
      isplitl [H10]
      · unfold owns; iexists _; isplitr
        swap; · iexact H10
        ipureintro; exact View.read_writes_of_cover _ _ _ _ _ (cover_o10C1 V c t h0 h1 _ _)
      unfold owns; iexists _; isplitr
      swap; · iexact H11
      ipureintro; exact View.read_writes_of_cover _ _ _ _ _ (cover_o11C1 V c t h0 h1 _ _)
    · have hc1 : ¬cond1_1 (grid1.coords t) := fun h => h1 ((hcond1_1 t).mp h)
      rw [Dat.leavesExact_idle (dat1 V c) 10 t (idleAt1_10 t hc1) (noFlush1_10 t hc1), Dat.leavesExact_idle (dat1 V c) 11 t (idleAt1_11 t hc1) (noFlush1_11 t hc1)]
      rw [outsAt1_B V c t h0 h1]
      unfold o9B1 s0B1 s1B1; (try dsimp only)
      rw [PhiS1_castSucc V c t, PhiS1_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB1 V c t h0 h1 _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, H10, H11, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (cover_s0B1 V c t h0 h1 _ _)
            · unfold owns; iexists _; isplitr
              swap; · iexact HS1
              ipureintro; exact View.read_writes_of_cover _ _ _ _ _ (cover_s1B1 V c t h0 h1 _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover_o9B1 V c t h0 h1 _ _)
      isplitl [H10]; · iexists _; iexact H10
      iexists _; iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

/-- The same after the last point. -/
theorem hout1 (c : Dev nD) : (dat1 V c).Φ (Fin.last cfg1.N) ⊢ Pipeline.ΦA spec1 c :=
  Phi_out1 V c _ (by rw [Fin.val_last]; have : cfg1.N = 25 := N_1; omega)

end Cert.Kernel.Hand

end
-- ==== Proof.K.Region2.lean ====
import proofs.«154353_j88940182765819_1_alg».proof.Proof.Gen.Kernel.Launch
import proofs.«154353_j88940182765819_1_alg».proof.Proof.Gen.Kernel.Skeleton
import proofs.«154353_j88940182765819_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2: the normalise-and-leaky-relu kernel on a 25-point grid of 4000-row blocks, at the entry contents `V`

Windows 0..4 are inputs: window 0 the 4000x128 row block of the activations at the grid point, windows 1..4 the
1x128 rows (scale, shift, mean, variance), the same block at every point. Window 5 is the output, the 4000x128 row
block at the grid point. The body loads each input whole, computes the normalised, shifted and leaky-rectified
block, and stores it whole. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point — at the points where the block is
fetched and at those where it is not (the four rows are fetched at the first point only; their block index never
moves, so what the first fetch put there is still the block) — for any proof data whose array is the entry contents
and whose body leaves the block in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 4000x128 block, and the whole 1x128 row, as rectangles: every load and the one store are of these. -/
abbrev rB2 : Rect S4000x128 := Rect.unit (s := S4000x128) ![0, 0] S4000x128.size inb_S4000x128_S4000x128_0_0
abbrev rR2 : Rect S1x128 := Rect.unit (s := S1x128) ![0, 0] S1x128.size inb_S1x128_S1x128_0_0

/-! ## What the body leaves in the output window's buffer -/

/-- The output block after the body: its one whole-block store, of the payload (the normalised, shifted,
    leaky-rectified block) over the five loaded inputs. -/
def out2_5 (x0 : Vec F S4000x128 .f32) (x1 x2 x3 x4 : Vec F S1x128 .f32) : Vec F S4000x128 .f32 :=
  View.canon [⟨rB2, k2_pay1 (View.ld x0 rB2) (View.ld x1 rR2) (View.ld x2 rR2) (View.ld x3 rR2) (View.ld x4 rR2)⟩]

/-- The one store is of the whole block, so it covers the buffer. -/
theorem cover2_5 (p0 : Vec F S4000x128 .f32) (y : S4000x128.Idx) :
    ∃ pc ∈ ([⟨rB2, p0⟩] : List (View.Piece (Elt F) S4000x128 .f32)), y ∈ pc.1.set :=
  View.cover_of_tiled [⟨rB2, p0⟩] S4000x128.size (by rfl) y

/-! ## The body's triple -/

set_option maxHeartbeats 1000000 in
/-- The body on whole staging memrefs — the five inputs' at contents `x0..x4`, the output's at anything (the body
    loads the output block before overwriting all of it, so what it held does not matter) — runs to the continuation
    holding the inputs' as they were and the output's at `out2_5` of the inputs. -/
theorem sound_kernel2 (c : Dev nD) (E : Set ℕ) (i : grid2.Coords) (arg0 : Memref sig .tc .vmem S4000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S4000x128 .f32) (harg5 : arg5.IsWhole)
    (x0 : Vec F S4000x128 .f32) (x1 x2 x3 x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__bn_lrelu_kernel i arg0 harg0 arg1 harg1 arg2 harg2 arg3 harg3 arg4 harg4 arg5 harg5) K := by
  simp only [cc2__bn_lrelu_kernel_eq_skeleton]; unfold cc2__bn_lrelu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the pipeline on core `c`: the arrays as the region finds them; after the body at point `t`
    each input's buffer at its block and the output's at `out2_5` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t =
    out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
import proofs.«154353_j88940182765819_1_alg».proof.Proof.Gen.Kernel.Launch
import proofs.«154353_j88940182765819_1_alg».proof.Proof.Gen.Kernel.Skeleton
import proofs.«154353_j88940182765819_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 3: the normalise-and-leaky-relu kernel on a 25-point grid of 4000-row blocks, at the entry contents `V`

Windows 0..4 are inputs: window 0 the 4000x128 row block of the activations at the grid point, windows 1..4 the
1x128 rows (scale, shift, mean, variance), the same block at every point. Window 5 is the output, the 4000x128 row
block at the grid point. The body loads each input whole, computes the normalised, shifted and leaky-rectified
block, and stores it whole. -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's current staging buffer holds its block at every point — at the points where the block is
fetched and at those where it is not (the four rows are fetched at the first point only; their block index never
moves, so what the first fetch put there is still the block) — for any proof data whose array is the entry contents
and whose body leaves the block in place. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 4000x128 block, and the whole 1x128 row, as rectangles: every load and the one store are of these. -/
abbrev rB3 : Rect S4000x128 := Rect.unit (s := S4000x128) ![0, 0] S4000x128.size inb_S4000x128_S4000x128_0_0
abbrev rR3 : Rect S1x128 := Rect.unit (s := S1x128) ![0, 0] S1x128.size inb_S1x128_S1x128_0_0

/-! ## What the body leaves in the output window's buffer -/

/-- The output block after the body: its one whole-block store, of the payload (the normalised, shifted,
    leaky-rectified block) over the five loaded inputs. -/
def out3_5 (x0 : Vec F S4000x128 .f32) (x1 x2 x3 x4 : Vec F S1x128 .f32) : Vec F S4000x128 .f32 :=
  View.canon [⟨rB3, k3_pay1 (View.ld x0 rB3) (View.ld x1 rR3) (View.ld x2 rR3) (View.ld x3 rR3) (View.ld x4 rR3)⟩]

/-- The one store is of the whole block, so it covers the buffer. -/
theorem cover3_5 (p0 : Vec F S4000x128 .f32) (y : S4000x128.Idx) :
    ∃ pc ∈ ([⟨rB3, p0⟩] : List (View.Piece (Elt F) S4000x128 .f32)), y ∈ pc.1.set :=
  View.cover_of_tiled [⟨rB3, p0⟩] S4000x128.size (by rfl) y

/-! ## The body's triple -/

set_option maxHeartbeats 1000000 in
/-- The body on whole staging memrefs — the five inputs' at contents `x0..x4`, the output's at anything (the body
    loads the output block before overwriting all of it, so what it held does not matter) — runs to the continuation
    holding the inputs' as they were and the output's at `out3_5` of the inputs. -/
theorem sound_kernel3 (c : Dev nD) (E : Set ℕ) (i : grid3.Coords) (arg0 : Memref sig .tc .vmem S4000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S4000x128 .f32) (harg5 : arg5.IsWhole)
    (x0 : Vec F S4000x128 .f32) (x1 x2 x3 x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out3_5 x0 x1 x2 x3 x4)) -∗ K ⟨⟩))
      ⊢ wp frame (wpE (defs₀ (F := F)) Variants.none c none) E (cc3__bn_lrelu_kernel i arg0 harg0 arg1 harg1 arg2 harg2 arg3 harg3 arg4 harg4 arg5 harg5) K := by
  simp only [cc3__bn_lrelu_kernel_eq_skeleton]; unfold cc3__bn_lrelu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of the pipeline on core `c`: the arrays as the region finds them; after the body at point `t`
    each input's buffer at its block and the output's at `out3_5` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t =
    out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Region4.Kit.lean ====
import proofs.«154353_j88940182765819_1_alg».proof.Proof.Gen.Kernel.Launch
import proofs.«154353_j88940182765819_1_alg».proof.Proof.Gen.Kernel.Skeleton
import proofs.«154353_j88940182765819_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks

Region 4 is the fused convolution-and-statistics call: windows 0 and 1 are the two 4000-row blocks of the
destination features and of the aggregated neighbour features, windows 2..8 the resident weights and bias rows,
window 9 the 4000-row block of the result `h`, windows 10 and 11 the two [1,128] rows of column sums of `h` and of
`h*h`, which the body stores at the last grid point only. -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (an input not
    fetched at a point has not moved its block index), for any proof data whose array is `V`'s and whose body leaves
    the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (an input not
    fetched at a point has not moved its block index), for any proof data whose array is `V`'s and whose body leaves
    the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not (an input not
    fetched at a point has not moved its block index), for any proof data whose array is `V`'s and whose body leaves
    the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not (an input not
    fetched at a point has not moved its block index), for any proof data whose array is `V`'s and whose body leaves
    the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not (an input not
    fetched at a point has not moved its block index), for any proof data whose array is `V`'s and whose body leaves
    the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not (an input not
    fetched at a point has not moved its block index), for any proof data whose array is `V`'s and whose body leaves
    the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not (an input not
    fetched at a point has not moved its block index), for any proof data whose array is `V`'s and whose body leaves
    the block in place. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current staging buffer holds its block at every point, fetched there or not (an input not
    fetched at a point has not moved its block index), for any proof data whose array is `V`'s and whose body leaves
    the block in place. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- Input window 8's current staging buffer holds its block at every point, fetched there or not (an input not
    fetched at a point has not moved its block index), for any proof data whose array is `V`'s and whose body leaves
    the block in place. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions

The body zeroes its two accumulator rows under `i == 0` and copies them to the two row outputs under `i == 24`;
over the 25 grid points this gives three cases: the first point, the points 1..23, the last point. -/

/-- The condition of the first conditional (zero the accumulators), from the grid coordinates. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)

/-- The condition of the second conditional (copy the accumulators out), from the grid coordinates. -/
abbrev cond4_1 (i : grid4.Coords) : Prop := k4_cond2 i = 1#1
/-- It holds at the last point only. -/
theorem hcond4_1 : ∀ t : Fin cfg4.N, cond4_1 (grid4.coords t) ↔ t.val = 24 :=
  (by decide +kernel : ∀ t : Fin grid4.N, cond4_1 (grid4.coords t) ↔ t.val = 24)

/-! ## Where the windows are idle -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
theorem liveAt4_6 : ∀ t : Fin cfg4.N, cfg4.idle 6 (grid4.coords t) = false := by decide +kernel
theorem liveAt4_7 : ∀ t : Fin cfg4.N, cfg4.idle 7 (grid4.coords t) = false := by decide +kernel
theorem liveAt4_8 : ∀ t : Fin cfg4.N, cfg4.idle 8 (grid4.coords t) = false := by decide +kernel
theorem liveAt4_9 : ∀ t : Fin cfg4.N, cfg4.idle 9 (grid4.coords t) = false := by decide +kernel
/-- Before the last point the body stores nothing into row output 10: the window is idle there and not written back. -/
theorem idleAt4_10 : ∀ t : Fin cfg4.N, ¬cond4_1 (grid4.coords t) → cfg4.idle 10 (grid4.coords t) = true := by decide +kernel
theorem noFlush4_10 : ∀ t : Fin cfg4.N, ¬cond4_1 (grid4.coords t) → (cfg4.win 10).flush t = false := by decide +kernel
/-- At the last point it is live: the body stores the accumulator row into it. -/
theorem liveAt4_10_C : ∀ t : Fin cfg4.N, cond4_1 (grid4.coords t) → cfg4.idle 10 (grid4.coords t) = false := by decide +kernel
/-- Before the last point the body stores nothing into row output 11: the window is idle there and not written back. -/
theorem idleAt4_11 : ∀ t : Fin cfg4.N, ¬cond4_1 (grid4.coords t) → cfg4.idle 11 (grid4.coords t) = true := by decide +kernel
theorem noFlush4_11 : ∀ t : Fin cfg4.N, ¬cond4_1 (grid4.coords t) → (cfg4.win 11).flush t = false := by decide +kernel
/-- At the last point it is live: the body stores the accumulator row into it. -/
theorem liveAt4_11_C : ∀ t : Fin cfg4.N, cond4_1 (grid4.coords t) → cfg4.idle 11 (grid4.coords t) = false := by decide +kernel

/-! ## Staging memrefs, scratch rows and the views their contents are stated through -/
abbrev ms4_0 (t : Fin cfg4.N) : Memref sig .tc .vmem S4000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S4000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S128x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S128x128 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x128 .f32 := win4_8.stage (cfg4.slots t 8)
abbrev hs4_8 (t : Fin cfg4.N) : (ms4_8 t).IsWhole := hstage4_8 ((cfg4.slots t 8).cast nbuf4_8)
abbrev ms4_9 (t : Fin cfg4.N) : Memref sig .tc .vmem S4000x128 .f32 := win4_9.stage (cfg4.slots t 9)
abbrev hs4_9 (t : Fin cfg4.N) : (ms4_9 t).IsWhole := hstage4_9 ((cfg4.slots t 9).cast nbuf4_9)
abbrev ms4_10 (t : Fin cfg4.N) : Memref sig .tc .vmem S1x128 .f32 := win4_10.stage (cfg4.slots t 10)
abbrev hs4_10 (t : Fin cfg4.N) : (ms4_10 t).IsWhole := hstage4_10 ((cfg4.slots t 10).cast nbuf4_10)
abbrev ms4_11 (t : Fin cfg4.N) : Memref sig .tc .vmem S1x128 .f32 := win4_11.stage (cfg4.slots t 11)
abbrev hs4_11 (t : Fin cfg4.N) : (ms4_11 t).IsWhole := hstage4_11 ((cfg4.slots t 11).cast nbuf4_11)
/-- The two accumulator rows: whole scoped buffers of the kernel's own, carried from one grid point to the next. -/
abbrev scM4_0 : Memref sig .tc .vmem S1x128 .f32 := Memref.whole cc4_scratch0
abbrev scM4_1 : Memref sig .tc .vmem S1x128 .f32 := Memref.whole cc4_scratch1
abbrev VS4_0 : View sig .tc .vmem S1x128 .f32 := scM4_0.view
abbrev VS4_1 : View sig .tc .vmem S1x128 .f32 := scM4_1.view
/-- One staging buffer of each output window, through which its contents are stated (the choice does not matter). -/
abbrev VO4_9 : View sig .tc .vmem S4000x128 .f32 := (Memref.whole cc4_stg9_0 : Memref sig .tc .vmem S4000x128 .f32).view
abbrev VO4_10 : View sig .tc .vmem S1x128 .f32 := (Memref.whole cc4_stg10_0 : Memref sig .tc .vmem S1x128 .f32).view
abbrev VO4_11 : View sig .tc .vmem S1x128 .f32 := (Memref.whole cc4_stg11_0 : Memref sig .tc .vmem S1x128 .f32).view

/-- The rest of the scoped buffers, beside the two accumulator rows: never opened. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- The class invariant with the two accumulator rows as memrefs owned at some contents: what the body
    obligation hands the run at the first point and what the region gives back at the end. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 c) ∗ (∃ r, prngReg c r)) := by
  unfold Pipeline.ΦA; rw [scopedRest4_split]; simp only [scM4_0, scM4_1, owns_whole]; try rfl

end Cert.Kernel.Hand

end
-- ==== Proof.K.Region4.RunA.lean ====
import proofs.«154353_j88940182765819_1_alg».proof.Proof.K.Region4.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body AT THE FIRST POINT (the accumulators zeroed first; nothing copied out), run on whole staging memrefs: the nine
    inputs at their contents `x·`, the block output's buffer at anything, the two row outputs' buffers at contents `xi·` handed back untouched (the body stores nothing into them here),
    the two accumulator rows at anything (the body overwrites them before reading). The body runs to the continuation holding the
    inputs as they were and every stored buffer with its pieces written; the pieces (last store first) are the
    witness the run finds. -/
noncomputable def kernelRun4_A (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond4_0 i) (hc1 : ¬cond4_1 i)
    (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) :
    Σ' (L9 : List (View.Piece (Elt F) S4000x128 .f32)) (LS0 : List (View.Piece (Elt F) S1x128 .f32)), { LS1 : List (View.Piece (Elt F) S1x128 .f32) //
      ∀ (xi10 xi11 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc4__conv_stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    haveI : Fact (cond4_0 i) := ⟨hc0⟩
    haveI : Fact (¬cond4_1 i) := ⟨hc1⟩
    simp only [cc4__conv_stats_kernel_eq_skeleton]; unfold cc4__conv_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.Kernel.Hand

end
-- ==== Proof.K.Region4.RunB.lean ====
import proofs.«154353_j88940182765819_1_alg».proof.Proof.K.Region4.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body AT THE POINTS 1..23 (neither conditional taken), run on whole staging memrefs: the nine
    inputs at their contents `x·`, the block output's buffer at anything, the two row outputs' buffers at contents `xi·` handed back untouched (the body stores nothing into them here),
    the two accumulator rows at what the point before left in them (`xs·`). The body runs to the continuation holding the
    inputs as they were and every stored buffer with its pieces written; the pieces (last store first) are the
    witness the run finds. -/
noncomputable def kernelRun4_B (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond4_0 i) (hc1 : ¬cond4_1 i)
    (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S1x128 .f32) (xs1 : Vec F S1x128 .f32) :
    Σ' (L9 : List (View.Piece (Elt F) S4000x128 .f32)) (LS0 : List (View.Piece (Elt F) S1x128 .f32)), { LS1 : List (View.Piece (Elt F) S1x128 .f32) //
      ∀ (xi10 xi11 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc4__conv_stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    haveI : Fact (¬cond4_0 i) := ⟨hc0⟩
    haveI : Fact (¬cond4_1 i) := ⟨hc1⟩
    simp only [cc4__conv_stats_kernel_eq_skeleton]; unfold cc4__conv_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.Kernel.Hand

end
-- ==== Proof.K.Region4.RunC.lean ====
import proofs.«154353_j88940182765819_1_alg».proof.Proof.K.Region4.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body AT THE LAST POINT (the accumulators copied to the two row outputs at the end), run on whole staging memrefs: the nine
    inputs at their contents `x·`, the block output's buffer at anything, the two row outputs' buffers at anything,
    the two accumulator rows at what the point before left in them (`xs·`). The body runs to the continuation holding the
    inputs as they were and every stored buffer with its pieces written; the pieces (last store first) are the
    witness the run finds. -/
noncomputable def kernelRun4_C (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond4_0 i) (hc1 : cond4_1 i)
    (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S1x128 .f32) (xs1 : Vec F S1x128 .f32) :
    Σ' (L9 : List (View.Piece (Elt F) S4000x128 .f32)) (L10 : List (View.Piece (Elt F) S1x128 .f32)) (L11 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc4__conv_stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    haveI : Fact (¬cond4_0 i) := ⟨hc0⟩
    haveI : Fact (cond4_1 i) := ⟨hc1⟩
    simp only [cc4__conv_stats_kernel_eq_skeleton]; unfold cc4__conv_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.Kernel.Hand

end
-- ==== Proof.K.Region4.lean ====
import proofs.«154353_j88940182765819_1_alg».proof.Proof.K.Region4.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The three runs at a grid point

Each case's run of the body, taken at the staging memrefs the pipeline passes at point `t`, the two accumulator
rows, and the input blocks read off the arrays as the region finds them. -/

/-- The first point: the accumulators are zeroed, then the block is processed. -/
def runA4 (c : Dev nD) (t : Fin cfg4.N) (h0 : t.val = 0) :=
  kernelRun4_A (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) scM4_0 (Memref.isWhole_whole _) scM4_1 (Memref.isWhole_whole _)
    ((hcond4_0 t).mpr h0) (fun h => by have h' := (hcond4_1 t).mp h; omega) (iblk4 V c 0 t) (iblk4 V c 1 t) (iblk4 V c 2 t) (iblk4 V c 3 t) (iblk4 V c 4 t) (iblk4 V c 5 t) (iblk4 V c 6 t) (iblk4 V c 7 t) (iblk4 V c 8 t)

/-- A point 1..23: the block is processed, the accumulators found at `xs·`. -/
def runB4 (c : Dev nD) (t : Fin cfg4.N) (h0 : ¬t.val = 0) (h1 : ¬t.val = 24) (xs0 xs1 : Vec F S1x128 .f32) :=
  kernelRun4_B (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) scM4_0 (Memref.isWhole_whole _) scM4_1 (Memref.isWhole_whole _)
    (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) xs0 xs1

/-- The last point: the block is processed, then the accumulators are copied to the two row outputs. -/
def runC4 (c : Dev nD) (t : Fin cfg4.N) (h0 : ¬t.val = 0) (h1 : t.val = 24) (xs0 xs1 : Vec F S1x128 .f32) :=
  kernelRun4_C (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) scM4_0 (Memref.isWhole_whole _) scM4_1 (Memref.isWhole_whole _)
    (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) (iblk4 V c 8 t) xs0 xs1

/-! ## What each case leaves: the pieces read back, and that they cover -/

/-- A row output the body does not store into at a point: a placeholder nothing consults (the window is idle there,
    neither written back nor read at the next point). -/
def idleRow4_10 : Vec F S1x128 .f32 := VO4_10.read (Elt F) (VO4_10.writes (Elt F) VO4_10.junk [])
def idleRow4_11 : Vec F S1x128 .f32 := VO4_11.read (Elt F) (VO4_11.writes (Elt F) VO4_11.junk [])

/-- Case A's stores into the block output's staging buffer cover it (each store writes the whole buffer). -/
theorem cover_o9A4 (c : Dev nD) (t : Fin cfg4.N) (h0 : t.val = 0) (y : S4000x128.Idx) :
    ∃ pc ∈ (runA4 V c t h0).1, y ∈ pc.1.set :=
  View.cover_of_tiledL (runA4 V c t h0).1 S4000x128.size (by sl_kernel_rfl) y
/-- What case A leaves in the block output's staging buffer: its pieces read back. -/
def o9A4 (c : Dev nD) (t : Fin cfg4.N) (h0 : t.val = 0) : Vec F S4000x128 .f32 :=
  VO4_9.read (Elt F) (VO4_9.writes (Elt F) VO4_9.junk (runA4 V c t h0).1)

/-- Case A's stores into accumulator row 0 cover it (each store writes the whole buffer). -/
theorem cover_s0A4 (c : Dev nD) (t : Fin cfg4.N) (h0 : t.val = 0) (y : S1x128.Idx) :
    ∃ pc ∈ (runA4 V c t h0).2.1, y ∈ pc.1.set :=
  View.cover_of_tiledL (runA4 V c t h0).2.1 S1x128.size (by sl_kernel_rfl) y
/-- What case A leaves in accumulator row 0: its pieces read back. -/
def s0A4 (c : Dev nD) (t : Fin cfg4.N) (h0 : t.val = 0) : Vec F S1x128 .f32 :=
  VS4_0.read (Elt F) (VS4_0.writes (Elt F) VS4_0.junk (runA4 V c t h0).2.1)

/-- Case A's stores into accumulator row 1 cover it (each store writes the whole buffer). -/
theorem cover_s1A4 (c : Dev nD) (t : Fin cfg4.N) (h0 : t.val = 0) (y : S1x128.Idx) :
    ∃ pc ∈ (runA4 V c t h0).2.2.1, y ∈ pc.1.set :=
  View.cover_of_tiledL (runA4 V c t h0).2.2.1 S1x128.size (by sl_kernel_rfl) y
/-- What case A leaves in accumulator row 1: its pieces read back. -/
def s1A4 (c : Dev nD) (t : Fin cfg4.N) (h0 : t.val = 0) : Vec F S1x128 .f32 :=
  VS4_1.read (Elt F) (VS4_1.writes (Elt F) VS4_1.junk (runA4 V c t h0).2.2.1)

/-- Case B's stores into the block output's staging buffer cover it (each store writes the whole buffer). -/
theorem cover_o9B4 (c : Dev nD) (t : Fin cfg4.N) (h0 : ¬t.val = 0) (h1 : ¬t.val = 24) (xs0 xs1 : Vec F S1x128 .f32) (y : S4000x128.Idx) :
    ∃ pc ∈ (runB4 V c t h0 h1 xs0 xs1).1, y ∈ pc.1.set :=
  View.cover_of_tiledL (runB4 V c t h0 h1 xs0 xs1).1 S4000x128.size (by sl_kernel_rfl) y
/-- What case B leaves in the block output's staging buffer: its pieces read back. -/
def o9B4 (c : Dev nD) (t : Fin cfg4.N) (h0 : ¬t.val = 0) (h1 : ¬t.val = 24) (xs0 xs1 : Vec F S1x128 .f32) : Vec F S4000x128 .f32 :=
  VO4_9.read (Elt F) (VO4_9.writes (Elt F) VO4_9.junk (runB4 V c t h0 h1 xs0 xs1).1)

/-- Case B's stores into accumulator row 0 cover it (each store writes the whole buffer). -/
theorem cover_s0B4 (c : Dev nD) (t : Fin cfg4.N) (h0 : ¬t.val = 0) (h1 : ¬t.val = 24) (xs0 xs1 : Vec F S1x128 .f32) (y : S1x128.Idx) :
    ∃ pc ∈ (runB4 V c t h0 h1 xs0 xs1).2.1, y ∈ pc.1.set :=
  View.cover_of_tiledL (runB4 V c t h0 h1 xs0 xs1).2.1 S1x128.size (by sl_kernel_rfl) y
/-- What case B leaves in accumulator row 0: its pieces read back. -/
def s0B4 (c : Dev nD) (t : Fin cfg4.N) (h0 : ¬t.val = 0) (h1 : ¬t.val = 24) (xs0 xs1 : Vec F S1x128 .f32) : Vec F S1x128 .f32 :=
  VS4_0.read (Elt F) (VS4_0.writes (Elt F) VS4_0.junk (runB4 V c t h0 h1 xs0 xs1).2.1)

/-- Case B's stores into accumulator row 1 cover it (each store writes the whole buffer). -/
theorem cover_s1B4 (c : Dev nD) (t : Fin cfg4.N) (h0 : ¬t.val = 0) (h1 : ¬t.val = 24) (xs0 xs1 : Vec F S1x128 .f32) (y : S1x128.Idx) :
    ∃ pc ∈ (runB4 V c t h0 h1 xs0 xs1).2.2.1, y ∈ pc.1.set :=
  View.cover_of_tiledL (runB4 V c t h0 h1 xs0 xs1).2.2.1 S1x128.size (by sl_kernel_rfl) y
/-- What case B leaves in accumulator row 1: its pieces read back. -/
def s1B4 (c : Dev nD) (t : Fin cfg4.N) (h0 : ¬t.val = 0) (h1 : ¬t.val = 24) (xs0 xs1 : Vec F S1x128 .f32) : Vec F S1x128 .f32 :=
  VS4_1.read (Elt F) (VS4_1.writes (Elt F) VS4_1.junk (runB4 V c t h0 h1 xs0 xs1).2.2.1)

/-- Case C's stores into the block output's staging buffer cover it (each store writes the whole buffer). -/
theorem cover_o9C4 (c : Dev nD) (t : Fin cfg4.N) (h0 : ¬t.val = 0) (h1 : t.val = 24) (xs0 xs1 : Vec F S1x128 .f32) (y : S4000x128.Idx) :
    ∃ pc ∈ (runC4 V c t h0 h1 xs0 xs1).1, y ∈ pc.1.set :=
  View.cover_of_tiledL (runC4 V c t h0 h1 xs0 xs1).1 S4000x128.size (by sl_kernel_rfl) y
/-- What case C leaves in the block output's staging buffer: its pieces read back. -/
def o9C4 (c : Dev nD) (t : Fin cfg4.N) (h0 : ¬t.val = 0) (h1 : t.val = 24) (xs0 xs1 : Vec F S1x128 .f32) : Vec F S4000x128 .f32 :=
  VO4_9.read (Elt F) (VO4_9.writes (Elt F) VO4_9.junk (runC4 V c t h0 h1 xs0 xs1).1)

/-- Case C's stores into row output 10's staging buffer cover it (each store writes the whole buffer). -/
theorem cover_o10C4 (c : Dev nD) (t : Fin cfg4.N) (h0 : ¬t.val = 0) (h1 : t.val = 24) (xs0 xs1 : Vec F S1x128 .f32) (y : S1x128.Idx) :
    ∃ pc ∈ (runC4 V c t h0 h1 xs0 xs1).2.1, y ∈ pc.1.set :=
  View.cover_of_tiledL (runC4 V c t h0 h1 xs0 xs1).2.1 S1x128.size (by sl_kernel_rfl) y
/-- What case C leaves in row output 10's staging buffer: its pieces read back. -/
def o10C4 (c : Dev nD) (t : Fin cfg4.N) (h0 : ¬t.val = 0) (h1 : t.val = 24) (xs0 xs1 : Vec F S1x128 .f32) : Vec F S1x128 .f32 :=
  VO4_10.read (Elt F) (VO4_10.writes (Elt F) VO4_10.junk (runC4 V c t h0 h1 xs0 xs1).2.1)

/-- Case C's stores into row output 11's staging buffer cover it (each store writes the whole buffer). -/
theorem cover_o11C4 (c : Dev nD) (t : Fin cfg4.N) (h0 : ¬t.val = 0) (h1 : t.val = 24) (xs0 xs1 : Vec F S1x128 .f32) (y : S1x128.Idx) :
    ∃ pc ∈ (runC4 V c t h0 h1 xs0 xs1).2.2.1, y ∈ pc.1.set :=
  View.cover_of_tiledL (runC4 V c t h0 h1 xs0 xs1).2.2.1 S1x128.size (by sl_kernel_rfl) y
/-- What case C leaves in row output 11's staging buffer: its pieces read back. -/
def o11C4 (c : Dev nD) (t : Fin cfg4.N) (h0 : ¬t.val = 0) (h1 : t.val = 24) (xs0 xs1 : Vec F S1x128 .f32) : Vec F S1x128 .f32 :=
  VO4_11.read (Elt F) (VO4_11.writes (Elt F) VO4_11.junk (runC4 V c t h0 h1 xs0 xs1).2.2.1)

/-- Case C's stores into accumulator row 0 cover it (each store writes the whole buffer). -/
theorem cover_s0C4 (c : Dev nD) (t : Fin cfg4.N) (h0 : ¬t.val = 0) (h1 : t.val = 24) (xs0 xs1 : Vec F S1x128 .f32) (y : S1x128.Idx) :
    ∃ pc ∈ (runC4 V c t h0 h1 xs0 xs1).2.2.2.1, y ∈ pc.1.set :=
  View.cover_of_tiledL (runC4 V c t h0 h1 xs0 xs1).2.2.2.1 S1x128.size (by sl_kernel_rfl) y
/-- What case C leaves in accumulator row 0: its pieces read back. -/
def s0C4 (c : Dev nD) (t : Fin cfg4.N) (h0 : ¬t.val = 0) (h1 : t.val = 24) (xs0 xs1 : Vec F S1x128 .f32) : Vec F S1x128 .f32 :=
  VS4_0.read (Elt F) (VS4_0.writes (Elt F) VS4_0.junk (runC4 V c t h0 h1 xs0 xs1).2.2.2.1)

/-- Case C's stores into accumulator row 1 cover it (each store writes the whole buffer). -/
theorem cover_s1C4 (c : Dev nD) (t : Fin cfg4.N) (h0 : ¬t.val = 0) (h1 : t.val = 24) (xs0 xs1 : Vec F S1x128 .f32) (y : S1x128.Idx) :
    ∃ pc ∈ (runC4 V c t h0 h1 xs0 xs1).2.2.2.2.1, y ∈ pc.1.set :=
  View.cover_of_tiledL (runC4 V c t h0 h1 xs0 xs1).2.2.2.2.1 S1x128.size (by sl_kernel_rfl) y
/-- What case C leaves in accumulator row 1: its pieces read back. -/
def s1C4 (c : Dev nD) (t : Fin cfg4.N) (h0 : ¬t.val = 0) (h1 : t.val = 24) (xs0 xs1 : Vec F S1x128 .f32) : Vec F S1x128 .f32 :=
  VS4_1.read (Elt F) (VS4_1.writes (Elt F) VS4_1.junk (runC4 V c t h0 h1 xs0 xs1).2.2.2.2.1)

/-! ## What the outputs and the accumulators hold after each point -/

/-- THE ACCUMULATION. After the body at position `n`: the block output's staging buffer, the two row outputs'
    staging buffers, and the two accumulator rows. The first point zeroes the accumulators and adds the block's
    column sums; every later point adds its block's column sums to what the point before left; the last point also
    copies the two accumulators into the row outputs. -/
def outsAt4 (c : Dev nD) : (n : ℕ) → n < cfg4.N → Vec F S4000x128 .f32 × Vec F S1x128 .f32 × Vec F S1x128 .f32 × Vec F S1x128 .f32 × Vec F S1x128 .f32
  | 0, hn => (o9A4 V c ⟨0, hn⟩ rfl, idleRow4_10, idleRow4_11, s0A4 V c ⟨0, hn⟩ rfl, s1A4 V c ⟨0, hn⟩ rfl)
  | n + 1, hn =>
    if h1 : n + 1 = 24 then
      (o9C4 V c ⟨n + 1, hn⟩ (Nat.succ_ne_zero n) h1 (outsAt4 c n (Nat.lt_of_succ_lt hn)).2.2.2.1 (outsAt4 c n (Nat.lt_of_succ_lt hn)).2.2.2.2, o10C4 V c ⟨n + 1, hn⟩ (Nat.succ_ne_zero n) h1 (outsAt4 c n (Nat.lt_of_succ_lt hn)).2.2.2.1 (outsAt4 c n (Nat.lt_of_succ_lt hn)).2.2.2.2, o11C4 V c ⟨n + 1, hn⟩ (Nat.succ_ne_zero n) h1 (outsAt4 c n (Nat.lt_of_succ_lt hn)).2.2.2.1 (outsAt4 c n (Nat.lt_of_succ_lt hn)).2.2.2.2, s0C4 V c ⟨n + 1, hn⟩ (Nat.succ_ne_zero n) h1 (outsAt4 c n (Nat.lt_of_succ_lt hn)).2.2.2.1 (outsAt4 c n (Nat.lt_of_succ_lt hn)).2.2.2.2, s1C4 V c ⟨n + 1, hn⟩ (Nat.succ_ne_zero n) h1 (outsAt4 c n (Nat.lt_of_succ_lt hn)).2.2.2.1 (outsAt4 c n (Nat.lt_of_succ_lt hn)).2.2.2.2)
    else
      (o9B4 V c ⟨n + 1, hn⟩ (Nat.succ_ne_zero n) h1 (outsAt4 c n (Nat.lt_of_succ_lt hn)).2.2.2.1 (outsAt4 c n (Nat.lt_of_succ_lt hn)).2.2.2.2, idleRow4_10, idleRow4_11, s0B4 V c ⟨n + 1, hn⟩ (Nat.succ_ne_zero n) h1 (outsAt4 c n (Nat.lt_of_succ_lt hn)).2.2.2.1 (outsAt4 c n (Nat.lt_of_succ_lt hn)).2.2.2.2, s1B4 V c ⟨n + 1, hn⟩ (Nat.succ_ne_zero n) h1 (outsAt4 c n (Nat.lt_of_succ_lt hn)).2.2.2.1 (outsAt4 c n (Nat.lt_of_succ_lt hn)).2.2.2.2)

/-- `outsAt4` at the first point. -/
theorem outsAt4_A (c : Dev nD) (t : Fin cfg4.N) (h0 : t.val = 0) :
    outsAt4 V c t.val t.isLt = (o9A4 V c t h0, idleRow4_10, idleRow4_11, s0A4 V c t h0, s1A4 V c t h0) := by
  obtain ⟨n, hn⟩ := t
  cases n with
  | zero => exact rfl
  | succ n => exact absurd h0 (Nat.succ_ne_zero n)

/-- `outsAt4` at a point 1..23: over what the point before left in the accumulators. -/
theorem outsAt4_B (c : Dev nD) (t : Fin cfg4.N) (h0 : ¬t.val = 0) (h1 : ¬t.val = 24) :
    outsAt4 V c t.val t.isLt = (o9B4 V c t h0 h1 (outsAt4 V c (t.val - 1) (Nat.lt_of_le_of_lt (Nat.sub_le _ _) t.isLt)).2.2.2.1 (outsAt4 V c (t.val - 1) (Nat.lt_of_le_of_lt (Nat.sub_le _ _) t.isLt)).2.2.2.2, idleRow4_10, idleRow4_11, s0B4 V c t h0 h1 (outsAt4 V c (t.val - 1) (Nat.lt_of_le_of_lt (Nat.sub_le _ _) t.isLt)).2.2.2.1 (outsAt4 V c (t.val - 1) (Nat.lt_of_le_of_lt (Nat.sub_le _ _) t.isLt)).2.2.2.2, s1B4 V c t h0 h1 (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt4` at the last point: over what the point before left in the accumulators. -/
theorem outsAt4_C (c : Dev nD) (t : Fin cfg4.N) (h0 : ¬t.val = 0) (h1 : t.val = 24) :
    outsAt4 V c t.val t.isLt = (o9C4 V c t h0 h1 (outsAt4 V c (t.val - 1) (Nat.lt_of_le_of_lt (Nat.sub_le _ _) t.isLt)).2.2.2.1 (outsAt4 V c (t.val - 1) (Nat.lt_of_le_of_lt (Nat.sub_le _ _) t.isLt)).2.2.2.2, o10C4 V c t h0 h1 (outsAt4 V c (t.val - 1) (Nat.lt_of_le_of_lt (Nat.sub_le _ _) t.isLt)).2.2.2.1 (outsAt4 V c (t.val - 1) (Nat.lt_of_le_of_lt (Nat.sub_le _ _) t.isLt)).2.2.2.2, o11C4 V c t h0 h1 (outsAt4 V c (t.val - 1) (Nat.lt_of_le_of_lt (Nat.sub_le _ _) t.isLt)).2.2.2.1 (outsAt4 V c (t.val - 1) (Nat.lt_of_le_of_lt (Nat.sub_le _ _) t.isLt)).2.2.2.2, s0C4 V c t h0 h1 (outsAt4 V c (t.val - 1) (Nat.lt_of_le_of_lt (Nat.sub_le _ _) t.isLt)).2.2.2.1 (outsAt4 V c (t.val - 1) (Nat.lt_of_le_of_lt (Nat.sub_le _ _) t.isLt)).2.2.2.2, s1C4 V c t h0 h1 (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The region invariant before position `n`: before the first point the class invariant (both accumulator rows at
    anything); afterwards the two accumulator rows at what the point before left in them, the other scoped buffers
    unopened, and the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.2.1) ∗ owns (c : Thread nD τ) scM4_1 fullShare ((outsAt4 V c n hn).2.2.2.2)) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2.2.2.1) ∗ owns (c : Thread nD τ) scM4_1 fullShare ((outsAt4 V c n hn).2.2.2.2)) ∗ rest4 (F := F) c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.2.1) ∗ owns (c : Thread nD τ) scM4_1 fullShare ((outsAt4 V c (n - 1) (by omega)).2.2.2.2)) ∗ rest4 (F := F) c) ∗ (∃ r, prngReg c r)) := by
  cases n with
  | zero => exact absurd rfl hz
  | succ n => rfl

/-! ## The pipeline's proof data -/

/-- The proof data of region 4 on core `c`: the arrays as the region finds them (`V`); after the body at point `t`
    each input's buffer at its block and the three outputs' at `outsAt4`'s components; the invariant `PhiS4`;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => (outsAt4 V c t.val t.isLt).1
    | ⟨10, _⟩ => (outsAt4 V c t.val t.isLt).2.1
    | ⟨11, _⟩ => (outsAt4 V c t.val t.isLt).2.2.1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = (outsAt4 V c t.val t.isLt).1 := by dsimp only [dat4]
theorem after4_10 (c : Dev nD) (t : Fin cfg4.N) : (dat4 V c).after 10 t = (outsAt4 V c t.val t.isLt).2.1 := by dsimp only [dat4]
theorem after4_11 (c : Dev nD) (t : Fin cfg4.N) : (dat4 V c).after 11 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d))
    ∗ (∃ d, owns (c : Thread nD τ) (ms4_9 t) fullShare ((dat4 V c).before 9 t d))
    ∗ (∃ d, owns (c : Thread nD τ) (ms4_10 t) fullShare ((dat4 V c).before 10 t d))
    ∗ (∃ d, owns (c : Thread nD τ) (ms4_11 t) fullShare ((dat4 V c).before 11 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t
    ∗ (dat4 V c).leavesExact 9 t
    ∗ (dat4 V c).leavesExact 10 t
    ∗ (dat4 V c).leavesExact 11 t)

set_option maxHeartbeats 8000000 in
/-- The body at any point. The inputs' memrefs hold their blocks; the point is the first, a middle one or the
    last, and that case's run applies. The invariant hands the body the two accumulator rows — at anything at the
    first point, afterwards at what the point before left — and takes them back at this point's contents; the other
    scoped buffers and the generator register pass through; the core owes nothing throughout. A row output is
    handed back untouched at a point that does not store into it. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).owesAt () t.succ = (dat4 V c).owesAt () t.castSucc from rfl]
  rw [show (dat4 V c).Φ t.succ = PhiS4 V c (t.val + 1) t.isLt from rfl, PhiS4_succ]
  have hN : t.val < 25 := lt_of_lt_of_eq t.isLt (show cfg4.N = 25 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  rw [show (dat4 V c).leavesExact 6 t = owns (c : Thread nD τ) (ms4_6 t) fullShare ((dat4 V c).after 6 t) from by
    unfold Dat.leavesExact; rw [liveAt4_6 t], after4_6]
  rw [show (dat4 V c).leavesExact 7 t = owns (c : Thread nD τ) (ms4_7 t) fullShare ((dat4 V c).after 7 t) from by
    unfold Dat.leavesExact; rw [liveAt4_7 t], after4_7]
  rw [show (dat4 V c).leavesExact 8 t = owns (c : Thread nD τ) (ms4_8 t) fullShare ((dat4 V c).after 8 t) from by
    unfold Dat.leavesExact; rw [liveAt4_8 t], after4_8]
  rw [show (dat4 V c).leavesExact 9 t = owns (c : Thread nD τ) (ms4_9 t) fullShare ((dat4 V c).after 9 t) from by
    unfold Dat.leavesExact; rw [liveAt4_9 t], after4_9]
  by_cases h0 : t.val = 0
  · have hc1 : ¬cond4_1 (grid4.coords t) := fun h => by have h' := (hcond4_1 t).mp h; omega
    rw [Dat.leavesExact_idle (dat4 V c) 10 t (idleAt4_10 t hc1) (noFlush4_10 t hc1), Dat.leavesExact_idle (dat4 V c) 11 t (idleAt4_11 t hc1) (noFlush4_11 t hc1)]
    rw [outsAt4_A V c t h0]
    unfold o9A4 s0A4 s1A4; (try dsimp only)
    rw [PhiS4_castSucc V c t, PhiS4_zero V c _ _ h0, PhiA4_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA4 V c t h0).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, H10, H11, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (cover_s0A4 V c t h0)
          · unfold owns; iexists _; isplitr
            swap; · iexact HS1
            ipureintro; exact View.read_writes_of_cover _ _ _ _ _ (cover_s1A4 V c t h0)
        · iexact Hr
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover_o9A4 V c t h0)
    isplitl [H10]; · iexists _; iexact H10
    iexists _; iexact H11

  · by_cases h1 : t.val = 24
    · have hc1 : cond4_1 (grid4.coords t) := (hcond4_1 t).mpr h1
      rw [show (dat4 V c).leavesExact 10 t = owns (c : Thread nD τ) (ms4_10 t) fullShare ((dat4 V c).after 10 t) from by
        unfold Dat.leavesExact; rw [liveAt4_10_C t hc1], after4_10]
      rw [show (dat4 V c).leavesExact 11 t = owns (c : Thread nD τ) (ms4_11 t) fullShare ((dat4 V c).after 11 t) from by
        unfold Dat.leavesExact; rw [liveAt4_11_C t hc1], after4_11]
      rw [outsAt4_C V c t h0 h1]
      unfold o9C4 o10C4 o11C4 s0C4 s1C4; (try dsimp only)
      rw [PhiS4_castSucc V c t, PhiS4_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runC4 V c t h0 h1 _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (cover_s0C4 V c t h0 h1 _ _)
            · unfold owns; iexists _; isplitr
              swap; · iexact HS1
              ipureintro; exact View.read_writes_of_cover _ _ _ _ _ (cover_s1C4 V c t h0 h1 _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover_o9C4 V c t h0 h1 _ _)
      isplitl [H10]
      · unfold owns; iexists _; isplitr
        swap; · iexact H10
        ipureintro; exact View.read_writes_of_cover _ _ _ _ _ (cover_o10C4 V c t h0 h1 _ _)
      unfold owns; iexists _; isplitr
      swap; · iexact H11
      ipureintro; exact View.read_writes_of_cover _ _ _ _ _ (cover_o11C4 V c t h0 h1 _ _)
    · have hc1 : ¬cond4_1 (grid4.coords t) := fun h => h1 ((hcond4_1 t).mp h)
      rw [Dat.leavesExact_idle (dat4 V c) 10 t (idleAt4_10 t hc1) (noFlush4_10 t hc1), Dat.leavesExact_idle (dat4 V c) 11 t (idleAt4_11 t hc1) (noFlush4_11 t hc1)]
      rw [outsAt4_B V c t h0 h1]
      unfold o9B4 s0B4 s1B4; (try dsimp only)
      rw [PhiS4_castSucc V c t, PhiS4_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB4 V c t h0 h1 _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, H10, H11, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (cover_s0B4 V c t h0 h1 _ _)
            · unfold owns; iexists _; isplitr
              swap; · iexact HS1
              ipureintro; exact View.read_writes_of_cover _ _ _ _ _ (cover_s1B4 V c t h0 h1 _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover_o9B4 V c t h0 h1 _ _)
      isplitl [H10]; · iexists _; iexact H10
      iexists _; iexact H11

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class invariant back: the accumulators' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

/-- The same after the last point. -/
theorem hout4 (c : Dev nD) : (dat4 V c).Φ (Fin.last cfg4.N) ⊢ Pipeline.ΦA spec4 c :=
  Phi_out4 V c _ (by rw [Fin.val_last]; have : cfg4.N = 25 := N_4; omega)

end Cert.Kernel.Hand

end
-- ==== Proof.K.Region5.Kit.lean ====
import proofs.«154353_j88940182765819_1_alg».proof.Proof.Gen.Kernel.Launch
import proofs.«154353_j88940182765819_1_alg».proof.Proof.Gen.Kernel.Skeleton
import proofs.«154353_j88940182765819_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks

Region 5 is the fused convolution-and-statistics call: windows 0 and 1 are the two 4000-row blocks of the
destination features and of the aggregated neighbour features, windows 2..8 the resident weights and bias rows,
window 9 the 4000-row block of the result `h`, windows 10 and 11 the two [1,128] rows of column sums of `h` and of
`h*h`, which the body stores at the last grid point only. -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not (an input not
    fetched at a point has not moved its block index), for any proof data whose array is `V`'s and whose body leaves
    the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not (an input not
    fetched at a point has not moved its block index), for any proof data whose array is `V`'s and whose body leaves
    the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not (an input not
    fetched at a point has not moved its block index), for any proof data whose array is `V`'s and whose body leaves
    the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not (an input not
    fetched at a point has not moved its block index), for any proof data whose array is `V`'s and whose body leaves
    the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not (an input not
    fetched at a point has not moved its block index), for any proof data whose array is `V`'s and whose body leaves
    the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not (an input not
    fetched at a point has not moved its block index), for any proof data whose array is `V`'s and whose body leaves
    the block in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not (an input not
    fetched at a point has not moved its block index), for any proof data whose array is `V`'s and whose body leaves
    the block in place. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7's current staging buffer holds its block at every point, fetched there or not (an input not
    fetched at a point has not moved its block index), for any proof data whose array is `V`'s and whose body leaves
    the block in place. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- Input window 8's current staging buffer holds its block at every point, fetched there or not (an input not
    fetched at a point has not moved its block index), for any proof data whose array is `V`'s and whose body leaves
    the block in place. -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-! ## The body's two conditions

The body zeroes its two accumulator rows under `i == 0` and copies them to the two row outputs under `i == 24`;
over the 25 grid points this gives three cases: the first point, the points 1..23, the last point. -/

/-- The condition of the first conditional (zero the accumulators), from the grid coordinates. -/
abbrev cond5_0 (i : grid5.Coords) : Prop := (Scalar.cmpi .ne (Scalar.extui (Scalar.cmpi .eq (BitVec.ofNat 32 (i 0).val) 0#32)) 0#32) = 1#1
/-- It holds at the first point only. -/
theorem hcond5_0 : ∀ t : Fin cfg5.N, cond5_0 (grid5.coords t) ↔ t.val = 0 :=
  (by decide +kernel : ∀ t : Fin grid5.N, cond5_0 (grid5.coords t) ↔ t.val = 0)

/-- The condition of the second conditional (copy the accumulators out), from the grid coordinates. -/
abbrev cond5_1 (i : grid5.Coords) : Prop := k5_cond2 i = 1#1
/-- It holds at the last point only. -/
theorem hcond5_1 : ∀ t : Fin cfg5.N, cond5_1 (grid5.coords t) ↔ t.val = 24 :=
  (by decide +kernel : ∀ t : Fin grid5.N, cond5_1 (grid5.coords t) ↔ t.val = 24)

/-! ## Where the windows are idle -/
theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
theorem liveAt5_4 : ∀ t : Fin cfg5.N, cfg5.idle 4 (grid5.coords t) = false := by decide +kernel
theorem liveAt5_5 : ∀ t : Fin cfg5.N, cfg5.idle 5 (grid5.coords t) = false := by decide +kernel
theorem liveAt5_6 : ∀ t : Fin cfg5.N, cfg5.idle 6 (grid5.coords t) = false := by decide +kernel
theorem liveAt5_7 : ∀ t : Fin cfg5.N, cfg5.idle 7 (grid5.coords t) = false := by decide +kernel
theorem liveAt5_8 : ∀ t : Fin cfg5.N, cfg5.idle 8 (grid5.coords t) = false := by decide +kernel
theorem liveAt5_9 : ∀ t : Fin cfg5.N, cfg5.idle 9 (grid5.coords t) = false := by decide +kernel
/-- Before the last point the body stores nothing into row output 10: the window is idle there and not written back. -/
theorem idleAt5_10 : ∀ t : Fin cfg5.N, ¬cond5_1 (grid5.coords t) → cfg5.idle 10 (grid5.coords t) = true := by decide +kernel
theorem noFlush5_10 : ∀ t : Fin cfg5.N, ¬cond5_1 (grid5.coords t) → (cfg5.win 10).flush t = false := by decide +kernel
/-- At the last point it is live: the body stores the accumulator row into it. -/
theorem liveAt5_10_C : ∀ t : Fin cfg5.N, cond5_1 (grid5.coords t) → cfg5.idle 10 (grid5.coords t) = false := by decide +kernel
/-- Before the last point the body stores nothing into row output 11: the window is idle there and not written back. -/
theorem idleAt5_11 : ∀ t : Fin cfg5.N, ¬cond5_1 (grid5.coords t) → cfg5.idle 11 (grid5.coords t) = true := by decide +kernel
theorem noFlush5_11 : ∀ t : Fin cfg5.N, ¬cond5_1 (grid5.coords t) → (cfg5.win 11).flush t = false := by decide +kernel
/-- At the last point it is live: the body stores the accumulator row into it. -/
theorem liveAt5_11_C : ∀ t : Fin cfg5.N, cond5_1 (grid5.coords t) → cfg5.idle 11 (grid5.coords t) = false := by decide +kernel

/-! ## Staging memrefs, scratch rows and the views their contents are stated through -/
abbrev ms5_0 (t : Fin cfg5.N) : Memref sig .tc .vmem S4000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S4000x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S128x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S128x128 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1x128 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S128x128 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S128x128 .f32 := win5_7.stage (cfg5.slots t 7)
abbrev hs5_7 (t : Fin cfg5.N) : (ms5_7 t).IsWhole := hstage5_7 ((cfg5.slots t 7).cast nbuf5_7)
abbrev ms5_8 (t : Fin cfg5.N) : Memref sig .tc .vmem S1x128 .f32 := win5_8.stage (cfg5.slots t 8)
abbrev hs5_8 (t : Fin cfg5.N) : (ms5_8 t).IsWhole := hstage5_8 ((cfg5.slots t 8).cast nbuf5_8)
abbrev ms5_9 (t : Fin cfg5.N) : Memref sig .tc .vmem S4000x128 .f32 := win5_9.stage (cfg5.slots t 9)
abbrev hs5_9 (t : Fin cfg5.N) : (ms5_9 t).IsWhole := hstage5_9 ((cfg5.slots t 9).cast nbuf5_9)
abbrev ms5_10 (t : Fin cfg5.N) : Memref sig .tc .vmem S1x128 .f32 := win5_10.stage (cfg5.slots t 10)
abbrev hs5_10 (t : Fin cfg5.N) : (ms5_10 t).IsWhole := hstage5_10 ((cfg5.slots t 10).cast nbuf5_10)
abbrev ms5_11 (t : Fin cfg5.N) : Memref sig .tc .vmem S1x128 .f32 := win5_11.stage (cfg5.slots t 11)
abbrev hs5_11 (t : Fin cfg5.N) : (ms5_11 t).IsWhole := hstage5_11 ((cfg5.slots t 11).cast nbuf5_11)
/-- The two accumulator rows: whole scoped buffers of the kernel's own, carried from one grid point to the next. -/
abbrev scM5_0 : Memref sig .tc .vmem S1x128 .f32 := Memref.whole cc5_scratch0
abbrev scM5_1 : Memref sig .tc .vmem S1x128 .f32 := Memref.whole cc5_scratch1
abbrev VS5_0 : View sig .tc .vmem S1x128 .f32 := scM5_0.view
abbrev VS5_1 : View sig .tc .vmem S1x128 .f32 := scM5_1.view
/-- One staging buffer of each output window, through which its contents are stated (the choice does not matter). -/
abbrev VO5_9 : View sig .tc .vmem S4000x128 .f32 := (Memref.whole cc5_stg9_0 : Memref sig .tc .vmem S4000x128 .f32).view
abbrev VO5_10 : View sig .tc .vmem S1x128 .f32 := (Memref.whole cc5_stg10_0 : Memref sig .tc .vmem S1x128 .f32).view
abbrev VO5_11 : View sig .tc .vmem S1x128 .f32 := (Memref.whole cc5_stg11_0 : Memref sig .tc .vmem S1x128 .f32).view

/-- The rest of the scoped buffers, beside the two accumulator rows: never opened. -/
abbrev rest5 (c : Dev nD) : sProp 𝕄 :=
  Pipeline.scopedRestBut (Ix := Unit) (Name := ℕ) (U := UR sig nD τ) (Lvl := ℕ) (Val := Elt F) spec5 c [cc5_scratch0, cc5_scratch1]

/-- The class invariant with the two accumulator rows as memrefs owned at some contents: what the body
    obligation hands the run at the first point and what the region gives back at the end. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d)) ∗ rest5 c) ∗ (∃ r, prngReg c r)) := by
  unfold Pipeline.ΦA; rw [scopedRest5_split]; simp only [scM5_0, scM5_1, owns_whole]; try rfl

end Cert.Kernel.Hand

end
-- ==== Proof.K.Region5.RunA.lean ====
import proofs.«154353_j88940182765819_1_alg».proof.Proof.K.Region5.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body AT THE FIRST POINT (the accumulators zeroed first; nothing copied out), run on whole staging memrefs: the nine
    inputs at their contents `x·`, the block output's buffer at anything, the two row outputs' buffers at contents `xi·` handed back untouched (the body stores nothing into them here),
    the two accumulator rows at anything (the body overwrites them before reading). The body runs to the continuation holding the
    inputs as they were and every stored buffer with its pieces written; the pieces (last store first) are the
    witness the run finds. -/
noncomputable def kernelRun5_A (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond5_0 i) (hc1 : ¬cond5_1 i)
    (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) :
    Σ' (L9 : List (View.Piece (Elt F) S4000x128 .f32)) (LS0 : List (View.Piece (Elt F) S1x128 .f32)), { LS1 : List (View.Piece (Elt F) S1x128 .f32) //
      ∀ (xi10 xi11 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc5__conv_stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    haveI : Fact (cond5_0 i) := ⟨hc0⟩
    haveI : Fact (¬cond5_1 i) := ⟨hc1⟩
    simp only [cc5__conv_stats_kernel_eq_skeleton]; unfold cc5__conv_stats_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.Kernel.Hand

end
-- ==== Proof.K.Region5.RunB.lean ====
import proofs.«154353_j88940182765819_1_alg».proof.Proof.K.Region5.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body AT THE POINTS 1..23 (neither conditional taken), run on whole staging memrefs: the nine
    inputs at their contents `x·`, the block output's buffer at anything, the two row outputs' buffers at contents `xi·` handed back untouched (the body stores nothing into them here),
    the two accumulator rows at what the point before left in them (`xs·`). The body runs to the continuation holding the
    inputs as they were and every stored buffer with its pieces written; the pieces (last store first) are the
    witness the run finds. -/
noncomputable def kernelRun5_B (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond5_0 i) (hc1 : ¬cond5_1 i)
    (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S1x128 .f32) (xs1 : Vec F S1x128 .f32) :
    Σ' (L9 : List (View.Piece (Elt F) S4000x128 .f32)) (LS0 : List (View.Piece (Elt F) S1x128 .f32)), { LS1 : List (View.Piece (Elt F) S1x128 .f32) //
      ∀ (xi10 xi11 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc5__conv_stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    haveI : Fact (¬cond5_0 i) := ⟨hc0⟩
    haveI : Fact (¬cond5_1 i) := ⟨hc1⟩
    simp only [cc5__conv_stats_kernel_eq_skeleton]; unfold cc5__conv_stats_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.Kernel.Hand

end
-- ==== Proof.K.Region5.RunC.lean ====
import proofs.«154353_j88940182765819_1_alg».proof.Proof.K.Region5.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body AT THE LAST POINT (the accumulators copied to the two row outputs at the end), run on whole staging memrefs: the nine
    inputs at their contents `x·`, the block output's buffer at anything, the two row outputs' buffers at anything,
    the two accumulator rows at what the point before left in them (`xs·`). The body runs to the continuation holding the
    inputs as they were and every stored buffer with its pieces written; the pieces (last store first) are the
    witness the run finds. -/
noncomputable def kernelRun5_C (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond5_0 i) (hc1 : cond5_1 i)
    (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S1x128 .f32) (xs1 : Vec F S1x128 .f32) :
    Σ' (L9 : List (View.Piece (Elt F) S4000x128 .f32)) (L10 : List (View.Piece (Elt F) S1x128 .f32)) (L11 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc5__conv_stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    haveI : Fact (¬cond5_0 i) := ⟨hc0⟩
    haveI : Fact (cond5_1 i) := ⟨hc1⟩
    simp only [cc5__conv_stats_kernel_eq_skeleton]; unfold cc5__conv_stats_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.Kernel.Hand

end
-- ==== Proof.K.Region5.lean ====
import proofs.«154353_j88940182765819_1_alg».proof.Proof.K.Region5.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The three runs at a grid point

Each case's run of the body, taken at the staging memrefs the pipeline passes at point `t`, the two accumulator
rows, and the input blocks read off the arrays as the region finds them. -/

/-- The first point: the accumulators are zeroed, then the block is processed. -/
def runA5 (c : Dev nD) (t : Fin cfg5.N) (h0 : t.val = 0) :=
  kernelRun5_A (F := F) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) scM5_0 (Memref.isWhole_whole _) scM5_1 (Memref.isWhole_whole _)
    ((hcond5_0 t).mpr h0) (fun h => by have h' := (hcond5_1 t).mp h; omega) (iblk5 V c 0 t) (iblk5 V c 1 t) (iblk5 V c 2 t) (iblk5 V c 3 t) (iblk5 V c 4 t) (iblk5 V c 5 t) (iblk5 V c 6 t) (iblk5 V c 7 t) (iblk5 V c 8 t)

/-- A point 1..23: the block is processed, the accumulators found at `xs·`. -/
def runB5 (c : Dev nD) (t : Fin cfg5.N) (h0 : ¬t.val = 0) (h1 : ¬t.val = 24) (xs0 xs1 : Vec F S1x128 .f32) :=
  kernelRun5_B (F := F) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) scM5_0 (Memref.isWhole_whole _) scM5_1 (Memref.isWhole_whole _)
    (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t) xs0 xs1

/-- The last point: the block is processed, then the accumulators are copied to the two row outputs. -/
def runC5 (c : Dev nD) (t : Fin cfg5.N) (h0 : ¬t.val = 0) (h1 : t.val = 24) (xs0 xs1 : Vec F S1x128 .f32) :=
  kernelRun5_C (F := F) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) scM5_0 (Memref.isWhole_whole _) scM5_1 (Memref.isWhole_whole _)
    (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) xs0 xs1

/-! ## What each case leaves: the pieces read back, and that they cover -/

/-- A row output the body does not store into at a point: a placeholder nothing consults (the window is idle there,
    neither written back nor read at the next point). -/
def idleRow5_10 : Vec F S1x128 .f32 := VO5_10.read (Elt F) (VO5_10.writes (Elt F) VO5_10.junk [])
def idleRow5_11 : Vec F S1x128 .f32 := VO5_11.read (Elt F) (VO5_11.writes (Elt F) VO5_11.junk [])

/-- Case A's stores into the block output's staging buffer cover it (each store writes the whole buffer). -/
theorem cover_o9A5 (c : Dev nD) (t : Fin cfg5.N) (h0 : t.val = 0) (y : S4000x128.Idx) :
    ∃ pc ∈ (runA5 V c t h0).1, y ∈ pc.1.set :=
  View.cover_of_tiledL (runA5 V c t h0).1 S4000x128.size (by sl_kernel_rfl) y
/-- What case A leaves in the block output's staging buffer: its pieces read back. -/
def o9A5 (c : Dev nD) (t : Fin cfg5.N) (h0 : t.val = 0) : Vec F S4000x128 .f32 :=
  VO5_9.read (Elt F) (VO5_9.writes (Elt F) VO5_9.junk (runA5 V c t h0).1)

/-- Case A's stores into accumulator row 0 cover it (each store writes the whole buffer). -/
theorem cover_s0A5 (c : Dev nD) (t : Fin cfg5.N) (h0 : t.val = 0) (y : S1x128.Idx) :
    ∃ pc ∈ (runA5 V c t h0).2.1, y ∈ pc.1.set :=
  View.cover_of_tiledL (runA5 V c t h0).2.1 S1x128.size (by sl_kernel_rfl) y
/-- What case A leaves in accumulator row 0: its pieces read back. -/
def s0A5 (c : Dev nD) (t : Fin cfg5.N) (h0 : t.val = 0) : Vec F S1x128 .f32 :=
  VS5_0.read (Elt F) (VS5_0.writes (Elt F) VS5_0.junk (runA5 V c t h0).2.1)

/-- Case A's stores into accumulator row 1 cover it (each store writes the whole buffer). -/
theorem cover_s1A5 (c : Dev nD) (t : Fin cfg5.N) (h0 : t.val = 0) (y : S1x128.Idx) :
    ∃ pc ∈ (runA5 V c t h0).2.2.1, y ∈ pc.1.set :=
  View.cover_of_tiledL (runA5 V c t h0).2.2.1 S1x128.size (by sl_kernel_rfl) y
/-- What case A leaves in accumulator row 1: its pieces read back. -/
def s1A5 (c : Dev nD) (t : Fin cfg5.N) (h0 : t.val = 0) : Vec F S1x128 .f32 :=
  VS5_1.read (Elt F) (VS5_1.writes (Elt F) VS5_1.junk (runA5 V c t h0).2.2.1)

/-- Case B's stores into the block output's staging buffer cover it (each store writes the whole buffer). -/
theorem cover_o9B5 (c : Dev nD) (t : Fin cfg5.N) (h0 : ¬t.val = 0) (h1 : ¬t.val = 24) (xs0 xs1 : Vec F S1x128 .f32) (y : S4000x128.Idx) :
    ∃ pc ∈ (runB5 V c t h0 h1 xs0 xs1).1, y ∈ pc.1.set :=
  View.cover_of_tiledL (runB5 V c t h0 h1 xs0 xs1).1 S4000x128.size (by sl_kernel_rfl) y
/-- What case B leaves in the block output's staging buffer: its pieces read back. -/
def o9B5 (c : Dev nD) (t : Fin cfg5.N) (h0 : ¬t.val = 0) (h1 : ¬t.val = 24) (xs0 xs1 : Vec F S1x128 .f32) : Vec F S4000x128 .f32 :=
  VO5_9.read (Elt F) (VO5_9.writes (Elt F) VO5_9.junk (runB5 V c t h0 h1 xs0 xs1).1)

/-- Case B's stores into accumulator row 0 cover it (each store writes the whole buffer). -/
theorem cover_s0B5 (c : Dev nD) (t : Fin cfg5.N) (h0 : ¬t.val = 0) (h1 : ¬t.val = 24) (xs0 xs1 : Vec F S1x128 .f32) (y : S1x128.Idx) :
    ∃ pc ∈ (runB5 V c t h0 h1 xs0 xs1).2.1, y ∈ pc.1.set :=
  View.cover_of_tiledL (runB5 V c t h0 h1 xs0 xs1).2.1 S1x128.size (by sl_kernel_rfl) y
/-- What case B leaves in accumulator row 0: its pieces read back. -/
def s0B5 (c : Dev nD) (t : Fin cfg5.N) (h0 : ¬t.val = 0) (h1 : ¬t.val = 24) (xs0 xs1 : Vec F S1x128 .f32) : Vec F S1x128 .f32 :=
  VS5_0.read (Elt F) (VS5_0.writes (Elt F) VS5_0.junk (runB5 V c t h0 h1 xs0 xs1).2.1)

/-- Case B's stores into accumulator row 1 cover it (each store writes the whole buffer). -/
theorem cover_s1B5 (c : Dev nD) (t : Fin cfg5.N) (h0 : ¬t.val = 0) (h1 : ¬t.val = 24) (xs0 xs1 : Vec F S1x128 .f32) (y : S1x128.Idx) :
    ∃ pc ∈ (runB5 V c t h0 h1 xs0 xs1).2.2.1, y ∈ pc.1.set :=
  View.cover_of_tiledL (runB5 V c t h0 h1 xs0 xs1).2.2.1 S1x128.size (by sl_kernel_rfl) y
/-- What case B leaves in accumulator row 1: its pieces read back. -/
def s1B5 (c : Dev nD) (t : Fin cfg5.N) (h0 : ¬t.val = 0) (h1 : ¬t.val = 24) (xs0 xs1 : Vec F S1x128 .f32) : Vec F S1x128 .f32 :=
  VS5_1.read (Elt F) (VS5_1.writes (Elt F) VS5_1.junk (runB5 V c t h0 h1 xs0 xs1).2.2.1)

/-- Case C's stores into the block output's staging buffer cover it (each store writes the whole buffer). -/
theorem cover_o9C5 (c : Dev nD) (t : Fin cfg5.N) (h0 : ¬t.val = 0) (h1 : t.val = 24) (xs0 xs1 : Vec F S1x128 .f32) (y : S4000x128.Idx) :
    ∃ pc ∈ (runC5 V c t h0 h1 xs0 xs1).1, y ∈ pc.1.set :=
  View.cover_of_tiledL (runC5 V c t h0 h1 xs0 xs1).1 S4000x128.size (by sl_kernel_rfl) y
/-- What case C leaves in the block output's staging buffer: its pieces read back. -/
def o9C5 (c : Dev nD) (t : Fin cfg5.N) (h0 : ¬t.val = 0) (h1 : t.val = 24) (xs0 xs1 : Vec F S1x128 .f32) : Vec F S4000x128 .f32 :=
  VO5_9.read (Elt F) (VO5_9.writes (Elt F) VO5_9.junk (runC5 V c t h0 h1 xs0 xs1).1)

/-- Case C's stores into row output 10's staging buffer cover it (each store writes the whole buffer). -/
theorem cover_o10C5 (c : Dev nD) (t : Fin cfg5.N) (h0 : ¬t.val = 0) (h1 : t.val = 24) (xs0 xs1 : Vec F S1x128 .f32) (y : S1x128.Idx) :
    ∃ pc ∈ (runC5 V c t h0 h1 xs0 xs1).2.1, y ∈ pc.1.set :=
  View.cover_of_tiledL (runC5 V c t h0 h1 xs0 xs1).2.1 S1x128.size (by sl_kernel_rfl) y
/-- What case C leaves in row output 10's staging buffer: its pieces read back. -/
def o10C5 (c : Dev nD) (t : Fin cfg5.N) (h0 : ¬t.val = 0) (h1 : t.val = 24) (xs0 xs1 : Vec F S1x128 .f32) : Vec F S1x128 .f32 :=
  VO5_10.read (Elt F) (VO5_10.writes (Elt F) VO5_10.junk (runC5 V c t h0 h1 xs0 xs1).2.1)

/-- Case C's stores into row output 11's staging buffer cover it (each store writes the whole buffer). -/
theorem cover_o11C5 (c : Dev nD) (t : Fin cfg5.N) (h0 : ¬t.val = 0) (h1 : t.val = 24) (xs0 xs1 : Vec F S1x128 .f32) (y : S1x128.Idx) :
    ∃ pc ∈ (runC5 V c t h0 h1 xs0 xs1).2.2.1, y ∈ pc.1.set :=
  View.cover_of_tiledL (runC5 V c t h0 h1 xs0 xs1).2.2.1 S1x128.size (by sl_kernel_rfl) y
/-- What case C leaves in row output 11's staging buffer: its pieces read back. -/
def o11C5 (c : Dev nD) (t : Fin cfg5.N) (h0 : ¬t.val = 0) (h1 : t.val = 24) (xs0 xs1 : Vec F S1x128 .f32) : Vec F S1x128 .f32 :=
  VO5_11.read (Elt F) (VO5_11.writes (Elt F) VO5_11.junk (runC5 V c t h0 h1 xs0 xs1).2.2.1)

/-- Case C's stores into accumulator row 0 cover it (each store writes the whole buffer). -/
theorem cover_s0C5 (c : Dev nD) (t : Fin cfg5.N) (h0 : ¬t.val = 0) (h1 : t.val = 24) (xs0 xs1 : Vec F S1x128 .f32) (y : S1x128.Idx) :
    ∃ pc ∈ (runC5 V c t h0 h1 xs0 xs1).2.2.2.1, y ∈ pc.1.set :=
  View.cover_of_tiledL (runC5 V c t h0 h1 xs0 xs1).2.2.2.1 S1x128.size (by sl_kernel_rfl) y
/-- What case C leaves in accumulator row 0: its pieces read back. -/
def s0C5 (c : Dev nD) (t : Fin cfg5.N) (h0 : ¬t.val = 0) (h1 : t.val = 24) (xs0 xs1 : Vec F S1x128 .f32) : Vec F S1x128 .f32 :=
  VS5_0.read (Elt F) (VS5_0.writes (Elt F) VS5_0.junk (runC5 V c t h0 h1 xs0 xs1).2.2.2.1)

/-- Case C's stores into accumulator row 1 cover it (each store writes the whole buffer). -/
theorem cover_s1C5 (c : Dev nD) (t : Fin cfg5.N) (h0 : ¬t.val = 0) (h1 : t.val = 24) (xs0 xs1 : Vec F S1x128 .f32) (y : S1x128.Idx) :
    ∃ pc ∈ (runC5 V c t h0 h1 xs0 xs1).2.2.2.2.1, y ∈ pc.1.set :=
  View.cover_of_tiledL (runC5 V c t h0 h1 xs0 xs1).2.2.2.2.1 S1x128.size (by sl_kernel_rfl) y
/-- What case C leaves in accumulator row 1: its pieces read back. -/
def s1C5 (c : Dev nD) (t : Fin cfg5.N) (h0 : ¬t.val = 0) (h1 : t.val = 24) (xs0 xs1 : Vec F S1x128 .f32) : Vec F S1x128 .f32 :=
  VS5_1.read (Elt F) (VS5_1.writes (Elt F) VS5_1.junk (runC5 V c t h0 h1 xs0 xs1).2.2.2.2.1)

/-! ## What the outputs and the accumulators hold after each point -/

/-- THE ACCUMULATION. After the body at position `n`: the block output's staging buffer, the two row outputs'
    staging buffers, and the two accumulator rows. The first point zeroes the accumulators and adds the block's
    column sums; every later point adds its block's column sums to what the point before left; the last point also
    copies the two accumulators into the row outputs. -/
def outsAt5 (c : Dev nD) : (n : ℕ) → n < cfg5.N → Vec F S4000x128 .f32 × Vec F S1x128 .f32 × Vec F S1x128 .f32 × Vec F S1x128 .f32 × Vec F S1x128 .f32
  | 0, hn => (o9A5 V c ⟨0, hn⟩ rfl, idleRow5_10, idleRow5_11, s0A5 V c ⟨0, hn⟩ rfl, s1A5 V c ⟨0, hn⟩ rfl)
  | n + 1, hn =>
    if h1 : n + 1 = 24 then
      (o9C5 V c ⟨n + 1, hn⟩ (Nat.succ_ne_zero n) h1 (outsAt5 c n (Nat.lt_of_succ_lt hn)).2.2.2.1 (outsAt5 c n (Nat.lt_of_succ_lt hn)).2.2.2.2, o10C5 V c ⟨n + 1, hn⟩ (Nat.succ_ne_zero n) h1 (outsAt5 c n (Nat.lt_of_succ_lt hn)).2.2.2.1 (outsAt5 c n (Nat.lt_of_succ_lt hn)).2.2.2.2, o11C5 V c ⟨n + 1, hn⟩ (Nat.succ_ne_zero n) h1 (outsAt5 c n (Nat.lt_of_succ_lt hn)).2.2.2.1 (outsAt5 c n (Nat.lt_of_succ_lt hn)).2.2.2.2, s0C5 V c ⟨n + 1, hn⟩ (Nat.succ_ne_zero n) h1 (outsAt5 c n (Nat.lt_of_succ_lt hn)).2.2.2.1 (outsAt5 c n (Nat.lt_of_succ_lt hn)).2.2.2.2, s1C5 V c ⟨n + 1, hn⟩ (Nat.succ_ne_zero n) h1 (outsAt5 c n (Nat.lt_of_succ_lt hn)).2.2.2.1 (outsAt5 c n (Nat.lt_of_succ_lt hn)).2.2.2.2)
    else
      (o9B5 V c ⟨n + 1, hn⟩ (Nat.succ_ne_zero n) h1 (outsAt5 c n (Nat.lt_of_succ_lt hn)).2.2.2.1 (outsAt5 c n (Nat.lt_of_succ_lt hn)).2.2.2.2, idleRow5_10, idleRow5_11, s0B5 V c ⟨n + 1, hn⟩ (Nat.succ_ne_zero n) h1 (outsAt5 c n (Nat.lt_of_succ_lt hn)).2.2.2.1 (outsAt5 c n (Nat.lt_of_succ_lt hn)).2.2.2.2, s1B5 V c ⟨n + 1, hn⟩ (Nat.succ_ne_zero n) h1 (outsAt5 c n (Nat.lt_of_succ_lt hn)).2.2.2.1 (outsAt5 c n (Nat.lt_of_succ_lt hn)).2.2.2.2)

/-- `outsAt5` at the first point. -/
theorem outsAt5_A (c : Dev nD) (t : Fin cfg5.N) (h0 : t.val = 0) :
    outsAt5 V c t.val t.isLt = (o9A5 V c t h0, idleRow5_10, idleRow5_11, s0A5 V c t h0, s1A5 V c t h0) := by
  obtain ⟨n, hn⟩ := t
  cases n with
  | zero => exact rfl
  | succ n => exact absurd h0 (Nat.succ_ne_zero n)

/-- `outsAt5` at a point 1..23: over what the point before left in the accumulators. -/
theorem outsAt5_B (c : Dev nD) (t : Fin cfg5.N) (h0 : ¬t.val = 0) (h1 : ¬t.val = 24) :
    outsAt5 V c t.val t.isLt = (o9B5 V c t h0 h1 (outsAt5 V c (t.val - 1) (Nat.lt_of_le_of_lt (Nat.sub_le _ _) t.isLt)).2.2.2.1 (outsAt5 V c (t.val - 1) (Nat.lt_of_le_of_lt (Nat.sub_le _ _) t.isLt)).2.2.2.2, idleRow5_10, idleRow5_11, s0B5 V c t h0 h1 (outsAt5 V c (t.val - 1) (Nat.lt_of_le_of_lt (Nat.sub_le _ _) t.isLt)).2.2.2.1 (outsAt5 V c (t.val - 1) (Nat.lt_of_le_of_lt (Nat.sub_le _ _) t.isLt)).2.2.2.2, s1B5 V c t h0 h1 (outsAt5 V c (t.val - 1) (Nat.lt_of_le_of_lt (Nat.sub_le _ _) t.isLt)).2.2.2.1 (outsAt5 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt5` at the last point: over what the point before left in the accumulators. -/
theorem outsAt5_C (c : Dev nD) (t : Fin cfg5.N) (h0 : ¬t.val = 0) (h1 : t.val = 24) :
    outsAt5 V c t.val t.isLt = (o9C5 V c t h0 h1 (outsAt5 V c (t.val - 1) (Nat.lt_of_le_of_lt (Nat.sub_le _ _) t.isLt)).2.2.2.1 (outsAt5 V c (t.val - 1) (Nat.lt_of_le_of_lt (Nat.sub_le _ _) t.isLt)).2.2.2.2, o10C5 V c t h0 h1 (outsAt5 V c (t.val - 1) (Nat.lt_of_le_of_lt (Nat.sub_le _ _) t.isLt)).2.2.2.1 (outsAt5 V c (t.val - 1) (Nat.lt_of_le_of_lt (Nat.sub_le _ _) t.isLt)).2.2.2.2, o11C5 V c t h0 h1 (outsAt5 V c (t.val - 1) (Nat.lt_of_le_of_lt (Nat.sub_le _ _) t.isLt)).2.2.2.1 (outsAt5 V c (t.val - 1) (Nat.lt_of_le_of_lt (Nat.sub_le _ _) t.isLt)).2.2.2.2, s0C5 V c t h0 h1 (outsAt5 V c (t.val - 1) (Nat.lt_of_le_of_lt (Nat.sub_le _ _) t.isLt)).2.2.2.1 (outsAt5 V c (t.val - 1) (Nat.lt_of_le_of_lt (Nat.sub_le _ _) t.isLt)).2.2.2.2, s1C5 V c t h0 h1 (outsAt5 V c (t.val - 1) (Nat.lt_of_le_of_lt (Nat.sub_le _ _) t.isLt)).2.2.2.1 (outsAt5 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The region invariant before position `n`: before the first point the class invariant (both accumulator rows at
    anything); afterwards the two accumulator rows at what the point before left in them, the other scoped buffers
    unopened, and the generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2.2.2.1) ∗ owns (c : Thread nD τ) scM5_1 fullShare ((outsAt5 V c n hn).2.2.2.2)) ∗ rest5 (F := F) c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare ((outsAt5 V c n hn).2.2.2.1) ∗ owns (c : Thread nD τ) scM5_1 fullShare ((outsAt5 V c n hn).2.2.2.2)) ∗ rest5 (F := F) c) ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2.2.2.1) ∗ owns (c : Thread nD τ) scM5_1 fullShare ((outsAt5 V c (n - 1) (by omega)).2.2.2.2)) ∗ rest5 (F := F) c) ∗ (∃ r, prngReg c r)) := by
  cases n with
  | zero => exact absurd rfl hz
  | succ n => rfl

/-! ## The pipeline's proof data -/

/-- The proof data of region 5 on core `c`: the arrays as the region finds them (`V`); after the body at point `t`
    each input's buffer at its block and the three outputs' at `outsAt5`'s components; the invariant `PhiS5`;
    nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => (outsAt5 V c t.val t.isLt).1
    | ⟨10, _⟩ => (outsAt5 V c t.val t.isLt).2.1
    | ⟨11, _⟩ => (outsAt5 V c t.val t.isLt).2.2.1
  Φ t := PhiS5 V c t.val (Nat.le_of_lt_succ t.isLt)
  q _ := fullShare
  owed _ := 0

/-- The proof data's arrays are the region-entry contents. -/
theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = (outsAt5 V c t.val t.isLt).1 := by dsimp only [dat5]
theorem after5_10 (c : Dev nD) (t : Fin cfg5.N) : (dat5 V c).after 10 t = (outsAt5 V c t.val t.isLt).2.1 := by dsimp only [dat5]
theorem after5_11 (c : Dev nD) (t : Fin cfg5.N) : (dat5 V c).after 11 t = (outsAt5 V c t.val t.isLt).2.2.1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

/-! ## The body obligation -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d))
    ∗ (∃ d, owns (c : Thread nD τ) (ms5_7 t) fullShare ((dat5 V c).before 7 t d))
    ∗ (∃ d, owns (c : Thread nD τ) (ms5_8 t) fullShare ((dat5 V c).before 8 t d))
    ∗ (∃ d, owns (c : Thread nD τ) (ms5_9 t) fullShare ((dat5 V c).before 9 t d))
    ∗ (∃ d, owns (c : Thread nD τ) (ms5_10 t) fullShare ((dat5 V c).before 10 t d))
    ∗ (∃ d, owns (c : Thread nD τ) (ms5_11 t) fullShare ((dat5 V c).before 11 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t
    ∗ (dat5 V c).leavesExact 8 t
    ∗ (dat5 V c).leavesExact 9 t
    ∗ (dat5 V c).leavesExact 10 t
    ∗ (dat5 V c).leavesExact 11 t)

set_option maxHeartbeats 8000000 in
/-- The body at any point. The inputs' memrefs hold their blocks; the point is the first, a middle one or the
    last, and that case's run applies. The invariant hands the body the two accumulator rows — at anything at the
    first point, afterwards at what the point before left — and takes them back at this point's contents; the other
    scoped buffers and the generator register pass through; the core owes nothing throughout. A row output is
    handed back untouched at a point that does not store into it. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).owesAt () t.succ = (dat5 V c).owesAt () t.castSucc from rfl]
  rw [show (dat5 V c).Φ t.succ = PhiS5 V c (t.val + 1) t.isLt from rfl, PhiS5_succ]
  have hN : t.val < 25 := lt_of_lt_of_eq t.isLt (show cfg5.N = 25 from N_5)
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [liveAt5_4 t], after5_4]
  rw [show (dat5 V c).leavesExact 5 t = owns (c : Thread nD τ) (ms5_5 t) fullShare ((dat5 V c).after 5 t) from by
    unfold Dat.leavesExact; rw [liveAt5_5 t], after5_5]
  rw [show (dat5 V c).leavesExact 6 t = owns (c : Thread nD τ) (ms5_6 t) fullShare ((dat5 V c).after 6 t) from by
    unfold Dat.leavesExact; rw [liveAt5_6 t], after5_6]
  rw [show (dat5 V c).leavesExact 7 t = owns (c : Thread nD τ) (ms5_7 t) fullShare ((dat5 V c).after 7 t) from by
    unfold Dat.leavesExact; rw [liveAt5_7 t], after5_7]
  rw [show (dat5 V c).leavesExact 8 t = owns (c : Thread nD τ) (ms5_8 t) fullShare ((dat5 V c).after 8 t) from by
    unfold Dat.leavesExact; rw [liveAt5_8 t], after5_8]
  rw [show (dat5 V c).leavesExact 9 t = owns (c : Thread nD τ) (ms5_9 t) fullShare ((dat5 V c).after 9 t) from by
    unfold Dat.leavesExact; rw [liveAt5_9 t], after5_9]
  by_cases h0 : t.val = 0
  · have hc1 : ¬cond5_1 (grid5.coords t) := fun h => by have h' := (hcond5_1 t).mp h; omega
    rw [Dat.leavesExact_idle (dat5 V c) 10 t (idleAt5_10 t hc1) (noFlush5_10 t hc1), Dat.leavesExact_idle (dat5 V c) 11 t (idleAt5_11 t hc1) (noFlush5_11 t hc1)]
    rw [outsAt5_A V c t h0]
    unfold o9A5 s0A5 s1A5; (try dsimp only)
    rw [PhiS5_castSucc V c t, PhiS5_zero V c _ _ h0, PhiA5_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA5 V c t h0).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, H10, H11, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (cover_s0A5 V c t h0)
          · unfold owns; iexists _; isplitr
            swap; · iexact HS1
            ipureintro; exact View.read_writes_of_cover _ _ _ _ _ (cover_s1A5 V c t h0)
        · iexact Hr
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover_o9A5 V c t h0)
    isplitl [H10]; · iexists _; iexact H10
    iexists _; iexact H11

  · by_cases h1 : t.val = 24
    · have hc1 : cond5_1 (grid5.coords t) := (hcond5_1 t).mpr h1
      rw [show (dat5 V c).leavesExact 10 t = owns (c : Thread nD τ) (ms5_10 t) fullShare ((dat5 V c).after 10 t) from by
        unfold Dat.leavesExact; rw [liveAt5_10_C t hc1], after5_10]
      rw [show (dat5 V c).leavesExact 11 t = owns (c : Thread nD τ) (ms5_11 t) fullShare ((dat5 V c).after 11 t) from by
        unfold Dat.leavesExact; rw [liveAt5_11_C t hc1], after5_11]
      rw [outsAt5_C V c t h0 h1]
      unfold o9C5 o10C5 o11C5 s0C5 s1C5; (try dsimp only)
      rw [PhiS5_castSucc V c t, PhiS5_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runC5 V c t h0 h1 _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (cover_s0C5 V c t h0 h1 _ _)
            · unfold owns; iexists _; isplitr
              swap; · iexact HS1
              ipureintro; exact View.read_writes_of_cover _ _ _ _ _ (cover_s1C5 V c t h0 h1 _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover_o9C5 V c t h0 h1 _ _)
      isplitl [H10]
      · unfold owns; iexists _; isplitr
        swap; · iexact H10
        ipureintro; exact View.read_writes_of_cover _ _ _ _ _ (cover_o10C5 V c t h0 h1 _ _)
      unfold owns; iexists _; isplitr
      swap; · iexact H11
      ipureintro; exact View.read_writes_of_cover _ _ _ _ _ (cover_o11C5 V c t h0 h1 _ _)
    · have hc1 : ¬cond5_1 (grid5.coords t) := fun h => h1 ((hcond5_1 t).mp h)
      rw [Dat.leavesExact_idle (dat5 V c) 10 t (idleAt5_10 t hc1) (noFlush5_10 t hc1), Dat.leavesExact_idle (dat5 V c) 11 t (idleAt5_11 t hc1) (noFlush5_11 t hc1)]
      rw [outsAt5_B V c t h0 h1]
      unfold o9B5 s0B5 s1B5; (try dsimp only)
      rw [PhiS5_castSucc V c t, PhiS5_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB5 V c t h0 h1 _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, H10, H11, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (cover_s0B5 V c t h0 h1 _ _)
            · unfold owns; iexists _; isplitr
              swap; · iexact HS1
              ipureintro; exact View.read_writes_of_cover _ _ _ _ _ (cover_s1B5 V c t h0 h1 _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover_o9B5 V c t h0 h1 _ _)
      isplitl [H10]; · iexists _; iexact H10
      iexists _; iexact H11

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the class invariant back: the accumulators' named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

/-- The same after the last point. -/
theorem hout5 (c : Dev nD) : (dat5 V c).Φ (Fin.last cfg5.N) ⊢ Pipeline.ΦA spec5 c :=
  Phi_out5 V c _ (by rw [Fin.val_last]; have : cfg5.N = 25 := N_5; omega)

end Cert.Kernel.Hand

end
-- ==== Proof.K.Region6.lean ====
import proofs.«154353_j88940182765819_1_alg».proof.Proof.Gen.Kernel.Launch
import proofs.«154353_j88940182765819_1_alg».proof.Proof.Gen.Kernel.Skeleton
import proofs.«154353_j88940182765819_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 6: the normalise-and-leaky-relu kernel on a 25-point grid of 4000-row blocks, at the entry contents `V`

Windows 0..4 are inputs: window 0 the 4000x128 row block of the activations at the grid point, windows 1..4 the
1x128 rows (scale, shift, mean, variance), the same block at every point. Window 5 is the output, the 4000x128 row
block at the grid point. The body loads each input whole, computes the normalised, shifted and leaky-rectified
block, and stores it whole. -/

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! Each input window's current staging buffer holds its block at every point — at the points where the block is
fetched and at those where it is not (the four rows are fetched at the first point only; their block index never
moves, so what the first fetch put there is still the block) — for any proof data whose array is the entry contents
and whose body leaves the block in place. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole 4000x128 block, and the whole 1x128 row, as rectangles: every load and the one store are of these. -/
abbrev rB6 : Rect S4000x128 := Rect.unit (s := S4000x128) ![0, 0] S4000x128.size inb_S4000x128_S4000x128_0_0
abbrev rR6 : Rect S1x128 := Rect.unit (s := S1x128) ![0, 0] S1x128.size inb_S1x128_S1x128_0_0

/-! ## What the body leaves in the output window's buffer -/

/-- The output block after the body: its one whole-block store, of the payload (the normalised, shifted,
    leaky-rectified block) over the five loaded inputs. -/
def out6_5 (x0 : Vec F S4000x128 .f32) (x1 x2 x3 x4 : Vec F S1x128 .f32) : Vec F S4000x128 .f32 :=
  View.canon [⟨rB6, k6_pay1 (View.ld x0 rB6) (View.ld x1 rR6) (View.ld x2 rR6) (View.ld x3 rR6) (View.ld x4 rR6)⟩]

/-- The one store is of the whole block, so it covers the buffer. -/
theorem cover6_5 (p0 : Vec F S4000x128 .f32) (y : S4000x128.Idx) :
    ∃ pc ∈ ([⟨rB6, p0⟩] : List (View.Piece (Elt F) S4000x128 .f32)), y ∈ pc.1.set :=
  View.cover_of_tiled [⟨rB6, p0⟩] S4000x128.size (by rfl) y

/-! ## The body's triple -/

set_option maxHeartbeats 1000000 in
/-- The body on whole staging memrefs — the five inputs' at contents `x0..x4`, the output's at anything (the body
    loads the output block before overwriting all of it, so what it held does not matter) — runs to the continuation
    holding the inputs' as they were and the output's at `out6_5` of the inputs. -/
theorem sound_kernel6 (c : Dev nD) (E : Set ℕ) (i : grid6.Coords) (arg0 : Memref sig .tc .vmem S4000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S4000x128 .f32) (harg5 : arg5.IsWhole)
    (x0 : Vec F S4000x128 .f32) (x1 x2 x3 x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out6_5 x0 x1 x2 x3 x4)) -∗ K ⟨⟩))
      ⊢ wp frame (wpE (defs₀ (F := F)) Variants.none c none) E (cc6__bn_lrelu_kernel i arg0 harg0 arg1 harg1 arg2 harg2 arg3 harg3 arg4 harg4 arg5 harg5) K := by
  simp only [cc6__bn_lrelu_kernel_eq_skeleton]; unfold cc6__bn_lrelu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of the pipeline on core `c`: the arrays as the region finds them; after the body at point `t`
    each input's buffer at its block and the output's at `out6_5` of the input blocks; the invariant the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t =
    out6_5 (iblk6 V c 0 t) (iblk6 V c 1 t) (iblk6 V c 2 t) (iblk6 V c 3 t) (iblk6 V c 4 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so the body's triple applies; the invariant and
    the core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Region7.lean ====
import proofs.«154353_j88940182765819_1_alg».proof.Proof.Gen.Kernel.Launch
import proofs.«154353_j88940182765819_1_alg».proof.Proof.Gen.Kernel.Skeleton
import proofs.«154353_j88940182765819_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 7: the normalise-and-leaky-relu kernel on a 25-point grid of 4000-row blocks, at the entry contents `V`

Windows 0..4 are inputs: window 0 the 4000x128 row block of the activations at the grid point, windows 1..4 the
1x128 rows (scale, shift, mean, variance), the same block at every point. Window 5 is the output, the 4000x128 row
block at the grid point. The body loads each input whole, computes the normalised, shifted and leaky-rectified
block, and stores it whole. -/

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! Each input window's current staging buffer holds its block at every point — at the points where the block is
fetched and at those where it is not (the four rows are fetched at the first point only; their block index never
moves, so what the first fetch put there is still the block) — for any proof data whose array is the entry contents
and whose body leaves the block in place. -/

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- The whole 4000x128 block, and the whole 1x128 row, as rectangles: every load and the one store are of these. -/
abbrev rB7 : Rect S4000x128 := Rect.unit (s := S4000x128) ![0, 0] S4000x128.size inb_S4000x128_S4000x128_0_0
abbrev rR7 : Rect S1x128 := Rect.unit (s := S1x128) ![0, 0] S1x128.size inb_S1x128_S1x128_0_0

/-! ## What the body leaves in the output window's buffer -/

/-- The output block after the body: its one whole-block store, of the payload (the normalised, shifted,
    leaky-rectified block) over the five loaded inputs. -/
def out7_5 (x0 : Vec F S4000x128 .f32) (x1 x2 x3 x4 : Vec F S1x128 .f32) : Vec F S4000x128 .f32 :=
  View.canon [⟨rB7, k7_pay1 (View.ld x0 rB7) (View.ld x1 rR7) (View.ld x2 rR7) (View.ld x3 rR7) (View.ld x4 rR7)⟩]

/-- The one store is of the whole block, so it covers the buffer. -/
theorem cover7_5 (p0 : Vec F S4000x128 .f32) (y : S4000x128.Idx) :
    ∃ pc ∈ ([⟨rB7, p0⟩] : List (View.Piece (Elt F) S4000x128 .f32)), y ∈ pc.1.set :=
  View.cover_of_tiled [⟨rB7, p0⟩] S4000x128.size (by rfl) y

/-! ## The body's triple -/

set_option maxHeartbeats 1000000 in
/-- The body on whole staging memrefs — the five inputs' at contents `x0..x4`, the output's at anything (the body
    loads the output block before overwriting all of it, so what it held does not matter) — runs to the continuation
    holding the inputs' as they were and the output's at `out7_5` of the inputs. -/
theorem sound_kernel7 (c : Dev nD) (E : Set ℕ) (i : grid7.Coords) (arg0 : Memref sig .tc .vmem S4000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S4000x128 .f32) (harg5 : arg5.IsWhole)
    (x0 : Vec F S4000x128 .f32) (x1 x2 x3 x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out7_5 x0 x1 x2 x3 x4)) -∗ K ⟨⟩))
      ⊢ wp frame (wpE (defs₀ (F := F)) Variants.none c none) E (cc7__bn_lrelu_kernel i arg0 harg0 arg1 harg1 arg2 harg2 arg3 harg3 arg4 harg4 arg5 harg5) K := by
  simp only [cc7__bn_lrelu_kernel_eq_skeleton]; unfold cc7__bn_lrelu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The pipeline's proof data -/

/-- The proof data of the pipeline on core `c`: the arrays as the region finds them; after the body at point `t`
    each input's buffer at its block and the output's at `out7_5` of the input blocks; the invariant the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t =
    out7_5 (iblk7 V c 0 t) (iblk7 V c 1 t) (iblk7 V c 2 t) (iblk7 V c 3 t) (iblk7 V c 4 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks, so the body's triple applies; the invariant and
    the core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Region8.lean ====
import proofs.«154353_j88940182765819_1_alg».proof.Proof.Gen.Kernel.Launch
import proofs.«154353_j88940182765819_1_alg».proof.Proof.Gen.Kernel.Skeleton
import proofs.«154353_j88940182765819_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 8: the output head (a 128-to-4 linear map plus bias) on a 25-point grid of 4000-row blocks, at the entry contents `V`

Windows 0, 1, 2 are inputs: window 0 the 4000x128 row block of the activations at the grid point, window 1 the
128x4 weight matrix and window 2 the 1x4 bias row, the same block at every point. Window 3 is the output, the
4000x4 row block at the grid point. The body loads each input whole, multiplies the block by the weights,
adds the bias row to every row, and stores the result whole. -/

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! Each input window's current staging buffer holds its block at every point — at the points where the block is
fetched and at those where it is not (the weights and the bias are fetched at the first point only; their block
index never moves, so what the first fetch put there is still the block) — for any proof data whose array is the
entry contents and whose body leaves the block in place. -/

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The four whole blocks as rectangles: every load and the one store are of these. -/
abbrev rX8 : Rect S4000x128 := Rect.unit (s := S4000x128) ![0, 0] S4000x128.size inb_S4000x128_S4000x128_0_0
abbrev rW8 : Rect S128x4 := Rect.unit (s := S128x4) ![0, 0] S128x4.size inb_S128x4_S128x4_0_0
abbrev rb8 : Rect S1x4 := Rect.unit (s := S1x4) ![0, 0] S1x4.size inb_S1x4_S1x4_0_0
abbrev rO8 : Rect S4000x4 := Rect.unit (s := S4000x4) ![0, 0] S4000x4.size inb_S4000x4_S4000x4_0_0

/-! ## What the body leaves in the output window's buffer -/

/-- The output block after the body: its one whole-block store, of the payload (block times weights, plus the
    bias row) over the three loaded inputs. -/
def out8_3 (x0 : Vec F S4000x128 .f32) (x1 : Vec F S128x4 .f32) (x2 : Vec F S1x4 .f32) : Vec F S4000x4 .f32 :=
  View.canon [⟨rO8, k8_pay1 (View.ld x0 rX8) (View.ld x1 rW8) (View.ld x2 rb8)⟩]

/-- The one store is of the whole block, so it covers the buffer. -/
theorem cover8_3 (p0 : Vec F S4000x4 .f32) (y : S4000x4.Idx) :
    ∃ pc ∈ ([⟨rO8, p0⟩] : List (View.Piece (Elt F) S4000x4 .f32)), y ∈ pc.1.set :=
  View.cover_of_tiled [⟨rO8, p0⟩] S4000x4.size (by rfl) y

/-! ## The body's triple -/

set_option maxHeartbeats 1000000 in
/-- The body on whole staging memrefs — the three inputs' at contents `x0, x1, x2`, the output's at anything (the
    body loads the output block before overwriting all of it, so what it held does not matter) — runs to the
    continuation holding the inputs' as they were and the output's at `out8_3` of the inputs. -/
theorem sound_kernel8 (c : Dev nD) (E : Set ℕ) (i : grid8.Coords) (arg0 : Memref sig .tc .vmem S4000x128 .f32) (harg0 : arg0.IsWhole) (arg1 : Memref sig .tc .vmem S128x4 .f32) (harg1 : arg1.IsWhole) (arg2 : Memref sig .tc .vmem S1x4 .f32) (harg2 : arg2.IsWhole) (arg3 : Memref sig .tc .vmem S4000x4 .f32) (harg3 : arg3.IsWhole)
    (x0 : Vec F S4000x128 .f32) (x1 : Vec F S128x4 .f32) (x2 : Vec F S1x4 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out8_3 x0 x1 x2)) -∗ K ⟨⟩))
      ⊢ wp frame (wpE (defs₀ (F := F)) Variants.none c none) E (cc8__post_head_kernel i arg0 harg0 arg1 harg1 arg2 harg2 arg3 harg3) K := by
  simp only [cc8__post_head_kernel_eq_skeleton]; unfold cc8__post_head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The pipeline's proof data -/

/-- The proof data of the pipeline on core `c`: the arrays as the region finds them; after the body at point `t`
    each input's buffer at its block and the output's at `out8_3` of the input blocks; the invariant the scoped
    rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t =
    out8_3 (iblk8 V c 0 t) (iblk8 V c 1 t) (iblk8 V c 2 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point `t` (the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks, so the body's triple applies; the invariant and
    the core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Region9.lean ====
import proofs.«154353_j88940182765819_1_alg».proof.Proof.Gen.Kernel.Launch
import proofs.«154353_j88940182765819_1_alg».proof.Proof.Gen.Kernel.Skeleton
import proofs.«154353_j88940182765819_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 9: the output head (a 128-to-7 linear map plus bias) on a 25-point grid of 4000-row blocks, at the entry contents `V`

Windows 0, 1, 2 are inputs: window 0 the 4000x128 row block of the activations at the grid point, window 1 the
128x7 weight matrix and window 2 the 1x7 bias row, the same block at every point. Window 3 is the output, the
4000x7 row block at the grid point. The body loads each input whole, multiplies the block by the weights,
adds the bias row to every row, and stores the result whole. -/

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! Each input window's current staging buffer holds its block at every point — at the points where the block is
fetched and at those where it is not (the weights and the bias are fetched at the first point only; their block
index never moves, so what the first fetch put there is still the block) — for any proof data whose array is the
entry contents and whose body leaves the block in place. -/

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- The four whole blocks as rectangles: every load and the one store are of these. -/
abbrev rX9 : Rect S4000x128 := Rect.unit (s := S4000x128) ![0, 0] S4000x128.size inb_S4000x128_S4000x128_0_0
abbrev rW9 : Rect S128x7 := Rect.unit (s := S128x7) ![0, 0] S128x7.size inb_S128x7_S128x7_0_0
abbrev rb9 : Rect S1x7 := Rect.unit (s := S1x7) ![0, 0] S1x7.size inb_S1x7_S1x7_0_0
abbrev rO9 : Rect S4000x7 := Rect.unit (s := S4000x7) ![0, 0] S4000x7.size inb_S4000x7_S4000x7_0_0

/-! ## What the body leaves in the output window's buffer -/

/-- The output block after the body: its one whole-block store, of the payload (block times weights, plus the
    bias row) over the three loaded inputs. -/
def out9_3 (x0 : Vec F S4000x128 .f32) (x1 : Vec F S128x7 .f32) (x2 : Vec F S1x7 .f32) : Vec F S4000x7 .f32 :=
  View.canon [⟨rO9, k9_pay1 (View.ld x0 rX9) (View.ld x1 rW9) (View.ld x2 rb9)⟩]

/-- The one store is of the whole block, so it covers the buffer. -/
theorem cover9_3 (p0 : Vec F S4000x7 .f32) (y : S4000x7.Idx) :
    ∃ pc ∈ ([⟨rO9, p0⟩] : List (View.Piece (Elt F) S4000x7 .f32)), y ∈ pc.1.set :=
  View.cover_of_tiled [⟨rO9, p0⟩] S4000x7.size (by rfl) y

/-! ## The body's triple -/

set_option maxHeartbeats 1000000 in
/-- The body on whole staging memrefs — the three inputs' at contents `x0, x1, x2`, the output's at anything (the
    body loads the output block before overwriting all of it, so what it held does not matter) — runs to the
    continuation holding the inputs' as they were and the output's at `out9_3` of the inputs. -/
theorem sound_kernel9 (c : Dev nD) (E : Set ℕ) (i : grid9.Coords) (arg0 : Memref sig .tc .vmem S4000x128 .f32) (harg0 : arg0.IsWhole) (arg1 : Memref sig .tc .vmem S128x7 .f32) (harg1 : arg1.IsWhole) (arg2 : Memref sig .tc .vmem S1x7 .f32) (harg2 : arg2.IsWhole) (arg3 : Memref sig .tc .vmem S4000x7 .f32) (harg3 : arg3.IsWhole)
    (x0 : Vec F S4000x128 .f32) (x1 : Vec F S128x7 .f32) (x2 : Vec F S1x7 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out9_3 x0 x1 x2)) -∗ K ⟨⟩))
      ⊢ wp frame (wpE (defs₀ (F := F)) Variants.none c none) E (cc9__post_head_kernel i arg0 harg0 arg1 harg1 arg2 harg2 arg3 harg3) K := by
  simp only [cc9__post_head_kernel_eq_skeleton]; unfold cc9__post_head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The proof data of the pipeline on core `c`: the arrays as the region finds them; after the body at point `t`
    each input's buffer at its block and the output's at `out9_3` of the input blocks; the invariant the scoped
    rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t =
    out9_3 (iblk9 V c 0 t) (iblk9 V c 1 t) (iblk9 V c 2 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t` (the windows one by one), -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' memrefs hold their blocks, so the body's triple applies; the invariant and
    the core's debts pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.Fold.lean ====
/-
  The run of the whole program as a chain of twenty items: ten stretches of host operations and ten kernel regions.
  Between two items every unscoped buffer of a core is held whole at a known contents: the launch memory, then each
  host stretch applied (`StableHlo.after`), then, across a region, the arrays of its windows replaced by what its
  write-backs leave (`Dat.arrAt … N`) and every other buffer kept. Each region's proof data is taken at the contents
  the region is entered from; a region's record joins its body obligation to that thread state. The conclusion: every
  weakly fair execution ends, and the final memory holds each unscoped buffer at the last contents of this fold — from
  which the frame (an argument is written by no item) and the results' values are read.
-/
import proofs.«154353_j88940182765819_1_alg».proof.Proof.K.Region0
import proofs.«154353_j88940182765819_1_alg».proof.Proof.K.Region1
import proofs.«154353_j88940182765819_1_alg».proof.Proof.K.Region2
import proofs.«154353_j88940182765819_1_alg».proof.Proof.K.Region3
import proofs.«154353_j88940182765819_1_alg».proof.Proof.K.Region4
import proofs.«154353_j88940182765819_1_alg».proof.Proof.K.Region5
import proofs.«154353_j88940182765819_1_alg».proof.Proof.K.Region6
import proofs.«154353_j88940182765819_1_alg».proof.Proof.K.Region7
import proofs.«154353_j88940182765819_1_alg».proof.Proof.K.Region8
import proofs.«154353_j88940182765819_1_alg».proof.Proof.K.Region9
import proofs.«154353_j88940182765819_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/

/-- Core `c`'s buffers at launch. -/
abbrev W0 : Dev nD → Valuation τ sig (Elt F) := fun c b => m (c, b)

/-! ### Item 0 (host stretch 0) and item 1 (region 0) -/

/-- After host stretch 0: what region 0 is entered from. -/
abbrev W1 : Dev nD → Valuation τ sig (Elt F) := fun c => StableHlo.after hostOps0 (W0 m c)
/-- The same contents read at the TensorCore's references (the parameter of region 0's proof data). -/
abbrev E1 : (c : Dev nD) → (b : Ref sig .tc) → Buf (Elt F) ((c : Thread nD τ).loc b) := fun c b => W1 m c b
/-- After region 0: its windows' arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- A host stretch changes only the buffers its operations write. -/
theorem W1_keep (c : Dev nD) (r : Ref sig .tc) (h : r ∉ hostOps0_W) : W1 m c r = W0 m c r :=
  StableHlo.after_of_writes_sub hostOps0 _ hostOps0_writes h
/-- Region 0 changes only its output windows' arrays: an input window's array is written back by no point. -/
theorem W2_keep (c : Dev nD) (b : Ref sig .tc) (hb : b ∉ ([main_v51_0, main_v51_1, main_v51_2] : List (Ref sig .tc))) :
    W2 m c (Proc.devRef .tc b) = W1 m c (Proc.devRef .tc b) := by
  by_cases h : ∃ w, Pipeline.arrRef spec0 w = b
  · obtain ⟨w, rfl⟩ := h
    rw [W2_arr]
    fin_cases w <;> first
      | exact ((dat0 (E1 m) c).arrAt_in _ rfl _).trans (A_eq0 (E1 m) c _)
      | exact absurd (by decide) hb
  · exact W2_of_ne m c b fun w e => h ⟨w, e⟩

/-! ### Item 2 (host stretch 1) and item 3 (region 1) -/

/-- After host stretch 1: what region 1 is entered from. -/
abbrev W3 : Dev nD → Valuation τ sig (Elt F) := fun c => StableHlo.after hostOps1 (W2 m c)
/-- The same contents read at the TensorCore's references (the parameter of region 1's proof data). -/
abbrev E3 : (c : Dev nD) → (b : Ref sig .tc) → Buf (Elt F) ((c : Thread nD τ).loc b) := fun c b => W3 m c b
/-- After region 1: its windows' arrays at what the pipeline leaves, every other buffer as entered. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)
/-- A host stretch changes only the buffers its operations write. -/
theorem W3_keep (c : Dev nD) (r : Ref sig .tc) (h : r ∉ hostOps1_W) : W3 m c r = W2 m c r :=
  StableHlo.after_of_writes_sub hostOps1 _ hostOps1_writes h
/-- Region 1 changes only its output windows' arrays: an input window's array is written back by no point. -/
theorem W4_keep (c : Dev nD) (b : Ref sig .tc) (hb : b ∉ ([main_v57_0, main_v57_1, main_v57_2] : List (Ref sig .tc))) :
    W4 m c (Proc.devRef .tc b) = W3 m c (Proc.devRef .tc b) := by
  by_cases h : ∃ w, Pipeline.arrRef spec1 w = b
  · obtain ⟨w, rfl⟩ := h
    rw [W4_arr]
    fin_cases w <;> first
      | exact ((dat1 (E3 m) c).arrAt_in _ rfl _).trans (A_eq1 (E3 m) c _)
      | exact absurd (by decide) hb
  · exact W4_of_ne m c b fun w e => h ⟨w, e⟩

/-! ### Item 4 (host stretch 2) and item 5 (region 2) -/

/-- After host stretch 2: what region 2 is entered from. -/
abbrev W5 : Dev nD → Valuation τ sig (Elt F) := fun c => StableHlo.after hostOps2 (W4 m c)
/-- The same contents read at the TensorCore's references (the parameter of region 2's proof data). -/
abbrev E5 : (c : Dev nD) → (b : Ref sig .tc) → Buf (Elt F) ((c : Thread nD τ).loc b) := fun c b => W5 m c b
/-- After region 2: its windows' arrays at what the pipeline leaves, every other buffer as entered. -/
def W6 (c : Dev nD) : Valuation τ sig (Elt F) :=
  Pipeline.withArrays spec2 c (W5 m c) fun w => (dat2 (E5 m) c).arrAt w cfg2.N
theorem W6_arr (c : Dev nD) (w : Fin cfg2.W) :
    W6 m c (Proc.devRef .tc (Pipeline.arrRef spec2 w)) = (dat2 (E5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev E6 : (c : Dev nD) → (b : Ref sig .tc) → Buf (Elt F) ((c : Thread nD τ).loc b) := fun c b => W6 m c b
theorem hF2 (c : Dev nD) (w : Fin cfg2.W) : (dat2 (E5 m) c).arrAt w cfg2.N = E6 m c (Pipeline.arrRef spec2 w) :=
  (W6_arr m c w).symm
theorem hrest2 (c : Dev nD) : ∀ b, b ∉ Finset.univ.image (Pipeline.arrRef spec2) → E6 m c b = E5 m c b :=
  fun b hb => W6_of_ne m c b fun w e => hb (Finset.mem_image.mpr ⟨w, Finset.mem_univ _, e⟩)
/-- A host stretch changes only the buffers its operations write. -/
theorem W5_keep (c : Dev nD) (r : Ref sig .tc) (h : r ∉ hostOps2_W) : W5 m c r = W4 m c r :=
  StableHlo.after_of_writes_sub hostOps2 _ hostOps2_writes h
/-- Region 2 changes only its output windows' arrays: an input window's array is written back by no point. -/
theorem W6_keep (c : Dev nD) (b : Ref sig .tc) (hb : b ∉ ([main_v76] : List (Ref sig .tc))) :
    W6 m c (Proc.devRef .tc b) = W5 m c (Proc.devRef .tc b) := by
  by_cases h : ∃ w, Pipeline.arrRef spec2 w = b
  · obtain ⟨w, rfl⟩ := h
    rw [W6_arr]
    fin_cases w <;> first
      | exact ((dat2 (E5 m) c).arrAt_in _ rfl _).trans (A_eq2 (E5 m) c _)
      | exact absurd (by decide) hb
  · exact W6_of_ne m c b fun w e => h ⟨w, e⟩

/-! ### Item 6 (host stretch 3) and item 7 (region 3) -/

/-- After host stretch 3: what region 3 is entered from. -/
abbrev W7 : Dev nD → Valuation τ sig (Elt F) := fun c => StableHlo.after hostOps3 (W6 m c)
/-- The same contents read at the TensorCore's references (the parameter of region 3's proof data). -/
abbrev E7 : (c : Dev nD) → (b : Ref sig .tc) → Buf (Elt F) ((c : Thread nD τ).loc b) := fun c b => W7 m c b
/-- After region 3: its windows' arrays at what the pipeline leaves, every other buffer as entered. -/
def W8 (c : Dev nD) : Valuation τ sig (Elt F) :=
  Pipeline.withArrays spec3 c (W7 m c) fun w => (dat3 (E7 m) c).arrAt w cfg3.N
theorem W8_arr (c : Dev nD) (w : Fin cfg3.W) :
    W8 m c (Proc.devRef .tc (Pipeline.arrRef spec3 w)) = (dat3 (E7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev E8 : (c : Dev nD) → (b : Ref sig .tc) → Buf (Elt F) ((c : Thread nD τ).loc b) := fun c b => W8 m c b
theorem hF3 (c : Dev nD) (w : Fin cfg3.W) : (dat3 (E7 m) c).arrAt w cfg3.N = E8 m c (Pipeline.arrRef spec3 w) :=
  (W8_arr m c w).symm
theorem hrest3 (c : Dev nD) : ∀ b, b ∉ Finset.univ.image (Pipeline.arrRef spec3) → E8 m c b = E7 m c b :=
  fun b hb => W8_of_ne m c b fun w e => hb (Finset.mem_image.mpr ⟨w, Finset.mem_univ _, e⟩)
/-- A host stretch changes only the buffers its operations write. -/
theorem W7_keep (c : Dev nD) (r : Ref sig .tc) (h : r ∉ hostOps3_W) : W7 m c r = W6 m c r :=
  StableHlo.after_of_writes_sub hostOps3 _ hostOps3_writes h
/-- Region 3 changes only its output windows' arrays: an input window's array is written back by no point. -/
theorem W8_keep (c : Dev nD) (b : Ref sig .tc) (hb : b ∉ ([main_v79] : List (Ref sig .tc))) :
    W8 m c (Proc.devRef .tc b) = W7 m c (Proc.devRef .tc b) := by
  by_cases h : ∃ w, Pipeline.arrRef spec3 w = b
  · obtain ⟨w, rfl⟩ := h
    rw [W8_arr]
    fin_cases w <;> first
      | exact ((dat3 (E7 m) c).arrAt_in _ rfl _).trans (A_eq3 (E7 m) c _)
      | exact absurd (by decide) hb
  · exact W8_of_ne m c b fun w e => h ⟨w, e⟩

/-! ### Item 8 (host stretch 4) and item 9 (region 4) -/

/-- After host stretch 4: what region 4 is entered from. -/
abbrev W9 : Dev nD → Valuation τ sig (Elt F) := fun c => StableHlo.after hostOps4 (W8 m c)
/-- The same contents read at the TensorCore's references (the parameter of region 4's proof data). -/
abbrev E9 : (c : Dev nD) → (b : Ref sig .tc) → Buf (Elt F) ((c : Thread nD τ).loc b) := fun c b => W9 m c b
/-- After region 4: its windows' arrays at what the pipeline leaves, every other buffer as entered. -/
def W10 (c : Dev nD) : Valuation τ sig (Elt F) :=
  Pipeline.withArrays spec4 c (W9 m c) fun w => (dat4 (E9 m) c).arrAt w cfg4.N
theorem W10_arr (c : Dev nD) (w : Fin cfg4.W) :
    W10 m c (Proc.devRef .tc (Pipeline.arrRef spec4 w)) = (dat4 (E9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev E10 : (c : Dev nD) → (b : Ref sig .tc) → Buf (Elt F) ((c : Thread nD τ).loc b) := fun c b => W10 m c b
theorem hF4 (c : Dev nD) (w : Fin cfg4.W) : (dat4 (E9 m) c).arrAt w cfg4.N = E10 m c (Pipeline.arrRef spec4 w) :=
  (W10_arr m c w).symm
theorem hrest4 (c : Dev nD) : ∀ b, b ∉ Finset.univ.image (Pipeline.arrRef spec4) → E10 m c b = E9 m c b :=
  fun b hb => W10_of_ne m c b fun w e => hb (Finset.mem_image.mpr ⟨w, Finset.mem_univ _, e⟩)
/-- A host stretch changes only the buffers its operations write. -/
theorem W9_keep (c : Dev nD) (r : Ref sig .tc) (h : r ∉ hostOps4_W) : W9 m c r = W8 m c r :=
  StableHlo.after_of_writes_sub hostOps4 _ hostOps4_writes h
/-- Region 4 changes only its output windows' arrays: an input window's array is written back by no point. -/
theorem W10_keep (c : Dev nD) (b : Ref sig .tc) (hb : b ∉ ([main_v123_0, main_v123_1, main_v123_2] : List (Ref sig .tc))) :
    W10 m c (Proc.devRef .tc b) = W9 m c (Proc.devRef .tc b) := by
  by_cases h : ∃ w, Pipeline.arrRef spec4 w = b
  · obtain ⟨w, rfl⟩ := h
    rw [W10_arr]
    fin_cases w <;> first
      | exact ((dat4 (E9 m) c).arrAt_in _ rfl _).trans (A_eq4 (E9 m) c _)
      | exact absurd (by decide) hb
  · exact W10_of_ne m c b fun w e => h ⟨w, e⟩

/-! ### Item 10 (host stretch 5) and item 11 (region 5) -/

/-- After host stretch 5: what region 5 is entered from. -/
abbrev W11 : Dev nD → Valuation τ sig (Elt F) := fun c => StableHlo.after hostOps5 (W10 m c)
/-- The same contents read at the TensorCore's references (the parameter of region 5's proof data). -/
abbrev E11 : (c : Dev nD) → (b : Ref sig .tc) → Buf (Elt F) ((c : Thread nD τ).loc b) := fun c b => W11 m c b
/-- After region 5: its windows' arrays at what the pipeline leaves, every other buffer as entered. -/
def W12 (c : Dev nD) : Valuation τ sig (Elt F) :=
  Pipeline.withArrays spec5 c (W11 m c) fun w => (dat5 (E11 m) c).arrAt w cfg5.N
theorem W12_arr (c : Dev nD) (w : Fin cfg5.W) :
    W12 m c (Proc.devRef .tc (Pipeline.arrRef spec5 w)) = (dat5 (E11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev E12 : (c : Dev nD) → (b : Ref sig .tc) → Buf (Elt F) ((c : Thread nD τ).loc b) := fun c b => W12 m c b
theorem hF5 (c : Dev nD) (w : Fin cfg5.W) : (dat5 (E11 m) c).arrAt w cfg5.N = E12 m c (Pipeline.arrRef spec5 w) :=
  (W12_arr m c w).symm
theorem hrest5 (c : Dev nD) : ∀ b, b ∉ Finset.univ.image (Pipeline.arrRef spec5) → E12 m c b = E11 m c b :=
  fun b hb => W12_of_ne m c b fun w e => hb (Finset.mem_image.mpr ⟨w, Finset.mem_univ _, e⟩)
/-- A host stretch changes only the buffers its operations write. -/
theorem W11_keep (c : Dev nD) (r : Ref sig .tc) (h : r ∉ hostOps5_W) : W11 m c r = W10 m c r :=
  StableHlo.after_of_writes_sub hostOps5 _ hostOps5_writes h
/-- Region 5 changes only its output windows' arrays: an input window's array is written back by no point. -/
theorem W12_keep (c : Dev nD) (b : Ref sig .tc) (hb : b ∉ ([main_v129_0, main_v129_1, main_v129_2] : List (Ref sig .tc))) :
    W12 m c (Proc.devRef .tc b) = W11 m c (Proc.devRef .tc b) := by
  by_cases h : ∃ w, Pipeline.arrRef spec5 w = b
  · obtain ⟨w, rfl⟩ := h
    rw [W12_arr]
    fin_cases w <;> first
      | exact ((dat5 (E11 m) c).arrAt_in _ rfl _).trans (A_eq5 (E11 m) c _)
      | exact absurd (by decide) hb
  · exact W12_of_ne m c b fun w e => h ⟨w, e⟩

/-! ### Item 12 (host stretch 6) and item 13 (region 6) -/

/-- After host stretch 6: what region 6 is entered from. -/
abbrev W13 : Dev nD → Valuation τ sig (Elt F) := fun c => StableHlo.after hostOps6 (W12 m c)
/-- The same contents read at the TensorCore's references (the parameter of region 6's proof data). -/
abbrev E13 : (c : Dev nD) → (b : Ref sig .tc) → Buf (Elt F) ((c : Thread nD τ).loc b) := fun c b => W13 m c b
/-- After region 6: its windows' arrays at what the pipeline leaves, every other buffer as entered. -/
def W14 (c : Dev nD) : Valuation τ sig (Elt F) :=
  Pipeline.withArrays spec6 c (W13 m c) fun w => (dat6 (E13 m) c).arrAt w cfg6.N
theorem W14_arr (c : Dev nD) (w : Fin cfg6.W) :
    W14 m c (Proc.devRef .tc (Pipeline.arrRef spec6 w)) = (dat6 (E13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
abbrev E14 : (c : Dev nD) → (b : Ref sig .tc) → Buf (Elt F) ((c : Thread nD τ).loc b) := fun c b => W14 m c b
theorem hF6 (c : Dev nD) (w : Fin cfg6.W) : (dat6 (E13 m) c).arrAt w cfg6.N = E14 m c (Pipeline.arrRef spec6 w) :=
  (W14_arr m c w).symm
theorem hrest6 (c : Dev nD) : ∀ b, b ∉ Finset.univ.image (Pipeline.arrRef spec6) → E14 m c b = E13 m c b :=
  fun b hb => W14_of_ne m c b fun w e => hb (Finset.mem_image.mpr ⟨w, Finset.mem_univ _, e⟩)
/-- A host stretch changes only the buffers its operations write. -/
theorem W13_keep (c : Dev nD) (r : Ref sig .tc) (h : r ∉ hostOps6_W) : W13 m c r = W12 m c r :=
  StableHlo.after_of_writes_sub hostOps6 _ hostOps6_writes h
/-- Region 6 changes only its output windows' arrays: an input window's array is written back by no point. -/
theorem W14_keep (c : Dev nD) (b : Ref sig .tc) (hb : b ∉ ([main_v148] : List (Ref sig .tc))) :
    W14 m c (Proc.devRef .tc b) = W13 m c (Proc.devRef .tc b) := by
  by_cases h : ∃ w, Pipeline.arrRef spec6 w = b
  · obtain ⟨w, rfl⟩ := h
    rw [W14_arr]
    fin_cases w <;> first
      | exact ((dat6 (E13 m) c).arrAt_in _ rfl _).trans (A_eq6 (E13 m) c _)
      | exact absurd (by decide) hb
  · exact W14_of_ne m c b fun w e => h ⟨w, e⟩

/-! ### Item 14 (host stretch 7) and item 15 (region 7) -/

/-- After host stretch 7: what region 7 is entered from. -/
abbrev W15 : Dev nD → Valuation τ sig (Elt F) := fun c => StableHlo.after hostOps7 (W14 m c)
/-- The same contents read at the TensorCore's references (the parameter of region 7's proof data). -/
abbrev E15 : (c : Dev nD) → (b : Ref sig .tc) → Buf (Elt F) ((c : Thread nD τ).loc b) := fun c b => W15 m c b
/-- After region 7: its windows' arrays at what the pipeline leaves, every other buffer as entered. -/
def W16 (c : Dev nD) : Valuation τ sig (Elt F) :=
  Pipeline.withArrays spec7 c (W15 m c) fun w => (dat7 (E15 m) c).arrAt w cfg7.N
theorem W16_arr (c : Dev nD) (w : Fin cfg7.W) :
    W16 m c (Proc.devRef .tc (Pipeline.arrRef spec7 w)) = (dat7 (E15 m) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m c (Proc.devRef .tc b) = W15 m c (Proc.devRef .tc b) := by
  unfold W16; exact Pipeline.withArrays_of_ne spec7 c _ _ b hb
abbrev E16 : (c : Dev nD) → (b : Ref sig .tc) → Buf (Elt F) ((c : Thread nD τ).loc b) := fun c b => W16 m c b
theorem hF7 (c : Dev nD) (w : Fin cfg7.W) : (dat7 (E15 m) c).arrAt w cfg7.N = E16 m c (Pipeline.arrRef spec7 w) :=
  (W16_arr m c w).symm
theorem hrest7 (c : Dev nD) : ∀ b, b ∉ Finset.univ.image (Pipeline.arrRef spec7) → E16 m c b = E15 m c b :=
  fun b hb => W16_of_ne m c b fun w e => hb (Finset.mem_image.mpr ⟨w, Finset.mem_univ _, e⟩)
/-- A host stretch changes only the buffers its operations write. -/
theorem W15_keep (c : Dev nD) (r : Ref sig .tc) (h : r ∉ hostOps7_W) : W15 m c r = W14 m c r :=
  StableHlo.after_of_writes_sub hostOps7 _ hostOps7_writes h
/-- Region 7 changes only its output windows' arrays: an input window's array is written back by no point. -/
theorem W16_keep (c : Dev nD) (b : Ref sig .tc) (hb : b ∉ ([main_v151] : List (Ref sig .tc))) :
    W16 m c (Proc.devRef .tc b) = W15 m c (Proc.devRef .tc b) := by
  by_cases h : ∃ w, Pipeline.arrRef spec7 w = b
  · obtain ⟨w, rfl⟩ := h
    rw [W16_arr]
    fin_cases w <;> first
      | exact ((dat7 (E15 m) c).arrAt_in _ rfl _).trans (A_eq7 (E15 m) c _)
      | exact absurd (by decide) hb
  · exact W16_of_ne m c b fun w e => h ⟨w, e⟩

/-! ### Item 16 (host stretch 8) and item 17 (region 8) -/

/-- After host stretch 8: what region 8 is entered from. -/
abbrev W17 : Dev nD → Valuation τ sig (Elt F) := fun c => StableHlo.after hostOps8 (W16 m c)
/-- The same contents read at the TensorCore's references (the parameter of region 8's proof data). -/
abbrev E17 : (c : Dev nD) → (b : Ref sig .tc) → Buf (Elt F) ((c : Thread nD τ).loc b) := fun c b => W17 m c b
/-- After region 8: its windows' arrays at what the pipeline leaves, every other buffer as entered. -/
def W18 (c : Dev nD) : Valuation τ sig (Elt F) :=
  Pipeline.withArrays spec8 c (W17 m c) fun w => (dat8 (E17 m) c).arrAt w cfg8.N
theorem W18_arr (c : Dev nD) (w : Fin cfg8.W) :
    W18 m c (Proc.devRef .tc (Pipeline.arrRef spec8 w)) = (dat8 (E17 m) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m c (Proc.devRef .tc b) = W17 m c (Proc.devRef .tc b) := by
  unfold W18; exact Pipeline.withArrays_of_ne spec8 c _ _ b hb
abbrev E18 : (c : Dev nD) → (b : Ref sig .tc) → Buf (Elt F) ((c : Thread nD τ).loc b) := fun c b => W18 m c b
theorem hF8 (c : Dev nD) (w : Fin cfg8.W) : (dat8 (E17 m) c).arrAt w cfg8.N = E18 m c (Pipeline.arrRef spec8 w) :=
  (W18_arr m c w).symm
theorem hrest8 (c : Dev nD) : ∀ b, b ∉ Finset.univ.image (Pipeline.arrRef spec8) → E18 m c b = E17 m c b :=
  fun b hb => W18_of_ne m c b fun w e => hb (Finset.mem_image.mpr ⟨w, Finset.mem_univ _, e⟩)
/-- A host stretch changes only the buffers its operations write. -/
theorem W17_keep (c : Dev nD) (r : Ref sig .tc) (h : r ∉ hostOps8_W) : W17 m c r = W16 m c r :=
  StableHlo.after_of_writes_sub hostOps8 _ hostOps8_writes h
/-- Region 8 changes only its output windows' arrays: an input window's array is written back by no point. -/
theorem W18_keep (c : Dev nD) (b : Ref sig .tc) (hb : b ∉ ([main_v153] : List (Ref sig .tc))) :
    W18 m c (Proc.devRef .tc b) = W17 m c (Proc.devRef .tc b) := by
  by_cases h : ∃ w, Pipeline.arrRef spec8 w = b
  · obtain ⟨w, rfl⟩ := h
    rw [W18_arr]
    fin_cases w <;> first
      | exact ((dat8 (E17 m) c).arrAt_in _ rfl _).trans (A_eq8 (E17 m) c _)
      | exact absurd (by decide) hb
  · exact W18_of_ne m c b fun w e => h ⟨w, e⟩

/-! ### Item 18 (host stretch 9) and item 19 (region 9) -/

/-- After host stretch 9: what region 9 is entered from. -/
abbrev W19 : Dev nD → Valuation τ sig (Elt F) := fun c => StableHlo.after hostOps9 (W18 m c)
/-- The same contents read at the TensorCore's references (the parameter of region 9's proof data). -/
abbrev E19 : (c : Dev nD) → (b : Ref sig .tc) → Buf (Elt F) ((c : Thread nD τ).loc b) := fun c b => W19 m c b
/-- After region 9: its windows' arrays at what the pipeline leaves, every other buffer as entered. -/
def W20 (c : Dev nD) : Valuation τ sig (Elt F) :=
  Pipeline.withArrays spec9 c (W19 m c) fun w => (dat9 (E19 m) c).arrAt w cfg9.N
theorem W20_arr (c : Dev nD) (w : Fin cfg9.W) :
    W20 m c (Proc.devRef .tc (Pipeline.arrRef spec9 w)) = (dat9 (E19 m) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m c (Proc.devRef .tc b) = W19 m c (Proc.devRef .tc b) := by
  unfold W20; exact Pipeline.withArrays_of_ne spec9 c _ _ b hb
abbrev E20 : (c : Dev nD) → (b : Ref sig .tc) → Buf (Elt F) ((c : Thread nD τ).loc b) := fun c b => W20 m c b
theorem hF9 (c : Dev nD) (w : Fin cfg9.W) : (dat9 (E19 m) c).arrAt w cfg9.N = E20 m c (Pipeline.arrRef spec9 w) :=
  (W20_arr m c w).symm
theorem hrest9 (c : Dev nD) : ∀ b, b ∉ Finset.univ.image (Pipeline.arrRef spec9) → E20 m c b = E19 m c b :=
  fun b hb => W20_of_ne m c b fun w e => hb (Finset.mem_image.mpr ⟨w, Finset.mem_univ _, e⟩)
/-- A host stretch changes only the buffers its operations write. -/
theorem W19_keep (c : Dev nD) (r : Ref sig .tc) (h : r ∉ hostOps9_W) : W19 m c r = W18 m c r :=
  StableHlo.after_of_writes_sub hostOps9 _ hostOps9_writes h
/-- Region 9 changes only its output windows' arrays: an input window's array is written back by no point. -/
theorem W20_keep (c : Dev nD) (b : Ref sig .tc) (hb : b ∉ ([main_v155] : List (Ref sig .tc))) :
    W20 m c (Proc.devRef .tc b) = W19 m c (Proc.devRef .tc b) := by
  by_cases h : ∃ w, Pipeline.arrRef spec9 w = b
  · obtain ⟨w, rfl⟩ := h
    rw [W20_arr]
    fin_cases w <;> first
      | exact ((dat9 (E19 m) c).arrAt_in _ rfl _).trans (A_eq9 (E19 m) c _)
      | exact absurd (by decide) hb
  · exact W20_of_ne m c b fun w e => h ⟨w, e⟩

/-! ## A buffer no item writes ends as launched -/

theorem W20_of_untouched (c : Dev nD) (r : Ref sig .tc)
    (h1 : r ∉ hostOps0_W) (h2 : r ∉ ([main_v51_0, main_v51_1, main_v51_2] : List (Ref sig .tc)))
    (h3 : r ∉ hostOps1_W) (h4 : r ∉ ([main_v57_0, main_v57_1, main_v57_2] : List (Ref sig .tc)))
    (h5 : r ∉ hostOps2_W) (h6 : r ∉ ([main_v76] : List (Ref sig .tc)))
    (h7 : r ∉ hostOps3_W) (h8 : r ∉ ([main_v79] : List (Ref sig .tc)))
    (h9 : r ∉ hostOps4_W) (h10 : r ∉ ([main_v123_0, main_v123_1, main_v123_2] : List (Ref sig .tc)))
    (h11 : r ∉ hostOps5_W) (h12 : r ∉ ([main_v129_0, main_v129_1, main_v129_2] : List (Ref sig .tc)))
    (h13 : r ∉ hostOps6_W) (h14 : r ∉ ([main_v148] : List (Ref sig .tc)))
    (h15 : r ∉ hostOps7_W) (h16 : r ∉ ([main_v151] : List (Ref sig .tc)))
    (h17 : r ∉ hostOps8_W) (h18 : r ∉ ([main_v153] : List (Ref sig .tc)))
    (h19 : r ∉ hostOps9_W) (h20 : r ∉ ([main_v155] : List (Ref sig .tc)))
    : W20 m c (Proc.devRef .tc r) = m ((c : Thread nD τ).loc r) :=
  (W20_keep m c r h20).trans <| (W19_keep m c r h19).trans <| (W18_keep m c r h18).trans <| (W17_keep m c r h17).trans <| (W16_keep m c r h16).trans <| (W15_keep m c r h15).trans <| (W14_keep m c r h14).trans <| (W13_keep m c r h13).trans <| (W12_keep m c r h12).trans <| (W11_keep m c r h11).trans <| (W10_keep m c r h10).trans <| (W9_keep m c r h9).trans <| (W8_keep m c r h8).trans <| (W7_keep m c r h7).trans <| (W6_keep m c r h6).trans <| (W5_keep m c r h5).trans <| (W4_keep m c r h4).trans <| (W3_keep m c r h3).trans <| (W2_keep m c r h2).trans <| (W1_keep m c r h1)

/-! ## The proof data family and the thread state -/

/-- No pipeline has a prefetched table. -/
abbrev admH : (p : Fin 10) → (pcfgs (F := F) p).Adm := fun p => (cfgs p).toPCfg_adm
/-- Every pipeline's proof data, each at the contents its region is entered from: a literal match on the pipeline's number. -/
def pdatsH : (p : Fin 10) → (c : Dev nD) → Dat τ (Elt F) Unit ℕ (UR sig nD τ) ℕ (Pipeline.pin (pcfgs (F := F)) admH p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c
  | ⟨6, _⟩ => fun c => dat6 (E13 m) c
  | ⟨7, _⟩ => fun c => dat7 (E15 m) c
  | ⟨8, _⟩ => fun c => dat8 (E17 m) c
  | ⟨9, _⟩ => fun c => dat9 (E19 m) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every item: the core's generator register at some state and its dues, none. -/
abbrev RH (c : Dev nD) : sProp 𝕄 := iprop((∃ r, prngReg c r) ∗ ∃ W, owes (c : Thread nD τ) (0 : CellTallies nD τ sig Unit) W)
/-- A host stretch as a segment over the unscoped references from the contents `W`, `RH` riding along. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev TH (c : Dev nD) : sProp 𝕄 := iprop(StableHlo.held (c : Thread nD τ) (Pipeline.ucRefs τ sig) (W20 m c) ∗ ∃ r, prngReg c r)

end Cert.Kernel.Hand

end
-- ==== Proof.K.Seg0.lean ====
/- Region 0 as a segment of the run: the record that joins its body obligation to the thread state between items. -/
import proofs.«154353_j88940182765819_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 0 over the thread state: entered with every unscoped buffer at `W1`, left with them at `W2`. Its windows'
    arrays are split out of the unscoped buffers and put back at the exit contents; the generator register goes into the
    region's invariant and comes back; nothing is owed; the kernel has no semaphore of its own. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (admH (F := F) 0).1 ∗ Pipeline.scopedRest (Pipeline.pin (pcfgs (F := F)) admH 0).spec c)
        ⊢ (Pipeline.ΦA spec0 c : sProp 𝕄) := by
      unfold Pipeline.ΦA
      iintro ⟨Hp, -, Hr⟩
      isplitl [Hr]; · iexact Hr
      iexact Hp
    exact h.trans (hin0 (E1 m) c)
  hout c := by
    rw [Pipeline.ownSems0_none]
    have h : (Pipeline.ΦA spec0 c : sProp 𝕄)
        ⊢ iprop((∃ r, prngReg c r) ∗ BI.emp ∗ Pipeline.scopedRest (Pipeline.pin (pcfgs (F := F)) admH 0).spec c) := by
      unfold Pipeline.ΦA
      iintro ⟨Hr, Hp⟩
      isplitl [Hp]; · iexact Hp
      isplitr; · iempintro
      iexact Hr
    exact (hout0 (E1 m) c).trans h
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (E1 m c) (E2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg1.lean ====
/- Region 1 as a segment of the run: the record that joins its body obligation to the thread state between items. -/
import proofs.«154353_j88940182765819_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 1 over the thread state: entered with every unscoped buffer at `W3`, left with them at `W4`. Its windows'
    arrays are split out of the unscoped buffers and put back at the exit contents; the generator register goes into the
    region's invariant and comes back; nothing is owed; the kernel has no semaphore of its own. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (admH (F := F) 1).1 ∗ Pipeline.scopedRest (Pipeline.pin (pcfgs (F := F)) admH 1).spec c)
        ⊢ (Pipeline.ΦA spec1 c : sProp 𝕄) := by
      unfold Pipeline.ΦA
      iintro ⟨Hp, -, Hr⟩
      isplitl [Hr]; · iexact Hr
      iexact Hp
    exact h.trans (hin1 (E3 m) c)
  hout c := by
    rw [Pipeline.ownSems0_none]
    have h : (Pipeline.ΦA spec1 c : sProp 𝕄)
        ⊢ iprop((∃ r, prngReg c r) ∗ BI.emp ∗ Pipeline.scopedRest (Pipeline.pin (pcfgs (F := F)) admH 1).spec c) := by
      unfold Pipeline.ΦA
      iintro ⟨Hr, Hp⟩
      isplitl [Hp]; · iexact Hp
      isplitr; · iempintro
      iexact Hr
    exact (hout1 (E3 m) c).trans h
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (E3 m c) (E4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg2.lean ====
/- Region 2 as a segment of the run: the record that joins its body obligation to the thread state between items. -/
import proofs.«154353_j88940182765819_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 2 over the thread state: entered with every unscoped buffer at `W5`, left with them at `W6`. Its windows'
    arrays are split out of the unscoped buffers and put back at the exit contents; the generator register goes into the
    region's invariant and comes back; nothing is owed; the kernel has no semaphore of its own. -/
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ LH lvH 2 fun _ _ => rfl
  pre c := iprop(StableHlo.held (c : Thread nD τ) (Pipeline.ucRefs τ sig) (W5 m c) ∗ RH c)
  post c := iprop(StableHlo.held (c : Thread nD τ) (Pipeline.ucRefs τ sig) (W6 m c) ∗ RH c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (E5 m c) (E6 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg3.lean ====
/- Region 3 as a segment of the run: the record that joins its body obligation to the thread state between items. -/
import proofs.«154353_j88940182765819_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 3 over the thread state: entered with every unscoped buffer at `W7`, left with them at `W8`. Its windows'
    arrays are split out of the unscoped buffers and put back at the exit contents; the generator register goes into the
    region's invariant and comes back; nothing is owed; the kernel has no semaphore of its own. -/
def reg3 : Pipeline.RegionSeg (pcfgs (F := F)) admH (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ LH lvH 3 fun _ _ => rfl
  pre c := iprop(StableHlo.held (c : Thread nD τ) (Pipeline.ucRefs τ sig) (W7 m c) ∗ RH c)
  post c := iprop(StableHlo.held (c : Thread nD τ) (Pipeline.ucRefs τ sig) (W8 m c) ∗ RH c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (E7 m c) (E8 m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg4.lean ====
/- Region 4 as a segment of the run: the record that joins its body obligation to the thread state between items. -/
import proofs.«154353_j88940182765819_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 4 over the thread state: entered with every unscoped buffer at `W9`, left with them at `W10`. Its windows'
    arrays are split out of the unscoped buffers and put back at the exit contents; the generator register goes into the
    region's invariant and comes back; nothing is owed; the kernel has no semaphore of its own. -/
def reg4 : Pipeline.RegionSeg (pcfgs (F := F)) admH (pdatsH m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (E9 m) c).loose
  hwaits := Pipeline.hwaits_of_owed_zero _ _ _ _ LH lvH 4 fun _ _ => rfl
  pre c := iprop(StableHlo.held (c : Thread nD τ) (Pipeline.ucRefs τ sig) (W9 m c) ∗ RH c)
  post c := iprop(StableHlo.held (c : Thread nD τ) (Pipeline.ucRefs τ sig) (W10 m c) ∗ RH c)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit := Pipeline.arrays_of_unscopedBufs (p := 4) (pcfgs (F := F)) admH (pdatsH m) launch4.win launch4.arr_whole c
      ((pdatsH m 4 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 4).pre c (fun _ => fullShare) (admH (F := F) 4).1 ∗ Pipeline.scopedRest (Pipeline.pin (pcfgs (F := F)) admH 4).spec c)
        ⊢ (Pipeline.ΦA spec4 c : sProp 𝕄) := by
      unfold Pipeline.ΦA
      iintro ⟨Hp, -, Hr⟩
      isplitl [Hr]; · iexact Hr
      iexact Hp
    exact h.trans (hin4 (E9 m) c)
  hout c := by
    rw [Pipeline.ownSems0_none]
    have h : (Pipeline.ΦA spec4 c : sProp 𝕄)
        ⊢ iprop((∃ r, prngReg c r) ∗ BI.emp ∗ Pipeline.scopedRest (Pipeline.pin (pcfgs (F := F)) admH 4).spec c) := by
      unfold Pipeline.ΦA
      iintro ⟨Hr, Hp⟩
      isplitl [Hp]; · iexact Hp
      isplitr; · iempintro
      iexact Hr
    exact (hout4 (E9 m) c).trans h
  hexit c := by
    have hjoin := Pipeline.unscopedBufs_of_arrays (p := 4) (pcfgs (F := F)) admH (Ix := Unit) (Name := ℕ) (U := UR sig nD τ) (Lvl := ℕ)
      launch4.win launch4.arr_whole c (pdatsH m) ((pdatsH m 4 c).share_full fun _ => rfl)
      (E9 m c) (E10 m c) ((pdatsH m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg5.lean ====
/- Region 5 as a segment of the run: the record that joins its body obligation to the thread state between items. -/
import proofs.«154353_j88940182765819_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 5 over the thread state: entered with every unscoped buffer at `W11`, left with them at `W12`. Its windows'
    arrays are split out of the unscoped buffers and put back at the exit contents; the generator register goes into the
    region's invariant and comes back; nothing is owed; the kernel has no semaphore of its own. -/
def reg5 : Pipeline.RegionSeg (pcfgs (F := F)) admH (pdatsH m) () defs₀ 𝒱H LH lvH 5 where
  win := launch5.win.to₀
  block_pos := launch5.block_pos
  stage_whole := launch5.stage_whole
  K := PEmpty
  osem k := k.elim
  ho := Pipeline.OwnSemFacts.none _
  hbody c := (body_obligation5 (E11 m) c).loose
  hwaits := Pipeline.hwaits_of_owed_zero _ _ _ _ LH lvH 5 fun _ _ => rfl
  pre c := iprop(StableHlo.held (c : Thread nD τ) (Pipeline.ucRefs τ sig) (W11 m c) ∗ RH c)
  post c := iprop(StableHlo.held (c : Thread nD τ) (Pipeline.ucRefs τ sig) (W12 m c) ∗ RH c)
  X c := iprop(∃ r, prngReg c r)
  Y c := iprop(∃ r, prngReg c r)
  Z c := Pipeline.unscopedRest (Ix := Unit) (Name := ℕ) (U := UR sig nD τ) (Lvl := ℕ) spec5 c (E11 m c)
  hentry c := by
    rw [Pipeline.ownSems0_none]
    have hsplit := Pipeline.arrays_of_unscopedBufs (p := 5) (pcfgs (F := F)) admH (pdatsH m) launch5.win launch5.arr_whole c
      ((pdatsH m 5 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 5).pre c (fun _ => fullShare) (admH (F := F) 5).1 ∗ Pipeline.scopedRest (Pipeline.pin (pcfgs (F := F)) admH 5).spec c)
        ⊢ (Pipeline.ΦA spec5 c : sProp 𝕄) := by
      unfold Pipeline.ΦA
      iintro ⟨Hp, -, Hr⟩
      isplitl [Hr]; · iexact Hr
      iexact Hp
    exact h.trans (hin5 (E11 m) c)
  hout c := by
    rw [Pipeline.ownSems0_none]
    have h : (Pipeline.ΦA spec5 c : sProp 𝕄)
        ⊢ iprop((∃ r, prngReg c r) ∗ BI.emp ∗ Pipeline.scopedRest (Pipeline.pin (pcfgs (F := F)) admH 5).spec c) := by
      unfold Pipeline.ΦA
      iintro ⟨Hr, Hp⟩
      isplitl [Hp]; · iexact Hp
      isplitr; · iempintro
      iexact Hr
    exact (hout5 (E11 m) c).trans h
  hexit c := by
    have hjoin := Pipeline.unscopedBufs_of_arrays (p := 5) (pcfgs (F := F)) admH (Ix := Unit) (Name := ℕ) (U := UR sig nD τ) (Lvl := ℕ)
      launch5.win launch5.arr_whole c (pdatsH m) ((pdatsH m 5 c).share_full fun _ => rfl)
      (E11 m c) (E12 m c) ((pdatsH m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg6.lean ====
/- Region 6 as a segment of the run: the record that joins its body obligation to the thread state between items. -/
import proofs.«154353_j88940182765819_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 6 over the thread state: entered with every unscoped buffer at `W13`, left with them at `W14`. Its windows'
    arrays are split out of the unscoped buffers and put back at the exit contents; the generator register goes into the
    region's invariant and comes back; nothing is owed; the kernel has no semaphore of its own. -/
def reg6 : Pipeline.RegionSeg (pcfgs (F := F)) admH (pdatsH m) () defs₀ 𝒱H LH lvH 6 where
  win := launch6.win.to₀
  block_pos := launch6.block_pos
  stage_whole := launch6.stage_whole
  K := PEmpty
  osem k := k.elim
  ho := Pipeline.OwnSemFacts.none _
  hbody c := (body_obligation6 (E13 m) c).loose
  hwaits := Pipeline.hwaits_of_owed_zero _ _ _ _ LH lvH 6 fun _ _ => rfl
  pre c := iprop(StableHlo.held (c : Thread nD τ) (Pipeline.ucRefs τ sig) (W13 m c) ∗ RH c)
  post c := iprop(StableHlo.held (c : Thread nD τ) (Pipeline.ucRefs τ sig) (W14 m c) ∗ RH c)
  X c := iprop(∃ r, prngReg c r)
  Y c := iprop(∃ r, prngReg c r)
  Z c := Pipeline.unscopedRest (Ix := Unit) (Name := ℕ) (U := UR sig nD τ) (Lvl := ℕ) spec6 c (E13 m c)
  hentry c := by
    rw [Pipeline.ownSems0_none]
    have hsplit := Pipeline.arrays_of_unscopedBufs (p := 6) (pcfgs (F := F)) admH (pdatsH m) launch6.win launch6.arr_whole c
      ((pdatsH m 6 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdatsH m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admH (Ix := Unit) (Name := ℕ) (U := UR sig nD τ) (Lvl := ℕ)
      launch6.win launch6.arr_whole c (pdatsH m) ((pdatsH m 6 c).share_full fun _ => rfl)
      (E13 m c) (E14 m c) ((pdatsH m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg7.lean ====
/- Region 7 as a segment of the run: the record that joins its body obligation to the thread state between items. -/
import proofs.«154353_j88940182765819_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 7 over the thread state: entered with every unscoped buffer at `W15`, left with them at `W16`. Its windows'
    arrays are split out of the unscoped buffers and put back at the exit contents; the generator register goes into the
    region's invariant and comes back; nothing is owed; the kernel has no semaphore of its own. -/
def reg7 : Pipeline.RegionSeg (pcfgs (F := F)) admH (pdatsH m) () defs₀ 𝒱H LH lvH 7 where
  win := launch7.win.to₀
  block_pos := launch7.block_pos
  stage_whole := launch7.stage_whole
  K := PEmpty
  osem k := k.elim
  ho := Pipeline.OwnSemFacts.none _
  hbody c := (body_obligation7 (E15 m) c).loose
  hwaits := Pipeline.hwaits_of_owed_zero _ _ _ _ LH lvH 7 fun _ _ => rfl
  pre c := iprop(StableHlo.held (c : Thread nD τ) (Pipeline.ucRefs τ sig) (W15 m c) ∗ RH c)
  post c := iprop(StableHlo.held (c : Thread nD τ) (Pipeline.ucRefs τ sig) (W16 m c) ∗ RH c)
  X c := iprop(∃ r, prngReg c r)
  Y c := iprop(∃ r, prngReg c r)
  Z c := Pipeline.unscopedRest (Ix := Unit) (Name := ℕ) (U := UR sig nD τ) (Lvl := ℕ) spec7 c (E15 m c)
  hentry c := by
    rw [Pipeline.ownSems0_none]
    have hsplit := Pipeline.arrays_of_unscopedBufs (p := 7) (pcfgs (F := F)) admH (pdatsH m) launch7.win launch7.arr_whole c
      ((pdatsH m 7 c).share_full fun _ => rfl) (E15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdatsH m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admH (Ix := Unit) (Name := ℕ) (U := UR sig nD τ) (Lvl := ℕ)
      launch7.win launch7.arr_whole c (pdatsH m) ((pdatsH m 7 c).share_full fun _ => rfl)
      (E15 m c) (E16 m c) ((pdatsH m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg8.lean ====
/- Region 8 as a segment of the run: the record that joins its body obligation to the thread state between items. -/
import proofs.«154353_j88940182765819_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 8 over the thread state: entered with every unscoped buffer at `W17`, left with them at `W18`. Its windows'
    arrays are split out of the unscoped buffers and put back at the exit contents; the generator register goes into the
    region's invariant and comes back; nothing is owed; the kernel has no semaphore of its own. -/
def reg8 : Pipeline.RegionSeg (pcfgs (F := F)) admH (pdatsH m) () defs₀ 𝒱H LH lvH 8 where
  win := launch8.win.to₀
  block_pos := launch8.block_pos
  stage_whole := launch8.stage_whole
  K := PEmpty
  osem k := k.elim
  ho := Pipeline.OwnSemFacts.none _
  hbody c := (body_obligation8 (E17 m) c).loose
  hwaits := Pipeline.hwaits_of_owed_zero _ _ _ _ LH lvH 8 fun _ _ => rfl
  pre c := iprop(StableHlo.held (c : Thread nD τ) (Pipeline.ucRefs τ sig) (W17 m c) ∗ RH c)
  post c := iprop(StableHlo.held (c : Thread nD τ) (Pipeline.ucRefs τ sig) (W18 m c) ∗ RH c)
  X c := iprop(∃ r, prngReg c r)
  Y c := iprop(∃ r, prngReg c r)
  Z c := Pipeline.unscopedRest (Ix := Unit) (Name := ℕ) (U := UR sig nD τ) (Lvl := ℕ) spec8 c (E17 m c)
  hentry c := by
    rw [Pipeline.ownSems0_none]
    have hsplit := Pipeline.arrays_of_unscopedBufs (p := 8) (pcfgs (F := F)) admH (pdatsH m) launch8.win launch8.arr_whole c
      ((pdatsH m 8 c).share_full fun _ => rfl) (E17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdatsH m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) admH (Ix := Unit) (Name := ℕ) (U := UR sig nD τ) (Lvl := ℕ)
      launch8.win launch8.arr_whole c (pdatsH m) ((pdatsH m 8 c).share_full fun _ => rfl)
      (E17 m c) (E18 m c) ((pdatsH m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg9.lean ====
/- Region 9 as a segment of the run: the record that joins its body obligation to the thread state between items. -/
import proofs.«154353_j88940182765819_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 9 over the thread state: entered with every unscoped buffer at `W19`, left with them at `W20`. Its windows'
    arrays are split out of the unscoped buffers and put back at the exit contents; the generator register goes into the
    region's invariant and comes back; nothing is owed; the kernel has no semaphore of its own. -/
def reg9 : Pipeline.RegionSeg (pcfgs (F := F)) admH (pdatsH m) () defs₀ 𝒱H LH lvH 9 where
  win := launch9.win.to₀
  block_pos := launch9.block_pos
  stage_whole := launch9.stage_whole
  K := PEmpty
  osem k := k.elim
  ho := Pipeline.OwnSemFacts.none _
  hbody c := (body_obligation9 (E19 m) c).loose
  hwaits := Pipeline.hwaits_of_owed_zero _ _ _ _ LH lvH 9 fun _ _ => rfl
  pre c := iprop(StableHlo.held (c : Thread nD τ) (Pipeline.ucRefs τ sig) (W19 m c) ∗ RH c)
  post c := iprop(TH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec9 c (E19 m c)
  hentry c := by
    rw [Pipeline.ownSems0_none]
    have hsplit := Pipeline.arrays_of_unscopedBufs (p := 9) (pcfgs (F := F)) admH (pdatsH m) launch9.win launch9.arr_whole c
      ((pdatsH m 9 c).share_full fun _ => rfl) (E19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdatsH m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) admH (Ix := Unit) (Name := ℕ) (U := UR sig nD τ) (Lvl := ℕ)
      launch9.win launch9.arr_whole c (pdatsH m) ((pdatsH m 9 c).share_full fun _ => rfl)
      (E19 m c) (E20 m c) ((pdatsH m 9 c).arrAt · cfg9.N) (hF9 m c) (hrest9 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.K.Run.lean ====
/- The run assembled: the twenty items in order, the launch, and what the final memory holds. -/
import proofs.«154353_j88940182765819_1_alg».proof.Proof.K.Seg0
import proofs.«154353_j88940182765819_1_alg».proof.Proof.K.Seg1
import proofs.«154353_j88940182765819_1_alg».proof.Proof.K.Seg2
import proofs.«154353_j88940182765819_1_alg».proof.Proof.K.Seg3
import proofs.«154353_j88940182765819_1_alg».proof.Proof.K.Seg4
import proofs.«154353_j88940182765819_1_alg».proof.Proof.K.Seg5
import proofs.«154353_j88940182765819_1_alg».proof.Proof.K.Seg6
import proofs.«154353_j88940182765819_1_alg».proof.Proof.K.Seg7
import proofs.«154353_j88940182765819_1_alg».proof.Proof.K.Seg8
import proofs.«154353_j88940182765819_1_alg».proof.Proof.K.Seg9

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program as segments, and the run -/

/-- The twenty items in order. -/
abbrev segsH : List (Pipeline.Seg (pcfgs (F := F)) admH (pdatsH m) () defs₀ 𝒱H LH lvH) :=
  [ .host (hsegH hostOps0 hostOps0_sub hostOps0_fresh (W0 m)),
    .region (reg0 m),
    .host (hsegH hostOps1 hostOps1_sub hostOps1_fresh (W2 m)),
    .region (reg1 m),
    .host (hsegH hostOps2 hostOps2_sub hostOps2_fresh (W4 m)),
    .region (reg2 m),
    .host (hsegH hostOps3 hostOps3_sub hostOps3_fresh (W6 m)),
    .region (reg3 m),
    .host (hsegH hostOps4 hostOps4_sub hostOps4_fresh (W8 m)),
    .region (reg4 m),
    .host (hsegH hostOps5 hostOps5_sub hostOps5_fresh (W10 m)),
    .region (reg5 m),
    .host (hsegH hostOps6 hostOps6_sub hostOps6_fresh (W12 m)),
    .region (reg6 m),
    .host (hsegH hostOps7 hostOps7_sub hostOps7_fresh (W14 m)),
    .region (reg7 m),
    .host (hsegH hostOps8 hostOps8_sub hostOps8_fresh (W16 m)),
    .region (reg8 m),
    .host (hsegH hostOps9 hostOps9_sub hostOps9_fresh (W18 m)),
    .region (reg9 m) ]
/-- The program is the run of its items. -/
theorem main_runH (c : Dev nD) : main (F := F) c = Pipeline.Seg.run (segsH m) := (main_chain c).trans (by chain_rfl)

set_option backward.isDefEq.respectTransparency.types false in
/-- THE RUN. From any memory with zero counters every weakly fair execution of the program on the TensorCores terminates,
    nothing faulting, and any property of the final memory that follows from "every unscoped buffer of every core holds
    the last contents `W20`" holds of it. -/
theorem run_all {Q : PUnit × MemSt nD τ sig (Elt F) → Prop}
    (hQ : ∀ s : MemSt nD τ sig (Elt F), (∀ c : Dev nD, ∀ b ∈ Pipeline.ucRefs τ sig, s.mem (((c : Thread nD τ)).1, b) = W20 m c b) → Q (⟨⟩, s)) :
    θ_run defs (onTc (τ := τ) (main (F := F))) ⟨m, fun _ => 0, ρ⟩ Q :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TH m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m c b)
    (hfin := fun c s' => by
      iintro ⟨⟨Hh, -⟩, HSI⟩
      unfold StableHlo.held
      imodintro
      iapply (pointsTo_read_all (Pipeline.ucRefs τ sig) (fun b => (((c : Thread nD τ)).1, b)) (W20 m c) s')
      isplitl [Hh] <;> iassumption)
    (hQ := hQ)

/-! ## The frame -/

theorem W20_main_arg0 (c : Dev nD) : W20 m c (Proc.devRef .tc main_arg0) = m ((c : Thread nD τ).loc main_arg0) :=
  W20_of_untouched m c main_arg0 (by decide) (by decide) (by decide) (by decide) (by decide) (by decide) (by decide) (by decide) (by decide) (by decide) (by decide) (by decide) (by decide) (by decide) (by decide) (by decide) (by decide) (by decide) (by decide) (by decide)
theorem W20_main_arg1 (c : Dev nD) : W20 m c (Proc.devRef .tc main_arg1) = m ((c : Thread nD τ).loc main_arg1) :=
  W20_of_untouched m c main_arg1 (by decide) (by decide) (by decide) (by decide) (by decide) (by decide) (by decide) (by decide) (by decide) (by decide) (by decide) (by decide) (by decide) (by decide) (by decide) (by decide) (by decide) (by decide) (by decide) (by decide)
theorem W20_main_arg2 (c : Dev nD) : W20 m c (Proc.devRef .tc main_arg2) = m ((c : Thread nD τ).loc main_arg2) :=
  W20_of_untouched m c main_arg2 (by decide) (by decide) (by decide) (by decide) (by decide) (by decide) (by decide) (by decide) (by decide) (by decide) (by decide) (by decide) (by decide) (by decide) (by decide) (by decide) (by decide) (by decide) (by decide) (by decide)
theorem W20_main_arg3 (c : Dev nD) : W20 m c (Proc.devRef .tc main_arg3) = m ((c : Thread nD τ).loc main_arg3) :=
  W20_of_untouched m c main_arg3 (by decide) (by decide) (by decide) (by decide) (by decide) (by decide) (by decide) (by decide) (by decide) (by decide) (by decide) (by decide) (by decide) (by decide) (by decide) (by decide) (by decide) (by decide) (by decide) (by decide)
theorem W20_main_arg4 (c : Dev nD) : W20 m c (Proc.devRef .tc main_arg4) = m ((c : Thread nD τ).loc main_arg4) :=
  W20_of_untouched m c main_arg4 (by decide) (by decide) (by decide) (by decide) (by decide) (by decide) (by decide) (by decide) (by decide) (by decide) (by decide) (by decide) (by decide) (by decide) (by decide) (by decide) (by decide) (by decide) (by decide) (by decide)
theorem W20_main_arg5 (c : Dev nD) : W20 m c (Proc.devRef .tc main_arg5) = m ((c : Thread nD τ).loc main_arg5) :=
  W20_of_untouched m c main_arg5 (by decide) (by decide) (by decide) (by decide) (by decide) (by decide) (by decide) (by decide) (by decide) (by decide) (by decide) (by decide) (by decide) (by decide) (by decide) (by decide) (by decide) (by decide) (by decide) (by decide)
theorem W20_main_arg6 (c : Dev nD) : W20 m c (Proc.devRef .tc main_arg6) = m ((c : Thread nD τ).loc main_arg6) :=
  W20_of_untouched m c main_arg6 (by decide) (by decide) (by decide) (by decide) (by decide) (by decide) (by decide) (by decide) (by decide) (by decide) (by decide) (by decide) (by decide) (by decide) (by decide) (by decide) (by decide) (by decide) (by decide) (by decide)
theorem W20_main_arg7 (c : Dev nD) : W20 m c (Proc.devRef .tc main_arg7) = m ((c : Thread nD τ).loc main_arg7) :=
  W20_of_untouched m c main_arg7 (by decide) (by decide) (by decide) (by decide) (by decide) (by decide) (by decide) (by decide) (by decide) (by decide) (by decide) (by decide) (by decide) (by decide) (by decide) (by decide) (by decide) (by decide) (by decide) (by decide)
theorem W20_main_arg8 (c : Dev nD) : W20 m c (Proc.devRef .tc main_arg8) = m ((c : Thread nD τ).loc main_arg8) :=
  W20_of_untouched m c main_arg8 (by decide) (by decide) (by decide) (by decide) (by decide) (by decide) (by decide) (by decide) (by decide) (by decide) (by decide) (by decide) (by decide) (by decide) (by decide) (by decide) (by decide) (by decide) (by decide) (by decide)
theorem W20_main_arg9 (c : Dev nD) : W20 m c (Proc.devRef .tc main_arg9) = m ((c : Thread nD τ).loc main_arg9) :=
  W20_of_untouched m c main_arg9 (by decide) (by decide) (by decide) (by decide) (by decide) (by decide) (by decide) (by decide) (by decide) (by decide) (by decide) (by decide) (by decide) (by decide) (by decide) (by decide) (by decide) (by decide) (by decide) (by decide)
theorem W20_main_arg10 (c : Dev nD) : W20 m c (Proc.devRef .tc main_arg10) = m ((c : Thread nD τ).loc main_arg10) :=
  W20_of_untouched m c main_arg10 (by decide) (by decide) (by decide) (by decide) (by decide) (by decide) (by decide) (by decide) (by decide) (by decide) (by decide) (by decide) (by decide) (by decide) (by decide) (by decide) (by decide) (by decide) (by decide) (by decide)
theorem W20_main_arg11 (c : Dev nD) : W20 m c (Proc.devRef .tc main_arg11) = m ((c : Thread nD τ).loc main_arg11) :=
  W20_of_untouched m c main_arg11 (by decide) (by decide) (by decide) (by decide) (by decide) (by decide) (by decide) (by decide) (by decide) (by decide) (by decide) (by decide) (by decide) (by decide) (by decide) (by decide) (by decide) (by decide) (by decide) (by decide)
theorem W20_main_arg12 (c : Dev nD) : W20 m c (Proc.devRef .tc main_arg12) = m ((c : Thread nD τ).loc main_arg12) :=
  W20_of_untouched m c main_arg12 (by decide) (by decide) (by decide) (by decide) (by decide) (by decide) (by decide) (by decide) (by decide) (by decide) (by decide) (by decide) (by decide) (by decide) (by decide) (by decide) (by decide) (by decide) (by decide) (by decide)
theorem W20_main_arg13 (c : Dev nD) : W20 m c (Proc.devRef .tc main_arg13) = m ((c : Thread nD τ).loc main_arg13) :=
  W20_of_untouched m c main_arg13 (by decide) (by decide) (by decide) (by decide) (by decide) (by decide) (by decide) (by decide) (by decide) (by decide) (by decide) (by decide) (by decide) (by decide) (by decide) (by decide) (by decide) (by decide) (by decide) (by decide)
theorem W20_main_arg14 (c : Dev nD) : W20 m c (Proc.devRef .tc main_arg14) = m ((c : Thread nD τ).loc main_arg14) :=
  W20_of_untouched m c main_arg14 (by decide) (by decide) (by decide) (by decide) (by decide) (by decide) (by decide) (by decide) (by decide) (by decide) (by decide) (by decide) (by decide) (by decide) (by decide) (by decide) (by decide) (by decide) (by decide) (by decide)
theorem W20_main_arg15 (c : Dev nD) : W20 m c (Proc.devRef .tc main_arg15) = m ((c : Thread nD τ).loc main_arg15) :=
  W20_of_untouched m c main_arg15 (by decide) (by decide) (by decide) (by decide) (by decide) (by decide) (by decide) (by decide) (by decide) (by decide) (by decide) (by decide) (by decide) (by decide) (by decide) (by decide) (by decide) (by decide) (by decide) (by decide)
theorem W20_main_arg16 (c : Dev nD) : W20 m c (Proc.devRef .tc main_arg16) = m ((c : Thread nD τ).loc main_arg16) :=
  W20_of_untouched m c main_arg16 (by decide) (by decide) (by decide) (by decide) (by decide) (by decide) (by decide) (by decide) (by decide) (by decide) (by decide) (by decide) (by decide) (by decide) (by decide) (by decide) (by decide) (by decide) (by decide) (by decide)
theorem W20_main_arg17 (c : Dev nD) : W20 m c (Proc.devRef .tc main_arg17) = m ((c : Thread nD τ).loc main_arg17) :=
  W20_of_untouched m c main_arg17 (by decide) (by decide) (by decide) (by decide) (by decide) (by decide) (by decide) (by decide) (by decide) (by decide) (by decide) (by decide) (by decide) (by decide) (by decide) (by decide) (by decide) (by decide) (by decide) (by decide)
theorem W20_main_arg18 (c : Dev nD) : W20 m c (Proc.devRef .tc main_arg18) = m ((c : Thread nD τ).loc main_arg18) :=
  W20_of_untouched m c main_arg18 (by decide) (by decide) (by decide) (by decide) (by decide) (by decide) (by decide) (by decide) (by decide) (by decide) (by decide) (by decide) (by decide) (by decide) (by decide) (by decide) (by decide) (by decide) (by decide) (by decide)
theorem W20_main_arg19 (c : Dev nD) : W20 m c (Proc.devRef .tc main_arg19) = m ((c : Thread nD τ).loc main_arg19) :=
  W20_of_untouched m c main_arg19 (by decide) (by decide) (by decide) (by decide) (by decide) (by decide) (by decide) (by decide) (by decide) (by decide) (by decide) (by decide) (by decide) (by decide) (by decide) (by decide) (by decide) (by decide) (by decide) (by decide)
theorem W20_main_arg20 (c : Dev nD) : W20 m c (Proc.devRef .tc main_arg20) = m ((c : Thread nD τ).loc main_arg20) :=
  W20_of_untouched m c main_arg20 (by decide) (by decide) (by decide) (by decide) (by decide) (by decide) (by decide) (by decide) (by decide) (by decide) (by decide) (by decide) (by decide) (by decide) (by decide) (by decide) (by decide) (by decide) (by decide) (by decide)
theorem W20_main_arg21 (c : Dev nD) : W20 m c (Proc.devRef .tc main_arg21) = m ((c : Thread nD τ).loc main_arg21) :=
  W20_of_untouched m c main_arg21 (by decide) (by decide) (by decide) (by decide) (by decide) (by decide) (by decide) (by decide) (by decide) (by decide) (by decide) (by decide) (by decide) (by decide) (by decide) (by decide) (by decide) (by decide) (by decide) (by decide)
theorem W20_main_arg22 (c : Dev nD) : W20 m c (Proc.devRef .tc main_arg22) = m ((c : Thread nD τ).loc main_arg22) :=
  W20_of_untouched m c main_arg22 (by decide) (by decide) (by decide) (by decide) (by decide) (by decide) (by decide) (by decide) (by decide) (by decide) (by decide) (by decide) (by decide) (by decide) (by decide) (by decide) (by decide) (by decide) (by decide) (by decide)
theorem W20_main_arg23 (c : Dev nD) : W20 m c (Proc.devRef .tc main_arg23) = m ((c : Thread nD τ).loc main_arg23) :=
  W20_of_untouched m c main_arg23 (by decide) (by decide) (by decide) (by decide) (by decide) (by decide) (by decide) (by decide) (by decide) (by decide) (by decide) (by decide) (by decide) (by decide) (by decide) (by decide) (by decide) (by decide) (by decide) (by decide)
theorem W20_main_arg24 (c : Dev nD) : W20 m c (Proc.devRef .tc main_arg24) = m ((c : Thread nD τ).loc main_arg24) :=
  W20_of_untouched m c main_arg24 (by decide) (by decide) (by decide) (by decide) (by decide) (by decide) (by decide) (by decide) (by decide) (by decide) (by decide) (by decide) (by decide) (by decide) (by decide) (by decide) (by decide) (by decide) (by decide) (by decide)
theorem W20_main_arg25 (c : Dev nD) : W20 m c (Proc.devRef .tc main_arg25) = m ((c : Thread nD τ).loc main_arg25) :=
  W20_of_untouched m c main_arg25 (by decide) (by decide) (by decide) (by decide) (by decide) (by decide) (by decide) (by decide) (by decide) (by decide) (by decide) (by decide) (by decide) (by decide) (by decide) (by decide) (by decide) (by decide) (by decide) (by decide)
theorem W20_main_arg26 (c : Dev nD) : W20 m c (Proc.devRef .tc main_arg26) = m ((c : Thread nD τ).loc main_arg26) :=
  W20_of_untouched m c main_arg26 (by decide) (by decide) (by decide) (by decide) (by decide) (by decide) (by decide) (by decide) (by decide) (by decide) (by decide) (by decide) (by decide) (by decide) (by decide) (by decide) (by decide) (by decide) (by decide) (by decide)
theorem W20_main_arg27 (c : Dev nD) : W20 m c (Proc.devRef .tc main_arg27) = m ((c : Thread nD τ).loc main_arg27) :=
  W20_of_untouched m c main_arg27 (by decide) (by decide) (by decide) (by decide) (by decide) (by decide) (by decide) (by decide) (by decide) (by decide) (by decide) (by decide) (by decide) (by decide) (by decide) (by decide) (by decide) (by decide) (by decide) (by decide)
theorem W20_main_arg28 (c : Dev nD) : W20 m c (Proc.devRef .tc main_arg28) = m ((c : Thread nD τ).loc main_arg28) :=
  W20_of_untouched m c main_arg28 (by decide) (by decide) (by decide) (by decide) (by decide) (by decide) (by decide) (by decide) (by decide) (by decide) (by decide) (by decide) (by decide) (by decide) (by decide) (by decide) (by decide) (by decide) (by decide) (by decide)
theorem W20_main_arg29 (c : Dev nD) : W20 m c (Proc.devRef .tc main_arg29) = m ((c : Thread nD τ).loc main_arg29) :=
  W20_of_untouched m c main_arg29 (by decide) (by decide) (by decide) (by decide) (by decide) (by decide) (by decide) (by decide) (by decide) (by decide) (by decide) (by decide) (by decide) (by decide) (by decide) (by decide) (by decide) (by decide) (by decide) (by decide)
theorem W20_main_arg30 (c : Dev nD) : W20 m c (Proc.devRef .tc main_arg30) = m ((c : Thread nD τ).loc main_arg30) :=
  W20_of_untouched m c main_arg30 (by decide) (by decide) (by decide) (by decide) (by decide) (by decide) (by decide) (by decide) (by decide) (by decide) (by decide) (by decide) (by decide) (by decide) (by decide) (by decide) (by decide) (by decide) (by decide) (by decide)
theorem W20_main_arg31 (c : Dev nD) : W20 m c (Proc.devRef .tc main_arg31) = m ((c : Thread nD τ).loc main_arg31) :=
  W20_of_untouched m c main_arg31 (by decide) (by decide) (by decide) (by decide) (by decide) (by decide) (by decide) (by decide) (by decide) (by decide) (by decide) (by decide) (by decide) (by decide) (by decide) (by decide) (by decide) (by decide) (by decide) (by decide)
theorem W20_main_arg32 (c : Dev nD) : W20 m c (Proc.devRef .tc main_arg32) = m ((c : Thread nD τ).loc main_arg32) :=
  W20_of_untouched m c main_arg32 (by decide) (by decide) (by decide) (by decide) (by decide) (by decide) (by decide) (by decide) (by decide) (by decide) (by decide) (by decide) (by decide) (by decide) (by decide) (by decide) (by decide) (by decide) (by decide) (by decide)
theorem W20_main_arg33 (c : Dev nD) : W20 m c (Proc.devRef .tc main_arg33) = m ((c : Thread nD τ).loc main_arg33) :=
  W20_of_untouched m c main_arg33 (by decide) (by decide) (by decide) (by decide) (by decide) (by decide) (by decide) (by decide) (by decide) (by decide) (by decide) (by decide) (by decide) (by decide) (by decide) (by decide) (by decide) (by decide) (by decide) (by decide)
theorem W20_main_arg34 (c : Dev nD) : W20 m c (Proc.devRef .tc main_arg34) = m ((c : Thread nD τ).loc main_arg34) :=
  W20_of_untouched m c main_arg34 (by decide) (by decide) (by decide) (by decide) (by decide) (by decide) (by decide) (by decide) (by decide) (by decide) (by decide) (by decide) (by decide) (by decide) (by decide) (by decide) (by decide) (by decide) (by decide) (by decide)
theorem W20_main_arg35 (c : Dev nD) : W20 m c (Proc.devRef .tc main_arg35) = m ((c : Thread nD τ).loc main_arg35) :=
  W20_of_untouched m c main_arg35 (by decide) (by decide) (by decide) (by decide) (by decide) (by decide) (by decide) (by decide) (by decide) (by decide) (by decide) (by decide) (by decide) (by decide) (by decide) (by decide) (by decide) (by decide) (by decide) (by decide)
theorem W20_main_arg36 (c : Dev nD) : W20 m c (Proc.devRef .tc main_arg36) = m ((c : Thread nD τ).loc main_arg36) :=
  W20_of_untouched m c main_arg36 (by decide) (by decide) (by decide) (by decide) (by decide) (by decide) (by decide) (by decide) (by decide) (by decide) (by decide) (by decide) (by decide) (by decide) (by decide) (by decide) (by decide) (by decide) (by decide) (by decide)
theorem W20_main_arg37 (c : Dev nD) : W20 m c (Proc.devRef .tc main_arg37) = m ((c : Thread nD τ).loc main_arg37) :=
  W20_of_untouched m c main_arg37 (by decide) (by decide) (by decide) (by decide) (by decide) (by decide) (by decide) (by decide) (by decide) (by decide) (by decide) (by decide) (by decide) (by decide) (by decide) (by decide) (by decide) (by decide) (by decide) (by decide)
theorem W20_main_arg38 (c : Dev nD) : W20 m c (Proc.devRef .tc main_arg38) = m ((c : Thread nD τ).loc main_arg38) :=
  W20_of_untouched m c main_arg38 (by decide) (by decide) (by decide) (by decide) (by decide) (by decide) (by decide) (by decide) (by decide) (by decide) (by decide) (by decide) (by decide) (by decide) (by decide) (by decide) (by decide) (by decide) (by decide) (by decide)
theorem W20_main_arg39 (c : Dev nD) : W20 m c (Proc.devRef .tc main_arg39) = m ((c : Thread nD τ).loc main_arg39) :=
  W20_of_untouched m c main_arg39 (by decide) (by decide) (by decide) (by decide) (by decide) (by decide) (by decide) (by decide) (by decide) (by decide) (by decide) (by decide) (by decide) (by decide) (by decide) (by decide) (by decide) (by decide) (by decide) (by decide)

/-- Every weakly fair execution terminates, nothing faulting, and every argument array ends as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)) :=
  run_all m ρ (fun s h c =>
    ⟨(h c _ (mem_ucH main_arg0 (by decide))).trans (W20_main_arg0 m c),
     (h c _ (mem_ucH main_arg1 (by decide))).trans (W20_main_arg1 m c),
     (h c _ (mem_ucH main_arg2 (by decide))).trans (W20_main_arg2 m c),
     (h c _ (mem_ucH main_arg3 (by decide))).trans (W20_main_arg3 m c),
     (h c _ (mem_ucH main_arg4 (by decide))).trans (W20_main_arg4 m c),
     (h c _ (mem_ucH main_arg5 (by decide))).trans (W20_main_arg5 m c),
     (h c _ (mem_ucH main_arg6 (by decide))).trans (W20_main_arg6 m c),
     (h c _ (mem_ucH main_arg7 (by decide))).trans (W20_main_arg7 m c),
     (h c _ (mem_ucH main_arg8 (by decide))).trans (W20_main_arg8 m c),
     (h c _ (mem_ucH main_arg9 (by decide))).trans (W20_main_arg9 m c),
     (h c _ (mem_ucH main_arg10 (by decide))).trans (W20_main_arg10 m c),
     (h c _ (mem_ucH main_arg11 (by decide))).trans (W20_main_arg11 m c),
     (h c _ (mem_ucH main_arg12 (by decide))).trans (W20_main_arg12 m c),
     (h c _ (mem_ucH main_arg13 (by decide))).trans (W20_main_arg13 m c),
     (h c _ (mem_ucH main_arg14 (by decide))).trans (W20_main_arg14 m c),
     (h c _ (mem_ucH main_arg15 (by decide))).trans (W20_main_arg15 m c),
     (h c _ (mem_ucH main_arg16 (by decide))).trans (W20_main_arg16 m c),
     (h c _ (mem_ucH main_arg17 (by decide))).trans (W20_main_arg17 m c),
     (h c _ (mem_ucH main_arg18 (by decide))).trans (W20_main_arg18 m c),
     (h c _ (mem_ucH main_arg19 (by decide))).trans (W20_main_arg19 m c),
     (h c _ (mem_ucH main_arg20 (by decide))).trans (W20_main_arg20 m c),
     (h c _ (mem_ucH main_arg21 (by decide))).trans (W20_main_arg21 m c),
     (h c _ (mem_ucH main_arg22 (by decide))).trans (W20_main_arg22 m c),
     (h c _ (mem_ucH main_arg23 (by decide))).trans (W20_main_arg23 m c),
     (h c _ (mem_ucH main_arg24 (by decide))).trans (W20_main_arg24 m c),
     (h c _ (mem_ucH main_arg25 (by decide))).trans (W20_main_arg25 m c),
     (h c _ (mem_ucH main_arg26 (by decide))).trans (W20_main_arg26 m c),
     (h c _ (mem_ucH main_arg27 (by decide))).trans (W20_main_arg27 m c),
     (h c _ (mem_ucH main_arg28 (by decide))).trans (W20_main_arg28 m c),
     (h c _ (mem_ucH main_arg29 (by decide))).trans (W20_main_arg29 m c),
     (h c _ (mem_ucH main_arg30 (by decide))).trans (W20_main_arg30 m c),
     (h c _ (mem_ucH main_arg31 (by decide))).trans (W20_main_arg31 m c),
     (h c _ (mem_ucH main_arg32 (by decide))).trans (W20_main_arg32 m c),
     (h c _ (mem_ucH main_arg33 (by decide))).trans (W20_main_arg33 m c),
     (h c _ (mem_ucH main_arg34 (by decide))).trans (W20_main_arg34 m c),
     (h c _ (mem_ucH main_arg35 (by decide))).trans (W20_main_arg35 m c),
     (h c _ (mem_ucH main_arg36 (by decide))).trans (W20_main_arg36 m c),
     (h c _ (mem_ucH main_arg37 (by decide))).trans (W20_main_arg37 m c),
     (h c _ (mem_ucH main_arg38 (by decide))).trans (W20_main_arg38 m c),
     (h c _ (mem_ucH main_arg39 (by decide))).trans (W20_main_arg39 m c)⟩)

end Cert.Kernel.Hand

end
-- ==== Proof.KI.Region0.Kit.lean ====
import proofs.«154353_j88940182765819_1_alg».proof.Proof.Gen.KernelIdeal.Launch
import proofs.«154353_j88940182765819_1_alg».proof.Proof.Gen.KernelIdeal.Skeleton
import proofs.«154353_j88940182765819_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks

Region 0 is the fused convolution-and-statistics call: windows 0 and 1 are the two 4000-row blocks of the
destination features and of the aggregated neighbour features, windows 2..8 the resident weights and bias rows,
window 9 the 4000-row block of the result `h`, windows 10 and 11 the two [1,128] rows of column sums of `h` and of
`h*h`, which the body stores at the last grid point only. -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an input not
    fetched at a point has not moved its block index), for any proof data whose array is `V`'s and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an input not
    fetched at a point has not moved its block index), for any proof data whose array is `V`'s and whose body leaves
    the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an input not
    fetched at a point has not moved its block index), for any proof data whose array is `V`'s and whose body leaves
    the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (an input not
    fetched at a point has not moved its block index), for any proof data whose array is `V`'s and whose body leaves
    the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (an input not
    fetched at a point has not moved its block index), for any proof data whose array is `V`'s and whose body leaves
    the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (an input not
    fetched at a point has not moved its block index), for any proof data whose array is `V`'s and whose body leaves
    the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (an input not
    fetched at a point has not moved its block index), for any proof data whose array is `V`'s and whose body leaves
    the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not (an input not
    fetched at a point has not moved its block index), for any proof data whose array is `V`'s and whose body leaves
    the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not (an input not
    fetched at a point has not moved its block index), for any proof data whose array is `V`'s and whose body leaves
    the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions

The body zeroes its two accumulator rows under `i == 0` and copies them to the two row outputs under `i == 24`;
over the 25 grid points this gives three cases: the first point, the points 1..23, the last point. -/

/-- The condition of the first conditional (zero the accumulators), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The condition of the second conditional (copy the accumulators out), from the grid coordinates. -/
abbrev cond0_1 (i : grid0.Coords) : Prop := k0_cond2 i = 1#1
/-- It holds at the last point only. -/
theorem hcond0_1 : ∀ t : Fin cfg0.N, cond0_1 (grid0.coords t) ↔ t.val = 24 :=
  (by decide +kernel : ∀ t : Fin grid0.N, cond0_1 (grid0.coords t) ↔ t.val = 24)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
/-- Before the last point the body stores nothing into row output 10: the window is idle there and not written back. -/
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
/-- At the last point it is live: the body stores the accumulator row into it. -/
theorem liveAt0_10_C : ∀ t : Fin cfg0.N, cond0_1 (grid0.coords t) → cfg0.idle 10 (grid0.coords t) = false := by decide +kernel
/-- Before the last point the body stores nothing into row output 11: the window is idle there and not written back. -/
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
/-- At the last point it is live: the body stores the accumulator row into it. -/
theorem liveAt0_11_C : ∀ t : Fin cfg0.N, cond0_1 (grid0.coords t) → cfg0.idle 11 (grid0.coords t) = false := by decide +kernel

/-! ## Staging memrefs, scratch rows and the views their contents are stated through -/
abbrev ms0_0 (t : Fin cfg0.N) : Memref sig .tc .vmem S4000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4000x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
/-- The two accumulator rows: whole scoped buffers of the kernel's own, carried from one grid point to the next. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view
/-- One staging buffer of each output window, through which its contents are stated (the choice does not matter). -/
abbrev VO0_9 : View sig .tc .vmem S4000x128 .f32 := (Memref.whole cc0_stg9_0 : Memref sig .tc .vmem S4000x128 .f32).view
abbrev VO0_10 : View sig .tc .vmem S1x128 .f32 := (Memref.whole cc0_stg10_0 : Memref sig .tc .vmem S1x128 .f32).view
abbrev VO0_11 : View sig .tc .vmem S1x128 .f32 := (Memref.whole cc0_stg11_0 : Memref sig .tc .vmem S1x128 .f32).view

/-- The rest of the scoped buffers, beside the two accumulator rows: never opened. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The class invariant with the two accumulator rows as memrefs owned at some contents: what the body
    obligation hands the run at the first point and what the region gives back at the end. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA; rw [scopedRest0_split]; simp only [scM0_0, scM0_1, owns_whole]; try rfl

end Cert.KernelIdeal.Hand

end
-- ==== Proof.KI.Region0.RunA.lean ====
import proofs.«154353_j88940182765819_1_alg».proof.Proof.KI.Region0.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body AT THE FIRST POINT (the accumulators zeroed first; nothing copied out), run on whole staging memrefs: the nine
    inputs at their contents `x·`, the block output's buffer at anything, the two row outputs' buffers at contents `xi·` handed back untouched (the body stores nothing into them here),
    the two accumulator rows at anything (the body overwrites them before reading). The body runs to the continuation holding the
    inputs as they were and every stored buffer with its pieces written; the pieces (last store first) are the
    witness the run finds. -/
noncomputable def kernelRun0_A (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i)
    (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) :
    Σ' (L9 : List (View.Piece (Elt F) S4000x128 .f32)) (LS0 : List (View.Piece (Elt F) S1x128 .f32)), { LS1 : List (View.Piece (Elt F) S1x128 .f32) //
      ∀ (xi10 xi11 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__conv_stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    haveI : Fact (cond0_0 i) := ⟨hc0⟩
    haveI : Fact (¬cond0_1 i) := ⟨hc1⟩
    simp only [cc0__conv_stats_kernel_eq_skeleton]; unfold cc0__conv_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.Hand

end
-- ==== Proof.KI.Region0.RunB.lean ====
import proofs.«154353_j88940182765819_1_alg».proof.Proof.KI.Region0.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body AT THE POINTS 1..23 (neither conditional taken), run on whole staging memrefs: the nine
    inputs at their contents `x·`, the block output's buffer at anything, the two row outputs' buffers at contents `xi·` handed back untouched (the body stores nothing into them here),
    the two accumulator rows at what the point before left in them (`xs·`). The body runs to the continuation holding the
    inputs as they were and every stored buffer with its pieces written; the pieces (last store first) are the
    witness the run finds. -/
noncomputable def kernelRun0_B (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i)
    (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S1x128 .f32) (xs1 : Vec F S1x128 .f32) :
    Σ' (L9 : List (View.Piece (Elt F) S4000x128 .f32)) (LS0 : List (View.Piece (Elt F) S1x128 .f32)), { LS1 : List (View.Piece (Elt F) S1x128 .f32) //
      ∀ (xi10 xi11 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__conv_stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    haveI : Fact (¬cond0_0 i) := ⟨hc0⟩
    haveI : Fact (¬cond0_1 i) := ⟨hc1⟩
    simp only [cc0__conv_stats_kernel_eq_skeleton]; unfold cc0__conv_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.Hand

end
-- ==== Proof.KI.Region0.RunC.lean ====
import proofs.«154353_j88940182765819_1_alg».proof.Proof.KI.Region0.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body AT THE LAST POINT (the accumulators copied to the two row outputs at the end), run on whole staging memrefs: the nine
    inputs at their contents `x·`, the block output's buffer at anything, the two row outputs' buffers at anything,
    the two accumulator rows at what the point before left in them (`xs·`). The body runs to the continuation holding the
    inputs as they were and every stored buffer with its pieces written; the pieces (last store first) are the
    witness the run finds. -/
noncomputable def kernelRun0_C (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i)
    (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S1x128 .f32) (xs1 : Vec F S1x128 .f32) :
    Σ' (L9 : List (View.Piece (Elt F) S4000x128 .f32)) (L10 : List (View.Piece (Elt F) S1x128 .f32)) (L11 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc0__conv_stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    haveI : Fact (¬cond0_0 i) := ⟨hc0⟩
    haveI : Fact (cond0_1 i) := ⟨hc1⟩
    simp only [cc0__conv_stats_kernel_eq_skeleton]; unfold cc0__conv_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.KernelIdeal.Hand

end
-- ==== Proof.KI.Region0.lean ====
import proofs.«154353_j88940182765819_1_alg».proof.Proof.KI.Region0.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The three runs at a grid point

Each case's run of the body, taken at the staging memrefs the pipeline passes at point `t`, the two accumulator
rows, and the input blocks read off the arrays as the region finds them. -/

/-- The first point: the accumulators are zeroed, then the block is processed. -/
def runA0 (c : Dev nD) (t : Fin cfg0.N) (h0 : t.val = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
    ((hcond0_0 t).mpr h0) (fun h => by have h' := (hcond0_1 t).mp h; omega) (iblk0 V c 0 t) (iblk0 V c 1 t) (iblk0 V c 2 t) (iblk0 V c 3 t) (iblk0 V c 4 t) (iblk0 V c 5 t) (iblk0 V c 6 t) (iblk0 V c 7 t) (iblk0 V c 8 t)

/-- A point 1..23: the block is processed, the accumulators found at `xs·`. -/
def runB0 (c : Dev nD) (t : Fin cfg0.N) (h0 : ¬t.val = 0) (h1 : ¬t.val = 24) (xs0 xs1 : Vec F S1x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
    (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) xs0 xs1

/-- The last point: the block is processed, then the accumulators are copied to the two row outputs. -/
def runC0 (c : Dev nD) (t : Fin cfg0.N) (h0 : ¬t.val = 0) (h1 : t.val = 24) (xs0 xs1 : Vec F S1x128 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
    (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) xs0 xs1

/-! ## What each case leaves: the pieces read back, and that they cover -/

/-- A row output the body does not store into at a point: a placeholder nothing consults (the window is idle there,
    neither written back nor read at the next point). -/
def idleRow0_10 : Vec F S1x128 .f32 := VO0_10.read (Elt F) (VO0_10.writes (Elt F) VO0_10.junk [])
def idleRow0_11 : Vec F S1x128 .f32 := VO0_11.read (Elt F) (VO0_11.writes (Elt F) VO0_11.junk [])

/-- Case A's stores into the block output's staging buffer cover it (each store writes the whole buffer). -/
theorem cover_o9A0 (c : Dev nD) (t : Fin cfg0.N) (h0 : t.val = 0) (y : S4000x128.Idx) :
    ∃ pc ∈ (runA0 V c t h0).1, y ∈ pc.1.set :=
  View.cover_of_tiledL (runA0 V c t h0).1 S4000x128.size (by sl_kernel_rfl) y
/-- What case A leaves in the block output's staging buffer: its pieces read back. -/
def o9A0 (c : Dev nD) (t : Fin cfg0.N) (h0 : t.val = 0) : Vec F S4000x128 .f32 :=
  VO0_9.read (Elt F) (VO0_9.writes (Elt F) VO0_9.junk (runA0 V c t h0).1)

/-- Case A's stores into accumulator row 0 cover it (each store writes the whole buffer). -/
theorem cover_s0A0 (c : Dev nD) (t : Fin cfg0.N) (h0 : t.val = 0) (y : S1x128.Idx) :
    ∃ pc ∈ (runA0 V c t h0).2.1, y ∈ pc.1.set :=
  View.cover_of_tiledL (runA0 V c t h0).2.1 S1x128.size (by sl_kernel_rfl) y
/-- What case A leaves in accumulator row 0: its pieces read back. -/
def s0A0 (c : Dev nD) (t : Fin cfg0.N) (h0 : t.val = 0) : Vec F S1x128 .f32 :=
  VS0_0.read (Elt F) (VS0_0.writes (Elt F) VS0_0.junk (runA0 V c t h0).2.1)

/-- Case A's stores into accumulator row 1 cover it (each store writes the whole buffer). -/
theorem cover_s1A0 (c : Dev nD) (t : Fin cfg0.N) (h0 : t.val = 0) (y : S1x128.Idx) :
    ∃ pc ∈ (runA0 V c t h0).2.2.1, y ∈ pc.1.set :=
  View.cover_of_tiledL (runA0 V c t h0).2.2.1 S1x128.size (by sl_kernel_rfl) y
/-- What case A leaves in accumulator row 1: its pieces read back. -/
def s1A0 (c : Dev nD) (t : Fin cfg0.N) (h0 : t.val = 0) : Vec F S1x128 .f32 :=
  VS0_1.read (Elt F) (VS0_1.writes (Elt F) VS0_1.junk (runA0 V c t h0).2.2.1)

/-- Case B's stores into the block output's staging buffer cover it (each store writes the whole buffer). -/
theorem cover_o9B0 (c : Dev nD) (t : Fin cfg0.N) (h0 : ¬t.val = 0) (h1 : ¬t.val = 24) (xs0 xs1 : Vec F S1x128 .f32) (y : S4000x128.Idx) :
    ∃ pc ∈ (runB0 V c t h0 h1 xs0 xs1).1, y ∈ pc.1.set :=
  View.cover_of_tiledL (runB0 V c t h0 h1 xs0 xs1).1 S4000x128.size (by sl_kernel_rfl) y
/-- What case B leaves in the block output's staging buffer: its pieces read back. -/
def o9B0 (c : Dev nD) (t : Fin cfg0.N) (h0 : ¬t.val = 0) (h1 : ¬t.val = 24) (xs0 xs1 : Vec F S1x128 .f32) : Vec F S4000x128 .f32 :=
  VO0_9.read (Elt F) (VO0_9.writes (Elt F) VO0_9.junk (runB0 V c t h0 h1 xs0 xs1).1)

/-- Case B's stores into accumulator row 0 cover it (each store writes the whole buffer). -/
theorem cover_s0B0 (c : Dev nD) (t : Fin cfg0.N) (h0 : ¬t.val = 0) (h1 : ¬t.val = 24) (xs0 xs1 : Vec F S1x128 .f32) (y : S1x128.Idx) :
    ∃ pc ∈ (runB0 V c t h0 h1 xs0 xs1).2.1, y ∈ pc.1.set :=
  View.cover_of_tiledL (runB0 V c t h0 h1 xs0 xs1).2.1 S1x128.size (by sl_kernel_rfl) y
/-- What case B leaves in accumulator row 0: its pieces read back. -/
def s0B0 (c : Dev nD) (t : Fin cfg0.N) (h0 : ¬t.val = 0) (h1 : ¬t.val = 24) (xs0 xs1 : Vec F S1x128 .f32) : Vec F S1x128 .f32 :=
  VS0_0.read (Elt F) (VS0_0.writes (Elt F) VS0_0.junk (runB0 V c t h0 h1 xs0 xs1).2.1)

/-- Case B's stores into accumulator row 1 cover it (each store writes the whole buffer). -/
theorem cover_s1B0 (c : Dev nD) (t : Fin cfg0.N) (h0 : ¬t.val = 0) (h1 : ¬t.val = 24) (xs0 xs1 : Vec F S1x128 .f32) (y : S1x128.Idx) :
    ∃ pc ∈ (runB0 V c t h0 h1 xs0 xs1).2.2.1, y ∈ pc.1.set :=
  View.cover_of_tiledL (runB0 V c t h0 h1 xs0 xs1).2.2.1 S1x128.size (by sl_kernel_rfl) y
/-- What case B leaves in accumulator row 1: its pieces read back. -/
def s1B0 (c : Dev nD) (t : Fin cfg0.N) (h0 : ¬t.val = 0) (h1 : ¬t.val = 24) (xs0 xs1 : Vec F S1x128 .f32) : Vec F S1x128 .f32 :=
  VS0_1.read (Elt F) (VS0_1.writes (Elt F) VS0_1.junk (runB0 V c t h0 h1 xs0 xs1).2.2.1)

/-- Case C's stores into the block output's staging buffer cover it (each store writes the whole buffer). -/
theorem cover_o9C0 (c : Dev nD) (t : Fin cfg0.N) (h0 : ¬t.val = 0) (h1 : t.val = 24) (xs0 xs1 : Vec F S1x128 .f32) (y : S4000x128.Idx) :
    ∃ pc ∈ (runC0 V c t h0 h1 xs0 xs1).1, y ∈ pc.1.set :=
  View.cover_of_tiledL (runC0 V c t h0 h1 xs0 xs1).1 S4000x128.size (by sl_kernel_rfl) y
/-- What case C leaves in the block output's staging buffer: its pieces read back. -/
def o9C0 (c : Dev nD) (t : Fin cfg0.N) (h0 : ¬t.val = 0) (h1 : t.val = 24) (xs0 xs1 : Vec F S1x128 .f32) : Vec F S4000x128 .f32 :=
  VO0_9.read (Elt F) (VO0_9.writes (Elt F) VO0_9.junk (runC0 V c t h0 h1 xs0 xs1).1)

/-- Case C's stores into row output 10's staging buffer cover it (each store writes the whole buffer). -/
theorem cover_o10C0 (c : Dev nD) (t : Fin cfg0.N) (h0 : ¬t.val = 0) (h1 : t.val = 24) (xs0 xs1 : Vec F S1x128 .f32) (y : S1x128.Idx) :
    ∃ pc ∈ (runC0 V c t h0 h1 xs0 xs1).2.1, y ∈ pc.1.set :=
  View.cover_of_tiledL (runC0 V c t h0 h1 xs0 xs1).2.1 S1x128.size (by sl_kernel_rfl) y
/-- What case C leaves in row output 10's staging buffer: its pieces read back. -/
def o10C0 (c : Dev nD) (t : Fin cfg0.N) (h0 : ¬t.val = 0) (h1 : t.val = 24) (xs0 xs1 : Vec F S1x128 .f32) : Vec F S1x128 .f32 :=
  VO0_10.read (Elt F) (VO0_10.writes (Elt F) VO0_10.junk (runC0 V c t h0 h1 xs0 xs1).2.1)

/-- Case C's stores into row output 11's staging buffer cover it (each store writes the whole buffer). -/
theorem cover_o11C0 (c : Dev nD) (t : Fin cfg0.N) (h0 : ¬t.val = 0) (h1 : t.val = 24) (xs0 xs1 : Vec F S1x128 .f32) (y : S1x128.Idx) :
    ∃ pc ∈ (runC0 V c t h0 h1 xs0 xs1).2.2.1, y ∈ pc.1.set :=
  View.cover_of_tiledL (runC0 V c t h0 h1 xs0 xs1).2.2.1 S1x128.size (by sl_kernel_rfl) y
/-- What case C leaves in row output 11's staging buffer: its pieces read back. -/
def o11C0 (c : Dev nD) (t : Fin cfg0.N) (h0 : ¬t.val = 0) (h1 : t.val = 24) (xs0 xs1 : Vec F S1x128 .f32) : Vec F S1x128 .f32 :=
  VO0_11.read (Elt F) (VO0_11.writes (Elt F) VO0_11.junk (runC0 V c t h0 h1 xs0 xs1).2.2.1)

/-- Case C's stores into accumulator row 0 cover it (each store writes the whole buffer). -/
theorem cover_s0C0 (c : Dev nD) (t : Fin cfg0.N) (h0 : ¬t.val = 0) (h1 : t.val = 24) (xs0 xs1 : Vec F S1x128 .f32) (y : S1x128.Idx) :
    ∃ pc ∈ (runC0 V c t h0 h1 xs0 xs1).2.2.2.1, y ∈ pc.1.set :=
  View.cover_of_tiledL (runC0 V c t h0 h1 xs0 xs1).2.2.2.1 S1x128.size (by sl_kernel_rfl) y
/-- What case C leaves in accumulator row 0: its pieces read back. -/
def s0C0 (c : Dev nD) (t : Fin cfg0.N) (h0 : ¬t.val = 0) (h1 : t.val = 24) (xs0 xs1 : Vec F S1x128 .f32) : Vec F S1x128 .f32 :=
  VS0_0.read (Elt F) (VS0_0.writes (Elt F) VS0_0.junk (runC0 V c t h0 h1 xs0 xs1).2.2.2.1)

/-- Case C's stores into accumulator row 1 cover it (each store writes the whole buffer). -/
theorem cover_s1C0 (c : Dev nD) (t : Fin cfg0.N) (h0 : ¬t.val = 0) (h1 : t.val = 24) (xs0 xs1 : Vec F S1x128 .f32) (y : S1x128.Idx) :
    ∃ pc ∈ (runC0 V c t h0 h1 xs0 xs1).2.2.2.2.1, y ∈ pc.1.set :=
  View.cover_of_tiledL (runC0 V c t h0 h1 xs0 xs1).2.2.2.2.1 S1x128.size (by sl_kernel_rfl) y
/-- What case C leaves in accumulator row 1: its pieces read back. -/
def s1C0 (c : Dev nD) (t : Fin cfg0.N) (h0 : ¬t.val = 0) (h1 : t.val = 24) (xs0 xs1 : Vec F S1x128 .f32) : Vec F S1x128 .f32 :=
  VS0_1.read (Elt F) (VS0_1.writes (Elt F) VS0_1.junk (runC0 V c t h0 h1 xs0 xs1).2.2.2.2.1)

/-! ## What the outputs and the accumulators hold after each point -/

/-- THE ACCUMULATION. After the body at position `n`: the block output's staging buffer, the two row outputs'
    staging buffers, and the two accumulator rows. The first point zeroes the accumulators and adds the block's
    column sums; every later point adds its block's column sums to what the point before left; the last point also
    copies the two accumulators into the row outputs. -/
def outsAt0 (c : Dev nD) : (n : ℕ) → n < cfg0.N → Vec F S4000x128 .f32 × Vec F S1x128 .f32 × Vec F S1x128 .f32 × Vec F S1x128 .f32 × Vec F S1x128 .f32
  | 0, hn => (o9A0 V c ⟨0, hn⟩ rfl, idleRow0_10, idleRow0_11, s0A0 V c ⟨0, hn⟩ rfl, s1A0 V c ⟨0, hn⟩ rfl)
  | n + 1, hn =>
    if h1 : n + 1 = 24 then
      (o9C0 V c ⟨n + 1, hn⟩ (Nat.succ_ne_zero n) h1 (outsAt0 c n (Nat.lt_of_succ_lt hn)).2.2.2.1 (outsAt0 c n (Nat.lt_of_succ_lt hn)).2.2.2.2, o10C0 V c ⟨n + 1, hn⟩ (Nat.succ_ne_zero n) h1 (outsAt0 c n (Nat.lt_of_succ_lt hn)).2.2.2.1 (outsAt0 c n (Nat.lt_of_succ_lt hn)).2.2.2.2, o11C0 V c ⟨n + 1, hn⟩ (Nat.succ_ne_zero n) h1 (outsAt0 c n (Nat.lt_of_succ_lt hn)).2.2.2.1 (outsAt0 c n (Nat.lt_of_succ_lt hn)).2.2.2.2, s0C0 V c ⟨n + 1, hn⟩ (Nat.succ_ne_zero n) h1 (outsAt0 c n (Nat.lt_of_succ_lt hn)).2.2.2.1 (outsAt0 c n (Nat.lt_of_succ_lt hn)).2.2.2.2, s1C0 V c ⟨n + 1, hn⟩ (Nat.succ_ne_zero n) h1 (outsAt0 c n (Nat.lt_of_succ_lt hn)).2.2.2.1 (outsAt0 c n (Nat.lt_of_succ_lt hn)).2.2.2.2)
    else
      (o9B0 V c ⟨n + 1, hn⟩ (Nat.succ_ne_zero n) h1 (outsAt0 c n (Nat.lt_of_succ_lt hn)).2.2.2.1 (outsAt0 c n (Nat.lt_of_succ_lt hn)).2.2.2.2, idleRow0_10, idleRow0_11, s0B0 V c ⟨n + 1, hn⟩ (Nat.succ_ne_zero n) h1 (outsAt0 c n (Nat.lt_of_succ_lt hn)).2.2.2.1 (outsAt0 c n (Nat.lt_of_succ_lt hn)).2.2.2.2, s1B0 V c ⟨n + 1, hn⟩ (Nat.succ_ne_zero n) h1 (outsAt0 c n (Nat.lt_of_succ_lt hn)).2.2.2.1 (outsAt0 c n (Nat.lt_of_succ_lt hn)).2.2.2.2)

/-- `outsAt0` at the first point. -/
theorem outsAt0_A (c : Dev nD) (t : Fin cfg0.N) (h0 : t.val = 0) :
    outsAt0 V c t.val t.isLt = (o9A0 V c t h0, idleRow0_10, idleRow0_11, s0A0 V c t h0, s1A0 V c t h0) := by
  obtain ⟨n, hn⟩ := t
  cases n with
  | zero => exact rfl
  | succ n => exact absurd h0 (Nat.succ_ne_zero n)

/-- `outsAt0` at a point 1..23: over what the point before left in the accumulators. -/
theorem outsAt0_B (c : Dev nD) (t : Fin cfg0.N) (h0 : ¬t.val = 0) (h1 : ¬t.val = 24) :
    outsAt0 V c t.val t.isLt = (o9B0 V c t h0 h1 (outsAt0 V c (t.val - 1) (Nat.lt_of_le_of_lt (Nat.sub_le _ _) t.isLt)).2.2.2.1 (outsAt0 V c (t.val - 1) (Nat.lt_of_le_of_lt (Nat.sub_le _ _) t.isLt)).2.2.2.2, idleRow0_10, idleRow0_11, s0B0 V c t h0 h1 (outsAt0 V c (t.val - 1) (Nat.lt_of_le_of_lt (Nat.sub_le _ _) t.isLt)).2.2.2.1 (outsAt0 V c (t.val - 1) (Nat.lt_of_le_of_lt (Nat.sub_le _ _) t.isLt)).2.2.2.2, s1B0 V c t h0 h1 (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt0` at the last point: over what the point before left in the accumulators. -/
theorem outsAt0_C (c : Dev nD) (t : Fin cfg0.N) (h0 : ¬t.val = 0) (h1 : t.val = 24) :
    outsAt0 V c t.val t.isLt = (o9C0 V c t h0 h1 (outsAt0 V c (t.val - 1) (Nat.lt_of_le_of_lt (Nat.sub_le _ _) t.isLt)).2.2.2.1 (outsAt0 V c (t.val - 1) (Nat.lt_of_le_of_lt (Nat.sub_le _ _) t.isLt)).2.2.2.2, o10C0 V c t h0 h1 (outsAt0 V c (t.val - 1) (Nat.lt_of_le_of_lt (Nat.sub_le _ _) t.isLt)).2.2.2.1 (outsAt0 V c (t.val - 1) (Nat.lt_of_le_of_lt (Nat.sub_le _ _) t.isLt)).2.2.2.2, o11C0 V c t h0 h1 (outsAt0 V c (t.val - 1) (Nat.lt_of_le_of_lt (Nat.sub_le _ _) t.isLt)).2.2.2.1 (outsAt0 V c (t.val - 1) (Nat.lt_of_le_of_lt (Nat.sub_le _ _) t.isLt)).2.2.2.2, s0C0 V c t h0 h1 (outsAt0 V c (t.val - 1) (Nat.lt_of_le_of_lt (Nat.sub_le _ _) t.isLt)).2.2.2.1 (outsAt0 V c (t.val - 1) (Nat.lt_of_le_of_lt (Nat.sub_le _ _) t.isLt)).2.2.2.2, s1C0 V c t h0 h1 (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The region invariant before position `n`: before the first point the class invariant (both accumulator rows at
    anything); afterwards the two accumulator rows at what the point before left in them, the other scoped buffers
    unopened, and the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2)) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2)) ∗ rest0 (F := F) c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2)) ∗ rest0 (F := F) c) ∗ (∃ r, prngReg c r)) := by
  cases n with
  | zero => exact absurd rfl hz
  | succ n => rfl

/-! ## The pipeline's proof data -/

/-- The proof data of region 0 on core `c`: the arrays as the region finds them (`V`); after the body at point `t`
    each input's buffer at its block and the three outputs' at `outsAt0`'s components; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (outsAt0 V c t.val t.isLt).1
    | ⟨10, _⟩ => (outsAt0 V c t.val t.isLt).2.1
    | ⟨11, _⟩ => (outsAt0 V c t.val t.isLt).2.2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (outsAt0 V c t.val t.isLt).1 := by dsimp only [dat0]
theorem after0_10 (c : Dev nD) (t : Fin cfg0.N) : (dat0 V c).after 10 t = (outsAt0 V c t.val t.isLt).2.1 := by dsimp only [dat0]
theorem after0_11 (c : Dev nD) (t : Fin cfg0.N) : (dat0 V c).after 11 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t)

set_option maxHeartbeats 8000000 in
/-- The body at any point. The inputs' memrefs hold their blocks; the point is the first, a middle one or the
    last, and that case's run applies. The invariant hands the body the two accumulator rows — at anything at the
    first point, afterwards at what the point before left — and takes them back at this point's contents; the other
    scoped buffers and the generator register pass through; the core owes nothing throughout. A row output is
    handed back untouched at a point that does not store into it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS0 V c (t.val + 1) t.isLt from rfl, PhiS0_succ]
  have hN : t.val < 25 := lt_of_lt_of_eq t.isLt (show cfg0.N = 25 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  rw [show (dat0 V c).leavesExact 9 t = owns (c : Thread nD τ) (ms0_9 t) fullShare ((dat0 V c).after 9 t) from by
    unfold Dat.leavesExact; rw [liveAt0_9 t], after0_9]
  by_cases h0 : t.val = 0
  · have hc1 : ¬cond0_1 (grid0.coords t) := fun h => by have h' := (hcond0_1 t).mp h; omega
    rw [Dat.leavesExact_idle (dat0 V c) 10 t (idleAt0_10 t hc1) (noFlush0_10 t hc1), Dat.leavesExact_idle (dat0 V c) 11 t (idleAt0_11 t hc1) (noFlush0_11 t hc1)]
    rw [outsAt0_A V c t h0]
    unfold o9A0 s0A0 s1A0; (try dsimp only)
    rw [PhiS0_castSucc V c t, PhiS0_zero V c _ _ h0, PhiA0_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA0 V c t h0).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, H10, H11, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (cover_s0A0 V c t h0)
          · unfold owns; iexists _; isplitr
            swap; · iexact HS1
            ipureintro; exact View.read_writes_of_cover _ _ _ _ _ (cover_s1A0 V c t h0)
        · iexact Hr
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover_o9A0 V c t h0)
    isplitl [H10]; · iexists _; iexact H10
    iexists _; iexact H11

  · by_cases h1 : t.val = 24
    · have hc1 : cond0_1 (grid0.coords t) := (hcond0_1 t).mpr h1
      rw [show (dat0 V c).leavesExact 10 t = owns (c : Thread nD τ) (ms0_10 t) fullShare ((dat0 V c).after 10 t) from by
        unfold Dat.leavesExact; rw [liveAt0_10_C t hc1], after0_10]
      rw [show (dat0 V c).leavesExact 11 t = owns (c : Thread nD τ) (ms0_11 t) fullShare ((dat0 V c).after 11 t) from by
        unfold Dat.leavesExact; rw [liveAt0_11_C t hc1], after0_11]
      rw [outsAt0_C V c t h0 h1]
      unfold o9C0 o10C0 o11C0 s0C0 s1C0; (try dsimp only)
      rw [PhiS0_castSucc V c t, PhiS0_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runC0 V c t h0 h1 _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (cover_s0C0 V c t h0 h1 _ _)
            · unfold owns; iexists _; isplitr
              swap; · iexact HS1
              ipureintro; exact View.read_writes_of_cover _ _ _ _ _ (cover_s1C0 V c t h0 h1 _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover_o9C0 V c t h0 h1 _ _)
      isplitl [H10]
      · unfold owns; iexists _; isplitr
        swap; · iexact H10
        ipureintro; exact View.read_writes_of_cover _ _ _ _ _ (cover_o10C0 V c t h0 h1 _ _)
      unfold owns; iexists _; isplitr
      swap; · iexact H11
      ipureintro; exact View.read_writes_of_cover _ _ _ _ _ (cover_o11C0 V c t h0 h1 _ _)
    · have hc1 : ¬cond0_1 (grid0.coords t) := fun h => h1 ((hcond0_1 t).mp h)
      rw [Dat.leavesExact_idle (dat0 V c) 10 t (idleAt0_10 t hc1) (noFlush0_10 t hc1), Dat.leavesExact_idle (dat0 V c) 11 t (idleAt0_11 t hc1) (noFlush0_11 t hc1)]
      rw [outsAt0_B V c t h0 h1]
      unfold o9B0 s0B0 s1B0; (try dsimp only)
      rw [PhiS0_castSucc V c t, PhiS0_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB0 V c t h0 h1 _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, H10, H11, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (cover_s0B0 V c t h0 h1 _ _)
            · unfold owns; iexists _; isplitr
              swap; · iexact HS1
              ipureintro; exact View.read_writes_of_cover _ _ _ _ _ (cover_s1B0 V c t h0 h1 _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover_o9B0 V c t h0 h1 _ _)
      isplitl [H10]; · iexists _; iexact H10
      iexists _; iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

/-- The same after the last point. -/
theorem hout0 (c : Dev nD) : (dat0 V c).Φ (Fin.last cfg0.N) ⊢ Pipeline.ΦA spec0 c :=
  Phi_out0 V c _ (by rw [Fin.val_last]; have : cfg0.N = 25 := N_0; omega)

end Cert.KernelIdeal.Hand

end
-- ==== Proof.KI.Region1.Kit.lean ====
import proofs.«154353_j88940182765819_1_alg».proof.Proof.Gen.KernelIdeal.Launch
import proofs.«154353_j88940182765819_1_alg».proof.Proof.Gen.KernelIdeal.Skeleton
import proofs.«154353_j88940182765819_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks

Region 1 is the fused convolution-and-statistics call: windows 0 and 1 are the two 4000-row blocks of the
destination features and of the aggregated neighbour features, windows 2..8 the resident weights and bias rows,
window 9 the 4000-row block of the result `h`, windows 10 and 11 the two [1,128] rows of column sums of `h` and of
`h*h`, which the body stores at the last grid point only. -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (an input not
    fetched at a point has not moved its block index), for any proof data whose array is `V`'s and whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (an input not
    fetched at a point has not moved its block index), for any proof data whose array is `V`'s and whose body leaves
    the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (an input not
    fetched at a point has not moved its block index), for any proof data whose array is `V`'s and whose body leaves
    the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (an input not
    fetched at a point has not moved its block index), for any proof data whose array is `V`'s and whose body leaves
    the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (an input not
    fetched at a point has not moved its block index), for any proof data whose array is `V`'s and whose body leaves
    the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (an input not
    fetched at a point has not moved its block index), for any proof data whose array is `V`'s and whose body leaves
    the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not (an input not
    fetched at a point has not moved its block index), for any proof data whose array is `V`'s and whose body leaves
    the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not (an input not
    fetched at a point has not moved its block index), for any proof data whose array is `V`'s and whose body leaves
    the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not (an input not
    fetched at a point has not moved its block index), for any proof data whose array is `V`'s and whose body leaves
    the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions

The body zeroes its two accumulator rows under `i == 0` and copies them to the two row outputs under `i == 24`;
over the 25 grid points this gives three cases: the first point, the points 1..23, the last point. -/

/-- The condition of the first conditional (zero the accumulators), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The condition of the second conditional (copy the accumulators out), from the grid coordinates. -/
abbrev cond1_1 (i : grid1.Coords) : Prop := k1_cond2 i = 1#1
/-- It holds at the last point only. -/
theorem hcond1_1 : ∀ t : Fin cfg1.N, cond1_1 (grid1.coords t) ↔ t.val = 24 :=
  (by decide +kernel : ∀ t : Fin grid1.N, cond1_1 (grid1.coords t) ↔ t.val = 24)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
/-- Before the last point the body stores nothing into row output 10: the window is idle there and not written back. -/
theorem idleAt1_10 : ∀ t : Fin cfg1.N, ¬cond1_1 (grid1.coords t) → cfg1.idle 10 (grid1.coords t) = true := by decide +kernel
theorem noFlush1_10 : ∀ t : Fin cfg1.N, ¬cond1_1 (grid1.coords t) → (cfg1.win 10).flush t = false := by decide +kernel
/-- At the last point it is live: the body stores the accumulator row into it. -/
theorem liveAt1_10_C : ∀ t : Fin cfg1.N, cond1_1 (grid1.coords t) → cfg1.idle 10 (grid1.coords t) = false := by decide +kernel
/-- Before the last point the body stores nothing into row output 11: the window is idle there and not written back. -/
theorem idleAt1_11 : ∀ t : Fin cfg1.N, ¬cond1_1 (grid1.coords t) → cfg1.idle 11 (grid1.coords t) = true := by decide +kernel
theorem noFlush1_11 : ∀ t : Fin cfg1.N, ¬cond1_1 (grid1.coords t) → (cfg1.win 11).flush t = false := by decide +kernel
/-- At the last point it is live: the body stores the accumulator row into it. -/
theorem liveAt1_11_C : ∀ t : Fin cfg1.N, cond1_1 (grid1.coords t) → cfg1.idle 11 (grid1.coords t) = false := by decide +kernel

/-! ## Staging memrefs, scratch rows and the views their contents are stated through -/
abbrev ms1_0 (t : Fin cfg1.N) : Memref sig .tc .vmem S4000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4000x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S4000x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x128 .f32 := win1_11.stage (cfg1.slots t 11)
abbrev hs1_11 (t : Fin cfg1.N) : (ms1_11 t).IsWhole := hstage1_11 ((cfg1.slots t 11).cast nbuf1_11)
/-- The two accumulator rows: whole scoped buffers of the kernel's own, carried from one grid point to the next. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view
/-- One staging buffer of each output window, through which its contents are stated (the choice does not matter). -/
abbrev VO1_9 : View sig .tc .vmem S4000x128 .f32 := (Memref.whole cc1_stg9_0 : Memref sig .tc .vmem S4000x128 .f32).view
abbrev VO1_10 : View sig .tc .vmem S1x128 .f32 := (Memref.whole cc1_stg10_0 : Memref sig .tc .vmem S1x128 .f32).view
abbrev VO1_11 : View sig .tc .vmem S1x128 .f32 := (Memref.whole cc1_stg11_0 : Memref sig .tc .vmem S1x128 .f32).view

/-- The rest of the scoped buffers, beside the two accumulator rows: never opened. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The class invariant with the two accumulator rows as memrefs owned at some contents: what the body
    obligation hands the run at the first point and what the region gives back at the end. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

end Cert.KernelIdeal.Hand

end
-- ==== Proof.KI.Region1.RunA.lean ====
import proofs.«154353_j88940182765819_1_alg».proof.Proof.KI.Region1.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body AT THE FIRST POINT (the accumulators zeroed first; nothing copied out), run on whole staging memrefs: the nine
    inputs at their contents `x·`, the block output's buffer at anything, the two row outputs' buffers at contents `xi·` handed back untouched (the body stores nothing into them here),
    the two accumulator rows at anything (the body overwrites them before reading). The body runs to the continuation holding the
    inputs as they were and every stored buffer with its pieces written; the pieces (last store first) are the
    witness the run finds. -/
noncomputable def kernelRun1_A (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond1_0 i) (hc1 : ¬cond1_1 i)
    (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) :
    Σ' (L9 : List (View.Piece (Elt F) S4000x128 .f32)) (LS0 : List (View.Piece (Elt F) S1x128 .f32)), { LS1 : List (View.Piece (Elt F) S1x128 .f32) //
      ∀ (xi10 xi11 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1__conv_stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    haveI : Fact (cond1_0 i) := ⟨hc0⟩
    haveI : Fact (¬cond1_1 i) := ⟨hc1⟩
    simp only [cc1__conv_stats_kernel_eq_skeleton]; unfold cc1__conv_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.Hand

end
-- ==== Proof.KI.Region1.RunB.lean ====
import proofs.«154353_j88940182765819_1_alg».proof.Proof.KI.Region1.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body AT THE POINTS 1..23 (neither conditional taken), run on whole staging memrefs: the nine
    inputs at their contents `x·`, the block output's buffer at anything, the two row outputs' buffers at contents `xi·` handed back untouched (the body stores nothing into them here),
    the two accumulator rows at what the point before left in them (`xs·`). The body runs to the continuation holding the
    inputs as they were and every stored buffer with its pieces written; the pieces (last store first) are the
    witness the run finds. -/
noncomputable def kernelRun1_B (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond1_0 i) (hc1 : ¬cond1_1 i)
    (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) (xs0 : Vec F S1x128 .f32) (xs1 : Vec F S1x128 .f32) :
    Σ' (L9 : List (View.Piece (Elt F) S4000x128 .f32)) (LS0 : List (View.Piece (Elt F) S1x128 .f32)), { LS1 : List (View.Piece (Elt F) S1x128 .f32) //
      ∀ (xi10 xi11 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1__conv_stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    haveI : Fact (¬cond1_0 i) := ⟨hc0⟩
    haveI : Fact (¬cond1_1 i) := ⟨hc1⟩
    simp only [cc1__conv_stats_kernel_eq_skeleton]; unfold cc1__conv_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.Hand

end
-- ==== Proof.KI.Region1.RunC.lean ====
import proofs.«154353_j88940182765819_1_alg».proof.Proof.KI.Region1.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body AT THE LAST POINT (the accumulators copied to the two row outputs at the end), run on whole staging memrefs: the nine
    inputs at their contents `x·`, the block output's buffer at anything, the two row outputs' buffers at anything,
    the two accumulator rows at what the point before left in them (`xs·`). The body runs to the continuation holding the
    inputs as they were and every stored buffer with its pieces written; the pieces (last store first) are the
    witness the run finds. -/
noncomputable def kernelRun1_C (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond1_0 i) (hc1 : cond1_1 i)
    (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) (xs0 : Vec F S1x128 .f32) (xs1 : Vec F S1x128 .f32) :
    Σ' (L9 : List (View.Piece (Elt F) S4000x128 .f32)) (L10 : List (View.Piece (Elt F) S1x128 .f32)) (L11 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc1__conv_stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    haveI : Fact (¬cond1_0 i) := ⟨hc0⟩
    haveI : Fact (cond1_1 i) := ⟨hc1⟩
    simp only [cc1__conv_stats_kernel_eq_skeleton]; unfold cc1__conv_stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.KernelIdeal.Hand

end
-- ==== Proof.KI.Region1.lean ====
import proofs.«154353_j88940182765819_1_alg».proof.Proof.KI.Region1.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The three runs at a grid point

Each case's run of the body, taken at the staging memrefs the pipeline passes at point `t`, the two accumulator
rows, and the input blocks read off the arrays as the region finds them. -/

/-- The first point: the accumulators are zeroed, then the block is processed. -/
def runA1 (c : Dev nD) (t : Fin cfg1.N) (h0 : t.val = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _)
    ((hcond1_0 t).mpr h0) (fun h => by have h' := (hcond1_1 t).mp h; omega) (iblk1 V c 0 t) (iblk1 V c 1 t) (iblk1 V c 2 t) (iblk1 V c 3 t) (iblk1 V c 4 t) (iblk1 V c 5 t) (iblk1 V c 6 t) (iblk1 V c 7 t) (iblk1 V c 8 t)

/-- A point 1..23: the block is processed, the accumulators found at `xs·`. -/
def runB1 (c : Dev nD) (t : Fin cfg1.N) (h0 : ¬t.val = 0) (h1 : ¬t.val = 24) (xs0 xs1 : Vec F S1x128 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _)
    (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) xs0 xs1

/-- The last point: the block is processed, then the accumulators are copied to the two row outputs. -/
def runC1 (c : Dev nD) (t : Fin cfg1.N) (h0 : ¬t.val = 0) (h1 : t.val = 24) (xs0 xs1 : Vec F S1x128 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _)
    (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) xs0 xs1

/-! ## What each case leaves: the pieces read back, and that they cover -/

/-- A row output the body does not store into at a point: a placeholder nothing consults (the window is idle there,
    neither written back nor read at the next point). -/
def idleRow1_10 : Vec F S1x128 .f32 := VO1_10.read (Elt F) (VO1_10.writes (Elt F) VO1_10.junk [])
def idleRow1_11 : Vec F S1x128 .f32 := VO1_11.read (Elt F) (VO1_11.writes (Elt F) VO1_11.junk [])

/-- Case A's stores into the block output's staging buffer cover it (each store writes the whole buffer). -/
theorem cover_o9A1 (c : Dev nD) (t : Fin cfg1.N) (h0 : t.val = 0) (y : S4000x128.Idx) :
    ∃ pc ∈ (runA1 V c t h0).1, y ∈ pc.1.set :=
  View.cover_of_tiledL (runA1 V c t h0).1 S4000x128.size (by sl_kernel_rfl) y
/-- What case A leaves in the block output's staging buffer: its pieces read back. -/
def o9A1 (c : Dev nD) (t : Fin cfg1.N) (h0 : t.val = 0) : Vec F S4000x128 .f32 :=
  VO1_9.read (Elt F) (VO1_9.writes (Elt F) VO1_9.junk (runA1 V c t h0).1)

/-- Case A's stores into accumulator row 0 cover it (each store writes the whole buffer). -/
theorem cover_s0A1 (c : Dev nD) (t : Fin cfg1.N) (h0 : t.val = 0) (y : S1x128.Idx) :
    ∃ pc ∈ (runA1 V c t h0).2.1, y ∈ pc.1.set :=
  View.cover_of_tiledL (runA1 V c t h0).2.1 S1x128.size (by sl_kernel_rfl) y
/-- What case A leaves in accumulator row 0: its pieces read back. -/
def s0A1 (c : Dev nD) (t : Fin cfg1.N) (h0 : t.val = 0) : Vec F S1x128 .f32 :=
  VS1_0.read (Elt F) (VS1_0.writes (Elt F) VS1_0.junk (runA1 V c t h0).2.1)

/-- Case A's stores into accumulator row 1 cover it (each store writes the whole buffer). -/
theorem cover_s1A1 (c : Dev nD) (t : Fin cfg1.N) (h0 : t.val = 0) (y : S1x128.Idx) :
    ∃ pc ∈ (runA1 V c t h0).2.2.1, y ∈ pc.1.set :=
  View.cover_of_tiledL (runA1 V c t h0).2.2.1 S1x128.size (by sl_kernel_rfl) y
/-- What case A leaves in accumulator row 1: its pieces read back. -/
def s1A1 (c : Dev nD) (t : Fin cfg1.N) (h0 : t.val = 0) : Vec F S1x128 .f32 :=
  VS1_1.read (Elt F) (VS1_1.writes (Elt F) VS1_1.junk (runA1 V c t h0).2.2.1)

/-- Case B's stores into the block output's staging buffer cover it (each store writes the whole buffer). -/
theorem cover_o9B1 (c : Dev nD) (t : Fin cfg1.N) (h0 : ¬t.val = 0) (h1 : ¬t.val = 24) (xs0 xs1 : Vec F S1x128 .f32) (y : S4000x128.Idx) :
    ∃ pc ∈ (runB1 V c t h0 h1 xs0 xs1).1, y ∈ pc.1.set :=
  View.cover_of_tiledL (runB1 V c t h0 h1 xs0 xs1).1 S4000x128.size (by sl_kernel_rfl) y
/-- What case B leaves in the block output's staging buffer: its pieces read back. -/
def o9B1 (c : Dev nD) (t : Fin cfg1.N) (h0 : ¬t.val = 0) (h1 : ¬t.val = 24) (xs0 xs1 : Vec F S1x128 .f32) : Vec F S4000x128 .f32 :=
  VO1_9.read (Elt F) (VO1_9.writes (Elt F) VO1_9.junk (runB1 V c t h0 h1 xs0 xs1).1)

/-- Case B's stores into accumulator row 0 cover it (each store writes the whole buffer). -/
theorem cover_s0B1 (c : Dev nD) (t : Fin cfg1.N) (h0 : ¬t.val = 0) (h1 : ¬t.val = 24) (xs0 xs1 : Vec F S1x128 .f32) (y : S1x128.Idx) :
    ∃ pc ∈ (runB1 V c t h0 h1 xs0 xs1).2.1, y ∈ pc.1.set :=
  View.cover_of_tiledL (runB1 V c t h0 h1 xs0 xs1).2.1 S1x128.size (by sl_kernel_rfl) y
/-- What case B leaves in accumulator row 0: its pieces read back. -/
def s0B1 (c : Dev nD) (t : Fin cfg1.N) (h0 : ¬t.val = 0) (h1 : ¬t.val = 24) (xs0 xs1 : Vec F S1x128 .f32) : Vec F S1x128 .f32 :=
  VS1_0.read (Elt F) (VS1_0.writes (Elt F) VS1_0.junk (runB1 V c t h0 h1 xs0 xs1).2.1)

/-- Case B's stores into accumulator row 1 cover it (each store writes the whole buffer). -/
theorem cover_s1B1 (c : Dev nD) (t : Fin cfg1.N) (h0 : ¬t.val = 0) (h1 : ¬t.val = 24) (xs0 xs1 : Vec F S1x128 .f32) (y : S1x128.Idx) :
    ∃ pc ∈ (runB1 V c t h0 h1 xs0 xs1).2.2.1, y ∈ pc.1.set :=
  View.cover_of_tiledL (runB1 V c t h0 h1 xs0 xs1).2.2.1 S1x128.size (by sl_kernel_rfl) y
/-- What case B leaves in accumulator row 1: its pieces read back. -/
def s1B1 (c : Dev nD) (t : Fin cfg1.N) (h0 : ¬t.val = 0) (h1 : ¬t.val = 24) (xs0 xs1 : Vec F S1x128 .f32) : Vec F S1x128 .f32 :=
  VS1_1.read (Elt F) (VS1_1.writes (Elt F) VS1_1.junk (runB1 V c t h0 h1 xs0 xs1).2.2.1)

/-- Case C's stores into the block output's staging buffer cover it (each store writes the whole buffer). -/
theorem cover_o9C1 (c : Dev nD) (t : Fin cfg1.N) (h0 : ¬t.val = 0) (h1 : t.val = 24) (xs0 xs1 : Vec F S1x128 .f32) (y : S4000x128.Idx) :
    ∃ pc ∈ (runC1 V c t h0 h1 xs0 xs1).1, y ∈ pc.1.set :=
  View.cover_of_tiledL (runC1 V c t h0 h1 xs0 xs1).1 S4000x128.size (by sl_kernel_rfl) y
/-- What case C leaves in the block output's staging buffer: its pieces read back. -/
def o9C1 (c : Dev nD) (t : Fin cfg1.N) (h0 : ¬t.val = 0) (h1 : t.val = 24) (xs0 xs1 : Vec F S1x128 .f32) : Vec F S4000x128 .f32 :=
  VO1_9.read (Elt F) (VO1_9.writes (Elt F) VO1_9.junk (runC1 V c t h0 h1 xs0 xs1).1)

/-- Case C's stores into row output 10's staging buffer cover it (each store writes the whole buffer). -/
theorem cover_o10C1 (c : Dev nD) (t : Fin cfg1.N) (h0 : ¬t.val = 0) (h1 : t.val = 24) (xs0 xs1 : Vec F S1x128 .f32) (y : S1x128.Idx) :
    ∃ pc ∈ (runC1 V c t h0 h1 xs0 xs1).2.1, y ∈ pc.1.set :=
  View.cover_of_tiledL (runC1 V c t h0 h1 xs0 xs1).2.1 S1x128.size (by sl_kernel_rfl) y
/-- What case C leaves in row output 10's staging buffer: its pieces read back. -/
def o10C1 (c : Dev nD) (t : Fin cfg1.N) (h0 : ¬t.val = 0) (h1 : t.val = 24) (xs0 xs1 : Vec F S1x128 .f32) : Vec F S1x128 .f32 :=
  VO1_10.read (Elt F) (VO1_10.writes (Elt F) VO1_10.junk (runC1 V c t h0 h1 xs0 xs1).2.1)

/-- Case C's stores into row output 11's staging buffer cover it (each store writes the whole buffer). -/
theorem cover_o11C1 (c : Dev nD) (t : Fin cfg1.N) (h0 : ¬t.val = 0) (h1 : t.val = 24) (xs0 xs1 : Vec F S1x128 .f32) (y : S1x128.Idx) :
    ∃ pc ∈ (runC1 V c t h0 h1 xs0 xs1).2.2.1, y ∈ pc.1.set :=
  View.cover_of_tiledL (runC1 V c t h0 h1 xs0 xs1).2.2.1 S1x128.size (by sl_kernel_rfl) y
/-- What case C leaves in row output 11's staging buffer: its pieces read back. -/
def o11C1 (c : Dev nD) (t : Fin cfg1.N) (h0 : ¬t.val = 0) (h1 : t.val = 24) (xs0 xs1 : Vec F S1x128 .f32) : Vec F S1x128 .f32 :=
  VO1_11.read (Elt F) (VO1_11.writes (Elt F) VO1_11.junk (runC1 V c t h0 h1 xs0 xs1).2.2.1)

/-- Case C's stores into accumulator row 0 cover it (each store writes the whole buffer). -/
theorem cover_s0C1 (c : Dev nD) (t : Fin cfg1.N) (h0 : ¬t.val = 0) (h1 : t.val = 24) (xs0 xs1 : Vec F S1x128 .f32) (y : S1x128.Idx) :
    ∃ pc ∈ (runC1 V c t h0 h1 xs0 xs1).2.2.2.1, y ∈ pc.1.set :=
  View.cover_of_tiledL (runC1 V c t h0 h1 xs0 xs1).2.2.2.1 S1x128.size (by sl_kernel_rfl) y
/-- What case C leaves in accumulator row 0: its pieces read back. -/
def s0C1 (c : Dev nD) (t : Fin cfg1.N) (h0 : ¬t.val = 0) (h1 : t.val = 24) (xs0 xs1 : Vec F S1x128 .f32) : Vec F S1x128 .f32 :=
  VS1_0.read (Elt F) (VS1_0.writes (Elt F) VS1_0.junk (runC1 V c t h0 h1 xs0 xs1).2.2.2.1)

/-- Case C's stores into accumulator row 1 cover it (each store writes the whole buffer). -/
theorem cover_s1C1 (c : Dev nD) (t : Fin cfg1.N) (h0 : ¬t.val = 0) (h1 : t.val = 24) (xs0 xs1 : Vec F S1x128 .f32) (y : S1x128.Idx) :
    ∃ pc ∈ (runC1 V c t h0 h1 xs0 xs1).2.2.2.2.1, y ∈ pc.1.set :=
  View.cover_of_tiledL (runC1 V c t h0 h1 xs0 xs1).2.2.2.2.1 S1x128.size (by sl_kernel_rfl) y
/-- What case C leaves in accumulator row 1: its pieces read back. -/
def s1C1 (c : Dev nD) (t : Fin cfg1.N) (h0 : ¬t.val = 0) (h1 : t.val = 24) (xs0 xs1 : Vec F S1x128 .f32) : Vec F S1x128 .f32 :=
  VS1_1.read (Elt F) (VS1_1.writes (Elt F) VS1_1.junk (runC1 V c t h0 h1 xs0 xs1).2.2.2.2.1)

/-! ## What the outputs and the accumulators hold after each point -/

/-- THE ACCUMULATION. After the body at position `n`: the block output's staging buffer, the two row outputs'
    staging buffers, and the two accumulator rows. The first point zeroes the accumulators and adds the block's
    column sums; every later point adds its block's column sums to what the point before left; the last point also
    copies the two accumulators into the row outputs. -/
def outsAt1 (c : Dev nD) : (n : ℕ) → n < cfg1.N → Vec F S4000x128 .f32 × Vec F S1x128 .f32 × Vec F S1x128 .f32 × Vec F S1x128 .f32 × Vec F S1x128 .f32
  | 0, hn => (o9A1 V c ⟨0, hn⟩ rfl, idleRow1_10, idleRow1_11, s0A1 V c ⟨0, hn⟩ rfl, s1A1 V c ⟨0, hn⟩ rfl)
  | n + 1, hn =>
    if h1 : n + 1 = 24 then
      (o9C1 V c ⟨n + 1, hn⟩ (Nat.succ_ne_zero n) h1 (outsAt1 c n (Nat.lt_of_succ_lt hn)).2.2.2.1 (outsAt1 c n (Nat.lt_of_succ_lt hn)).2.2.2.2, o10C1 V c ⟨n + 1, hn⟩ (Nat.succ_ne_zero n) h1 (outsAt1 c n (Nat.lt_of_succ_lt hn)).2.2.2.1 (outsAt1 c n (Nat.lt_of_succ_lt hn)).2.2.2.2, o11C1 V c ⟨n + 1, hn⟩ (Nat.succ_ne_zero n) h1 (outsAt1 c n (Nat.lt_of_succ_lt hn)).2.2.2.1 (outsAt1 c n (Nat.lt_of_succ_lt hn)).2.2.2.2, s0C1 V c ⟨n + 1, hn⟩ (Nat.succ_ne_zero n) h1 (outsAt1 c n (Nat.lt_of_succ_lt hn)).2.2.2.1 (outsAt1 c n (Nat.lt_of_succ_lt hn)).2.2.2.2, s1C1 V c ⟨n + 1, hn⟩ (Nat.succ_ne_zero n) h1 (outsAt1 c n (Nat.lt_of_succ_lt hn)).2.2.2.1 (outsAt1 c n (Nat.lt_of_succ_lt hn)).2.2.2.2)
    else
      (o9B1 V c ⟨n + 1, hn⟩ (Nat.succ_ne_zero n) h1 (outsAt1 c n (Nat.lt_of_succ_lt hn)).2.2.2.1 (outsAt1 c n (Nat.lt_of_succ_lt hn)).2.2.2.2, idleRow1_10, idleRow1_11, s0B1 V c ⟨n + 1, hn⟩ (Nat.succ_ne_zero n) h1 (outsAt1 c n (Nat.lt_of_succ_lt hn)).2.2.2.1 (outsAt1 c n (Nat.lt_of_succ_lt hn)).2.2.2.2, s1B1 V c ⟨n + 1, hn⟩ (Nat.succ_ne_zero n) h1 (outsAt1 c n (Nat.lt_of_succ_lt hn)).2.2.2.1 (outsAt1 c n (Nat.lt_of_succ_lt hn)).2.2.2.2)

/-- `outsAt1` at the first point. -/
theorem outsAt1_A (c : Dev nD) (t : Fin cfg1.N) (h0 : t.val = 0) :
    outsAt1 V c t.val t.isLt = (o9A1 V c t h0, idleRow1_10, idleRow1_11, s0A1 V c t h0, s1A1 V c t h0) := by
  obtain ⟨n, hn⟩ := t
  cases n with
  | zero => exact rfl
  | succ n => exact absurd h0 (Nat.succ_ne_zero n)

/-- `outsAt1` at a point 1..23: over what the point before left in the accumulators. -/
theorem outsAt1_B (c : Dev nD) (t : Fin cfg1.N) (h0 : ¬t.val = 0) (h1 : ¬t.val = 24) :
    outsAt1 V c t.val t.isLt = (o9B1 V c t h0 h1 (outsAt1 V c (t.val - 1) (Nat.lt_of_le_of_lt (Nat.sub_le _ _) t.isLt)).2.2.2.1 (outsAt1 V c (t.val - 1) (Nat.lt_of_le_of_lt (Nat.sub_le _ _) t.isLt)).2.2.2.2, idleRow1_10, idleRow1_11, s0B1 V c t h0 h1 (outsAt1 V c (t.val - 1) (Nat.lt_of_le_of_lt (Nat.sub_le _ _) t.isLt)).2.2.2.1 (outsAt1 V c (t.val - 1) (Nat.lt_of_le_of_lt (Nat.sub_le _ _) t.isLt)).2.2.2.2, s1B1 V c t h0 h1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt1` at the last point: over what the point before left in the accumulators. -/
theorem outsAt1_C (c : Dev nD) (t : Fin cfg1.N) (h0 : ¬t.val = 0) (h1 : t.val = 24) :
    outsAt1 V c t.val t.isLt = (o9C1 V c t h0 h1 (outsAt1 V c (t.val - 1) (Nat.lt_of_le_of_lt (Nat.sub_le _ _) t.isLt)).2.2.2.1 (outsAt1 V c (t.val - 1) (Nat.lt_of_le_of_lt (Nat.sub_le _ _) t.isLt)).2.2.2.2, o10C1 V c t h0 h1 (outsAt1 V c (t.val - 1) (Nat.lt_of_le_of_lt (Nat.sub_le _ _) t.isLt)).2.2.2.1 (outsAt1 V c (t.val - 1) (Nat.lt_of_le_of_lt (Nat.sub_le _ _) t.isLt)).2.2.2.2, o11C1 V c t h0 h1 (outsAt1 V c (t.val - 1) (Nat.lt_of_le_of_lt (Nat.sub_le _ _) t.isLt)).2.2.2.1 (outsAt1 V c (t.val - 1) (Nat.lt_of_le_of_lt (Nat.sub_le _ _) t.isLt)).2.2.2.2, s0C1 V c t h0 h1 (outsAt1 V c (t.val - 1) (Nat.lt_of_le_of_lt (Nat.sub_le _ _) t.isLt)).2.2.2.1 (outsAt1 V c (t.val - 1) (Nat.lt_of_le_of_lt (Nat.sub_le _ _) t.isLt)).2.2.2.2, s1C1 V c t h0 h1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The region invariant before position `n`: before the first point the class invariant (both accumulator rows at
    anything); afterwards the two accumulator rows at what the point before left in them, the other scoped buffers
    unopened, and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.1) ∗ owns (c : Thread nD τ) scM1_1 fullShare ((outsAt1 V c n hn).2.2.2.2)) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.2.1) ∗ owns (c : Thread nD τ) scM1_1 fullShare ((outsAt1 V c n hn).2.2.2.2)) ∗ rest1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.2.1) ∗ owns (c : Thread nD τ) scM1_1 fullShare ((outsAt1 V c (n - 1) (by omega)).2.2.2.2)) ∗ rest1 (F := F) c) ∗ (∃ r, prngReg c r)) := by
  cases n with
  | zero => exact absurd rfl hz
  | succ n => rfl

/-! ## The pipeline's proof data -/

/-- The proof data of region 1 on core `c`: the arrays as the region finds them (`V`); after the body at point `t`
    each input's buffer at its block and the three outputs' at `outsAt1`'s components; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
    | ⟨10, _⟩ => (outsAt1 V c t.val t.isLt).2.1
    | ⟨11, _⟩ => (outsAt1 V c t.val t.isLt).2.2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt).1 := by dsimp only [dat1]
theorem after1_10 (c : Dev nD) (t : Fin cfg1.N) : (dat1 V c).after 10 t = (outsAt1 V c t.val t.isLt).2.1 := by dsimp only [dat1]
theorem after1_11 (c : Dev nD) (t : Fin cfg1.N) : (dat1 V c).after 11 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 8000000 in
/-- The body at any point. The inputs' memrefs hold their blocks; the point is the first, a middle one or the
    last, and that case's run applies. The invariant hands the body the two accumulator rows — at anything at the
    first point, afterwards at what the point before left — and takes them back at this point's contents; the other
    scoped buffers and the generator register pass through; the core owes nothing throughout. A row output is
    handed back untouched at a point that does not store into it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  by_cases h0 : t.val = 0
  · have hc1 : ¬cond1_1 (grid1.coords t) := fun h => by have h' := (hcond1_1 t).mp h; omega
    rw [Dat.leavesExact_idle (dat1 V c) 10 t (idleAt1_10 t hc1) (noFlush1_10 t hc1), Dat.leavesExact_idle (dat1 V c) 11 t (idleAt1_11 t hc1) (noFlush1_11 t hc1)]
    rw [outsAt1_A V c t h0]
    unfold o9A1 s0A1 s1A1; (try dsimp only)
    rw [PhiS1_castSucc V c t, PhiS1_zero V c _ _ h0, PhiA1_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA1 V c t h0).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, H10, H11, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (cover_s0A1 V c t h0)
          · unfold owns; iexists _; isplitr
            swap; · iexact HS1
            ipureintro; exact View.read_writes_of_cover _ _ _ _ _ (cover_s1A1 V c t h0)
        · iexact Hr
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover_o9A1 V c t h0)
    isplitl [H10]; · iexists _; iexact H10
    iexists _; iexact H11

  · by_cases h1 : t.val = 24
    · have hc1 : cond1_1 (grid1.coords t) := (hcond1_1 t).mpr h1
      rw [show (dat1 V c).leavesExact 10 t = owns (c : Thread nD τ) (ms1_10 t) fullShare ((dat1 V c).after 10 t) from by
        unfold Dat.leavesExact; rw [liveAt1_10_C t hc1], after1_10]
      rw [show (dat1 V c).leavesExact 11 t = owns (c : Thread nD τ) (ms1_11 t) fullShare ((dat1 V c).after 11 t) from by
        unfold Dat.leavesExact; rw [liveAt1_11_C t hc1], after1_11]
      rw [outsAt1_C V c t h0 h1]
      unfold o9C1 o10C1 o11C1 s0C1 s1C1; (try dsimp only)
      rw [PhiS1_castSucc V c t, PhiS1_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runC1 V c t h0 h1 _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (cover_s0C1 V c t h0 h1 _ _)
            · unfold owns; iexists _; isplitr
              swap; · iexact HS1
              ipureintro; exact View.read_writes_of_cover _ _ _ _ _ (cover_s1C1 V c t h0 h1 _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover_o9C1 V c t h0 h1 _ _)
      isplitl [H10]
      · unfold owns; iexists _; isplitr
        swap; · iexact H10
        ipureintro; exact View.read_writes_of_cover _ _ _ _ _ (cover_o10C1 V c t h0 h1 _ _)
      unfold owns; iexists _; isplitr
      swap; · iexact H11
      ipureintro; exact View.read_writes_of_cover _ _ _ _ _ (cover_o11C1 V c t h0 h1 _ _)
    · have hc1 : ¬cond1_1 (grid1.coords t) := fun h => h1 ((hcond1_1 t).mp h)
      rw [Dat.leavesExact_idle (dat1 V c) 10 t (idleAt1_10 t hc1) (noFlush1_10 t hc1), Dat.leavesExact_idle (dat1 V c) 11 t (idleAt1_11 t hc1) (noFlush1_11 t hc1)]
      rw [outsAt1_B V c t h0 h1]
      unfold o9B1 s0B1 s1B1; (try dsimp only)
      rw [PhiS1_castSucc V c t, PhiS1_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB1 V c t h0 h1 _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, H10, H11, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (cover_s0B1 V c t h0 h1 _ _)
            · unfold owns; iexists _; isplitr
              swap; · iexact HS1
              ipureintro; exact View.read_writes_of_cover _ _ _ _ _ (cover_s1B1 V c t h0 h1 _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover_o9B1 V c t h0 h1 _ _)
      isplitl [H10]; · iexists _; iexact H10
      iexists _; iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

/-- The same after the last point. -/
theorem hout1 (c : Dev nD) : (dat1 V c).Φ (Fin.last cfg1.N) ⊢ Pipeline.ΦA spec1 c :=
  Phi_out1 V c _ (by rw [Fin.val_last]; have : cfg1.N = 25 := N_1; omega)

end Cert.KernelIdeal.Hand

end
-- ==== Proof.KI.Region2.lean ====
import proofs.«154353_j88940182765819_1_alg».proof.Proof.Gen.KernelIdeal.Launch
import proofs.«154353_j88940182765819_1_alg».proof.Proof.Gen.KernelIdeal.Skeleton
import proofs.«154353_j88940182765819_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2: the normalise-and-leaky-relu kernel on a 25-point grid of 4000-row blocks, at the entry contents `V`

Windows 0..4 are inputs: window 0 the 4000x128 row block of the activations at the grid point, windows 1..4 the
1x128 rows (scale, shift, mean, variance), the same block at every point. Window 5 is the output, the 4000x128 row
block at the grid point. The body loads each input whole, computes the normalised, shifted and leaky-rectified
block, and stores it whole. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point — at the points where the block is
fetched and at those where it is not (the four rows are fetched at the first point only; their block index never
moves, so what the first fetch put there is still the block) — for any proof data whose array is the entry contents
and whose body leaves the block in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 4000x128 block, and the whole 1x128 row, as rectangles: every load and the one store are of these. -/
abbrev rB2 : Rect S4000x128 := Rect.unit (s := S4000x128) ![0, 0] S4000x128.size inb_S4000x128_S4000x128_0_0
abbrev rR2 : Rect S1x128 := Rect.unit (s := S1x128) ![0, 0] S1x128.size inb_S1x128_S1x128_0_0

/-! ## What the body leaves in the output window's buffer -/

/-- The output block after the body: its one whole-block store, of the payload (the normalised, shifted,
    leaky-rectified block) over the five loaded inputs. -/
def out2_5 (x0 : Vec F S4000x128 .f32) (x1 x2 x3 x4 : Vec F S1x128 .f32) : Vec F S4000x128 .f32 :=
  View.canon [⟨rB2, k2_pay1 (View.ld x0 rB2) (View.ld x1 rR2) (View.ld x2 rR2) (View.ld x3 rR2) (View.ld x4 rR2)⟩]

/-- The one store is of the whole block, so it covers the buffer. -/
theorem cover2_5 (p0 : Vec F S4000x128 .f32) (y : S4000x128.Idx) :
    ∃ pc ∈ ([⟨rB2, p0⟩] : List (View.Piece (Elt F) S4000x128 .f32)), y ∈ pc.1.set :=
  View.cover_of_tiled [⟨rB2, p0⟩] S4000x128.size (by rfl) y

/-! ## The body's triple -/

set_option maxHeartbeats 1000000 in
/-- The body on whole staging memrefs — the five inputs' at contents `x0..x4`, the output's at anything (the body
    loads the output block before overwriting all of it, so what it held does not matter) — runs to the continuation
    holding the inputs' as they were and the output's at `out2_5` of the inputs. -/
theorem sound_kernel2 (c : Dev nD) (E : Set ℕ) (i : grid2.Coords) (arg0 : Memref sig .tc .vmem S4000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S4000x128 .f32) (harg5 : arg5.IsWhole)
    (x0 : Vec F S4000x128 .f32) (x1 x2 x3 x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__bn_lrelu_kernel i arg0 harg0 arg1 harg1 arg2 harg2 arg3 harg3 arg4 harg4 arg5 harg5) K := by
  simp only [cc2__bn_lrelu_kernel_eq_skeleton]; unfold cc2__bn_lrelu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the pipeline on core `c`: the arrays as the region finds them; after the body at point `t`
    each input's buffer at its block and the output's at `out2_5` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t =
    out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
import proofs.«154353_j88940182765819_1_alg».proof.Proof.Gen.KernelIdeal.Launch
import proofs.«154353_j88940182765819_1_alg».proof.Proof.Gen.KernelIdeal.Skeleton
import proofs.«154353_j88940182765819_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 3: the normalise-and-leaky-relu kernel on a 25-point grid of 4000-row blocks, at the entry contents `V`

Windows 0..4 are inputs: window 0 the 4000x128 row block of the activations at the grid point, windows 1..4 the
1x128 rows (scale, shift, mean, variance), the same block at every point. Window 5 is the output, the 4000x128 row
block at the grid point. The body loads each input whole, computes the normalised, shifted and leaky-rectified
block, and stores it whole. -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's current staging buffer holds its block at every point — at the points where the block is
fetched and at those where it is not (the four rows are fetched at the first point only; their block index never
moves, so what the first fetch put there is still the block) — for any proof data whose array is the entry contents
and whose body leaves the block in place. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 4000x128 block, and the whole 1x128 row, as rectangles: every load and the one store are of these. -/
abbrev rB3 : Rect S4000x128 := Rect.unit (s := S4000x128) ![0, 0] S4000x128.size inb_S4000x128_S4000x128_0_0
abbrev rR3 : Rect S1x128 := Rect.unit (s := S1x128) ![0, 0] S1x128.size inb_S1x128_S1x128_0_0

/-! ## What the body leaves in the output window's buffer -/

/-- The output block after the body: its one whole-block store, of the payload (the normalised, shifted,
    leaky-rectified block) over the five loaded inputs. -/
def out3_5 (x0 : Vec F S4000x128 .f32) (x1 x2 x3 x4 : Vec F S1x128 .f32) : Vec F S4000x128 .f32 :=
  View.canon [⟨rB3, k3_pay1 (View.ld x0 rB3) (View.ld x1 rR3) (View.ld x2 rR3) (View.ld x3 rR3) (View.ld x4 rR3)⟩]

/-- The one store is of the whole block, so it covers the buffer. -/
theorem cover3_5 (p0 : Vec F S4000x128 .f32) (y : S4000x128.Idx) :
    ∃ pc ∈ ([⟨rB3, p0⟩] : List (View.Piece (Elt F) S4000x128 .f32)), y ∈ pc.1.set :=
  View.cover_of_tiled [⟨rB3, p0⟩] S4000x128.size (by rfl) y

/-! ## The body's triple -/

set_option maxHeartbeats 1000000 in
/-- The body on whole staging memrefs — the five inputs' at contents `x0..x4`, the output's at anything (the body
    loads the output block before overwriting all of it, so what it held does not matter) — runs to the continuation
    holding the inputs' as they were and the output's at `out3_5` of the inputs. -/
theorem sound_kernel3 (c : Dev nD) (E : Set ℕ) (i : grid3.Coords) (arg0 : Memref sig .tc .vmem S4000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S4000x128 .f32) (harg5 : arg5.IsWhole)
    (x0 : Vec F S4000x128 .f32) (x1 x2 x3 x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out3_5 x0 x1 x2 x3 x4)) -∗ K ⟨⟩))
      ⊢ wp frame (wpE (defs₀ (F := F)) Variants.none c none) E (cc3__bn_lrelu_kernel i arg0 harg0 arg1 harg1 arg2 harg2 arg3 harg3 arg4 harg4 arg5 harg5) K := by
  simp only [cc3__bn_lrelu_kernel_eq_skeleton]; unfold cc3__bn_lrelu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of the pipeline on core `c`: the arrays as the region finds them; after the body at point `t`
    each input's buffer at its block and the output's at `out3_5` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t =
    out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Region4.Kit.lean ====
import proofs.«154353_j88940182765819_1_alg».proof.Proof.Gen.KernelIdeal.Launch
import proofs.«154353_j88940182765819_1_alg».proof.Proof.Gen.KernelIdeal.Skeleton
import proofs.«154353_j88940182765819_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks

Region 4 is the fused convolution-and-statistics call: windows 0 and 1 are the two 4000-row blocks of the
destination features and of the aggregated neighbour features, windows 2..8 the resident weights and bias rows,
window 9 the 4000-row block of the result `h`, windows 10 and 11 the two [1,128] rows of column sums of `h` and of
`h*h`, which the body stores at the last grid point only. -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (an input not
    fetched at a point has not moved its block index), for any proof data whose array is `V`'s and whose body leaves
    the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (an input not
    fetched at a point has not moved its block index), for any proof data whose array is `V`'s and whose body leaves
    the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not (an input not
    fetched at a point has not moved its block index), for any proof data whose array is `V`'s and whose body leaves
    the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not (an input not
    fetched at a point has not moved its block index), for any proof data whose array is `V`'s and whose body leaves
    the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not (an input not
    fetched at a point has not moved its block index), for any proof data whose array is `V`'s and whose body leaves
    the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not (an input not
    fetched at a point has not moved its block index), for any proof data whose array is `V`'s and whose body leaves
    the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not (an input not
    fetched at a point has not moved its block index), for any proof data whose array is `V`'s and whose body leaves
    the block in place. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current staging buffer holds its block at every point, fetched there or not (an input not
    fetched at a point has not moved its block index), for any proof data whose array is `V`'s and whose body leaves
    the block in place. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- Input window 8's current staging buffer holds its block at every point, fetched there or not (an input not
    fetched at a point has not moved its block index), for any proof data whose array is `V`'s and whose body leaves
    the block in place. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions

The body zeroes its two accumulator rows under `i == 0` and copies them to the two row outputs under `i == 24`;
over the 25 grid points this gives three cases: the first point, the points 1..23, the last point. -/

/-- The condition of the first conditional (zero the accumulators), from the grid coordinates. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)

/-- The condition of the second conditional (copy the accumulators out), from the grid coordinates. -/
abbrev cond4_1 (i : grid4.Coords) : Prop := k4_cond2 i = 1#1
/-- It holds at the last point only. -/
theorem hcond4_1 : ∀ t : Fin cfg4.N, cond4_1 (grid4.coords t) ↔ t.val = 24 :=
  (by decide +kernel : ∀ t : Fin grid4.N, cond4_1 (grid4.coords t) ↔ t.val = 24)

/-! ## Where the windows are idle -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
theorem liveAt4_6 : ∀ t : Fin cfg4.N, cfg4.idle 6 (grid4.coords t) = false := by decide +kernel
theorem liveAt4_7 : ∀ t : Fin cfg4.N, cfg4.idle 7 (grid4.coords t) = false := by decide +kernel
theorem liveAt4_8 : ∀ t : Fin cfg4.N, cfg4.idle 8 (grid4.coords t) = false := by decide +kernel
theorem liveAt4_9 : ∀ t : Fin cfg4.N, cfg4.idle 9 (grid4.coords t) = false := by decide +kernel
/-- Before the last point the body stores nothing into row output 10: the window is idle there and not written back. -/
theorem idleAt4_10 : ∀ t : Fin cfg4.N, ¬cond4_1 (grid4.coords t) → cfg4.idle 10 (grid4.coords t) = true := by decide +kernel
theorem noFlush4_10 : ∀ t : Fin cfg4.N, ¬cond4_1 (grid4.coords t) → (cfg4.win 10).flush t = false := by decide +kernel
/-- At the last point it is live: the body stores the accumulator row into it. -/
theorem liveAt4_10_C : ∀ t : Fin cfg4.N, cond4_1 (grid4.coords t) → cfg4.idle 10 (grid4.coords t) = false := by decide +kernel
/-- Before the last point the body stores nothing into row output 11: the window is idle there and not written back. -/
theorem idleAt4_11 : ∀ t : Fin cfg4.N, ¬cond4_1 (grid4.coords t) → cfg4.idle 11 (grid4.coords t) = true := by decide +kernel
theorem noFlush4_11 : ∀ t : Fin cfg4.N, ¬cond4_1 (grid4.coords t) → (cfg4.win 11).flush t = false := by decide +kernel
/-- At the last point it is live: the body stores the accumulator row into it. -/
theorem liveAt4_11_C : ∀ t : Fin cfg4.N, cond4_1 (grid4.coords t) → cfg4.idle 11 (grid4.coords t) = false := by decide +kernel

/-! ## Staging memrefs, scratch rows and the views their contents are stated through -/
abbrev ms4_0 (t : Fin cfg4.N) : Memref sig .tc .vmem S4000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S4000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S128x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S128x128 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x128 .f32 := win4_8.stage (cfg4.slots t 8)
abbrev hs4_8 (t : Fin cfg4.N) : (ms4_8 t).IsWhole := hstage4_8 ((cfg4.slots t 8).cast nbuf4_8)
abbrev ms4_9 (t : Fin cfg4.N) : Memref sig .tc .vmem S4000x128 .f32 := win4_9.stage (cfg4.slots t 9)
abbrev hs4_9 (t : Fin cfg4.N) : (ms4_9 t).IsWhole := hstage4_9 ((cfg4.slots t 9).cast nbuf4_9)
abbrev ms4_10 (t : Fin cfg4.N) : Memref sig .tc .vmem S1x128 .f32 := win4_10.stage (cfg4.slots t 10)
abbrev hs4_10 (t : Fin cfg4.N) : (ms4_10 t).IsWhole := hstage4_10 ((cfg4.slots t 10).cast nbuf4_10)
abbrev ms4_11 (t : Fin cfg4.N) : Memref sig .tc .vmem S1x128 .f32 := win4_11.stage (cfg4.slots t 11)
abbrev hs4_11 (t : Fin cfg4.N) : (ms4_11 t).IsWhole := hstage4_11 ((cfg4.slots t 11).cast nbuf4_11)
/-- The two accumulator rows: whole scoped buffers of the kernel's own, carried from one grid point to the next. -/
abbrev scM4_0 : Memref sig .tc .vmem S1x128 .f32 := Memref.whole cc4_scratch0
abbrev scM4_1 : Memref sig .tc .vmem S1x128 .f32 := Memref.whole cc4_scratch1
abbrev VS4_0 : View sig .tc .vmem S1x128 .f32 := scM4_0.view
abbrev VS4_1 : View sig .tc .vmem S1x128 .f32 := scM4_1.view
/-- One staging buffer of each output window, through which its contents are stated (the choice does not matter). -/
abbrev VO4_9 : View sig .tc .vmem S4000x128 .f32 := (Memref.whole cc4_stg9_0 : Memref sig .tc .vmem S4000x128 .f32).view
abbrev VO4_10 : View sig .tc .vmem S1x128 .f32 := (Memref.whole cc4_stg10_0 : Memref sig .tc .vmem S1x128 .f32).view
abbrev VO4_11 : View sig .tc .vmem S1x128 .f32 := (Memref.whole cc4_stg11_0 : Memref sig .tc .vmem S1x128 .f32).view

/-- The rest of the scoped buffers, beside the two accumulator rows: never opened. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- The class invariant with the two accumulator rows as memrefs owned at some contents: what the body
    obligation hands the run at the first point and what the region gives back at the end. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 c) ∗ (∃ r, prngReg c r)) := by
  unfold Pipeline.ΦA; rw [scopedRest4_split]; simp only [scM4_0, scM4_1, owns_whole]; try rfl

end Cert.KernelIdeal.Hand

end
-- ==== Proof.KI.Region4.RunA.lean ====
import proofs.«154353_j88940182765819_1_alg».proof.Proof.KI.Region4.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body AT THE FIRST POINT (the accumulators zeroed first; nothing copied out), run on whole staging memrefs: the nine
    inputs at their contents `x·`, the block output's buffer at anything, the two row outputs' buffers at contents `xi·` handed back untouched (the body stores nothing into them here),
    the two accumulator rows at anything (the body overwrites them before reading). The body runs to the continuation holding the
    inputs as they were and every stored buffer with its pieces written; the pieces (last store first) are the
    witness the run finds. -/
noncomputable def kernelRun4_A (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond4_0 i) (hc1 : ¬cond4_1 i)
    (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) :
    Σ' (L9 : List (View.Piece (Elt F) S4000x128 .f32)) (LS0 : List (View.Piece (Elt F) S1x128 .f32)), { LS1 : List (View.Piece (Elt F) S1x128 .f32) //
      ∀ (xi10 xi11 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc4__conv_stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    haveI : Fact (cond4_0 i) := ⟨hc0⟩
    haveI : Fact (¬cond4_1 i) := ⟨hc1⟩
    simp only [cc4__conv_stats_kernel_eq_skeleton]; unfold cc4__conv_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.Hand

end
-- ==== Proof.KI.Region4.RunB.lean ====
import proofs.«154353_j88940182765819_1_alg».proof.Proof.KI.Region4.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body AT THE POINTS 1..23 (neither conditional taken), run on whole staging memrefs: the nine
    inputs at their contents `x·`, the block output's buffer at anything, the two row outputs' buffers at contents `xi·` handed back untouched (the body stores nothing into them here),
    the two accumulator rows at what the point before left in them (`xs·`). The body runs to the continuation holding the
    inputs as they were and every stored buffer with its pieces written; the pieces (last store first) are the
    witness the run finds. -/
noncomputable def kernelRun4_B (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond4_0 i) (hc1 : ¬cond4_1 i)
    (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S1x128 .f32) (xs1 : Vec F S1x128 .f32) :
    Σ' (L9 : List (View.Piece (Elt F) S4000x128 .f32)) (LS0 : List (View.Piece (Elt F) S1x128 .f32)), { LS1 : List (View.Piece (Elt F) S1x128 .f32) //
      ∀ (xi10 xi11 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc4__conv_stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    haveI : Fact (¬cond4_0 i) := ⟨hc0⟩
    haveI : Fact (¬cond4_1 i) := ⟨hc1⟩
    simp only [cc4__conv_stats_kernel_eq_skeleton]; unfold cc4__conv_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.Hand

end
-- ==== Proof.KI.Region4.RunC.lean ====
import proofs.«154353_j88940182765819_1_alg».proof.Proof.KI.Region4.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body AT THE LAST POINT (the accumulators copied to the two row outputs at the end), run on whole staging memrefs: the nine
    inputs at their contents `x·`, the block output's buffer at anything, the two row outputs' buffers at anything,
    the two accumulator rows at what the point before left in them (`xs·`). The body runs to the continuation holding the
    inputs as they were and every stored buffer with its pieces written; the pieces (last store first) are the
    witness the run finds. -/
noncomputable def kernelRun4_C (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond4_0 i) (hc1 : cond4_1 i)
    (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S1x128 .f32) (xs1 : Vec F S1x128 .f32) :
    Σ' (L9 : List (View.Piece (Elt F) S4000x128 .f32)) (L10 : List (View.Piece (Elt F) S1x128 .f32)) (L11 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc4__conv_stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    haveI : Fact (¬cond4_0 i) := ⟨hc0⟩
    haveI : Fact (cond4_1 i) := ⟨hc1⟩
    simp only [cc4__conv_stats_kernel_eq_skeleton]; unfold cc4__conv_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.KernelIdeal.Hand

end
-- ==== Proof.KI.Region4.lean ====
import proofs.«154353_j88940182765819_1_alg».proof.Proof.KI.Region4.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The three runs at a grid point

Each case's run of the body, taken at the staging memrefs the pipeline passes at point `t`, the two accumulator
rows, and the input blocks read off the arrays as the region finds them. -/

/-- The first point: the accumulators are zeroed, then the block is processed. -/
def runA4 (c : Dev nD) (t : Fin cfg4.N) (h0 : t.val = 0) :=
  kernelRun4_A (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) scM4_0 (Memref.isWhole_whole _) scM4_1 (Memref.isWhole_whole _)
    ((hcond4_0 t).mpr h0) (fun h => by have h' := (hcond4_1 t).mp h; omega) (iblk4 V c 0 t) (iblk4 V c 1 t) (iblk4 V c 2 t) (iblk4 V c 3 t) (iblk4 V c 4 t) (iblk4 V c 5 t) (iblk4 V c 6 t) (iblk4 V c 7 t) (iblk4 V c 8 t)

/-- A point 1..23: the block is processed, the accumulators found at `xs·`. -/
def runB4 (c : Dev nD) (t : Fin cfg4.N) (h0 : ¬t.val = 0) (h1 : ¬t.val = 24) (xs0 xs1 : Vec F S1x128 .f32) :=
  kernelRun4_B (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) scM4_0 (Memref.isWhole_whole _) scM4_1 (Memref.isWhole_whole _)
    (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) xs0 xs1

/-- The last point: the block is processed, then the accumulators are copied to the two row outputs. -/
def runC4 (c : Dev nD) (t : Fin cfg4.N) (h0 : ¬t.val = 0) (h1 : t.val = 24) (xs0 xs1 : Vec F S1x128 .f32) :=
  kernelRun4_C (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) scM4_0 (Memref.isWhole_whole _) scM4_1 (Memref.isWhole_whole _)
    (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) (iblk4 V c 8 t) xs0 xs1

/-! ## What each case leaves: the pieces read back, and that they cover -/

/-- A row output the body does not store into at a point: a placeholder nothing consults (the window is idle there,
    neither written back nor read at the next point). -/
def idleRow4_10 : Vec F S1x128 .f32 := VO4_10.read (Elt F) (VO4_10.writes (Elt F) VO4_10.junk [])
def idleRow4_11 : Vec F S1x128 .f32 := VO4_11.read (Elt F) (VO4_11.writes (Elt F) VO4_11.junk [])

/-- Case A's stores into the block output's staging buffer cover it (each store writes the whole buffer). -/
theorem cover_o9A4 (c : Dev nD) (t : Fin cfg4.N) (h0 : t.val = 0) (y : S4000x128.Idx) :
    ∃ pc ∈ (runA4 V c t h0).1, y ∈ pc.1.set :=
  View.cover_of_tiledL (runA4 V c t h0).1 S4000x128.size (by sl_kernel_rfl) y
/-- What case A leaves in the block output's staging buffer: its pieces read back. -/
def o9A4 (c : Dev nD) (t : Fin cfg4.N) (h0 : t.val = 0) : Vec F S4000x128 .f32 :=
  VO4_9.read (Elt F) (VO4_9.writes (Elt F) VO4_9.junk (runA4 V c t h0).1)

/-- Case A's stores into accumulator row 0 cover it (each store writes the whole buffer). -/
theorem cover_s0A4 (c : Dev nD) (t : Fin cfg4.N) (h0 : t.val = 0) (y : S1x128.Idx) :
    ∃ pc ∈ (runA4 V c t h0).2.1, y ∈ pc.1.set :=
  View.cover_of_tiledL (runA4 V c t h0).2.1 S1x128.size (by sl_kernel_rfl) y
/-- What case A leaves in accumulator row 0: its pieces read back. -/
def s0A4 (c : Dev nD) (t : Fin cfg4.N) (h0 : t.val = 0) : Vec F S1x128 .f32 :=
  VS4_0.read (Elt F) (VS4_0.writes (Elt F) VS4_0.junk (runA4 V c t h0).2.1)

/-- Case A's stores into accumulator row 1 cover it (each store writes the whole buffer). -/
theorem cover_s1A4 (c : Dev nD) (t : Fin cfg4.N) (h0 : t.val = 0) (y : S1x128.Idx) :
    ∃ pc ∈ (runA4 V c t h0).2.2.1, y ∈ pc.1.set :=
  View.cover_of_tiledL (runA4 V c t h0).2.2.1 S1x128.size (by sl_kernel_rfl) y
/-- What case A leaves in accumulator row 1: its pieces read back. -/
def s1A4 (c : Dev nD) (t : Fin cfg4.N) (h0 : t.val = 0) : Vec F S1x128 .f32 :=
  VS4_1.read (Elt F) (VS4_1.writes (Elt F) VS4_1.junk (runA4 V c t h0).2.2.1)

/-- Case B's stores into the block output's staging buffer cover it (each store writes the whole buffer). -/
theorem cover_o9B4 (c : Dev nD) (t : Fin cfg4.N) (h0 : ¬t.val = 0) (h1 : ¬t.val = 24) (xs0 xs1 : Vec F S1x128 .f32) (y : S4000x128.Idx) :
    ∃ pc ∈ (runB4 V c t h0 h1 xs0 xs1).1, y ∈ pc.1.set :=
  View.cover_of_tiledL (runB4 V c t h0 h1 xs0 xs1).1 S4000x128.size (by sl_kernel_rfl) y
/-- What case B leaves in the block output's staging buffer: its pieces read back. -/
def o9B4 (c : Dev nD) (t : Fin cfg4.N) (h0 : ¬t.val = 0) (h1 : ¬t.val = 24) (xs0 xs1 : Vec F S1x128 .f32) : Vec F S4000x128 .f32 :=
  VO4_9.read (Elt F) (VO4_9.writes (Elt F) VO4_9.junk (runB4 V c t h0 h1 xs0 xs1).1)

/-- Case B's stores into accumulator row 0 cover it (each store writes the whole buffer). -/
theorem cover_s0B4 (c : Dev nD) (t : Fin cfg4.N) (h0 : ¬t.val = 0) (h1 : ¬t.val = 24) (xs0 xs1 : Vec F S1x128 .f32) (y : S1x128.Idx) :
    ∃ pc ∈ (runB4 V c t h0 h1 xs0 xs1).2.1, y ∈ pc.1.set :=
  View.cover_of_tiledL (runB4 V c t h0 h1 xs0 xs1).2.1 S1x128.size (by sl_kernel_rfl) y
/-- What case B leaves in accumulator row 0: its pieces read back. -/
def s0B4 (c : Dev nD) (t : Fin cfg4.N) (h0 : ¬t.val = 0) (h1 : ¬t.val = 24) (xs0 xs1 : Vec F S1x128 .f32) : Vec F S1x128 .f32 :=
  VS4_0.read (Elt F) (VS4_0.writes (Elt F) VS4_0.junk (runB4 V c t h0 h1 xs0 xs1).2.1)

/-- Case B's stores into accumulator row 1 cover it (each store writes the whole buffer). -/
theorem cover_s1B4 (c : Dev nD) (t : Fin cfg4.N) (h0 : ¬t.val = 0) (h1 : ¬t.val = 24) (xs0 xs1 : Vec F S1x128 .f32) (y : S1x128.Idx) :
    ∃ pc ∈ (runB4 V c t h0 h1 xs0 xs1).2.2.1, y ∈ pc.1.set :=
  View.cover_of_tiledL (runB4 V c t h0 h1 xs0 xs1).2.2.1 S1x128.size (by sl_kernel_rfl) y
/-- What case B leaves in accumulator row 1: its pieces read back. -/
def s1B4 (c : Dev nD) (t : Fin cfg4.N) (h0 : ¬t.val = 0) (h1 : ¬t.val = 24) (xs0 xs1 : Vec F S1x128 .f32) : Vec F S1x128 .f32 :=
  VS4_1.read (Elt F) (VS4_1.writes (Elt F) VS4_1.junk (runB4 V c t h0 h1 xs0 xs1).2.2.1)

/-- Case C's stores into the block output's staging buffer cover it (each store writes the whole buffer). -/
theorem cover_o9C4 (c : Dev nD) (t : Fin cfg4.N) (h0 : ¬t.val = 0) (h1 : t.val = 24) (xs0 xs1 : Vec F S1x128 .f32) (y : S4000x128.Idx) :
    ∃ pc ∈ (runC4 V c t h0 h1 xs0 xs1).1, y ∈ pc.1.set :=
  View.cover_of_tiledL (runC4 V c t h0 h1 xs0 xs1).1 S4000x128.size (by sl_kernel_rfl) y
/-- What case C leaves in the block output's staging buffer: its pieces read back. -/
def o9C4 (c : Dev nD) (t : Fin cfg4.N) (h0 : ¬t.val = 0) (h1 : t.val = 24) (xs0 xs1 : Vec F S1x128 .f32) : Vec F S4000x128 .f32 :=
  VO4_9.read (Elt F) (VO4_9.writes (Elt F) VO4_9.junk (runC4 V c t h0 h1 xs0 xs1).1)

/-- Case C's stores into row output 10's staging buffer cover it (each store writes the whole buffer). -/
theorem cover_o10C4 (c : Dev nD) (t : Fin cfg4.N) (h0 : ¬t.val = 0) (h1 : t.val = 24) (xs0 xs1 : Vec F S1x128 .f32) (y : S1x128.Idx) :
    ∃ pc ∈ (runC4 V c t h0 h1 xs0 xs1).2.1, y ∈ pc.1.set :=
  View.cover_of_tiledL (runC4 V c t h0 h1 xs0 xs1).2.1 S1x128.size (by sl_kernel_rfl) y
/-- What case C leaves in row output 10's staging buffer: its pieces read back. -/
def o10C4 (c : Dev nD) (t : Fin cfg4.N) (h0 : ¬t.val = 0) (h1 : t.val = 24) (xs0 xs1 : Vec F S1x128 .f32) : Vec F S1x128 .f32 :=
  VO4_10.read (Elt F) (VO4_10.writes (Elt F) VO4_10.junk (runC4 V c t h0 h1 xs0 xs1).2.1)

/-- Case C's stores into row output 11's staging buffer cover it (each store writes the whole buffer). -/
theorem cover_o11C4 (c : Dev nD) (t : Fin cfg4.N) (h0 : ¬t.val = 0) (h1 : t.val = 24) (xs0 xs1 : Vec F S1x128 .f32) (y : S1x128.Idx) :
    ∃ pc ∈ (runC4 V c t h0 h1 xs0 xs1).2.2.1, y ∈ pc.1.set :=
  View.cover_of_tiledL (runC4 V c t h0 h1 xs0 xs1).2.2.1 S1x128.size (by sl_kernel_rfl) y
/-- What case C leaves in row output 11's staging buffer: its pieces read back. -/
def o11C4 (c : Dev nD) (t : Fin cfg4.N) (h0 : ¬t.val = 0) (h1 : t.val = 24) (xs0 xs1 : Vec F S1x128 .f32) : Vec F S1x128 .f32 :=
  VO4_11.read (Elt F) (VO4_11.writes (Elt F) VO4_11.junk (runC4 V c t h0 h1 xs0 xs1).2.2.1)

/-- Case C's stores into accumulator row 0 cover it (each store writes the whole buffer). -/
theorem cover_s0C4 (c : Dev nD) (t : Fin cfg4.N) (h0 : ¬t.val = 0) (h1 : t.val = 24) (xs0 xs1 : Vec F S1x128 .f32) (y : S1x128.Idx) :
    ∃ pc ∈ (runC4 V c t h0 h1 xs0 xs1).2.2.2.1, y ∈ pc.1.set :=
  View.cover_of_tiledL (runC4 V c t h0 h1 xs0 xs1).2.2.2.1 S1x128.size (by sl_kernel_rfl) y
/-- What case C leaves in accumulator row 0: its pieces read back. -/
def s0C4 (c : Dev nD) (t : Fin cfg4.N) (h0 : ¬t.val = 0) (h1 : t.val = 24) (xs0 xs1 : Vec F S1x128 .f32) : Vec F S1x128 .f32 :=
  VS4_0.read (Elt F) (VS4_0.writes (Elt F) VS4_0.junk (runC4 V c t h0 h1 xs0 xs1).2.2.2.1)

/-- Case C's stores into accumulator row 1 cover it (each store writes the whole buffer). -/
theorem cover_s1C4 (c : Dev nD) (t : Fin cfg4.N) (h0 : ¬t.val = 0) (h1 : t.val = 24) (xs0 xs1 : Vec F S1x128 .f32) (y : S1x128.Idx) :
    ∃ pc ∈ (runC4 V c t h0 h1 xs0 xs1).2.2.2.2.1, y ∈ pc.1.set :=
  View.cover_of_tiledL (runC4 V c t h0 h1 xs0 xs1).2.2.2.2.1 S1x128.size (by sl_kernel_rfl) y
/-- What case C leaves in accumulator row 1: its pieces read back. -/
def s1C4 (c : Dev nD) (t : Fin cfg4.N) (h0 : ¬t.val = 0) (h1 : t.val = 24) (xs0 xs1 : Vec F S1x128 .f32) : Vec F S1x128 .f32 :=
  VS4_1.read (Elt F) (VS4_1.writes (Elt F) VS4_1.junk (runC4 V c t h0 h1 xs0 xs1).2.2.2.2.1)

/-! ## What the outputs and the accumulators hold after each point -/

/-- THE ACCUMULATION. After the body at position `n`: the block output's staging buffer, the two row outputs'
    staging buffers, and the two accumulator rows. The first point zeroes the accumulators and adds the block's
    column sums; every later point adds its block's column sums to what the point before left; the last point also
    copies the two accumulators into the row outputs. -/
def outsAt4 (c : Dev nD) : (n : ℕ) → n < cfg4.N → Vec F S4000x128 .f32 × Vec F S1x128 .f32 × Vec F S1x128 .f32 × Vec F S1x128 .f32 × Vec F S1x128 .f32
  | 0, hn => (o9A4 V c ⟨0, hn⟩ rfl, idleRow4_10, idleRow4_11, s0A4 V c ⟨0, hn⟩ rfl, s1A4 V c ⟨0, hn⟩ rfl)
  | n + 1, hn =>
    if h1 : n + 1 = 24 then
      (o9C4 V c ⟨n + 1, hn⟩ (Nat.succ_ne_zero n) h1 (outsAt4 c n (Nat.lt_of_succ_lt hn)).2.2.2.1 (outsAt4 c n (Nat.lt_of_succ_lt hn)).2.2.2.2, o10C4 V c ⟨n + 1, hn⟩ (Nat.succ_ne_zero n) h1 (outsAt4 c n (Nat.lt_of_succ_lt hn)).2.2.2.1 (outsAt4 c n (Nat.lt_of_succ_lt hn)).2.2.2.2, o11C4 V c ⟨n + 1, hn⟩ (Nat.succ_ne_zero n) h1 (outsAt4 c n (Nat.lt_of_succ_lt hn)).2.2.2.1 (outsAt4 c n (Nat.lt_of_succ_lt hn)).2.2.2.2, s0C4 V c ⟨n + 1, hn⟩ (Nat.succ_ne_zero n) h1 (outsAt4 c n (Nat.lt_of_succ_lt hn)).2.2.2.1 (outsAt4 c n (Nat.lt_of_succ_lt hn)).2.2.2.2, s1C4 V c ⟨n + 1, hn⟩ (Nat.succ_ne_zero n) h1 (outsAt4 c n (Nat.lt_of_succ_lt hn)).2.2.2.1 (outsAt4 c n (Nat.lt_of_succ_lt hn)).2.2.2.2)
    else
      (o9B4 V c ⟨n + 1, hn⟩ (Nat.succ_ne_zero n) h1 (outsAt4 c n (Nat.lt_of_succ_lt hn)).2.2.2.1 (outsAt4 c n (Nat.lt_of_succ_lt hn)).2.2.2.2, idleRow4_10, idleRow4_11, s0B4 V c ⟨n + 1, hn⟩ (Nat.succ_ne_zero n) h1 (outsAt4 c n (Nat.lt_of_succ_lt hn)).2.2.2.1 (outsAt4 c n (Nat.lt_of_succ_lt hn)).2.2.2.2, s1B4 V c ⟨n + 1, hn⟩ (Nat.succ_ne_zero n) h1 (outsAt4 c n (Nat.lt_of_succ_lt hn)).2.2.2.1 (outsAt4 c n (Nat.lt_of_succ_lt hn)).2.2.2.2)

/-- `outsAt4` at the first point. -/
theorem outsAt4_A (c : Dev nD) (t : Fin cfg4.N) (h0 : t.val = 0) :
    outsAt4 V c t.val t.isLt = (o9A4 V c t h0, idleRow4_10, idleRow4_11, s0A4 V c t h0, s1A4 V c t h0) := by
  obtain ⟨n, hn⟩ := t
  cases n with
  | zero => exact rfl
  | succ n => exact absurd h0 (Nat.succ_ne_zero n)

/-- `outsAt4` at a point 1..23: over what the point before left in the accumulators. -/
theorem outsAt4_B (c : Dev nD) (t : Fin cfg4.N) (h0 : ¬t.val = 0) (h1 : ¬t.val = 24) :
    outsAt4 V c t.val t.isLt = (o9B4 V c t h0 h1 (outsAt4 V c (t.val - 1) (Nat.lt_of_le_of_lt (Nat.sub_le _ _) t.isLt)).2.2.2.1 (outsAt4 V c (t.val - 1) (Nat.lt_of_le_of_lt (Nat.sub_le _ _) t.isLt)).2.2.2.2, idleRow4_10, idleRow4_11, s0B4 V c t h0 h1 (outsAt4 V c (t.val - 1) (Nat.lt_of_le_of_lt (Nat.sub_le _ _) t.isLt)).2.2.2.1 (outsAt4 V c (t.val - 1) (Nat.lt_of_le_of_lt (Nat.sub_le _ _) t.isLt)).2.2.2.2, s1B4 V c t h0 h1 (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt4` at the last point: over what the point before left in the accumulators. -/
theorem outsAt4_C (c : Dev nD) (t : Fin cfg4.N) (h0 : ¬t.val = 0) (h1 : t.val = 24) :
    outsAt4 V c t.val t.isLt = (o9C4 V c t h0 h1 (outsAt4 V c (t.val - 1) (Nat.lt_of_le_of_lt (Nat.sub_le _ _) t.isLt)).2.2.2.1 (outsAt4 V c (t.val - 1) (Nat.lt_of_le_of_lt (Nat.sub_le _ _) t.isLt)).2.2.2.2, o10C4 V c t h0 h1 (outsAt4 V c (t.val - 1) (Nat.lt_of_le_of_lt (Nat.sub_le _ _) t.isLt)).2.2.2.1 (outsAt4 V c (t.val - 1) (Nat.lt_of_le_of_lt (Nat.sub_le _ _) t.isLt)).2.2.2.2, o11C4 V c t h0 h1 (outsAt4 V c (t.val - 1) (Nat.lt_of_le_of_lt (Nat.sub_le _ _) t.isLt)).2.2.2.1 (outsAt4 V c (t.val - 1) (Nat.lt_of_le_of_lt (Nat.sub_le _ _) t.isLt)).2.2.2.2, s0C4 V c t h0 h1 (outsAt4 V c (t.val - 1) (Nat.lt_of_le_of_lt (Nat.sub_le _ _) t.isLt)).2.2.2.1 (outsAt4 V c (t.val - 1) (Nat.lt_of_le_of_lt (Nat.sub_le _ _) t.isLt)).2.2.2.2, s1C4 V c t h0 h1 (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The region invariant before position `n`: before the first point the class invariant (both accumulator rows at
    anything); afterwards the two accumulator rows at what the point before left in them, the other scoped buffers
    unopened, and the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.2.1) ∗ owns (c : Thread nD τ) scM4_1 fullShare ((outsAt4 V c n hn).2.2.2.2)) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2.2.2.1) ∗ owns (c : Thread nD τ) scM4_1 fullShare ((outsAt4 V c n hn).2.2.2.2)) ∗ rest4 (F := F) c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.2.1) ∗ owns (c : Thread nD τ) scM4_1 fullShare ((outsAt4 V c (n - 1) (by omega)).2.2.2.2)) ∗ rest4 (F := F) c) ∗ (∃ r, prngReg c r)) := by
  cases n with
  | zero => exact absurd rfl hz
  | succ n => rfl

/-! ## The pipeline's proof data -/

/-- The proof data of region 4 on core `c`: the arrays as the region finds them (`V`); after the body at point `t`
    each input's buffer at its block and the three outputs' at `outsAt4`'s components; the invariant `PhiS4`;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => (outsAt4 V c t.val t.isLt).1
    | ⟨10, _⟩ => (outsAt4 V c t.val t.isLt).2.1
    | ⟨11, _⟩ => (outsAt4 V c t.val t.isLt).2.2.1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = (outsAt4 V c t.val t.isLt).1 := by dsimp only [dat4]
theorem after4_10 (c : Dev nD) (t : Fin cfg4.N) : (dat4 V c).after 10 t = (outsAt4 V c t.val t.isLt).2.1 := by dsimp only [dat4]
theorem after4_11 (c : Dev nD) (t : Fin cfg4.N) : (dat4 V c).after 11 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d))
    ∗ (∃ d, owns (c : Thread nD τ) (ms4_9 t) fullShare ((dat4 V c).before 9 t d))
    ∗ (∃ d, owns (c : Thread nD τ) (ms4_10 t) fullShare ((dat4 V c).before 10 t d))
    ∗ (∃ d, owns (c : Thread nD τ) (ms4_11 t) fullShare ((dat4 V c).before 11 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t
    ∗ (dat4 V c).leavesExact 9 t
    ∗ (dat4 V c).leavesExact 10 t
    ∗ (dat4 V c).leavesExact 11 t)

set_option maxHeartbeats 8000000 in
/-- The body at any point. The inputs' memrefs hold their blocks; the point is the first, a middle one or the
    last, and that case's run applies. The invariant hands the body the two accumulator rows — at anything at the
    first point, afterwards at what the point before left — and takes them back at this point's contents; the other
    scoped buffers and the generator register pass through; the core owes nothing throughout. A row output is
    handed back untouched at a point that does not store into it. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).owesAt () t.succ = (dat4 V c).owesAt () t.castSucc from rfl]
  rw [show (dat4 V c).Φ t.succ = PhiS4 V c (t.val + 1) t.isLt from rfl, PhiS4_succ]
  have hN : t.val < 25 := lt_of_lt_of_eq t.isLt (show cfg4.N = 25 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  rw [show (dat4 V c).leavesExact 6 t = owns (c : Thread nD τ) (ms4_6 t) fullShare ((dat4 V c).after 6 t) from by
    unfold Dat.leavesExact; rw [liveAt4_6 t], after4_6]
  rw [show (dat4 V c).leavesExact 7 t = owns (c : Thread nD τ) (ms4_7 t) fullShare ((dat4 V c).after 7 t) from by
    unfold Dat.leavesExact; rw [liveAt4_7 t], after4_7]
  rw [show (dat4 V c).leavesExact 8 t = owns (c : Thread nD τ) (ms4_8 t) fullShare ((dat4 V c).after 8 t) from by
    unfold Dat.leavesExact; rw [liveAt4_8 t], after4_8]
  rw [show (dat4 V c).leavesExact 9 t = owns (c : Thread nD τ) (ms4_9 t) fullShare ((dat4 V c).after 9 t) from by
    unfold Dat.leavesExact; rw [liveAt4_9 t], after4_9]
  by_cases h0 : t.val = 0
  · have hc1 : ¬cond4_1 (grid4.coords t) := fun h => by have h' := (hcond4_1 t).mp h; omega
    rw [Dat.leavesExact_idle (dat4 V c) 10 t (idleAt4_10 t hc1) (noFlush4_10 t hc1), Dat.leavesExact_idle (dat4 V c) 11 t (idleAt4_11 t hc1) (noFlush4_11 t hc1)]
    rw [outsAt4_A V c t h0]
    unfold o9A4 s0A4 s1A4; (try dsimp only)
    rw [PhiS4_castSucc V c t, PhiS4_zero V c _ _ h0, PhiA4_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA4 V c t h0).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, H10, H11, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (cover_s0A4 V c t h0)
          · unfold owns; iexists _; isplitr
            swap; · iexact HS1
            ipureintro; exact View.read_writes_of_cover _ _ _ _ _ (cover_s1A4 V c t h0)
        · iexact Hr
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover_o9A4 V c t h0)
    isplitl [H10]; · iexists _; iexact H10
    iexists _; iexact H11

  · by_cases h1 : t.val = 24
    · have hc1 : cond4_1 (grid4.coords t) := (hcond4_1 t).mpr h1
      rw [show (dat4 V c).leavesExact 10 t = owns (c : Thread nD τ) (ms4_10 t) fullShare ((dat4 V c).after 10 t) from by
        unfold Dat.leavesExact; rw [liveAt4_10_C t hc1], after4_10]
      rw [show (dat4 V c).leavesExact 11 t = owns (c : Thread nD τ) (ms4_11 t) fullShare ((dat4 V c).after 11 t) from by
        unfold Dat.leavesExact; rw [liveAt4_11_C t hc1], after4_11]
      rw [outsAt4_C V c t h0 h1]
      unfold o9C4 o10C4 o11C4 s0C4 s1C4; (try dsimp only)
      rw [PhiS4_castSucc V c t, PhiS4_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runC4 V c t h0 h1 _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (cover_s0C4 V c t h0 h1 _ _)
            · unfold owns; iexists _; isplitr
              swap; · iexact HS1
              ipureintro; exact View.read_writes_of_cover _ _ _ _ _ (cover_s1C4 V c t h0 h1 _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover_o9C4 V c t h0 h1 _ _)
      isplitl [H10]
      · unfold owns; iexists _; isplitr
        swap; · iexact H10
        ipureintro; exact View.read_writes_of_cover _ _ _ _ _ (cover_o10C4 V c t h0 h1 _ _)
      unfold owns; iexists _; isplitr
      swap; · iexact H11
      ipureintro; exact View.read_writes_of_cover _ _ _ _ _ (cover_o11C4 V c t h0 h1 _ _)
    · have hc1 : ¬cond4_1 (grid4.coords t) := fun h => h1 ((hcond4_1 t).mp h)
      rw [Dat.leavesExact_idle (dat4 V c) 10 t (idleAt4_10 t hc1) (noFlush4_10 t hc1), Dat.leavesExact_idle (dat4 V c) 11 t (idleAt4_11 t hc1) (noFlush4_11 t hc1)]
      rw [outsAt4_B V c t h0 h1]
      unfold o9B4 s0B4 s1B4; (try dsimp only)
      rw [PhiS4_castSucc V c t, PhiS4_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB4 V c t h0 h1 _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, H10, H11, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (cover_s0B4 V c t h0 h1 _ _)
            · unfold owns; iexists _; isplitr
              swap; · iexact HS1
              ipureintro; exact View.read_writes_of_cover _ _ _ _ _ (cover_s1B4 V c t h0 h1 _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover_o9B4 V c t h0 h1 _ _)
      isplitl [H10]; · iexists _; iexact H10
      iexists _; iexact H11

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class invariant back: the accumulators' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

/-- The same after the last point. -/
theorem hout4 (c : Dev nD) : (dat4 V c).Φ (Fin.last cfg4.N) ⊢ Pipeline.ΦA spec4 c :=
  Phi_out4 V c _ (by rw [Fin.val_last]; have : cfg4.N = 25 := N_4; omega)

end Cert.KernelIdeal.Hand

end
-- ==== Proof.KI.Region5.Kit.lean ====
import proofs.«154353_j88940182765819_1_alg».proof.Proof.Gen.KernelIdeal.Launch
import proofs.«154353_j88940182765819_1_alg».proof.Proof.Gen.KernelIdeal.Skeleton
import proofs.«154353_j88940182765819_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks

Region 5 is the fused convolution-and-statistics call: windows 0 and 1 are the two 4000-row blocks of the
destination features and of the aggregated neighbour features, windows 2..8 the resident weights and bias rows,
window 9 the 4000-row block of the result `h`, windows 10 and 11 the two [1,128] rows of column sums of `h` and of
`h*h`, which the body stores at the last grid point only. -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not (an input not
    fetched at a point has not moved its block index), for any proof data whose array is `V`'s and whose body leaves
    the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not (an input not
    fetched at a point has not moved its block index), for any proof data whose array is `V`'s and whose body leaves
    the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not (an input not
    fetched at a point has not moved its block index), for any proof data whose array is `V`'s and whose body leaves
    the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not (an input not
    fetched at a point has not moved its block index), for any proof data whose array is `V`'s and whose body leaves
    the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not (an input not
    fetched at a point has not moved its block index), for any proof data whose array is `V`'s and whose body leaves
    the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not (an input not
    fetched at a point has not moved its block index), for any proof data whose array is `V`'s and whose body leaves
    the block in place. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not (an input not
    fetched at a point has not moved its block index), for any proof data whose array is `V`'s and whose body leaves
    the block in place. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7's current staging buffer holds its block at every point, fetched there or not (an input not
    fetched at a point has not moved its block index), for any proof data whose array is `V`'s and whose body leaves
    the block in place. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- Input window 8's current staging buffer holds its block at every point, fetched there or not (an input not
    fetched at a point has not moved its block index), for any proof data whose array is `V`'s and whose body leaves
    the block in place. -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-! ## The body's two conditions

The body zeroes its two accumulator rows under `i == 0` and copies them to the two row outputs under `i == 24`;
over the 25 grid points this gives three cases: the first point, the points 1..23, the last point. -/

/-- The condition of the first conditional (zero the accumulators), from the grid coordinates. -/
abbrev cond5_0 (i : grid5.Coords) : Prop := (Scalar.cmpi .ne (Scalar.extui (Scalar.cmpi .eq (BitVec.ofNat 32 (i 0).val) 0#32)) 0#32) = 1#1
/-- It holds at the first point only. -/
theorem hcond5_0 : ∀ t : Fin cfg5.N, cond5_0 (grid5.coords t) ↔ t.val = 0 :=
  (by decide +kernel : ∀ t : Fin grid5.N, cond5_0 (grid5.coords t) ↔ t.val = 0)

/-- The condition of the second conditional (copy the accumulators out), from the grid coordinates. -/
abbrev cond5_1 (i : grid5.Coords) : Prop := k5_cond2 i = 1#1
/-- It holds at the last point only. -/
theorem hcond5_1 : ∀ t : Fin cfg5.N, cond5_1 (grid5.coords t) ↔ t.val = 24 :=
  (by decide +kernel : ∀ t : Fin grid5.N, cond5_1 (grid5.coords t) ↔ t.val = 24)

/-! ## Where the windows are idle -/
theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
theorem liveAt5_4 : ∀ t : Fin cfg5.N, cfg5.idle 4 (grid5.coords t) = false := by decide +kernel
theorem liveAt5_5 : ∀ t : Fin cfg5.N, cfg5.idle 5 (grid5.coords t) = false := by decide +kernel
theorem liveAt5_6 : ∀ t : Fin cfg5.N, cfg5.idle 6 (grid5.coords t) = false := by decide +kernel
theorem liveAt5_7 : ∀ t : Fin cfg5.N, cfg5.idle 7 (grid5.coords t) = false := by decide +kernel
theorem liveAt5_8 : ∀ t : Fin cfg5.N, cfg5.idle 8 (grid5.coords t) = false := by decide +kernel
theorem liveAt5_9 : ∀ t : Fin cfg5.N, cfg5.idle 9 (grid5.coords t) = false := by decide +kernel
/-- Before the last point the body stores nothing into row output 10: the window is idle there and not written back. -/
theorem idleAt5_10 : ∀ t : Fin cfg5.N, ¬cond5_1 (grid5.coords t) → cfg5.idle 10 (grid5.coords t) = true := by decide +kernel
theorem noFlush5_10 : ∀ t : Fin cfg5.N, ¬cond5_1 (grid5.coords t) → (cfg5.win 10).flush t = false := by decide +kernel
/-- At the last point it is live: the body stores the accumulator row into it. -/
theorem liveAt5_10_C : ∀ t : Fin cfg5.N, cond5_1 (grid5.coords t) → cfg5.idle 10 (grid5.coords t) = false := by decide +kernel
/-- Before the last point the body stores nothing into row output 11: the window is idle there and not written back. -/
theorem idleAt5_11 : ∀ t : Fin cfg5.N, ¬cond5_1 (grid5.coords t) → cfg5.idle 11 (grid5.coords t) = true := by decide +kernel
theorem noFlush5_11 : ∀ t : Fin cfg5.N, ¬cond5_1 (grid5.coords t) → (cfg5.win 11).flush t = false := by decide +kernel
/-- At the last point it is live: the body stores the accumulator row into it. -/
theorem liveAt5_11_C : ∀ t : Fin cfg5.N, cond5_1 (grid5.coords t) → cfg5.idle 11 (grid5.coords t) = false := by decide +kernel

/-! ## Staging memrefs, scratch rows and the views their contents are stated through -/
abbrev ms5_0 (t : Fin cfg5.N) : Memref sig .tc .vmem S4000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S4000x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S128x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S128x128 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1x128 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S128x128 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S128x128 .f32 := win5_7.stage (cfg5.slots t 7)
abbrev hs5_7 (t : Fin cfg5.N) : (ms5_7 t).IsWhole := hstage5_7 ((cfg5.slots t 7).cast nbuf5_7)
abbrev ms5_8 (t : Fin cfg5.N) : Memref sig .tc .vmem S1x128 .f32 := win5_8.stage (cfg5.slots t 8)
abbrev hs5_8 (t : Fin cfg5.N) : (ms5_8 t).IsWhole := hstage5_8 ((cfg5.slots t 8).cast nbuf5_8)
abbrev ms5_9 (t : Fin cfg5.N) : Memref sig .tc .vmem S4000x128 .f32 := win5_9.stage (cfg5.slots t 9)
abbrev hs5_9 (t : Fin cfg5.N) : (ms5_9 t).IsWhole := hstage5_9 ((cfg5.slots t 9).cast nbuf5_9)
abbrev ms5_10 (t : Fin cfg5.N) : Memref sig .tc .vmem S1x128 .f32 := win5_10.stage (cfg5.slots t 10)
abbrev hs5_10 (t : Fin cfg5.N) : (ms5_10 t).IsWhole := hstage5_10 ((cfg5.slots t 10).cast nbuf5_10)
abbrev ms5_11 (t : Fin cfg5.N) : Memref sig .tc .vmem S1x128 .f32 := win5_11.stage (cfg5.slots t 11)
abbrev hs5_11 (t : Fin cfg5.N) : (ms5_11 t).IsWhole := hstage5_11 ((cfg5.slots t 11).cast nbuf5_11)
/-- The two accumulator rows: whole scoped buffers of the kernel's own, carried from one grid point to the next. -/
abbrev scM5_0 : Memref sig .tc .vmem S1x128 .f32 := Memref.whole cc5_scratch0
abbrev scM5_1 : Memref sig .tc .vmem S1x128 .f32 := Memref.whole cc5_scratch1
abbrev VS5_0 : View sig .tc .vmem S1x128 .f32 := scM5_0.view
abbrev VS5_1 : View sig .tc .vmem S1x128 .f32 := scM5_1.view
/-- One staging buffer of each output window, through which its contents are stated (the choice does not matter). -/
abbrev VO5_9 : View sig .tc .vmem S4000x128 .f32 := (Memref.whole cc5_stg9_0 : Memref sig .tc .vmem S4000x128 .f32).view
abbrev VO5_10 : View sig .tc .vmem S1x128 .f32 := (Memref.whole cc5_stg10_0 : Memref sig .tc .vmem S1x128 .f32).view
abbrev VO5_11 : View sig .tc .vmem S1x128 .f32 := (Memref.whole cc5_stg11_0 : Memref sig .tc .vmem S1x128 .f32).view

/-- The rest of the scoped buffers, beside the two accumulator rows: never opened. -/
abbrev rest5 (c : Dev nD) : sProp 𝕄 :=
  Pipeline.scopedRestBut (Ix := Unit) (Name := ℕ) (U := UR sig nD τ) (Lvl := ℕ) (Val := Elt F) spec5 c [cc5_scratch0, cc5_scratch1]

/-- The class invariant with the two accumulator rows as memrefs owned at some contents: what the body
    obligation hands the run at the first point and what the region gives back at the end. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d)) ∗ rest5 c) ∗ (∃ r, prngReg c r)) := by
  unfold Pipeline.ΦA; rw [scopedRest5_split]; simp only [scM5_0, scM5_1, owns_whole]; try rfl

end Cert.KernelIdeal.Hand

end
-- ==== Proof.KI.Region5.RunA.lean ====
import proofs.«154353_j88940182765819_1_alg».proof.Proof.KI.Region5.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body AT THE FIRST POINT (the accumulators zeroed first; nothing copied out), run on whole staging memrefs: the nine
    inputs at their contents `x·`, the block output's buffer at anything, the two row outputs' buffers at contents `xi·` handed back untouched (the body stores nothing into them here),
    the two accumulator rows at anything (the body overwrites them before reading). The body runs to the continuation holding the
    inputs as they were and every stored buffer with its pieces written; the pieces (last store first) are the
    witness the run finds. -/
noncomputable def kernelRun5_A (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond5_0 i) (hc1 : ¬cond5_1 i)
    (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) :
    Σ' (L9 : List (View.Piece (Elt F) S4000x128 .f32)) (LS0 : List (View.Piece (Elt F) S1x128 .f32)), { LS1 : List (View.Piece (Elt F) S1x128 .f32) //
      ∀ (xi10 xi11 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc5__conv_stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    haveI : Fact (cond5_0 i) := ⟨hc0⟩
    haveI : Fact (¬cond5_1 i) := ⟨hc1⟩
    simp only [cc5__conv_stats_kernel_eq_skeleton]; unfold cc5__conv_stats_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.Hand

end
-- ==== Proof.KI.Region5.RunB.lean ====
import proofs.«154353_j88940182765819_1_alg».proof.Proof.KI.Region5.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body AT THE POINTS 1..23 (neither conditional taken), run on whole staging memrefs: the nine
    inputs at their contents `x·`, the block output's buffer at anything, the two row outputs' buffers at contents `xi·` handed back untouched (the body stores nothing into them here),
    the two accumulator rows at what the point before left in them (`xs·`). The body runs to the continuation holding the
    inputs as they were and every stored buffer with its pieces written; the pieces (last store first) are the
    witness the run finds. -/
noncomputable def kernelRun5_B (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond5_0 i) (hc1 : ¬cond5_1 i)
    (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S1x128 .f32) (xs1 : Vec F S1x128 .f32) :
    Σ' (L9 : List (View.Piece (Elt F) S4000x128 .f32)) (LS0 : List (View.Piece (Elt F) S1x128 .f32)), { LS1 : List (View.Piece (Elt F) S1x128 .f32) //
      ∀ (xi10 xi11 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xi10 ∗ owns (c : Thread nD τ) arg12 fullShare xi11 ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xi10 ∗ owns (c : Thread nD τ) arg12 fullShare xi11 ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc5__conv_stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi10 xi11 E K => ?run⟩
  case run =>
    haveI : Fact (¬cond5_0 i) := ⟨hc0⟩
    haveI : Fact (¬cond5_1 i) := ⟨hc1⟩
    simp only [cc5__conv_stats_kernel_eq_skeleton]; unfold cc5__conv_stats_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    isplitl [HS0]; · iexists _; iexact HS0
    iexists _; iexact HS1

end Cert.KernelIdeal.Hand

end
-- ==== Proof.KI.Region5.RunC.lean ====
import proofs.«154353_j88940182765819_1_alg».proof.Proof.KI.Region5.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The whole body AT THE LAST POINT (the accumulators copied to the two row outputs at the end), run on whole staging memrefs: the nine
    inputs at their contents `x·`, the block output's buffer at anything, the two row outputs' buffers at anything,
    the two accumulator rows at what the point before left in them (`xs·`). The body runs to the continuation holding the
    inputs as they were and every stored buffer with its pieces written; the pieces (last store first) are the
    witness the run finds. -/
noncomputable def kernelRun5_C (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond5_0 i) (hc1 : cond5_1 i)
    (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 : Vec F S1x128 .f32) (xs1 : Vec F S1x128 .f32) :
    Σ' (L9 : List (View.Piece (Elt F) S4000x128 .f32)) (L10 : List (View.Piece (Elt F) S1x128 .f32)) (L11 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
          ⊢ wp frame (wpE (defs₀ (F := F)) Variants.none c none) E (cc5__conv_stats_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    haveI : Fact (¬cond5_0 i) := ⟨hc0⟩
    haveI : Fact (cond5_1 i) := ⟨hc1⟩
    simp only [cc5__conv_stats_kernel_eq_skeleton]; unfold cc5__conv_stats_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg14.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.KernelIdeal.Hand

end
-- ==== Proof.KI.Region5.lean ====
import proofs.«154353_j88940182765819_1_alg».proof.Proof.KI.Region5.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The three runs at a grid point

Each case's run of the body, taken at the staging memrefs the pipeline passes at point `t`, the two accumulator
rows, and the input blocks read off the arrays as the region finds them. -/

/-- The first point: the accumulators are zeroed, then the block is processed. -/
def runA5 (c : Dev nD) (t : Fin cfg5.N) (h0 : t.val = 0) :=
  kernelRun5_A (F := F) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) scM5_0 (Memref.isWhole_whole _) scM5_1 (Memref.isWhole_whole _)
    ((hcond5_0 t).mpr h0) (fun h => by have h' := (hcond5_1 t).mp h; omega) (iblk5 V c 0 t) (iblk5 V c 1 t) (iblk5 V c 2 t) (iblk5 V c 3 t) (iblk5 V c 4 t) (iblk5 V c 5 t) (iblk5 V c 6 t) (iblk5 V c 7 t) (iblk5 V c 8 t)

/-- A point 1..23: the block is processed, the accumulators found at `xs·`. -/
def runB5 (c : Dev nD) (t : Fin cfg5.N) (h0 : ¬t.val = 0) (h1 : ¬t.val = 24) (xs0 xs1 : Vec F S1x128 .f32) :=
  kernelRun5_B (F := F) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) scM5_0 (Memref.isWhole_whole _) scM5_1 (Memref.isWhole_whole _)
    (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t) xs0 xs1

/-- The last point: the block is processed, then the accumulators are copied to the two row outputs. -/
def runC5 (c : Dev nD) (t : Fin cfg5.N) (h0 : ¬t.val = 0) (h1 : t.val = 24) (xs0 xs1 : Vec F S1x128 .f32) :=
  kernelRun5_C (F := F) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) scM5_0 (Memref.isWhole_whole _) scM5_1 (Memref.isWhole_whole _)
    (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) xs0 xs1

/-! ## What each case leaves: the pieces read back, and that they cover -/

/-- A row output the body does not store into at a point: a placeholder nothing consults (the window is idle there,
    neither written back nor read at the next point). -/
def idleRow5_10 : Vec F S1x128 .f32 := VO5_10.read (Elt F) (VO5_10.writes (Elt F) VO5_10.junk [])
def idleRow5_11 : Vec F S1x128 .f32 := VO5_11.read (Elt F) (VO5_11.writes (Elt F) VO5_11.junk [])

/-- Case A's stores into the block output's staging buffer cover it (each store writes the whole buffer). -/
theorem cover_o9A5 (c : Dev nD) (t : Fin cfg5.N) (h0 : t.val = 0) (y : S4000x128.Idx) :
    ∃ pc ∈ (runA5 V c t h0).1, y ∈ pc.1.set :=
  View.cover_of_tiledL (runA5 V c t h0).1 S4000x128.size (by sl_kernel_rfl) y
/-- What case A leaves in the block output's staging buffer: its pieces read back. -/
def o9A5 (c : Dev nD) (t : Fin cfg5.N) (h0 : t.val = 0) : Vec F S4000x128 .f32 :=
  VO5_9.read (Elt F) (VO5_9.writes (Elt F) VO5_9.junk (runA5 V c t h0).1)

/-- Case A's stores into accumulator row 0 cover it (each store writes the whole buffer). -/
theorem cover_s0A5 (c : Dev nD) (t : Fin cfg5.N) (h0 : t.val = 0) (y : S1x128.Idx) :
    ∃ pc ∈ (runA5 V c t h0).2.1, y ∈ pc.1.set :=
  View.cover_of_tiledL (runA5 V c t h0).2.1 S1x128.size (by sl_kernel_rfl) y
/-- What case A leaves in accumulator row 0: its pieces read back. -/
def s0A5 (c : Dev nD) (t : Fin cfg5.N) (h0 : t.val = 0) : Vec F S1x128 .f32 :=
  VS5_0.read (Elt F) (VS5_0.writes (Elt F) VS5_0.junk (runA5 V c t h0).2.1)

/-- Case A's stores into accumulator row 1 cover it (each store writes the whole buffer). -/
theorem cover_s1A5 (c : Dev nD) (t : Fin cfg5.N) (h0 : t.val = 0) (y : S1x128.Idx) :
    ∃ pc ∈ (runA5 V c t h0).2.2.1, y ∈ pc.1.set :=
  View.cover_of_tiledL (runA5 V c t h0).2.2.1 S1x128.size (by sl_kernel_rfl) y
/-- What case A leaves in accumulator row 1: its pieces read back. -/
def s1A5 (c : Dev nD) (t : Fin cfg5.N) (h0 : t.val = 0) : Vec F S1x128 .f32 :=
  VS5_1.read (Elt F) (VS5_1.writes (Elt F) VS5_1.junk (runA5 V c t h0).2.2.1)

/-- Case B's stores into the block output's staging buffer cover it (each store writes the whole buffer). -/
theorem cover_o9B5 (c : Dev nD) (t : Fin cfg5.N) (h0 : ¬t.val = 0) (h1 : ¬t.val = 24) (xs0 xs1 : Vec F S1x128 .f32) (y : S4000x128.Idx) :
    ∃ pc ∈ (runB5 V c t h0 h1 xs0 xs1).1, y ∈ pc.1.set :=
  View.cover_of_tiledL (runB5 V c t h0 h1 xs0 xs1).1 S4000x128.size (by sl_kernel_rfl) y
/-- What case B leaves in the block output's staging buffer: its pieces read back. -/
def o9B5 (c : Dev nD) (t : Fin cfg5.N) (h0 : ¬t.val = 0) (h1 : ¬t.val = 24) (xs0 xs1 : Vec F S1x128 .f32) : Vec F S4000x128 .f32 :=
  VO5_9.read (Elt F) (VO5_9.writes (Elt F) VO5_9.junk (runB5 V c t h0 h1 xs0 xs1).1)

/-- Case B's stores into accumulator row 0 cover it (each store writes the whole buffer). -/
theorem cover_s0B5 (c : Dev nD) (t : Fin cfg5.N) (h0 : ¬t.val = 0) (h1 : ¬t.val = 24) (xs0 xs1 : Vec F S1x128 .f32) (y : S1x128.Idx) :
    ∃ pc ∈ (runB5 V c t h0 h1 xs0 xs1).2.1, y ∈ pc.1.set :=
  View.cover_of_tiledL (runB5 V c t h0 h1 xs0 xs1).2.1 S1x128.size (by sl_kernel_rfl) y
/-- What case B leaves in accumulator row 0: its pieces read back. -/
def s0B5 (c : Dev nD) (t : Fin cfg5.N) (h0 : ¬t.val = 0) (h1 : ¬t.val = 24) (xs0 xs1 : Vec F S1x128 .f32) : Vec F S1x128 .f32 :=
  VS5_0.read (Elt F) (VS5_0.writes (Elt F) VS5_0.junk (runB5 V c t h0 h1 xs0 xs1).2.1)

/-- Case B's stores into accumulator row 1 cover it (each store writes the whole buffer). -/
theorem cover_s1B5 (c : Dev nD) (t : Fin cfg5.N) (h0 : ¬t.val = 0) (h1 : ¬t.val = 24) (xs0 xs1 : Vec F S1x128 .f32) (y : S1x128.Idx) :
    ∃ pc ∈ (runB5 V c t h0 h1 xs0 xs1).2.2.1, y ∈ pc.1.set :=
  View.cover_of_tiledL (runB5 V c t h0 h1 xs0 xs1).2.2.1 S1x128.size (by sl_kernel_rfl) y
/-- What case B leaves in accumulator row 1: its pieces read back. -/
def s1B5 (c : Dev nD) (t : Fin cfg5.N) (h0 : ¬t.val = 0) (h1 : ¬t.val = 24) (xs0 xs1 : Vec F S1x128 .f32) : Vec F S1x128 .f32 :=
  VS5_1.read (Elt F) (VS5_1.writes (Elt F) VS5_1.junk (runB5 V c t h0 h1 xs0 xs1).2.2.1)

/-- Case C's stores into the block output's staging buffer cover it (each store writes the whole buffer). -/
theorem cover_o9C5 (c : Dev nD) (t : Fin cfg5.N) (h0 : ¬t.val = 0) (h1 : t.val = 24) (xs0 xs1 : Vec F S1x128 .f32) (y : S4000x128.Idx) :
    ∃ pc ∈ (runC5 V c t h0 h1 xs0 xs1).1, y ∈ pc.1.set :=
  View.cover_of_tiledL (runC5 V c t h0 h1 xs0 xs1).1 S4000x128.size (by sl_kernel_rfl) y
/-- What case C leaves in the block output's staging buffer: its pieces read back. -/
def o9C5 (c : Dev nD) (t : Fin cfg5.N) (h0 : ¬t.val = 0) (h1 : t.val = 24) (xs0 xs1 : Vec F S1x128 .f32) : Vec F S4000x128 .f32 :=
  VO5_9.read (Elt F) (VO5_9.writes (Elt F) VO5_9.junk (runC5 V c t h0 h1 xs0 xs1).1)

/-- Case C's stores into row output 10's staging buffer cover it (each store writes the whole buffer). -/
theorem cover_o10C5 (c : Dev nD) (t : Fin cfg5.N) (h0 : ¬t.val = 0) (h1 : t.val = 24) (xs0 xs1 : Vec F S1x128 .f32) (y : S1x128.Idx) :
    ∃ pc ∈ (runC5 V c t h0 h1 xs0 xs1).2.1, y ∈ pc.1.set :=
  View.cover_of_tiledL (runC5 V c t h0 h1 xs0 xs1).2.1 S1x128.size (by sl_kernel_rfl) y
/-- What case C leaves in row output 10's staging buffer: its pieces read back. -/
def o10C5 (c : Dev nD) (t : Fin cfg5.N) (h0 : ¬t.val = 0) (h1 : t.val = 24) (xs0 xs1 : Vec F S1x128 .f32) : Vec F S1x128 .f32 :=
  VO5_10.read (Elt F) (VO5_10.writes (Elt F) VO5_10.junk (runC5 V c t h0 h1 xs0 xs1).2.1)

/-- Case C's stores into row output 11's staging buffer cover it (each store writes the whole buffer). -/
theorem cover_o11C5 (c : Dev nD) (t : Fin cfg5.N) (h0 : ¬t.val = 0) (h1 : t.val = 24) (xs0 xs1 : Vec F S1x128 .f32) (y : S1x128.Idx) :
    ∃ pc ∈ (runC5 V c t h0 h1 xs0 xs1).2.2.1, y ∈ pc.1.set :=
  View.cover_of_tiledL (runC5 V c t h0 h1 xs0 xs1).2.2.1 S1x128.size (by sl_kernel_rfl) y
/-- What case C leaves in row output 11's staging buffer: its pieces read back. -/
def o11C5 (c : Dev nD) (t : Fin cfg5.N) (h0 : ¬t.val = 0) (h1 : t.val = 24) (xs0 xs1 : Vec F S1x128 .f32) : Vec F S1x128 .f32 :=
  VO5_11.read (Elt F) (VO5_11.writes (Elt F) VO5_11.junk (runC5 V c t h0 h1 xs0 xs1).2.2.1)

/-- Case C's stores into accumulator row 0 cover it (each store writes the whole buffer). -/
theorem cover_s0C5 (c : Dev nD) (t : Fin cfg5.N) (h0 : ¬t.val = 0) (h1 : t.val = 24) (xs0 xs1 : Vec F S1x128 .f32) (y : S1x128.Idx) :
    ∃ pc ∈ (runC5 V c t h0 h1 xs0 xs1).2.2.2.1, y ∈ pc.1.set :=
  View.cover_of_tiledL (runC5 V c t h0 h1 xs0 xs1).2.2.2.1 S1x128.size (by sl_kernel_rfl) y
/-- What case C leaves in accumulator row 0: its pieces read back. -/
def s0C5 (c : Dev nD) (t : Fin cfg5.N) (h0 : ¬t.val = 0) (h1 : t.val = 24) (xs0 xs1 : Vec F S1x128 .f32) : Vec F S1x128 .f32 :=
  VS5_0.read (Elt F) (VS5_0.writes (Elt F) VS5_0.junk (runC5 V c t h0 h1 xs0 xs1).2.2.2.1)

/-- Case C's stores into accumulator row 1 cover it (each store writes the whole buffer). -/
theorem cover_s1C5 (c : Dev nD) (t : Fin cfg5.N) (h0 : ¬t.val = 0) (h1 : t.val = 24) (xs0 xs1 : Vec F S1x128 .f32) (y : S1x128.Idx) :
    ∃ pc ∈ (runC5 V c t h0 h1 xs0 xs1).2.2.2.2.1, y ∈ pc.1.set :=
  View.cover_of_tiledL (runC5 V c t h0 h1 xs0 xs1).2.2.2.2.1 S1x128.size (by sl_kernel_rfl) y
/-- What case C leaves in accumulator row 1: its pieces read back. -/
def s1C5 (c : Dev nD) (t : Fin cfg5.N) (h0 : ¬t.val = 0) (h1 : t.val = 24) (xs0 xs1 : Vec F S1x128 .f32) : Vec F S1x128 .f32 :=
  VS5_1.read (Elt F) (VS5_1.writes (Elt F) VS5_1.junk (runC5 V c t h0 h1 xs0 xs1).2.2.2.2.1)

/-! ## What the outputs and the accumulators hold after each point -/

/-- THE ACCUMULATION. After the body at position `n`: the block output's staging buffer, the two row outputs'
    staging buffers, and the two accumulator rows. The first point zeroes the accumulators and adds the block's
    column sums; every later point adds its block's column sums to what the point before left; the last point also
    copies the two accumulators into the row outputs. -/
def outsAt5 (c : Dev nD) : (n : ℕ) → n < cfg5.N → Vec F S4000x128 .f32 × Vec F S1x128 .f32 × Vec F S1x128 .f32 × Vec F S1x128 .f32 × Vec F S1x128 .f32
  | 0, hn => (o9A5 V c ⟨0, hn⟩ rfl, idleRow5_10, idleRow5_11, s0A5 V c ⟨0, hn⟩ rfl, s1A5 V c ⟨0, hn⟩ rfl)
  | n + 1, hn =>
    if h1 : n + 1 = 24 then
      (o9C5 V c ⟨n + 1, hn⟩ (Nat.succ_ne_zero n) h1 (outsAt5 c n (Nat.lt_of_succ_lt hn)).2.2.2.1 (outsAt5 c n (Nat.lt_of_succ_lt hn)).2.2.2.2, o10C5 V c ⟨n + 1, hn⟩ (Nat.succ_ne_zero n) h1 (outsAt5 c n (Nat.lt_of_succ_lt hn)).2.2.2.1 (outsAt5 c n (Nat.lt_of_succ_lt hn)).2.2.2.2, o11C5 V c ⟨n + 1, hn⟩ (Nat.succ_ne_zero n) h1 (outsAt5 c n (Nat.lt_of_succ_lt hn)).2.2.2.1 (outsAt5 c n (Nat.lt_of_succ_lt hn)).2.2.2.2, s0C5 V c ⟨n + 1, hn⟩ (Nat.succ_ne_zero n) h1 (outsAt5 c n (Nat.lt_of_succ_lt hn)).2.2.2.1 (outsAt5 c n (Nat.lt_of_succ_lt hn)).2.2.2.2, s1C5 V c ⟨n + 1, hn⟩ (Nat.succ_ne_zero n) h1 (outsAt5 c n (Nat.lt_of_succ_lt hn)).2.2.2.1 (outsAt5 c n (Nat.lt_of_succ_lt hn)).2.2.2.2)
    else
      (o9B5 V c ⟨n + 1, hn⟩ (Nat.succ_ne_zero n) h1 (outsAt5 c n (Nat.lt_of_succ_lt hn)).2.2.2.1 (outsAt5 c n (Nat.lt_of_succ_lt hn)).2.2.2.2, idleRow5_10, idleRow5_11, s0B5 V c ⟨n + 1, hn⟩ (Nat.succ_ne_zero n) h1 (outsAt5 c n (Nat.lt_of_succ_lt hn)).2.2.2.1 (outsAt5 c n (Nat.lt_of_succ_lt hn)).2.2.2.2, s1B5 V c ⟨n + 1, hn⟩ (Nat.succ_ne_zero n) h1 (outsAt5 c n (Nat.lt_of_succ_lt hn)).2.2.2.1 (outsAt5 c n (Nat.lt_of_succ_lt hn)).2.2.2.2)

/-- `outsAt5` at the first point. -/
theorem outsAt5_A (c : Dev nD) (t : Fin cfg5.N) (h0 : t.val = 0) :
    outsAt5 V c t.val t.isLt = (o9A5 V c t h0, idleRow5_10, idleRow5_11, s0A5 V c t h0, s1A5 V c t h0) := by
  obtain ⟨n, hn⟩ := t
  cases n with
  | zero => exact rfl
  | succ n => exact absurd h0 (Nat.succ_ne_zero n)

/-- `outsAt5` at a point 1..23: over what the point before left in the accumulators. -/
theorem outsAt5_B (c : Dev nD) (t : Fin cfg5.N) (h0 : ¬t.val = 0) (h1 : ¬t.val = 24) :
    outsAt5 V c t.val t.isLt = (o9B5 V c t h0 h1 (outsAt5 V c (t.val - 1) (Nat.lt_of_le_of_lt (Nat.sub_le _ _) t.isLt)).2.2.2.1 (outsAt5 V c (t.val - 1) (Nat.lt_of_le_of_lt (Nat.sub_le _ _) t.isLt)).2.2.2.2, idleRow5_10, idleRow5_11, s0B5 V c t h0 h1 (outsAt5 V c (t.val - 1) (Nat.lt_of_le_of_lt (Nat.sub_le _ _) t.isLt)).2.2.2.1 (outsAt5 V c (t.val - 1) (Nat.lt_of_le_of_lt (Nat.sub_le _ _) t.isLt)).2.2.2.2, s1B5 V c t h0 h1 (outsAt5 V c (t.val - 1) (Nat.lt_of_le_of_lt (Nat.sub_le _ _) t.isLt)).2.2.2.1 (outsAt5 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt5` at the last point: over what the point before left in the accumulators. -/
theorem outsAt5_C (c : Dev nD) (t : Fin cfg5.N) (h0 : ¬t.val = 0) (h1 : t.val = 24) :
    outsAt5 V c t.val t.isLt = (o9C5 V c t h0 h1 (outsAt5 V c (t.val - 1) (Nat.lt_of_le_of_lt (Nat.sub_le _ _) t.isLt)).2.2.2.1 (outsAt5 V c (t.val - 1) (Nat.lt_of_le_of_lt (Nat.sub_le _ _) t.isLt)).2.2.2.2, o10C5 V c t h0 h1 (outsAt5 V c (t.val - 1) (Nat.lt_of_le_of_lt (Nat.sub_le _ _) t.isLt)).2.2.2.1 (outsAt5 V c (t.val - 1) (Nat.lt_of_le_of_lt (Nat.sub_le _ _) t.isLt)).2.2.2.2, o11C5 V c t h0 h1 (outsAt5 V c (t.val - 1) (Nat.lt_of_le_of_lt (Nat.sub_le _ _) t.isLt)).2.2.2.1 (outsAt5 V c (t.val - 1) (Nat.lt_of_le_of_lt (Nat.sub_le _ _) t.isLt)).2.2.2.2, s0C5 V c t h0 h1 (outsAt5 V c (t.val - 1) (Nat.lt_of_le_of_lt (Nat.sub_le _ _) t.isLt)).2.2.2.1 (outsAt5 V c (t.val - 1) (Nat.lt_of_le_of_lt (Nat.sub_le _ _) t.isLt)).2.2.2.2, s1C5 V c t h0 h1 (outsAt5 V c (t.val - 1) (Nat.lt_of_le_of_lt (Nat.sub_le _ _) t.isLt)).2.2.2.1 (outsAt5 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The region invariant before position `n`: before the first point the class invariant (both accumulator rows at
    anything); afterwards the two accumulator rows at what the point before left in them, the other scoped buffers
    unopened, and the generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2.2.2.1) ∗ owns (c : Thread nD τ) scM5_1 fullShare ((outsAt5 V c n hn).2.2.2.2)) ∗ rest5 (F := F) c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare ((outsAt5 V c n hn).2.2.2.1) ∗ owns (c : Thread nD τ) scM5_1 fullShare ((outsAt5 V c n hn).2.2.2.2)) ∗ rest5 (F := F) c) ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2.2.2.1) ∗ owns (c : Thread nD τ) scM5_1 fullShare ((outsAt5 V c (n - 1) (by omega)).2.2.2.2)) ∗ rest5 (F := F) c) ∗ (∃ r, prngReg c r)) := by
  cases n with
  | zero => exact absurd rfl hz
  | succ n => rfl

/-! ## The pipeline's proof data -/

/-- The proof data of region 5 on core `c`: the arrays as the region finds them (`V`); after the body at point `t`
    each input's buffer at its block and the three outputs' at `outsAt5`'s components; the invariant `PhiS5`;
    nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => (outsAt5 V c t.val t.isLt).1
    | ⟨10, _⟩ => (outsAt5 V c t.val t.isLt).2.1
    | ⟨11, _⟩ => (outsAt5 V c t.val t.isLt).2.2.1
  Φ t := PhiS5 V c t.val (Nat.le_of_lt_succ t.isLt)
  q _ := fullShare
  owed _ := 0

/-- The proof data's arrays are the region-entry contents. -/
theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = (outsAt5 V c t.val t.isLt).1 := by dsimp only [dat5]
theorem after5_10 (c : Dev nD) (t : Fin cfg5.N) : (dat5 V c).after 10 t = (outsAt5 V c t.val t.isLt).2.1 := by dsimp only [dat5]
theorem after5_11 (c : Dev nD) (t : Fin cfg5.N) : (dat5 V c).after 11 t = (outsAt5 V c t.val t.isLt).2.2.1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

/-! ## The body obligation -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d))
    ∗ (∃ d, owns (c : Thread nD τ) (ms5_7 t) fullShare ((dat5 V c).before 7 t d))
    ∗ (∃ d, owns (c : Thread nD τ) (ms5_8 t) fullShare ((dat5 V c).before 8 t d))
    ∗ (∃ d, owns (c : Thread nD τ) (ms5_9 t) fullShare ((dat5 V c).before 9 t d))
    ∗ (∃ d, owns (c : Thread nD τ) (ms5_10 t) fullShare ((dat5 V c).before 10 t d))
    ∗ (∃ d, owns (c : Thread nD τ) (ms5_11 t) fullShare ((dat5 V c).before 11 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t
    ∗ (dat5 V c).leavesExact 8 t
    ∗ (dat5 V c).leavesExact 9 t
    ∗ (dat5 V c).leavesExact 10 t
    ∗ (dat5 V c).leavesExact 11 t)

set_option maxHeartbeats 8000000 in
/-- The body at any point. The inputs' memrefs hold their blocks; the point is the first, a middle one or the
    last, and that case's run applies. The invariant hands the body the two accumulator rows — at anything at the
    first point, afterwards at what the point before left — and takes them back at this point's contents; the other
    scoped buffers and the generator register pass through; the core owes nothing throughout. A row output is
    handed back untouched at a point that does not store into it. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).owesAt () t.succ = (dat5 V c).owesAt () t.castSucc from rfl]
  rw [show (dat5 V c).Φ t.succ = PhiS5 V c (t.val + 1) t.isLt from rfl, PhiS5_succ]
  have hN : t.val < 25 := lt_of_lt_of_eq t.isLt (show cfg5.N = 25 from N_5)
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [liveAt5_4 t], after5_4]
  rw [show (dat5 V c).leavesExact 5 t = owns (c : Thread nD τ) (ms5_5 t) fullShare ((dat5 V c).after 5 t) from by
    unfold Dat.leavesExact; rw [liveAt5_5 t], after5_5]
  rw [show (dat5 V c).leavesExact 6 t = owns (c : Thread nD τ) (ms5_6 t) fullShare ((dat5 V c).after 6 t) from by
    unfold Dat.leavesExact; rw [liveAt5_6 t], after5_6]
  rw [show (dat5 V c).leavesExact 7 t = owns (c : Thread nD τ) (ms5_7 t) fullShare ((dat5 V c).after 7 t) from by
    unfold Dat.leavesExact; rw [liveAt5_7 t], after5_7]
  rw [show (dat5 V c).leavesExact 8 t = owns (c : Thread nD τ) (ms5_8 t) fullShare ((dat5 V c).after 8 t) from by
    unfold Dat.leavesExact; rw [liveAt5_8 t], after5_8]
  rw [show (dat5 V c).leavesExact 9 t = owns (c : Thread nD τ) (ms5_9 t) fullShare ((dat5 V c).after 9 t) from by
    unfold Dat.leavesExact; rw [liveAt5_9 t], after5_9]
  by_cases h0 : t.val = 0
  · have hc1 : ¬cond5_1 (grid5.coords t) := fun h => by have h' := (hcond5_1 t).mp h; omega
    rw [Dat.leavesExact_idle (dat5 V c) 10 t (idleAt5_10 t hc1) (noFlush5_10 t hc1), Dat.leavesExact_idle (dat5 V c) 11 t (idleAt5_11 t hc1) (noFlush5_11 t hc1)]
    rw [outsAt5_A V c t h0]
    unfold o9A5 s0A5 s1A5; (try dsimp only)
    rw [PhiS5_castSucc V c t, PhiS5_zero V c _ _ h0, PhiA5_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA5 V c t h0).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, ⟨%e9, H9⟩, H10, H11, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (cover_s0A5 V c t h0)
          · unfold owns; iexists _; isplitr
            swap; · iexact HS1
            ipureintro; exact View.read_writes_of_cover _ _ _ _ _ (cover_s1A5 V c t h0)
        · iexact Hr
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover_o9A5 V c t h0)
    isplitl [H10]; · iexists _; iexact H10
    iexists _; iexact H11

  · by_cases h1 : t.val = 24
    · have hc1 : cond5_1 (grid5.coords t) := (hcond5_1 t).mpr h1
      rw [show (dat5 V c).leavesExact 10 t = owns (c : Thread nD τ) (ms5_10 t) fullShare ((dat5 V c).after 10 t) from by
        unfold Dat.leavesExact; rw [liveAt5_10_C t hc1], after5_10]
      rw [show (dat5 V c).leavesExact 11 t = owns (c : Thread nD τ) (ms5_11 t) fullShare ((dat5 V c).after 11 t) from by
        unfold Dat.leavesExact; rw [liveAt5_11_C t hc1], after5_11]
      rw [outsAt5_C V c t h0 h1]
      unfold o9C5 o10C5 o11C5 s0C5 s1C5; (try dsimp only)
      rw [PhiS5_castSucc V c t, PhiS5_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runC5 V c t h0 h1 _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (cover_s0C5 V c t h0 h1 _ _)
            · unfold owns; iexists _; isplitr
              swap; · iexact HS1
              ipureintro; exact View.read_writes_of_cover _ _ _ _ _ (cover_s1C5 V c t h0 h1 _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover_o9C5 V c t h0 h1 _ _)
      isplitl [H10]
      · unfold owns; iexists _; isplitr
        swap; · iexact H10
        ipureintro; exact View.read_writes_of_cover _ _ _ _ _ (cover_o10C5 V c t h0 h1 _ _)
      unfold owns; iexists _; isplitr
      swap; · iexact H11
      ipureintro; exact View.read_writes_of_cover _ _ _ _ _ (cover_o11C5 V c t h0 h1 _ _)
    · have hc1 : ¬cond5_1 (grid5.coords t) := fun h => h1 ((hcond5_1 t).mp h)
      rw [Dat.leavesExact_idle (dat5 V c) 10 t (idleAt5_10 t hc1) (noFlush5_10 t hc1), Dat.leavesExact_idle (dat5 V c) 11 t (idleAt5_11 t hc1) (noFlush5_11 t hc1)]
      rw [outsAt5_B V c t h0 h1]
      unfold o9B5 s0B5 s1B5; (try dsimp only)
      rw [PhiS5_castSucc V c t, PhiS5_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB5 V c t h0 h1 _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, ⟨%e9, H9⟩, H10, H11, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (cover_s0B5 V c t h0 h1 _ _)
            · unfold owns; iexists _; isplitr
              swap; · iexact HS1
              ipureintro; exact View.read_writes_of_cover _ _ _ _ _ (cover_s1B5 V c t h0 h1 _ _)
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover_o9B5 V c t h0 h1 _ _)
      isplitl [H10]; · iexists _; iexact H10
      iexists _; iexact H11

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the class invariant back: the accumulators' named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

/-- The same after the last point. -/
theorem hout5 (c : Dev nD) : (dat5 V c).Φ (Fin.last cfg5.N) ⊢ Pipeline.ΦA spec5 c :=
  Phi_out5 V c _ (by rw [Fin.val_last]; have : cfg5.N = 25 := N_5; omega)

end Cert.KernelIdeal.Hand

end
-- ==== Proof.KI.Region6.lean ====
import proofs.«154353_j88940182765819_1_alg».proof.Proof.Gen.KernelIdeal.Launch
import proofs.«154353_j88940182765819_1_alg».proof.Proof.Gen.KernelIdeal.Skeleton
import proofs.«154353_j88940182765819_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 6: the normalise-and-leaky-relu kernel on a 25-point grid of 4000-row blocks, at the entry contents `V`

Windows 0..4 are inputs: window 0 the 4000x128 row block of the activations at the grid point, windows 1..4 the
1x128 rows (scale, shift, mean, variance), the same block at every point. Window 5 is the output, the 4000x128 row
block at the grid point. The body loads each input whole, computes the normalised, shifted and leaky-rectified
block, and stores it whole. -/

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! Each input window's current staging buffer holds its block at every point — at the points where the block is
fetched and at those where it is not (the four rows are fetched at the first point only; their block index never
moves, so what the first fetch put there is still the block) — for any proof data whose array is the entry contents
and whose body leaves the block in place. -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole 4000x128 block, and the whole 1x128 row, as rectangles: every load and the one store are of these. -/
abbrev rB6 : Rect S4000x128 := Rect.unit (s := S4000x128) ![0, 0] S4000x128.size inb_S4000x128_S4000x128_0_0
abbrev rR6 : Rect S1x128 := Rect.unit (s := S1x128) ![0, 0] S1x128.size inb_S1x128_S1x128_0_0

/-! ## What the body leaves in the output window's buffer -/

/-- The output block after the body: its one whole-block store, of the payload (the normalised, shifted,
    leaky-rectified block) over the five loaded inputs. -/
def out6_5 (x0 : Vec F S4000x128 .f32) (x1 x2 x3 x4 : Vec F S1x128 .f32) : Vec F S4000x128 .f32 :=
  View.canon [⟨rB6, k6_pay1 (View.ld x0 rB6) (View.ld x1 rR6) (View.ld x2 rR6) (View.ld x3 rR6) (View.ld x4 rR6)⟩]

/-- The one store is of the whole block, so it covers the buffer. -/
theorem cover6_5 (p0 : Vec F S4000x128 .f32) (y : S4000x128.Idx) :
    ∃ pc ∈ ([⟨rB6, p0⟩] : List (View.Piece (Elt F) S4000x128 .f32)), y ∈ pc.1.set :=
  View.cover_of_tiled [⟨rB6, p0⟩] S4000x128.size (by rfl) y

/-! ## The body's triple -/

set_option maxHeartbeats 1000000 in
/-- The body on whole staging memrefs — the five inputs' at contents `x0..x4`, the output's at anything (the body
    loads the output block before overwriting all of it, so what it held does not matter) — runs to the continuation
    holding the inputs' as they were and the output's at `out6_5` of the inputs. -/
theorem sound_kernel6 (c : Dev nD) (E : Set ℕ) (i : grid6.Coords) (arg0 : Memref sig .tc .vmem S4000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S4000x128 .f32) (harg5 : arg5.IsWhole)
    (x0 : Vec F S4000x128 .f32) (x1 x2 x3 x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out6_5 x0 x1 x2 x3 x4)) -∗ K ⟨⟩))
      ⊢ wp frame (wpE (defs₀ (F := F)) Variants.none c none) E (cc6__bn_lrelu_kernel i arg0 harg0 arg1 harg1 arg2 harg2 arg3 harg3 arg4 harg4 arg5 harg5) K := by
  simp only [cc6__bn_lrelu_kernel_eq_skeleton]; unfold cc6__bn_lrelu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of the pipeline on core `c`: the arrays as the region finds them; after the body at point `t`
    each input's buffer at its block and the output's at `out6_5` of the input blocks; the invariant the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t =
    out6_5 (iblk6 V c 0 t) (iblk6 V c 1 t) (iblk6 V c 2 t) (iblk6 V c 3 t) (iblk6 V c 4 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so the body's triple applies; the invariant and
    the core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Region7.lean ====
import proofs.«154353_j88940182765819_1_alg».proof.Proof.Gen.KernelIdeal.Launch
import proofs.«154353_j88940182765819_1_alg».proof.Proof.Gen.KernelIdeal.Skeleton
import proofs.«154353_j88940182765819_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 7: the normalise-and-leaky-relu kernel on a 25-point grid of 4000-row blocks, at the entry contents `V`

Windows 0..4 are inputs: window 0 the 4000x128 row block of the activations at the grid point, windows 1..4 the
1x128 rows (scale, shift, mean, variance), the same block at every point. Window 5 is the output, the 4000x128 row
block at the grid point. The body loads each input whole, computes the normalised, shifted and leaky-rectified
block, and stores it whole. -/

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! Each input window's current staging buffer holds its block at every point — at the points where the block is
fetched and at those where it is not (the four rows are fetched at the first point only; their block index never
moves, so what the first fetch put there is still the block) — for any proof data whose array is the entry contents
and whose body leaves the block in place. -/

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- The whole 4000x128 block, and the whole 1x128 row, as rectangles: every load and the one store are of these. -/
abbrev rB7 : Rect S4000x128 := Rect.unit (s := S4000x128) ![0, 0] S4000x128.size inb_S4000x128_S4000x128_0_0
abbrev rR7 : Rect S1x128 := Rect.unit (s := S1x128) ![0, 0] S1x128.size inb_S1x128_S1x128_0_0

/-! ## What the body leaves in the output window's buffer -/

/-- The output block after the body: its one whole-block store, of the payload (the normalised, shifted,
    leaky-rectified block) over the five loaded inputs. -/
def out7_5 (x0 : Vec F S4000x128 .f32) (x1 x2 x3 x4 : Vec F S1x128 .f32) : Vec F S4000x128 .f32 :=
  View.canon [⟨rB7, k7_pay1 (View.ld x0 rB7) (View.ld x1 rR7) (View.ld x2 rR7) (View.ld x3 rR7) (View.ld x4 rR7)⟩]

/-- The one store is of the whole block, so it covers the buffer. -/
theorem cover7_5 (p0 : Vec F S4000x128 .f32) (y : S4000x128.Idx) :
    ∃ pc ∈ ([⟨rB7, p0⟩] : List (View.Piece (Elt F) S4000x128 .f32)), y ∈ pc.1.set :=
  View.cover_of_tiled [⟨rB7, p0⟩] S4000x128.size (by rfl) y

/-! ## The body's triple -/

set_option maxHeartbeats 1000000 in
/-- The body on whole staging memrefs — the five inputs' at contents `x0..x4`, the output's at anything (the body
    loads the output block before overwriting all of it, so what it held does not matter) — runs to the continuation
    holding the inputs' as they were and the output's at `out7_5` of the inputs. -/
theorem sound_kernel7 (c : Dev nD) (E : Set ℕ) (i : grid7.Coords) (arg0 : Memref sig .tc .vmem S4000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S4000x128 .f32) (harg5 : arg5.IsWhole)
    (x0 : Vec F S4000x128 .f32) (x1 x2 x3 x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out7_5 x0 x1 x2 x3 x4)) -∗ K ⟨⟩))
      ⊢ wp frame (wpE (defs₀ (F := F)) Variants.none c none) E (cc7__bn_lrelu_kernel i arg0 harg0 arg1 harg1 arg2 harg2 arg3 harg3 arg4 harg4 arg5 harg5) K := by
  simp only [cc7__bn_lrelu_kernel_eq_skeleton]; unfold cc7__bn_lrelu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The pipeline's proof data -/

/-- The proof data of the pipeline on core `c`: the arrays as the region finds them; after the body at point `t`
    each input's buffer at its block and the output's at `out7_5` of the input blocks; the invariant the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t =
    out7_5 (iblk7 V c 0 t) (iblk7 V c 1 t) (iblk7 V c 2 t) (iblk7 V c 3 t) (iblk7 V c 4 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks, so the body's triple applies; the invariant and
    the core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Region8.lean ====
import proofs.«154353_j88940182765819_1_alg».proof.Proof.Gen.KernelIdeal.Launch
import proofs.«154353_j88940182765819_1_alg».proof.Proof.Gen.KernelIdeal.Skeleton
import proofs.«154353_j88940182765819_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 8: the output head (a 128-to-4 linear map plus bias) on a 25-point grid of 4000-row blocks, at the entry contents `V`

Windows 0, 1, 2 are inputs: window 0 the 4000x128 row block of the activations at the grid point, window 1 the
128x4 weight matrix and window 2 the 1x4 bias row, the same block at every point. Window 3 is the output, the
4000x4 row block at the grid point. The body loads each input whole, multiplies the block by the weights,
adds the bias row to every row, and stores the result whole. -/

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! Each input window's current staging buffer holds its block at every point — at the points where the block is
fetched and at those where it is not (the weights and the bias are fetched at the first point only; their block
index never moves, so what the first fetch put there is still the block) — for any proof data whose array is the
entry contents and whose body leaves the block in place. -/

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The four whole blocks as rectangles: every load and the one store are of these. -/
abbrev rX8 : Rect S4000x128 := Rect.unit (s := S4000x128) ![0, 0] S4000x128.size inb_S4000x128_S4000x128_0_0
abbrev rW8 : Rect S128x4 := Rect.unit (s := S128x4) ![0, 0] S128x4.size inb_S128x4_S128x4_0_0
abbrev rb8 : Rect S1x4 := Rect.unit (s := S1x4) ![0, 0] S1x4.size inb_S1x4_S1x4_0_0
abbrev rO8 : Rect S4000x4 := Rect.unit (s := S4000x4) ![0, 0] S4000x4.size inb_S4000x4_S4000x4_0_0

/-! ## What the body leaves in the output window's buffer -/

/-- The output block after the body: its one whole-block store, of the payload (block times weights, plus the
    bias row) over the three loaded inputs. -/
def out8_3 (x0 : Vec F S4000x128 .f32) (x1 : Vec F S128x4 .f32) (x2 : Vec F S1x4 .f32) : Vec F S4000x4 .f32 :=
  View.canon [⟨rO8, k8_pay1 (View.ld x0 rX8) (View.ld x1 rW8) (View.ld x2 rb8)⟩]

/-- The one store is of the whole block, so it covers the buffer. -/
theorem cover8_3 (p0 : Vec F S4000x4 .f32) (y : S4000x4.Idx) :
    ∃ pc ∈ ([⟨rO8, p0⟩] : List (View.Piece (Elt F) S4000x4 .f32)), y ∈ pc.1.set :=
  View.cover_of_tiled [⟨rO8, p0⟩] S4000x4.size (by rfl) y

/-! ## The body's triple -/

set_option maxHeartbeats 1000000 in
/-- The body on whole staging memrefs — the three inputs' at contents `x0, x1, x2`, the output's at anything (the
    body loads the output block before overwriting all of it, so what it held does not matter) — runs to the
    continuation holding the inputs' as they were and the output's at `out8_3` of the inputs. -/
theorem sound_kernel8 (c : Dev nD) (E : Set ℕ) (i : grid8.Coords) (arg0 : Memref sig .tc .vmem S4000x128 .f32) (harg0 : arg0.IsWhole) (arg1 : Memref sig .tc .vmem S128x4 .f32) (harg1 : arg1.IsWhole) (arg2 : Memref sig .tc .vmem S1x4 .f32) (harg2 : arg2.IsWhole) (arg3 : Memref sig .tc .vmem S4000x4 .f32) (harg3 : arg3.IsWhole)
    (x0 : Vec F S4000x128 .f32) (x1 : Vec F S128x4 .f32) (x2 : Vec F S1x4 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out8_3 x0 x1 x2)) -∗ K ⟨⟩))
      ⊢ wp frame (wpE (defs₀ (F := F)) Variants.none c none) E (cc8__post_head_kernel i arg0 harg0 arg1 harg1 arg2 harg2 arg3 harg3) K := by
  simp only [cc8__post_head_kernel_eq_skeleton]; unfold cc8__post_head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The pipeline's proof data -/

/-- The proof data of the pipeline on core `c`: the arrays as the region finds them; after the body at point `t`
    each input's buffer at its block and the output's at `out8_3` of the input blocks; the invariant the scoped
    rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t =
    out8_3 (iblk8 V c 0 t) (iblk8 V c 1 t) (iblk8 V c 2 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point `t` (the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks, so the body's triple applies; the invariant and
    the core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Region9.lean ====
import proofs.«154353_j88940182765819_1_alg».proof.Proof.Gen.KernelIdeal.Launch
import proofs.«154353_j88940182765819_1_alg».proof.Proof.Gen.KernelIdeal.Skeleton
import proofs.«154353_j88940182765819_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 9: the output head (a 128-to-7 linear map plus bias) on a 25-point grid of 4000-row blocks, at the entry contents `V`

Windows 0, 1, 2 are inputs: window 0 the 4000x128 row block of the activations at the grid point, window 1 the
128x7 weight matrix and window 2 the 1x7 bias row, the same block at every point. Window 3 is the output, the
4000x7 row block at the grid point. The body loads each input whole, multiplies the block by the weights,
adds the bias row to every row, and stores the result whole. -/

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! Each input window's current staging buffer holds its block at every point — at the points where the block is
fetched and at those where it is not (the weights and the bias are fetched at the first point only; their block
index never moves, so what the first fetch put there is still the block) — for any proof data whose array is the
entry contents and whose body leaves the block in place. -/

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- The four whole blocks as rectangles: every load and the one store are of these. -/
abbrev rX9 : Rect S4000x128 := Rect.unit (s := S4000x128) ![0, 0] S4000x128.size inb_S4000x128_S4000x128_0_0
abbrev rW9 : Rect S128x7 := Rect.unit (s := S128x7) ![0, 0] S128x7.size inb_S128x7_S128x7_0_0
abbrev rb9 : Rect S1x7 := Rect.unit (s := S1x7) ![0, 0] S1x7.size inb_S1x7_S1x7_0_0
abbrev rO9 : Rect S4000x7 := Rect.unit (s := S4000x7) ![0, 0] S4000x7.size inb_S4000x7_S4000x7_0_0

/-! ## What the body leaves in the output window's buffer -/

/-- The output block after the body: its one whole-block store, of the payload (block times weights, plus the
    bias row) over the three loaded inputs. -/
def out9_3 (x0 : Vec F S4000x128 .f32) (x1 : Vec F S128x7 .f32) (x2 : Vec F S1x7 .f32) : Vec F S4000x7 .f32 :=
  View.canon [⟨rO9, k9_pay1 (View.ld x0 rX9) (View.ld x1 rW9) (View.ld x2 rb9)⟩]

/-- The one store is of the whole block, so it covers the buffer. -/
theorem cover9_3 (p0 : Vec F S4000x7 .f32) (y : S4000x7.Idx) :
    ∃ pc ∈ ([⟨rO9, p0⟩] : List (View.Piece (Elt F) S4000x7 .f32)), y ∈ pc.1.set :=
  View.cover_of_tiled [⟨rO9, p0⟩] S4000x7.size (by rfl) y

/-! ## The body's triple -/

set_option maxHeartbeats 1000000 in
/-- The body on whole staging memrefs — the three inputs' at contents `x0, x1, x2`, the output's at anything (the
    body loads the output block before overwriting all of it, so what it held does not matter) — runs to the
    continuation holding the inputs' as they were and the output's at `out9_3` of the inputs. -/
theorem sound_kernel9 (c : Dev nD) (E : Set ℕ) (i : grid9.Coords) (arg0 : Memref sig .tc .vmem S4000x128 .f32) (harg0 : arg0.IsWhole) (arg1 : Memref sig .tc .vmem S128x7 .f32) (harg1 : arg1.IsWhole) (arg2 : Memref sig .tc .vmem S1x7 .f32) (harg2 : arg2.IsWhole) (arg3 : Memref sig .tc .vmem S4000x7 .f32) (harg3 : arg3.IsWhole)
    (x0 : Vec F S4000x128 .f32) (x1 : Vec F S128x7 .f32) (x2 : Vec F S1x7 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out9_3 x0 x1 x2)) -∗ K ⟨⟩))
      ⊢ wp frame (wpE (defs₀ (F := F)) Variants.none c none) E (cc9__post_head_kernel i arg0 harg0 arg1 harg1 arg2 harg2 arg3 harg3) K := by
  simp only [cc9__post_head_kernel_eq_skeleton]; unfold cc9__post_head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The proof data of the pipeline on core `c`: the arrays as the region finds them; after the body at point `t`
    each input's buffer at its block and the output's at `out9_3` of the input blocks; the invariant the scoped
    rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t =
    out9_3 (iblk9 V c 0 t) (iblk9 V c 1 t) (iblk9 V c 2 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t` (the windows one by one), -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' memrefs hold their blocks, so the body's triple applies; the invariant and
    the core's debts pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Fold.lean ====
/-
  The run of the whole program as a chain of twenty items: ten stretches of host operations and ten kernel regions.
  Between two items every unscoped buffer of a core is held whole at a known contents: the launch memory, then each
  host stretch applied (`StableHlo.after`), then, across a region, the arrays of its windows replaced by what its
  write-backs leave (`Dat.arrAt … N`) and every other buffer kept. Each region's proof data is taken at the contents
  the region is entered from; a region's record joins its body obligation to that thread state. The conclusion: every
  weakly fair execution ends, and the final memory holds each unscoped buffer at the last contents of this fold — from
  which the frame (an argument is written by no item) and the results' values are read.
-/
import proofs.«154353_j88940182765819_1_alg».proof.Proof.KI.Region0
import proofs.«154353_j88940182765819_1_alg».proof.Proof.KI.Region1
import proofs.«154353_j88940182765819_1_alg».proof.Proof.KI.Region2
import proofs.«154353_j88940182765819_1_alg».proof.Proof.KI.Region3
import proofs.«154353_j88940182765819_1_alg».proof.Proof.KI.Region4
import proofs.«154353_j88940182765819_1_alg».proof.Proof.KI.Region5
import proofs.«154353_j88940182765819_1_alg».proof.Proof.KI.Region6
import proofs.«154353_j88940182765819_1_alg».proof.Proof.KI.Region7
import proofs.«154353_j88940182765819_1_alg».proof.Proof.KI.Region8
import proofs.«154353_j88940182765819_1_alg».proof.Proof.KI.Region9
import proofs.«154353_j88940182765819_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/

/-- Core `c`'s buffers at launch. -/
abbrev W0 : Dev nD → Valuation τ sig (Elt F) := fun c b => m (c, b)

/-! ### Item 0 (host stretch 0) and item 1 (region 0) -/

/-- After host stretch 0: what region 0 is entered from. -/
abbrev W1 : Dev nD → Valuation τ sig (Elt F) := fun c => StableHlo.after hostOps0 (W0 m c)
/-- The same contents read at the TensorCore's references (the parameter of region 0's proof data). -/
abbrev E1 : (c : Dev nD) → (b : Ref sig .tc) → Buf (Elt F) ((c : Thread nD τ).loc b) := fun c b => W1 m c b
/-- After region 0: its windows' arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- A host stretch changes only the buffers its operations write. -/
theorem W1_keep (c : Dev nD) (r : Ref sig .tc) (h : r ∉ hostOps0_W) : W1 m c r = W0 m c r :=
  StableHlo.after_of_writes_sub hostOps0 _ hostOps0_writes h
/-- Region 0 changes only its output windows' arrays: an input window's array is written back by no point. -/
theorem W2_keep (c : Dev nD) (b : Ref sig .tc) (hb : b ∉ ([main_v51_0, main_v51_1, main_v51_2] : List (Ref sig .tc))) :
    W2 m c (Proc.devRef .tc b) = W1 m c (Proc.devRef .tc b) := by
  by_cases h : ∃ w, Pipeline.arrRef spec0 w = b
  · obtain ⟨w, rfl⟩ := h
    rw [W2_arr]
    fin_cases w <;> first
      | exact ((dat0 (E1 m) c).arrAt_in _ rfl _).trans (A_eq0 (E1 m) c _)
      | exact absurd (by decide) hb
  · exact W2_of_ne m c b fun w e => h ⟨w, e⟩

/-! ### Item 2 (host stretch 1) and item 3 (region 1) -/

/-- After host stretch 1: what region 1 is entered from. -/
abbrev W3 : Dev nD → Valuation τ sig (Elt F) := fun c => StableHlo.after hostOps1 (W2 m c)
/-- The same contents read at the TensorCore's references (the parameter of region 1's proof data). -/
abbrev E3 : (c : Dev nD) → (b : Ref sig .tc) → Buf (Elt F) ((c : Thread nD τ).loc b) := fun c b => W3 m c b
/-- After region 1: its windows' arrays at what the pipeline leaves, every other buffer as entered. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)
/-- A host stretch changes only the buffers its operations write. -/
theorem W3_keep (c : Dev nD) (r : Ref sig .tc) (h : r ∉ hostOps1_W) : W3 m c r = W2 m c r :=
  StableHlo.after_of_writes_sub hostOps1 _ hostOps1_writes h
/-- Region 1 changes only its output windows' arrays: an input window's array is written back by no point. -/
theorem W4_keep (c : Dev nD) (b : Ref sig .tc) (hb : b ∉ ([main_v57_0, main_v57_1, main_v57_2] : List (Ref sig .tc))) :
    W4 m c (Proc.devRef .tc b) = W3 m c (Proc.devRef .tc b) := by
  by_cases h : ∃ w, Pipeline.arrRef spec1 w = b
  · obtain ⟨w, rfl⟩ := h
    rw [W4_arr]
    fin_cases w <;> first
      | exact ((dat1 (E3 m) c).arrAt_in _ rfl _).trans (A_eq1 (E3 m) c _)
      | exact absurd (by decide) hb
  · exact W4_of_ne m c b fun w e => h ⟨w, e⟩

/-! ### Item 4 (host stretch 2) and item 5 (region 2) -/

/-- After host stretch 2: what region 2 is entered from. -/
abbrev W5 : Dev nD → Valuation τ sig (Elt F) := fun c => StableHlo.after hostOps2 (W4 m c)
/-- The same contents read at the TensorCore's references (the parameter of region 2's proof data). -/
abbrev E5 : (c : Dev nD) → (b : Ref sig .tc) → Buf (Elt F) ((c : Thread nD τ).loc b) := fun c b => W5 m c b
/-- After region 2: its windows' arrays at what the pipeline leaves, every other buffer as entered. -/
def W6 (c : Dev nD) : Valuation τ sig (Elt F) :=
  Pipeline.withArrays spec2 c (W5 m c) fun w => (dat2 (E5 m) c).arrAt w cfg2.N
theorem W6_arr (c : Dev nD) (w : Fin cfg2.W) :
    W6 m c (Proc.devRef .tc (Pipeline.arrRef spec2 w)) = (dat2 (E5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev E6 : (c : Dev nD) → (b : Ref sig .tc) → Buf (Elt F) ((c : Thread nD τ).loc b) := fun c b => W6 m c b
theorem hF2 (c : Dev nD) (w : Fin cfg2.W) : (dat2 (E5 m) c).arrAt w cfg2.N = E6 m c (Pipeline.arrRef spec2 w) :=
  (W6_arr m c w).symm
theorem hrest2 (c : Dev nD) : ∀ b, b ∉ Finset.univ.image (Pipeline.arrRef spec2) → E6 m c b = E5 m c b :=
  fun b hb => W6_of_ne m c b fun w e => hb (Finset.mem_image.mpr ⟨w, Finset.mem_univ _, e⟩)
/-- A host stretch changes only the buffers its operations write. -/
theorem W5_keep (c : Dev nD) (r : Ref sig .tc) (h : r ∉ hostOps2_W) : W5 m c r = W4 m c r :=
  StableHlo.after_of_writes_sub hostOps2 _ hostOps2_writes h
/-- Region 2 changes only its output windows' arrays: an input window's array is written back by no point. -/
theorem W6_keep (c : Dev nD) (b : Ref sig .tc) (hb : b ∉ ([main_v76] : List (Ref sig .tc))) :
    W6 m c (Proc.devRef .tc b) = W5 m c (Proc.devRef .tc b) := by
  by_cases h : ∃ w, Pipeline.arrRef spec2 w = b
  · obtain ⟨w, rfl⟩ := h
    rw [W6_arr]
    fin_cases w <;> first
      | exact ((dat2 (E5 m) c).arrAt_in _ rfl _).trans (A_eq2 (E5 m) c _)
      | exact absurd (by decide) hb
  · exact W6_of_ne m c b fun w e => h ⟨w, e⟩

/-! ### Item 6 (host stretch 3) and item 7 (region 3) -/

/-- After host stretch 3: what region 3 is entered from. -/
abbrev W7 : Dev nD → Valuation τ sig (Elt F) := fun c => StableHlo.after hostOps3 (W6 m c)
/-- The same contents read at the TensorCore's references (the parameter of region 3's proof data). -/
abbrev E7 : (c : Dev nD) → (b : Ref sig .tc) → Buf (Elt F) ((c : Thread nD τ).loc b) := fun c b => W7 m c b
/-- After region 3: its windows' arrays at what the pipeline leaves, every other buffer as entered. -/
def W8 (c : Dev nD) : Valuation τ sig (Elt F) :=
  Pipeline.withArrays spec3 c (W7 m c) fun w => (dat3 (E7 m) c).arrAt w cfg3.N
theorem W8_arr (c : Dev nD) (w : Fin cfg3.W) :
    W8 m c (Proc.devRef .tc (Pipeline.arrRef spec3 w)) = (dat3 (E7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev E8 : (c : Dev nD) → (b : Ref sig .tc) → Buf (Elt F) ((c : Thread nD τ).loc b) := fun c b => W8 m c b
theorem hF3 (c : Dev nD) (w : Fin cfg3.W) : (dat3 (E7 m) c).arrAt w cfg3.N = E8 m c (Pipeline.arrRef spec3 w) :=
  (W8_arr m c w).symm
theorem hrest3 (c : Dev nD) : ∀ b, b ∉ Finset.univ.image (Pipeline.arrRef spec3) → E8 m c b = E7 m c b :=
  fun b hb => W8_of_ne m c b fun w e => hb (Finset.mem_image.mpr ⟨w, Finset.mem_univ _, e⟩)
/-- A host stretch changes only the buffers its operations write. -/
theorem W7_keep (c : Dev nD) (r : Ref sig .tc) (h : r ∉ hostOps3_W) : W7 m c r = W6 m c r :=
  StableHlo.after_of_writes_sub hostOps3 _ hostOps3_writes h
/-- Region 3 changes only its output windows' arrays: an input window's array is written back by no point. -/
theorem W8_keep (c : Dev nD) (b : Ref sig .tc) (hb : b ∉ ([main_v79] : List (Ref sig .tc))) :
    W8 m c (Proc.devRef .tc b) = W7 m c (Proc.devRef .tc b) := by
  by_cases h : ∃ w, Pipeline.arrRef spec3 w = b
  · obtain ⟨w, rfl⟩ := h
    rw [W8_arr]
    fin_cases w <;> first
      | exact ((dat3 (E7 m) c).arrAt_in _ rfl _).trans (A_eq3 (E7 m) c _)
      | exact absurd (by decide) hb
  · exact W8_of_ne m c b fun w e => h ⟨w, e⟩

/-! ### Item 8 (host stretch 4) and item 9 (region 4) -/

/-- After host stretch 4: what region 4 is entered from. -/
abbrev W9 : Dev nD → Valuation τ sig (Elt F) := fun c => StableHlo.after hostOps4 (W8 m c)
/-- The same contents read at the TensorCore's references (the parameter of region 4's proof data). -/
abbrev E9 : (c : Dev nD) → (b : Ref sig .tc) → Buf (Elt F) ((c : Thread nD τ).loc b) := fun c b => W9 m c b
/-- After region 4: its windows' arrays at what the pipeline leaves, every other buffer as entered. -/
def W10 (c : Dev nD) : Valuation τ sig (Elt F) :=
  Pipeline.withArrays spec4 c (W9 m c) fun w => (dat4 (E9 m) c).arrAt w cfg4.N
theorem W10_arr (c : Dev nD) (w : Fin cfg4.W) :
    W10 m c (Proc.devRef .tc (Pipeline.arrRef spec4 w)) = (dat4 (E9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev E10 : (c : Dev nD) → (b : Ref sig .tc) → Buf (Elt F) ((c : Thread nD τ).loc b) := fun c b => W10 m c b
theorem hF4 (c : Dev nD) (w : Fin cfg4.W) : (dat4 (E9 m) c).arrAt w cfg4.N = E10 m c (Pipeline.arrRef spec4 w) :=
  (W10_arr m c w).symm
theorem hrest4 (c : Dev nD) : ∀ b, b ∉ Finset.univ.image (Pipeline.arrRef spec4) → E10 m c b = E9 m c b :=
  fun b hb => W10_of_ne m c b fun w e => hb (Finset.mem_image.mpr ⟨w, Finset.mem_univ _, e⟩)
/-- A host stretch changes only the buffers its operations write. -/
theorem W9_keep (c : Dev nD) (r : Ref sig .tc) (h : r ∉ hostOps4_W) : W9 m c r = W8 m c r :=
  StableHlo.after_of_writes_sub hostOps4 _ hostOps4_writes h
/-- Region 4 changes only its output windows' arrays: an input window's array is written back by no point. -/
theorem W10_keep (c : Dev nD) (b : Ref sig .tc) (hb : b ∉ ([main_v123_0, main_v123_1, main_v123_2] : List (Ref sig .tc))) :
    W10 m c (Proc.devRef .tc b) = W9 m c (Proc.devRef .tc b) := by
  by_cases h : ∃ w, Pipeline.arrRef spec4 w = b
  · obtain ⟨w, rfl⟩ := h
    rw [W10_arr]
    fin_cases w <;> first
      | exact ((dat4 (E9 m) c).arrAt_in _ rfl _).trans (A_eq4 (E9 m) c _)
      | exact absurd (by decide) hb
  · exact W10_of_ne m c b fun w e => h ⟨w, e⟩

/-! ### Item 10 (host stretch 5) and item 11 (region 5) -/

/-- After host stretch 5: what region 5 is entered from. -/
abbrev W11 : Dev nD → Valuation τ sig (Elt F) := fun c => StableHlo.after hostOps5 (W10 m c)
/-- The same contents read at the TensorCore's references (the parameter of region 5's proof data). -/
abbrev E11 : (c : Dev nD) → (b : Ref sig .tc) → Buf (Elt F) ((c : Thread nD τ).loc b) := fun c b => W11 m c b
/-- After region 5: its windows' arrays at what the pipeline leaves, every other buffer as entered. -/
def W12 (c : Dev nD) : Valuation τ sig (Elt F) :=
  Pipeline.withArrays spec5 c (W11 m c) fun w => (dat5 (E11 m) c).arrAt w cfg5.N
theorem W12_arr (c : Dev nD) (w : Fin cfg5.W) :
    W12 m c (Proc.devRef .tc (Pipeline.arrRef spec5 w)) = (dat5 (E11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev E12 : (c : Dev nD) → (b : Ref sig .tc) → Buf (Elt F) ((c : Thread nD τ).loc b) := fun c b => W12 m c b
theorem hF5 (c : Dev nD) (w : Fin cfg5.W) : (dat5 (E11 m) c).arrAt w cfg5.N = E12 m c (Pipeline.arrRef spec5 w) :=
  (W12_arr m c w).symm
theorem hrest5 (c : Dev nD) : ∀ b, b ∉ Finset.univ.image (Pipeline.arrRef spec5) → E12 m c b = E11 m c b :=
  fun b hb => W12_of_ne m c b fun w e => hb (Finset.mem_image.mpr ⟨w, Finset.mem_univ _, e⟩)
/-- A host stretch changes only the buffers its operations write. -/
theorem W11_keep (c : Dev nD) (r : Ref sig .tc) (h : r ∉ hostOps5_W) : W11 m c r = W10 m c r :=
  StableHlo.after_of_writes_sub hostOps5 _ hostOps5_writes h
/-- Region 5 changes only its output windows' arrays: an input window's array is written back by no point. -/
theorem W12_keep (c : Dev nD) (b : Ref sig .tc) (hb : b ∉ ([main_v129_0, main_v129_1, main_v129_2] : List (Ref sig .tc))) :
    W12 m c (Proc.devRef .tc b) = W11 m c (Proc.devRef .tc b) := by
  by_cases h : ∃ w, Pipeline.arrRef spec5 w = b
  · obtain ⟨w, rfl⟩ := h
    rw [W12_arr]
    fin_cases w <;> first
      | exact ((dat5 (E11 m) c).arrAt_in _ rfl _).trans (A_eq5 (E11 m) c _)
      | exact absurd (by decide) hb
  · exact W12_of_ne m c b fun w e => h ⟨w, e⟩

/-! ### Item 12 (host stretch 6) and item 13 (region 6) -/

/-- After host stretch 6: what region 6 is entered from. -/
abbrev W13 : Dev nD → Valuation τ sig (Elt F) := fun c => StableHlo.after hostOps6 (W12 m c)
/-- The same contents read at the TensorCore's references (the parameter of region 6's proof data). -/
abbrev E13 : (c : Dev nD) → (b : Ref sig .tc) → Buf (Elt F) ((c : Thread nD τ).loc b) := fun c b => W13 m c b
/-- After region 6: its windows' arrays at what the pipeline leaves, every other buffer as entered. -/
def W14 (c : Dev nD) : Valuation τ sig (Elt F) :=
  Pipeline.withArrays spec6 c (W13 m c) fun w => (dat6 (E13 m) c).arrAt w cfg6.N
theorem W14_arr (c : Dev nD) (w : Fin cfg6.W) :
    W14 m c (Proc.devRef .tc (Pipeline.arrRef spec6 w)) = (dat6 (E13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
abbrev E14 : (c : Dev nD) → (b : Ref sig .tc) → Buf (Elt F) ((c : Thread nD τ).loc b) := fun c b => W14 m c b
theorem hF6 (c : Dev nD) (w : Fin cfg6.W) : (dat6 (E13 m) c).arrAt w cfg6.N = E14 m c (Pipeline.arrRef spec6 w) :=
  (W14_arr m c w).symm
theorem hrest6 (c : Dev nD) : ∀ b, b ∉ Finset.univ.image (Pipeline.arrRef spec6) → E14 m c b = E13 m c b :=
  fun b hb => W14_of_ne m c b fun w e => hb (Finset.mem_image.mpr ⟨w, Finset.mem_univ _, e⟩)
/-- A host stretch changes only the buffers its operations write. -/
theorem W13_keep (c : Dev nD) (r : Ref sig .tc) (h : r ∉ hostOps6_W) : W13 m c r = W12 m c r :=
  StableHlo.after_of_writes_sub hostOps6 _ hostOps6_writes h
/-- Region 6 changes only its output windows' arrays: an input window's array is written back by no point. -/
theorem W14_keep (c : Dev nD) (b : Ref sig .tc) (hb : b ∉ ([main_v148] : List (Ref sig .tc))) :
    W14 m c (Proc.devRef .tc b) = W13 m c (Proc.devRef .tc b) := by
  by_cases h : ∃ w, Pipeline.arrRef spec6 w = b
  · obtain ⟨w, rfl⟩ := h
    rw [W14_arr]
    fin_cases w <;> first
      | exact ((dat6 (E13 m) c).arrAt_in _ rfl _).trans (A_eq6 (E13 m) c _)
      | exact absurd (by decide) hb
  · exact W14_of_ne m c b fun w e => h ⟨w, e⟩

/-! ### Item 14 (host stretch 7) and item 15 (region 7) -/

/-- After host stretch 7: what region 7 is entered from. -/
abbrev W15 : Dev nD → Valuation τ sig (Elt F) := fun c => StableHlo.after hostOps7 (W14 m c)
/-- The same contents read at the TensorCore's references (the parameter of region 7's proof data). -/
abbrev E15 : (c : Dev nD) → (b : Ref sig .tc) → Buf (Elt F) ((c : Thread nD τ).loc b) := fun c b => W15 m c b
/-- After region 7: its windows' arrays at what the pipeline leaves, every other buffer as entered. -/
def W16 (c : Dev nD) : Valuation τ sig (Elt F) :=
  Pipeline.withArrays spec7 c (W15 m c) fun w => (dat7 (E15 m) c).arrAt w cfg7.N
theorem W16_arr (c : Dev nD) (w : Fin cfg7.W) :
    W16 m c (Proc.devRef .tc (Pipeline.arrRef spec7 w)) = (dat7 (E15 m) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m c (Proc.devRef .tc b) = W15 m c (Proc.devRef .tc b) := by
  unfold W16; exact Pipeline.withArrays_of_ne spec7 c _ _ b hb
abbrev E16 : (c : Dev nD) → (b : Ref sig .tc) → Buf (Elt F) ((c : Thread nD τ).loc b) := fun c b => W16 m c b
theorem hF7 (c : Dev nD) (w : Fin cfg7.W) : (dat7 (E15 m) c).arrAt w cfg7.N = E16 m c (Pipeline.arrRef spec7 w) :=
  (W16_arr m c w).symm
theorem hrest7 (c : Dev nD) : ∀ b, b ∉ Finset.univ.image (Pipeline.arrRef spec7) → E16 m c b = E15 m c b :=
  fun b hb => W16_of_ne m c b fun w e => hb (Finset.mem_image.mpr ⟨w, Finset.mem_univ _, e⟩)
/-- A host stretch changes only the buffers its operations write. -/
theorem W15_keep (c : Dev nD) (r : Ref sig .tc) (h : r ∉ hostOps7_W) : W15 m c r = W14 m c r :=
  StableHlo.after_of_writes_sub hostOps7 _ hostOps7_writes h
/-- Region 7 changes only its output windows' arrays: an input window's array is written back by no point. -/
theorem W16_keep (c : Dev nD) (b : Ref sig .tc) (hb : b ∉ ([main_v151] : List (Ref sig .tc))) :
    W16 m c (Proc.devRef .tc b) = W15 m c (Proc.devRef .tc b) := by
  by_cases h : ∃ w, Pipeline.arrRef spec7 w = b
  · obtain ⟨w, rfl⟩ := h
    rw [W16_arr]
    fin_cases w <;> first
      | exact ((dat7 (E15 m) c).arrAt_in _ rfl _).trans (A_eq7 (E15 m) c _)
      | exact absurd (by decide) hb
  · exact W16_of_ne m c b fun w e => h ⟨w, e⟩

/-! ### Item 16 (host stretch 8) and item 17 (region 8) -/

/-- After host stretch 8: what region 8 is entered from. -/
abbrev W17 : Dev nD → Valuation τ sig (Elt F) := fun c => StableHlo.after hostOps8 (W16 m c)
/-- The same contents read at the TensorCore's references (the parameter of region 8's proof data). -/
abbrev E17 : (c : Dev nD) → (b : Ref sig .tc) → Buf (Elt F) ((c : Thread nD τ).loc b) := fun c b => W17 m c b
/-- After region 8: its windows' arrays at what the pipeline leaves, every other buffer as entered. -/
def W18 (c : Dev nD) : Valuation τ sig (Elt F) :=
  Pipeline.withArrays spec8 c (W17 m c) fun w => (dat8 (E17 m) c).arrAt w cfg8.N
theorem W18_arr (c : Dev nD) (w : Fin cfg8.W) :
    W18 m c (Proc.devRef .tc (Pipeline.arrRef spec8 w)) = (dat8 (E17 m) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m c (Proc.devRef .tc b) = W17 m c (Proc.devRef .tc b) := by
  unfold W18; exact Pipeline.withArrays_of_ne spec8 c _ _ b hb
abbrev E18 : (c : Dev nD) → (b : Ref sig .tc) → Buf (Elt F) ((c : Thread nD τ).loc b) := fun c b => W18 m c b
theorem hF8 (c : Dev nD) (w : Fin cfg8.W) : (dat8 (E17 m) c).arrAt w cfg8.N = E18 m c (Pipeline.arrRef spec8 w) :=
  (W18_arr m c w).symm
theorem hrest8 (c : Dev nD) : ∀ b, b ∉ Finset.univ.image (Pipeline.arrRef spec8) → E18 m c b = E17 m c b :=
  fun b hb => W18_of_ne m c b fun w e => hb (Finset.mem_image.mpr ⟨w, Finset.mem_univ _, e⟩)
/-- A host stretch changes only the buffers its operations write. -/
theorem W17_keep (c : Dev nD) (r : Ref sig .tc) (h : r ∉ hostOps8_W) : W17 m c r = W16 m c r :=
  StableHlo.after_of_writes_sub hostOps8 _ hostOps8_writes h
/-- Region 8 changes only its output windows' arrays: an input window's array is written back by no point. -/
theorem W18_keep (c : Dev nD) (b : Ref sig .tc) (hb : b ∉ ([main_v153] : List (Ref sig .tc))) :
    W18 m c (Proc.devRef .tc b) = W17 m c (Proc.devRef .tc b) := by
  by_cases h : ∃ w, Pipeline.arrRef spec8 w = b
  · obtain ⟨w, rfl⟩ := h
    rw [W18_arr]
    fin_cases w <;> first
      | exact ((dat8 (E17 m) c).arrAt_in _ rfl _).trans (A_eq8 (E17 m) c _)
      | exact absurd (by decide) hb
  · exact W18_of_ne m c b fun w e => h ⟨w, e⟩

/-! ### Item 18 (host stretch 9) and item 19 (region 9) -/

/-- After host stretch 9: what region 9 is entered from. -/
abbrev W19 : Dev nD → Valuation τ sig (Elt F) := fun c => StableHlo.after hostOps9 (W18 m c)
/-- The same contents read at the TensorCore's references (the parameter of region 9's proof data). -/
abbrev E19 : (c : Dev nD) → (b : Ref sig .tc) → Buf (Elt F) ((c : Thread nD τ).loc b) := fun c b => W19 m c b
/-- After region 9: its windows' arrays at what the pipeline leaves, every other buffer as entered. -/
def W20 (c : Dev nD) : Valuation τ sig (Elt F) :=
  Pipeline.withArrays spec9 c (W19 m c) fun w => (dat9 (E19 m) c).arrAt w cfg9.N
theorem W20_arr (c : Dev nD) (w : Fin cfg9.W) :
    W20 m c (Proc.devRef .tc (Pipeline.arrRef spec9 w)) = (dat9 (E19 m) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m c (Proc.devRef .tc b) = W19 m c (Proc.devRef .tc b) := by
  unfold W20; exact Pipeline.withArrays_of_ne spec9 c _ _ b hb
abbrev E20 : (c : Dev nD) → (b : Ref sig .tc) → Buf (Elt F) ((c : Thread nD τ).loc b) := fun c b => W20 m c b
theorem hF9 (c : Dev nD) (w : Fin cfg9.W) : (dat9 (E19 m) c).arrAt w cfg9.N = E20 m c (Pipeline.arrRef spec9 w) :=
  (W20_arr m c w).symm
theorem hrest9 (c : Dev nD) : ∀ b, b ∉ Finset.univ.image (Pipeline.arrRef spec9) → E20 m c b = E19 m c b :=
  fun b hb => W20_of_ne m c b fun w e => hb (Finset.mem_image.mpr ⟨w, Finset.mem_univ _, e⟩)
/-- A host stretch changes only the buffers its operations write. -/
theorem W19_keep (c : Dev nD) (r : Ref sig .tc) (h : r ∉ hostOps9_W) : W19 m c r = W18 m c r :=
  StableHlo.after_of_writes_sub hostOps9 _ hostOps9_writes h
/-- Region 9 changes only its output windows' arrays: an input window's array is written back by no point. -/
theorem W20_keep (c : Dev nD) (b : Ref sig .tc) (hb : b ∉ ([main_v155] : List (Ref sig .tc))) :
    W20 m c (Proc.devRef .tc b) = W19 m c (Proc.devRef .tc b) := by
  by_cases h : ∃ w, Pipeline.arrRef spec9 w = b
  · obtain ⟨w, rfl⟩ := h
    rw [W20_arr]
    fin_cases w <;> first
      | exact ((dat9 (E19 m) c).arrAt_in _ rfl _).trans (A_eq9 (E19 m) c _)
      | exact absurd (by decide) hb
  · exact W20_of_ne m c b fun w e => h ⟨w, e⟩

/-! ## A buffer no item writes ends as launched -/

theorem W20_of_untouched (c : Dev nD) (r : Ref sig .tc)
    (h1 : r ∉ hostOps0_W) (h2 : r ∉ ([main_v51_0, main_v51_1, main_v51_2] : List (Ref sig .tc)))
    (h3 : r ∉ hostOps1_W) (h4 : r ∉ ([main_v57_0, main_v57_1, main_v57_2] : List (Ref sig .tc)))
    (h5 : r ∉ hostOps2_W) (h6 : r ∉ ([main_v76] : List (Ref sig .tc)))
    (h7 : r ∉ hostOps3_W) (h8 : r ∉ ([main_v79] : List (Ref sig .tc)))
    (h9 : r ∉ hostOps4_W) (h10 : r ∉ ([main_v123_0, main_v123_1, main_v123_2] : List (Ref sig .tc)))
    (h11 : r ∉ hostOps5_W) (h12 : r ∉ ([main_v129_0, main_v129_1, main_v129_2] : List (Ref sig .tc)))
    (h13 : r ∉ hostOps6_W) (h14 : r ∉ ([main_v148] : List (Ref sig .tc)))
    (h15 : r ∉ hostOps7_W) (h16 : r ∉ ([main_v151] : List (Ref sig .tc)))
    (h17 : r ∉ hostOps8_W) (h18 : r ∉ ([main_v153] : List (Ref sig .tc)))
    (h19 : r ∉ hostOps9_W) (h20 : r ∉ ([main_v155] : List (Ref sig .tc)))
    : W20 m c (Proc.devRef .tc r) = m ((c : Thread nD τ).loc r) :=
  (W20_keep m c r h20).trans <| (W19_keep m c r h19).trans <| (W18_keep m c r h18).trans <| (W17_keep m c r h17).trans <| (W16_keep m c r h16).trans <| (W15_keep m c r h15).trans <| (W14_keep m c r h14).trans <| (W13_keep m c r h13).trans <| (W12_keep m c r h12).trans <| (W11_keep m c r h11).trans <| (W10_keep m c r h10).trans <| (W9_keep m c r h9).trans <| (W8_keep m c r h8).trans <| (W7_keep m c r h7).trans <| (W6_keep m c r h6).trans <| (W5_keep m c r h5).trans <| (W4_keep m c r h4).trans <| (W3_keep m c r h3).trans <| (W2_keep m c r h2).trans <| (W1_keep m c r h1)

/-! ## The proof data family and the thread state -/

/-- No pipeline has a prefetched table. -/
abbrev admH : (p : Fin 10) → (pcfgs (F := F) p).Adm := fun p => (cfgs p).toPCfg_adm
/-- Every pipeline's proof data, each at the contents its region is entered from: a literal match on the pipeline's number. -/
def pdatsH : (p : Fin 10) → (c : Dev nD) → Dat τ (Elt F) Unit ℕ (UR sig nD τ) ℕ (Pipeline.pin (pcfgs (F := F)) admH p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c
  | ⟨6, _⟩ => fun c => dat6 (E13 m) c
  | ⟨7, _⟩ => fun c => dat7 (E15 m) c
  | ⟨8, _⟩ => fun c => dat8 (E17 m) c
  | ⟨9, _⟩ => fun c => dat9 (E19 m) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every item: the core's generator register at some state and its dues, none. -/
abbrev RH (c : Dev nD) : sProp 𝕄 := iprop((∃ r, prngReg c r) ∗ ∃ W, owes (c : Thread nD τ) (0 : CellTallies nD τ sig Unit) W)
/-- A host stretch as a segment over the unscoped references from the contents `W`, `RH` riding along. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev TH (c : Dev nD) : sProp 𝕄 := iprop(StableHlo.held (c : Thread nD τ) (Pipeline.ucRefs τ sig) (W20 m c) ∗ ∃ r, prngReg c r)

end Cert.KernelIdeal.Hand

end
-- ==== Proof.KI.Seg0.lean ====
/- Region 0 as a segment of the run: the record that joins its body obligation to the thread state between items. -/
import proofs.«154353_j88940182765819_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 0 over the thread state: entered with every unscoped buffer at `W1`, left with them at `W2`. Its windows'
    arrays are split out of the unscoped buffers and put back at the exit contents; the generator register goes into the
    region's invariant and comes back; nothing is owed; the kernel has no semaphore of its own. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (admH (F := F) 0).1 ∗ Pipeline.scopedRest (Pipeline.pin (pcfgs (F := F)) admH 0).spec c)
        ⊢ (Pipeline.ΦA spec0 c : sProp 𝕄) := by
      unfold Pipeline.ΦA
      iintro ⟨Hp, -, Hr⟩
      isplitl [Hr]; · iexact Hr
      iexact Hp
    exact h.trans (hin0 (E1 m) c)
  hout c := by
    rw [Pipeline.ownSems0_none]
    have h : (Pipeline.ΦA spec0 c : sProp 𝕄)
        ⊢ iprop((∃ r, prngReg c r) ∗ BI.emp ∗ Pipeline.scopedRest (Pipeline.pin (pcfgs (F := F)) admH 0).spec c) := by
      unfold Pipeline.ΦA
      iintro ⟨Hr, Hp⟩
      isplitl [Hp]; · iexact Hp
      isplitr; · iempintro
      iexact Hr
    exact (hout0 (E1 m) c).trans h
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (E1 m c) (E2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
/- Region 1 as a segment of the run: the record that joins its body obligation to the thread state between items. -/
import proofs.«154353_j88940182765819_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 1 over the thread state: entered with every unscoped buffer at `W3`, left with them at `W4`. Its windows'
    arrays are split out of the unscoped buffers and put back at the exit contents; the generator register goes into the
    region's invariant and comes back; nothing is owed; the kernel has no semaphore of its own. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (admH (F := F) 1).1 ∗ Pipeline.scopedRest (Pipeline.pin (pcfgs (F := F)) admH 1).spec c)
        ⊢ (Pipeline.ΦA spec1 c : sProp 𝕄) := by
      unfold Pipeline.ΦA
      iintro ⟨Hp, -, Hr⟩
      isplitl [Hr]; · iexact Hr
      iexact Hp
    exact h.trans (hin1 (E3 m) c)
  hout c := by
    rw [Pipeline.ownSems0_none]
    have h : (Pipeline.ΦA spec1 c : sProp 𝕄)
        ⊢ iprop((∃ r, prngReg c r) ∗ BI.emp ∗ Pipeline.scopedRest (Pipeline.pin (pcfgs (F := F)) admH 1).spec c) := by
      unfold Pipeline.ΦA
      iintro ⟨Hr, Hp⟩
      isplitl [Hp]; · iexact Hp
      isplitr; · iempintro
      iexact Hr
    exact (hout1 (E3 m) c).trans h
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (E3 m c) (E4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
/- Region 2 as a segment of the run: the record that joins its body obligation to the thread state between items. -/
import proofs.«154353_j88940182765819_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 2 over the thread state: entered with every unscoped buffer at `W5`, left with them at `W6`. Its windows'
    arrays are split out of the unscoped buffers and put back at the exit contents; the generator register goes into the
    region's invariant and comes back; nothing is owed; the kernel has no semaphore of its own. -/
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ LH lvH 2 fun _ _ => rfl
  pre c := iprop(StableHlo.held (c : Thread nD τ) (Pipeline.ucRefs τ sig) (W5 m c) ∗ RH c)
  post c := iprop(StableHlo.held (c : Thread nD τ) (Pipeline.ucRefs τ sig) (W6 m c) ∗ RH c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (E5 m c) (E6 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
/- Region 3 as a segment of the run: the record that joins its body obligation to the thread state between items. -/
import proofs.«154353_j88940182765819_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 3 over the thread state: entered with every unscoped buffer at `W7`, left with them at `W8`. Its windows'
    arrays are split out of the unscoped buffers and put back at the exit contents; the generator register goes into the
    region's invariant and comes back; nothing is owed; the kernel has no semaphore of its own. -/
def reg3 : Pipeline.RegionSeg (pcfgs (F := F)) admH (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ LH lvH 3 fun _ _ => rfl
  pre c := iprop(StableHlo.held (c : Thread nD τ) (Pipeline.ucRefs τ sig) (W7 m c) ∗ RH c)
  post c := iprop(StableHlo.held (c : Thread nD τ) (Pipeline.ucRefs τ sig) (W8 m c) ∗ RH c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (E7 m c) (E8 m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
/- Region 4 as a segment of the run: the record that joins its body obligation to the thread state between items. -/
import proofs.«154353_j88940182765819_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 4 over the thread state: entered with every unscoped buffer at `W9`, left with them at `W10`. Its windows'
    arrays are split out of the unscoped buffers and put back at the exit contents; the generator register goes into the
    region's invariant and comes back; nothing is owed; the kernel has no semaphore of its own. -/
def reg4 : Pipeline.RegionSeg (pcfgs (F := F)) admH (pdatsH m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (E9 m) c).loose
  hwaits := Pipeline.hwaits_of_owed_zero _ _ _ _ LH lvH 4 fun _ _ => rfl
  pre c := iprop(StableHlo.held (c : Thread nD τ) (Pipeline.ucRefs τ sig) (W9 m c) ∗ RH c)
  post c := iprop(StableHlo.held (c : Thread nD τ) (Pipeline.ucRefs τ sig) (W10 m c) ∗ RH c)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit := Pipeline.arrays_of_unscopedBufs (p := 4) (pcfgs (F := F)) admH (pdatsH m) launch4.win launch4.arr_whole c
      ((pdatsH m 4 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 4).pre c (fun _ => fullShare) (admH (F := F) 4).1 ∗ Pipeline.scopedRest (Pipeline.pin (pcfgs (F := F)) admH 4).spec c)
        ⊢ (Pipeline.ΦA spec4 c : sProp 𝕄) := by
      unfold Pipeline.ΦA
      iintro ⟨Hp, -, Hr⟩
      isplitl [Hr]; · iexact Hr
      iexact Hp
    exact h.trans (hin4 (E9 m) c)
  hout c := by
    rw [Pipeline.ownSems0_none]
    have h : (Pipeline.ΦA spec4 c : sProp 𝕄)
        ⊢ iprop((∃ r, prngReg c r) ∗ BI.emp ∗ Pipeline.scopedRest (Pipeline.pin (pcfgs (F := F)) admH 4).spec c) := by
      unfold Pipeline.ΦA
      iintro ⟨Hr, Hp⟩
      isplitl [Hp]; · iexact Hp
      isplitr; · iempintro
      iexact Hr
    exact (hout4 (E9 m) c).trans h
  hexit c := by
    have hjoin := Pipeline.unscopedBufs_of_arrays (p := 4) (pcfgs (F := F)) admH (Ix := Unit) (Name := ℕ) (U := UR sig nD τ) (Lvl := ℕ)
      launch4.win launch4.arr_whole c (pdatsH m) ((pdatsH m 4 c).share_full fun _ => rfl)
      (E9 m c) (E10 m c) ((pdatsH m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg5.lean ====
/- Region 5 as a segment of the run: the record that joins its body obligation to the thread state between items. -/
import proofs.«154353_j88940182765819_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 5 over the thread state: entered with every unscoped buffer at `W11`, left with them at `W12`. Its windows'
    arrays are split out of the unscoped buffers and put back at the exit contents; the generator register goes into the
    region's invariant and comes back; nothing is owed; the kernel has no semaphore of its own. -/
def reg5 : Pipeline.RegionSeg (pcfgs (F := F)) admH (pdatsH m) () defs₀ 𝒱H LH lvH 5 where
  win := launch5.win.to₀
  block_pos := launch5.block_pos
  stage_whole := launch5.stage_whole
  K := PEmpty
  osem k := k.elim
  ho := Pipeline.OwnSemFacts.none _
  hbody c := (body_obligation5 (E11 m) c).loose
  hwaits := Pipeline.hwaits_of_owed_zero _ _ _ _ LH lvH 5 fun _ _ => rfl
  pre c := iprop(StableHlo.held (c : Thread nD τ) (Pipeline.ucRefs τ sig) (W11 m c) ∗ RH c)
  post c := iprop(StableHlo.held (c : Thread nD τ) (Pipeline.ucRefs τ sig) (W12 m c) ∗ RH c)
  X c := iprop(∃ r, prngReg c r)
  Y c := iprop(∃ r, prngReg c r)
  Z c := Pipeline.unscopedRest (Ix := Unit) (Name := ℕ) (U := UR sig nD τ) (Lvl := ℕ) spec5 c (E11 m c)
  hentry c := by
    rw [Pipeline.ownSems0_none]
    have hsplit := Pipeline.arrays_of_unscopedBufs (p := 5) (pcfgs (F := F)) admH (pdatsH m) launch5.win launch5.arr_whole c
      ((pdatsH m 5 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 5).pre c (fun _ => fullShare) (admH (F := F) 5).1 ∗ Pipeline.scopedRest (Pipeline.pin (pcfgs (F := F)) admH 5).spec c)
        ⊢ (Pipeline.ΦA spec5 c : sProp 𝕄) := by
      unfold Pipeline.ΦA
      iintro ⟨Hp, -, Hr⟩
      isplitl [Hr]; · iexact Hr
      iexact Hp
    exact h.trans (hin5 (E11 m) c)
  hout c := by
    rw [Pipeline.ownSems0_none]
    have h : (Pipeline.ΦA spec5 c : sProp 𝕄)
        ⊢ iprop((∃ r, prngReg c r) ∗ BI.emp ∗ Pipeline.scopedRest (Pipeline.pin (pcfgs (F := F)) admH 5).spec c) := by
      unfold Pipeline.ΦA
      iintro ⟨Hr, Hp⟩
      isplitl [Hp]; · iexact Hp
      isplitr; · iempintro
      iexact Hr
    exact (hout5 (E11 m) c).trans h
  hexit c := by
    have hjoin := Pipeline.unscopedBufs_of_arrays (p := 5) (pcfgs (F := F)) admH (Ix := Unit) (Name := ℕ) (U := UR sig nD τ) (Lvl := ℕ)
      launch5.win launch5.arr_whole c (pdatsH m) ((pdatsH m 5 c).share_full fun _ => rfl)
      (E11 m c) (E12 m c) ((pdatsH m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg6.lean ====
/- Region 6 as a segment of the run: the record that joins its body obligation to the thread state between items. -/
import proofs.«154353_j88940182765819_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 6 over the thread state: entered with every unscoped buffer at `W13`, left with them at `W14`. Its windows'
    arrays are split out of the unscoped buffers and put back at the exit contents; the generator register goes into the
    region's invariant and comes back; nothing is owed; the kernel has no semaphore of its own. -/
def reg6 : Pipeline.RegionSeg (pcfgs (F := F)) admH (pdatsH m) () defs₀ 𝒱H LH lvH 6 where
  win := launch6.win.to₀
  block_pos := launch6.block_pos
  stage_whole := launch6.stage_whole
  K := PEmpty
  osem k := k.elim
  ho := Pipeline.OwnSemFacts.none _
  hbody c := (body_obligation6 (E13 m) c).loose
  hwaits := Pipeline.hwaits_of_owed_zero _ _ _ _ LH lvH 6 fun _ _ => rfl
  pre c := iprop(StableHlo.held (c : Thread nD τ) (Pipeline.ucRefs τ sig) (W13 m c) ∗ RH c)
  post c := iprop(StableHlo.held (c : Thread nD τ) (Pipeline.ucRefs τ sig) (W14 m c) ∗ RH c)
  X c := iprop(∃ r, prngReg c r)
  Y c := iprop(∃ r, prngReg c r)
  Z c := Pipeline.unscopedRest (Ix := Unit) (Name := ℕ) (U := UR sig nD τ) (Lvl := ℕ) spec6 c (E13 m c)
  hentry c := by
    rw [Pipeline.ownSems0_none]
    have hsplit := Pipeline.arrays_of_unscopedBufs (p := 6) (pcfgs (F := F)) admH (pdatsH m) launch6.win launch6.arr_whole c
      ((pdatsH m 6 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdatsH m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admH (Ix := Unit) (Name := ℕ) (U := UR sig nD τ) (Lvl := ℕ)
      launch6.win launch6.arr_whole c (pdatsH m) ((pdatsH m 6 c).share_full fun _ => rfl)
      (E13 m c) (E14 m c) ((pdatsH m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg7.lean ====
/- Region 7 as a segment of the run: the record that joins its body obligation to the thread state between items. -/
import proofs.«154353_j88940182765819_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 7 over the thread state: entered with every unscoped buffer at `W15`, left with them at `W16`. Its windows'
    arrays are split out of the unscoped buffers and put back at the exit contents; the generator register goes into the
    region's invariant and comes back; nothing is owed; the kernel has no semaphore of its own. -/
def reg7 : Pipeline.RegionSeg (pcfgs (F := F)) admH (pdatsH m) () defs₀ 𝒱H LH lvH 7 where
  win := launch7.win.to₀
  block_pos := launch7.block_pos
  stage_whole := launch7.stage_whole
  K := PEmpty
  osem k := k.elim
  ho := Pipeline.OwnSemFacts.none _
  hbody c := (body_obligation7 (E15 m) c).loose
  hwaits := Pipeline.hwaits_of_owed_zero _ _ _ _ LH lvH 7 fun _ _ => rfl
  pre c := iprop(StableHlo.held (c : Thread nD τ) (Pipeline.ucRefs τ sig) (W15 m c) ∗ RH c)
  post c := iprop(StableHlo.held (c : Thread nD τ) (Pipeline.ucRefs τ sig) (W16 m c) ∗ RH c)
  X c := iprop(∃ r, prngReg c r)
  Y c := iprop(∃ r, prngReg c r)
  Z c := Pipeline.unscopedRest (Ix := Unit) (Name := ℕ) (U := UR sig nD τ) (Lvl := ℕ) spec7 c (E15 m c)
  hentry c := by
    rw [Pipeline.ownSems0_none]
    have hsplit := Pipeline.arrays_of_unscopedBufs (p := 7) (pcfgs (F := F)) admH (pdatsH m) launch7.win launch7.arr_whole c
      ((pdatsH m 7 c).share_full fun _ => rfl) (E15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdatsH m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admH (Ix := Unit) (Name := ℕ) (U := UR sig nD τ) (Lvl := ℕ)
      launch7.win launch7.arr_whole c (pdatsH m) ((pdatsH m 7 c).share_full fun _ => rfl)
      (E15 m c) (E16 m c) ((pdatsH m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg8.lean ====
/- Region 8 as a segment of the run: the record that joins its body obligation to the thread state between items. -/
import proofs.«154353_j88940182765819_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 8 over the thread state: entered with every unscoped buffer at `W17`, left with them at `W18`. Its windows'
    arrays are split out of the unscoped buffers and put back at the exit contents; the generator register goes into the
    region's invariant and comes back; nothing is owed; the kernel has no semaphore of its own. -/
def reg8 : Pipeline.RegionSeg (pcfgs (F := F)) admH (pdatsH m) () defs₀ 𝒱H LH lvH 8 where
  win := launch8.win.to₀
  block_pos := launch8.block_pos
  stage_whole := launch8.stage_whole
  K := PEmpty
  osem k := k.elim
  ho := Pipeline.OwnSemFacts.none _
  hbody c := (body_obligation8 (E17 m) c).loose
  hwaits := Pipeline.hwaits_of_owed_zero _ _ _ _ LH lvH 8 fun _ _ => rfl
  pre c := iprop(StableHlo.held (c : Thread nD τ) (Pipeline.ucRefs τ sig) (W17 m c) ∗ RH c)
  post c := iprop(StableHlo.held (c : Thread nD τ) (Pipeline.ucRefs τ sig) (W18 m c) ∗ RH c)
  X c := iprop(∃ r, prngReg c r)
  Y c := iprop(∃ r, prngReg c r)
  Z c := Pipeline.unscopedRest (Ix := Unit) (Name := ℕ) (U := UR sig nD τ) (Lvl := ℕ) spec8 c (E17 m c)
  hentry c := by
    rw [Pipeline.ownSems0_none]
    have hsplit := Pipeline.arrays_of_unscopedBufs (p := 8) (pcfgs (F := F)) admH (pdatsH m) launch8.win launch8.arr_whole c
      ((pdatsH m 8 c).share_full fun _ => rfl) (E17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdatsH m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) admH (Ix := Unit) (Name := ℕ) (U := UR sig nD τ) (Lvl := ℕ)
      launch8.win launch8.arr_whole c (pdatsH m) ((pdatsH m 8 c).share_full fun _ => rfl)
      (E17 m c) (E18 m c) ((pdatsH m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg9.lean ====
/- Region 9 as a segment of the run: the record that joins its body obligation to the thread state between items. -/
import proofs.«154353_j88940182765819_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 9 over the thread state: entered with every unscoped buffer at `W19`, left with them at `W20`. Its windows'
    arrays are split out of the unscoped buffers and put back at the exit contents; the generator register goes into the
    region's invariant and comes back; nothing is owed; the kernel has no semaphore of its own. -/
def reg9 : Pipeline.RegionSeg (pcfgs (F := F)) admH (pdatsH m) () defs₀ 𝒱H LH lvH 9 where
  win := launch9.win.to₀
  block_pos := launch9.block_pos
  stage_whole := launch9.stage_whole
  K := PEmpty
  osem k := k.elim
  ho := Pipeline.OwnSemFacts.none _
  hbody c := (body_obligation9 (E19 m) c).loose
  hwaits := Pipeline.hwaits_of_owed_zero _ _ _ _ LH lvH 9 fun _ _ => rfl
  pre c := iprop(StableHlo.held (c : Thread nD τ) (Pipeline.ucRefs τ sig) (W19 m c) ∗ RH c)
  post c := iprop(TH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec9 c (E19 m c)
  hentry c := by
    rw [Pipeline.ownSems0_none]
    have hsplit := Pipeline.arrays_of_unscopedBufs (p := 9) (pcfgs (F := F)) admH (pdatsH m) launch9.win launch9.arr_whole c
      ((pdatsH m 9 c).share_full fun _ => rfl) (E19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdatsH m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) admH (Ix := Unit) (Name := ℕ) (U := UR sig nD τ) (Lvl := ℕ)
      launch9.win launch9.arr_whole c (pdatsH m) ((pdatsH m 9 c).share_full fun _ => rfl)
      (E19 m c) (E20 m c) ((pdatsH m 9 c).arrAt · cfg9.N) (hF9 m c) (hrest9 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KI.Run.lean ====
/- The run assembled: the twenty items in order, the launch, and what the final memory holds. -/
import proofs.«154353_j88940182765819_1_alg».proof.Proof.KI.Seg0
import proofs.«154353_j88940182765819_1_alg».proof.Proof.KI.Seg1
import proofs.«154353_j88940182765819_1_alg».proof.Proof.KI.Seg2
import proofs.«154353_j88940182765819_1_alg».proof.Proof.KI.Seg3
import proofs.«154353_j88940182765819_1_alg».proof.Proof.KI.Seg4
import proofs.«154353_j88940182765819_1_alg».proof.Proof.KI.Seg5
import proofs.«154353_j88940182765819_1_alg».proof.Proof.KI.Seg6
import proofs.«154353_j88940182765819_1_alg».proof.Proof.KI.Seg7
import proofs.«154353_j88940182765819_1_alg».proof.Proof.KI.Seg8
import proofs.«154353_j88940182765819_1_alg».proof.Proof.KI.Seg9

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program as segments, and the run -/

/-- The twenty items in order. -/
abbrev segsH : List (Pipeline.Seg (pcfgs (F := F)) admH (pdatsH m) () defs₀ 𝒱H LH lvH) :=
  [ .host (hsegH hostOps0 hostOps0_sub hostOps0_fresh (W0 m)),
    .region (reg0 m),
    .host (hsegH hostOps1 hostOps1_sub hostOps1_fresh (W2 m)),
    .region (reg1 m),
    .host (hsegH hostOps2 hostOps2_sub hostOps2_fresh (W4 m)),
    .region (reg2 m),
    .host (hsegH hostOps3 hostOps3_sub hostOps3_fresh (W6 m)),
    .region (reg3 m),
    .host (hsegH hostOps4 hostOps4_sub hostOps4_fresh (W8 m)),
    .region (reg4 m),
    .host (hsegH hostOps5 hostOps5_sub hostOps5_fresh (W10 m)),
    .region (reg5 m),
    .host (hsegH hostOps6 hostOps6_sub hostOps6_fresh (W12 m)),
    .region (reg6 m),
    .host (hsegH hostOps7 hostOps7_sub hostOps7_fresh (W14 m)),
    .region (reg7 m),
    .host (hsegH hostOps8 hostOps8_sub hostOps8_fresh (W16 m)),
    .region (reg8 m),
    .host (hsegH hostOps9 hostOps9_sub hostOps9_fresh (W18 m)),
    .region (reg9 m) ]
/-- The program is the run of its items. -/
theorem main_runH (c : Dev nD) : main (F := F) c = Pipeline.Seg.run (segsH m) := (main_chain c).trans (by chain_rfl)

set_option backward.isDefEq.respectTransparency.types false in
/-- THE RUN. From any memory with zero counters every weakly fair execution of the program on the TensorCores terminates,
    nothing faulting, and any property of the final memory that follows from "every unscoped buffer of every core holds
    the last contents `W20`" holds of it. -/
theorem run_all {Q : PUnit × MemSt nD τ sig (Elt F) → Prop}
    (hQ : ∀ s : MemSt nD τ sig (Elt F), (∀ c : Dev nD, ∀ b ∈ Pipeline.ucRefs τ sig, s.mem (((c : Thread nD τ)).1, b) = W20 m c b) → Q (⟨⟩, s)) :
    θ_run defs (onTc (τ := τ) (main (F := F))) ⟨m, fun _ => 0, ρ⟩ Q :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TH m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m c b)
    (hfin := fun c s' => by
      iintro ⟨⟨Hh, -⟩, HSI⟩
      unfold StableHlo.held
      imodintro
      iapply (pointsTo_read_all (Pipeline.ucRefs τ sig) (fun b => (((c : Thread nD τ)).1, b)) (W20 m c) s')
      isplitl [Hh] <;> iassumption)
    (hQ := hQ)

/-! ## The frame -/

theorem W20_main_arg0 (c : Dev nD) : W20 m c (Proc.devRef .tc main_arg0) = m ((c : Thread nD τ).loc main_arg0) :=
  W20_of_untouched m c main_arg0 (by decide) (by decide) (by decide) (by decide) (by decide) (by decide) (by decide) (by decide) (by decide) (by decide) (by decide) (by decide) (by decide) (by decide) (by decide) (by decide) (by decide) (by decide) (by decide) (by decide)
theorem W20_main_arg1 (c : Dev nD) : W20 m c (Proc.devRef .tc main_arg1) = m ((c : Thread nD τ).loc main_arg1) :=
  W20_of_untouched m c main_arg1 (by decide) (by decide) (by decide) (by decide) (by decide) (by decide) (by decide) (by decide) (by decide) (by decide) (by decide) (by decide) (by decide) (by decide) (by decide) (by decide) (by decide) (by decide) (by decide) (by decide)
theorem W20_main_arg2 (c : Dev nD) : W20 m c (Proc.devRef .tc main_arg2) = m ((c : Thread nD τ).loc main_arg2) :=
  W20_of_untouched m c main_arg2 (by decide) (by decide) (by decide) (by decide) (by decide) (by decide) (by decide) (by decide) (by decide) (by decide) (by decide) (by decide) (by decide) (by decide) (by decide) (by decide) (by decide) (by decide) (by decide) (by decide)
theorem W20_main_arg3 (c : Dev nD) : W20 m c (Proc.devRef .tc main_arg3) = m ((c : Thread nD τ).loc main_arg3) :=
  W20_of_untouched m c main_arg3 (by decide) (by decide) (by decide) (by decide) (by decide) (by decide) (by decide) (by decide) (by decide) (by decide) (by decide) (by decide) (by decide) (by decide) (by decide) (by decide) (by decide) (by decide) (by decide) (by decide)
theorem W20_main_arg4 (c : Dev nD) : W20 m c (Proc.devRef .tc main_arg4) = m ((c : Thread nD τ).loc main_arg4) :=
  W20_of_untouched m c main_arg4 (by decide) (by decide) (by decide) (by decide) (by decide) (by decide) (by decide) (by decide) (by decide) (by decide) (by decide) (by decide) (by decide) (by decide) (by decide) (by decide) (by decide) (by decide) (by decide) (by decide)
theorem W20_main_arg5 (c : Dev nD) : W20 m c (Proc.devRef .tc main_arg5) = m ((c : Thread nD τ).loc main_arg5) :=
  W20_of_untouched m c main_arg5 (by decide) (by decide) (by decide) (by decide) (by decide) (by decide) (by decide) (by decide) (by decide) (by decide) (by decide) (by decide) (by decide) (by decide) (by decide) (by decide) (by decide) (by decide) (by decide) (by decide)
theorem W20_main_arg6 (c : Dev nD) : W20 m c (Proc.devRef .tc main_arg6) = m ((c : Thread nD τ).loc main_arg6) :=
  W20_of_untouched m c main_arg6 (by decide) (by decide) (by decide) (by decide) (by decide) (by decide) (by decide) (by decide) (by decide) (by decide) (by decide) (by decide) (by decide) (by decide) (by decide) (by decide) (by decide) (by decide) (by decide) (by decide)
theorem W20_main_arg7 (c : Dev nD) : W20 m c (Proc.devRef .tc main_arg7) = m ((c : Thread nD τ).loc main_arg7) :=
  W20_of_untouched m c main_arg7 (by decide) (by decide) (by decide) (by decide) (by decide) (by decide) (by decide) (by decide) (by decide) (by decide) (by decide) (by decide) (by decide) (by decide) (by decide) (by decide) (by decide) (by decide) (by decide) (by decide)
theorem W20_main_arg8 (c : Dev nD) : W20 m c (Proc.devRef .tc main_arg8) = m ((c : Thread nD τ).loc main_arg8) :=
  W20_of_untouched m c main_arg8 (by decide) (by decide) (by decide) (by decide) (by decide) (by decide) (by decide) (by decide) (by decide) (by decide) (by decide) (by decide) (by decide) (by decide) (by decide) (by decide) (by decide) (by decide) (by decide) (by decide)
theorem W20_main_arg9 (c : Dev nD) : W20 m c (Proc.devRef .tc main_arg9) = m ((c : Thread nD τ).loc main_arg9) :=
  W20_of_untouched m c main_arg9 (by decide) (by decide) (by decide) (by decide) (by decide) (by decide) (by decide) (by decide) (by decide) (by decide) (by decide) (by decide) (by decide) (by decide) (by decide) (by decide) (by decide) (by decide) (by decide) (by decide)
theorem W20_main_arg10 (c : Dev nD) : W20 m c (Proc.devRef .tc main_arg10) = m ((c : Thread nD τ).loc main_arg10) :=
  W20_of_untouched m c main_arg10 (by decide) (by decide) (by decide) (by decide) (by decide) (by decide) (by decide) (by decide) (by decide) (by decide) (by decide) (by decide) (by decide) (by decide) (by decide) (by decide) (by decide) (by decide) (by decide) (by decide)
theorem W20_main_arg11 (c : Dev nD) : W20 m c (Proc.devRef .tc main_arg11) = m ((c : Thread nD τ).loc main_arg11) :=
  W20_of_untouched m c main_arg11 (by decide) (by decide) (by decide) (by decide) (by decide) (by decide) (by decide) (by decide) (by decide) (by decide) (by decide) (by decide) (by decide) (by decide) (by decide) (by decide) (by decide) (by decide) (by decide) (by decide)
theorem W20_main_arg12 (c : Dev nD) : W20 m c (Proc.devRef .tc main_arg12) = m ((c : Thread nD τ).loc main_arg12) :=
  W20_of_untouched m c main_arg12 (by decide) (by decide) (by decide) (by decide) (by decide) (by decide) (by decide) (by decide) (by decide) (by decide) (by decide) (by decide) (by decide) (by decide) (by decide) (by decide) (by decide) (by decide) (by decide) (by decide)
theorem W20_main_arg13 (c : Dev nD) : W20 m c (Proc.devRef .tc main_arg13) = m ((c : Thread nD τ).loc main_arg13) :=
  W20_of_untouched m c main_arg13 (by decide) (by decide) (by decide) (by decide) (by decide) (by decide) (by decide) (by decide) (by decide) (by decide) (by decide) (by decide) (by decide) (by decide) (by decide) (by decide) (by decide) (by decide) (by decide) (by decide)
theorem W20_main_arg14 (c : Dev nD) : W20 m c (Proc.devRef .tc main_arg14) = m ((c : Thread nD τ).loc main_arg14) :=
  W20_of_untouched m c main_arg14 (by decide) (by decide) (by decide) (by decide) (by decide) (by decide) (by decide) (by decide) (by decide) (by decide) (by decide) (by decide) (by decide) (by decide) (by decide) (by decide) (by decide) (by decide) (by decide) (by decide)
theorem W20_main_arg15 (c : Dev nD) : W20 m c (Proc.devRef .tc main_arg15) = m ((c : Thread nD τ).loc main_arg15) :=
  W20_of_untouched m c main_arg15 (by decide) (by decide) (by decide) (by decide) (by decide) (by decide) (by decide) (by decide) (by decide) (by decide) (by decide) (by decide) (by decide) (by decide) (by decide) (by decide) (by decide) (by decide) (by decide) (by decide)
theorem W20_main_arg16 (c : Dev nD) : W20 m c (Proc.devRef .tc main_arg16) = m ((c : Thread nD τ).loc main_arg16) :=
  W20_of_untouched m c main_arg16 (by decide) (by decide) (by decide) (by decide) (by decide) (by decide) (by decide) (by decide) (by decide) (by decide) (by decide) (by decide) (by decide) (by decide) (by decide) (by decide) (by decide) (by decide) (by decide) (by decide)
theorem W20_main_arg17 (c : Dev nD) : W20 m c (Proc.devRef .tc main_arg17) = m ((c : Thread nD τ).loc main_arg17) :=
  W20_of_untouched m c main_arg17 (by decide) (by decide) (by decide) (by decide) (by decide) (by decide) (by decide) (by decide) (by decide) (by decide) (by decide) (by decide) (by decide) (by decide) (by decide) (by decide) (by decide) (by decide) (by decide) (by decide)
theorem W20_main_arg18 (c : Dev nD) : W20 m c (Proc.devRef .tc main_arg18) = m ((c : Thread nD τ).loc main_arg18) :=
  W20_of_untouched m c main_arg18 (by decide) (by decide) (by decide) (by decide) (by decide) (by decide) (by decide) (by decide) (by decide) (by decide) (by decide) (by decide) (by decide) (by decide) (by decide) (by decide) (by decide) (by decide) (by decide) (by decide)
theorem W20_main_arg19 (c : Dev nD) : W20 m c (Proc.devRef .tc main_arg19) = m ((c : Thread nD τ).loc main_arg19) :=
  W20_of_untouched m c main_arg19 (by decide) (by decide) (by decide) (by decide) (by decide) (by decide) (by decide) (by decide) (by decide) (by decide) (by decide) (by decide) (by decide) (by decide) (by decide) (by decide) (by decide) (by decide) (by decide) (by decide)
theorem W20_main_arg20 (c : Dev nD) : W20 m c (Proc.devRef .tc main_arg20) = m ((c : Thread nD τ).loc main_arg20) :=
  W20_of_untouched m c main_arg20 (by decide) (by decide) (by decide) (by decide) (by decide) (by decide) (by decide) (by decide) (by decide) (by decide) (by decide) (by decide) (by decide) (by decide) (by decide) (by decide) (by decide) (by decide) (by decide) (by decide)
theorem W20_main_arg21 (c : Dev nD) : W20 m c (Proc.devRef .tc main_arg21) = m ((c : Thread nD τ).loc main_arg21) :=
  W20_of_untouched m c main_arg21 (by decide) (by decide) (by decide) (by decide) (by decide) (by decide) (by decide) (by decide) (by decide) (by decide) (by decide) (by decide) (by decide) (by decide) (by decide) (by decide) (by decide) (by decide) (by decide) (by decide)
theorem W20_main_arg22 (c : Dev nD) : W20 m c (Proc.devRef .tc main_arg22) = m ((c : Thread nD τ).loc main_arg22) :=
  W20_of_untouched m c main_arg22 (by decide) (by decide) (by decide) (by decide) (by decide) (by decide) (by decide) (by decide) (by decide) (by decide) (by decide) (by decide) (by decide) (by decide) (by decide) (by decide) (by decide) (by decide) (by decide) (by decide)
theorem W20_main_arg23 (c : Dev nD) : W20 m c (Proc.devRef .tc main_arg23) = m ((c : Thread nD τ).loc main_arg23) :=
  W20_of_untouched m c main_arg23 (by decide) (by decide) (by decide) (by decide) (by decide) (by decide) (by decide) (by decide) (by decide) (by decide) (by decide) (by decide) (by decide) (by decide) (by decide) (by decide) (by decide) (by decide) (by decide) (by decide)
theorem W20_main_arg24 (c : Dev nD) : W20 m c (Proc.devRef .tc main_arg24) = m ((c : Thread nD τ).loc main_arg24) :=
  W20_of_untouched m c main_arg24 (by decide) (by decide) (by decide) (by decide) (by decide) (by decide) (by decide) (by decide) (by decide) (by decide) (by decide) (by decide) (by decide) (by decide) (by decide) (by decide) (by decide) (by decide) (by decide) (by decide)
theorem W20_main_arg25 (c : Dev nD) : W20 m c (Proc.devRef .tc main_arg25) = m ((c : Thread nD τ).loc main_arg25) :=
  W20_of_untouched m c main_arg25 (by decide) (by decide) (by decide) (by decide) (by decide) (by decide) (by decide) (by decide) (by decide) (by decide) (by decide) (by decide) (by decide) (by decide) (by decide) (by decide) (by decide) (by decide) (by decide) (by decide)
theorem W20_main_arg26 (c : Dev nD) : W20 m c (Proc.devRef .tc main_arg26) = m ((c : Thread nD τ).loc main_arg26) :=
  W20_of_untouched m c main_arg26 (by decide) (by decide) (by decide) (by decide) (by decide) (by decide) (by decide) (by decide) (by decide) (by decide) (by decide) (by decide) (by decide) (by decide) (by decide) (by decide) (by decide) (by decide) (by decide) (by decide)
theorem W20_main_arg27 (c : Dev nD) : W20 m c (Proc.devRef .tc main_arg27) = m ((c : Thread nD τ).loc main_arg27) :=
  W20_of_untouched m c main_arg27 (by decide) (by decide) (by decide) (by decide) (by decide) (by decide) (by decide) (by decide) (by decide) (by decide) (by decide) (by decide) (by decide) (by decide) (by decide) (by decide) (by decide) (by decide) (by decide) (by decide)
theorem W20_main_arg28 (c : Dev nD) : W20 m c (Proc.devRef .tc main_arg28) = m ((c : Thread nD τ).loc main_arg28) :=
  W20_of_untouched m c main_arg28 (by decide) (by decide) (by decide) (by decide) (by decide) (by decide) (by decide) (by decide) (by decide) (by decide) (by decide) (by decide) (by decide) (by decide) (by decide) (by decide) (by decide) (by decide) (by decide) (by decide)
theorem W20_main_arg29 (c : Dev nD) : W20 m c (Proc.devRef .tc main_arg29) = m ((c : Thread nD τ).loc main_arg29) :=
  W20_of_untouched m c main_arg29 (by decide) (by decide) (by decide) (by decide) (by decide) (by decide) (by decide) (by decide) (by decide) (by decide) (by decide) (by decide) (by decide) (by decide) (by decide) (by decide) (by decide) (by decide) (by decide) (by decide)
theorem W20_main_arg30 (c : Dev nD) : W20 m c (Proc.devRef .tc main_arg30) = m ((c : Thread nD τ).loc main_arg30) :=
  W20_of_untouched m c main_arg30 (by decide) (by decide) (by decide) (by decide) (by decide) (by decide) (by decide) (by decide) (by decide) (by decide) (by decide) (by decide) (by decide) (by decide) (by decide) (by decide) (by decide) (by decide) (by decide) (by decide)
theorem W20_main_arg31 (c : Dev nD) : W20 m c (Proc.devRef .tc main_arg31) = m ((c : Thread nD τ).loc main_arg31) :=
  W20_of_untouched m c main_arg31 (by decide) (by decide) (by decide) (by decide) (by decide) (by decide) (by decide) (by decide) (by decide) (by decide) (by decide) (by decide) (by decide) (by decide) (by decide) (by decide) (by decide) (by decide) (by decide) (by decide)
theorem W20_main_arg32 (c : Dev nD) : W20 m c (Proc.devRef .tc main_arg32) = m ((c : Thread nD τ).loc main_arg32) :=
  W20_of_untouched m c main_arg32 (by decide) (by decide) (by decide) (by decide) (by decide) (by decide) (by decide) (by decide) (by decide) (by decide) (by decide) (by decide) (by decide) (by decide) (by decide) (by decide) (by decide) (by decide) (by decide) (by decide)
theorem W20_main_arg33 (c : Dev nD) : W20 m c (Proc.devRef .tc main_arg33) = m ((c : Thread nD τ).loc main_arg33) :=
  W20_of_untouched m c main_arg33 (by decide) (by decide) (by decide) (by decide) (by decide) (by decide) (by decide) (by decide) (by decide) (by decide) (by decide) (by decide) (by decide) (by decide) (by decide) (by decide) (by decide) (by decide) (by decide) (by decide)
theorem W20_main_arg34 (c : Dev nD) : W20 m c (Proc.devRef .tc main_arg34) = m ((c : Thread nD τ).loc main_arg34) :=
  W20_of_untouched m c main_arg34 (by decide) (by decide) (by decide) (by decide) (by decide) (by decide) (by decide) (by decide) (by decide) (by decide) (by decide) (by decide) (by decide) (by decide) (by decide) (by decide) (by decide) (by decide) (by decide) (by decide)
theorem W20_main_arg35 (c : Dev nD) : W20 m c (Proc.devRef .tc main_arg35) = m ((c : Thread nD τ).loc main_arg35) :=
  W20_of_untouched m c main_arg35 (by decide) (by decide) (by decide) (by decide) (by decide) (by decide) (by decide) (by decide) (by decide) (by decide) (by decide) (by decide) (by decide) (by decide) (by decide) (by decide) (by decide) (by decide) (by decide) (by decide)
theorem W20_main_arg36 (c : Dev nD) : W20 m c (Proc.devRef .tc main_arg36) = m ((c : Thread nD τ).loc main_arg36) :=
  W20_of_untouched m c main_arg36 (by decide) (by decide) (by decide) (by decide) (by decide) (by decide) (by decide) (by decide) (by decide) (by decide) (by decide) (by decide) (by decide) (by decide) (by decide) (by decide) (by decide) (by decide) (by decide) (by decide)
theorem W20_main_arg37 (c : Dev nD) : W20 m c (Proc.devRef .tc main_arg37) = m ((c : Thread nD τ).loc main_arg37) :=
  W20_of_untouched m c main_arg37 (by decide) (by decide) (by decide) (by decide) (by decide) (by decide) (by decide) (by decide) (by decide) (by decide) (by decide) (by decide) (by decide) (by decide) (by decide) (by decide) (by decide) (by decide) (by decide) (by decide)
theorem W20_main_arg38 (c : Dev nD) : W20 m c (Proc.devRef .tc main_arg38) = m ((c : Thread nD τ).loc main_arg38) :=
  W20_of_untouched m c main_arg38 (by decide) (by decide) (by decide) (by decide) (by decide) (by decide) (by decide) (by decide) (by decide) (by decide) (by decide) (by decide) (by decide) (by decide) (by decide) (by decide) (by decide) (by decide) (by decide) (by decide)
theorem W20_main_arg39 (c : Dev nD) : W20 m c (Proc.devRef .tc main_arg39) = m ((c : Thread nD τ).loc main_arg39) :=
  W20_of_untouched m c main_arg39 (by decide) (by decide) (by decide) (by decide) (by decide) (by decide) (by decide) (by decide) (by decide) (by decide) (by decide) (by decide) (by decide) (by decide) (by decide) (by decide) (by decide) (by decide) (by decide) (by decide)

/-- Every weakly fair execution terminates, nothing faulting, and every argument array ends as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)) :=
  run_all m ρ (fun s h c =>
    ⟨(h c _ (mem_ucH main_arg0 (by decide))).trans (W20_main_arg0 m c),
     (h c _ (mem_ucH main_arg1 (by decide))).trans (W20_main_arg1 m c),
     (h c _ (mem_ucH main_arg2 (by decide))).trans (W20_main_arg2 m c),
     (h c _ (mem_ucH main_arg3 (by decide))).trans (W20_main_arg3 m c),
     (h c _ (mem_ucH main_arg4 (by decide))).trans (W20_main_arg4 m c),
     (h c _ (mem_ucH main_arg5 (by decide))).trans (W20_main_arg5 m c),
     (h c _ (mem_ucH main_arg6 (by decide))).trans (W20_main_arg6 m c),
     (h c _ (mem_ucH main_arg7 (by decide))).trans (W20_main_arg7 m c),
     (h c _ (mem_ucH main_arg8 (by decide))).trans (W20_main_arg8 m c),
     (h c _ (mem_ucH main_arg9 (by decide))).trans (W20_main_arg9 m c),
     (h c _ (mem_ucH main_arg10 (by decide))).trans (W20_main_arg10 m c),
     (h c _ (mem_ucH main_arg11 (by decide))).trans (W20_main_arg11 m c),
     (h c _ (mem_ucH main_arg12 (by decide))).trans (W20_main_arg12 m c),
     (h c _ (mem_ucH main_arg13 (by decide))).trans (W20_main_arg13 m c),
     (h c _ (mem_ucH main_arg14 (by decide))).trans (W20_main_arg14 m c),
     (h c _ (mem_ucH main_arg15 (by decide))).trans (W20_main_arg15 m c),
     (h c _ (mem_ucH main_arg16 (by decide))).trans (W20_main_arg16 m c),
     (h c _ (mem_ucH main_arg17 (by decide))).trans (W20_main_arg17 m c),
     (h c _ (mem_ucH main_arg18 (by decide))).trans (W20_main_arg18 m c),
     (h c _ (mem_ucH main_arg19 (by decide))).trans (W20_main_arg19 m c),
     (h c _ (mem_ucH main_arg20 (by decide))).trans (W20_main_arg20 m c),
     (h c _ (mem_ucH main_arg21 (by decide))).trans (W20_main_arg21 m c),
     (h c _ (mem_ucH main_arg22 (by decide))).trans (W20_main_arg22 m c),
     (h c _ (mem_ucH main_arg23 (by decide))).trans (W20_main_arg23 m c),
     (h c _ (mem_ucH main_arg24 (by decide))).trans (W20_main_arg24 m c),
     (h c _ (mem_ucH main_arg25 (by decide))).trans (W20_main_arg25 m c),
     (h c _ (mem_ucH main_arg26 (by decide))).trans (W20_main_arg26 m c),
     (h c _ (mem_ucH main_arg27 (by decide))).trans (W20_main_arg27 m c),
     (h c _ (mem_ucH main_arg28 (by decide))).trans (W20_main_arg28 m c),
     (h c _ (mem_ucH main_arg29 (by decide))).trans (W20_main_arg29 m c),
     (h c _ (mem_ucH main_arg30 (by decide))).trans (W20_main_arg30 m c),
     (h c _ (mem_ucH main_arg31 (by decide))).trans (W20_main_arg31 m c),
     (h c _ (mem_ucH main_arg32 (by decide))).trans (W20_main_arg32 m c),
     (h c _ (mem_ucH main_arg33 (by decide))).trans (W20_main_arg33 m c),
     (h c _ (mem_ucH main_arg34 (by decide))).trans (W20_main_arg34 m c),
     (h c _ (mem_ucH main_arg35 (by decide))).trans (W20_main_arg35 m c),
     (h c _ (mem_ucH main_arg36 (by decide))).trans (W20_main_arg36 m c),
     (h c _ (mem_ucH main_arg37 (by decide))).trans (W20_main_arg37 m c),
     (h c _ (mem_ucH main_arg38 (by decide))).trans (W20_main_arg38 m c),
     (h c _ (mem_ucH main_arg39 (by decide))).trans (W20_main_arg39 m c)⟩)

end Cert.KernelIdeal.Hand

end
-- ==== Proof.KI.ValueCommon.lean ====
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic

/-! # The normalise-and-leaky-relu arithmetic at one element, at the ideal values -/

/-- The zero offsets of a whole-block access. -/
theorem hz2 : (![0, 0] : Fin 2 → Nat) = fun _ => 0 := funext fun a => by fin_cases a <;> rfl

/-- One element of the normalise-and-leaky-relu kernel: the activation `x` centred at `mean`, scaled by `g`,
    divided by the square root of `var` plus the word of 1.0, shifted by `b`; kept where that is at least the
    word of 0.0, and multiplied by the word of 0.01 (as f32 rounds it) elsewhere. -/
def bnLreluAt (x g b mean var : EReal) : EReal :=
  Scalar.select
    (Ideal.cmp .oge (Ideal.div (g * (x - mean)) (Ideal.sqrt (var + Ideal.ofBits .f32 0x3F800000#32)) + b) (Ideal.ofBits .f32 0x00000000#32))
    (Ideal.div (g * (x - mean)) (Ideal.sqrt (var + Ideal.ofBits .f32 0x3F800000#32)) + b)
    (Ideal.ofBits .f32 0x3C23D70A#32 * (Ideal.div (g * (x - mean)) (Ideal.sqrt (var + Ideal.ofBits .f32 0x3F800000#32)) + b))

open Idealize.ShloMosaic.ValueIdx

/-- The normalise-and-leaky-relu kernel's whole output array from its five input arrays: at row `i`, column `j` the
    element arithmetic of the activation at `(i, j)` and of the four rows at column `j`. -/
def bnArr (x : (⟨2, ![100000, 128]⟩ : Shape).Idx → EReal) (g b mean var : (⟨2, ![1, 128]⟩ : Shape).Idx → EReal) :
    (⟨2, ![100000, 128]⟩ : Shape).Idx → EReal := fun i =>
  bnLreluAt (x i) (g (ix2 (0 : Fin 1) (i 1))) (b (ix2 (0 : Fin 1) (i 1))) (mean (ix2 (0 : Fin 1) (i 1))) (var (ix2 (0 : Fin 1) (i 1)))

/-- The output head's whole output array from its three input arrays: at row `i`, column `j` the activation's row
    `i` times the weights' column `j`, plus the bias at column `j`. -/
def headArr {n : Nat} (x : (⟨2, ![100000, 128]⟩ : Shape).Idx → EReal) (w : (⟨2, ![128, n]⟩ : Shape).Idx → EReal)
    (b : (⟨2, ![1, n]⟩ : Shape).Idx → EReal) : (⟨2, ![100000, n]⟩ : Shape).Idx → EReal := fun i =>
  (∑ k : Fin 128, x (ix2 (i 0) k) * w (ix2 k (i 1))) + b (ix2 (0 : Fin 1) (i 1))

end Cert.KernelIdeal.Hand

end
-- ==== Proof.KI.Pieces0.lean ====
import proofs.«154353_j88940182765819_1_alg».proof.Proof.KI.Region0
import proofs.«154353_j88940182765819_1_alg».proof.Proof.KI.ValueCommon
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

/-! # What each case of region 0's body stores, as the body's payloads over the input blocks

Every store of the body writes a whole buffer, so what a buffer holds afterwards is its last store's payload; a
load that follows a store into the same buffer reads that store's payload. -/

/-- Case A: the stores into that buffer cover it. -/
theorem covA0_o9 (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i) (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) (y : S4000x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1 S4000x128.size (by sl_kernel_rfl) y

set_option maxHeartbeats 4000000 in
/-- Case A: the block output's staging buffer ends holding the block of `h`. -/
theorem pieceA0_o9 (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i) (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) :
    VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1)
      = k0_pay1 (k0_pay6 x0 x1 x2 x4 x6 x7 x3 x5) x8 := by
  rw [View.read_writes_eq_canon _ _ _ (covA0_o9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x256) hz2, View.ld_unit_zero (S := S4000x128) hz2, View.ld_unit_zero (S := S256x128) hz2, View.ld_unit_zero (S := S1x128) hz2, View.ld_unit_zero (S := S128x128) hz2, shapeCast_self]

/-- Case A: the stores into that buffer cover it. -/
theorem covA0_s0 (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i) (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1 S1x128.size (by sl_kernel_rfl) y

set_option maxHeartbeats 4000000 in
/-- Case A: accumulator row 0 ends holding what accumulator row 0 held plus the block's column sums. -/
theorem pieceA0_s0 (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i) (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) :
    VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1)
      = k0_pay2 (k0_pay6 x0 x1 x2 x4 x6 x7 x3 x5) x8 (k0_pay4 (F := F)) := by
  rw [View.read_writes_eq_canon _ _ _ (covA0_s0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x256) hz2, View.ld_unit_zero (S := S4000x128) hz2, View.ld_unit_zero (S := S256x128) hz2, View.ld_unit_zero (S := S1x128) hz2, View.ld_unit_zero (S := S128x128) hz2, shapeCast_self]

/-- Case A: the stores into that buffer cover it. -/
theorem covA0_s1 (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i) (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1 S1x128.size (by sl_kernel_rfl) y

set_option maxHeartbeats 4000000 in
/-- Case A: accumulator row 1 ends holding what accumulator row 1 held plus the column sums of the block's squares. -/
theorem pieceA0_s1 (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond0_0 i) (hc1 : ¬cond0_1 i) (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) :
    VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1)
      = k0_pay3 (k0_pay6 x0 x1 x2 x4 x6 x7 x3 x5) x8 (k0_pay5 (F := F)) := by
  rw [View.read_writes_eq_canon _ _ _ (covA0_s1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x256) hz2, View.ld_unit_zero (S := S4000x128) hz2, View.ld_unit_zero (S := S256x128) hz2, View.ld_unit_zero (S := S1x128) hz2, View.ld_unit_zero (S := S128x128) hz2, shapeCast_self]

/-- Case B: the stores into that buffer cover it. -/
theorem covB0_o9 (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i) (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) (y : S4000x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1 S4000x128.size (by sl_kernel_rfl) y

set_option maxHeartbeats 4000000 in
/-- Case B: the block output's staging buffer ends holding the block of `h`. -/
theorem pieceB0_o9 (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i) (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) :
    VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1)
      = k0_pay1 (k0_pay6 x0 x1 x2 x4 x6 x7 x3 x5) x8 := by
  rw [View.read_writes_eq_canon _ _ _ (covB0_o9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_B
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x256) hz2, View.ld_unit_zero (S := S4000x128) hz2, View.ld_unit_zero (S := S256x128) hz2, View.ld_unit_zero (S := S1x128) hz2, View.ld_unit_zero (S := S128x128) hz2, shapeCast_self]

/-- Case B: the stores into that buffer cover it. -/
theorem covB0_s0 (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i) (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1 S1x128.size (by sl_kernel_rfl) y

set_option maxHeartbeats 4000000 in
/-- Case B: accumulator row 0 ends holding what accumulator row 0 held plus the block's column sums. -/
theorem pieceB0_s0 (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i) (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) :
    VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1)
      = k0_pay2 (k0_pay6 x0 x1 x2 x4 x6 x7 x3 x5) x8 xs0 := by
  rw [View.read_writes_eq_canon _ _ _ (covB0_s0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_B
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x256) hz2, View.ld_unit_zero (S := S4000x128) hz2, View.ld_unit_zero (S := S256x128) hz2, View.ld_unit_zero (S := S1x128) hz2, View.ld_unit_zero (S := S128x128) hz2, shapeCast_self]

/-- Case B: the stores into that buffer cover it. -/
theorem covB0_s1 (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i) (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1 S1x128.size (by sl_kernel_rfl) y

set_option maxHeartbeats 4000000 in
/-- Case B: accumulator row 1 ends holding what accumulator row 1 held plus the column sums of the block's squares. -/
theorem pieceB0_s1 (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : ¬cond0_1 i) (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) :
    VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1)
      = k0_pay3 (k0_pay6 x0 x1 x2 x4 x6 x7 x3 x5) x8 xs1 := by
  rw [View.read_writes_eq_canon _ _ _ (covB0_s1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_B
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x256) hz2, View.ld_unit_zero (S := S4000x128) hz2, View.ld_unit_zero (S := S256x128) hz2, View.ld_unit_zero (S := S1x128) hz2, View.ld_unit_zero (S := S128x128) hz2, shapeCast_self]

/-- Case C: the stores into that buffer cover it. -/
theorem covC0_o9 (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i) (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) (y : S4000x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1 S4000x128.size (by sl_kernel_rfl) y

set_option maxHeartbeats 4000000 in
/-- Case C: the block output's staging buffer ends holding the block of `h`. -/
theorem pieceC0_o9 (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i) (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) :
    VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1)
      = k0_pay1 (k0_pay6 x0 x1 x2 x4 x6 x7 x3 x5) x8 := by
  rw [View.read_writes_eq_canon _ _ _ (covC0_o9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_C
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x256) hz2, View.ld_unit_zero (S := S4000x128) hz2, View.ld_unit_zero (S := S256x128) hz2, View.ld_unit_zero (S := S1x128) hz2, View.ld_unit_zero (S := S128x128) hz2, shapeCast_self]

/-- Case C: the stores into that buffer cover it. -/
theorem covC0_o10 (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i) (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1 S1x128.size (by sl_kernel_rfl) y

set_option maxHeartbeats 4000000 in
/-- Case C: row output 10's staging buffer ends holding accumulator row 0 as this point leaves it. -/
theorem pieceC0_o10 (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i) (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) :
    VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1)
      = k0_pay2 (k0_pay6 x0 x1 x2 x4 x6 x7 x3 x5) x8 xs0 := by
  rw [View.read_writes_eq_canon _ _ _ (covC0_o10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_C
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x256) hz2, View.ld_unit_zero (S := S4000x128) hz2, View.ld_unit_zero (S := S256x128) hz2, View.ld_unit_zero (S := S1x128) hz2, View.ld_unit_zero (S := S128x128) hz2, shapeCast_self]

/-- Case C: the stores into that buffer cover it. -/
theorem covC0_o11 (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i) (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1 S1x128.size (by sl_kernel_rfl) y

set_option maxHeartbeats 4000000 in
/-- Case C: row output 11's staging buffer ends holding accumulator row 1 as this point leaves it. -/
theorem pieceC0_o11 (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i) (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) :
    VO0_11.read (Elt F) (VO0_11.writes (Elt F) VO0_11.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1)
      = k0_pay3 (k0_pay6 x0 x1 x2 x4 x6 x7 x3 x5) x8 xs1 := by
  rw [View.read_writes_eq_canon _ _ _ (covC0_o11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_C
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x256) hz2, View.ld_unit_zero (S := S4000x128) hz2, View.ld_unit_zero (S := S256x128) hz2, View.ld_unit_zero (S := S1x128) hz2, View.ld_unit_zero (S := S128x128) hz2, shapeCast_self]

/-- Case C: the stores into that buffer cover it. -/
theorem covC0_s0 (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i) (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1 S1x128.size (by sl_kernel_rfl) y

set_option maxHeartbeats 4000000 in
/-- Case C: accumulator row 0 ends holding what accumulator row 0 held plus the block's column sums. -/
theorem pieceC0_s0 (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i) (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) :
    VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1)
      = k0_pay2 (k0_pay6 x0 x1 x2 x4 x6 x7 x3 x5) x8 xs0 := by
  rw [View.read_writes_eq_canon _ _ _ (covC0_s0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_C
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x256) hz2, View.ld_unit_zero (S := S4000x128) hz2, View.ld_unit_zero (S := S256x128) hz2, View.ld_unit_zero (S := S1x128) hz2, View.ld_unit_zero (S := S128x128) hz2, shapeCast_self]

/-- Case C: the stores into that buffer cover it. -/
theorem covC0_s1 (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i) (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.2.1 S1x128.size (by sl_kernel_rfl) y

set_option maxHeartbeats 4000000 in
/-- Case C: accumulator row 1 ends holding what accumulator row 1 held plus the column sums of the block's squares. -/
theorem pieceC0_s1 (c : Dev nD) (i : grid0.Coords) (arg1 : Memref sig .tc .vmem S4000x256 .f32) (harg1 : arg1.IsWhole) (arg2 : Memref sig .tc .vmem S4000x128 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond0_0 i) (hc1 : cond0_1 i) (x0 : Vec F S4000x256 .f32) (x1 : Vec F S4000x128 .f32) (x2 : Vec F S256x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) :
    VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.2.1)
      = k0_pay3 (k0_pay6 x0 x1 x2 x4 x6 x7 x3 x5) x8 xs1 := by
  rw [View.read_writes_eq_canon _ _ _ (covC0_s1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_C
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x256) hz2, View.ld_unit_zero (S := S4000x128) hz2, View.ld_unit_zero (S := S256x128) hz2, View.ld_unit_zero (S := S1x128) hz2, View.ld_unit_zero (S := S128x128) hz2, shapeCast_self]

end Cert.KernelIdeal.Hand

end
-- ==== Proof.KI.ConvCommon.lean ====
import proofs.«154353_j88940182765819_1_alg».proof.Proof.KI.ValueCommon
import proofs.«154353_j88940182765819_1_alg».proof.Proof.Gen.KernelIdeal
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-! # The convolution-and-statistics kernel's arithmetic at one element, at the ideal values -/

/-- The product accumulated from zero, read at row `r`, column `j`: the sum over the contracted coordinate of the
    entries' products (at the ideal values there is no accumulation order). -/
theorem mm_4000_256 {φ₁ φ₂ : FTy} (a : FVec Ideal S4000x256 φ₁) (b : FVec Ideal S256x128 φ₂) (r : Fin 4000) (j : Fin 128) :
    matmul dot_S4000x256_S256x128_S4000x128_1_0_0_1_n_n none a b (constant S4000x128 .f32 0x00000000#32) (ix2 r j) = ∑ k : Fin 256, a (ix2 r k) * b (ix2 k j) := by
  show FloatOps.matmul dot_S4000x256_S256x128_S4000x128_1_0_0_1_n_n none a b (constant S4000x128 .f32 0x00000000#32) (ix2 r j) = _
  rw [Ideal.matmul_constant_zero_apply, ← Equiv.sum_comp (contrEquiv1 dot_S4000x256_S256x128_S4000x128_1_0_0_1_n_n 256 rfl rfl).symm]
  refine Finset.sum_congr rfl fun k _ => ?_
  have c2 := contrEquiv1_symm_val dot_S4000x256_S256x128_S4000x128_1_0_0_1_n_n 256 rfl rfl k
  have l2 : (dot_S4000x256_S256x128_S4000x128_1_0_0_1_n_n).lhsIdx (ix2 r j) ((contrEquiv1 _ 256 rfl rfl).symm k) = ix2 r k := by
    funext ax; apply Fin.ext
    match ax with
    | ⟨0, _⟩ => simp [DotDims.lhsIdx, dot_S4000x256_S256x128_S4000x128_1_0_0_1_n_n]; rfl
    | ⟨1, _⟩ => simp [DotDims.lhsIdx, dot_S4000x256_S256x128_S4000x128_1_0_0_1_n_n]; exact c2
  have r2 : (dot_S4000x256_S256x128_S4000x128_1_0_0_1_n_n).rhsIdx (ix2 r j) ((contrEquiv1 _ 256 rfl rfl).symm k) = ix2 k j := by
    funext ax; apply Fin.ext
    match ax with
    | ⟨0, _⟩ => simp [DotDims.rhsIdx, dot_S4000x256_S256x128_S4000x128_1_0_0_1_n_n]; exact c2
    | ⟨1, _⟩ => simp [DotDims.rhsIdx, dot_S4000x256_S256x128_S4000x128_1_0_0_1_n_n]; rfl
  show a ((dot_S4000x256_S256x128_S4000x128_1_0_0_1_n_n).lhsIdx (ix2 r j) ((contrEquiv1 _ 256 rfl rfl).symm k)) * b ((dot_S4000x256_S256x128_S4000x128_1_0_0_1_n_n).rhsIdx (ix2 r j) ((contrEquiv1 _ 256 rfl rfl).symm k)) = _
  rw [l2, r2]

/-- The product accumulated from zero, read at row `r`, column `j`: the sum over the contracted coordinate of the
    entries' products (at the ideal values there is no accumulation order). -/
theorem mm_4000_128 {φ₁ φ₂ : FTy} (a : FVec Ideal S4000x128 φ₁) (b : FVec Ideal S128x128 φ₂) (r : Fin 4000) (j : Fin 128) :
    matmul dot_S4000x128_S128x128_S4000x128_1_0_0_1_n_n none a b (constant S4000x128 .f32 0x00000000#32) (ix2 r j) = ∑ k : Fin 128, a (ix2 r k) * b (ix2 k j) := by
  show FloatOps.matmul dot_S4000x128_S128x128_S4000x128_1_0_0_1_n_n none a b (constant S4000x128 .f32 0x00000000#32) (ix2 r j) = _
  rw [Ideal.matmul_constant_zero_apply, ← Equiv.sum_comp (contrEquiv1 dot_S4000x128_S128x128_S4000x128_1_0_0_1_n_n 128 rfl rfl).symm]
  refine Finset.sum_congr rfl fun k _ => ?_
  have c2 := contrEquiv1_symm_val dot_S4000x128_S128x128_S4000x128_1_0_0_1_n_n 128 rfl rfl k
  have l2 : (dot_S4000x128_S128x128_S4000x128_1_0_0_1_n_n).lhsIdx (ix2 r j) ((contrEquiv1 _ 128 rfl rfl).symm k) = ix2 r k := by
    funext ax; apply Fin.ext
    match ax with
    | ⟨0, _⟩ => simp [DotDims.lhsIdx, dot_S4000x128_S128x128_S4000x128_1_0_0_1_n_n]; rfl
    | ⟨1, _⟩ => simp [DotDims.lhsIdx, dot_S4000x128_S128x128_S4000x128_1_0_0_1_n_n]; exact c2
  have r2 : (dot_S4000x128_S128x128_S4000x128_1_0_0_1_n_n).rhsIdx (ix2 r j) ((contrEquiv1 _ 128 rfl rfl).symm k) = ix2 k j := by
    funext ax; apply Fin.ext
    match ax with
    | ⟨0, _⟩ => simp [DotDims.rhsIdx, dot_S4000x128_S128x128_S4000x128_1_0_0_1_n_n]; exact c2
    | ⟨1, _⟩ => simp [DotDims.rhsIdx, dot_S4000x128_S128x128_S4000x128_1_0_0_1_n_n]; rfl
  show a ((dot_S4000x128_S128x128_S4000x128_1_0_0_1_n_n).lhsIdx (ix2 r j) ((contrEquiv1 _ 128 rfl rfl).symm k)) * b ((dot_S4000x128_S128x128_S4000x128_1_0_0_1_n_n).rhsIdx (ix2 r j) ((contrEquiv1 _ 128 rfl rfl).symm k)) = _
  rw [l2, r2]

/-- Over a rank-2 shape reduced along its rows, the index inserted over column `j` at row `k` is (k, j). -/
theorem lift_rows {m n : ℕ} (h : (⟨2, ![m, n]⟩ : Shape).Reduces [0] ⟨1, ![n]⟩) (j : Fin n) (k : Fin m) :
    h.lift (ix1 j) k = ix2 k j := by
  funext a
  refine Fin.ext ((h.lift_val (ix1 j) k a).trans ?_)
  match a with
  | ⟨0, _⟩ => exact dif_pos rfl
  | ⟨1, _⟩ => exact (dif_neg Nat.one_ne_zero).trans (dif_neg (Nat.not_lt_zero 1))

/-- The sum of a 4000-row block along its rows, read at column `j`: the column's sum. -/
theorem colsum_apply (v : FVec Ideal S4000x128 .f32) (h : S4000x128.Reduces [0] S128) (hφ : FKind.Formats FTy.f32)
    (hacc : (0x00000000#32 : BitVec FTy.f32.bits) = FKind.add.neutral .f32 hφ) (j : Fin 128) :
    multiReduction .add [0] S128 v 0x00000000#32 h hφ hacc (ix1 j) = ∑ r : Fin 4000, v (ix2 r j) :=
  (Ideal.multiReduction_add_single v _ h hφ hacc (ix1 j)).trans
    (Finset.sum_congr rfl fun r _ => congrArg v (lift_rows h j r))

/-- The convolution's closed form at row `i`, column `j`: the destination features' row times `wd` plus `bd`, times
    the first half of the update weight; plus the aggregated features' row times `ws` plus `bs`, times the second
    half; plus `bu`. The three biases are one-row arrays. -/
def convArr {Kd Ka : ℕ} (xd : (⟨2, ![100000, Kd]⟩ : Shape).Idx → EReal) (agg : (⟨2, ![100000, Ka]⟩ : Shape).Idx → EReal)
    (wd : (⟨2, ![Kd, 128]⟩ : Shape).Idx → EReal) (bd : (⟨2, ![1, 128]⟩ : Shape).Idx → EReal)
    (ws : (⟨2, ![Ka, 128]⟩ : Shape).Idx → EReal) (bs : (⟨2, ![1, 128]⟩ : Shape).Idx → EReal)
    (wu0 wu1 : (⟨2, ![128, 128]⟩ : Shape).Idx → EReal) (bu : (⟨2, ![1, 128]⟩ : Shape).Idx → EReal) :
    (⟨2, ![100000, 128]⟩ : Shape).Idx → EReal := fun i =>
  (∑ k : Fin 128, ((∑ l : Fin Kd, xd (ix2 (i 0) l) * wd (ix2 l k)) + bd (ix2 (0 : Fin 1) k)) * wu0 (ix2 k (i 1)))
    + (∑ k : Fin 128, ((∑ l : Fin Ka, agg (ix2 (i 0) l) * ws (ix2 l k)) + bs (ix2 (0 : Fin 1) k)) * wu1 (ix2 k (i 1)))
    + bu (ix2 (0 : Fin 1) (i 1))

/-- The closed form read at explicit coordinates. -/
theorem convArr_apply {Kd Ka : ℕ} (xd : (⟨2, ![100000, Kd]⟩ : Shape).Idx → EReal) (agg : (⟨2, ![100000, Ka]⟩ : Shape).Idx → EReal)
    (wd : (⟨2, ![Kd, 128]⟩ : Shape).Idx → EReal) (bd : (⟨2, ![1, 128]⟩ : Shape).Idx → EReal)
    (ws : (⟨2, ![Ka, 128]⟩ : Shape).Idx → EReal) (bs : (⟨2, ![1, 128]⟩ : Shape).Idx → EReal)
    (wu0 wu1 : (⟨2, ![128, 128]⟩ : Shape).Idx → EReal) (bu : (⟨2, ![1, 128]⟩ : Shape).Idx → EReal) (i : Fin 100000) (j : Fin 128) :
    convArr xd agg wd bd ws bs wu0 wu1 bu (ix2 i j)
      = (∑ k : Fin 128, ((∑ l : Fin Kd, xd (ix2 i l) * wd (ix2 l k)) + bd (ix2 (0 : Fin 1) k)) * wu0 (ix2 k j))
        + (∑ k : Fin 128, ((∑ l : Fin Ka, agg (ix2 i l) * ws (ix2 l k)) + bs (ix2 (0 : Fin 1) k)) * wu1 (ix2 k j))
        + bu (ix2 (0 : Fin 1) j) := rfl

end Cert.KernelIdeal.Hand

end
-- ==== Proof.LibBlockSums.lean ====
/-
  A sum over 8192 consecutive indices, cut into 16 blocks of 512: summing each block and then the
  blocks is the sum over all indices (the index 512 · kb + b runs over 0 … 8191 exactly once as kb
  runs over 0 … 15 and b over 0 … 511).
-/
import Mathlib.Data.EReal.Basic
import Mathlib.Algebra.BigOperators.Fin
import Mathlib.Logic.Equiv.Fin.Basic

namespace Cert.Attn

/-- A sum over m · n consecutive indices is the sum over m blocks of the sums over each block's n
    indices. -/
theorem sum_blocks_gen {M : Type*} [AddCommMonoid M] (m n : ℕ) (g : ℕ → M) :
    ∑ kb ∈ Finset.range m, ∑ b : Fin n, g (n * kb + b.val) = ∑ j : Fin (m * n), g j.val := by
  rw [← Fin.sum_univ_eq_sum_range (fun kb => ∑ b : Fin n, g (n * kb + b.val)) m,
    ← Equiv.sum_comp finProdFinEquiv, Fintype.sum_prod_type]
  refine Finset.sum_congr rfl fun a _ => Finset.sum_congr rfl fun b _ => ?_
  rw [finProdFinEquiv_apply_val, add_comm]

/-- 8192 indices in 16 blocks of 512. -/
theorem sum_blocks (g : ℕ → EReal) :
    ∑ kb ∈ Finset.range 16, ∑ b : Fin 512, g (512 * kb + b.val) = ∑ j : Fin 8192, g j.val :=
  sum_blocks_gen 16 512 g

end Cert.Attn
-- ==== Proof.Math.BlockSums.lean ====
/- Accumulating column sums block by block.

   One program sums a column of 100000 entries in a single sum; the other walks 25 blocks of 4000 rows, starting
   from a zero row and adding each block's sum to the running row. The running row after n blocks is the sum of
   the first n block sums (induction on n), and the 25 block sums together run over every index 4000·t + r
   exactly once, so the last running row is the full sum. Everything holds in any additive commutative monoid,
   in particular at extended reals, with no finiteness assumption. -/
import proofs.«154353_j88940182765819_1_alg».proof.Proof.LibBlockSums

namespace Cert.Bridge

open scoped BigOperators

variable {M : Type*} [AddCommMonoid M]

/-- The running row: zero before the first block, then each block's sum added on the right. -/
def acc (s : ℕ → M) : ℕ → M
  | 0 => 0
  | n + 1 => acc s n + s n

@[simp] theorem acc_zero (s : ℕ → M) : acc s 0 = 0 := rfl
@[simp] theorem acc_succ (s : ℕ → M) (n : ℕ) : acc s (n + 1) = acc s n + s n := rfl

/-- The running row with the block's sum added on the left. -/
def accL (s : ℕ → M) : ℕ → M
  | 0 => 0
  | n + 1 => s n + accL s n

@[simp] theorem accL_zero (s : ℕ → M) : accL s 0 = 0 := rfl
@[simp] theorem accL_succ (s : ℕ → M) (n : ℕ) : accL s (n + 1) = s n + accL s n := rfl

/-- After n blocks the running row is the sum of the first n block sums. -/
theorem acc_eq_sum_range (s : ℕ → M) (n : ℕ) : acc s n = ∑ t ∈ Finset.range n, s t := by
  induction n with
  | zero => simp
  | succ n ih => rw [acc_succ, ih, Finset.sum_range_succ]

theorem accL_eq_acc (s : ℕ → M) (n : ℕ) : accL s n = acc s n := by
  induction n with
  | zero => rfl
  | succ n ih => rw [accL_succ, acc_succ, ih, add_comm]

/-- Any sequence of rows that starts at `z` and adds the n-th block sum at step n is `z` plus the sum of the
    first n block sums: the form to instantiate with a program's own state sequence. -/
theorem fold_eq_sum (s a : ℕ → M) (z : M) (h0 : a 0 = z) (hstep : ∀ n, a (n + 1) = a n + s n) (n : ℕ) :
    a n = z + ∑ t ∈ Finset.range n, s t := by
  induction n with
  | zero => simp [h0]
  | succ n ih => rw [hstep, ih, Finset.sum_range_succ, add_assoc]

/-- The same, the steps only required below a bound `N` (a program's grid has finitely many points). -/
theorem fold_eq_sum_le (s a : ℕ → M) (z : M) (N : ℕ) (h0 : a 0 = z)
    (hstep : ∀ n, n < N → a (n + 1) = a n + s n) (n : ℕ) (hn : n ≤ N) :
    a n = z + ∑ t ∈ Finset.range n, s t := by
  induction n with
  | zero => simp [h0]
  | succ n ih => rw [hstep n (by omega), ih (by omega), Finset.sum_range_succ, add_assoc]

/-- The sum of block `t`: the entries at indices n·t + r, r < n; an index past the end contributes zero
    (none is, for t < m). -/
def blockSum (m n : ℕ) (f : Fin (m * n) → M) (t : ℕ) : M :=
  ∑ r : Fin n, if h : n * t + r.val < m * n then f ⟨n * t + r.val, h⟩ else 0

/-- For a block inside the range, the block sum is the plain sum over the block's indices. -/
theorem blockSum_of_lt (m n : ℕ) (f : Fin (m * n) → M) (t : ℕ)
    (hlt : ∀ r : Fin n, n * t + r.val < m * n) :
    blockSum m n f t = ∑ r : Fin n, f ⟨n * t + r.val, hlt r⟩ :=
  Finset.sum_congr rfl fun r _ => dif_pos (hlt r)

/-- The m block sums together are the sum over all m·n indices. -/
theorem sum_blockSum (m n : ℕ) (f : Fin (m * n) → M) :
    ∑ t ∈ Finset.range m, blockSum m n f t = ∑ i, f i := by
  have h := Cert.Attn.sum_blocks_gen m n (fun j => if h : j < m * n then f ⟨j, h⟩ else 0)
  rw [show (∑ t ∈ Finset.range m, blockSum m n f t)
        = ∑ kb ∈ Finset.range m, ∑ b : Fin n,
            (fun j => if h : j < m * n then f ⟨j, h⟩ else 0) (n * kb + b.val) from rfl, h]
  exact Finset.sum_congr rfl fun j _ => dif_pos j.isLt

/-- The running row after all m blocks is the full sum. -/
theorem acc_blockSum (m n : ℕ) (f : Fin (m * n) → M) : acc (blockSum m n f) m = ∑ i, f i := by
  rw [acc_eq_sum_range, sum_blockSum]

/-! ### 100000 rows in 25 blocks of 4000 -/

/-- The sum of block `t` of a column of 100000 entries. -/
def s4000 (f : Fin 100000 → M) (t : ℕ) : M := blockSum 25 4000 f t

/-- For t < 25 the block sum is the sum over r < 4000 of the entry at 4000·t + r. -/
theorem s4000_eq (f : Fin 100000 → M) (t : Fin 25) :
    s4000 f t.val = ∑ r : Fin 4000, f ⟨4000 * t.val + r.val, by omega⟩ :=
  blockSum_of_lt 25 4000 f t.val fun r => by omega

/-- ((0 + s 0) + s 1) + … + s 24 is the one sum over all 100000 entries. -/
theorem acc_25 (f : Fin 100000 → M) : acc (s4000 f) 25 = ∑ i : Fin 100000, f i :=
  acc_blockSum 25 4000 f

/-- The sum of the 25 block sums is the one sum over all 100000 entries. -/
theorem sum_range_25 (f : Fin 100000 → M) : ∑ t ∈ Finset.range 25, s4000 f t = ∑ i : Fin 100000, f i :=
  sum_blockSum 25 4000 f

/-- A state sequence that starts at the zero row and adds block t's sum at step t < 25 ends at the full sum. -/
theorem fold_25 (f : Fin 100000 → M) (a : ℕ → M) (h0 : a 0 = 0)
    (hstep : ∀ n, n < 25 → a (n + 1) = a n + s4000 f n) : a 25 = ∑ i : Fin 100000, f i := by
  rw [fold_eq_sum_le (s4000 f) a 0 25 h0 hstep 25 le_rfl, zero_add, sum_range_25]

end Cert.Bridge
-- ==== Proof.Ref.Stages.lean ====
/- The reference program's stages, as named pure functions: each is literally the composition of the
   host operations the printed program runs for that stage of reference.py, over the stage's inputs.
   The two results of @main are stated over them (`outA`, `outP`). -/
import proofs.«154353_j88940182765819_1_alg».proof.ReferenceIdeal

noncomputable section

namespace Cert.ReferenceIdeal.RefRun

open Cert.ReferenceIdeal Idealize.ShloMosaic Idealize.SL.Sem
open Cert.ReferenceIdeal.Facts₀

variable {F : FTy → Type} [FloatOps F] [Facts]

/-- The contents of a tensor value of shape `S` and element type `e`. -/
abbrev Ten (F : FTy → Type) (S : Shape) (e : EltTy) : Type := (⟨S, e⟩ : BufTy).Contents (Elt F)

/-! ## Segment mean (`_mean_agg`) -/

/-- Row 0 of an edge-index array (the source nodes), as a vector: the slice, reshaped. -/
def refRow0 (e : Ten F S2x500000 .i32) : Ten F S500000 .i32 :=
  shapeCast S500000 (extractStridedSlice S1x500000 ![0, 0] e slices_S2x500000_S1x500000_0_0) shapeCasts_S1x500000_S500000

/-- Row 1 of an edge-index array (the destination nodes), as a vector. -/
def refRow1 (e : Ten F S2x500000 .i32) : Ten F S500000 .i32 :=
  shapeCast S500000 (extractStridedSlice S1x500000 ![1, 0] e slices_S2x500000_S1x500000_1_0) shapeCasts_S1x500000_S500000

/-- The negative-index wrap of `x[src]`: `src < 0 ? src + 100000 : src`. -/
def refWrap (s : Ten F S500000 .i32) : Ten F S500000 .i32 :=
  select (cmpi .slt s (broadcastInDim S500000 ![] bcast_S_S500000 (constantI S_ 32 0#32)))
    (addi s (broadcastInDim S500000 ![] bcast_S_S500000 (constantI S_ 32 100000#32))) s

/-- The in-degree of every destination node, at least one: ones scatter-added at the destinations, `maximum` with 1. -/
def refCount (d : Ten F S500000 .i32) : Ten F S100000 .f32 :=
  maximumf
    (Host.scatterAdd scatter_S100000_S500000x1_S500000_n_0_0_1
      (broadcastInDim S100000 ![] bcast_S_S100000 (constant (F := F) S_ .f32 0x00000000#32))
      (broadcastInDim S500000x1 ![0] bcast_S500000_S500000x1_0 d)
      (broadcastInDim S500000 ![] bcast_S_S500000 (constant (F := F) S_ .f32 0x3F800000#32)))
    (broadcastInDim S100000 ![] bcast_S_S100000 (constant (F := F) S_ .f32 0x3F800000#32))

/-- `_mean_agg` over the edges' source and destination vectors: the rows of `x` gathered at the (wrapped) sources,
    scatter-added at the destinations into zeros, divided by the destinations' in-degree (at least one) broadcast along
    the features. Stated once over the feature shape: the gather and scatter dimension records and the two broadcasts
    into it are arguments. -/
def refAggOf {Sx Sg : Shape} (gd : GatherDims Sx S500000x1 Sg) (sd : ScatterDims Sx S500000x1 Sg)
    (hz : S_.BroadcastsInDim Sx (![] : Fin 0 → Fin Sx.rank)) (dims : Fin 2 → Fin Sx.rank) (hb : S100000x1.BroadcastsInDim Sx dims)
    (x : Ten F Sx .f32) (s d : Ten F S500000 .i32) : Ten F Sx .f32 :=
  Host.divf
    (Host.scatterAdd sd
      (broadcastInDim Sx ![] hz (constant (F := F) S_ .f32 0x00000000#32))
      (broadcastInDim S500000x1 ![0] bcast_S500000_S500000x1_0 d)
      (Host.gather gd x (broadcastInDim S500000x1 ![0] bcast_S500000_S500000x1_0 (refWrap s))))
    (broadcastInDim Sx dims hb (broadcastInDim S100000x1 ![0] bcast_S100000_S100000x1_0 (refCount d)))

/-- `_mean_agg` over an edge-index array: its row 0 the sources, its row 1 the destinations. -/
def refAgg {Sx Sg : Shape} (gd : GatherDims Sx S500000x1 Sg) (sd : ScatterDims Sx S500000x1 Sg)
    (hz : S_.BroadcastsInDim Sx (![] : Fin 0 → Fin Sx.rank)) (dims : Fin 2 → Fin Sx.rank) (hb : S100000x1.BroadcastsInDim Sx dims)
    (x : Ten F Sx .f32) (e : Ten F S2x500000 .i32) : Ten F Sx .f32 :=
  refAggOf gd sd hz dims hb x (refRow0 e) (refRow1 e)

/-- `_mean_agg` of 128-feature rows. -/
abbrev refAgg128 (x : Ten F S100000x128 .f32) (e : Ten F S2x500000 .i32) : Ten F S100000x128 .f32 :=
  refAgg gather_S100000x128_S500000x1_S500000x128_1_0_n_n_0_1_1128 scatter_S100000x128_S500000x1_S500000x128_1_0_0_1
    bcast_S_S100000x128 ![0, 1] bcast_S100000x1_S100000x128_0_1 x e

/-- `_mean_agg` of 256-feature rows. -/
abbrev refAgg256 (x : Ten F S100000x256 .f32) (e : Ten F S2x500000 .i32) : Ten F S100000x256 .f32 :=
  refAgg gather_S100000x256_S500000x1_S500000x256_1_0_n_n_0_1_1256 scatter_S100000x256_S500000x1_S500000x256_1_0_0_1
    bcast_S_S100000x256 ![0, 1] bcast_S100000x1_S100000x256_0_1 x e

/-! ## The convolution's linear maps (`_conv` after the aggregation) -/

/-- A 128-vector as every row of a 100000×128 array (a bias, a scale, a mean): the two broadcasts. -/
def refRows (v : Ten F S128 .f32) : Ten F S100000x128 .f32 :=
  broadcastInDim S100000x128 ![0, 1] bcast_S1x128_S100000x128_0_1 (broadcastInDim S1x128 ![1] bcast_S128_S1x128_1 v)

/-- `concatenate([x_dst @ wd + bd, agg @ ws + bs], axis=-1) @ wu + bu`. Stated once over the two inputs' feature
    shapes: the two first matmuls' dimension records are arguments. -/
def refConv {Sd Swd Sa Sws : Shape} (dd : DotDims Sd Swd S100000x128) (da : DotDims Sa Sws S100000x128)
    (xd : Ten F Sd .f32) (agg : Ten F Sa .f32) (wd : Ten F Swd .f32) (bd : Ten F S128 .f32)
    (ws : Ten F Sws .f32) (bs : Ten F S128 .f32) (wu : Ten F S256x128 .f32) (bu : Ten F S128 .f32) : Ten F S100000x128 .f32 :=
  addf
    (Host.dotGeneral dot_S100000x256_S256x128_S100000x128_1_0_0_1_n_n none
      (concatenate S100000x256 1
        [⟨S100000x128, addf (Host.dotGeneral dd none xd wd) (refRows bd)⟩,
         ⟨S100000x128, addf (Host.dotGeneral da none agg ws) (refRows bs)⟩]
        concatenates_S100000x128_S100000x128_S100000x256_d1)
      wu)
    (refRows bu)

/-! ## Batch normalisation and LeakyReLU (`_bn_lrelu`) -/

/-- `x.mean(axis=0)`: the column sums over 100000. -/
def refMean (x : Ten F S100000x128 .f32) : Ten F S128 .f32 :=
  Host.divf (Host.reduceAdd x (constant (F := F) S_ .f32 0x00000000#32) reducesTo_S100000x128_S128_d0 h_S_)
    (broadcastInDim S128 ![] bcast_S_S128 (constant (F := F) S_ .f32 0x47C35000#32))

/-- `x.var`'s centred rows: `x` minus its column means (computed there with the row kept: sum, reshape to 1×128, divide). -/
def refCentred (x : Ten F S100000x128 .f32) : Ten F S100000x128 .f32 :=
  subf x
    (broadcastInDim S100000x128 ![0, 1] bcast_S1x128_S100000x128_0_1
      (Host.divf
        (broadcastInDim S1x128 ![1] bcast_S128_S1x128_1
          (Host.reduceAdd x (constant (F := F) S_ .f32 0x00000000#32) reducesTo_S100000x128_S128_d0 h_S_))
        (broadcastInDim S1x128 ![] bcast_S_S1x128 (constant (F := F) S_ .f32 0x47C35000#32))))

/-- `x.var`'s divisor: `100000 - ddof`, the degrees-of-freedom correction converted from its integer. -/
def refDof (c : Ten F S_ .i32) : Ten F S_ .f32 :=
  subf (constant (F := F) S_ .f32 0x47C35000#32) (sitofp .f32 c)

/-- `x.var(axis=0)` with correction `c`: the column sums of the centred rows' squares over `100000 - c`, where that
    is positive, else NaN. -/
def refVar (x : Ten F S100000x128 .f32) (c : Ten F S_ .i32) : Ten F S128 .f32 :=
  select (broadcastInDim S128 ![] bcast_S_S128 (cmpf .ogt (refDof (F := F) c) (constant (F := F) S_ .f32 0x00000000#32)))
    (Host.divf
      (Host.reduceAdd (mulf (refCentred x) (refCentred x)) (constant (F := F) S_ .f32 0x00000000#32) reducesTo_S100000x128_S128_d0 h_S_)
      (broadcastInDim S128 ![] bcast_S_S128 (refDof (F := F) c)))
    (broadcastInDim S128 ![] bcast_S_S128 (id (constant (F := F) S_ .f32 0x7FC00000#32)))

/-- `g * (x - mean) / sqrt(var + 1) + b`. -/
def refNorm (x : Ten F S100000x128 .f32) (g b : Ten F S128 .f32) : Ten F S100000x128 .f32 :=
  addf
    (Host.divf
      (mulf (refRows g) (subf x (refRows (refMean x))))
      (refRows (Host.sqrt (addf (refVar x (constantI S_ 32 0#32))
        (broadcastInDim S128 ![] bcast_S_S128 (constant (F := F) S_ .f32 0x3F800000#32))))))
    (refRows b)

/-- `_bn_lrelu`: `y = norm(x)`, then `where(y >= 0, y, 0.01 * y)`. -/
def refBN (x : Ten F S100000x128 .f32) (g b : Ten F S128 .f32) : Ten F S100000x128 .f32 :=
  select
    (cmpf .oge (refNorm x g b) (broadcastInDim S100000x128 ![] bcast_S_S100000x128 (constant (F := F) S_ .f32 0x00000000#32)))
    (refNorm x g b)
    (mulf (broadcastInDim S100000x128 ![] bcast_S_S100000x128 (constant (F := F) S_ .f32 0x3C23D70A#32)) (refNorm x g b))

/-! ## The heads -/

/-- `x @ w + b`, the bias broadcast along the rows. Stated once over the label count: the matmul's dimension record
    and the two broadcasts are arguments. -/
def refHead {Sw Sb S1 So : Shape} (d : DotDims S100000x128 Sw So)
    (d1 : Fin Sb.rank → Fin S1.rank) (h1 : Sb.BroadcastsInDim S1 d1) (d2 : Fin S1.rank → Fin So.rank) (h2 : S1.BroadcastsInDim So d2)
    (x : Ten F S100000x128 .f32) (w : Ten F Sw .f32) (b : Ten F Sb .f32) : Ten F So .f32 :=
  addf (Host.dotGeneral d none x w) (broadcastInDim So d2 h2 (broadcastInDim S1 d1 h1 b))

/-- The author head: 4 labels. -/
abbrev refHeadA (x : Ten F S100000x128 .f32) (w : Ten F S128x4 .f32) (b : Ten F S4 .f32) : Ten F S100000x4 .f32 :=
  refHead dot_S100000x128_S128x4_S100000x4_1_0_0_1_n_n ![1] bcast_S4_S1x4_1 ![0, 1] bcast_S1x4_S100000x4_0_1 x w b

/-- The paper head: 7 labels. -/
abbrev refHeadP (x : Ten F S100000x128 .f32) (w : Ten F S128x7 .f32) (b : Ten F S7 .f32) : Ten F S100000x7 .f32 :=
  refHead dot_S100000x128_S128x7_S100000x7_1_0_0_1_n_n ![1] bcast_S7_S1x7_1 ![0, 1] bcast_S1x7_S100000x7_0_1 x w b

/-! ## The network -/

/-- The contents of @main's buffers that a result is stated over: one per TensorCore reference. -/
abbrev Args (F : FTy → Type) : Type := (b : Ref sig .tc) → (Proc.devRef (τ := τ) .tc b).ty.Contents (Elt F)

/-- Layer 1, author nodes: `_conv(x_paper, x_author, p2a)` then `_bn_lrelu`. -/
def hA1 (a : Args F) : Ten F S100000x128 .f32 :=
  refBN
    (refConv dot_S100000x256_S256x128_S100000x128_1_0_0_1_n_n dot_S100000x128_S128x128_S100000x128_1_0_0_1_n_n
      (a main_arg0) (refAgg128 (a main_arg1) (a main_arg2)) (a main_arg6) (a main_arg7) (a main_arg4) (a main_arg5) (a main_arg8) (a main_arg9))
    (a main_arg28) (a main_arg29)

/-- Layer 1, paper nodes: `_conv(x_author, x_paper, a2p)` then `_bn_lrelu`. -/
def hP1 (a : Args F) : Ten F S100000x128 .f32 :=
  refBN
    (refConv dot_S100000x128_S128x128_S100000x128_1_0_0_1_n_n dot_S100000x256_S256x128_S100000x128_1_0_0_1_n_n
      (a main_arg1) (refAgg256 (a main_arg0) (a main_arg3)) (a main_arg12) (a main_arg13) (a main_arg10) (a main_arg11) (a main_arg14) (a main_arg15))
    (a main_arg30) (a main_arg31)

/-- Layer 2, author nodes: `_conv(h_p, h_a, p2a)` then `_bn_lrelu`. -/
def hA2 (a : Args F) : Ten F S100000x128 .f32 :=
  refBN
    (refConv dot_S100000x128_S128x128_S100000x128_1_0_0_1_n_n dot_S100000x128_S128x128_S100000x128_1_0_0_1_n_n
      (hA1 a) (refAgg128 (hP1 a) (a main_arg2)) (a main_arg18) (a main_arg19) (a main_arg16) (a main_arg17) (a main_arg20) (a main_arg21))
    (a main_arg32) (a main_arg33)

/-- Layer 2, paper nodes: `_conv(h_a, h_p, a2p)` then `_bn_lrelu`. -/
def hP2 (a : Args F) : Ten F S100000x128 .f32 :=
  refBN
    (refConv dot_S100000x128_S128x128_S100000x128_1_0_0_1_n_n dot_S100000x128_S128x128_S100000x128_1_0_0_1_n_n
      (hP1 a) (refAgg128 (hA1 a) (a main_arg3)) (a main_arg24) (a main_arg25) (a main_arg22) (a main_arg23) (a main_arg26) (a main_arg27))
    (a main_arg34) (a main_arg35)

/-- @main's first result (`out_a`, buffer `main_v235`) over the arguments' contents. -/
def outA (a : Args F) : Ten F S100000x4 .f32 := refHeadA (hA2 a) (a main_arg36) (a main_arg37)

/-- @main's second result (`out_p`, buffer `main_v239`) over the arguments' contents. -/
def outP (a : Args F) : Ten F S100000x7 .f32 := refHeadP (hP2 a) (a main_arg38) (a main_arg39)

end Cert.ReferenceIdeal.RefRun

end
-- ==== Proof.Math.KStages.lean ====
/- The host operations the kernel's program applies between its regions, as named pure functions of their inputs
   (each literally the printed operations' composition): a bias or scale vector as a one-row array, the two halves of the
   update weight, and the batch mean and variance from the accumulated column sums. -/
import proofs.«154353_j88940182765819_1_alg».proof.KernelIdeal

noncomputable section

namespace Cert.Bridge

open Cert.KernelIdeal Idealize.ShloMosaic Idealize.SL.Sem
open Cert.KernelIdeal.Facts₀

variable {F : FTy → Type} [FloatOps F] [Cert.KernelIdeal.Facts]

/-- The contents of a tensor value of shape `S` and element type `e`. -/
abbrev KTen (F : FTy → Type) (S : Shape) (e : EltTy) : Type := (⟨S, e⟩ : BufTy).Contents (Elt F)

/-- A 128-vector as a one-row array (the reshape the program applies to every bias and scale before a kernel reads it). -/
def kRow (v : KTen F S128 .f32) : KTen F S1x128 .f32 := shapeCast S1x128 v shapeCasts_S128_S1x128
/-- The same for the two heads' biases. -/
def kRow4 (v : KTen F S4 .f32) : KTen F S1x4 .f32 := shapeCast S1x4 v shapeCasts_S4_S1x4
def kRow7 (v : KTen F S7 .f32) : KTen F S1x7 .f32 := shapeCast S1x7 v shapeCasts_S7_S1x7
/-- The update weight's rows 0..127 (applied to the destination half) and 128..255 (applied to the aggregated half). -/
def kWu0 (wu : KTen F S256x128 .f32) : KTen F S128x128 .f32 := extractStridedSlice S128x128 ![0, 0] wu slices_S256x128_S128x128_0_0
def kWu1 (wu : KTen F S256x128 .f32) : KTen F S128x128 .f32 := extractStridedSlice S128x128 ![128, 0] wu slices_S256x128_S128x128_128_0
/-- The batch mean from the accumulated column sums: sum / 100000. -/
def kMean (s : KTen F S1x128 .f32) : KTen F S1x128 .f32 :=
  Host.divf s (broadcastInDim S1x128 ![] bcast_S_S1x128 (constant (F := F) S_ .f32 0x47C35000#32))
/-- The batch variance from the accumulated column sums of squares: max(sumsq / 100000 - mean², 0). -/
def kVar (s q : KTen F S1x128 .f32) : KTen F S1x128 .f32 :=
  maximumf
    (subf (Host.divf q (broadcastInDim S1x128 ![] bcast_S_S1x128 (constant (F := F) S_ .f32 0x47C35000#32)))
      (mulf (kMean s) (kMean s)))
    (broadcastInDim S1x128 ![] bcast_S_S1x128 (constant (F := F) S_ .f32 0x00000000#32))

end Cert.Bridge

end
-- ==== Proof.Math.SplitSum.lean ====
/- Splitting a contraction over a concatenation.

   One program contracts a 256-column concatenation [hd | hs] with a weight in a single sum over 256 indices;
   the other adds two 128-column products. A sum over Fin (128 + 128) is the sum over the first 128 indices
   plus the sum over the last 128. Extended reals are an additive commutative monoid, so no finiteness is needed. -/
import Idealize.ShloMosaic.PureOps.Ideal

namespace Cert.Bridge

open scoped BigOperators

/-- A sum over `Fin (m + n)` splits into the first `m` and the last `n` indices. -/
theorem sum_split_gen {M : Type*} [AddCommMonoid M] (m n : ℕ) (f : Fin (m + n) → M) :
    ∑ k, f k = (∑ k : Fin m, f (Fin.castAdd n k)) + ∑ k : Fin n, f (Fin.natAdd m k) :=
  Fin.sum_univ_add f

/-- The 256-index contraction is the sum of the two 128-index ones. -/
theorem sum_split (f : Fin 256 → EReal) :
    ∑ k, f k = (∑ k : Fin 128, f (Fin.castAdd 128 k)) + ∑ k : Fin 128, f (Fin.natAdd 128 k) :=
  sum_split_gen 128 128 f

/-- The same with the two index maps spelled by their values. -/
theorem sum_split_val (f : Fin 256 → EReal) :
    ∑ k, f k = (∑ k : Fin 128, f ⟨k.val, by omega⟩) + ∑ k : Fin 128, f ⟨128 + k.val, by omega⟩ :=
  sum_split f

end Cert.Bridge
-- ==== Proof.Math.ConvRead.lean ====
/- The reference's convolution stage read at an index, at the ideal values: a contraction with the update weight of the
   concatenation [x_dst·wd + bd | agg·ws + bs] is the sum of the two halves' contractions with the weight's rows 0..127
   and 128..255, plus the bias. Also the kernel-side host slices of the update weight and the one-row reshape of a bias
   read at an index. -/
import proofs.«154353_j88940182765819_1_alg».proof.Proof.Ref.Stages
import proofs.«154353_j88940182765819_1_alg».proof.Proof.Gen.ReferenceIdeal
import proofs.«154353_j88940182765819_1_alg».proof.Proof.Gen.KernelIdeal
import proofs.«154353_j88940182765819_1_alg».proof.Proof.Math.KStages
import proofs.«154353_j88940182765819_1_alg».proof.Proof.Math.SplitSum
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

set_option maxRecDepth 16384

noncomputable section

namespace Cert.Bridge

open Idealize.ShloMosaic Idealize.ShloMosaic.ValueIdx
open Cert.ReferenceIdeal.RefRun

/-- A bias vector as a one-row array, read at column `j`: the reshape keeps the entry. -/
theorem kRow_at (v : KTen Ideal Cert.KernelIdeal.S128 .f32) (j : Fin 128) : kRow v (ix2 (0 : Fin 1) j) = v (ix1 j) := by
  unfold kRow
  exact shapeCast_apply v _ (ix2 (0 : Fin 1) j) (ix1 j) (by
    rw [Shape.rowMajor_val_two, Shape.rowMajor_val_one]; show j.val = 0 * 128 + j.val; omega)

/-- The update weight's upper half read at `(k, j)` is the weight at row `k`. -/
theorem kWu0_apply (wu : KTen Ideal Cert.KernelIdeal.S256x128 .f32) (k j : Fin 128) :
    kWu0 wu (ix2 k j) = wu (ix2 (⟨k.val, by omega⟩ : Fin 256) j) := by
  unfold kWu0
  refine extractStridedSlice_apply ![0, 0] wu _ (ix2 k j) (ix2 (⟨k.val, by omega⟩ : Fin 256) j) fun a => ?_
  match a with
  | ⟨0, _⟩ => show k.val = 0 + k.val; omega
  | ⟨1, _⟩ => show j.val = 0 + j.val; omega

/-- The update weight's lower half read at `(k, j)` is the weight at row `128 + k`. -/
theorem kWu1_apply (wu : KTen Ideal Cert.KernelIdeal.S256x128 .f32) (k j : Fin 128) :
    kWu1 wu (ix2 k j) = wu (ix2 (⟨128 + k.val, by omega⟩ : Fin 256) j) := by
  unfold kWu1
  refine extractStridedSlice_apply ![128, 0] wu _ (ix2 k j) (ix2 (⟨128 + k.val, by omega⟩ : Fin 256) j) fun a => ?_
  match a with
  | ⟨0, _⟩ => show 128 + k.val = 128 + k.val; rfl
  | ⟨1, _⟩ => show j.val = 0 + j.val; omega

/-- A 128-vector broadcast to one row and then down the 100000 rows, read at `(r, j)`, is the vector at `j`. -/
theorem refRows_at (v : FVec Ideal ⟨1, ![128]⟩ .f32) (r : Fin 100000) (j : Fin 128) :
    refRows (F := Ideal) v (ix2 r j) = v (ix1 j) := by
  unfold refRows
  rw [broadcastInDim_oneRow_apply]
  refine broadcastInDim_apply ![1] _ v (ix2 (0 : Fin 1) j) (ix1 j) fun a => ?_
  match a with
  | ⟨0, _⟩ =>
    show j.val = if (128 : ℕ) = 1 then 0 else j.val
    split
    · omega
    · rfl

/-- A product of a 100000×256 array by a 256×128 weight, read at `(r, j)`: the sum over the contracted coordinate. -/
theorem refDot256_apply (x : FVec Ideal ⟨2, ![100000, 256]⟩ .f32) (w : FVec Ideal ⟨2, ![256, 128]⟩ .f32)
    (r : Fin 100000) (j : Fin 128) :
    Host.dotGeneral (F := Ideal) Cert.ReferenceIdeal.dot_S100000x256_S256x128_S100000x128_1_0_0_1_n_n none x w (ix2 r j) = ∑ k : Fin 256, x (ix2 r k) * w (ix2 k j) := by
  show FloatOps.dotGeneral _ none _ x w (ix2 r j) = _
  rw [Ideal.dotGeneral_apply, ← Equiv.sum_comp (contrEquiv1 Cert.ReferenceIdeal.dot_S100000x256_S256x128_S100000x128_1_0_0_1_n_n 256 rfl rfl).symm]
  refine Finset.sum_congr rfl fun k _ => ?_
  have c2 := contrEquiv1_symm_val Cert.ReferenceIdeal.dot_S100000x256_S256x128_S100000x128_1_0_0_1_n_n 256 rfl rfl k
  have l2 : (Cert.ReferenceIdeal.dot_S100000x256_S256x128_S100000x128_1_0_0_1_n_n).lhsIdx (ix2 r j) ((contrEquiv1 _ 256 rfl rfl).symm k) = ix2 r k := by
    funext ax; apply Fin.ext
    match ax with
    | ⟨0, _⟩ => simp [DotDims.lhsIdx, Cert.ReferenceIdeal.dot_S100000x256_S256x128_S100000x128_1_0_0_1_n_n]; rfl
    | ⟨1, _⟩ => simp [DotDims.lhsIdx, Cert.ReferenceIdeal.dot_S100000x256_S256x128_S100000x128_1_0_0_1_n_n]; exact c2
  have r2 : (Cert.ReferenceIdeal.dot_S100000x256_S256x128_S100000x128_1_0_0_1_n_n).rhsIdx (ix2 r j) ((contrEquiv1 _ 256 rfl rfl).symm k) = ix2 k j := by
    funext ax; apply Fin.ext
    match ax with
    | ⟨0, _⟩ => simp [DotDims.rhsIdx, Cert.ReferenceIdeal.dot_S100000x256_S256x128_S100000x128_1_0_0_1_n_n]; exact c2
    | ⟨1, _⟩ => simp [DotDims.rhsIdx, Cert.ReferenceIdeal.dot_S100000x256_S256x128_S100000x128_1_0_0_1_n_n]; rfl
  rw [l2, r2]

/-- A product of a 100000×128 array by a 128×128 weight, read at `(r, j)`. -/
theorem refDot128_apply (x : FVec Ideal ⟨2, ![100000, 128]⟩ .f32) (w : FVec Ideal ⟨2, ![128, 128]⟩ .f32)
    (r : Fin 100000) (j : Fin 128) :
    Host.dotGeneral (F := Ideal) Cert.ReferenceIdeal.dot_S100000x128_S128x128_S100000x128_1_0_0_1_n_n none x w (ix2 r j) = ∑ k : Fin 128, x (ix2 r k) * w (ix2 k j) := by
  show FloatOps.dotGeneral _ none _ x w (ix2 r j) = _
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have c2 := contrEquiv1_symm_val Cert.ReferenceIdeal.dot_S100000x128_S128x128_S100000x128_1_0_0_1_n_n 128 rfl rfl k
  have l2 : (Cert.ReferenceIdeal.dot_S100000x128_S128x128_S100000x128_1_0_0_1_n_n).lhsIdx (ix2 r j) ((contrEquiv1 _ 128 rfl rfl).symm k) = ix2 r k := by
    funext ax; apply Fin.ext
    match ax with
    | ⟨0, _⟩ => simp [DotDims.lhsIdx, Cert.ReferenceIdeal.dot_S100000x128_S128x128_S100000x128_1_0_0_1_n_n]; rfl
    | ⟨1, _⟩ => simp [DotDims.lhsIdx, Cert.ReferenceIdeal.dot_S100000x128_S128x128_S100000x128_1_0_0_1_n_n]; exact c2
  have r2 : (Cert.ReferenceIdeal.dot_S100000x128_S128x128_S100000x128_1_0_0_1_n_n).rhsIdx (ix2 r j) ((contrEquiv1 _ 128 rfl rfl).symm k) = ix2 k j := by
    funext ax; apply Fin.ext
    match ax with
    | ⟨0, _⟩ => simp [DotDims.rhsIdx, Cert.ReferenceIdeal.dot_S100000x128_S128x128_S100000x128_1_0_0_1_n_n]; exact c2
    | ⟨1, _⟩ => simp [DotDims.rhsIdx, Cert.ReferenceIdeal.dot_S100000x128_S128x128_S100000x128_1_0_0_1_n_n]; rfl
  rw [l2, r2]

/-- The concatenation of two 100000×128 arrays along the columns, read at a column of the left half. -/
theorem cat_left (A B : FVec Ideal ⟨2, ![100000, 128]⟩ .f32) (r : Fin 100000) (k : Fin 128) :
    concatenate Cert.ReferenceIdeal.S100000x256 1 [⟨Cert.ReferenceIdeal.S100000x128, A⟩, ⟨Cert.ReferenceIdeal.S100000x128, B⟩]
      Cert.ReferenceIdeal.Facts₀.concatenates_S100000x128_S100000x128_S100000x256_d1 (ix2 r (⟨k.val, by omega⟩ : Fin 256)) = A (ix2 r k) := by
  refine concatenate_pair_apply_left 1 A B _ (ix2 r (⟨k.val, by omega⟩ : Fin 256)) rfl (ix2 r k) fun b => ?_
  match b with
  | ⟨0, _⟩ => rfl
  | ⟨1, _⟩ => rfl

/-- … and at a column of the right half. -/
theorem cat_right (A B : FVec Ideal ⟨2, ![100000, 128]⟩ .f32) (r : Fin 100000) (k : Fin 128) :
    concatenate Cert.ReferenceIdeal.S100000x256 1 [⟨Cert.ReferenceIdeal.S100000x128, A⟩, ⟨Cert.ReferenceIdeal.S100000x128, B⟩]
      Cert.ReferenceIdeal.Facts₀.concatenates_S100000x128_S100000x128_S100000x256_d1 (ix2 r (⟨128 + k.val, by omega⟩ : Fin 256)) = B (ix2 r k) := by
  refine concatenate_pair_apply_right 1 A B _ (ix2 r (⟨128 + k.val, by omega⟩ : Fin 256)) rfl rfl (ix2 r k) (fun b hb => ?_) ?_
  · match b with
    | ⟨0, _⟩ => rfl
    | ⟨1, _⟩ => exact absurd rfl hb
  · show k.val + 128 = 128 + k.val; omega

/-- The reference's last contraction and bias over any two 100000×128 halves. -/
theorem refTail_apply (A B : FVec Ideal ⟨2, ![100000, 128]⟩ .f32) (wu : FVec Ideal ⟨2, ![256, 128]⟩ .f32)
    (bu : FVec Ideal ⟨1, ![128]⟩ .f32) (i : Fin 100000) (j : Fin 128) :
    addf (Host.dotGeneral (F := Ideal) Cert.ReferenceIdeal.dot_S100000x256_S256x128_S100000x128_1_0_0_1_n_n none
        (concatenate Cert.ReferenceIdeal.S100000x256 1 [⟨Cert.ReferenceIdeal.S100000x128, A⟩, ⟨Cert.ReferenceIdeal.S100000x128, B⟩]
          Cert.ReferenceIdeal.Facts₀.concatenates_S100000x128_S100000x128_S100000x256_d1) wu) (refRows (F := Ideal) bu) (ix2 i j)
      = (∑ k : Fin 128, A (ix2 i k) * wu (ix2 (⟨k.val, by omega⟩ : Fin 256) j))
        + (∑ k : Fin 128, B (ix2 i k) * wu (ix2 (⟨128 + k.val, by omega⟩ : Fin 256) j))
        + bu (ix1 j) := by
  show Host.dotGeneral (F := Ideal) _ none _ wu (ix2 i j) + refRows (F := Ideal) bu (ix2 i j) = _
  rw [refDot256_apply, refRows_at, sum_split_val]
  congr 1
  congr 1
  · exact Finset.sum_congr rfl fun k _ => by rw [cat_left]
  · exact Finset.sum_congr rfl fun k _ => by rw [cat_right]

/-- The first linear map plus bias over a 100000×256 input, read at `(i, k)`. -/
theorem lin256_apply (x : FVec Ideal ⟨2, ![100000, 256]⟩ .f32) (w : FVec Ideal ⟨2, ![256, 128]⟩ .f32) (b : FVec Ideal ⟨1, ![128]⟩ .f32)
    (i : Fin 100000) (k : Fin 128) :
    addf (Host.dotGeneral (F := Ideal) Cert.ReferenceIdeal.dot_S100000x256_S256x128_S100000x128_1_0_0_1_n_n none x w) (refRows (F := Ideal) b) (ix2 i k)
      = (∑ l : Fin 256, x (ix2 i l) * w (ix2 l k)) + b (ix1 k) := by
  show Host.dotGeneral (F := Ideal) _ none x w (ix2 i k) + refRows (F := Ideal) b (ix2 i k) = _
  rw [refDot256_apply, refRows_at]

/-- The first linear map plus bias over a 100000×128 input, read at `(i, k)`. -/
theorem lin128_apply (x : FVec Ideal ⟨2, ![100000, 128]⟩ .f32) (w : FVec Ideal ⟨2, ![128, 128]⟩ .f32) (b : FVec Ideal ⟨1, ![128]⟩ .f32)
    (i : Fin 100000) (k : Fin 128) :
    addf (Host.dotGeneral (F := Ideal) Cert.ReferenceIdeal.dot_S100000x128_S128x128_S100000x128_1_0_0_1_n_n none x w) (refRows (F := Ideal) b) (ix2 i k)
      = (∑ l : Fin 128, x (ix2 i l) * w (ix2 l k)) + b (ix1 k) := by
  show Host.dotGeneral (F := Ideal) _ none x w (ix2 i k) + refRows (F := Ideal) b (ix2 i k) = _
  rw [refDot128_apply, refRows_at]

/-- The reference's convolution stage at `(i, j)`, destination features 256 wide, aggregated features 128 wide. -/
theorem refConv_apply_256_128 (xd : Ten Ideal Cert.ReferenceIdeal.S100000x256 .f32) (agg : Ten Ideal Cert.ReferenceIdeal.S100000x128 .f32)
    (wd : Ten Ideal Cert.ReferenceIdeal.S256x128 .f32) (bd : Ten Ideal Cert.ReferenceIdeal.S128 .f32)
    (ws : Ten Ideal Cert.ReferenceIdeal.S128x128 .f32) (bs : Ten Ideal Cert.ReferenceIdeal.S128 .f32)
    (wu : Ten Ideal Cert.ReferenceIdeal.S256x128 .f32) (bu : Ten Ideal Cert.ReferenceIdeal.S128 .f32) (i : Fin 100000) (j : Fin 128) :
    refConv (F := Ideal) Cert.ReferenceIdeal.dot_S100000x256_S256x128_S100000x128_1_0_0_1_n_n Cert.ReferenceIdeal.dot_S100000x128_S128x128_S100000x128_1_0_0_1_n_n xd agg wd bd ws bs wu bu (ix2 i j)
      = (∑ k : Fin 128, ((∑ l : Fin 256, xd (ix2 i l) * wd (ix2 l k)) + bd (ix1 k)) * wu (ix2 (⟨k.val, by omega⟩ : Fin 256) j))
        + (∑ k : Fin 128, ((∑ l : Fin 128, agg (ix2 i l) * ws (ix2 l k)) + bs (ix1 k)) * wu (ix2 (⟨128 + k.val, by omega⟩ : Fin 256) j))
        + bu (ix1 j) := by
  unfold refConv
  rw [refTail_apply]
  congr 1
  congr 1
  · exact Finset.sum_congr rfl fun k _ => by rw [lin256_apply]
  · exact Finset.sum_congr rfl fun k _ => by rw [lin128_apply]

/-- The same with the destination features 128 wide and the aggregated features 256 wide. -/
theorem refConv_apply_128_256 (xd : Ten Ideal Cert.ReferenceIdeal.S100000x128 .f32) (agg : Ten Ideal Cert.ReferenceIdeal.S100000x256 .f32)
    (wd : Ten Ideal Cert.ReferenceIdeal.S128x128 .f32) (bd : Ten Ideal Cert.ReferenceIdeal.S128 .f32)
    (ws : Ten Ideal Cert.ReferenceIdeal.S256x128 .f32) (bs : Ten Ideal Cert.ReferenceIdeal.S128 .f32)
    (wu : Ten Ideal Cert.ReferenceIdeal.S256x128 .f32) (bu : Ten Ideal Cert.ReferenceIdeal.S128 .f32) (i : Fin 100000) (j : Fin 128) :
    refConv (F := Ideal) Cert.ReferenceIdeal.dot_S100000x128_S128x128_S100000x128_1_0_0_1_n_n Cert.ReferenceIdeal.dot_S100000x256_S256x128_S100000x128_1_0_0_1_n_n xd agg wd bd ws bs wu bu (ix2 i j)
      = (∑ k : Fin 128, ((∑ l : Fin 128, xd (ix2 i l) * wd (ix2 l k)) + bd (ix1 k)) * wu (ix2 (⟨k.val, by omega⟩ : Fin 256) j))
        + (∑ k : Fin 128, ((∑ l : Fin 256, agg (ix2 i l) * ws (ix2 l k)) + bs (ix1 k)) * wu (ix2 (⟨128 + k.val, by omega⟩ : Fin 256) j))
        + bu (ix1 j) := by
  unfold refConv
  rw [refTail_apply]
  congr 1
  congr 1
  · exact Finset.sum_congr rfl fun k _ => by rw [lin128_apply]
  · exact Finset.sum_congr rfl fun k _ => by rw [lin256_apply]

/-- The same with both 128 wide (the second layer). -/
theorem refConv_apply_128_128 (xd agg : Ten Ideal Cert.ReferenceIdeal.S100000x128 .f32)
    (wd : Ten Ideal Cert.ReferenceIdeal.S128x128 .f32) (bd : Ten Ideal Cert.ReferenceIdeal.S128 .f32)
    (ws : Ten Ideal Cert.ReferenceIdeal.S128x128 .f32) (bs : Ten Ideal Cert.ReferenceIdeal.S128 .f32)
    (wu : Ten Ideal Cert.ReferenceIdeal.S256x128 .f32) (bu : Ten Ideal Cert.ReferenceIdeal.S128 .f32) (i : Fin 100000) (j : Fin 128) :
    refConv (F := Ideal) Cert.ReferenceIdeal.dot_S100000x128_S128x128_S100000x128_1_0_0_1_n_n Cert.ReferenceIdeal.dot_S100000x128_S128x128_S100000x128_1_0_0_1_n_n xd agg wd bd ws bs wu bu (ix2 i j)
      = (∑ k : Fin 128, ((∑ l : Fin 128, xd (ix2 i l) * wd (ix2 l k)) + bd (ix1 k)) * wu (ix2 (⟨k.val, by omega⟩ : Fin 256) j))
        + (∑ k : Fin 128, ((∑ l : Fin 128, agg (ix2 i l) * ws (ix2 l k)) + bs (ix1 k)) * wu (ix2 (⟨128 + k.val, by omega⟩ : Fin 256) j))
        + bu (ix1 j) := by
  unfold refConv
  rw [refTail_apply]
  congr 1
  congr 1
  · exact Finset.sum_congr rfl fun k _ => by rw [lin128_apply]
  · exact Finset.sum_congr rfl fun k _ => by rw [lin128_apply]

end Cert.Bridge

end
-- ==== Proof.KI.Value0A.lean ====
import proofs.«154353_j88940182765819_1_alg».proof.Proof.KI.Pieces0
import proofs.«154353_j88940182765819_1_alg».proof.Proof.KI.ConvCommon
import proofs.«154353_j88940182765819_1_alg».proof.Proof.Math.BlockSums
import proofs.«154353_j88940182765819_1_alg».proof.Proof.Math.ConvRead

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Bridge
open scoped BigOperators

variable (V : (c : Dev nD) → (b : Ref sig .tc) → Buf (Elt Ideal) ((c : Thread nD τ).loc b))

/-! # Region 0 at the ideal values

The block output's array ends holding the convolution's closed form over the arrays the region finds; the two
row outputs end holding the column sums of that array and of its squares: each grid point adds its block's column
sums to an accumulator row that the first point zeroes and the last point copies out. -/

/-! ## The body's payloads at an element -/

/-- The two stacked products: the destination rows through `wd`, `bd` and the first half of the update weight, plus the
    aggregated rows through `ws`, `bs` and the second half. (Rounding the factors to bf16 is the identity at the
    ideal values.) -/
theorem pay6_0_apply (x0 : Vec Ideal S4000x256 .f32) (x1 : Vec Ideal S4000x128 .f32) (x2 : Vec Ideal S256x128 .f32) (x3 : Vec Ideal S1x128 .f32)
    (x4 : Vec Ideal S128x128 .f32) (x5 : Vec Ideal S1x128 .f32) (x6 x7 : Vec Ideal S128x128 .f32) (r : Fin 4000) (j : Fin 128) :
    k0_pay6 x0 x1 x2 x4 x6 x7 x3 x5 (ix2 r j)
      = (∑ k : Fin 128, ((∑ l : Fin 256, x0 (ix2 r l) * x2 (ix2 l k)) + x3 (ix2 (0 : Fin 1) k)) * x6 (ix2 k j))
        + (∑ k : Fin 128, ((∑ l : Fin 128, x1 (ix2 r l) * x4 (ix2 l k)) + x5 (ix2 (0 : Fin 1) k)) * x7 (ix2 k j)) := by
  unfold k0_pay6
  simp only [shapeCast_self, addf_apply, truncf_apply, broadcastTo_1b_ab_apply, mm_4000_128, mm_4000_256]

/-- The block of `h`: the stacked products plus the update bias row. -/
theorem pay1_0_apply (p : FVec Ideal S4000x128 .f32) (x8 : Vec Ideal S1x128 .f32) (r : Fin 4000) (j : Fin 128) :
    k0_pay1 p x8 (ix2 r j) = p (ix2 r j) + x8 (ix2 (0 : Fin 1) j) := by
  unfold k0_pay1
  simp only [shapeCast_self, addf_apply, broadcastTo_1b_ab_apply]

/-- The first accumulator row after a point: what it held plus the block's column sums. -/
theorem pay2_0_apply (p : FVec Ideal S4000x128 .f32) (x8 a : Vec Ideal S1x128 .f32) (j : Fin 128) :
    k0_pay2 p x8 a (ix2 (0 : Fin 1) j) = a (ix2 (0 : Fin 1) j) + ∑ r : Fin 4000, k0_pay1 p x8 (ix2 r j) := by
  unfold k0_pay2
  simp only [shapeCast_self, addf_apply]
  rw [shapeCast_a_1a_apply]
  exact congrArg (a (ix2 (0 : Fin 1) j) + ·) (colsum_apply _ _ _ _ j)

/-- The second accumulator row after a point: what it held plus the column sums of the block's squares. -/
theorem pay3_0_apply (p : FVec Ideal S4000x128 .f32) (x8 a : Vec Ideal S1x128 .f32) (j : Fin 128) :
    k0_pay3 p x8 a (ix2 (0 : Fin 1) j)
      = a (ix2 (0 : Fin 1) j) + ∑ r : Fin 4000, k0_pay1 p x8 (ix2 r j) * k0_pay1 p x8 (ix2 r j) := by
  unfold k0_pay3
  simp only [shapeCast_self, addf_apply]
  rw [shapeCast_a_1a_apply]
  exact congrArg (a (ix2 (0 : Fin 1) j) + ·) (colsum_apply _ _ _ _ j)

/-- The zero rows the first point stores into the accumulators. -/
theorem pay4_0_apply (j : Fin 128) : k0_pay4 (F := Ideal) (ix2 (0 : Fin 1) j) = 0 := by
  unfold k0_pay4
  simp only [shapeCast_self, broadcast_apply]
  exact Ideal.ofBits_zero_f32
theorem pay5_0_apply (j : Fin 128) : k0_pay5 (F := Ideal) (ix2 (0 : Fin 1) j) = 0 := by
  unfold k0_pay5
  simp only [shapeCast_self, broadcast_apply]
  exact Ideal.ofBits_zero_f32

/-! ## The windows' blocks as parts of their arrays -/

/-- The index maps over the grid: the two row-blocked inputs' and the block output's block at point `t` is row block
    `t`; every other window's block is the one block there is. -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

/-- Row-blocked input 0's block at point `t` is rows `4000 t … 4000 t + 3999` of its array. -/
theorem iblk0_0_apply (c : Dev nD) (t : Fin cfg0.N) (r : Fin 4000) (l : Fin 256) (k : S100000x256.Idx)
    (hk0 : (k 0).val = 4000 * t.val + r.val) (hk1 : (k 1).val = l.val) :
    (iblk0 V c 0 t : Vec Ideal S4000x256 .f32) (ix2 r l) = (V c (Pipeline.arrRef spec0 0) : S100000x256.Idx → EReal) k := by
  obtain ⟨⟨e0, e1⟩, -, -, -, -, -, -, -, -, -, -, -⟩ := idx0 t
  unfold iblk0
  rw [View.read_apply]
  show (V c (Pipeline.arrRef spec0 0) : S100000x256.Idx → EReal) _ = _
  refine congrArg _ (funext fun a => Fin.ext ?_)
  match a with
  | ⟨0, _⟩ => show win0_0.index t (0 : Fin 2) * 4000 + 1 * r.val = (k 0).val; rw [e0, hk0]; omega
  | ⟨1, _⟩ => show win0_0.index t (1 : Fin 2) * 256 + 1 * l.val = (k 1).val; rw [e1, hk1]; omega

/-- Row-blocked input 1's block at point `t` is rows `4000 t … 4000 t + 3999` of its array. -/
theorem iblk0_1_apply (c : Dev nD) (t : Fin cfg0.N) (r : Fin 4000) (l : Fin 128) (k : S100000x128.Idx)
    (hk0 : (k 0).val = 4000 * t.val + r.val) (hk1 : (k 1).val = l.val) :
    (iblk0 V c 1 t : Vec Ideal S4000x128 .f32) (ix2 r l) = (V c (Pipeline.arrRef spec0 1) : S100000x128.Idx → EReal) k := by
  obtain ⟨-, ⟨e0, e1⟩, -, -, -, -, -, -, -, -, -, -⟩ := idx0 t
  unfold iblk0
  rw [View.read_apply]
  show (V c (Pipeline.arrRef spec0 1) : S100000x128.Idx → EReal) _ = _
  refine congrArg _ (funext fun a => Fin.ext ?_)
  match a with
  | ⟨0, _⟩ => show win0_1.index t (0 : Fin 2) * 4000 + 1 * r.val = (k 0).val; rw [e0, hk0]; omega
  | ⟨1, _⟩ => show win0_1.index t (1 : Fin 2) * 128 + 1 * l.val = (k 1).val; rw [e1, hk1]; omega

/-- Resident input 2's block, at every point, is its whole array. -/
theorem iblk0_2_apply (c : Dev nD) (t : Fin cfg0.N) (l : Fin 256) (k : Fin 128) :
    (iblk0 V c 2 t : Vec Ideal S256x128 .f32) (ix2 l k) = (V c (Pipeline.arrRef spec0 2) : S256x128.Idx → EReal) (ix2 l k) := by
  obtain ⟨-, -, ⟨e0, e1⟩, -, -, -, -, -, -, -, -, -⟩ := idx0 t
  unfold iblk0
  rw [View.read_apply]
  show (V c (Pipeline.arrRef spec0 2) : S256x128.Idx → EReal) _ = _
  refine congrArg _ (funext fun a => Fin.ext ?_)
  match a with
  | ⟨0, _⟩ => show win0_2.index t (0 : Fin 2) * 256 + 1 * l.val = l.val; rw [e0]; omega
  | ⟨1, _⟩ => show win0_2.index t (1 : Fin 2) * 128 + 1 * k.val = k.val; rw [e1]; omega

/-- Resident input 4's block, at every point, is its whole array. -/
theorem iblk0_4_apply (c : Dev nD) (t : Fin cfg0.N) (l : Fin 128) (k : Fin 128) :
    (iblk0 V c 4 t : Vec Ideal S128x128 .f32) (ix2 l k) = (V c (Pipeline.arrRef spec0 4) : S128x128.Idx → EReal) (ix2 l k) := by
  obtain ⟨-, -, -, -, ⟨e0, e1⟩, -, -, -, -, -, -, -⟩ := idx0 t
  unfold iblk0
  rw [View.read_apply]
  show (V c (Pipeline.arrRef spec0 4) : S128x128.Idx → EReal) _ = _
  refine congrArg _ (funext fun a => Fin.ext ?_)
  match a with
  | ⟨0, _⟩ => show win0_4.index t (0 : Fin 2) * 128 + 1 * l.val = l.val; rw [e0]; omega
  | ⟨1, _⟩ => show win0_4.index t (1 : Fin 2) * 128 + 1 * k.val = k.val; rw [e1]; omega

/-- Resident input 6's block, at every point, is its whole array. -/
theorem iblk0_6_apply (c : Dev nD) (t : Fin cfg0.N) (l : Fin 128) (k : Fin 128) :
    (iblk0 V c 6 t : Vec Ideal S128x128 .f32) (ix2 l k) = (V c (Pipeline.arrRef spec0 6) : S128x128.Idx → EReal) (ix2 l k) := by
  obtain ⟨-, -, -, -, -, -, ⟨e0, e1⟩, -, -, -, -, -⟩ := idx0 t
  unfold iblk0
  rw [View.read_apply]
  show (V c (Pipeline.arrRef spec0 6) : S128x128.Idx → EReal) _ = _
  refine congrArg _ (funext fun a => Fin.ext ?_)
  match a with
  | ⟨0, _⟩ => show win0_6.index t (0 : Fin 2) * 128 + 1 * l.val = l.val; rw [e0]; omega
  | ⟨1, _⟩ => show win0_6.index t (1 : Fin 2) * 128 + 1 * k.val = k.val; rw [e1]; omega

/-- Resident input 7's block, at every point, is its whole array. -/
theorem iblk0_7_apply (c : Dev nD) (t : Fin cfg0.N) (l : Fin 128) (k : Fin 128) :
    (iblk0 V c 7 t : Vec Ideal S128x128 .f32) (ix2 l k) = (V c (Pipeline.arrRef spec0 7) : S128x128.Idx → EReal) (ix2 l k) := by
  obtain ⟨-, -, -, -, -, -, -, ⟨e0, e1⟩, -, -, -, -⟩ := idx0 t
  unfold iblk0
  rw [View.read_apply]
  show (V c (Pipeline.arrRef spec0 7) : S128x128.Idx → EReal) _ = _
  refine congrArg _ (funext fun a => Fin.ext ?_)
  match a with
  | ⟨0, _⟩ => show win0_7.index t (0 : Fin 2) * 128 + 1 * l.val = l.val; rw [e0]; omega
  | ⟨1, _⟩ => show win0_7.index t (1 : Fin 2) * 128 + 1 * k.val = k.val; rw [e1]; omega

/-- Resident bias row 3's block, at every point, is its whole one-row array. -/
theorem iblk0_3_apply (c : Dev nD) (t : Fin cfg0.N) (k : Fin 128) :
    (iblk0 V c 3 t : Vec Ideal S1x128 .f32) (ix2 (0 : Fin 1) k) = (V c (Pipeline.arrRef spec0 3) : S1x128.Idx → EReal) (ix2 (0 : Fin 1) k) := by
  obtain ⟨-, -, -, ⟨e0, e1⟩, -, -, -, -, -, -, -, -⟩ := idx0 t
  unfold iblk0
  rw [View.read_apply]
  show (V c (Pipeline.arrRef spec0 3) : S1x128.Idx → EReal) _ = _
  refine congrArg _ (funext fun a => Fin.ext ?_)
  match a with
  | ⟨0, _⟩ => show win0_3.index t (0 : Fin 2) * 1 + 1 * 0 = 0; rw [e0]
  | ⟨1, _⟩ => show win0_3.index t (1 : Fin 2) * 128 + 1 * k.val = k.val; rw [e1]; omega

/-- Resident bias row 5's block, at every point, is its whole one-row array. -/
theorem iblk0_5_apply (c : Dev nD) (t : Fin cfg0.N) (k : Fin 128) :
    (iblk0 V c 5 t : Vec Ideal S1x128 .f32) (ix2 (0 : Fin 1) k) = (V c (Pipeline.arrRef spec0 5) : S1x128.Idx → EReal) (ix2 (0 : Fin 1) k) := by
  obtain ⟨-, -, -, -, -, ⟨e0, e1⟩, -, -, -, -, -, -⟩ := idx0 t
  unfold iblk0
  rw [View.read_apply]
  show (V c (Pipeline.arrRef spec0 5) : S1x128.Idx → EReal) _ = _
  refine congrArg _ (funext fun a => Fin.ext ?_)
  match a with
  | ⟨0, _⟩ => show win0_5.index t (0 : Fin 2) * 1 + 1 * 0 = 0; rw [e0]
  | ⟨1, _⟩ => show win0_5.index t (1 : Fin 2) * 128 + 1 * k.val = k.val; rw [e1]; omega

/-- Resident bias row 8's block, at every point, is its whole one-row array. -/
theorem iblk0_8_apply (c : Dev nD) (t : Fin cfg0.N) (k : Fin 128) :
    (iblk0 V c 8 t : Vec Ideal S1x128 .f32) (ix2 (0 : Fin 1) k) = (V c (Pipeline.arrRef spec0 8) : S1x128.Idx → EReal) (ix2 (0 : Fin 1) k) := by
  obtain ⟨-, -, -, -, -, -, -, -, ⟨e0, e1⟩, -, -, -⟩ := idx0 t
  unfold iblk0
  rw [View.read_apply]
  show (V c (Pipeline.arrRef spec0 8) : S1x128.Idx → EReal) _ = _
  refine congrArg _ (funext fun a => Fin.ext ?_)
  match a with
  | ⟨0, _⟩ => show win0_8.index t (0 : Fin 2) * 1 + 1 * 0 = 0; rw [e0]
  | ⟨1, _⟩ => show win0_8.index t (1 : Fin 2) * 128 + 1 * k.val = k.val; rw [e1]; omega

/-! ## The block output's array -/

/-- What the block output's array ends holding: the convolution's closed form over the nine input arrays as the
    region finds them. -/
def G9_0 (c : Dev nD) : S100000x128.Idx → EReal :=
  convArr (Kd := 256) (Ka := 128) (V c (Pipeline.arrRef spec0 0)) (V c (Pipeline.arrRef spec0 1)) (V c (Pipeline.arrRef spec0 2)) (V c (Pipeline.arrRef spec0 3))
    (V c (Pipeline.arrRef spec0 4)) (V c (Pipeline.arrRef spec0 5)) (V c (Pipeline.arrRef spec0 6)) (V c (Pipeline.arrRef spec0 7)) (V c (Pipeline.arrRef spec0 8))

/-- The block of `h` the body computes at point `t`, over the input blocks there. -/
def H0 (c : Dev nD) (t : Fin cfg0.N) : FVec Ideal S4000x128 .f32 :=
  k0_pay1 (k0_pay6 (iblk0 V c 0 t) (iblk0 V c 1 t) (iblk0 V c 2 t) (iblk0 V c 4 t) (iblk0 V c 6 t) (iblk0 V c 7 t) (iblk0 V c 3 t) (iblk0 V c 5 t)) (iblk0 V c 8 t)

/-- At row `r`, column `j` it is `G9_0` at the array index the output's block puts there (row `4000 t + r`). -/
theorem H0_blocks (c : Dev nD) (t : Fin cfg0.N) (r : Fin 4000) (j : Fin 128) (k : S100000x128.Idx)
    (hk0 : (k 0).val = 4000 * t.val + r.val) (hk1 : (k 1).val = j.val) :
    H0 V c t (ix2 r j) = G9_0 V c k := by
  have hkj : k 1 = j := Fin.ext hk1
  unfold H0
  refine (pay1_0_apply _ _ r j).trans ?_
  rw [pay6_0_apply, iblk0_8_apply V c t j]
  simp only [G9_0, convArr]
  rw [hkj]
  refine congrArg (· + _) (congrArg₂ (· + ·) (Finset.sum_congr rfl fun q _ => ?_) (Finset.sum_congr rfl fun q _ => ?_))
  · rw [iblk0_3_apply V c t q, iblk0_6_apply V c t q j]
    refine congrArg (fun z => (z + _) * _) (Finset.sum_congr rfl fun l _ => ?_)
    rw [iblk0_0_apply V c t r l (ix2 (k 0) l) hk0 rfl, iblk0_2_apply V c t l q]
  · rw [iblk0_5_apply V c t q, iblk0_7_apply V c t q j]
    refine congrArg (fun z => (z + _) * _) (Finset.sum_congr rfl fun l _ => ?_)
    rw [iblk0_1_apply V c t r l (ix2 (k 0) l) hk0 rfl, iblk0_4_apply V c t l q]

end Cert.KernelIdeal.Hand

end
-- ==== Proof.KI.Value0B.lean ====
import proofs.«154353_j88940182765819_1_alg».proof.Proof.KI.Value0A

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Bridge
open scoped BigOperators

variable (V : (c : Dev nD) → (b : Ref sig .tc) → Buf (Elt Ideal) ((c : Thread nD τ).loc b))
set_option maxHeartbeats 2000000 in
/-- After the body at any point the block output's staging buffer holds the block of `h` there. -/
theorem o9_0_eq (c : Dev nD) (t : Fin cfg0.N) : (outsAt0 V c t.val t.isLt).1 = H0 V c t := by
  by_cases h0 : t.val = 0
  · rw [outsAt0_A V c t h0]
    dsimp only
    unfold o9A0 runA0 H0
    exact pieceA0_o9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) _ _ (iblk0 V c 0 t) (iblk0 V c 1 t) (iblk0 V c 2 t) (iblk0 V c 3 t) (iblk0 V c 4 t) (iblk0 V c 5 t) (iblk0 V c 6 t) (iblk0 V c 7 t) (iblk0 V c 8 t)
  · by_cases h1 : t.val = 24
    · rw [outsAt0_C V c t h0 h1]
      dsimp only
      unfold o9C0 runC0 H0
      exact pieceC0_o9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) _ _ (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
    · rw [outsAt0_B V c t h0 h1]
      dsimp only
      unfold o9B0 runB0 H0
      exact pieceB0_o9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) _ _ (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- What point `t` writes back is block `t` of `G9_0`. -/
theorem flushed9_0_eq (c : Dev nD) (t : Fin cfg0.N) :
    (dat0 V c).flushed 9 t = ((cfg0.win 9).blk t).view.read (Elt Ideal) (G9_0 V c) := by
  show (cfg0.win 9).cut (grid0.coords t) ((dat0 V c).after 9 t) = _
  rw [after0_9, o9_0_eq]
  obtain ⟨-, -, -, -, -, -, -, -, -, ⟨e0, e1⟩, -, -⟩ := idx0 t
  funext (y : S4000x128.Idx)
  obtain ⟨r, j, rfl⟩ : ∃ (r : Fin 4000) (j : Fin 128), y = ix2 r j := ⟨y 0, y 1, eq_ix2 y⟩
  show H0 V c t (ix2 r j) = G9_0 V c (((cfg0.win 9).blk t).view.emb (ix2 r j))
  refine H0_blocks V c t r j _ ?_ ?_
  · show win0_9.index t (0 : Fin 2) * 4000 + 1 * r.val = 4000 * t.val + r.val; rw [e0]; omega
  · show win0_9.index t (1 : Fin 2) * 128 + 1 * j.val = j.val; rw [e1]; omega

/-- An index of the block output's array is in point `t`'s block iff each coordinate is in the block's range. -/
theorem mem_blk9_0 (t : Fin cfg0.N) (i : S100000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_v51_0).slice (win0_9.rect t)).set ↔ _
  rw [View.set_slice_whole, Rect.mem_set_unit]
  exact Iff.rfl

/-- Every row of the block output's array is in some point's block: row `i` is in row block `i / 4000`. -/
theorem cover9_0 (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, -, -, -, ⟨e0, e1⟩, -, -⟩ := idx0 t
  refine ⟨t, flush0_9 t, ?_⟩
  rw [mem_blk9_0]
  intro a
  match a with
  | ⟨0, _⟩ => show win0_9.index t (0 : Fin 2) * 4000 ≤ (i 0).val ∧ (i 0).val < win0_9.index t (0 : Fin 2) * 4000 + 4000; rw [e0, ht]; omega
  | ⟨1, _⟩ => show win0_9.index t (1 : Fin 2) * 128 ≤ (i 1).val ∧ (i 1).val < win0_9.index t (1 : Fin 2) * 128 + 128; rw [e1]; omega

/-- The block output's array after the region is `G9_0`. -/
theorem final9_0 (c : Dev nD) : (dat0 V c).arrAt 9 cfg0.N = G9_0 V c :=
  (dat0 V c).arrAt_eq_of_cover 9 (G9_0 V c) (fun t _ => flushed9_0_eq V c t) (cover9_0)

end Cert.KernelIdeal.Hand

end
-- ==== Proof.KI.Value0C.lean ====
import proofs.«154353_j88940182765819_1_alg».proof.Proof.KI.Value0B

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Bridge
open scoped BigOperators

variable (V : (c : Dev nD) → (b : Ref sig .tc) → Buf (Elt Ideal) ((c : Thread nD τ).loc b))
/-! ## The two accumulator rows, point by point -/

/-- Accumulator row 0 after the first point: the zero row plus the first block's column sums. -/
theorem s0_0_first (c : Dev nD) (t : Fin cfg0.N) (h0 : t.val = 0) :
    (outsAt0 V c t.val t.isLt).2.2.2.1 = k0_pay2 (k0_pay6 (iblk0 V c 0 t) (iblk0 V c 1 t) (iblk0 V c 2 t) (iblk0 V c 4 t) (iblk0 V c 6 t) (iblk0 V c 7 t) (iblk0 V c 3 t) (iblk0 V c 5 t)) (iblk0 V c 8 t) (k0_pay4 (F := Ideal)) := by
  rw [outsAt0_A V c t h0]
  dsimp only
  unfold s0A0 runA0
  exact pieceA0_s0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) _ _ (iblk0 V c 0 t) (iblk0 V c 1 t) (iblk0 V c 2 t) (iblk0 V c 3 t) (iblk0 V c 4 t) (iblk0 V c 5 t) (iblk0 V c 6 t) (iblk0 V c 7 t) (iblk0 V c 8 t)

/-- Accumulator row 0 after a later point: what the point before left plus this block's column sums. -/
theorem s0_0_later (c : Dev nD) (t : Fin cfg0.N) (h0 : ¬t.val = 0) :
    (outsAt0 V c t.val t.isLt).2.2.2.1 = k0_pay2 (k0_pay6 (iblk0 V c 0 t) (iblk0 V c 1 t) (iblk0 V c 2 t) (iblk0 V c 4 t) (iblk0 V c 6 t) (iblk0 V c 7 t) (iblk0 V c 3 t) (iblk0 V c 5 t)) (iblk0 V c 8 t) (outsAt0 V c (t.val - 1) (Nat.lt_of_le_of_lt (Nat.sub_le _ _) t.isLt)).2.2.2.1 := by
  by_cases h1 : t.val = 24
  · rw [outsAt0_C V c t h0 h1]
    dsimp only
    unfold s0C0 runC0
    exact pieceC0_s0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) _ _ (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
  · rw [outsAt0_B V c t h0 h1]
    dsimp only
    unfold s0B0 runB0
    exact pieceB0_s0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) _ _ (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- Accumulator row 1 after the first point: the zero row plus the first block's column sums. -/
theorem s1_0_first (c : Dev nD) (t : Fin cfg0.N) (h0 : t.val = 0) :
    (outsAt0 V c t.val t.isLt).2.2.2.2 = k0_pay3 (k0_pay6 (iblk0 V c 0 t) (iblk0 V c 1 t) (iblk0 V c 2 t) (iblk0 V c 4 t) (iblk0 V c 6 t) (iblk0 V c 7 t) (iblk0 V c 3 t) (iblk0 V c 5 t)) (iblk0 V c 8 t) (k0_pay5 (F := Ideal)) := by
  rw [outsAt0_A V c t h0]
  dsimp only
  unfold s1A0 runA0
  exact pieceA0_s1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) _ _ (iblk0 V c 0 t) (iblk0 V c 1 t) (iblk0 V c 2 t) (iblk0 V c 3 t) (iblk0 V c 4 t) (iblk0 V c 5 t) (iblk0 V c 6 t) (iblk0 V c 7 t) (iblk0 V c 8 t)

/-- Accumulator row 1 after a later point: what the point before left plus this block's column sums. -/
theorem s1_0_later (c : Dev nD) (t : Fin cfg0.N) (h0 : ¬t.val = 0) :
    (outsAt0 V c t.val t.isLt).2.2.2.2 = k0_pay3 (k0_pay6 (iblk0 V c 0 t) (iblk0 V c 1 t) (iblk0 V c 2 t) (iblk0 V c 4 t) (iblk0 V c 6 t) (iblk0 V c 7 t) (iblk0 V c 3 t) (iblk0 V c 5 t)) (iblk0 V c 8 t) (outsAt0 V c (t.val - 1) (Nat.lt_of_le_of_lt (Nat.sub_le _ _) t.isLt)).2.2.2.2 := by
  by_cases h1 : t.val = 24
  · rw [outsAt0_C V c t h0 h1]
    dsimp only
    unfold s1C0 runC0
    exact pieceC0_s1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) _ _ (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
  · rw [outsAt0_B V c t h0 h1]
    dsimp only
    unfold s1B0 runB0
    exact pieceB0_s1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) _ _ (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

/-- At the last point the two row outputs receive the two accumulator rows as the point leaves them. -/
theorem o10_0_last (c : Dev nD) (t : Fin cfg0.N) (h0 : ¬t.val = 0) (h1 : t.val = 24) :
    (outsAt0 V c t.val t.isLt).2.1 = (outsAt0 V c t.val t.isLt).2.2.2.1 := by
  rw [outsAt0_C V c t h0 h1]
  dsimp only
  unfold o10C0 s0C0 runC0
  exact (pieceC0_o10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) _ _ (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).trans
    (pieceC0_s0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) _ _ (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).symm
theorem o11_0_last (c : Dev nD) (t : Fin cfg0.N) (h0 : ¬t.val = 0) (h1 : t.val = 24) :
    (outsAt0 V c t.val t.isLt).2.2.1 = (outsAt0 V c t.val t.isLt).2.2.2.2 := by
  rw [outsAt0_C V c t h0 h1]
  dsimp only
  unfold o11C0 s1C0 runC0
  exact (pieceC0_o11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) _ _ (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).trans
    (pieceC0_s1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) _ _ (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).symm

/-! ## The column sums as one sum over the 100000 rows -/

/-- A block's column sum is the sum of that row block of `G9_0`'s column. -/
theorem Hsum_0 (c : Dev nD) (t : Fin cfg0.N) (j : Fin 128) :
    ∑ r : Fin 4000, H0 V c t (ix2 r j) = s4000 (fun i : Fin 100000 => G9_0 V c (ix2 i j)) t.val := by
  have hN : cfg0.N = 25 := N_0
  have ht : t.val < 25 := by have := t.isLt; omega
  exact (Finset.sum_congr rfl fun r _ => H0_blocks V c t r j (ix2 ⟨4000 * t.val + r.val, by have := r.isLt; omega⟩ j) rfl rfl).trans
    (s4000_eq (fun i : Fin 100000 => G9_0 V c (ix2 i j)) ⟨t.val, ht⟩).symm

/-- The same for the squares. -/
theorem Hsqsum_0 (c : Dev nD) (t : Fin cfg0.N) (j : Fin 128) :
    ∑ r : Fin 4000, H0 V c t (ix2 r j) * H0 V c t (ix2 r j)
      = s4000 (fun i : Fin 100000 => G9_0 V c (ix2 i j) * G9_0 V c (ix2 i j)) t.val := by
  have hN : cfg0.N = 25 := N_0
  have ht : t.val < 25 := by have := t.isLt; omega
  exact (Finset.sum_congr rfl fun r _ => by
      rw [H0_blocks V c t r j (ix2 ⟨4000 * t.val + r.val, by have := r.isLt; omega⟩ j) rfl rfl]).trans
    (s4000_eq (fun i : Fin 100000 => G9_0 V c (ix2 i j) * G9_0 V c (ix2 i j)) ⟨t.val, ht⟩).symm

/-- Column `j` of accumulator row 0 before point `n`: zero before the first point, then what point `n - 1` left. -/
def acc0_0 (c : Dev nD) (j : Fin 128) : ℕ → EReal
  | 0 => 0
  | n + 1 => if h : n < cfg0.N then (outsAt0 V c n h).2.2.2.1 (ix2 (0 : Fin 1) j) else 0

/-- Each point adds its block's column sum. -/
theorem acc0_0_step (c : Dev nD) (j : Fin 128) (n : ℕ) (hn : n < 25) :
    acc0_0 V c j (n + 1) = acc0_0 V c j n + s4000 (fun i : Fin 100000 => G9_0 V c (ix2 i j)) n := by
  have hN : cfg0.N = 25 := N_0
  have hn' : n < cfg0.N := by omega
  refine (dif_pos hn').trans ?_
  cases n with
  | zero =>
    refine (congrFun (s0_0_first V c ⟨0, hn'⟩ rfl) (ix2 (0 : Fin 1) j)).trans ?_
    rw [pay2_0_apply, pay4_0_apply]
    exact congrArg (0 + ·) (Hsum_0 V c ⟨0, hn'⟩ j)
  | succ m =>
    refine (congrFun (s0_0_later V c ⟨m + 1, hn'⟩ (Nat.succ_ne_zero m)) (ix2 (0 : Fin 1) j)).trans ?_
    rw [pay2_0_apply]
    have e1 : acc0_0 V c j (m + 1) = (outsAt0 V c m (by omega)).2.2.2.1 (ix2 (0 : Fin 1) j) := dif_pos (by omega)
    rw [e1]
    exact congrArg (_ + ·) (Hsum_0 V c ⟨m + 1, hn'⟩ j)

/-- Column `j` of accumulator row 1 before point `n`: zero before the first point, then what point `n - 1` left. -/
def acc1_0 (c : Dev nD) (j : Fin 128) : ℕ → EReal
  | 0 => 0
  | n + 1 => if h : n < cfg0.N then (outsAt0 V c n h).2.2.2.2 (ix2 (0 : Fin 1) j) else 0

/-- Each point adds its block's column sum. -/
theorem acc1_0_step (c : Dev nD) (j : Fin 128) (n : ℕ) (hn : n < 25) :
    acc1_0 V c j (n + 1) = acc1_0 V c j n + s4000 (fun i : Fin 100000 => G9_0 V c (ix2 i j) * G9_0 V c (ix2 i j)) n := by
  have hN : cfg0.N = 25 := N_0
  have hn' : n < cfg0.N := by omega
  refine (dif_pos hn').trans ?_
  cases n with
  | zero =>
    refine (congrFun (s1_0_first V c ⟨0, hn'⟩ rfl) (ix2 (0 : Fin 1) j)).trans ?_
    rw [pay3_0_apply, pay5_0_apply]
    exact congrArg (0 + ·) (Hsqsum_0 V c ⟨0, hn'⟩ j)
  | succ m =>
    refine (congrFun (s1_0_later V c ⟨m + 1, hn'⟩ (Nat.succ_ne_zero m)) (ix2 (0 : Fin 1) j)).trans ?_
    rw [pay3_0_apply]
    have e1 : acc1_0 V c j (m + 1) = (outsAt0 V c m (by omega)).2.2.2.2 (ix2 (0 : Fin 1) j) := dif_pos (by omega)
    rw [e1]
    exact congrArg (_ + ·) (Hsqsum_0 V c ⟨m + 1, hn'⟩ j)

/-- What row output 10's array ends holding: what the last point stores into its staging buffer. -/
def R10_0 (c : Dev nD) : S1x128.Idx → EReal :=
  (outsAt0 V c 24 (by rw [show cfg0.N = 25 from N_0]; decide)).2.1

/-- The one write-back of row output 10, at the last point, writes that row: the block is the whole array. -/
theorem flushed10_0_eq (c : Dev nD) (t : Fin cfg0.N) (hf : (cfg0.win 10).flush t = true) :
    (dat0 V c).flushed 10 t = ((cfg0.win 10).blk t).view.read (Elt Ideal) (R10_0 V c) := by
  have hN : cfg0.N = 25 := N_0
  have h1 : t.val = 24 := by have h := (flush0_10 t).mp hf; have := t.isLt; omega
  obtain ⟨-, -, -, -, -, -, -, -, -, -, ⟨e0, e1⟩, -⟩ := idx0 t
  have hz' : (fun a => win0_10.index t a * main_v51_1.ty.shape.size a) = fun _ => 0 := funext fun a => by
    match a with
    | ⟨0, _⟩ => show win0_10.index t (0 : Fin 2) * 1 = 0; rw [e0]
    | ⟨1, _⟩ => show win0_10.index t (1 : Fin 2) * 128 = 0; rw [e1]
  show (cfg0.win 10).cut (grid0.coords t) ((dat0 V c).after 10 t) = _
  rw [after0_10]
  have et : (outsAt0 V c t.val t.isLt).2.1 = R10_0 V c := by
    obtain ⟨n, hn⟩ := t
    obtain rfl : n = 24 := h1
    rfl
  rw [et]
  exact (Memref.read_access_unit_zero (Elt Ideal) main_v51_1 hz' (fun a => by rw [congrFun hz' a]; simp) (R10_0 V c)).symm

/-- Row output 10's array after the region is that row. -/
theorem final10_0 (c : Dev nD) : (dat0 V c).arrAt 10 cfg0.N = R10_0 V c :=
  (dat0 V c).arrAt_eq_of_cover 10 (R10_0 V c) (flushed10_0_eq V c) fun i => by
    have hN : cfg0.N = 25 := N_0
    let t : Fin cfg0.N := ⟨24, by omega⟩
    obtain ⟨-, -, -, -, -, -, -, -, -, -, ⟨e0, e1⟩, -⟩ := idx0 t
    refine ⟨t, (flush0_10 t).mpr rfl, ?_⟩
    show i ∈ ((View.whole main_v51_1).slice (win0_10.rect t)).set
    rw [View.set_slice_whole, Rect.mem_set_unit]
    intro a
    have h0 : (i 0 : Nat) < 1 := (i 0).isLt
    have h1 : (i 1 : Nat) < 128 := (i 1).isLt
    match a with
    | ⟨0, _⟩ => show win0_10.index t (0 : Fin 2) * 1 ≤ (i 0 : Nat) ∧ (i 0 : Nat) < win0_10.index t (0 : Fin 2) * 1 + 1; rw [e0]; omega
    | ⟨1, _⟩ => show win0_10.index t (1 : Fin 2) * 128 ≤ (i 1 : Nat) ∧ (i 1 : Nat) < win0_10.index t (1 : Fin 2) * 128 + 128; rw [e1]; omega

/-- That row, at column `j`, is the accumulator's column after all 25 points. -/
theorem R10_0_apply (c : Dev nD) (j : Fin 128) : R10_0 V c (ix2 (0 : Fin 1) j) = acc0_0 V c j 25 := by
  have hN : cfg0.N = 25 := N_0
  have hlt : 24 < cfg0.N := by omega
  refine (congrFun (o10_0_last V c ⟨24, hlt⟩ (by show ¬(24 : ℕ) = 0; omega) rfl) (ix2 (0 : Fin 1) j)).trans ?_
  show _ = acc0_0 V c j (24 + 1)
  rw [acc0_0, dif_pos hlt]

/-- What row output 11's array ends holding: what the last point stores into its staging buffer. -/
def R11_0 (c : Dev nD) : S1x128.Idx → EReal :=
  (outsAt0 V c 24 (by rw [show cfg0.N = 25 from N_0]; decide)).2.2.1

/-- The one write-back of row output 11, at the last point, writes that row: the block is the whole array. -/
theorem flushed11_0_eq (c : Dev nD) (t : Fin cfg0.N) (hf : (cfg0.win 11).flush t = true) :
    (dat0 V c).flushed 11 t = ((cfg0.win 11).blk t).view.read (Elt Ideal) (R11_0 V c) := by
  have hN : cfg0.N = 25 := N_0
  have h1 : t.val = 24 := by have h := (flush0_11 t).mp hf; have := t.isLt; omega
  obtain ⟨-, -, -, -, -, -, -, -, -, -, -, ⟨e0, e1⟩⟩ := idx0 t
  have hz' : (fun a => win0_11.index t a * main_v51_2.ty.shape.size a) = fun _ => 0 := funext fun a => by
    match a with
    | ⟨0, _⟩ => show win0_11.index t (0 : Fin 2) * 1 = 0; rw [e0]
    | ⟨1, _⟩ => show win0_11.index t (1 : Fin 2) * 128 = 0; rw [e1]
  show (cfg0.win 11).cut (grid0.coords t) ((dat0 V c).after 11 t) = _
  rw [after0_11]
  have et : (outsAt0 V c t.val t.isLt).2.2.1 = R11_0 V c := by
    obtain ⟨n, hn⟩ := t
    obtain rfl : n = 24 := h1
    rfl
  rw [et]
  exact (Memref.read_access_unit_zero (Elt Ideal) main_v51_2 hz' (fun a => by rw [congrFun hz' a]; simp) (R11_0 V c)).symm

/-- Row output 11's array after the region is that row. -/
theorem final11_0 (c : Dev nD) : (dat0 V c).arrAt 11 cfg0.N = R11_0 V c :=
  (dat0 V c).arrAt_eq_of_cover 11 (R11_0 V c) (flushed11_0_eq V c) fun i => by
    have hN : cfg0.N = 25 := N_0
    let t : Fin cfg0.N := ⟨24, by omega⟩
    obtain ⟨-, -, -, -, -, -, -, -, -, -, -, ⟨e0, e1⟩⟩ := idx0 t
    refine ⟨t, (flush0_11 t).mpr rfl, ?_⟩
    show i ∈ ((View.whole main_v51_2).slice (win0_11.rect t)).set
    rw [View.set_slice_whole, Rect.mem_set_unit]
    intro a
    have h0 : (i 0 : Nat) < 1 := (i 0).isLt
    have h1 : (i 1 : Nat) < 128 := (i 1).isLt
    match a with
    | ⟨0, _⟩ => show win0_11.index t (0 : Fin 2) * 1 ≤ (i 0 : Nat) ∧ (i 0 : Nat) < win0_11.index t (0 : Fin 2) * 1 + 1; rw [e0]; omega
    | ⟨1, _⟩ => show win0_11.index t (1 : Fin 2) * 128 ≤ (i 1 : Nat) ∧ (i 1 : Nat) < win0_11.index t (1 : Fin 2) * 128 + 128; rw [e1]; omega

/-- That row, at column `j`, is the accumulator's column after all 25 points. -/
theorem R11_0_apply (c : Dev nD) (j : Fin 128) : R11_0 V c (ix2 (0 : Fin 1) j) = acc1_0 V c j 25 := by
  have hN : cfg0.N = 25 := N_0
  have hlt : 24 < cfg0.N := by omega
  refine (congrFun (o11_0_last V c ⟨24, hlt⟩ (by show ¬(24 : ℕ) = 0; omega) rfl) (ix2 (0 : Fin 1) j)).trans ?_
  show _ = acc1_0 V c j (24 + 1)
  rw [acc1_0, dif_pos hlt]

end Cert.KernelIdeal.Hand

end
-- ==== Proof.Math.Variance.lean ====
/- The batch-variance law at extended reals.

   One program computes the variance of a real column as the mean of the squared deviations from the mean,
   the other as max(E[x²] − E[x]², 0). For REAL entries both are the same real number: with
   m = (∑ x) / N and N the number of entries, ∑ (x − m)² = ∑ x² − N·m², so the mean of squared deviations is
   (∑ x²)/N − m²; it is a mean of squares, hence nonnegative, and the maximum with 0 changes nothing.
   The statement is about extended reals (every sum, product and quotient is the extended-real one, the
   quotient being `Ideal.div`), so the proof first moves every subterm into ℝ and then uses the real identity. -/
import Idealize.ShloMosaic.PureOps.Ideal
import Idealize.ShloMosaic.PureOps.Ideal.Laws

noncomputable section

namespace Cert.Bridge

open Idealize.ShloMosaic
open scoped BigOperators

/-- The coercion ℝ → EReal commutes with finite sums. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Division of a real by a nonzero real, at extended reals, is the real quotient. -/
theorem div_coe_coe (a : ℝ) {y : ℝ} (h : y ≠ 0) :
    Ideal.div (a : EReal) (y : EReal) = ((a / y : ℝ) : EReal) := by
  rw [Ideal.div_coe h, ← EReal.coe_mul, mul_one_div]

/-- The real identity: the mean of squared deviations is the mean of squares minus the squared mean. -/
theorem real_variance {n : ℕ} (hn : n ≠ 0) (x : Fin n → ℝ) :
    (∑ i, (x i - (∑ j, x j) / (n : ℝ)) * (x i - (∑ j, x j) / (n : ℝ))) / (n : ℝ)
      = (∑ i, x i * x i) / (n : ℝ) - ((∑ j, x j) / (n : ℝ)) * ((∑ j, x j) / (n : ℝ)) := by
  have hN : (n : ℝ) ≠ 0 := Nat.cast_ne_zero.mpr hn
  set m : ℝ := (∑ j, x j) / (n : ℝ) with hm
  have hS : (∑ j, x j) = m * (n : ℝ) := by rw [hm]; field_simp
  have h1 : ∀ i, (x i - m) * (x i - m) = x i * x i - 2 * m * x i + m * m := fun i => by ring
  simp only [h1]
  rw [Finset.sum_add_distrib, Finset.sum_sub_distrib, ← Finset.mul_sum, hS, Finset.sum_const,
    Finset.card_univ, Fintype.card_fin, nsmul_eq_mul]
  field_simp
  ring

/-- The mean of squared deviations is nonnegative. -/
theorem real_variance_nonneg {n : ℕ} (x : Fin n → ℝ) (m : ℝ) :
    0 ≤ (∑ i, (x i - m) * (x i - m)) / (n : ℝ) :=
  div_nonneg (Finset.sum_nonneg fun i _ => mul_self_nonneg _) (Nat.cast_nonneg n)

/-- The variance law: for real entries, the mean of squared deviations from the mean equals
    max(E[x²] − E[x]², 0), every operation being the extended-real one. -/
theorem variance_law {n : ℕ} (hn : n ≠ 0) (x : Fin n → ℝ) :
    Ideal.div (∑ i, (((x i : ℝ) : EReal) - Ideal.div (∑ j, ((x j : ℝ) : EReal)) ((n : ℝ) : EReal))
                  * (((x i : ℝ) : EReal) - Ideal.div (∑ j, ((x j : ℝ) : EReal)) ((n : ℝ) : EReal)))
        ((n : ℝ) : EReal)
      = max (Ideal.div (∑ i, ((x i : ℝ) : EReal) * ((x i : ℝ) : EReal)) ((n : ℝ) : EReal)
              - Ideal.div (∑ j, ((x j : ℝ) : EReal)) ((n : ℝ) : EReal)
                * Ideal.div (∑ j, ((x j : ℝ) : EReal)) ((n : ℝ) : EReal)) 0 := by
  have hN : (n : ℝ) ≠ 0 := Nat.cast_ne_zero.mpr hn
  rw [← coe_finset_sum, div_coe_coe _ hN]
  simp only [← EReal.coe_mul, ← EReal.coe_sub]
  rw [← coe_finset_sum, ← coe_finset_sum, div_coe_coe _ hN, div_coe_coe _ hN, ← EReal.coe_sub,
    real_variance hn x, max_eq_left]
  rw [← real_variance hn x]
  exact_mod_cast real_variance_nonneg x _

/-! ### The literals as the programs spell them -/

/-- The f32 word of `100000.0` denotes the real `100000`. -/
theorem ofBits_1e5 : Ideal.ofBits .f32 0x47C35000#32 = ((100000 : ℝ) : EReal) := by
  simp [Ideal.ofBits, Ideal.ieee, -EReal.coe_mul]; norm_num

/-- The f32 word of `1.0` denotes `1`. -/
theorem ofBits_one : Ideal.ofBits .f32 0x3F800000#32 = 1 := by
  simp [Ideal.ofBits, Ideal.ieee, -EReal.coe_mul]; norm_num

/-- The f32 word of `+0.0` denotes `0`. -/
theorem ofBits_zero : Ideal.ofBits .f32 0x00000000#32 = 0 := Ideal.ofBits_zero_f32

/-- The variance law for a column of 100000 real entries, the count spelled as the real literal. -/
theorem variance_law_1e5 (x : Fin 100000 → ℝ) :
    Ideal.div (∑ i, (((x i : ℝ) : EReal) - Ideal.div (∑ j, ((x j : ℝ) : EReal)) ((100000 : ℝ) : EReal))
                  * (((x i : ℝ) : EReal) - Ideal.div (∑ j, ((x j : ℝ) : EReal)) ((100000 : ℝ) : EReal)))
        ((100000 : ℝ) : EReal)
      = max (Ideal.div (∑ i, ((x i : ℝ) : EReal) * ((x i : ℝ) : EReal)) ((100000 : ℝ) : EReal)
              - Ideal.div (∑ j, ((x j : ℝ) : EReal)) ((100000 : ℝ) : EReal)
                * Ideal.div (∑ j, ((x j : ℝ) : EReal)) ((100000 : ℝ) : EReal)) 0 := by
  have h := variance_law (n := 100000) (by norm_num) x
  have hc : ((100000 : ℕ) : ℝ) = (100000 : ℝ) := by norm_num
  rw [hc] at h
  exact h

/-- The same law with the count spelled as the f32 word the programs carry. -/
theorem variance_law_bits (x : Fin 100000 → ℝ) :
    Ideal.div (∑ i, (((x i : ℝ) : EReal) - Ideal.div (∑ j, ((x j : ℝ) : EReal)) (Ideal.ofBits .f32 0x47C35000#32))
                  * (((x i : ℝ) : EReal) - Ideal.div (∑ j, ((x j : ℝ) : EReal)) (Ideal.ofBits .f32 0x47C35000#32)))
        (Ideal.ofBits .f32 0x47C35000#32)
      = max (Ideal.div (∑ i, ((x i : ℝ) : EReal) * ((x i : ℝ) : EReal)) (Ideal.ofBits .f32 0x47C35000#32)
              - Ideal.div (∑ j, ((x j : ℝ) : EReal)) (Ideal.ofBits .f32 0x47C35000#32)
                * Ideal.div (∑ j, ((x j : ℝ) : EReal)) (Ideal.ofBits .f32 0x47C35000#32)) 0 := by
  rw [ofBits_1e5]
  exact variance_law_1e5 x

end Cert.Bridge

end
-- ==== Proof.LibRealDef.lean ====
/-
  A vector of extended reals is REAL-VALUED when every entry is a real number (neither infinity).
  Finite sums, products, maxima and reads at an index of real-valued vectors are real-valued; the lemmas
  that say so for each operation are in LibRealValued.lean.
-/
import Idealize.ShloMosaic.PureOps.Ideal

namespace Cert.RealValued

/-- Every entry of `v` is (the coercion of) a real number. -/
def IsReal {ι : Type} (v : ι → EReal) : Prop := ∀ i, ∃ r : ℝ, v i = (r : EReal)

theorem IsReal.ne_top {ι : Type} {v : ι → EReal} (h : IsReal v) (i : ι) : v i ≠ ⊤ := by
  obtain ⟨r, hr⟩ := h i; rw [hr]; exact EReal.coe_ne_top r

theorem IsReal.ne_bot {ι : Type} {v : ι → EReal} (h : IsReal v) (i : ι) : v i ≠ ⊥ := by
  obtain ⟨r, hr⟩ := h i; rw [hr]; exact EReal.coe_ne_bot r

/-- Reading a real-valued vector through any index map gives a real-valued vector. -/
theorem IsReal.comp {ι κ : Type} {v : ι → EReal} (h : IsReal v) (f : κ → ι) : IsReal (fun k => v (f k)) :=
  fun k => h (f k)

end Cert.RealValued
-- ==== Proof.LibRealValued.lean ====
/-
  Real-valued vectors of extended reals are closed under the operations of a graph-convolution pipeline.

  A vector of extended reals is real-valued when no entry is an infinity.  The real numbers inside the
  extended reals are closed under sum, difference, product, maximum and finite sums, so every pointwise
  arithmetic operation, every scatter-add and every matrix product of real-valued vectors is real-valued;
  an operation that only READS its operand at some index (gather, broadcast, reshape, slice, transpose,
  concatenation, a lane-by-lane choice between two vectors) is real-valued whenever its operands are; and the
  reciprocal square root of `max x c` is real-valued when `x` is and `c` is a positive real constant, since
  the maximum is then a positive real number.
-/
import proofs.«154353_j88940182765819_1_alg».proof.Proof.LibRealDef
import Idealize.ShloMosaic.PureOps.Ideal
import Idealize.ShloMosaic.PureOps.Ideal.Laws

namespace Cert.RealValued

open Idealize.ShloMosaic

/-! ### The real numbers inside the extended reals are closed under sum, product, difference, maximum -/

/-- The sum of two real numbers is a real number. -/
theorem real_add {a b : EReal} (ha : ∃ r : ℝ, a = r) (hb : ∃ r : ℝ, b = r) : ∃ r : ℝ, a + b = r := by
  obtain ⟨r, rfl⟩ := ha; obtain ⟨q, rfl⟩ := hb; exact ⟨r + q, (EReal.coe_add r q).symm⟩

/-- The product of two real numbers is a real number. -/
theorem real_mul {a b : EReal} (ha : ∃ r : ℝ, a = r) (hb : ∃ r : ℝ, b = r) : ∃ r : ℝ, a * b = r := by
  obtain ⟨r, rfl⟩ := ha; obtain ⟨q, rfl⟩ := hb; exact ⟨r * q, (EReal.coe_mul r q).symm⟩

/-- The difference of two real numbers is a real number. -/
theorem real_sub {a b : EReal} (ha : ∃ r : ℝ, a = r) (hb : ∃ r : ℝ, b = r) : ∃ r : ℝ, a - b = r := by
  obtain ⟨r, rfl⟩ := ha; obtain ⟨q, rfl⟩ := hb; exact ⟨r - q, (EReal.coe_sub r q).symm⟩

/-- The maximum of two real numbers is one of them, hence a real number. -/
theorem real_max {a b : EReal} (ha : ∃ r : ℝ, a = r) (hb : ∃ r : ℝ, b = r) : ∃ r : ℝ, max a b = r := by
  rcases max_choice a b with h | h <;> rw [h]
  exacts [ha, hb]

/-- A finite sum of real numbers is a real number (induction on the index set). -/
theorem real_sum {ι : Type} (t : Finset ι) (f : ι → EReal) (hf : ∀ i ∈ t, ∃ r : ℝ, f i = r) :
    ∃ r : ℝ, ∑ i ∈ t, f i = r := by
  classical
  induction t using Finset.induction_on with
  | empty => exact ⟨0, by simp⟩
  | insert a t ha ih =>
    rw [Finset.sum_insert ha]
    exact real_add (hf a (Finset.mem_insert_self a t)) (ih fun i hi => hf i (Finset.mem_insert_of_mem hi))

variable {s t : Shape} {φ : FTy}

/-! ### Pointwise arithmetic -/

/-- The pointwise sum of real-valued vectors is real-valued. -/
theorem isReal_addf {x y : FVec Ideal s φ} (hx : IsReal x) (hy : IsReal y) : IsReal (addf x y) :=
  fun i => real_add (hx i) (hy i)

/-- The pointwise difference of real-valued vectors is real-valued. -/
theorem isReal_subf {x y : FVec Ideal s φ} (hx : IsReal x) (hy : IsReal y) : IsReal (subf x y) :=
  fun i => real_sub (hx i) (hy i)

/-- The pointwise product of real-valued vectors is real-valued. -/
theorem isReal_mulf {x y : FVec Ideal s φ} (hx : IsReal x) (hy : IsReal y) : IsReal (mulf x y) :=
  fun i => real_mul (hx i) (hy i)

/-- The pointwise maximum of real-valued vectors is real-valued. -/
theorem isReal_maximumf {x y : FVec Ideal s φ} (hx : IsReal x) (hy : IsReal y) : IsReal (maximumf x y) :=
  fun i => real_max (hx i) (hy i)

/-- A lane-by-lane choice between two real-valued vectors is real-valued, whatever the condition. -/
theorem isReal_select (c : IVec s 1) {a b : s.Idx → EReal} (ha : IsReal a) (hb : IsReal b) :
    IsReal (select c a b) := fun i => by
  show ∃ r : ℝ, (if c i = 1 then a i else b i) = r
  split_ifs
  exacts [ha i, hb i]

/-! ### Operations that read their operand at an index -/

/-- A gather reads its operand at an index: real-valued when the operand is, whatever the indices. -/
theorem isReal_gather {si : Shape} {w : Nat} (d : GatherDims s si t) {x : s.Idx → EReal} (idx : IVec si w)
    (hx : IsReal x) : IsReal (Host.gather d x idx) := fun _ => hx _

/-- A broadcast reads its operand at an index. -/
theorem isReal_broadcastInDim (dims : Fin s.rank → Fin t.rank) (h : s.BroadcastsInDim t dims) {x : s.Idx → EReal}
    (hx : IsReal x) : IsReal (broadcastInDim t dims h x) := fun _ => hx _

/-- A reshape reads its operand at an index. -/
theorem isReal_shapeCast (h : s.ShapeCasts t) {x : s.Idx → EReal} (hx : IsReal x) :
    IsReal (shapeCast t x h) := fun _ => hx _

/-- A slice reads its operand at an index. -/
theorem isReal_extractStridedSlice (off : Fin s.rank → Nat) (h : s.Slices off t) {x : s.Idx → EReal} (hx : IsReal x) :
    IsReal (extractStridedSlice t off x h) := fun _ => hx _

/-- A transpose reads its operand at an index. -/
theorem isReal_transpose (perm : List (Fin s.rank)) (h : s.Transposes perm t) {x : s.Idx → EReal} (hx : IsReal x) :
    IsReal (transpose t perm x h) := fun _ => hx _

/-- Each entry of a concatenation is an entry of one of the pieces: real-valued when every piece is. -/
theorem isReal_concatenate (a : Fin t.rank) (xs : List ((s : Shape) × (s.Idx → EReal)))
    (h : Shape.Concatenates (xs.map (·.1)) t a) (hx : ∀ p ∈ xs, IsReal p.2) :
    IsReal (concatenate t a xs h) := fun j => by
  simp only [concatenate]
  exact hx _ (List.getElem_mem _) _

/-- The concatenation of two real-valued vectors is real-valued. -/
theorem isReal_concatenate2 {s1 s2 : Shape} (ax : Fin t.rank) {a : s1.Idx → EReal} {b : s2.Idx → EReal}
    (h : Shape.Concatenates [s1, s2] t ax) (ha : IsReal a) (hb : IsReal b) :
    IsReal (concatenate t ax [⟨s1, a⟩, ⟨s2, b⟩] h) :=
  isReal_concatenate ax [⟨s1, a⟩, ⟨s2, b⟩] h (by
    intro p hp
    simp only [List.mem_cons, List.mem_singleton, List.not_mem_nil, or_false] at hp
    rcases hp with rfl | rfl
    exacts [ha, hb])

/-! ### Sums: scatter-add and matrix product -/

/-- A scatter-add entry is the operand's entry plus a finite sum of update entries: real-valued when the
    operand and the updates are, whatever the indices. -/
theorem isReal_scatterAdd {si u : Shape} {w : Nat} (d : ScatterDims s si u) {x : FVec Ideal s φ} (idx : IVec si w)
    {upd : FVec Ideal u φ} (hx : IsReal x) (hu : IsReal upd) :
    IsReal (Host.scatterAdd (F := Ideal) d x idx upd) := fun i =>
  real_add (hx i) (real_sum _ _ fun j _ => hu j)

/-- A matrix-product entry is a finite sum of products of entries: real-valued when both factors are. -/
theorem isReal_dotGeneral {sl sr so : Shape} {φ₁ φ₂ : FTy} (d : DotDims sl sr so) (prec : Option ContractPrecision)
    {l : FVec Ideal sl φ₁} {r : FVec Ideal sr φ₂} (hl : IsReal l) (hr : IsReal r) :
    IsReal (Host.dotGeneral (F := Ideal) d prec l r) := fun j => by
  show ∃ q : ℝ, FloatOps.dotGeneral d prec .single l r j = q
  rw [Ideal.dotGeneral_apply]
  exact real_sum _ _ fun k _ => real_mul (hl _) (hr _)

/-! ### Constants -/

/-- The constant vector of the single-precision zero is real-valued. -/
theorem isReal_constant_zero (s : Shape) : IsReal (constant (F := Ideal) s .f32 0x00000000#32) :=
  fun _ => ⟨0, by show Ideal.ofBits .f32 0x00000000#32 = _; rw [Ideal.ofBits_zero_f32]; rfl⟩

/-- The single-precision pattern `0x3F800000` (exponent field 127, significand zero) is `2^23 · 2^(-23) = 1`. -/
theorem ofBits_one_f32 : Ideal.ofBits .f32 0x3F800000#32 = 1 := by
  have h : Ideal.ofBits .f32 0x3F800000#32 = ((8388608 * (2 ^ 23)⁻¹ : ℝ) : EReal) := by
    simp [Ideal.ofBits, Ideal.ieee]
  rw [h, ← EReal.coe_one]
  congr 1
  norm_num

/-- The constant vector of the single-precision one is real-valued. -/
theorem isReal_constant_one (s : Shape) : IsReal (constant (F := Ideal) s .f32 0x3F800000#32) :=
  fun _ => ⟨1, by show Ideal.ofBits .f32 0x3F800000#32 = _; rw [ofBits_one_f32]; rfl⟩

/-- The single-precision pattern `0x0DA24260` (the nearest to `10^(-30)`: exponent field 27, significand
    `2245216`) is the positive real number `10633824 · 2^(-123)`. -/
theorem tiny_pos : ∃ r : ℝ, 0 < r ∧ Ideal.ofBits .f32 0x0DA24260#32 = (r : EReal) := by
  have h : Ideal.ofBits .f32 0x0DA24260#32 = ((10633824 * (2 ^ 123)⁻¹ : ℝ) : EReal) := by
    simp [Ideal.ofBits, Ideal.ieee]
  exact ⟨_, by positivity, h⟩

/-! ### The reciprocal square root of a maximum with a positive constant -/

/-- For a real `a` and a positive real `c`, `max a c` is a positive real, so its reciprocal square root is the
    real number `(√(max a c))⁻¹`. -/
theorem real_rsqrt_max {a c : EReal} (ha : ∃ r : ℝ, a = r) (hc : ∃ r : ℝ, 0 < r ∧ c = r) :
    ∃ r : ℝ, Ideal.rsqrt (max a c) = r := by
  obtain ⟨r, rfl⟩ := ha
  obtain ⟨q, hq, rfl⟩ := hc
  have hm : max (r : EReal) (q : EReal) = ((max r q : ℝ) : EReal) :=
    (EReal.coe_strictMono.monotone.map_max).symm
  have hpos : 0 < max r q := lt_max_of_lt_right hq
  rw [hm, Ideal.rsqrt_coe, if_neg (not_lt.2 hpos.le), if_neg hpos.ne']
  exact ⟨_, rfl⟩

/-- The reciprocal square root of the pointwise maximum of a real-valued vector with a vector that is
    everywhere one positive real constant is real-valued. -/
theorem isReal_rsqrt_max {x c : FVec Ideal s φ} (hx : IsReal x) (hc : ∃ r : ℝ, 0 < r ∧ ∀ i, c i = (r : EReal)) :
    IsReal (Host.rsqrt (F := Ideal) (maximumf x c)) := fun i => by
  obtain ⟨q, hq, hcq⟩ := hc
  exact real_rsqrt_max (hx i) ⟨q, hq, hcq i⟩

/-- Any broadcast of the constant `0x0DA24260` is everywhere one positive real number. -/
theorem broadcast_tiny (S0 : Shape) (dims : Fin S0.rank → Fin t.rank) (h : S0.BroadcastsInDim t dims) :
    ∃ r : ℝ, 0 < r ∧ ∀ i, broadcastInDim t dims h (constant (F := Ideal) S0 .f32 0x0DA24260#32) i = (r : EReal) := by
  obtain ⟨r, hr, h'⟩ := tiny_pos
  exact ⟨r, hr, fun _ => h'⟩

/-- The reciprocal square root of `max x (10^(-30) broadcast)` is real-valued when `x` is. -/
theorem isReal_rsqrt_max_tiny (S0 : Shape) (dims : Fin S0.rank → Fin t.rank) (h : S0.BroadcastsInDim t dims)
    {x : FVec Ideal t .f32} (hx : IsReal x) :
    IsReal (Host.rsqrt (F := Ideal)
      (maximumf x (broadcastInDim t dims h (constant (F := Ideal) S0 .f32 0x0DA24260#32)))) :=
  isReal_rsqrt_max hx (broadcast_tiny S0 dims h)

end Cert.RealValued
-- ==== Proof.Math.RealValued.lean ====
/- Real-valued, nonnegative and at-least-one vectors of extended reals.

   The variance law holds for columns whose entries are real numbers, so every vector between the inputs and the
   normalised features has to be shown real-valued. Most operations keep real-valuedness for the plain reason that
   the reals are closed under them. The two divisions need more: a quotient by zero is an infinity, so each
   denominator is shown to be a real number at least one: a maximum with one is at least one; a variance is a
   nonnegative real, so variance plus one is at least one, and so is its square root. -/
import proofs.«154353_j88940182765819_1_alg».proof.Proof.LibRealValued
import proofs.«154353_j88940182765819_1_alg».proof.Proof.Math.Variance

noncomputable section

namespace Cert.Bridge

open Idealize.ShloMosaic Cert.RealValued
open scoped BigOperators

/-! ### Three predicates on vectors -/

/-- Every entry is a nonnegative real number. -/
def IsNonneg {ι : Type} (v : ι → EReal) : Prop := ∀ i, ∃ r : ℝ, 0 ≤ r ∧ v i = (r : EReal)

/-- Every entry is a real number at least one. -/
def IsGeOne {ι : Type} (v : ι → EReal) : Prop := ∀ i, ∃ r : ℝ, 1 ≤ r ∧ v i = (r : EReal)

/-- Every entry is a nonzero real number. -/
def IsNonzero {ι : Type} (v : ι → EReal) : Prop := ∀ i, ∃ r : ℝ, r ≠ 0 ∧ v i = (r : EReal)

theorem IsNonneg.isReal {ι : Type} {v : ι → EReal} (h : IsNonneg v) : IsReal v :=
  fun i => let ⟨r, _, hr⟩ := h i; ⟨r, hr⟩

theorem IsGeOne.isReal {ι : Type} {v : ι → EReal} (h : IsGeOne v) : IsReal v :=
  fun i => let ⟨r, _, hr⟩ := h i; ⟨r, hr⟩

theorem IsGeOne.isNonneg {ι : Type} {v : ι → EReal} (h : IsGeOne v) : IsNonneg v :=
  fun i => let ⟨r, h1, hr⟩ := h i; ⟨r, zero_le_one.trans h1, hr⟩

theorem IsGeOne.isNonzero {ι : Type} {v : ι → EReal} (h : IsGeOne v) : IsNonzero v :=
  fun i => let ⟨r, h1, hr⟩ := h i; ⟨r, (zero_lt_one.trans_le h1).ne', hr⟩

theorem IsNonzero.isReal {ι : Type} {v : ι → EReal} (h : IsNonzero v) : IsReal v :=
  fun i => let ⟨r, _, hr⟩ := h i; ⟨r, hr⟩

/-- Reading a vector through any index map keeps each of the predicates. -/
theorem IsNonneg.comp {ι κ : Type} {v : ι → EReal} (h : IsNonneg v) (f : κ → ι) : IsNonneg (fun k => v (f k)) :=
  fun k => h (f k)

theorem IsGeOne.comp {ι κ : Type} {v : ι → EReal} (h : IsGeOne v) (f : κ → ι) : IsGeOne (fun k => v (f k)) :=
  fun k => h (f k)

/-! ### Scalar facts -/

/-- The maximum of two reals, inside the extended reals, is the real maximum. -/
theorem coe_max (r q : ℝ) : max (r : EReal) (q : EReal) = ((max r q : ℝ) : EReal) :=
  (EReal.coe_strictMono.monotone.map_max).symm

/-- A real divided by a nonzero real is a real. -/
theorem real_div {a b : EReal} (ha : ∃ r : ℝ, a = r) (hb : ∃ r : ℝ, r ≠ 0 ∧ b = r) :
    ∃ r : ℝ, Ideal.div a b = r := by
  obtain ⟨r, rfl⟩ := ha; obtain ⟨q, hq, rfl⟩ := hb
  exact ⟨r / q, div_coe_coe r hq⟩

/-- A nonnegative real divided by a positive real is a nonnegative real. -/
theorem nonneg_div {a b : EReal} (ha : ∃ r : ℝ, 0 ≤ r ∧ a = r) (hb : ∃ r : ℝ, 0 < r ∧ b = r) :
    ∃ r : ℝ, 0 ≤ r ∧ Ideal.div a b = r := by
  obtain ⟨r, hr, rfl⟩ := ha; obtain ⟨q, hq, rfl⟩ := hb
  exact ⟨r / q, div_nonneg hr hq.le, div_coe_coe r hq.ne'⟩

/-- The negation of a real is a real. -/
theorem real_neg {a : EReal} (ha : ∃ r : ℝ, a = r) : ∃ r : ℝ, -a = r := by
  obtain ⟨r, rfl⟩ := ha; exact ⟨-r, (EReal.coe_neg r).symm⟩

/-- The minimum of two reals is one of them. -/
theorem real_min {a b : EReal} (ha : ∃ r : ℝ, a = r) (hb : ∃ r : ℝ, b = r) : ∃ r : ℝ, min a b = r := by
  rcases min_choice a b with h | h <;> rw [h]
  exacts [ha, hb]

/-- The maximum of a real with one is a real at least one. -/
theorem geOne_max_one_right {a : EReal} (ha : ∃ r : ℝ, a = r) : ∃ r : ℝ, 1 ≤ r ∧ max a 1 = r := by
  obtain ⟨r, rfl⟩ := ha
  exact ⟨max r 1, le_max_right _ _, by rw [← EReal.coe_one, coe_max]⟩

theorem geOne_max_one_left {a : EReal} (ha : ∃ r : ℝ, a = r) : ∃ r : ℝ, 1 ≤ r ∧ max 1 a = r := by
  rw [max_comm]; exact geOne_max_one_right ha

/-- The maximum of a real with zero is a nonnegative real. -/
theorem nonneg_max_zero_right {a : EReal} (ha : ∃ r : ℝ, a = r) : ∃ r : ℝ, 0 ≤ r ∧ max a 0 = r := by
  obtain ⟨r, rfl⟩ := ha
  exact ⟨max r 0, le_max_right _ _, by rw [← EReal.coe_zero, coe_max]⟩

theorem nonneg_max_zero_left {a : EReal} (ha : ∃ r : ℝ, a = r) : ∃ r : ℝ, 0 ≤ r ∧ max 0 a = r := by
  rw [max_comm]; exact nonneg_max_zero_right ha

/-- A nonnegative real plus one is a real at least one. -/
theorem geOne_add_one {a : EReal} (ha : ∃ r : ℝ, 0 ≤ r ∧ a = r) : ∃ r : ℝ, 1 ≤ r ∧ a + 1 = r := by
  obtain ⟨r, hr, rfl⟩ := ha
  exact ⟨r + 1, by linarith, by rw [← EReal.coe_one, ← EReal.coe_add]⟩

theorem geOne_one_add {a : EReal} (ha : ∃ r : ℝ, 0 ≤ r ∧ a = r) : ∃ r : ℝ, 1 ≤ r ∧ 1 + a = r := by
  rw [add_comm]; exact geOne_add_one ha

/-- The square root of a nonnegative real is a nonnegative real. -/
theorem nonneg_sqrt {a : EReal} (ha : ∃ r : ℝ, 0 ≤ r ∧ a = r) : ∃ r : ℝ, 0 ≤ r ∧ Ideal.sqrt a = r := by
  obtain ⟨r, hr, rfl⟩ := ha
  exact ⟨Real.sqrt r, Real.sqrt_nonneg r, by rw [Ideal.sqrt_coe, if_neg (not_lt.2 hr)]⟩

/-- The square root of a real at least one is a real at least one. -/
theorem geOne_sqrt {a : EReal} (ha : ∃ r : ℝ, 1 ≤ r ∧ a = r) : ∃ r : ℝ, 1 ≤ r ∧ Ideal.sqrt a = r := by
  obtain ⟨r, hr, rfl⟩ := ha
  exact ⟨Real.sqrt r, Real.one_le_sqrt.mpr hr,
    by rw [Ideal.sqrt_coe, if_neg (not_lt.2 (zero_le_one.trans hr))]⟩

/-- The square of a real is a nonnegative real. -/
theorem nonneg_mul_self {a : EReal} (ha : ∃ r : ℝ, a = r) : ∃ r : ℝ, 0 ≤ r ∧ a * a = r := by
  obtain ⟨r, rfl⟩ := ha
  exact ⟨r * r, mul_self_nonneg r, (EReal.coe_mul r r).symm⟩

theorem nonneg_add {a b : EReal} (ha : ∃ r : ℝ, 0 ≤ r ∧ a = r) (hb : ∃ r : ℝ, 0 ≤ r ∧ b = r) :
    ∃ r : ℝ, 0 ≤ r ∧ a + b = r := by
  obtain ⟨r, hr, rfl⟩ := ha; obtain ⟨q, hq, rfl⟩ := hb
  exact ⟨r + q, add_nonneg hr hq, (EReal.coe_add r q).symm⟩

theorem nonneg_mul {a b : EReal} (ha : ∃ r : ℝ, 0 ≤ r ∧ a = r) (hb : ∃ r : ℝ, 0 ≤ r ∧ b = r) :
    ∃ r : ℝ, 0 ≤ r ∧ a * b = r := by
  obtain ⟨r, hr, rfl⟩ := ha; obtain ⟨q, hq, rfl⟩ := hb
  exact ⟨r * q, mul_nonneg hr hq, (EReal.coe_mul r q).symm⟩

/-- A finite sum of nonnegative reals is a nonnegative real. -/
theorem nonneg_sum {ι : Type} (t : Finset ι) (f : ι → EReal) (hf : ∀ i ∈ t, ∃ r : ℝ, 0 ≤ r ∧ f i = r) :
    ∃ r : ℝ, 0 ≤ r ∧ ∑ i ∈ t, f i = r := by
  classical
  induction t using Finset.induction_on with
  | empty => exact ⟨0, le_rfl, by simp⟩
  | insert a t ha ih =>
    rw [Finset.sum_insert ha]
    exact nonneg_add (hf a (Finset.mem_insert_self a t)) (ih fun i hi => hf i (Finset.mem_insert_of_mem hi))

/-- A single-precision pattern whose exponent field is not all ones denotes a real number. -/
theorem real_ofBits_f32 (b : BitVec 32) (h : (b.extractLsb' 23 8).toNat ≠ 255) :
    ∃ r : ℝ, Ideal.ofBits .f32 b = r := by
  show ∃ r : ℝ, Ideal.ieee 8 23 b = r
  unfold Ideal.ieee
  dsimp only
  rw [if_neg (by simpa using h)]
  split_ifs <;> exact ⟨_, rfl⟩

/-- The single-precision word `0x3C23D70A` (the nearest to 0.01) denotes a real number. -/
theorem real_ofBits_hundredth : ∃ r : ℝ, Ideal.ofBits .f32 0x3C23D70A#32 = r :=
  real_ofBits_f32 _ (by decide)

/-- The single-precision word of `100000.0` denotes a positive real number. -/
theorem pos_ofBits_1e5 : ∃ r : ℝ, 0 < r ∧ Ideal.ofBits .f32 0x47C35000#32 = r :=
  ⟨100000, by norm_num, ofBits_1e5⟩

variable {s t : Shape} {φ : FTy}

/-! ### Constants -/

/-- A constant vector is real-valued when its word denotes a real. -/
theorem isReal_constant (s : Shape) (φ : FTy) (b : BitVec φ.bits) (h : ∃ r : ℝ, Ideal.ofBits φ b = r) :
    IsReal (constant (F := Ideal) s φ b) := fun _ => h

theorem isReal_constant_hundredth (s : Shape) : IsReal (constant (F := Ideal) s .f32 0x3C23D70A#32) :=
  isReal_constant s .f32 _ real_ofBits_hundredth

theorem isReal_constant_1e5 (s : Shape) : IsReal (constant (F := Ideal) s .f32 0x47C35000#32) :=
  isReal_constant s .f32 _ ⟨100000, ofBits_1e5⟩

@[simp] theorem constant_one_apply (s : Shape) (i : s.Idx) : constant (F := Ideal) s .f32 0x3F800000#32 i = 1 :=
  ofBits_one

@[simp] theorem constant_zero_apply (s : Shape) (i : s.Idx) : constant (F := Ideal) s .f32 0x00000000#32 i = 0 :=
  ofBits_zero

/-- A scalar broadcast to a shape is real-valued when the scalar is a real. -/
theorem isReal_broadcast (t : Shape) {a : EReal} (ha : ∃ r : ℝ, a = r) : IsReal (broadcast t a) := fun _ => ha

/-! ### Format changes are the identity on extended reals -/

theorem isReal_truncf {φ ψ : FTy} (h : ψ.bits < φ.bits) {x : FVec Ideal s φ} (hx : IsReal x) :
    IsReal (truncf ψ x h) := fun i => hx i

theorem isReal_extf {φ ψ : FTy} (h : φ.bits < ψ.bits) {x : FVec Ideal s φ} (hx : IsReal x) :
    IsReal (extf ψ x h) := fun i => hx i

/-- An integer converted to a float is a real number. -/
theorem isReal_sitofp {w : Nat} (φ : FTy) (x : IVec s w) : IsReal (sitofp (F := Ideal) φ x) :=
  fun i => ⟨((x i).toInt : ℝ), rfl⟩

/-! ### Negation, minimum -/

theorem isReal_negf {x : FVec Ideal s φ} (hx : IsReal x) : IsReal (negf x) := fun i => real_neg (hx i)

theorem isReal_minimumf {x y : FVec Ideal s φ} (hx : IsReal x) (hy : IsReal y) : IsReal (minimumf x y) :=
  fun i => real_min (hx i) (hy i)

/-! ### Division by a nonzero real-valued denominator -/

theorem isReal_divf {x y : FVec Ideal s φ} (hx : IsReal x) (hy : IsNonzero y) : IsReal (divf x y) :=
  fun i => real_div (hx i) (hy i)

theorem isReal_hostDivf {x y : FVec Ideal s φ} (hx : IsReal x) (hy : IsNonzero y) : IsReal (Host.divf x y) :=
  fun i => real_div (hx i) (hy i)

theorem isReal_divf_geOne {x y : FVec Ideal s φ} (hx : IsReal x) (hy : IsGeOne y) : IsReal (divf x y) :=
  isReal_divf hx hy.isNonzero

theorem isReal_hostDivf_geOne {x y : FVec Ideal s φ} (hx : IsReal x) (hy : IsGeOne y) : IsReal (Host.divf x y) :=
  isReal_hostDivf hx hy.isNonzero

/-- A nonnegative vector divided by a vector of positive reals is nonnegative. -/
theorem isNonneg_divf {x y : FVec Ideal s φ} (hx : IsNonneg x) (hy : ∀ i, ∃ r : ℝ, 0 < r ∧ y i = r) :
    IsNonneg (divf x y) := fun i => nonneg_div (hx i) (hy i)

theorem isNonneg_hostDivf {x y : FVec Ideal s φ} (hx : IsNonneg x) (hy : ∀ i, ∃ r : ℝ, 0 < r ∧ y i = r) :
    IsNonneg (Host.divf x y) := fun i => nonneg_div (hx i) (hy i)

/-! ### The two denominators -/

/-- The maximum of a real-valued vector with a vector that is everywhere one is at least one. -/
theorem isGeOne_maximumf_one {x c : FVec Ideal s φ} (hx : IsReal x) (hc : ∀ i, c i = 1) :
    IsGeOne (maximumf x c) := fun i => by
  show ∃ r : ℝ, 1 ≤ r ∧ max (x i) (c i) = r
  rw [hc i]; exact geOne_max_one_right (hx i)

theorem isGeOne_maximumf_one_left {x c : FVec Ideal s φ} (hx : IsReal x) (hc : ∀ i, c i = 1) :
    IsGeOne (maximumf c x) := fun i => by
  show ∃ r : ℝ, 1 ≤ r ∧ max (c i) (x i) = r
  rw [hc i]; exact geOne_max_one_left (hx i)

/-- The maximum of a real-valued vector with a vector that is everywhere zero is nonnegative. -/
theorem isNonneg_maximumf_zero {x c : FVec Ideal s φ} (hx : IsReal x) (hc : ∀ i, c i = 0) :
    IsNonneg (maximumf x c) := fun i => by
  show ∃ r : ℝ, 0 ≤ r ∧ max (x i) (c i) = r
  rw [hc i]; exact nonneg_max_zero_right (hx i)

theorem isNonneg_maximumf_zero_left {x c : FVec Ideal s φ} (hx : IsReal x) (hc : ∀ i, c i = 0) :
    IsNonneg (maximumf c x) := fun i => by
  show ∃ r : ℝ, 0 ≤ r ∧ max (c i) (x i) = r
  rw [hc i]; exact nonneg_max_zero_left (hx i)

/-- A nonnegative vector plus a vector that is everywhere one is at least one. -/
theorem isGeOne_addf_one {v c : FVec Ideal s φ} (hv : IsNonneg v) (hc : ∀ i, c i = 1) :
    IsGeOne (addf v c) := fun i => by
  show ∃ r : ℝ, 1 ≤ r ∧ v i + c i = r
  rw [hc i]; exact geOne_add_one (hv i)

theorem isGeOne_addf_one_left {v c : FVec Ideal s φ} (hv : IsNonneg v) (hc : ∀ i, c i = 1) :
    IsGeOne (addf c v) := fun i => by
  show ∃ r : ℝ, 1 ≤ r ∧ c i + v i = r
  rw [hc i]; exact geOne_one_add (hv i)

/-- Square roots: of a vector at least one, at least one; of a nonnegative vector, nonnegative. -/
theorem isGeOne_sqrt {x : FVec Ideal s φ} (hx : IsGeOne x) : IsGeOne (sqrt x) := fun i => geOne_sqrt (hx i)

theorem isGeOne_hostSqrt {x : FVec Ideal s φ} (hx : IsGeOne x) : IsGeOne (Host.sqrt x) := fun i => geOne_sqrt (hx i)

theorem isNonneg_sqrt {x : FVec Ideal s φ} (hx : IsNonneg x) : IsNonneg (sqrt x) := fun i => nonneg_sqrt (hx i)

theorem isNonneg_hostSqrt {x : FVec Ideal s φ} (hx : IsNonneg x) : IsNonneg (Host.sqrt x) :=
  fun i => nonneg_sqrt (hx i)

/-! ### Nonnegativity through squares and sums -/

theorem isNonneg_mulf_self {x : FVec Ideal s φ} (hx : IsReal x) : IsNonneg (mulf x x) :=
  fun i => nonneg_mul_self (hx i)

theorem isNonneg_addf {x y : FVec Ideal s φ} (hx : IsNonneg x) (hy : IsNonneg y) : IsNonneg (addf x y) :=
  fun i => nonneg_add (hx i) (hy i)

theorem isNonneg_mulf {x y : FVec Ideal s φ} (hx : IsNonneg x) (hy : IsNonneg y) : IsNonneg (mulf x y) :=
  fun i => nonneg_mul (hx i) (hy i)

/-! ### Sums: reductions and the matrix unit's product -/

/-- A kernel's additive reduction is a finite sum of entries. -/
theorem isReal_multiReduction_add (axes : List (Fin s.rank)) (t : Shape) {src : FVec Ideal s φ} (acc : BitVec φ.bits)
    (h : s.Reduces axes t) (hφ : FKind.Formats φ) (hacc : acc = FKind.add.neutral φ hφ) (hx : IsReal src) :
    IsReal (multiReduction .add axes t src acc h hφ hacc) := fun j => by
  show ∃ r : ℝ, Ideal.reduceAdd h src j = r
  unfold Ideal.reduceAdd
  exact real_sum _ _ fun i _ => hx i

theorem isNonneg_multiReduction_add (axes : List (Fin s.rank)) (t : Shape) {src : FVec Ideal s φ}
    (acc : BitVec φ.bits) (h : s.Reduces axes t) (hφ : FKind.Formats φ) (hacc : acc = FKind.add.neutral φ hφ)
    (hx : IsNonneg src) : IsNonneg (multiReduction .add axes t src acc h hφ hacc) := fun j => by
  show ∃ r : ℝ, 0 ≤ r ∧ Ideal.reduceAdd h src j = r
  unfold Ideal.reduceAdd
  exact nonneg_sum _ _ fun i _ => hx i

/-- The host's additive reduction is the initial value plus a finite sum of entries. -/
theorem isReal_hostReduceAdd {axes : List (Fin s.rank)} {t u : Shape} {x : FVec Ideal s φ} {init : u.Idx → Ideal φ}
    (h : s.ReducesTo axes t) (hu : 0 < u.numel) (hx : IsReal x) (hinit : IsReal init) :
    IsReal (Host.reduceAdd x init h hu) := fun j =>
  real_add (hinit _) (real_sum _ _ fun i _ => hx i)

theorem isNonneg_hostReduceAdd {axes : List (Fin s.rank)} {t u : Shape} {x : FVec Ideal s φ}
    {init : u.Idx → Ideal φ} (h : s.ReducesTo axes t) (hu : 0 < u.numel) (hx : IsNonneg x) (hinit : IsNonneg init) :
    IsNonneg (Host.reduceAdd x init h hu) := fun j =>
  nonneg_add (hinit _) (nonneg_sum _ _ fun i _ => hx i)

/-- The matrix unit's product entry is the accumulator's entry plus a finite sum of products. -/
theorem isReal_matmul {sl sr so : Shape} {φ₁ φ₂ : FTy} (d : DotDims sl sr so) (prec : Option ContractPrecision)
    {l : FVec Ideal sl φ₁} {r : FVec Ideal sr φ₂} {acc : FVec Ideal so .f32}
    (hl : IsReal l) (hr : IsReal r) (hacc : IsReal acc) : IsReal (matmul d prec l r acc) := fun j =>
  real_add (hacc j) (real_sum _ _ fun k _ => real_mul (hl _) (hr _))

/-- A scatter-add of nonnegative updates into a nonnegative operand is nonnegative. -/
theorem isNonneg_scatterAdd {si u : Shape} {w : Nat} (d : ScatterDims s si u) {x : FVec Ideal s φ} (idx : IVec si w)
    {upd : FVec Ideal u φ} (hx : IsNonneg x) (hu : IsNonneg upd) :
    IsNonneg (Host.scatterAdd (F := Ideal) d x idx upd) := fun i =>
  nonneg_add (hx i) (nonneg_sum _ _ fun j _ => hu j)

/-! ### From a real-valued vector to a vector of reals -/

/-- A real-valued vector is the entrywise coercion of a vector of reals (the form the variance law takes). -/
theorem IsReal.exists_real {ι : Type} {v : ι → EReal} (h : IsReal v) : ∃ x : ι → ℝ, v = fun i => ((x i : ℝ) : EReal) :=
  ⟨fun i => (h i).choose, funext fun i => (h i).choose_spec⟩

end Cert.Bridge

end
-- ==== Proof.Math.RefRead.lean ====
/- The reference's batch-normalisation stage read at an index, and its agreement with the other program's
   mean and variance computed from accumulated column sums.

   The reference's column mean is (0 + the column's sum) / 100000. Its variance is the column sum of squared
   deviations from that mean over 100000 − 0, selected where that divisor is positive (it is). The other program
   forms sum / 100000 and max(sumsq / 100000 − mean², 0) from the two accumulated rows. The means agree because
   0 + s = s; the variances agree, for a real-valued column, by the variance law. -/
import proofs.«154353_j88940182765819_1_alg».proof.Proof.Ref.Stages
import proofs.«154353_j88940182765819_1_alg».proof.Proof.Math.KStages
import proofs.«154353_j88940182765819_1_alg».proof.Proof.Math.Variance
import proofs.«154353_j88940182765819_1_alg».proof.Proof.Math.RealValued
import proofs.«154353_j88940182765819_1_alg».proof.Proof.KI.ValueCommon
import proofs.«154353_j88940182765819_1_alg».proof.Proof.Gen.ReferenceIdeal
import proofs.«154353_j88940182765819_1_alg».proof.Proof.Gen.KernelIdeal
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws

noncomputable section

namespace Cert.Bridge

open Idealize.ShloMosaic Idealize.ShloMosaic.ValueIdx Cert.RealValued
open Cert.ReferenceIdeal.RefRun
open scoped BigOperators

/-- The word of `100000.0`, as both programs carry it. -/
abbrev B1e5 : EReal := Ideal.ofBits .f32 0x47C35000#32

/-! ### Reads of the layout operations the stages use -/

/-- A 128-vector as a one-row array reads the vector. -/
theorem kRow_apply [Cert.KernelIdeal.Facts] (v : KTen Ideal Cert.KernelIdeal.S128 .f32) (j : Fin 128) :
    kRow v (ix2 (0 : Fin 1) j) = v (ix1 j) :=
  shapeCast_a_1a_apply v _ 0 j

/-- A 128-vector broadcast to one row reads the vector. -/
theorem bcast_128_1x128_apply {α : Type}
    (h : (⟨1, ![128]⟩ : Shape).BroadcastsInDim ⟨2, ![1, 128]⟩ ![1]) (v : (⟨1, ![128]⟩ : Shape).Idx → α) (j : Fin 128) :
    broadcastInDim ⟨2, ![1, 128]⟩ ![1] h v (ix2 (0 : Fin 1) j) = v (ix1 j) := by
  refine broadcastInDim_apply ![1] h v (ix2 (0 : Fin 1) j) (ix1 j) ?_
  intro a
  fin_cases a
  show j.val = if (128 : ℕ) = 1 then 0 else j.val
  rw [if_neg (by decide)]

/-- A 128-vector as every row of a 100000×128 array reads the vector at the column. -/
theorem refRows_apply [Cert.ReferenceIdeal.Facts] (v : Ten Ideal Cert.ReferenceIdeal.S128 .f32) (i : Fin 100000)
    (j : Fin 128) : refRows v (ix2 i j) = v (ix1 j) := by
  unfold refRows
  rw [broadcastInDim_oneRow_apply, bcast_128_1x128_apply]

/-- Over a rank-2 shape reduced along its rows, the index inserted over column `j` at row `k` is (k, j), whatever
    the two extents. -/
theorem lift_axis0 {m n : ℕ} (h : (⟨2, ![m, n]⟩ : Shape).Reduces [0] ⟨1, ![n]⟩) (j : Fin n) (k : Fin m) :
    h.lift (ix1 j) k = ix2 k j := by
  funext a
  refine Fin.ext ((h.lift_val (ix1 j) k a).trans ?_)
  match a with
  | ⟨0, _⟩ => exact dif_pos rfl
  | ⟨1, _⟩ => exact (dif_neg Nat.one_ne_zero).trans (dif_neg (Nat.not_lt_zero 1))

/-- The host's sum along the rows of an m×n array, read at column `j`: the initial value plus the column's sum. -/
theorem hostReduceAdd_col {m n : ℕ} (h' : (⟨2, ![m, n]⟩ : Shape).ReducesTo [0] ⟨1, ![n]⟩)
    (h : (⟨2, ![m, n]⟩ : Shape).Reduces [0] ⟨1, ![n]⟩) (x : (⟨2, ![m, n]⟩ : Shape).Idx → EReal) (init : EReal)
    (j : Fin n) : Ideal.hostReduceAdd h' x init (ix1 j) = init + ∑ i : Fin m, x (ix2 i j) := by
  refine (Ideal.hostReduceAdd_single h' h x init (ix1 j)).trans ?_
  congr 1
  exact Finset.sum_congr rfl fun k _ => congrArg x (lift_axis0 h j k)

/-- The row-sum shape fact at the programs' extents. -/
theorem reduces_100000x128 : Cert.ReferenceIdeal.S100000x128.Reduces [0] Cert.ReferenceIdeal.S128 := by decide

/-- The column sum the reference forms: zero plus the sum of the column. -/
theorem colSum_apply [Cert.ReferenceIdeal.Facts] (x : Ten Ideal Cert.ReferenceIdeal.S100000x128 .f32)
    (hr : Cert.ReferenceIdeal.S100000x128.ReducesTo [0] Cert.ReferenceIdeal.S128)
    (h0 : 0 < Cert.ReferenceIdeal.S_.numel) (j : Fin 128) :
    Host.reduceAdd x (constant (F := Ideal) Cert.ReferenceIdeal.S_ .f32 0x00000000#32) hr h0 (ix1 j)
      = ∑ i : Fin 100000, x (ix2 i j) :=
  (hostReduceAdd_apply x _ hr h0 (ix1 j)).trans
    ((hostReduceAdd_col hr reduces_100000x128 x _ j).trans
      (by rw [constant_apply, Ideal.ofBits_zero_f32, zero_add]))

/-! ### The mean -/

/-- The reference's column mean: the column's sum over the word of 100000. -/
theorem refMean_apply [Cert.ReferenceIdeal.Facts] (x : Ten Ideal Cert.ReferenceIdeal.S100000x128 .f32) (j : Fin 128) :
    refMean x (ix1 j) = Ideal.div (∑ i : Fin 100000, x (ix2 i j)) B1e5 := by
  unfold refMean
  rw [hostDivf_apply, colSum_apply, broadcastInDim_scalar_apply, constant_apply]

/-- The other program's mean from an accumulated row. -/
theorem kMean_apply [Cert.KernelIdeal.Facts] (s : KTen Ideal Cert.KernelIdeal.S1x128 .f32) (j : Fin 128) :
    kMean s (ix2 (0 : Fin 1) j) = Ideal.div (s (ix2 (0 : Fin 1) j)) B1e5 := by
  unfold kMean
  rw [hostDivf_apply, broadcastInDim_scalar_apply, constant_apply]

/-- The two means agree when the accumulated row holds the column sums. -/
theorem refMean_eq_kMean [Cert.ReferenceIdeal.Facts] [Cert.KernelIdeal.Facts]
    (x : Ten Ideal Cert.ReferenceIdeal.S100000x128 .f32) (s : KTen Ideal Cert.KernelIdeal.S1x128 .f32)
    (hs : ∀ j : Fin 128, s (ix2 (0 : Fin 1) j) = ∑ i : Fin 100000, x (ix2 i j)) (j : Fin 128) :
    refMean x (ix1 j) = kMean s (ix2 (0 : Fin 1) j) := by
  rw [refMean_apply, kMean_apply, hs]

/-! ### The variance -/

/-- The host's square root read at an index. -/
theorem hostSqrt_apply {s : Shape} {φ : FTy} (w : FVec Ideal s φ) (i : s.Idx) : Host.sqrt w i = Ideal.sqrt (w i) := rfl

/-- The word of 100000 is positive. -/
theorem B1e5_pos : (0 : EReal) < B1e5 := by
  rw [show B1e5 = ((100000 : ℝ) : EReal) from ofBits_1e5]
  exact_mod_cast (by norm_num : (0 : ℝ) < 100000)

/-- The reference's variance divisor with no correction: 100000 − 0, the word of 100000. -/
theorem refDof_zero [Cert.ReferenceIdeal.Facts] :
    refDof (F := Ideal) (constantI Cert.ReferenceIdeal.S_ 32 0#32) ix0 = B1e5 := by
  unfold refDof
  rw [subf_apply, constant_apply, sitofp_apply, constantI_apply]
  show Ideal.ofBits .f32 0x47C35000#32 - ((((0#32 : BitVec 32).toInt : ℤ) : ℝ) : EReal) = _
  rw [show (0#32 : BitVec 32).toInt = 0 from rfl, Int.cast_zero, EReal.coe_zero, sub_zero]

/-- The comparison "the divisor is positive" comes out true. -/
theorem cmp_B1e5_pos : FloatOps.cmpf (F := Ideal) (φ := .f32) .ogt B1e5 (Ideal.ofBits .f32 0x00000000#32) = 1#1 := by
  rw [Ideal.cmpf_def, Ideal.ofBits_zero_f32]
  show BitVec.ofBool (decide ((0 : EReal) < B1e5)) = 1#1
  rw [decide_eq_true B1e5_pos]
  rfl

/-- The reference's centred rows: the entry minus its column's mean. -/
theorem refCentred_apply [Cert.ReferenceIdeal.Facts] (x : Ten Ideal Cert.ReferenceIdeal.S100000x128 .f32)
    (i : Fin 100000) (j : Fin 128) :
    refCentred x (ix2 i j) = x (ix2 i j) - Ideal.div (∑ k : Fin 100000, x (ix2 k j)) B1e5 := by
  unfold refCentred
  rw [subf_apply, broadcastInDim_oneRow_apply, hostDivf_apply, bcast_128_1x128_apply, colSum_apply,
    broadcastInDim_scalar_apply, constant_apply]

/-- The reference's variance with no correction: the column's sum of squared deviations over the word of 100000. -/
theorem refVar_apply [Cert.ReferenceIdeal.Facts] (x : Ten Ideal Cert.ReferenceIdeal.S100000x128 .f32) (j : Fin 128) :
    refVar x (constantI Cert.ReferenceIdeal.S_ 32 0#32) (ix1 j)
      = Ideal.div (∑ i : Fin 100000,
          (x (ix2 i j) - Ideal.div (∑ k : Fin 100000, x (ix2 k j)) B1e5)
            * (x (ix2 i j) - Ideal.div (∑ k : Fin 100000, x (ix2 k j)) B1e5)) B1e5 := by
  unfold refVar
  rw [select_apply, broadcastInDim_scalar_apply, cmpf_apply, refDof_zero, constant_apply, cmp_B1e5_pos, select_one,
    hostDivf_apply, colSum_apply, broadcastInDim_scalar_apply, refDof_zero]
  exact congrArg (fun t => Ideal.div t B1e5)
    (Finset.sum_congr rfl fun i _ => by rw [mulf_apply, refCentred_apply])

/-- The other program's variance from the two accumulated rows. -/
theorem kVar_apply [Cert.KernelIdeal.Facts] (s q : KTen Ideal Cert.KernelIdeal.S1x128 .f32) (j : Fin 128) :
    kVar s q (ix2 (0 : Fin 1) j)
      = max (Ideal.div (q (ix2 (0 : Fin 1) j)) B1e5
              - Ideal.div (s (ix2 (0 : Fin 1) j)) B1e5 * Ideal.div (s (ix2 (0 : Fin 1) j)) B1e5) 0 := by
  unfold kVar
  rw [maximumf_apply, subf_apply, hostDivf_apply, mulf_apply, kMean_apply, broadcastInDim_scalar_apply,
    broadcastInDim_scalar_apply, constant_apply, constant_apply, Ideal.ofBits_zero_f32]

/-- The two variances agree, for a real-valued array, when the accumulated rows hold the column sums and the column
    sums of squares: the variance law, column by column. -/
theorem refVar_eq_kVar [Cert.ReferenceIdeal.Facts] [Cert.KernelIdeal.Facts]
    (x : Ten Ideal Cert.ReferenceIdeal.S100000x128 .f32) (hx : Cert.RealValued.IsReal x)
    (s q : KTen Ideal Cert.KernelIdeal.S1x128 .f32)
    (hs : ∀ j : Fin 128, s (ix2 (0 : Fin 1) j) = ∑ i : Fin 100000, x (ix2 i j))
    (hq : ∀ j : Fin 128, q (ix2 (0 : Fin 1) j) = ∑ i : Fin 100000, x (ix2 i j) * x (ix2 i j)) (j : Fin 128) :
    refVar x (constantI Cert.ReferenceIdeal.S_ 32 0#32) (ix1 j) = kVar s q (ix2 (0 : Fin 1) j) := by
  rw [refVar_apply, kVar_apply, hs, hq]
  obtain ⟨x', rfl⟩ := IsReal.exists_real hx
  exact variance_law_bits fun i => x' (ix2 i j)

/-! ### Normalisation and the leaky rectifier -/

/-- The reference's normalised entry. -/
theorem refNorm_apply [Cert.ReferenceIdeal.Facts] (x : Ten Ideal Cert.ReferenceIdeal.S100000x128 .f32)
    (g b : Ten Ideal Cert.ReferenceIdeal.S128 .f32) (i : Fin 100000) (j : Fin 128) :
    refNorm x g b (ix2 i j)
      = Ideal.div (g (ix1 j) * (x (ix2 i j) - refMean x (ix1 j)))
          (Ideal.sqrt (refVar x (constantI Cert.ReferenceIdeal.S_ 32 0#32) (ix1 j) + Ideal.ofBits .f32 0x3F800000#32))
        + b (ix1 j) := by
  unfold refNorm
  rw [addf_apply, hostDivf_apply, mulf_apply, subf_apply, refRows_apply, refRows_apply, refRows_apply, refRows_apply,
    hostSqrt_apply, addf_apply, broadcastInDim_scalar_apply, constant_apply]

/-- The reference's batch-normalised, rectified entry is the one-element formula of the other program at the
    reference's own mean and variance. -/
theorem refBN_apply [Cert.ReferenceIdeal.Facts] (x : Ten Ideal Cert.ReferenceIdeal.S100000x128 .f32)
    (g b : Ten Ideal Cert.ReferenceIdeal.S128 .f32) (i : Fin 100000) (j : Fin 128) :
    refBN x g b (ix2 i j)
      = Cert.KernelIdeal.Hand.bnLreluAt (x (ix2 i j)) (g (ix1 j)) (b (ix1 j)) (refMean x (ix1 j))
          (refVar x (constantI Cert.ReferenceIdeal.S_ 32 0#32) (ix1 j)) := by
  unfold refBN
  rw [select_apply, cmpf_apply, mulf_apply, broadcastInDim_scalar_apply, broadcastInDim_scalar_apply, constant_apply,
    constant_apply, refNorm_apply]
  rfl

end Cert.Bridge

end
-- ==== Proof.KI.Value0.lean ====
import proofs.«154353_j88940182765819_1_alg».proof.Proof.KI.Value0C
import proofs.«154353_j88940182765819_1_alg».proof.Proof.Math.RefRead

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Bridge
open scoped BigOperators

variable (V : (c : Dev nD) → (b : Ref sig .tc) → Buf (Elt Ideal) ((c : Thread nD τ).loc b))
/-! ## The statements the run is assembled from -/

/-- The two row outputs hold the column sums of the block output's array and of its squares. -/
theorem sums0 (c : Dev nD) (h : S100000x128.Idx → EReal) (s q : S1x128.Idx → EReal)
    (hh : h = (dat0 V c).arrAt 9 cfg0.N) (hs : s = (dat0 V c).arrAt 10 cfg0.N) (hq : q = (dat0 V c).arrAt 11 cfg0.N) :
    (∀ j : Fin 128, s (ix2 (0 : Fin 1) j) = ∑ i : Fin 100000, h (ix2 i j)) ∧ (∀ j : Fin 128, q (ix2 (0 : Fin 1) j) = ∑ i : Fin 100000, h (ix2 i j) * h (ix2 i j)) := by
  have e9 : h = G9_0 V c := hh.trans (final9_0 V c)
  have e10 : s = R10_0 V c := hs.trans (final10_0 V c)
  have e11 : q = R11_0 V c := hq.trans (final11_0 V c)
  subst e9 e10 e11
  refine ⟨fun j => ?_, fun j => ?_⟩
  · rw [R10_0_apply]
    exact fold_25 (fun i : Fin 100000 => G9_0 V c (ix2 i j)) (acc0_0 V c j) rfl (acc0_0_step V c j)
  · rw [R11_0_apply]
    exact fold_25 (fun i : Fin 100000 => G9_0 V c (ix2 i j) * G9_0 V c (ix2 i j)) (acc1_0 V c j) rfl (acc1_0_step V c j)

/-- The block output's array is the reference's convolution of the arrays the region finds, when the three bias
    windows hold the bias vectors as one-row arrays and the two update-weight windows the two halves of `wu`. -/
theorem conv0 (c : Dev nD) (bd bs bu : KTen Ideal S128 .f32) (wu : KTen Ideal S256x128 .f32)
    (h3 : V c main_v48 = kRow bd) (h5 : V c main_v49 = kRow bs) (h8 : V c main_v50 = kRow bu) (h6 : V c main_v46 = kWu0 wu) (h7 : V c main_v47 = kWu1 wu) :
    (dat0 V c).arrAt 9 cfg0.N = Cert.ReferenceIdeal.RefRun.refConv (F := Ideal) Cert.ReferenceIdeal.dot_S100000x256_S256x128_S100000x128_1_0_0_1_n_n Cert.ReferenceIdeal.dot_S100000x128_S128x128_S100000x128_1_0_0_1_n_n
      (V c main_arg0) (V c main_v26) (V c main_arg6) bd (V c main_arg4) bs wu bu := by
  rw [final9_0]
  funext (i : S100000x128.Idx)
  obtain ⟨r, j, rfl⟩ : ∃ (r : Fin 100000) (j : Fin 128), i = ix2 r j := ⟨i 0, i 1, eq_ix2 i⟩
  rw [refConv_apply_256_128]
  show convArr (Kd := 256) (Ka := 128) (V c main_arg0) (V c main_v26) (V c main_arg6) (V c main_v48) (V c main_arg4) (V c main_v49) (V c main_v46) (V c main_v47) (V c main_v50) (ix2 r j) = _
  rw [convArr_apply, h3, h5, h8, h6, h7]
  simp only [kRow_apply, kWu0_apply, kWu1_apply]

end Cert.KernelIdeal.Hand

end
-- ==== Proof.KI.Pieces1.lean ====
import proofs.«154353_j88940182765819_1_alg».proof.Proof.KI.Region1
import proofs.«154353_j88940182765819_1_alg».proof.Proof.KI.ValueCommon
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

/-! # What each case of region 1's body stores, as the body's payloads over the input blocks

Every store of the body writes a whole buffer, so what a buffer holds afterwards is its last store's payload; a
load that follows a store into the same buffer reads that store's payload. -/

/-- Case A: the stores into that buffer cover it. -/
theorem covA1_o9 (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond1_0 i) (hc1 : ¬cond1_1 i) (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) (y : S4000x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1 S4000x128.size (by sl_kernel_rfl) y

set_option maxHeartbeats 4000000 in
/-- Case A: the block output's staging buffer ends holding the block of `h`. -/
theorem pieceA1_o9 (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond1_0 i) (hc1 : ¬cond1_1 i) (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) :
    VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1)
      = k1_pay1 (k1_pay6 x0 x1 x2 x4 x6 x7 x3 x5) x8 := by
  rw [View.read_writes_eq_canon _ _ _ (covA1_o9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun1_A
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S4000x256) hz2, View.ld_unit_zero (S := S128x128) hz2, View.ld_unit_zero (S := S1x128) hz2, View.ld_unit_zero (S := S256x128) hz2, shapeCast_self]

/-- Case A: the stores into that buffer cover it. -/
theorem covA1_s0 (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond1_0 i) (hc1 : ¬cond1_1 i) (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) (y : S1x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1 S1x128.size (by sl_kernel_rfl) y

set_option maxHeartbeats 4000000 in
/-- Case A: accumulator row 0 ends holding what accumulator row 0 held plus the block's column sums. -/
theorem pieceA1_s0 (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond1_0 i) (hc1 : ¬cond1_1 i) (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) :
    VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1)
      = k1_pay2 (k1_pay6 x0 x1 x2 x4 x6 x7 x3 x5) x8 (k1_pay4 (F := F)) := by
  rw [View.read_writes_eq_canon _ _ _ (covA1_s0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun1_A
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S4000x256) hz2, View.ld_unit_zero (S := S128x128) hz2, View.ld_unit_zero (S := S1x128) hz2, View.ld_unit_zero (S := S256x128) hz2, shapeCast_self]

/-- Case A: the stores into that buffer cover it. -/
theorem covA1_s1 (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond1_0 i) (hc1 : ¬cond1_1 i) (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) (y : S1x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1 S1x128.size (by sl_kernel_rfl) y

set_option maxHeartbeats 4000000 in
/-- Case A: accumulator row 1 ends holding what accumulator row 1 held plus the column sums of the block's squares. -/
theorem pieceA1_s1 (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond1_0 i) (hc1 : ¬cond1_1 i) (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) :
    VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1)
      = k1_pay3 (k1_pay6 x0 x1 x2 x4 x6 x7 x3 x5) x8 (k1_pay5 (F := F)) := by
  rw [View.read_writes_eq_canon _ _ _ (covA1_s1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun1_A
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S4000x256) hz2, View.ld_unit_zero (S := S128x128) hz2, View.ld_unit_zero (S := S1x128) hz2, View.ld_unit_zero (S := S256x128) hz2, shapeCast_self]

/-- Case B: the stores into that buffer cover it. -/
theorem covB1_o9 (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond1_0 i) (hc1 : ¬cond1_1 i) (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) (xs0 xs1 : Vec F S1x128 .f32) (y : S4000x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1 S4000x128.size (by sl_kernel_rfl) y

set_option maxHeartbeats 4000000 in
/-- Case B: the block output's staging buffer ends holding the block of `h`. -/
theorem pieceB1_o9 (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond1_0 i) (hc1 : ¬cond1_1 i) (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) (xs0 xs1 : Vec F S1x128 .f32) :
    VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1)
      = k1_pay1 (k1_pay6 x0 x1 x2 x4 x6 x7 x3 x5) x8 := by
  rw [View.read_writes_eq_canon _ _ _ (covB1_o9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun1_B
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S4000x256) hz2, View.ld_unit_zero (S := S128x128) hz2, View.ld_unit_zero (S := S1x128) hz2, View.ld_unit_zero (S := S256x128) hz2, shapeCast_self]

/-- Case B: the stores into that buffer cover it. -/
theorem covB1_s0 (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond1_0 i) (hc1 : ¬cond1_1 i) (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) (xs0 xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1 S1x128.size (by sl_kernel_rfl) y

set_option maxHeartbeats 4000000 in
/-- Case B: accumulator row 0 ends holding what accumulator row 0 held plus the block's column sums. -/
theorem pieceB1_s0 (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond1_0 i) (hc1 : ¬cond1_1 i) (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) (xs0 xs1 : Vec F S1x128 .f32) :
    VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1)
      = k1_pay2 (k1_pay6 x0 x1 x2 x4 x6 x7 x3 x5) x8 xs0 := by
  rw [View.read_writes_eq_canon _ _ _ (covB1_s0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun1_B
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S4000x256) hz2, View.ld_unit_zero (S := S128x128) hz2, View.ld_unit_zero (S := S1x128) hz2, View.ld_unit_zero (S := S256x128) hz2, shapeCast_self]

/-- Case B: the stores into that buffer cover it. -/
theorem covB1_s1 (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond1_0 i) (hc1 : ¬cond1_1 i) (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) (xs0 xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1 S1x128.size (by sl_kernel_rfl) y

set_option maxHeartbeats 4000000 in
/-- Case B: accumulator row 1 ends holding what accumulator row 1 held plus the column sums of the block's squares. -/
theorem pieceB1_s1 (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond1_0 i) (hc1 : ¬cond1_1 i) (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) (xs0 xs1 : Vec F S1x128 .f32) :
    VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1)
      = k1_pay3 (k1_pay6 x0 x1 x2 x4 x6 x7 x3 x5) x8 xs1 := by
  rw [View.read_writes_eq_canon _ _ _ (covB1_s1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun1_B
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S4000x256) hz2, View.ld_unit_zero (S := S128x128) hz2, View.ld_unit_zero (S := S1x128) hz2, View.ld_unit_zero (S := S256x128) hz2, shapeCast_self]

/-- Case C: the stores into that buffer cover it. -/
theorem covC1_o9 (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond1_0 i) (hc1 : cond1_1 i) (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) (xs0 xs1 : Vec F S1x128 .f32) (y : S4000x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1 S4000x128.size (by sl_kernel_rfl) y

set_option maxHeartbeats 4000000 in
/-- Case C: the block output's staging buffer ends holding the block of `h`. -/
theorem pieceC1_o9 (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond1_0 i) (hc1 : cond1_1 i) (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) (xs0 xs1 : Vec F S1x128 .f32) :
    VO1_9.read (Elt F) (VO1_9.writes (Elt F) VO1_9.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1)
      = k1_pay1 (k1_pay6 x0 x1 x2 x4 x6 x7 x3 x5) x8 := by
  rw [View.read_writes_eq_canon _ _ _ (covC1_o9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun1_C
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S4000x256) hz2, View.ld_unit_zero (S := S128x128) hz2, View.ld_unit_zero (S := S1x128) hz2, View.ld_unit_zero (S := S256x128) hz2, shapeCast_self]

/-- Case C: the stores into that buffer cover it. -/
theorem covC1_o10 (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond1_0 i) (hc1 : cond1_1 i) (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1 S1x128.size (by sl_kernel_rfl) y

set_option maxHeartbeats 4000000 in
/-- Case C: row output 10's staging buffer ends holding accumulator row 0 as this point leaves it. -/
theorem pieceC1_o10 (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond1_0 i) (hc1 : cond1_1 i) (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) (xs0 xs1 : Vec F S1x128 .f32) :
    VO1_10.read (Elt F) (VO1_10.writes (Elt F) VO1_10.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1)
      = k1_pay2 (k1_pay6 x0 x1 x2 x4 x6 x7 x3 x5) x8 xs0 := by
  rw [View.read_writes_eq_canon _ _ _ (covC1_o10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun1_C
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S4000x256) hz2, View.ld_unit_zero (S := S128x128) hz2, View.ld_unit_zero (S := S1x128) hz2, View.ld_unit_zero (S := S256x128) hz2, shapeCast_self]

/-- Case C: the stores into that buffer cover it. -/
theorem covC1_o11 (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond1_0 i) (hc1 : cond1_1 i) (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1 S1x128.size (by sl_kernel_rfl) y

set_option maxHeartbeats 4000000 in
/-- Case C: row output 11's staging buffer ends holding accumulator row 1 as this point leaves it. -/
theorem pieceC1_o11 (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond1_0 i) (hc1 : cond1_1 i) (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) (xs0 xs1 : Vec F S1x128 .f32) :
    VO1_11.read (Elt F) (VO1_11.writes (Elt F) VO1_11.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1)
      = k1_pay3 (k1_pay6 x0 x1 x2 x4 x6 x7 x3 x5) x8 xs1 := by
  rw [View.read_writes_eq_canon _ _ _ (covC1_o11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun1_C
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S4000x256) hz2, View.ld_unit_zero (S := S128x128) hz2, View.ld_unit_zero (S := S1x128) hz2, View.ld_unit_zero (S := S256x128) hz2, shapeCast_self]

/-- Case C: the stores into that buffer cover it. -/
theorem covC1_s0 (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond1_0 i) (hc1 : cond1_1 i) (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1 S1x128.size (by sl_kernel_rfl) y

set_option maxHeartbeats 4000000 in
/-- Case C: accumulator row 0 ends holding what accumulator row 0 held plus the block's column sums. -/
theorem pieceC1_s0 (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond1_0 i) (hc1 : cond1_1 i) (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) (xs0 xs1 : Vec F S1x128 .f32) :
    VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1)
      = k1_pay2 (k1_pay6 x0 x1 x2 x4 x6 x7 x3 x5) x8 xs0 := by
  rw [View.read_writes_eq_canon _ _ _ (covC1_s0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun1_C
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S4000x256) hz2, View.ld_unit_zero (S := S128x128) hz2, View.ld_unit_zero (S := S1x128) hz2, View.ld_unit_zero (S := S256x128) hz2, shapeCast_self]

/-- Case C: the stores into that buffer cover it. -/
theorem covC1_s1 (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond1_0 i) (hc1 : cond1_1 i) (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.2.1 S1x128.size (by sl_kernel_rfl) y

set_option maxHeartbeats 4000000 in
/-- Case C: accumulator row 1 ends holding what accumulator row 1 held plus the column sums of the block's squares. -/
theorem pieceC1_s1 (c : Dev nD) (i : grid1.Coords) (arg1 : Memref sig .tc .vmem S4000x128 .f32) (harg1 : arg1.IsWhole) (arg2 : Memref sig .tc .vmem S4000x256 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond1_0 i) (hc1 : cond1_1 i) (x0 : Vec F S4000x128 .f32) (x1 : Vec F S4000x256 .f32) (x2 : Vec F S128x128 .f32) (x3 : Vec F S1x128 .f32) (x4 : Vec F S256x128 .f32) (x5 : Vec F S1x128 .f32) (x6 : Vec F S128x128 .f32) (x7 : Vec F S128x128 .f32) (x8 : Vec F S1x128 .f32) (xs0 xs1 : Vec F S1x128 .f32) :
    VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.2.1)
      = k1_pay3 (k1_pay6 x0 x1 x2 x4 x6 x7 x3 x5) x8 xs1 := by
  rw [View.read_writes_eq_canon _ _ _ (covC1_s1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun1_C
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S4000x256) hz2, View.ld_unit_zero (S := S128x128) hz2, View.ld_unit_zero (S := S1x128) hz2, View.ld_unit_zero (S := S256x128) hz2, shapeCast_self]

end Cert.KernelIdeal.Hand

end
-- ==== Proof.KI.Value1A.lean ====
import proofs.«154353_j88940182765819_1_alg».proof.Proof.KI.Pieces1
import proofs.«154353_j88940182765819_1_alg».proof.Proof.KI.ConvCommon
import proofs.«154353_j88940182765819_1_alg».proof.Proof.Math.BlockSums
import proofs.«154353_j88940182765819_1_alg».proof.Proof.Math.ConvRead

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Bridge
open scoped BigOperators

variable (V : (c : Dev nD) → (b : Ref sig .tc) → Buf (Elt Ideal) ((c : Thread nD τ).loc b))

/-! # Region 1 at the ideal values

The block output's array ends holding the convolution's closed form over the arrays the region finds; the two
row outputs end holding the column sums of that array and of its squares: each grid point adds its block's column
sums to an accumulator row that the first point zeroes and the last point copies out. -/

/-! ## The body's payloads at an element -/

/-- The two stacked products: the destination rows through `wd`, `bd` and the first half of the update weight, plus the
    aggregated rows through `ws`, `bs` and the second half. (Rounding the factors to bf16 is the identity at the
    ideal values.) -/
theorem pay6_1_apply (x0 : Vec Ideal S4000x128 .f32) (x1 : Vec Ideal S4000x256 .f32) (x2 : Vec Ideal S128x128 .f32) (x3 : Vec Ideal S1x128 .f32)
    (x4 : Vec Ideal S256x128 .f32) (x5 : Vec Ideal S1x128 .f32) (x6 x7 : Vec Ideal S128x128 .f32) (r : Fin 4000) (j : Fin 128) :
    k1_pay6 x0 x1 x2 x4 x6 x7 x3 x5 (ix2 r j)
      = (∑ k : Fin 128, ((∑ l : Fin 128, x0 (ix2 r l) * x2 (ix2 l k)) + x3 (ix2 (0 : Fin 1) k)) * x6 (ix2 k j))
        + (∑ k : Fin 128, ((∑ l : Fin 256, x1 (ix2 r l) * x4 (ix2 l k)) + x5 (ix2 (0 : Fin 1) k)) * x7 (ix2 k j)) := by
  unfold k1_pay6
  simp only [shapeCast_self, addf_apply, truncf_apply, broadcastTo_1b_ab_apply, mm_4000_128, mm_4000_256]

/-- The block of `h`: the stacked products plus the update bias row. -/
theorem pay1_1_apply (p : FVec Ideal S4000x128 .f32) (x8 : Vec Ideal S1x128 .f32) (r : Fin 4000) (j : Fin 128) :
    k1_pay1 p x8 (ix2 r j) = p (ix2 r j) + x8 (ix2 (0 : Fin 1) j) := by
  unfold k1_pay1
  simp only [shapeCast_self, addf_apply, broadcastTo_1b_ab_apply]

/-- The first accumulator row after a point: what it held plus the block's column sums. -/
theorem pay2_1_apply (p : FVec Ideal S4000x128 .f32) (x8 a : Vec Ideal S1x128 .f32) (j : Fin 128) :
    k1_pay2 p x8 a (ix2 (0 : Fin 1) j) = a (ix2 (0 : Fin 1) j) + ∑ r : Fin 4000, k1_pay1 p x8 (ix2 r j) := by
  unfold k1_pay2
  simp only [shapeCast_self, addf_apply]
  rw [shapeCast_a_1a_apply]
  exact congrArg (a (ix2 (0 : Fin 1) j) + ·) (colsum_apply _ _ _ _ j)

/-- The second accumulator row after a point: what it held plus the column sums of the block's squares. -/
theorem pay3_1_apply (p : FVec Ideal S4000x128 .f32) (x8 a : Vec Ideal S1x128 .f32) (j : Fin 128) :
    k1_pay3 p x8 a (ix2 (0 : Fin 1) j)
      = a (ix2 (0 : Fin 1) j) + ∑ r : Fin 4000, k1_pay1 p x8 (ix2 r j) * k1_pay1 p x8 (ix2 r j) := by
  unfold k1_pay3
  simp only [shapeCast_self, addf_apply]
  rw [shapeCast_a_1a_apply]
  exact congrArg (a (ix2 (0 : Fin 1) j) + ·) (colsum_apply _ _ _ _ j)

/-- The zero rows the first point stores into the accumulators. -/
theorem pay4_1_apply (j : Fin 128) : k1_pay4 (F := Ideal) (ix2 (0 : Fin 1) j) = 0 := by
  unfold k1_pay4
  simp only [shapeCast_self, broadcast_apply]
  exact Ideal.ofBits_zero_f32
theorem pay5_1_apply (j : Fin 128) : k1_pay5 (F := Ideal) (ix2 (0 : Fin 1) j) = 0 := by
  unfold k1_pay5
  simp only [shapeCast_self, broadcast_apply]
  exact Ideal.ofBits_zero_f32

/-! ## The windows' blocks as parts of their arrays -/

/-- The index maps over the grid: the two row-blocked inputs' and the block output's block at point `t` is row block
    `t`; every other window's block is the one block there is. -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0) :=
  (by decide +kernel : ∀ t : Fin grid1.N, _)

/-- Row-blocked input 0's block at point `t` is rows `4000 t … 4000 t + 3999` of its array. -/
theorem iblk1_0_apply (c : Dev nD) (t : Fin cfg1.N) (r : Fin 4000) (l : Fin 128) (k : S100000x128.Idx)
    (hk0 : (k 0).val = 4000 * t.val + r.val) (hk1 : (k 1).val = l.val) :
    (iblk1 V c 0 t : Vec Ideal S4000x128 .f32) (ix2 r l) = (V c (Pipeline.arrRef spec1 0) : S100000x128.Idx → EReal) k := by
  obtain ⟨⟨e0, e1⟩, -, -, -, -, -, -, -, -, -, -, -⟩ := idx1 t
  unfold iblk1
  rw [View.read_apply]
  show (V c (Pipeline.arrRef spec1 0) : S100000x128.Idx → EReal) _ = _
  refine congrArg _ (funext fun a => Fin.ext ?_)
  match a with
  | ⟨0, _⟩ => show win1_0.index t (0 : Fin 2) * 4000 + 1 * r.val = (k 0).val; rw [e0, hk0]; omega
  | ⟨1, _⟩ => show win1_0.index t (1 : Fin 2) * 128 + 1 * l.val = (k 1).val; rw [e1, hk1]; omega

/-- Row-blocked input 1's block at point `t` is rows `4000 t … 4000 t + 3999` of its array. -/
theorem iblk1_1_apply (c : Dev nD) (t : Fin cfg1.N) (r : Fin 4000) (l : Fin 256) (k : S100000x256.Idx)
    (hk0 : (k 0).val = 4000 * t.val + r.val) (hk1 : (k 1).val = l.val) :
    (iblk1 V c 1 t : Vec Ideal S4000x256 .f32) (ix2 r l) = (V c (Pipeline.arrRef spec1 1) : S100000x256.Idx → EReal) k := by
  obtain ⟨-, ⟨e0, e1⟩, -, -, -, -, -, -, -, -, -, -⟩ := idx1 t
  unfold iblk1
  rw [View.read_apply]
  show (V c (Pipeline.arrRef spec1 1) : S100000x256.Idx → EReal) _ = _
  refine congrArg _ (funext fun a => Fin.ext ?_)
  match a with
  | ⟨0, _⟩ => show win1_1.index t (0 : Fin 2) * 4000 + 1 * r.val = (k 0).val; rw [e0, hk0]; omega
  | ⟨1, _⟩ => show win1_1.index t (1 : Fin 2) * 256 + 1 * l.val = (k 1).val; rw [e1, hk1]; omega

/-- Resident input 2's block, at every point, is its whole array. -/
theorem iblk1_2_apply (c : Dev nD) (t : Fin cfg1.N) (l : Fin 128) (k : Fin 128) :
    (iblk1 V c 2 t : Vec Ideal S128x128 .f32) (ix2 l k) = (V c (Pipeline.arrRef spec1 2) : S128x128.Idx → EReal) (ix2 l k) := by
  obtain ⟨-, -, ⟨e0, e1⟩, -, -, -, -, -, -, -, -, -⟩ := idx1 t
  unfold iblk1
  rw [View.read_apply]
  show (V c (Pipeline.arrRef spec1 2) : S128x128.Idx → EReal) _ = _
  refine congrArg _ (funext fun a => Fin.ext ?_)
  match a with
  | ⟨0, _⟩ => show win1_2.index t (0 : Fin 2) * 128 + 1 * l.val = l.val; rw [e0]; omega
  | ⟨1, _⟩ => show win1_2.index t (1 : Fin 2) * 128 + 1 * k.val = k.val; rw [e1]; omega

/-- Resident input 4's block, at every point, is its whole array. -/
theorem iblk1_4_apply (c : Dev nD) (t : Fin cfg1.N) (l : Fin 256) (k : Fin 128) :
    (iblk1 V c 4 t : Vec Ideal S256x128 .f32) (ix2 l k) = (V c (Pipeline.arrRef spec1 4) : S256x128.Idx → EReal) (ix2 l k) := by
  obtain ⟨-, -, -, -, ⟨e0, e1⟩, -, -, -, -, -, -, -⟩ := idx1 t
  unfold iblk1
  rw [View.read_apply]
  show (V c (Pipeline.arrRef spec1 4) : S256x128.Idx → EReal) _ = _
  refine congrArg _ (funext fun a => Fin.ext ?_)
  match a with
  | ⟨0, _⟩ => show win1_4.index t (0 : Fin 2) * 256 + 1 * l.val = l.val; rw [e0]; omega
  | ⟨1, _⟩ => show win1_4.index t (1 : Fin 2) * 128 + 1 * k.val = k.val; rw [e1]; omega

/-- Resident input 6's block, at every point, is its whole array. -/
theorem iblk1_6_apply (c : Dev nD) (t : Fin cfg1.N) (l : Fin 128) (k : Fin 128) :
    (iblk1 V c 6 t : Vec Ideal S128x128 .f32) (ix2 l k) = (V c (Pipeline.arrRef spec1 6) : S128x128.Idx → EReal) (ix2 l k) := by
  obtain ⟨-, -, -, -, -, -, ⟨e0, e1⟩, -, -, -, -, -⟩ := idx1 t
  unfold iblk1
  rw [View.read_apply]
  show (V c (Pipeline.arrRef spec1 6) : S128x128.Idx → EReal) _ = _
  refine congrArg _ (funext fun a => Fin.ext ?_)
  match a with
  | ⟨0, _⟩ => show win1_6.index t (0 : Fin 2) * 128 + 1 * l.val = l.val; rw [e0]; omega
  | ⟨1, _⟩ => show win1_6.index t (1 : Fin 2) * 128 + 1 * k.val = k.val; rw [e1]; omega

/-- Resident input 7's block, at every point, is its whole array. -/
theorem iblk1_7_apply (c : Dev nD) (t : Fin cfg1.N) (l : Fin 128) (k : Fin 128) :
    (iblk1 V c 7 t : Vec Ideal S128x128 .f32) (ix2 l k) = (V c (Pipeline.arrRef spec1 7) : S128x128.Idx → EReal) (ix2 l k) := by
  obtain ⟨-, -, -, -, -, -, -, ⟨e0, e1⟩, -, -, -, -⟩ := idx1 t
  unfold iblk1
  rw [View.read_apply]
  show (V c (Pipeline.arrRef spec1 7) : S128x128.Idx → EReal) _ = _
  refine congrArg _ (funext fun a => Fin.ext ?_)
  match a with
  | ⟨0, _⟩ => show win1_7.index t (0 : Fin 2) * 128 + 1 * l.val = l.val; rw [e0]; omega
  | ⟨1, _⟩ => show win1_7.index t (1 : Fin 2) * 128 + 1 * k.val = k.val; rw [e1]; omega

/-- Resident bias row 3's block, at every point, is its whole one-row array. -/
theorem iblk1_3_apply (c : Dev nD) (t : Fin cfg1.N) (k : Fin 128) :
    (iblk1 V c 3 t : Vec Ideal S1x128 .f32) (ix2 (0 : Fin 1) k) = (V c (Pipeline.arrRef spec1 3) : S1x128.Idx → EReal) (ix2 (0 : Fin 1) k) := by
  obtain ⟨-, -, -, ⟨e0, e1⟩, -, -, -, -, -, -, -, -⟩ := idx1 t
  unfold iblk1
  rw [View.read_apply]
  show (V c (Pipeline.arrRef spec1 3) : S1x128.Idx → EReal) _ = _
  refine congrArg _ (funext fun a => Fin.ext ?_)
  match a with
  | ⟨0, _⟩ => show win1_3.index t (0 : Fin 2) * 1 + 1 * 0 = 0; rw [e0]
  | ⟨1, _⟩ => show win1_3.index t (1 : Fin 2) * 128 + 1 * k.val = k.val; rw [e1]; omega

/-- Resident bias row 5's block, at every point, is its whole one-row array. -/
theorem iblk1_5_apply (c : Dev nD) (t : Fin cfg1.N) (k : Fin 128) :
    (iblk1 V c 5 t : Vec Ideal S1x128 .f32) (ix2 (0 : Fin 1) k) = (V c (Pipeline.arrRef spec1 5) : S1x128.Idx → EReal) (ix2 (0 : Fin 1) k) := by
  obtain ⟨-, -, -, -, -, ⟨e0, e1⟩, -, -, -, -, -, -⟩ := idx1 t
  unfold iblk1
  rw [View.read_apply]
  show (V c (Pipeline.arrRef spec1 5) : S1x128.Idx → EReal) _ = _
  refine congrArg _ (funext fun a => Fin.ext ?_)
  match a with
  | ⟨0, _⟩ => show win1_5.index t (0 : Fin 2) * 1 + 1 * 0 = 0; rw [e0]
  | ⟨1, _⟩ => show win1_5.index t (1 : Fin 2) * 128 + 1 * k.val = k.val; rw [e1]; omega

/-- Resident bias row 8's block, at every point, is its whole one-row array. -/
theorem iblk1_8_apply (c : Dev nD) (t : Fin cfg1.N) (k : Fin 128) :
    (iblk1 V c 8 t : Vec Ideal S1x128 .f32) (ix2 (0 : Fin 1) k) = (V c (Pipeline.arrRef spec1 8) : S1x128.Idx → EReal) (ix2 (0 : Fin 1) k) := by
  obtain ⟨-, -, -, -, -, -, -, -, ⟨e0, e1⟩, -, -, -⟩ := idx1 t
  unfold iblk1
  rw [View.read_apply]
  show (V c (Pipeline.arrRef spec1 8) : S1x128.Idx → EReal) _ = _
  refine congrArg _ (funext fun a => Fin.ext ?_)
  match a with
  | ⟨0, _⟩ => show win1_8.index t (0 : Fin 2) * 1 + 1 * 0 = 0; rw [e0]
  | ⟨1, _⟩ => show win1_8.index t (1 : Fin 2) * 128 + 1 * k.val = k.val; rw [e1]; omega

/-! ## The block output's array -/

/-- What the block output's array ends holding: the convolution's closed form over the nine input arrays as the
    region finds them. -/
def G9_1 (c : Dev nD) : S100000x128.Idx → EReal :=
  convArr (Kd := 128) (Ka := 256) (V c (Pipeline.arrRef spec1 0)) (V c (Pipeline.arrRef spec1 1)) (V c (Pipeline.arrRef spec1 2)) (V c (Pipeline.arrRef spec1 3))
    (V c (Pipeline.arrRef spec1 4)) (V c (Pipeline.arrRef spec1 5)) (V c (Pipeline.arrRef spec1 6)) (V c (Pipeline.arrRef spec1 7)) (V c (Pipeline.arrRef spec1 8))

/-- The block of `h` the body computes at point `t`, over the input blocks there. -/
def H1 (c : Dev nD) (t : Fin cfg1.N) : FVec Ideal S4000x128 .f32 :=
  k1_pay1 (k1_pay6 (iblk1 V c 0 t) (iblk1 V c 1 t) (iblk1 V c 2 t) (iblk1 V c 4 t) (iblk1 V c 6 t) (iblk1 V c 7 t) (iblk1 V c 3 t) (iblk1 V c 5 t)) (iblk1 V c 8 t)

set_option maxHeartbeats 2000000 in
/-- At row `r`, column `j` it is `G9_1` at the array index the output's block puts there (row `4000 t + r`). -/
theorem H1_blocks (c : Dev nD) (t : Fin cfg1.N) (r : Fin 4000) (j : Fin 128) (k : S100000x128.Idx)
    (hk0 : (k 0).val = 4000 * t.val + r.val) (hk1 : (k 1).val = j.val) :
    H1 V c t (ix2 r j) = G9_1 V c k := by
  have hkj : k 1 = j := Fin.ext hk1
  unfold H1
  refine (pay1_1_apply _ _ r j).trans ?_
  rw [pay6_1_apply, iblk1_8_apply V c t j]
  simp only [G9_1, convArr]
  rw [hkj]
  refine congrArg (· + _) (congrArg₂ (· + ·) (Finset.sum_congr rfl fun q _ => ?_) (Finset.sum_congr rfl fun q _ => ?_))
  · rw [iblk1_3_apply V c t q, iblk1_6_apply V c t q j]
    refine congrArg (fun z => (z + _) * _) (Finset.sum_congr rfl fun l _ => ?_)
    rw [iblk1_0_apply V c t r l (ix2 (k 0) l) hk0 rfl, iblk1_2_apply V c t l q]
  · rw [iblk1_5_apply V c t q, iblk1_7_apply V c t q j]
    refine congrArg (fun z => (z + _) * _) (Finset.sum_congr rfl fun l _ => ?_)
    rw [iblk1_1_apply V c t r l (ix2 (k 0) l) hk0 rfl, iblk1_4_apply V c t l q]

end Cert.KernelIdeal.Hand

end
-- ==== Proof.KI.Value1B.lean ====
import proofs.«154353_j88940182765819_1_alg».proof.Proof.KI.Value1A

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Bridge
open scoped BigOperators

variable (V : (c : Dev nD) → (b : Ref sig .tc) → Buf (Elt Ideal) ((c : Thread nD τ).loc b))
set_option maxHeartbeats 2000000 in
/-- After the body at any point the block output's staging buffer holds the block of `h` there. -/
theorem o9_1_eq (c : Dev nD) (t : Fin cfg1.N) : (outsAt1 V c t.val t.isLt).1 = H1 V c t := by
  by_cases h0 : t.val = 0
  · rw [outsAt1_A V c t h0]
    dsimp only
    unfold o9A1 runA1 H1
    exact pieceA1_o9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) _ _ (iblk1 V c 0 t) (iblk1 V c 1 t) (iblk1 V c 2 t) (iblk1 V c 3 t) (iblk1 V c 4 t) (iblk1 V c 5 t) (iblk1 V c 6 t) (iblk1 V c 7 t) (iblk1 V c 8 t)
  · by_cases h1 : t.val = 24
    · rw [outsAt1_C V c t h0 h1]
      dsimp only
      unfold o9C1 runC1 H1
      exact pieceC1_o9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) _ _ (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2
    · rw [outsAt1_B V c t h0 h1]
      dsimp only
      unfold o9B1 runB1 H1
      exact pieceB1_o9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) _ _ (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2

/-- What point `t` writes back is block `t` of `G9_1`. -/
theorem flushed9_1_eq (c : Dev nD) (t : Fin cfg1.N) :
    (dat1 V c).flushed 9 t = ((cfg1.win 9).blk t).view.read (Elt Ideal) (G9_1 V c) := by
  show (cfg1.win 9).cut (grid1.coords t) ((dat1 V c).after 9 t) = _
  rw [after1_9, o9_1_eq]
  obtain ⟨-, -, -, -, -, -, -, -, -, ⟨e0, e1⟩, -, -⟩ := idx1 t
  funext (y : S4000x128.Idx)
  obtain ⟨r, j, rfl⟩ : ∃ (r : Fin 4000) (j : Fin 128), y = ix2 r j := ⟨y 0, y 1, eq_ix2 y⟩
  show H1 V c t (ix2 r j) = G9_1 V c (((cfg1.win 9).blk t).view.emb (ix2 r j))
  refine H1_blocks V c t r j _ ?_ ?_
  · show win1_9.index t (0 : Fin 2) * 4000 + 1 * r.val = 4000 * t.val + r.val; rw [e0]; omega
  · show win1_9.index t (1 : Fin 2) * 128 + 1 * j.val = j.val; rw [e1]; omega

/-- An index of the block output's array is in point `t`'s block iff each coordinate is in the block's range. -/
theorem mem_blk9_1 (t : Fin cfg1.N) (i : S100000x128.Idx) :
    i ∈ ((cfg1.win 9).blk t).view.set ↔ ∀ a : Fin 2, win1_9.index t a * S4000x128.size a ≤ (i a).val ∧ (i a).val < win1_9.index t a * S4000x128.size a + S4000x128.size a := by
  show i ∈ ((View.whole main_v57_0).slice (win1_9.rect t)).set ↔ _
  rw [View.set_slice_whole, Rect.mem_set_unit]
  exact Iff.rfl

/-- Every row of the block output's array is in some point's block: row `i` is in row block `i / 4000`. -/
theorem cover9_1 (i : S100000x128.Idx) :
    ∃ t : Fin cfg1.N, (cfg1.win 9).flush t = true ∧ i ∈ ((cfg1.win 9).blk t).view.set := by
  have hi0 : (i 0).val < 100000 := (i 0).isLt
  have hi1 : (i 1).val < 128 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, -, -, -, ⟨e0, e1⟩, -, -⟩ := idx1 t
  refine ⟨t, flush1_9 t, ?_⟩
  rw [mem_blk9_1]
  intro a
  match a with
  | ⟨0, _⟩ => show win1_9.index t (0 : Fin 2) * 4000 ≤ (i 0).val ∧ (i 0).val < win1_9.index t (0 : Fin 2) * 4000 + 4000; rw [e0, ht]; omega
  | ⟨1, _⟩ => show win1_9.index t (1 : Fin 2) * 128 ≤ (i 1).val ∧ (i 1).val < win1_9.index t (1 : Fin 2) * 128 + 128; rw [e1]; omega

/-- The block output's array after the region is `G9_1`. -/
theorem final9_1 (c : Dev nD) : (dat1 V c).arrAt 9 cfg1.N = G9_1 V c :=
  (dat1 V c).arrAt_eq_of_cover 9 (G9_1 V c) (fun t _ => flushed9_1_eq V c t) (cover9_1)

end Cert.KernelIdeal.Hand

end
-- ==== Proof.KI.Value1C.lean ====
import proofs.«154353_j88940182765819_1_alg».proof.Proof.KI.Value1B

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Bridge
open scoped BigOperators

variable (V : (c : Dev nD) → (b : Ref sig .tc) → Buf (Elt Ideal) ((c : Thread nD τ).loc b))

/-! ## The two accumulator rows, point by point -/

/-- Accumulator row 0 after the first point: the zero row plus the first block's column sums. -/
theorem s0_1_first (c : Dev nD) (t : Fin cfg1.N) (h0 : t.val = 0) :
    (outsAt1 V c t.val t.isLt).2.2.2.1 = k1_pay2 (k1_pay6 (iblk1 V c 0 t) (iblk1 V c 1 t) (iblk1 V c 2 t) (iblk1 V c 4 t) (iblk1 V c 6 t) (iblk1 V c 7 t) (iblk1 V c 3 t) (iblk1 V c 5 t)) (iblk1 V c 8 t) (k1_pay4 (F := Ideal)) := by
  rw [outsAt1_A V c t h0]
  dsimp only
  unfold s0A1 runA1
  exact pieceA1_s0 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) _ _ (iblk1 V c 0 t) (iblk1 V c 1 t) (iblk1 V c 2 t) (iblk1 V c 3 t) (iblk1 V c 4 t) (iblk1 V c 5 t) (iblk1 V c 6 t) (iblk1 V c 7 t) (iblk1 V c 8 t)

/-- Accumulator row 0 after a later point: what the point before left plus this block's column sums. -/
theorem s0_1_later (c : Dev nD) (t : Fin cfg1.N) (h0 : ¬t.val = 0) :
    (outsAt1 V c t.val t.isLt).2.2.2.1 = k1_pay2 (k1_pay6 (iblk1 V c 0 t) (iblk1 V c 1 t) (iblk1 V c 2 t) (iblk1 V c 4 t) (iblk1 V c 6 t) (iblk1 V c 7 t) (iblk1 V c 3 t) (iblk1 V c 5 t)) (iblk1 V c 8 t) (outsAt1 V c (t.val - 1) (Nat.lt_of_le_of_lt (Nat.sub_le _ _) t.isLt)).2.2.2.1 := by
  by_cases h1 : t.val = 24
  · rw [outsAt1_C V c t h0 h1]
    dsimp only
    unfold s0C1 runC1
    exact pieceC1_s0 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) _ _ (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2
  · rw [outsAt1_B V c t h0 h1]
    dsimp only
    unfold s0B1 runB1
    exact pieceB1_s0 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) _ _ (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2

/-- Accumulator row 1 after the first point: the zero row plus the first block's column sums. -/
theorem s1_1_first (c : Dev nD) (t : Fin cfg1.N) (h0 : t.val = 0) :
    (outsAt1 V c t.val t.isLt).2.2.2.2 = k1_pay3 (k1_pay6 (iblk1 V c 0 t) (iblk1 V c 1 t) (iblk1 V c 2 t) (iblk1 V c 4 t) (iblk1 V c 6 t) (iblk1 V c 7 t) (iblk1 V c 3 t) (iblk1 V c 5 t)) (iblk1 V c 8 t) (k1_pay5 (F := Ideal)) := by
  rw [outsAt1_A V c t h0]
  dsimp only
  unfold s1A1 runA1
  exact pieceA1_s1 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) _ _ (iblk1 V c 0 t) (iblk1 V c 1 t) (iblk1 V c 2 t) (iblk1 V c 3 t) (iblk1 V c 4 t) (iblk1 V c 5 t) (iblk1 V c 6 t) (iblk1 V c 7 t) (iblk1 V c 8 t)

/-- Accumulator row 1 after a later point: what the point before left plus this block's column sums. -/
theorem s1_1_later (c : Dev nD) (t : Fin cfg1.N) (h0 : ¬t.val = 0) :
    (outsAt1 V c t.val t.isLt).2.2.2.2 = k1_pay3 (k1_pay6 (iblk1 V c 0 t) (iblk1 V c 1 t) (iblk1 V c 2 t) (iblk1 V c 4 t) (iblk1 V c 6 t) (iblk1 V c 7 t) (iblk1 V c 3 t) (iblk1 V c 5 t)) (iblk1 V c 8 t) (outsAt1 V c (t.val - 1) (Nat.lt_of_le_of_lt (Nat.sub_le _ _) t.isLt)).2.2.2.2 := by
  by_cases h1 : t.val = 24
  · rw [outsAt1_C V c t h0 h1]
    dsimp only
    unfold s1C1 runC1
    exact pieceC1_s1 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) _ _ (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2
  · rw [outsAt1_B V c t h0 h1]
    dsimp only
    unfold s1B1 runB1
    exact pieceB1_s1 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) _ _ (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2

/-- At the last point the two row outputs receive the two accumulator rows as the point leaves them. -/
theorem o10_1_last (c : Dev nD) (t : Fin cfg1.N) (h0 : ¬t.val = 0) (h1 : t.val = 24) :
    (outsAt1 V c t.val t.isLt).2.1 = (outsAt1 V c t.val t.isLt).2.2.2.1 := by
  rw [outsAt1_C V c t h0 h1]
  dsimp only
  unfold o10C1 s0C1 runC1
  exact (pieceC1_o10 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) _ _ (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2).trans
    (pieceC1_s0 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) _ _ (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2).symm
theorem o11_1_last (c : Dev nD) (t : Fin cfg1.N) (h0 : ¬t.val = 0) (h1 : t.val = 24) :
    (outsAt1 V c t.val t.isLt).2.2.1 = (outsAt1 V c t.val t.isLt).2.2.2.2 := by
  rw [outsAt1_C V c t h0 h1]
  dsimp only
  unfold o11C1 s1C1 runC1
  exact (pieceC1_o11 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) _ _ (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2).trans
    (pieceC1_s1 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) _ _ (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2.2.1 (outsAt1 V c (t.val - 1) (Nat.lt_of_le_of_lt (Nat.sub_le _ _) t.isLt)).2.2.2.2).symm

/-! ## The column sums as one sum over the 100000 rows -/

/-- A block's column sum is the sum of that row block of `G9_1`'s column. -/
theorem Hsum_1 (c : Dev nD) (t : Fin cfg1.N) (j : Fin 128) :
    ∑ r : Fin 4000, H1 V c t (ix2 r j) = s4000 (fun i : Fin 100000 => G9_1 V c (ix2 i j)) t.val := by
  have hN : cfg1.N = 25 := N_1
  have ht : t.val < 25 := by have := t.isLt; omega
  exact (Finset.sum_congr rfl fun r _ => H1_blocks V c t r j (ix2 ⟨4000 * t.val + r.val, by have := r.isLt; omega⟩ j) rfl rfl).trans
    (s4000_eq (fun i : Fin 100000 => G9_1 V c (ix2 i j)) ⟨t.val, ht⟩).symm

/-- The same for the squares. -/
theorem Hsqsum_1 (c : Dev nD) (t : Fin cfg1.N) (j : Fin 128) :
    ∑ r : Fin 4000, H1 V c t (ix2 r j) * H1 V c t (ix2 r j)
      = s4000 (fun i : Fin 100000 => G9_1 V c (ix2 i j) * G9_1 V c (ix2 i j)) t.val := by
  have hN : cfg1.N = 25 := N_1
  have ht : t.val < 25 := by have := t.isLt; omega
  exact (Finset.sum_congr rfl fun r _ => by
      rw [H1_blocks V c t r j (ix2 ⟨4000 * t.val + r.val, by have := r.isLt; omega⟩ j) rfl rfl]).trans
    (s4000_eq (fun i : Fin 100000 => G9_1 V c (ix2 i j) * G9_1 V c (ix2 i j)) ⟨t.val, ht⟩).symm

/-- Column `j` of accumulator row 0 before point `n`: zero before the first point, then what point `n - 1` left. -/
def acc0_1 (c : Dev nD) (j : Fin 128) : ℕ → EReal
  | 0 => 0
  | n + 1 => if h : n < cfg1.N then (outsAt1 V c n h).2.2.2.1 (ix2 (0 : Fin 1) j) else 0

/-- Each point adds its block's column sum. -/
theorem acc0_1_step (c : Dev nD) (j : Fin 128) (n : ℕ) (hn : n < 25) :
    acc0_1 V c j (n + 1) = acc0_1 V c j n + s4000 (fun i : Fin 100000 => G9_1 V c (ix2 i j)) n := by
  have hN : cfg1.N = 25 := N_1
  have hn' : n < cfg1.N := by omega
  refine (dif_pos hn').trans ?_
  cases n with
  | zero =>
    refine (congrFun (s0_1_first V c ⟨0, hn'⟩ rfl) (ix2 (0 : Fin 1) j)).trans ?_
    rw [pay2_1_apply, pay4_1_apply]
    exact congrArg (0 + ·) (Hsum_1 V c ⟨0, hn'⟩ j)
  | succ m =>
    refine (congrFun (s0_1_later V c ⟨m + 1, hn'⟩ (Nat.succ_ne_zero m)) (ix2 (0 : Fin 1) j)).trans ?_
    rw [pay2_1_apply]
    have e1 : acc0_1 V c j (m + 1) = (outsAt1 V c m (by omega)).2.2.2.1 (ix2 (0 : Fin 1) j) := dif_pos (by omega)
    rw [e1]
    exact congrArg (_ + ·) (Hsum_1 V c ⟨m + 1, hn'⟩ j)

/-- Column `j` of accumulator row 1 before point `n`: zero before the first point, then what point `n - 1` left. -/
def acc1_1 (c : Dev nD) (j : Fin 128) : ℕ → EReal
  | 0 => 0
  | n + 1 => if h : n < cfg1.N then (outsAt1 V c n h).2.2.2.2 (ix2 (0 : Fin 1) j) else 0

/-- Each point adds its block's column sum. -/
theorem acc1_1_step (c : Dev nD) (j : Fin 128) (n : ℕ) (hn : n < 25) :
    acc1_1 V c j (n + 1) = acc1_1 V c j n + s4000 (fun i : Fin 100000 => G9_1 V c (ix2 i j) * G9_1 V c (ix2 i j)) n := by
  have hN : cfg1.N = 25 := N_1
  have hn' : n < cfg1.N := by omega
  refine (dif_pos hn').trans ?_
  cases n with
  | zero =>
    refine (congrFun (s1_1_first V c ⟨0, hn'⟩ rfl) (ix2 (0 : Fin 1) j)).trans ?_
    rw [pay3_1_apply, pay5_1_apply]
    exact congrArg (0 + ·) (Hsqsum_1 V c ⟨0, hn'⟩ j)
  | succ m =>
    refine (congrFun (s1_1_later V c ⟨m + 1, hn'⟩ (Nat.succ_ne_zero m)) (ix2 (0 : Fin 1) j)).trans ?_
    rw [pay3_1_apply]
    have e1 : acc1_1 V c j (m + 1) = (outsAt1 V c m (by omega)).2.2.2.2 (ix2 (0 : Fin 1) j) := dif_pos (by omega)
    rw [e1]
    exact congrArg (_ + ·) (Hsqsum_1 V c ⟨m + 1, hn'⟩ j)

/-- What row output 10's array ends holding: what the last point stores into its staging buffer. -/
def R10_1 (c : Dev nD) : S1x128.Idx → EReal :=
  (outsAt1 V c 24 (by rw [show cfg1.N = 25 from N_1]; decide)).2.1

/-- The one write-back of row output 10, at the last point, writes that row: the block is the whole array. -/
theorem flushed10_1_eq (c : Dev nD) (t : Fin cfg1.N) (hf : (cfg1.win 10).flush t = true) :
    (dat1 V c).flushed 10 t = ((cfg1.win 10).blk t).view.read (Elt Ideal) (R10_1 V c) := by
  have hN : cfg1.N = 25 := N_1
  have h1 : t.val = 24 := by have h := (flush1_10 t).mp hf; have := t.isLt; omega
  obtain ⟨-, -, -, -, -, -, -, -, -, -, ⟨e0, e1⟩, -⟩ := idx1 t
  have hz' : (fun a => win1_10.index t a * main_v57_1.ty.shape.size a) = fun _ => 0 := funext fun a => by
    match a with
    | ⟨0, _⟩ => show win1_10.index t (0 : Fin 2) * 1 = 0; rw [e0]
    | ⟨1, _⟩ => show win1_10.index t (1 : Fin 2) * 128 = 0; rw [e1]
  show (cfg1.win 10).cut (grid1.coords t) ((dat1 V c).after 10 t) = _
  rw [after1_10]
  have et : (outsAt1 V c t.val t.isLt).2.1 = R10_1 V c := by
    obtain ⟨n, hn⟩ := t
    obtain rfl : n = 24 := h1
    rfl
  rw [et]
  exact (Memref.read_access_unit_zero (Elt Ideal) main_v57_1 hz' (fun a => by rw [congrFun hz' a]; simp) (R10_1 V c)).symm

/-- Row output 10's array after the region is that row. -/
theorem final10_1 (c : Dev nD) : (dat1 V c).arrAt 10 cfg1.N = R10_1 V c :=
  (dat1 V c).arrAt_eq_of_cover 10 (R10_1 V c) (flushed10_1_eq V c) fun i => by
    have hN : cfg1.N = 25 := N_1
    let t : Fin cfg1.N := ⟨24, by omega⟩
    obtain ⟨-, -, -, -, -, -, -, -, -, -, ⟨e0, e1⟩, -⟩ := idx1 t
    refine ⟨t, (flush1_10 t).mpr rfl, ?_⟩
    show i ∈ ((View.whole main_v57_1).slice (win1_10.rect t)).set
    rw [View.set_slice_whole, Rect.mem_set_unit]
    intro a
    have h0 : (i 0 : Nat) < 1 := (i 0).isLt
    have h1 : (i 1 : Nat) < 128 := (i 1).isLt
    match a with
    | ⟨0, _⟩ => show win1_10.index t (0 : Fin 2) * 1 ≤ (i 0 : Nat) ∧ (i 0 : Nat) < win1_10.index t (0 : Fin 2) * 1 + 1; rw [e0]; omega
    | ⟨1, _⟩ => show win1_10.index t (1 : Fin 2) * 128 ≤ (i 1 : Nat) ∧ (i 1 : Nat) < win1_10.index t (1 : Fin 2) * 128 + 128; rw [e1]; omega

/-- That row, at column `j`, is the accumulator's column after all 25 points. -/
theorem R10_1_apply (c : Dev nD) (j : Fin 128) : R10_1 V c (ix2 (0 : Fin 1) j) = acc0_1 V c j 25 := by
  have hN : cfg1.N = 25 := N_1
  have hlt : 24 < cfg1.N := by omega
  refine (congrFun (o10_1_last V c ⟨24, hlt⟩ (by show ¬(24 : ℕ) = 0; omega) rfl) (ix2 (0 : Fin 1) j)).trans ?_
  show _ = acc0_1 V c j (24 + 1)
  rw [acc0_1, dif_pos hlt]

/-- What row output 11's array ends holding: what the last point stores into its staging buffer. -/
def R11_1 (c : Dev nD) : S1x128.Idx → EReal :=
  (outsAt1 V c 24 (by rw [show cfg1.N = 25 from N_1]; decide)).2.2.1

/-- The one write-back of row output 11, at the last point, writes that row: the block is the whole array. -/
theorem flushed11_1_eq (c : Dev nD) (t : Fin cfg1.N) (hf : (cfg1.win 11).flush t = true) :
    (dat1 V c).flushed 11 t = ((cfg1.win 11).blk t).view.read (Elt Ideal) (R11_1 V c) := by
  have hN : cfg1.N = 25 := N_1
  have h1 : t.val = 24 := by have h := (flush1_11 t).mp hf; have := t.isLt; omega
  obtain ⟨-, -, -, -, -, -, -, -, -, -, -, ⟨e0, e1⟩⟩ := idx1 t
  have hz' : (fun a => win1_11.index t a * main_v57_2.ty.shape.size a) = fun _ => 0 := funext fun a => by
    match a with
    | ⟨0, _⟩ => show win1_11.index t (0 : Fin 2) * 1 = 0; rw [e0]
    | ⟨1, _⟩ => show win1_11.index t (1 : Fin 2) * 128 = 0; rw [e1]
  show (cfg1.win 11).cut (grid1.coords t) ((dat1 V c).after 11 t) = _
  rw [after1_11]
  have et : (outsAt1 V c t.val t.isLt).2.2.1 = R11_1 V c := by
    obtain ⟨n, hn⟩ := t
    obtain rfl : n = 24 := h1
    rfl
  rw [et]
  exact (Memref.read_access_unit_zero (Elt Ideal) main_v57_2 hz' (fun a => by rw [congrFun hz' a]; simp) (R11_1 V c)).symm

/-- Row output 11's array after the region is that row. -/
theorem final11_1 (c : Dev nD) : (dat1 V c).arrAt 11 cfg1.N = R11_1 V c :=
  (dat1 V c).arrAt_eq_of_cover 11 (R11_1 V c) (flushed11_1_eq V c) fun i => by
    have hN : cfg1.N = 25 := N_1
    let t : Fin cfg1.N := ⟨24, by omega⟩
    obtain ⟨-, -, -, -, -, -, -, -, -, -, -, ⟨e0, e1⟩⟩ := idx1 t
    refine ⟨t, (flush1_11 t).mpr rfl, ?_⟩
    show i ∈ ((View.whole main_v57_2).slice (win1_11.rect t)).set
    rw [View.set_slice_whole, Rect.mem_set_unit]
    intro a
    have h0 : (i 0 : Nat) < 1 := (i 0).isLt
    have h1 : (i 1 : Nat) < 128 := (i 1).isLt
    match a with
    | ⟨0, _⟩ => show win1_11.index t (0 : Fin 2) * 1 ≤ (i 0 : Nat) ∧ (i 0 : Nat) < win1_11.index t (0 : Fin 2) * 1 + 1; rw [e0]; omega
    | ⟨1, _⟩ => show win1_11.index t (1 : Fin 2) * 128 ≤ (i 1 : Nat) ∧ (i 1 : Nat) < win1_11.index t (1 : Fin 2) * 128 + 128; rw [e1]; omega

/-- That row, at column `j`, is the accumulator's column after all 25 points. -/
theorem R11_1_apply (c : Dev nD) (j : Fin 128) : R11_1 V c (ix2 (0 : Fin 1) j) = acc1_1 V c j 25 := by
  have hN : cfg1.N = 25 := N_1
  have hlt : 24 < cfg1.N := by omega
  refine (congrFun (o11_1_last V c ⟨24, hlt⟩ (by show ¬(24 : ℕ) = 0; omega) rfl) (ix2 (0 : Fin 1) j)).trans ?_
  show _ = acc1_1 V c j (24 + 1)
  rw [acc1_1, dif_pos hlt]

end Cert.KernelIdeal.Hand

end
-- ==== Proof.KI.Value1.lean ====
import proofs.«154353_j88940182765819_1_alg».proof.Proof.KI.Value1C
import proofs.«154353_j88940182765819_1_alg».proof.Proof.Math.RefRead

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Bridge
open scoped BigOperators

variable (V : (c : Dev nD) → (b : Ref sig .tc) → Buf (Elt Ideal) ((c : Thread nD τ).loc b))

/-! ## The statements the run is assembled from -/

/-- The two row outputs hold the column sums of the block output's array and of its squares. -/
theorem sums1 (c : Dev nD) (h : S100000x128.Idx → EReal) (s q : S1x128.Idx → EReal)
    (hh : h = (dat1 V c).arrAt 9 cfg1.N) (hs : s = (dat1 V c).arrAt 10 cfg1.N) (hq : q = (dat1 V c).arrAt 11 cfg1.N) :
    (∀ j : Fin 128, s (ix2 (0 : Fin 1) j) = ∑ i : Fin 100000, h (ix2 i j)) ∧ (∀ j : Fin 128, q (ix2 (0 : Fin 1) j) = ∑ i : Fin 100000, h (ix2 i j) * h (ix2 i j)) := by
  have e9 : h = G9_1 V c := hh.trans (final9_1 V c)
  have e10 : s = R10_1 V c := hs.trans (final10_1 V c)
  have e11 : q = R11_1 V c := hq.trans (final11_1 V c)
  subst e9 e10 e11
  refine ⟨fun j => ?_, fun j => ?_⟩
  · rw [R10_1_apply]
    exact fold_25 (fun i : Fin 100000 => G9_1 V c (ix2 i j)) (acc0_1 V c j) rfl (acc0_1_step V c j)
  · rw [R11_1_apply]
    exact fold_25 (fun i : Fin 100000 => G9_1 V c (ix2 i j) * G9_1 V c (ix2 i j)) (acc1_1 V c j) rfl (acc1_1_step V c j)

/-- The block output's array is the reference's convolution of the arrays the region finds, when the three bias
    windows hold the bias vectors as one-row arrays and the two update-weight windows the two halves of `wu`. -/
theorem conv1 (c : Dev nD) (bd bs bu : KTen Ideal S128 .f32) (wu : KTen Ideal S256x128 .f32)
    (h3 : V c main_v54 = kRow bd) (h5 : V c main_v55 = kRow bs) (h8 : V c main_v56 = kRow bu) (h6 : V c main_v52 = kWu0 wu) (h7 : V c main_v53 = kWu1 wu) :
    (dat1 V c).arrAt 9 cfg1.N = Cert.ReferenceIdeal.RefRun.refConv (F := Ideal) Cert.ReferenceIdeal.dot_S100000x128_S128x128_S100000x128_1_0_0_1_n_n Cert.ReferenceIdeal.dot_S100000x256_S256x128_S100000x128_1_0_0_1_n_n
      (V c main_arg1) (V c main_v45) (V c main_arg12) bd (V c main_arg10) bs wu bu := by
  rw [final9_1]
  funext (i : S100000x128.Idx)
  obtain ⟨r, j, rfl⟩ : ∃ (r : Fin 100000) (j : Fin 128), i = ix2 r j := ⟨i 0, i 1, eq_ix2 i⟩
  rw [refConv_apply_128_256]
  show convArr (Kd := 128) (Ka := 256) (V c main_arg1) (V c main_v45) (V c main_arg12) (V c main_v54) (V c main_arg10) (V c main_v55) (V c main_v52) (V c main_v53) (V c main_v56) (ix2 r j) = _
  rw [convArr_apply, h3, h5, h8, h6, h7]
  simp only [kRow_apply, kWu0_apply, kWu1_apply]

end Cert.KernelIdeal.Hand

end
-- ==== Proof.KI.BnRead.lean ====
import proofs.«154353_j88940182765819_1_alg».proof.Proof.Math.RefRead
import proofs.«154353_j88940182765819_1_alg».proof.Proof.KI.ValueCommon
import Idealize.ShloMosaic.Lib.ValueIdx

set_option maxRecDepth 16384

noncomputable section

namespace Cert.KernelIdeal.Hand

open Cert.Bridge
open Idealize.ShloMosaic Idealize.ShloMosaic.ValueIdx

/-! # The reference's normalise-and-leaky-relu stage against the kernel's closed form, at the ideal values -/

/-- The reference's stage over plain arrays is the kernel's closed form over the same activations, the scale and
    shift as one-row arrays, and the mean and variance the kernel's host program computes from the column sums
    `s` and sums of squares `q` of the (real-valued) activations: element by element the two are the same arithmetic,
    the reference's column mean is the kernel's, and for real entries the reference's mean squared deviation is the
    kernel's `max(E[x²] − E[x]², 0)`. -/
theorem refBN_eq (x : FVec Ideal ⟨2, ![100000, 128]⟩ .f32) (hx : Cert.RealValued.IsReal x)
    (g b : KTen Ideal Cert.KernelIdeal.S128 .f32) (s q : KTen Ideal Cert.KernelIdeal.S1x128 .f32)
    (hs : ∀ j : Fin 128, s (ix2 (0 : Fin 1) j) = ∑ i : Fin 100000, x (ix2 i j))
    (hq : ∀ j : Fin 128, q (ix2 (0 : Fin 1) j) = ∑ i : Fin 100000, x (ix2 i j) * x (ix2 i j)) :
    Cert.ReferenceIdeal.RefRun.refBN (F := Ideal) x g b = bnArr x (kRow g) (kRow b) (kMean s) (kVar s q) := by
  funext i
  obtain ⟨r, j, rfl⟩ : ∃ (r : Fin 100000) (j : Fin 128), i = ix2 r j := ⟨i 0, i 1, eq_ix2 i⟩
  refine (refBN_apply x g b r j).trans ?_
  unfold bnArr
  show bnLreluAt (x (ix2 r j)) (g (ix1 j)) (b (ix1 j)) (Cert.ReferenceIdeal.RefRun.refMean (F := Ideal) x (ix1 j))
      (Cert.ReferenceIdeal.RefRun.refVar (F := Ideal) x (constantI Cert.ReferenceIdeal.S_ 32 0#32) (ix1 j))
    = bnLreluAt (x (ix2 r j)) (kRow g (ix2 (0 : Fin 1) j)) (kRow b (ix2 (0 : Fin 1) j)) (kMean s (ix2 (0 : Fin 1) j))
      (kVar s q (ix2 (0 : Fin 1) j))
  rw [kRow_apply g j, kRow_apply b j, refMean_eq_kMean x s hs j, refVar_eq_kVar x hx s q hs hq j]

end Cert.KernelIdeal.Hand

end
-- ==== Proof.KI.Value2.lean ====
import proofs.«154353_j88940182765819_1_alg».proof.Proof.KI.Region2
import proofs.«154353_j88940182765819_1_alg».proof.Proof.KI.ValueCommon
import proofs.«154353_j88940182765819_1_alg».proof.Proof.KI.BnRead
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Bridge

variable (V : (c : Dev nD) → (b : Ref sig .tc) → Buf (Elt Ideal) ((c : Thread nD τ).loc b))

/-! # Region 2 at the ideal values: the output array, element by element

The output array after the region is, at row `i` and column `j`, the normalise-and-leaky-relu arithmetic
(`bnLreluAt`) of the activation at `(i, j)` and of the four rows at column `j`. -/

/-! ## The body's payload at an element -/

/-- The payload at row `r`, column `j` of the block: the arithmetic of the block's element there and of the four
    rows' elements at column `j` (a row broadcast down the block reads its one row). -/
theorem pay2_apply (x0 : Vec Ideal S4000x128 .f32) (x1 x2 x3 x4 : Vec Ideal S1x128 .f32) (r : Fin 4000) (j : Fin 128) :
    k2_pay1 x0 x1 x2 x3 x4 (ix2 r j)
      = bnLreluAt (x0 (ix2 r j)) (x1 (ix2 (0 : Fin 1) j)) (x2 (ix2 (0 : Fin 1) j)) (x3 (ix2 (0 : Fin 1) j)) (x4 (ix2 (0 : Fin 1) j)) := by
  unfold k2_pay1 bnLreluAt
  simp only [shapeCast_self, select_apply, cmpf_apply, mulf_apply, addf_apply, divf_apply, subf_apply, broadcast_apply,
    broadcastTo_1b_ab_apply]
  rfl

/-! ## The windows' blocks as parts of their arrays -/

/-- The index maps over the grid: the activation's and the output's block at point `t` is row block `t`; the four
    rows' block is always the one block there is. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The activation's block at point `t` is rows `4000 t … 4000 t + 3999` of its array. -/
theorem iblk2_0_apply (c : Dev nD) (t : Fin cfg2.N) (r : Fin 4000) (j : Fin 128) (k : S100000x128.Idx)
    (hk0 : (k 0).val = 4000 * t.val + r.val) (hk1 : (k 1).val = j.val) :
    (iblk2 V c 0 t : Vec Ideal S4000x128 .f32) (ix2 r j) = (V c (Pipeline.arrRef spec2 0) : S100000x128.Idx → EReal) k := by
  obtain ⟨e0, e1, -, -, -, -, -, -, -, -, -, -⟩ := idx2 t
  unfold iblk2
  rw [View.read_apply]
  show (V c (Pipeline.arrRef spec2 0) : S100000x128.Idx → EReal) _ = _
  refine congrArg _ (funext fun a => Fin.ext ?_)
  match a with
  | ⟨0, _⟩ => show win2_0.index t (0 : Fin 2) * 4000 + 1 * r.val = (k 0).val; rw [e0, hk0]; omega
  | ⟨1, _⟩ => show win2_0.index t (1 : Fin 2) * 128 + 1 * j.val = (k 1).val; rw [e1, hk1]; omega

/-! Each row window's block, at every point, is its whole one-row array. -/

theorem iblk2_1_apply (c : Dev nD) (t : Fin cfg2.N) (j : Fin 128) :
    (iblk2 V c 1 t : Vec Ideal S1x128 .f32) (ix2 (0 : Fin 1) j)
      = (V c (Pipeline.arrRef spec2 1) : S1x128.Idx → EReal) (ix2 (0 : Fin 1) j) := by
  obtain ⟨-, -, e0, e1, -, -, -, -, -, -, -, -⟩ := idx2 t
  unfold iblk2
  rw [View.read_apply]
  show (V c (Pipeline.arrRef spec2 1) : S1x128.Idx → EReal) _ = _
  refine congrArg _ (funext fun a => Fin.ext ?_)
  match a with
  | ⟨0, _⟩ => show win2_1.index t (0 : Fin 2) * 1 + 1 * 0 = 0; rw [e0]
  | ⟨1, _⟩ => show win2_1.index t (1 : Fin 2) * 128 + 1 * j.val = j.val; rw [e1]; omega

theorem iblk2_2_apply (c : Dev nD) (t : Fin cfg2.N) (j : Fin 128) :
    (iblk2 V c 2 t : Vec Ideal S1x128 .f32) (ix2 (0 : Fin 1) j)
      = (V c (Pipeline.arrRef spec2 2) : S1x128.Idx → EReal) (ix2 (0 : Fin 1) j) := by
  obtain ⟨-, -, -, -, e0, e1, -, -, -, -, -, -⟩ := idx2 t
  unfold iblk2
  rw [View.read_apply]
  show (V c (Pipeline.arrRef spec2 2) : S1x128.Idx → EReal) _ = _
  refine congrArg _ (funext fun a => Fin.ext ?_)
  match a with
  | ⟨0, _⟩ => show win2_2.index t (0 : Fin 2) * 1 + 1 * 0 = 0; rw [e0]
  | ⟨1, _⟩ => show win2_2.index t (1 : Fin 2) * 128 + 1 * j.val = j.val; rw [e1]; omega

theorem iblk2_3_apply (c : Dev nD) (t : Fin cfg2.N) (j : Fin 128) :
    (iblk2 V c 3 t : Vec Ideal S1x128 .f32) (ix2 (0 : Fin 1) j)
      = (V c (Pipeline.arrRef spec2 3) : S1x128.Idx → EReal) (ix2 (0 : Fin 1) j) := by
  obtain ⟨-, -, -, -, -, -, e0, e1, -, -, -, -⟩ := idx2 t
  unfold iblk2
  rw [View.read_apply]
  show (V c (Pipeline.arrRef spec2 3) : S1x128.Idx → EReal) _ = _
  refine congrArg _ (funext fun a => Fin.ext ?_)
  match a with
  | ⟨0, _⟩ => show win2_3.index t (0 : Fin 2) * 1 + 1 * 0 = 0; rw [e0]
  | ⟨1, _⟩ => show win2_3.index t (1 : Fin 2) * 128 + 1 * j.val = j.val; rw [e1]; omega

theorem iblk2_4_apply (c : Dev nD) (t : Fin cfg2.N) (j : Fin 128) :
    (iblk2 V c 4 t : Vec Ideal S1x128 .f32) (ix2 (0 : Fin 1) j)
      = (V c (Pipeline.arrRef spec2 4) : S1x128.Idx → EReal) (ix2 (0 : Fin 1) j) := by
  obtain ⟨-, -, -, -, -, -, -, -, e0, e1, -, -⟩ := idx2 t
  unfold iblk2
  rw [View.read_apply]
  show (V c (Pipeline.arrRef spec2 4) : S1x128.Idx → EReal) _ = _
  refine congrArg _ (funext fun a => Fin.ext ?_)
  match a with
  | ⟨0, _⟩ => show win2_4.index t (0 : Fin 2) * 1 + 1 * 0 = 0; rw [e0]
  | ⟨1, _⟩ => show win2_4.index t (1 : Fin 2) * 128 + 1 * j.val = j.val; rw [e1]; omega

/-! ## The output array -/

/-- What the output array ends holding: `bnArr` of the five input arrays as the region finds them. -/
def G2 (c : Dev nD) : S100000x128.Idx → EReal :=
  bnArr (V c (Pipeline.arrRef spec2 0)) (V c (Pipeline.arrRef spec2 1)) (V c (Pipeline.arrRef spec2 2))
    (V c (Pipeline.arrRef spec2 3)) (V c (Pipeline.arrRef spec2 4))

/-- The payload over the blocks at point `t`, at row `r` and column `j`, is `G2` at the array index `k` that the
    output's block puts there (row `4000 t + r`, column `j`). -/
theorem pay2_blocks (c : Dev nD) (t : Fin cfg2.N) (r : Fin 4000) (j : Fin 128) (k : S100000x128.Idx)
    (hk0 : (k 0).val = 4000 * t.val + r.val) (hk1 : (k 1).val = j.val) :
    k2_pay1 (iblk2 V c 0 t) (iblk2 V c 1 t) (iblk2 V c 2 t) (iblk2 V c 3 t) (iblk2 V c 4 t) (ix2 r j) = G2 V c k := by
  refine (pay2_apply (iblk2 V c 0 t) (iblk2 V c 1 t) (iblk2 V c 2 t) (iblk2 V c 3 t) (iblk2 V c 4 t) r j).trans ?_
  have hkj : k 1 = j := Fin.ext hk1
  unfold G2 bnArr
  rw [iblk2_0_apply V c t r j k hk0 hk1, iblk2_1_apply V c t j, iblk2_2_apply V c t j, iblk2_3_apply V c t j,
    iblk2_4_apply V c t j, hkj]

/-- What point `t` writes back is block `t` of `G2`. -/
theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz2]
  simp only [View.ld_unit_zero (S := S4000x128) hz2, View.ld_unit_zero (S := S1x128) hz2]
  obtain ⟨-, -, -, -, -, -, -, -, -, -, e0, e1⟩ := idx2 t
  funext (y : S4000x128.Idx)
  obtain ⟨r, j, rfl⟩ : ∃ (r : Fin 4000) (j : Fin 128), y = ix2 r j := ⟨y 0, y 1, eq_ix2 y⟩
  show k2_pay1 (iblk2 V c 0 t) (iblk2 V c 1 t) (iblk2 V c 2 t) (iblk2 V c 3 t) (iblk2 V c 4 t) (ix2 r j) = G2 V c (((cfg2.win 5).blk t).view.emb (ix2 r j))
  refine pay2_blocks V c t r j _ ?_ ?_
  · show win2_5.index t (0 : Fin 2) * 4000 + 1 * r.val = 4000 * t.val + r.val; rw [e0]; omega
  · show win2_5.index t (1 : Fin 2) * 128 + 1 * j.val = j.val; rw [e1]; omega

/-- An index of the output array is in point `t`'s block iff each coordinate is in the block's range on its axis. -/
theorem mem_blk2 (t : Fin cfg2.N) (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v76).slice (win2_5.rect t)).set ↔ _
  rw [View.set_slice_whole, Rect.mem_set_unit]
  exact Iff.rfl

/-- Every index of the output array is in some point's block: row `i` is in row block `i / 4000`. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 25 := N_2
  obtain ⟨t, ht⟩ : ∃ t : Fin cfg2.N, t.val = (i 0).val / 4000 := ⟨⟨(i 0).val / 4000, by rw [hN]; omega⟩, rfl⟩
  obtain ⟨-, -, -, -, -, -, -, -, -, -, e0, e1⟩ := idx2 t
  refine ⟨t, flush2_5 t, ?_⟩
  rw [mem_blk2]
  intro a
  match a with
  | ⟨0, _⟩ => show win2_5.index t (0 : Fin 2) * 4000 ≤ (i 0).val ∧ (i 0).val < win2_5.index t (0 : Fin 2) * 4000 + 4000; rw [e0, ht]; omega
  | ⟨1, _⟩ => show win2_5.index t (1 : Fin 2) * 128 ≤ (i 1).val ∧ (i 1).val < win2_5.index t (1 : Fin 2) * 128 + 128; rw [e1]; omega

/-- The output array after the region is `G2`. -/
theorem final2 (c : Dev nD) : (dat2 V c).arrAt 5 cfg2.N = G2 V c :=
  (dat2 V c).arrAt_eq_of_cover 5 (G2 V c) (fun t _ => flushed2_eq V c t) (cover2)

/-! ## Against the reference's stage -/

/-- The region's output array is the reference's normalise-and-leaky-relu stage of the activations `x` the region
    finds (real-valued) with scale `g` and shift `b`, when the four row windows' arrays are `g` and `b` as one-row
    arrays and the mean and variance the host program computes from the column sums `s` and sums of squares `q` of `x`. -/
theorem bn2 (c : Dev nD) (x : S100000x128.Idx → EReal) (g b : KTen Ideal S128 .f32) (s q : KTen Ideal S1x128 .f32)
    (hxV : V c main_v51_0 = x) (hx : Cert.RealValued.IsReal x) (hg : V c main_v74 = kRow g) (hb : V c main_v75 = kRow b)
    (hm : V c main_v59 = kMean s) (hv : V c main_v65 = kVar s q)
    (hs : ∀ j : Fin 128, s (ix2 (0 : Fin 1) j) = ∑ i : Fin 100000, x (ix2 i j))
    (hq : ∀ j : Fin 128, q (ix2 (0 : Fin 1) j) = ∑ i : Fin 100000, x (ix2 i j) * x (ix2 i j)) :
    (dat2 V c).arrAt 5 cfg2.N = Cert.ReferenceIdeal.RefRun.refBN (F := Ideal) x g b := by
  rw [final2]
  show bnArr (V c main_v51_0) (V c main_v74) (V c main_v75) (V c main_v59) (V c main_v65) = _
  rw [hxV, hg, hb, hm, hv]
  exact (refBN_eq x hx g b s q hs hq).symm

end Cert.KernelIdeal.Hand

end
-- ==== Proof.KI.Value3.lean ====
import proofs.«154353_j88940182765819_1_alg».proof.Proof.KI.Region3
import proofs.«154353_j88940182765819_1_alg».proof.Proof.KI.ValueCommon
import proofs.«154353_j88940182765819_1_alg».proof.Proof.KI.BnRead
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Bridge

variable (V : (c : Dev nD) → (b : Ref sig .tc) → Buf (Elt Ideal) ((c : Thread nD τ).loc b))

/-! # Region 3 at the ideal values: the output array, element by element

The output array after the region is, at row `i` and column `j`, the normalise-and-leaky-relu arithmetic
(`bnLreluAt`) of the activation at `(i, j)` and of the four rows at column `j`. -/

/-! ## The body's payload at an element -/

/-- The payload at row `r`, column `j` of the block: the arithmetic of the block's element there and of the four
    rows' elements at column `j` (a row broadcast down the block reads its one row). -/
theorem pay3_apply (x0 : Vec Ideal S4000x128 .f32) (x1 x2 x3 x4 : Vec Ideal S1x128 .f32) (r : Fin 4000) (j : Fin 128) :
    k3_pay1 x0 x1 x2 x3 x4 (ix2 r j)
      = bnLreluAt (x0 (ix2 r j)) (x1 (ix2 (0 : Fin 1) j)) (x2 (ix2 (0 : Fin 1) j)) (x3 (ix2 (0 : Fin 1) j)) (x4 (ix2 (0 : Fin 1) j)) := by
  unfold k3_pay1 bnLreluAt
  simp only [shapeCast_self, select_apply, cmpf_apply, mulf_apply, addf_apply, divf_apply, subf_apply, broadcast_apply,
    broadcastTo_1b_ab_apply]
  rfl

/-! ## The windows' blocks as parts of their arrays -/

/-- The index maps over the grid: the activation's and the output's block at point `t` is row block `t`; the four
    rows' block is always the one block there is. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The activation's block at point `t` is rows `4000 t … 4000 t + 3999` of its array. -/
theorem iblk3_0_apply (c : Dev nD) (t : Fin cfg3.N) (r : Fin 4000) (j : Fin 128) (k : S100000x128.Idx)
    (hk0 : (k 0).val = 4000 * t.val + r.val) (hk1 : (k 1).val = j.val) :
    (iblk3 V c 0 t : Vec Ideal S4000x128 .f32) (ix2 r j) = (V c (Pipeline.arrRef spec3 0) : S100000x128.Idx → EReal) k := by
  obtain ⟨e0, e1, -, -, -, -, -, -, -, -, -, -⟩ := idx3 t
  unfold iblk3
  rw [View.read_apply]
  show (V c (Pipeline.arrRef spec3 0) : S100000x128.Idx → EReal) _ = _
  refine congrArg _ (funext fun a => Fin.ext ?_)
  match a with
  | ⟨0, _⟩ => show win3_0.index t (0 : Fin 2) * 4000 + 1 * r.val = (k 0).val; rw [e0, hk0]; omega
  | ⟨1, _⟩ => show win3_0.index t (1 : Fin 2) * 128 + 1 * j.val = (k 1).val; rw [e1, hk1]; omega

/-! Each row window's block, at every point, is its whole one-row array. -/

theorem iblk3_1_apply (c : Dev nD) (t : Fin cfg3.N) (j : Fin 128) :
    (iblk3 V c 1 t : Vec Ideal S1x128 .f32) (ix2 (0 : Fin 1) j)
      = (V c (Pipeline.arrRef spec3 1) : S1x128.Idx → EReal) (ix2 (0 : Fin 1) j) := by
  obtain ⟨-, -, e0, e1, -, -, -, -, -, -, -, -⟩ := idx3 t
  unfold iblk3
  rw [View.read_apply]
  show (V c (Pipeline.arrRef spec3 1) : S1x128.Idx → EReal) _ = _
  refine congrArg _ (funext fun a => Fin.ext ?_)
  match a with
  | ⟨0, _⟩ => show win3_1.index t (0 : Fin 2) * 1 + 1 * 0 = 0; rw [e0]
  | ⟨1, _⟩ => show win3_1.index t (1 : Fin 2) * 128 + 1 * j.val = j.val; rw [e1]; omega

theorem iblk3_2_apply (c : Dev nD) (t : Fin cfg3.N) (j : Fin 128) :
    (iblk3 V c 2 t : Vec Ideal S1x128 .f32) (ix2 (0 : Fin 1) j)
      = (V c (Pipeline.arrRef spec3 2) : S1x128.Idx → EReal) (ix2 (0 : Fin 1) j) := by
  obtain ⟨-, -, -, -, e0, e1, -, -, -, -, -, -⟩ := idx3 t
  unfold iblk3
  rw [View.read_apply]
  show (V c (Pipeline.arrRef spec3 2) : S1x128.Idx → EReal) _ = _
  refine congrArg _ (funext fun a => Fin.ext ?_)
  match a with
  | ⟨0, _⟩ => show win3_2.index t (0 : Fin 2) * 1 + 1 * 0 = 0; rw [e0]
  | ⟨1, _⟩ => show win3_2.index t (1 : Fin 2) * 128 + 1 * j.val = j.val; rw [e1]; omega

theorem iblk3_3_apply (c : Dev nD) (t : Fin cfg3.N) (j : Fin 128) :
    (iblk3 V c 3 t : Vec Ideal S1x128 .f32) (ix2 (0 : Fin 1) j)
      = (V c (Pipeline.arrRef spec3 3) : S1x128.Idx → EReal) (ix2 (0 : Fin 1) j) := by
  obtain ⟨-, -, -, -, -, -, e0, e1, -, -, -, -⟩ := idx3 t
  unfold iblk3
  rw [View.read_apply]
  show (V c (Pipeline.arrRef spec3 3) : S1x128.Idx → EReal) _ = _
  refine congrArg _ (funext fun a => Fin.ext ?_)
  match a with
  | ⟨0, _⟩ => show win3_3.index t (0 : Fin 2) * 1 + 1 * 0 = 0; rw [e0]
  | ⟨1, _⟩ => show win3_3.index t (1 : Fin 2) * 128 + 1 * j.val = j.val; rw [e1]; omega

theorem iblk3_4_apply (c : Dev nD) (t : Fin cfg3.N) (j : Fin 128) :
    (iblk3 V c 4 t : Vec Ideal S1x128 .f32) (ix2 (0 : Fin 1) j)
      = (V c (Pipeline.arrRef spec3 4) : S1x128.Idx → EReal) (ix2 (0 : Fin 1) j) := by
  obtain ⟨-, -, -, -, -, -, -, -, e0, e1, -, -⟩ := idx3 t
  unfold iblk3
  rw [View.read_apply]
  show (V c (Pipeline.arrRef spec3 4) : S1x128.Idx → EReal) _ = _
  refine congrArg _ (funext fun a => Fin.ext ?_)
  match a with
  | ⟨0, _⟩ => show win3_4.index t (0 : Fin 2) * 1 + 1 * 0 = 0; rw [e0]
  | ⟨1, _⟩ => show win3_4.index t (1 : Fin 2) * 128 + 1 * j.val = j.val; rw [e1]; omega

/-! ## The output array -/

/-- What the output array ends holding: `bnArr` of the five input arrays as the region finds them. -/
def G3 (c : Dev nD) : S100000x128.Idx → EReal :=
  bnArr (V c (Pipeline.arrRef spec3 0)) (V c (Pipeline.arrRef spec3 1)) (V c (Pipeline.arrRef spec3 2))
    (V c (Pipeline.arrRef spec3 3)) (V c (Pipeline.arrRef spec3 4))

/-- The payload over the blocks at point `t`, at row `r` and column `j`, is `G3` at the array index `k` that the
    output's block puts there (row `4000 t + r`, column `j`). -/
theorem pay3_blocks (c : Dev nD) (t : Fin cfg3.N) (r : Fin 4000) (j : Fin 128) (k : S100000x128.Idx)
    (hk0 : (k 0).val = 4000 * t.val + r.val) (hk1 : (k 1).val = j.val) :
    k3_pay1 (iblk3 V c 0 t) (iblk3 V c 1 t) (iblk3 V c 2 t) (iblk3 V c 3 t) (iblk3 V c 4 t) (ix2 r j) = G3 V c k := by
  refine (pay3_apply (iblk3 V c 0 t) (iblk3 V c 1 t) (iblk3 V c 2 t) (iblk3 V c 3 t) (iblk3 V c 4 t) r j).trans ?_
  have hkj : k 1 = j := Fin.ext hk1
  unfold G3 bnArr
  rw [iblk3_0_apply V c t r j k hk0 hk1, iblk3_1_apply V c t j, iblk3_2_apply V c t j, iblk3_3_apply V c t j,
    iblk3_4_apply V c t j, hkj]

/-- What point `t` writes back is block `t` of `G3`. -/
theorem flushed3_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero hz2]
  simp only [View.ld_unit_zero (S := S4000x128) hz2, View.ld_unit_zero (S := S1x128) hz2]
  obtain ⟨-, -, -, -, -, -, -, -, -, -, e0, e1⟩ := idx3 t
  funext (y : S4000x128.Idx)
  obtain ⟨r, j, rfl⟩ : ∃ (r : Fin 4000) (j : Fin 128), y = ix2 r j := ⟨y 0, y 1, eq_ix2 y⟩
  show k3_pay1 (iblk3 V c 0 t) (iblk3 V c 1 t) (iblk3 V c 2 t) (iblk3 V c 3 t) (iblk3 V c 4 t) (ix2 r j) = G3 V c (((cfg3.win 5).blk t).view.emb (ix2 r j))
  refine pay3_blocks V c t r j _ ?_ ?_
  · show win3_5.index t (0 : Fin 2) * 4000 + 1 * r.val = 4000 * t.val + r.val; rw [e0]; omega
  · show win3_5.index t (1 : Fin 2) * 128 + 1 * j.val = j.val; rw [e1]; omega

/-- An index of the output array is in point `t`'s block iff each coordinate is in the block's range on its axis. -/
theorem mem_blk3 (t : Fin cfg3.N) (i : S100000x128.Idx) :
    i ∈ ((cfg3.win 5).blk t).view.set ↔ ∀ a : Fin 2, win3_5.index t a * S4000x128.size a ≤ (i a).val ∧ (i a).val < win3_5.index t a * S4000x128.size a + S4000x128.size a := by
  show i ∈ ((View.whole main_v79).slice (win3_5.rect t)).set ↔ _
  rw [View.set_slice_whole, Rect.mem_set_unit]
  exact Iff.rfl

/-- Every index of the output array is in some point's block: row `i` is in row block `i / 4000`. -/
theorem cover3 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 25 := N_3
  obtain ⟨t, ht⟩ : ∃ t : Fin cfg3.N, t.val = (i 0).val / 4000 := ⟨⟨(i 0).val / 4000, by rw [hN]; omega⟩, rfl⟩
  obtain ⟨-, -, -, -, -, -, -, -, -, -, e0, e1⟩ := idx3 t
  refine ⟨t, flush3_5 t, ?_⟩
  rw [mem_blk3]
  intro a
  match a with
  | ⟨0, _⟩ => show win3_5.index t (0 : Fin 2) * 4000 ≤ (i 0).val ∧ (i 0).val < win3_5.index t (0 : Fin 2) * 4000 + 4000; rw [e0, ht]; omega
  | ⟨1, _⟩ => show win3_5.index t (1 : Fin 2) * 128 ≤ (i 1).val ∧ (i 1).val < win3_5.index t (1 : Fin 2) * 128 + 128; rw [e1]; omega

/-- The output array after the region is `G3`. -/
theorem final3 (c : Dev nD) : (dat3 V c).arrAt 5 cfg3.N = G3 V c :=
  (dat3 V c).arrAt_eq_of_cover 5 (G3 V c) (fun t _ => flushed3_eq V c t) (cover3)

/-! ## Against the reference's stage -/

/-- The region's output array is the reference's normalise-and-leaky-relu stage of the activations `x` the region
    finds (real-valued) with scale `g` and shift `b`, when the four row windows' arrays are `g` and `b` as one-row
    arrays and the mean and variance the host program computes from the column sums `s` and sums of squares `q` of `x`. -/
theorem bn3 (c : Dev nD) (x : S100000x128.Idx → EReal) (g b : KTen Ideal S128 .f32) (s q : KTen Ideal S1x128 .f32)
    (hxV : V c main_v57_0 = x) (hx : Cert.RealValued.IsReal x) (hg : V c main_v77 = kRow g) (hb : V c main_v78 = kRow b)
    (hm : V c main_v67 = kMean s) (hv : V c main_v73 = kVar s q)
    (hs : ∀ j : Fin 128, s (ix2 (0 : Fin 1) j) = ∑ i : Fin 100000, x (ix2 i j))
    (hq : ∀ j : Fin 128, q (ix2 (0 : Fin 1) j) = ∑ i : Fin 100000, x (ix2 i j) * x (ix2 i j)) :
    (dat3 V c).arrAt 5 cfg3.N = Cert.ReferenceIdeal.RefRun.refBN (F := Ideal) x g b := by
  rw [final3]
  show bnArr (V c main_v57_0) (V c main_v77) (V c main_v78) (V c main_v67) (V c main_v73) = _
  rw [hxV, hg, hb, hm, hv]
  exact (refBN_eq x hx g b s q hs hq).symm

end Cert.KernelIdeal.Hand

end
-- ==== Proof.KI.Pieces4.lean ====
import proofs.«154353_j88940182765819_1_alg».proof.Proof.KI.Region4
import proofs.«154353_j88940182765819_1_alg».proof.Proof.KI.ValueCommon
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

/-! # What each case of region 4's body stores, as the body's payloads over the input blocks

Every store of the body writes a whole buffer, so what a buffer holds afterwards is its last store's payload; a
load that follows a store into the same buffer reads that store's payload. -/

/-- Case A: the stores into that buffer cover it. -/
theorem covA4_o9 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond4_0 i) (hc1 : ¬cond4_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (y : S4000x128.Idx) :
    ∃ pc ∈ (kernelRun4_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1 S4000x128.size (by sl_kernel_rfl) y

set_option maxHeartbeats 4000000 in
/-- Case A: the block output's staging buffer ends holding the block of `h`. -/
theorem pieceA4_o9 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond4_0 i) (hc1 : ¬cond4_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) :
    VO4_9.read (Elt F) (VO4_9.writes (Elt F) VO4_9.junk (kernelRun4_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1)
      = k4_pay1 (k4_pay6 x0 x1 x2 x4 x6 x7 x3 x5) x8 := by
  rw [View.read_writes_eq_canon _ _ _ (covA4_o9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun4_A
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S128x128) hz2, View.ld_unit_zero (S := S1x128) hz2, shapeCast_self]

/-- Case A: the stores into that buffer cover it. -/
theorem covA4_s0 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond4_0 i) (hc1 : ¬cond4_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1 S1x128.size (by sl_kernel_rfl) y

set_option maxHeartbeats 4000000 in
/-- Case A: accumulator row 0 ends holding what accumulator row 0 held plus the block's column sums. -/
theorem pieceA4_s0 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond4_0 i) (hc1 : ¬cond4_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) :
    VS4_0.read (Elt F) (VS4_0.writes (Elt F) VS4_0.junk (kernelRun4_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1)
      = k4_pay2 (k4_pay6 x0 x1 x2 x4 x6 x7 x3 x5) x8 (k4_pay4 (F := F)) := by
  rw [View.read_writes_eq_canon _ _ _ (covA4_s0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun4_A
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S128x128) hz2, View.ld_unit_zero (S := S1x128) hz2, shapeCast_self]

/-- Case A: the stores into that buffer cover it. -/
theorem covA4_s1 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond4_0 i) (hc1 : ¬cond4_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1 S1x128.size (by sl_kernel_rfl) y

set_option maxHeartbeats 4000000 in
/-- Case A: accumulator row 1 ends holding what accumulator row 1 held plus the column sums of the block's squares. -/
theorem pieceA4_s1 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond4_0 i) (hc1 : ¬cond4_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) :
    VS4_1.read (Elt F) (VS4_1.writes (Elt F) VS4_1.junk (kernelRun4_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1)
      = k4_pay3 (k4_pay6 x0 x1 x2 x4 x6 x7 x3 x5) x8 (k4_pay5 (F := F)) := by
  rw [View.read_writes_eq_canon _ _ _ (covA4_s1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun4_A
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S128x128) hz2, View.ld_unit_zero (S := S1x128) hz2, shapeCast_self]

/-- Case B: the stores into that buffer cover it. -/
theorem covB4_o9 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond4_0 i) (hc1 : ¬cond4_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) (y : S4000x128.Idx) :
    ∃ pc ∈ (kernelRun4_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1 S4000x128.size (by sl_kernel_rfl) y

set_option maxHeartbeats 4000000 in
/-- Case B: the block output's staging buffer ends holding the block of `h`. -/
theorem pieceB4_o9 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond4_0 i) (hc1 : ¬cond4_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) :
    VO4_9.read (Elt F) (VO4_9.writes (Elt F) VO4_9.junk (kernelRun4_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1)
      = k4_pay1 (k4_pay6 x0 x1 x2 x4 x6 x7 x3 x5) x8 := by
  rw [View.read_writes_eq_canon _ _ _ (covB4_o9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun4_B
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S128x128) hz2, View.ld_unit_zero (S := S1x128) hz2, shapeCast_self]

/-- Case B: the stores into that buffer cover it. -/
theorem covB4_s0 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond4_0 i) (hc1 : ¬cond4_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1 S1x128.size (by sl_kernel_rfl) y

set_option maxHeartbeats 4000000 in
/-- Case B: accumulator row 0 ends holding what accumulator row 0 held plus the block's column sums. -/
theorem pieceB4_s0 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond4_0 i) (hc1 : ¬cond4_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) :
    VS4_0.read (Elt F) (VS4_0.writes (Elt F) VS4_0.junk (kernelRun4_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1)
      = k4_pay2 (k4_pay6 x0 x1 x2 x4 x6 x7 x3 x5) x8 xs0 := by
  rw [View.read_writes_eq_canon _ _ _ (covB4_s0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun4_B
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S128x128) hz2, View.ld_unit_zero (S := S1x128) hz2, shapeCast_self]

/-- Case B: the stores into that buffer cover it. -/
theorem covB4_s1 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond4_0 i) (hc1 : ¬cond4_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1 S1x128.size (by sl_kernel_rfl) y

set_option maxHeartbeats 4000000 in
/-- Case B: accumulator row 1 ends holding what accumulator row 1 held plus the column sums of the block's squares. -/
theorem pieceB4_s1 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond4_0 i) (hc1 : ¬cond4_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) :
    VS4_1.read (Elt F) (VS4_1.writes (Elt F) VS4_1.junk (kernelRun4_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1)
      = k4_pay3 (k4_pay6 x0 x1 x2 x4 x6 x7 x3 x5) x8 xs1 := by
  rw [View.read_writes_eq_canon _ _ _ (covB4_s1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun4_B
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S128x128) hz2, View.ld_unit_zero (S := S1x128) hz2, shapeCast_self]

/-- Case C: the stores into that buffer cover it. -/
theorem covC4_o9 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond4_0 i) (hc1 : cond4_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) (y : S4000x128.Idx) :
    ∃ pc ∈ (kernelRun4_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1 S4000x128.size (by sl_kernel_rfl) y

set_option maxHeartbeats 4000000 in
/-- Case C: the block output's staging buffer ends holding the block of `h`. -/
theorem pieceC4_o9 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond4_0 i) (hc1 : cond4_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) :
    VO4_9.read (Elt F) (VO4_9.writes (Elt F) VO4_9.junk (kernelRun4_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1)
      = k4_pay1 (k4_pay6 x0 x1 x2 x4 x6 x7 x3 x5) x8 := by
  rw [View.read_writes_eq_canon _ _ _ (covC4_o9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun4_C
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S128x128) hz2, View.ld_unit_zero (S := S1x128) hz2, shapeCast_self]

/-- Case C: the stores into that buffer cover it. -/
theorem covC4_o10 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond4_0 i) (hc1 : cond4_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1 S1x128.size (by sl_kernel_rfl) y

set_option maxHeartbeats 4000000 in
/-- Case C: row output 10's staging buffer ends holding accumulator row 0 as this point leaves it. -/
theorem pieceC4_o10 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond4_0 i) (hc1 : cond4_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) :
    VO4_10.read (Elt F) (VO4_10.writes (Elt F) VO4_10.junk (kernelRun4_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1)
      = k4_pay2 (k4_pay6 x0 x1 x2 x4 x6 x7 x3 x5) x8 xs0 := by
  rw [View.read_writes_eq_canon _ _ _ (covC4_o10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun4_C
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S128x128) hz2, View.ld_unit_zero (S := S1x128) hz2, shapeCast_self]

/-- Case C: the stores into that buffer cover it. -/
theorem covC4_o11 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond4_0 i) (hc1 : cond4_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1 S1x128.size (by sl_kernel_rfl) y

set_option maxHeartbeats 4000000 in
/-- Case C: row output 11's staging buffer ends holding accumulator row 1 as this point leaves it. -/
theorem pieceC4_o11 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond4_0 i) (hc1 : cond4_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) :
    VO4_11.read (Elt F) (VO4_11.writes (Elt F) VO4_11.junk (kernelRun4_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1)
      = k4_pay3 (k4_pay6 x0 x1 x2 x4 x6 x7 x3 x5) x8 xs1 := by
  rw [View.read_writes_eq_canon _ _ _ (covC4_o11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun4_C
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S128x128) hz2, View.ld_unit_zero (S := S1x128) hz2, shapeCast_self]

/-- Case C: the stores into that buffer cover it. -/
theorem covC4_s0 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond4_0 i) (hc1 : cond4_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1 S1x128.size (by sl_kernel_rfl) y

set_option maxHeartbeats 4000000 in
/-- Case C: accumulator row 0 ends holding what accumulator row 0 held plus the block's column sums. -/
theorem pieceC4_s0 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond4_0 i) (hc1 : cond4_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) :
    VS4_0.read (Elt F) (VS4_0.writes (Elt F) VS4_0.junk (kernelRun4_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1)
      = k4_pay2 (k4_pay6 x0 x1 x2 x4 x6 x7 x3 x5) x8 xs0 := by
  rw [View.read_writes_eq_canon _ _ _ (covC4_s0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun4_C
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S128x128) hz2, View.ld_unit_zero (S := S1x128) hz2, shapeCast_self]

/-- Case C: the stores into that buffer cover it. -/
theorem covC4_s1 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond4_0 i) (hc1 : cond4_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.2.1 S1x128.size (by sl_kernel_rfl) y

set_option maxHeartbeats 4000000 in
/-- Case C: accumulator row 1 ends holding what accumulator row 1 held plus the column sums of the block's squares. -/
theorem pieceC4_s1 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond4_0 i) (hc1 : cond4_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) :
    VS4_1.read (Elt F) (VS4_1.writes (Elt F) VS4_1.junk (kernelRun4_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.2.1)
      = k4_pay3 (k4_pay6 x0 x1 x2 x4 x6 x7 x3 x5) x8 xs1 := by
  rw [View.read_writes_eq_canon _ _ _ (covC4_s1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun4_C
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S128x128) hz2, View.ld_unit_zero (S := S1x128) hz2, shapeCast_self]

end Cert.KernelIdeal.Hand

end
-- ==== Proof.KI.Value4A.lean ====
import proofs.«154353_j88940182765819_1_alg».proof.Proof.KI.Pieces4
import proofs.«154353_j88940182765819_1_alg».proof.Proof.KI.ConvCommon
import proofs.«154353_j88940182765819_1_alg».proof.Proof.Math.BlockSums
import proofs.«154353_j88940182765819_1_alg».proof.Proof.Math.ConvRead

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Bridge
open scoped BigOperators

variable (V : (c : Dev nD) → (b : Ref sig .tc) → Buf (Elt Ideal) ((c : Thread nD τ).loc b))

/-! # Region 4 at the ideal values

The block output's array ends holding the convolution's closed form over the arrays the region finds; the two
row outputs end holding the column sums of that array and of its squares: each grid point adds its block's column
sums to an accumulator row that the first point zeroes and the last point copies out. -/

/-! ## The body's payloads at an element -/

/-- The two stacked products: the destination rows through `wd`, `bd` and the first half of the update weight, plus the
    aggregated rows through `ws`, `bs` and the second half. (Rounding the factors to bf16 is the identity at the
    ideal values.) -/
theorem pay6_4_apply (x0 : Vec Ideal S4000x128 .f32) (x1 : Vec Ideal S4000x128 .f32) (x2 : Vec Ideal S128x128 .f32) (x3 : Vec Ideal S1x128 .f32)
    (x4 : Vec Ideal S128x128 .f32) (x5 : Vec Ideal S1x128 .f32) (x6 x7 : Vec Ideal S128x128 .f32) (r : Fin 4000) (j : Fin 128) :
    k4_pay6 x0 x1 x2 x4 x6 x7 x3 x5 (ix2 r j)
      = (∑ k : Fin 128, ((∑ l : Fin 128, x0 (ix2 r l) * x2 (ix2 l k)) + x3 (ix2 (0 : Fin 1) k)) * x6 (ix2 k j))
        + (∑ k : Fin 128, ((∑ l : Fin 128, x1 (ix2 r l) * x4 (ix2 l k)) + x5 (ix2 (0 : Fin 1) k)) * x7 (ix2 k j)) := by
  unfold k4_pay6
  simp only [shapeCast_self, addf_apply, truncf_apply, broadcastTo_1b_ab_apply, mm_4000_128, mm_4000_256]

/-- The block of `h`: the stacked products plus the update bias row. -/
theorem pay1_4_apply (p : FVec Ideal S4000x128 .f32) (x8 : Vec Ideal S1x128 .f32) (r : Fin 4000) (j : Fin 128) :
    k4_pay1 p x8 (ix2 r j) = p (ix2 r j) + x8 (ix2 (0 : Fin 1) j) := by
  unfold k4_pay1
  simp only [shapeCast_self, addf_apply, broadcastTo_1b_ab_apply]

/-- The first accumulator row after a point: what it held plus the block's column sums. -/
theorem pay2_4_apply (p : FVec Ideal S4000x128 .f32) (x8 a : Vec Ideal S1x128 .f32) (j : Fin 128) :
    k4_pay2 p x8 a (ix2 (0 : Fin 1) j) = a (ix2 (0 : Fin 1) j) + ∑ r : Fin 4000, k4_pay1 p x8 (ix2 r j) := by
  unfold k4_pay2
  simp only [shapeCast_self, addf_apply]
  rw [shapeCast_a_1a_apply]
  exact congrArg (a (ix2 (0 : Fin 1) j) + ·) (colsum_apply _ _ _ _ j)

/-- The second accumulator row after a point: what it held plus the column sums of the block's squares. -/
theorem pay3_4_apply (p : FVec Ideal S4000x128 .f32) (x8 a : Vec Ideal S1x128 .f32) (j : Fin 128) :
    k4_pay3 p x8 a (ix2 (0 : Fin 1) j)
      = a (ix2 (0 : Fin 1) j) + ∑ r : Fin 4000, k4_pay1 p x8 (ix2 r j) * k4_pay1 p x8 (ix2 r j) := by
  unfold k4_pay3
  simp only [shapeCast_self, addf_apply]
  rw [shapeCast_a_1a_apply]
  exact congrArg (a (ix2 (0 : Fin 1) j) + ·) (colsum_apply _ _ _ _ j)

/-- The zero rows the first point stores into the accumulators. -/
theorem pay4_4_apply (j : Fin 128) : k4_pay4 (F := Ideal) (ix2 (0 : Fin 1) j) = 0 := by
  unfold k4_pay4
  simp only [shapeCast_self, broadcast_apply]
  exact Ideal.ofBits_zero_f32
theorem pay5_4_apply (j : Fin 128) : k4_pay5 (F := Ideal) (ix2 (0 : Fin 1) j) = 0 := by
  unfold k4_pay5
  simp only [shapeCast_self, broadcast_apply]
  exact Ideal.ofBits_zero_f32

/-! ## The windows' blocks as parts of their arrays -/

/-- The index maps over the grid: the two row-blocked inputs' and the block output's block at point `t` is row block
    `t`; every other window's block is the one block there is. -/
theorem idx4 : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0)
    ∧ (win4_9.index t (0 : Fin 2) = t.val ∧ win4_9.index t (1 : Fin 2) = 0)
    ∧ (win4_10.index t (0 : Fin 2) = 0 ∧ win4_10.index t (1 : Fin 2) = 0)
    ∧ (win4_11.index t (0 : Fin 2) = 0 ∧ win4_11.index t (1 : Fin 2) = 0) :=
  (by decide +kernel : ∀ t : Fin grid4.N, _)

/-- Row-blocked input 0's block at point `t` is rows `4000 t … 4000 t + 3999` of its array. -/
theorem iblk4_0_apply (c : Dev nD) (t : Fin cfg4.N) (r : Fin 4000) (l : Fin 128) (k : S100000x128.Idx)
    (hk0 : (k 0).val = 4000 * t.val + r.val) (hk1 : (k 1).val = l.val) :
    (iblk4 V c 0 t : Vec Ideal S4000x128 .f32) (ix2 r l) = (V c (Pipeline.arrRef spec4 0) : S100000x128.Idx → EReal) k := by
  obtain ⟨⟨e0, e1⟩, -, -, -, -, -, -, -, -, -, -, -⟩ := idx4 t
  unfold iblk4
  rw [View.read_apply]
  show (V c (Pipeline.arrRef spec4 0) : S100000x128.Idx → EReal) _ = _
  refine congrArg _ (funext fun a => Fin.ext ?_)
  match a with
  | ⟨0, _⟩ => show win4_0.index t (0 : Fin 2) * 4000 + 1 * r.val = (k 0).val; rw [e0, hk0]; omega
  | ⟨1, _⟩ => show win4_0.index t (1 : Fin 2) * 128 + 1 * l.val = (k 1).val; rw [e1, hk1]; omega

/-- Row-blocked input 1's block at point `t` is rows `4000 t … 4000 t + 3999` of its array. -/
theorem iblk4_1_apply (c : Dev nD) (t : Fin cfg4.N) (r : Fin 4000) (l : Fin 128) (k : S100000x128.Idx)
    (hk0 : (k 0).val = 4000 * t.val + r.val) (hk1 : (k 1).val = l.val) :
    (iblk4 V c 1 t : Vec Ideal S4000x128 .f32) (ix2 r l) = (V c (Pipeline.arrRef spec4 1) : S100000x128.Idx → EReal) k := by
  obtain ⟨-, ⟨e0, e1⟩, -, -, -, -, -, -, -, -, -, -⟩ := idx4 t
  unfold iblk4
  rw [View.read_apply]
  show (V c (Pipeline.arrRef spec4 1) : S100000x128.Idx → EReal) _ = _
  refine congrArg _ (funext fun a => Fin.ext ?_)
  match a with
  | ⟨0, _⟩ => show win4_1.index t (0 : Fin 2) * 4000 + 1 * r.val = (k 0).val; rw [e0, hk0]; omega
  | ⟨1, _⟩ => show win4_1.index t (1 : Fin 2) * 128 + 1 * l.val = (k 1).val; rw [e1, hk1]; omega

/-- Resident input 2's block, at every point, is its whole array. -/
theorem iblk4_2_apply (c : Dev nD) (t : Fin cfg4.N) (l : Fin 128) (k : Fin 128) :
    (iblk4 V c 2 t : Vec Ideal S128x128 .f32) (ix2 l k) = (V c (Pipeline.arrRef spec4 2) : S128x128.Idx → EReal) (ix2 l k) := by
  obtain ⟨-, -, ⟨e0, e1⟩, -, -, -, -, -, -, -, -, -⟩ := idx4 t
  unfold iblk4
  rw [View.read_apply]
  show (V c (Pipeline.arrRef spec4 2) : S128x128.Idx → EReal) _ = _
  refine congrArg _ (funext fun a => Fin.ext ?_)
  match a with
  | ⟨0, _⟩ => show win4_2.index t (0 : Fin 2) * 128 + 1 * l.val = l.val; rw [e0]; omega
  | ⟨1, _⟩ => show win4_2.index t (1 : Fin 2) * 128 + 1 * k.val = k.val; rw [e1]; omega

/-- Resident input 4's block, at every point, is its whole array. -/
theorem iblk4_4_apply (c : Dev nD) (t : Fin cfg4.N) (l : Fin 128) (k : Fin 128) :
    (iblk4 V c 4 t : Vec Ideal S128x128 .f32) (ix2 l k) = (V c (Pipeline.arrRef spec4 4) : S128x128.Idx → EReal) (ix2 l k) := by
  obtain ⟨-, -, -, -, ⟨e0, e1⟩, -, -, -, -, -, -, -⟩ := idx4 t
  unfold iblk4
  rw [View.read_apply]
  show (V c (Pipeline.arrRef spec4 4) : S128x128.Idx → EReal) _ = _
  refine congrArg _ (funext fun a => Fin.ext ?_)
  match a with
  | ⟨0, _⟩ => show win4_4.index t (0 : Fin 2) * 128 + 1 * l.val = l.val; rw [e0]; omega
  | ⟨1, _⟩ => show win4_4.index t (1 : Fin 2) * 128 + 1 * k.val = k.val; rw [e1]; omega

/-- Resident input 6's block, at every point, is its whole array. -/
theorem iblk4_6_apply (c : Dev nD) (t : Fin cfg4.N) (l : Fin 128) (k : Fin 128) :
    (iblk4 V c 6 t : Vec Ideal S128x128 .f32) (ix2 l k) = (V c (Pipeline.arrRef spec4 6) : S128x128.Idx → EReal) (ix2 l k) := by
  obtain ⟨-, -, -, -, -, -, ⟨e0, e1⟩, -, -, -, -, -⟩ := idx4 t
  unfold iblk4
  rw [View.read_apply]
  show (V c (Pipeline.arrRef spec4 6) : S128x128.Idx → EReal) _ = _
  refine congrArg _ (funext fun a => Fin.ext ?_)
  match a with
  | ⟨0, _⟩ => show win4_6.index t (0 : Fin 2) * 128 + 1 * l.val = l.val; rw [e0]; omega
  | ⟨1, _⟩ => show win4_6.index t (1 : Fin 2) * 128 + 1 * k.val = k.val; rw [e1]; omega

/-- Resident input 7's block, at every point, is its whole array. -/
theorem iblk4_7_apply (c : Dev nD) (t : Fin cfg4.N) (l : Fin 128) (k : Fin 128) :
    (iblk4 V c 7 t : Vec Ideal S128x128 .f32) (ix2 l k) = (V c (Pipeline.arrRef spec4 7) : S128x128.Idx → EReal) (ix2 l k) := by
  obtain ⟨-, -, -, -, -, -, -, ⟨e0, e1⟩, -, -, -, -⟩ := idx4 t
  unfold iblk4
  rw [View.read_apply]
  show (V c (Pipeline.arrRef spec4 7) : S128x128.Idx → EReal) _ = _
  refine congrArg _ (funext fun a => Fin.ext ?_)
  match a with
  | ⟨0, _⟩ => show win4_7.index t (0 : Fin 2) * 128 + 1 * l.val = l.val; rw [e0]; omega
  | ⟨1, _⟩ => show win4_7.index t (1 : Fin 2) * 128 + 1 * k.val = k.val; rw [e1]; omega

/-- Resident bias row 3's block, at every point, is its whole one-row array. -/
theorem iblk4_3_apply (c : Dev nD) (t : Fin cfg4.N) (k : Fin 128) :
    (iblk4 V c 3 t : Vec Ideal S1x128 .f32) (ix2 (0 : Fin 1) k) = (V c (Pipeline.arrRef spec4 3) : S1x128.Idx → EReal) (ix2 (0 : Fin 1) k) := by
  obtain ⟨-, -, -, ⟨e0, e1⟩, -, -, -, -, -, -, -, -⟩ := idx4 t
  unfold iblk4
  rw [View.read_apply]
  show (V c (Pipeline.arrRef spec4 3) : S1x128.Idx → EReal) _ = _
  refine congrArg _ (funext fun a => Fin.ext ?_)
  match a with
  | ⟨0, _⟩ => show win4_3.index t (0 : Fin 2) * 1 + 1 * 0 = 0; rw [e0]
  | ⟨1, _⟩ => show win4_3.index t (1 : Fin 2) * 128 + 1 * k.val = k.val; rw [e1]; omega

/-- Resident bias row 5's block, at every point, is its whole one-row array. -/
theorem iblk4_5_apply (c : Dev nD) (t : Fin cfg4.N) (k : Fin 128) :
    (iblk4 V c 5 t : Vec Ideal S1x128 .f32) (ix2 (0 : Fin 1) k) = (V c (Pipeline.arrRef spec4 5) : S1x128.Idx → EReal) (ix2 (0 : Fin 1) k) := by
  obtain ⟨-, -, -, -, -, ⟨e0, e1⟩, -, -, -, -, -, -⟩ := idx4 t
  unfold iblk4
  rw [View.read_apply]
  show (V c (Pipeline.arrRef spec4 5) : S1x128.Idx → EReal) _ = _
  refine congrArg _ (funext fun a => Fin.ext ?_)
  match a with
  | ⟨0, _⟩ => show win4_5.index t (0 : Fin 2) * 1 + 1 * 0 = 0; rw [e0]
  | ⟨1, _⟩ => show win4_5.index t (1 : Fin 2) * 128 + 1 * k.val = k.val; rw [e1]; omega

/-- Resident bias row 8's block, at every point, is its whole one-row array. -/
theorem iblk4_8_apply (c : Dev nD) (t : Fin cfg4.N) (k : Fin 128) :
    (iblk4 V c 8 t : Vec Ideal S1x128 .f32) (ix2 (0 : Fin 1) k) = (V c (Pipeline.arrRef spec4 8) : S1x128.Idx → EReal) (ix2 (0 : Fin 1) k) := by
  obtain ⟨-, -, -, -, -, -, -, -, ⟨e0, e1⟩, -, -, -⟩ := idx4 t
  unfold iblk4
  rw [View.read_apply]
  show (V c (Pipeline.arrRef spec4 8) : S1x128.Idx → EReal) _ = _
  refine congrArg _ (funext fun a => Fin.ext ?_)
  match a with
  | ⟨0, _⟩ => show win4_8.index t (0 : Fin 2) * 1 + 1 * 0 = 0; rw [e0]
  | ⟨1, _⟩ => show win4_8.index t (1 : Fin 2) * 128 + 1 * k.val = k.val; rw [e1]; omega

/-! ## The block output's array -/

/-- What the block output's array ends holding: the convolution's closed form over the nine input arrays as the
    region finds them. -/
def G9_4 (c : Dev nD) : S100000x128.Idx → EReal :=
  convArr (Kd := 128) (Ka := 128) (V c (Pipeline.arrRef spec4 0)) (V c (Pipeline.arrRef spec4 1)) (V c (Pipeline.arrRef spec4 2)) (V c (Pipeline.arrRef spec4 3))
    (V c (Pipeline.arrRef spec4 4)) (V c (Pipeline.arrRef spec4 5)) (V c (Pipeline.arrRef spec4 6)) (V c (Pipeline.arrRef spec4 7)) (V c (Pipeline.arrRef spec4 8))

/-- The block of `h` the body computes at point `t`, over the input blocks there. -/
def H4 (c : Dev nD) (t : Fin cfg4.N) : FVec Ideal S4000x128 .f32 :=
  k4_pay1 (k4_pay6 (iblk4 V c 0 t) (iblk4 V c 1 t) (iblk4 V c 2 t) (iblk4 V c 4 t) (iblk4 V c 6 t) (iblk4 V c 7 t) (iblk4 V c 3 t) (iblk4 V c 5 t)) (iblk4 V c 8 t)

/-- At row `r`, column `j` it is `G9_4` at the array index the output's block puts there (row `4000 t + r`). -/
theorem H4_blocks (c : Dev nD) (t : Fin cfg4.N) (r : Fin 4000) (j : Fin 128) (k : S100000x128.Idx)
    (hk0 : (k 0).val = 4000 * t.val + r.val) (hk1 : (k 1).val = j.val) :
    H4 V c t (ix2 r j) = G9_4 V c k := by
  have hkj : k 1 = j := Fin.ext hk1
  unfold H4
  refine (pay1_4_apply _ _ r j).trans ?_
  rw [pay6_4_apply, iblk4_8_apply V c t j]
  simp only [G9_4, convArr]
  rw [hkj]
  refine congrArg (· + _) (congrArg₂ (· + ·) (Finset.sum_congr rfl fun q _ => ?_) (Finset.sum_congr rfl fun q _ => ?_))
  · rw [iblk4_3_apply V c t q, iblk4_6_apply V c t q j]
    refine congrArg (fun z => (z + _) * _) (Finset.sum_congr rfl fun l _ => ?_)
    rw [iblk4_0_apply V c t r l (ix2 (k 0) l) hk0 rfl, iblk4_2_apply V c t l q]
  · rw [iblk4_5_apply V c t q, iblk4_7_apply V c t q j]
    refine congrArg (fun z => (z + _) * _) (Finset.sum_congr rfl fun l _ => ?_)
    rw [iblk4_1_apply V c t r l (ix2 (k 0) l) hk0 rfl, iblk4_4_apply V c t l q]

end Cert.KernelIdeal.Hand

end
-- ==== Proof.KI.Value4B.lean ====
import proofs.«154353_j88940182765819_1_alg».proof.Proof.KI.Value4A

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Bridge
open scoped BigOperators

variable (V : (c : Dev nD) → (b : Ref sig .tc) → Buf (Elt Ideal) ((c : Thread nD τ).loc b))
set_option maxHeartbeats 2000000 in
/-- After the body at any point the block output's staging buffer holds the block of `h` there. -/
theorem o9_4_eq (c : Dev nD) (t : Fin cfg4.N) : (outsAt4 V c t.val t.isLt).1 = H4 V c t := by
  by_cases h0 : t.val = 0
  · rw [outsAt4_A V c t h0]
    dsimp only
    unfold o9A4 runA4 H4
    exact pieceA4_o9 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) scM4_0 (Memref.isWhole_whole _) scM4_1 (Memref.isWhole_whole _) _ _ (iblk4 V c 0 t) (iblk4 V c 1 t) (iblk4 V c 2 t) (iblk4 V c 3 t) (iblk4 V c 4 t) (iblk4 V c 5 t) (iblk4 V c 6 t) (iblk4 V c 7 t) (iblk4 V c 8 t)
  · by_cases h1 : t.val = 24
    · rw [outsAt4_C V c t h0 h1]
      dsimp only
      unfold o9C4 runC4 H4
      exact pieceC4_o9 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) scM4_0 (Memref.isWhole_whole _) scM4_1 (Memref.isWhole_whole _) _ _ (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.2.2.1 (outsAt4 V c (t.val - 1) (Nat.lt_of_le_of_lt (Nat.sub_le _ _) t.isLt)).2.2.2.2
    · rw [outsAt4_B V c t h0 h1]
      dsimp only
      unfold o9B4 runB4 H4
      exact pieceB4_o9 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) scM4_0 (Memref.isWhole_whole _) scM4_1 (Memref.isWhole_whole _) _ _ (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.2.2.1 (outsAt4 V c (t.val - 1) (Nat.lt_of_le_of_lt (Nat.sub_le _ _) t.isLt)).2.2.2.2

/-- What point `t` writes back is block `t` of `G9_4`. -/
theorem flushed9_4_eq (c : Dev nD) (t : Fin cfg4.N) :
    (dat4 V c).flushed 9 t = ((cfg4.win 9).blk t).view.read (Elt Ideal) (G9_4 V c) := by
  show (cfg4.win 9).cut (grid4.coords t) ((dat4 V c).after 9 t) = _
  rw [after4_9, o9_4_eq]
  obtain ⟨-, -, -, -, -, -, -, -, -, ⟨e0, e1⟩, -, -⟩ := idx4 t
  funext (y : S4000x128.Idx)
  obtain ⟨r, j, rfl⟩ : ∃ (r : Fin 4000) (j : Fin 128), y = ix2 r j := ⟨y 0, y 1, eq_ix2 y⟩
  show H4 V c t (ix2 r j) = G9_4 V c (((cfg4.win 9).blk t).view.emb (ix2 r j))
  refine H4_blocks V c t r j _ ?_ ?_
  · show win4_9.index t (0 : Fin 2) * 4000 + 1 * r.val = 4000 * t.val + r.val; rw [e0]; omega
  · show win4_9.index t (1 : Fin 2) * 128 + 1 * j.val = j.val; rw [e1]; omega

/-- An index of the block output's array is in point `t`'s block iff each coordinate is in the block's range. -/
theorem mem_blk9_4 (t : Fin cfg4.N) (i : S100000x128.Idx) :
    i ∈ ((cfg4.win 9).blk t).view.set ↔ ∀ a : Fin 2, win4_9.index t a * S4000x128.size a ≤ (i a).val ∧ (i a).val < win4_9.index t a * S4000x128.size a + S4000x128.size a := by
  show i ∈ ((View.whole main_v123_0).slice (win4_9.rect t)).set ↔ _
  rw [View.set_slice_whole, Rect.mem_set_unit]
  exact Iff.rfl

/-- Every row of the block output's array is in some point's block: row `i` is in row block `i / 4000`. -/
theorem cover9_4 (i : S100000x128.Idx) :
    ∃ t : Fin cfg4.N, (cfg4.win 9).flush t = true ∧ i ∈ ((cfg4.win 9).blk t).view.set := by
  have hi0 : (i 0).val < 100000 := (i 0).isLt
  have hi1 : (i 1).val < 128 := (i 1).isLt
  have hN : cfg4.N = 25 := N_4
  obtain ⟨t, ht⟩ : ∃ t : Fin cfg4.N, t.val = (i 0).val / 4000 := ⟨⟨(i 0).val / 4000, by rw [hN]; omega⟩, rfl⟩
  obtain ⟨-, -, -, -, -, -, -, -, -, ⟨e0, e1⟩, -, -⟩ := idx4 t
  refine ⟨t, flush4_9 t, ?_⟩
  rw [mem_blk9_4]
  intro a
  match a with
  | ⟨0, _⟩ => show win4_9.index t (0 : Fin 2) * 4000 ≤ (i 0).val ∧ (i 0).val < win4_9.index t (0 : Fin 2) * 4000 + 4000; rw [e0, ht]; omega
  | ⟨1, _⟩ => show win4_9.index t (1 : Fin 2) * 128 ≤ (i 1).val ∧ (i 1).val < win4_9.index t (1 : Fin 2) * 128 + 128; rw [e1]; omega

/-- The block output's array after the region is `G9_4`. -/
theorem final9_4 (c : Dev nD) : (dat4 V c).arrAt 9 cfg4.N = G9_4 V c :=
  (dat4 V c).arrAt_eq_of_cover 9 (G9_4 V c) (fun t _ => flushed9_4_eq V c t) (cover9_4)

end Cert.KernelIdeal.Hand

end
-- ==== Proof.KI.Value4C.lean ====
import proofs.«154353_j88940182765819_1_alg».proof.Proof.KI.Value4B

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Bridge
open scoped BigOperators

variable (V : (c : Dev nD) → (b : Ref sig .tc) → Buf (Elt Ideal) ((c : Thread nD τ).loc b))

/-! ## The two accumulator rows, point by point -/

/-- Accumulator row 0 after the first point: the zero row plus the first block's column sums. -/
theorem s0_4_first (c : Dev nD) (t : Fin cfg4.N) (h0 : t.val = 0) :
    (outsAt4 V c t.val t.isLt).2.2.2.1 = k4_pay2 (k4_pay6 (iblk4 V c 0 t) (iblk4 V c 1 t) (iblk4 V c 2 t) (iblk4 V c 4 t) (iblk4 V c 6 t) (iblk4 V c 7 t) (iblk4 V c 3 t) (iblk4 V c 5 t)) (iblk4 V c 8 t) (k4_pay4 (F := Ideal)) := by
  rw [outsAt4_A V c t h0]
  dsimp only
  unfold s0A4 runA4
  exact pieceA4_s0 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) scM4_0 (Memref.isWhole_whole _) scM4_1 (Memref.isWhole_whole _) _ _ (iblk4 V c 0 t) (iblk4 V c 1 t) (iblk4 V c 2 t) (iblk4 V c 3 t) (iblk4 V c 4 t) (iblk4 V c 5 t) (iblk4 V c 6 t) (iblk4 V c 7 t) (iblk4 V c 8 t)

/-- Accumulator row 0 after a later point: what the point before left plus this block's column sums. -/
theorem s0_4_later (c : Dev nD) (t : Fin cfg4.N) (h0 : ¬t.val = 0) :
    (outsAt4 V c t.val t.isLt).2.2.2.1 = k4_pay2 (k4_pay6 (iblk4 V c 0 t) (iblk4 V c 1 t) (iblk4 V c 2 t) (iblk4 V c 4 t) (iblk4 V c 6 t) (iblk4 V c 7 t) (iblk4 V c 3 t) (iblk4 V c 5 t)) (iblk4 V c 8 t) (outsAt4 V c (t.val - 1) (Nat.lt_of_le_of_lt (Nat.sub_le _ _) t.isLt)).2.2.2.1 := by
  by_cases h1 : t.val = 24
  · rw [outsAt4_C V c t h0 h1]
    dsimp only
    unfold s0C4 runC4
    exact pieceC4_s0 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) scM4_0 (Memref.isWhole_whole _) scM4_1 (Memref.isWhole_whole _) _ _ (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.2.2.1 (outsAt4 V c (t.val - 1) (Nat.lt_of_le_of_lt (Nat.sub_le _ _) t.isLt)).2.2.2.2
  · rw [outsAt4_B V c t h0 h1]
    dsimp only
    unfold s0B4 runB4
    exact pieceB4_s0 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) scM4_0 (Memref.isWhole_whole _) scM4_1 (Memref.isWhole_whole _) _ _ (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.2.2.1 (outsAt4 V c (t.val - 1) (Nat.lt_of_le_of_lt (Nat.sub_le _ _) t.isLt)).2.2.2.2

/-- Accumulator row 1 after the first point: the zero row plus the first block's column sums. -/
theorem s1_4_first (c : Dev nD) (t : Fin cfg4.N) (h0 : t.val = 0) :
    (outsAt4 V c t.val t.isLt).2.2.2.2 = k4_pay3 (k4_pay6 (iblk4 V c 0 t) (iblk4 V c 1 t) (iblk4 V c 2 t) (iblk4 V c 4 t) (iblk4 V c 6 t) (iblk4 V c 7 t) (iblk4 V c 3 t) (iblk4 V c 5 t)) (iblk4 V c 8 t) (k4_pay5 (F := Ideal)) := by
  rw [outsAt4_A V c t h0]
  dsimp only
  unfold s1A4 runA4
  exact pieceA4_s1 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) scM4_0 (Memref.isWhole_whole _) scM4_1 (Memref.isWhole_whole _) _ _ (iblk4 V c 0 t) (iblk4 V c 1 t) (iblk4 V c 2 t) (iblk4 V c 3 t) (iblk4 V c 4 t) (iblk4 V c 5 t) (iblk4 V c 6 t) (iblk4 V c 7 t) (iblk4 V c 8 t)

/-- Accumulator row 1 after a later point: what the point before left plus this block's column sums. -/
theorem s1_4_later (c : Dev nD) (t : Fin cfg4.N) (h0 : ¬t.val = 0) :
    (outsAt4 V c t.val t.isLt).2.2.2.2 = k4_pay3 (k4_pay6 (iblk4 V c 0 t) (iblk4 V c 1 t) (iblk4 V c 2 t) (iblk4 V c 4 t) (iblk4 V c 6 t) (iblk4 V c 7 t) (iblk4 V c 3 t) (iblk4 V c 5 t)) (iblk4 V c 8 t) (outsAt4 V c (t.val - 1) (Nat.lt_of_le_of_lt (Nat.sub_le _ _) t.isLt)).2.2.2.2 := by
  by_cases h1 : t.val = 24
  · rw [outsAt4_C V c t h0 h1]
    dsimp only
    unfold s1C4 runC4
    exact pieceC4_s1 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) scM4_0 (Memref.isWhole_whole _) scM4_1 (Memref.isWhole_whole _) _ _ (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.2.2.1 (outsAt4 V c (t.val - 1) (Nat.lt_of_le_of_lt (Nat.sub_le _ _) t.isLt)).2.2.2.2
  · rw [outsAt4_B V c t h0 h1]
    dsimp only
    unfold s1B4 runB4
    exact pieceB4_s1 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) scM4_0 (Memref.isWhole_whole _) scM4_1 (Memref.isWhole_whole _) _ _ (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.2.2.1 (outsAt4 V c (t.val - 1) (Nat.lt_of_le_of_lt (Nat.sub_le _ _) t.isLt)).2.2.2.2

/-- At the last point the two row outputs receive the two accumulator rows as the point leaves them. -/
theorem o10_4_last (c : Dev nD) (t : Fin cfg4.N) (h0 : ¬t.val = 0) (h1 : t.val = 24) :
    (outsAt4 V c t.val t.isLt).2.1 = (outsAt4 V c t.val t.isLt).2.2.2.1 := by
  rw [outsAt4_C V c t h0 h1]
  dsimp only
  unfold o10C4 s0C4 runC4
  exact (pieceC4_o10 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) scM4_0 (Memref.isWhole_whole _) scM4_1 (Memref.isWhole_whole _) _ _ (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.2.2.1 (outsAt4 V c (t.val - 1) (Nat.lt_of_le_of_lt (Nat.sub_le _ _) t.isLt)).2.2.2.2).trans
    (pieceC4_s0 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) scM4_0 (Memref.isWhole_whole _) scM4_1 (Memref.isWhole_whole _) _ _ (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.2.2.1 (outsAt4 V c (t.val - 1) (Nat.lt_of_le_of_lt (Nat.sub_le _ _) t.isLt)).2.2.2.2).symm
theorem o11_4_last (c : Dev nD) (t : Fin cfg4.N) (h0 : ¬t.val = 0) (h1 : t.val = 24) :
    (outsAt4 V c t.val t.isLt).2.2.1 = (outsAt4 V c t.val t.isLt).2.2.2.2 := by
  rw [outsAt4_C V c t h0 h1]
  dsimp only
  unfold o11C4 s1C4 runC4
  exact (pieceC4_o11 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) scM4_0 (Memref.isWhole_whole _) scM4_1 (Memref.isWhole_whole _) _ _ (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.2.2.1 (outsAt4 V c (t.val - 1) (Nat.lt_of_le_of_lt (Nat.sub_le _ _) t.isLt)).2.2.2.2).trans
    (pieceC4_s1 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) scM4_0 (Memref.isWhole_whole _) scM4_1 (Memref.isWhole_whole _) _ _ (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.2.2.1 (outsAt4 V c (t.val - 1) (Nat.lt_of_le_of_lt (Nat.sub_le _ _) t.isLt)).2.2.2.2).symm

/-! ## The column sums as one sum over the 100000 rows -/

/-- A block's column sum is the sum of that row block of `G9_4`'s column. -/
theorem Hsum_4 (c : Dev nD) (t : Fin cfg4.N) (j : Fin 128) :
    ∑ r : Fin 4000, H4 V c t (ix2 r j) = s4000 (fun i : Fin 100000 => G9_4 V c (ix2 i j)) t.val := by
  have hN : cfg4.N = 25 := N_4
  have ht : t.val < 25 := by have := t.isLt; omega
  exact (Finset.sum_congr rfl fun r _ => H4_blocks V c t r j (ix2 ⟨4000 * t.val + r.val, by have := r.isLt; omega⟩ j) rfl rfl).trans
    (s4000_eq (fun i : Fin 100000 => G9_4 V c (ix2 i j)) ⟨t.val, ht⟩).symm

/-- The same for the squares. -/
theorem Hsqsum_4 (c : Dev nD) (t : Fin cfg4.N) (j : Fin 128) :
    ∑ r : Fin 4000, H4 V c t (ix2 r j) * H4 V c t (ix2 r j)
      = s4000 (fun i : Fin 100000 => G9_4 V c (ix2 i j) * G9_4 V c (ix2 i j)) t.val := by
  have hN : cfg4.N = 25 := N_4
  have ht : t.val < 25 := by have := t.isLt; omega
  exact (Finset.sum_congr rfl fun r _ => by
      rw [H4_blocks V c t r j (ix2 ⟨4000 * t.val + r.val, by have := r.isLt; omega⟩ j) rfl rfl]).trans
    (s4000_eq (fun i : Fin 100000 => G9_4 V c (ix2 i j) * G9_4 V c (ix2 i j)) ⟨t.val, ht⟩).symm

/-- Column `j` of accumulator row 0 before point `n`: zero before the first point, then what point `n - 1` left. -/
def acc0_4 (c : Dev nD) (j : Fin 128) : ℕ → EReal
  | 0 => 0
  | n + 1 => if h : n < cfg4.N then (outsAt4 V c n h).2.2.2.1 (ix2 (0 : Fin 1) j) else 0

/-- Each point adds its block's column sum. -/
theorem acc0_4_step (c : Dev nD) (j : Fin 128) (n : ℕ) (hn : n < 25) :
    acc0_4 V c j (n + 1) = acc0_4 V c j n + s4000 (fun i : Fin 100000 => G9_4 V c (ix2 i j)) n := by
  have hN : cfg4.N = 25 := N_4
  have hn' : n < cfg4.N := by omega
  refine (dif_pos hn').trans ?_
  cases n with
  | zero =>
    refine (congrFun (s0_4_first V c ⟨0, hn'⟩ rfl) (ix2 (0 : Fin 1) j)).trans ?_
    rw [pay2_4_apply, pay4_4_apply]
    exact congrArg (0 + ·) (Hsum_4 V c ⟨0, hn'⟩ j)
  | succ m =>
    refine (congrFun (s0_4_later V c ⟨m + 1, hn'⟩ (Nat.succ_ne_zero m)) (ix2 (0 : Fin 1) j)).trans ?_
    rw [pay2_4_apply]
    have e1 : acc0_4 V c j (m + 1) = (outsAt4 V c m (by omega)).2.2.2.1 (ix2 (0 : Fin 1) j) := dif_pos (by omega)
    rw [e1]
    exact congrArg (_ + ·) (Hsum_4 V c ⟨m + 1, hn'⟩ j)

/-- Column `j` of accumulator row 1 before point `n`: zero before the first point, then what point `n - 1` left. -/
def acc1_4 (c : Dev nD) (j : Fin 128) : ℕ → EReal
  | 0 => 0
  | n + 1 => if h : n < cfg4.N then (outsAt4 V c n h).2.2.2.2 (ix2 (0 : Fin 1) j) else 0

/-- Each point adds its block's column sum. -/
theorem acc1_4_step (c : Dev nD) (j : Fin 128) (n : ℕ) (hn : n < 25) :
    acc1_4 V c j (n + 1) = acc1_4 V c j n + s4000 (fun i : Fin 100000 => G9_4 V c (ix2 i j) * G9_4 V c (ix2 i j)) n := by
  have hN : cfg4.N = 25 := N_4
  have hn' : n < cfg4.N := by omega
  refine (dif_pos hn').trans ?_
  cases n with
  | zero =>
    refine (congrFun (s1_4_first V c ⟨0, hn'⟩ rfl) (ix2 (0 : Fin 1) j)).trans ?_
    rw [pay3_4_apply, pay5_4_apply]
    exact congrArg (0 + ·) (Hsqsum_4 V c ⟨0, hn'⟩ j)
  | succ m =>
    refine (congrFun (s1_4_later V c ⟨m + 1, hn'⟩ (Nat.succ_ne_zero m)) (ix2 (0 : Fin 1) j)).trans ?_
    rw [pay3_4_apply]
    have e1 : acc1_4 V c j (m + 1) = (outsAt4 V c m (by omega)).2.2.2.2 (ix2 (0 : Fin 1) j) := dif_pos (by omega)
    rw [e1]
    exact congrArg (_ + ·) (Hsqsum_4 V c ⟨m + 1, hn'⟩ j)

/-- What row output 10's array ends holding: what the last point stores into its staging buffer. -/
def R10_4 (c : Dev nD) : S1x128.Idx → EReal :=
  (outsAt4 V c 24 (by rw [show cfg4.N = 25 from N_4]; decide)).2.1

/-- The one write-back of row output 10, at the last point, writes that row: the block is the whole array. -/
theorem flushed10_4_eq (c : Dev nD) (t : Fin cfg4.N) (hf : (cfg4.win 10).flush t = true) :
    (dat4 V c).flushed 10 t = ((cfg4.win 10).blk t).view.read (Elt Ideal) (R10_4 V c) := by
  have hN : cfg4.N = 25 := N_4
  have h1 : t.val = 24 := by have h := (flush4_10 t).mp hf; have := t.isLt; omega
  obtain ⟨-, -, -, -, -, -, -, -, -, -, ⟨e0, e1⟩, -⟩ := idx4 t
  have hz' : (fun a => win4_10.index t a * main_v123_1.ty.shape.size a) = fun _ => 0 := funext fun a => by
    match a with
    | ⟨0, _⟩ => show win4_10.index t (0 : Fin 2) * 1 = 0; rw [e0]
    | ⟨1, _⟩ => show win4_10.index t (1 : Fin 2) * 128 = 0; rw [e1]
  show (cfg4.win 10).cut (grid4.coords t) ((dat4 V c).after 10 t) = _
  rw [after4_10]
  have et : (outsAt4 V c t.val t.isLt).2.1 = R10_4 V c := by
    obtain ⟨n, hn⟩ := t
    obtain rfl : n = 24 := h1
    rfl
  rw [et]
  exact (Memref.read_access_unit_zero (Elt Ideal) main_v123_1 hz' (fun a => by rw [congrFun hz' a]; simp) (R10_4 V c)).symm

/-- Row output 10's array after the region is that row. -/
theorem final10_4 (c : Dev nD) : (dat4 V c).arrAt 10 cfg4.N = R10_4 V c :=
  (dat4 V c).arrAt_eq_of_cover 10 (R10_4 V c) (flushed10_4_eq V c) fun i => by
    have hN : cfg4.N = 25 := N_4
    let t : Fin cfg4.N := ⟨24, by omega⟩
    obtain ⟨-, -, -, -, -, -, -, -, -, -, ⟨e0, e1⟩, -⟩ := idx4 t
    refine ⟨t, (flush4_10 t).mpr rfl, ?_⟩
    show i ∈ ((View.whole main_v123_1).slice (win4_10.rect t)).set
    rw [View.set_slice_whole, Rect.mem_set_unit]
    intro a
    have h0 : (i 0 : Nat) < 1 := (i 0).isLt
    have h1 : (i 1 : Nat) < 128 := (i 1).isLt
    match a with
    | ⟨0, _⟩ => show win4_10.index t (0 : Fin 2) * 1 ≤ (i 0 : Nat) ∧ (i 0 : Nat) < win4_10.index t (0 : Fin 2) * 1 + 1; rw [e0]; omega
    | ⟨1, _⟩ => show win4_10.index t (1 : Fin 2) * 128 ≤ (i 1 : Nat) ∧ (i 1 : Nat) < win4_10.index t (1 : Fin 2) * 128 + 128; rw [e1]; omega

/-- That row, at column `j`, is the accumulator's column after all 25 points. -/
theorem R10_4_apply (c : Dev nD) (j : Fin 128) : R10_4 V c (ix2 (0 : Fin 1) j) = acc0_4 V c j 25 := by
  have hN : cfg4.N = 25 := N_4
  have hlt : 24 < cfg4.N := by omega
  refine (congrFun (o10_4_last V c ⟨24, hlt⟩ (by show ¬(24 : ℕ) = 0; omega) rfl) (ix2 (0 : Fin 1) j)).trans ?_
  show _ = acc0_4 V c j (24 + 1)
  rw [acc0_4, dif_pos hlt]

/-- What row output 11's array ends holding: what the last point stores into its staging buffer. -/
def R11_4 (c : Dev nD) : S1x128.Idx → EReal :=
  (outsAt4 V c 24 (by rw [show cfg4.N = 25 from N_4]; decide)).2.2.1

/-- The one write-back of row output 11, at the last point, writes that row: the block is the whole array. -/
theorem flushed11_4_eq (c : Dev nD) (t : Fin cfg4.N) (hf : (cfg4.win 11).flush t = true) :
    (dat4 V c).flushed 11 t = ((cfg4.win 11).blk t).view.read (Elt Ideal) (R11_4 V c) := by
  have hN : cfg4.N = 25 := N_4
  have h1 : t.val = 24 := by have h := (flush4_11 t).mp hf; have := t.isLt; omega
  obtain ⟨-, -, -, -, -, -, -, -, -, -, -, ⟨e0, e1⟩⟩ := idx4 t
  have hz' : (fun a => win4_11.index t a * main_v123_2.ty.shape.size a) = fun _ => 0 := funext fun a => by
    match a with
    | ⟨0, _⟩ => show win4_11.index t (0 : Fin 2) * 1 = 0; rw [e0]
    | ⟨1, _⟩ => show win4_11.index t (1 : Fin 2) * 128 = 0; rw [e1]
  show (cfg4.win 11).cut (grid4.coords t) ((dat4 V c).after 11 t) = _
  rw [after4_11]
  have et : (outsAt4 V c t.val t.isLt).2.2.1 = R11_4 V c := by
    obtain ⟨n, hn⟩ := t
    obtain rfl : n = 24 := h1
    rfl
  rw [et]
  exact (Memref.read_access_unit_zero (Elt Ideal) main_v123_2 hz' (fun a => by rw [congrFun hz' a]; simp) (R11_4 V c)).symm

/-- Row output 11's array after the region is that row. -/
theorem final11_4 (c : Dev nD) : (dat4 V c).arrAt 11 cfg4.N = R11_4 V c :=
  (dat4 V c).arrAt_eq_of_cover 11 (R11_4 V c) (flushed11_4_eq V c) fun i => by
    have hN : cfg4.N = 25 := N_4
    let t : Fin cfg4.N := ⟨24, by omega⟩
    obtain ⟨-, -, -, -, -, -, -, -, -, -, -, ⟨e0, e1⟩⟩ := idx4 t
    refine ⟨t, (flush4_11 t).mpr rfl, ?_⟩
    show i ∈ ((View.whole main_v123_2).slice (win4_11.rect t)).set
    rw [View.set_slice_whole, Rect.mem_set_unit]
    intro a
    have h0 : (i 0 : Nat) < 1 := (i 0).isLt
    have h1 : (i 1 : Nat) < 128 := (i 1).isLt
    match a with
    | ⟨0, _⟩ => show win4_11.index t (0 : Fin 2) * 1 ≤ (i 0 : Nat) ∧ (i 0 : Nat) < win4_11.index t (0 : Fin 2) * 1 + 1; rw [e0]; omega
    | ⟨1, _⟩ => show win4_11.index t (1 : Fin 2) * 128 ≤ (i 1 : Nat) ∧ (i 1 : Nat) < win4_11.index t (1 : Fin 2) * 128 + 128; rw [e1]; omega

/-- That row, at column `j`, is the accumulator's column after all 25 points. -/
theorem R11_4_apply (c : Dev nD) (j : Fin 128) : R11_4 V c (ix2 (0 : Fin 1) j) = acc1_4 V c j 25 := by
  have hN : cfg4.N = 25 := N_4
  have hlt : 24 < cfg4.N := by omega
  refine (congrFun (o11_4_last V c ⟨24, hlt⟩ (by show ¬(24 : ℕ) = 0; omega) rfl) (ix2 (0 : Fin 1) j)).trans ?_
  show _ = acc1_4 V c j (24 + 1)
  rw [acc1_4, dif_pos hlt]

end Cert.KernelIdeal.Hand

end
-- ==== Proof.KI.Value4.lean ====
import proofs.«154353_j88940182765819_1_alg».proof.Proof.KI.Value4C
import proofs.«154353_j88940182765819_1_alg».proof.Proof.Math.RefRead

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Bridge
open scoped BigOperators

variable (V : (c : Dev nD) → (b : Ref sig .tc) → Buf (Elt Ideal) ((c : Thread nD τ).loc b))

/-! ## The statements the run is assembled from -/

/-- The two row outputs hold the column sums of the block output's array and of its squares. -/
theorem sums4 (c : Dev nD) (h : S100000x128.Idx → EReal) (s q : S1x128.Idx → EReal)
    (hh : h = (dat4 V c).arrAt 9 cfg4.N) (hs : s = (dat4 V c).arrAt 10 cfg4.N) (hq : q = (dat4 V c).arrAt 11 cfg4.N) :
    (∀ j : Fin 128, s (ix2 (0 : Fin 1) j) = ∑ i : Fin 100000, h (ix2 i j)) ∧ (∀ j : Fin 128, q (ix2 (0 : Fin 1) j) = ∑ i : Fin 100000, h (ix2 i j) * h (ix2 i j)) := by
  have e9 : h = G9_4 V c := hh.trans (final9_4 V c)
  have e10 : s = R10_4 V c := hs.trans (final10_4 V c)
  have e11 : q = R11_4 V c := hq.trans (final11_4 V c)
  subst e9 e10 e11
  refine ⟨fun j => ?_, fun j => ?_⟩
  · rw [R10_4_apply]
    exact fold_25 (fun i : Fin 100000 => G9_4 V c (ix2 i j)) (acc0_4 V c j) rfl (acc0_4_step V c j)
  · rw [R11_4_apply]
    exact fold_25 (fun i : Fin 100000 => G9_4 V c (ix2 i j) * G9_4 V c (ix2 i j)) (acc1_4 V c j) rfl (acc1_4_step V c j)

/-- The block output's array is the reference's convolution of the arrays the region finds, when the three bias
    windows hold the bias vectors as one-row arrays and the two update-weight windows the two halves of `wu`. -/
theorem conv4 (c : Dev nD) (bd bs bu : KTen Ideal S128 .f32) (wu : KTen Ideal S256x128 .f32)
    (h3 : V c main_v120 = kRow bd) (h5 : V c main_v121 = kRow bs) (h8 : V c main_v122 = kRow bu) (h6 : V c main_v118 = kWu0 wu) (h7 : V c main_v119 = kWu1 wu) :
    (dat4 V c).arrAt 9 cfg4.N = Cert.ReferenceIdeal.RefRun.refConv (F := Ideal) Cert.ReferenceIdeal.dot_S100000x128_S128x128_S100000x128_1_0_0_1_n_n Cert.ReferenceIdeal.dot_S100000x128_S128x128_S100000x128_1_0_0_1_n_n
      (V c main_v76) (V c main_v98) (V c main_arg18) bd (V c main_arg16) bs wu bu := by
  rw [final9_4]
  funext (i : S100000x128.Idx)
  obtain ⟨r, j, rfl⟩ : ∃ (r : Fin 100000) (j : Fin 128), i = ix2 r j := ⟨i 0, i 1, eq_ix2 i⟩
  rw [refConv_apply_128_128]
  show convArr (Kd := 128) (Ka := 128) (V c main_v76) (V c main_v98) (V c main_arg18) (V c main_v120) (V c main_arg16) (V c main_v121) (V c main_v118) (V c main_v119) (V c main_v122) (ix2 r j) = _
  rw [convArr_apply, h3, h5, h8, h6, h7]
  simp only [kRow_apply, kWu0_apply, kWu1_apply]

end Cert.KernelIdeal.Hand

end
-- ==== Proof.KI.Pieces5.lean ====
import proofs.«154353_j88940182765819_1_alg».proof.Proof.KI.Region5
import proofs.«154353_j88940182765819_1_alg».proof.Proof.KI.ValueCommon
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

/-! # What each case of region 5's body stores, as the body's payloads over the input blocks

Every store of the body writes a whole buffer, so what a buffer holds afterwards is its last store's payload; a
load that follows a store into the same buffer reads that store's payload. -/

/-- Case A: the stores into that buffer cover it. -/
theorem covA5_o9 (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond5_0 i) (hc1 : ¬cond5_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (y : S4000x128.Idx) :
    ∃ pc ∈ (kernelRun5_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1, y ∈ pc.1.set :=
  View.cover_of_tiledL (kernelRun5_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1 S4000x128.size (by sl_kernel_rfl) y

set_option maxHeartbeats 4000000 in
/-- Case A: the block output's staging buffer ends holding the block of `h`. -/
theorem pieceA5_o9 (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond5_0 i) (hc1 : ¬cond5_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) :
    VO5_9.read (Elt F) (VO5_9.writes (Elt F) VO5_9.junk (kernelRun5_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1)
      = k5_pay1 (k5_pay6 x0 x1 x2 x4 x6 x7 x3 x5) x8 := by
  rw [View.read_writes_eq_canon _ _ _ (covA5_o9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun5_A
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S128x128) hz2, View.ld_unit_zero (S := S1x128) hz2, shapeCast_self]

/-- Case A: the stores into that buffer cover it. -/
theorem covA5_s0 (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond5_0 i) (hc1 : ¬cond5_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (y : S1x128.Idx) :
    ∃ pc ∈ (kernelRun5_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1, y ∈ pc.1.set :=
  View.cover_of_tiledL (kernelRun5_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1 S1x128.size (by sl_kernel_rfl) y

set_option maxHeartbeats 4000000 in
/-- Case A: accumulator row 0 ends holding what accumulator row 0 held plus the block's column sums. -/
theorem pieceA5_s0 (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond5_0 i) (hc1 : ¬cond5_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) :
    VS5_0.read (Elt F) (VS5_0.writes (Elt F) VS5_0.junk (kernelRun5_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1)
      = k5_pay2 (k5_pay6 x0 x1 x2 x4 x6 x7 x3 x5) x8 (k5_pay4 (F := F)) := by
  rw [View.read_writes_eq_canon _ _ _ (covA5_s0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun5_A
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S128x128) hz2, View.ld_unit_zero (S := S1x128) hz2, shapeCast_self]

/-- Case A: the stores into that buffer cover it. -/
theorem covA5_s1 (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond5_0 i) (hc1 : ¬cond5_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (y : S1x128.Idx) :
    ∃ pc ∈ (kernelRun5_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1, y ∈ pc.1.set :=
  View.cover_of_tiledL (kernelRun5_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1 S1x128.size (by sl_kernel_rfl) y

set_option maxHeartbeats 4000000 in
/-- Case A: accumulator row 1 ends holding what accumulator row 1 held plus the column sums of the block's squares. -/
theorem pieceA5_s1 (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : cond5_0 i) (hc1 : ¬cond5_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) :
    VS5_1.read (Elt F) (VS5_1.writes (Elt F) VS5_1.junk (kernelRun5_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1)
      = k5_pay3 (k5_pay6 x0 x1 x2 x4 x6 x7 x3 x5) x8 (k5_pay5 (F := F)) := by
  rw [View.read_writes_eq_canon _ _ _ (covA5_s1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun5_A
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S128x128) hz2, View.ld_unit_zero (S := S1x128) hz2, shapeCast_self]

/-- Case B: the stores into that buffer cover it. -/
theorem covB5_o9 (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond5_0 i) (hc1 : ¬cond5_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) (y : S4000x128.Idx) :
    ∃ pc ∈ (kernelRun5_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1, y ∈ pc.1.set :=
  View.cover_of_tiledL (kernelRun5_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1 S4000x128.size (by sl_kernel_rfl) y

set_option maxHeartbeats 4000000 in
/-- Case B: the block output's staging buffer ends holding the block of `h`. -/
theorem pieceB5_o9 (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond5_0 i) (hc1 : ¬cond5_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) :
    VO5_9.read (Elt F) (VO5_9.writes (Elt F) VO5_9.junk (kernelRun5_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1)
      = k5_pay1 (k5_pay6 x0 x1 x2 x4 x6 x7 x3 x5) x8 := by
  rw [View.read_writes_eq_canon _ _ _ (covB5_o9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun5_B
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S128x128) hz2, View.ld_unit_zero (S := S1x128) hz2, shapeCast_self]

/-- Case B: the stores into that buffer cover it. -/
theorem covB5_s0 (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond5_0 i) (hc1 : ¬cond5_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) (y : S1x128.Idx) :
    ∃ pc ∈ (kernelRun5_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1, y ∈ pc.1.set :=
  View.cover_of_tiledL (kernelRun5_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1 S1x128.size (by sl_kernel_rfl) y

set_option maxHeartbeats 4000000 in
/-- Case B: accumulator row 0 ends holding what accumulator row 0 held plus the block's column sums. -/
theorem pieceB5_s0 (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond5_0 i) (hc1 : ¬cond5_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) :
    VS5_0.read (Elt F) (VS5_0.writes (Elt F) VS5_0.junk (kernelRun5_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1)
      = k5_pay2 (k5_pay6 x0 x1 x2 x4 x6 x7 x3 x5) x8 xs0 := by
  rw [View.read_writes_eq_canon _ _ _ (covB5_s0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun5_B
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S128x128) hz2, View.ld_unit_zero (S := S1x128) hz2, shapeCast_self]

/-- Case B: the stores into that buffer cover it. -/
theorem covB5_s1 (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond5_0 i) (hc1 : ¬cond5_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) (y : S1x128.Idx) :
    ∃ pc ∈ (kernelRun5_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1, y ∈ pc.1.set :=
  View.cover_of_tiledL (kernelRun5_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1 S1x128.size (by sl_kernel_rfl) y

set_option maxHeartbeats 4000000 in
/-- Case B: accumulator row 1 ends holding what accumulator row 1 held plus the column sums of the block's squares. -/
theorem pieceB5_s1 (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond5_0 i) (hc1 : ¬cond5_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) :
    VS5_1.read (Elt F) (VS5_1.writes (Elt F) VS5_1.junk (kernelRun5_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1)
      = k5_pay3 (k5_pay6 x0 x1 x2 x4 x6 x7 x3 x5) x8 xs1 := by
  rw [View.read_writes_eq_canon _ _ _ (covB5_s1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun5_B
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S128x128) hz2, View.ld_unit_zero (S := S1x128) hz2, shapeCast_self]

/-- Case C: the stores into that buffer cover it. -/
theorem covC5_o9 (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond5_0 i) (hc1 : cond5_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) (y : S4000x128.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1 S4000x128.size (by sl_kernel_rfl) y

set_option maxHeartbeats 4000000 in
/-- Case C: the block output's staging buffer ends holding the block of `h`. -/
theorem pieceC5_o9 (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond5_0 i) (hc1 : cond5_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) :
    VO5_9.read (Elt F) (VO5_9.writes (Elt F) VO5_9.junk (kernelRun5_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).1)
      = k5_pay1 (k5_pay6 x0 x1 x2 x4 x6 x7 x3 x5) x8 := by
  rw [View.read_writes_eq_canon _ _ _ (covC5_o9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun5_C
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S128x128) hz2, View.ld_unit_zero (S := S1x128) hz2, shapeCast_self]

/-- Case C: the stores into that buffer cover it. -/
theorem covC5_o10 (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond5_0 i) (hc1 : cond5_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1 S1x128.size (by sl_kernel_rfl) y

set_option maxHeartbeats 4000000 in
/-- Case C: row output 10's staging buffer ends holding accumulator row 0 as this point leaves it. -/
theorem pieceC5_o10 (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond5_0 i) (hc1 : cond5_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) :
    VO5_10.read (Elt F) (VO5_10.writes (Elt F) VO5_10.junk (kernelRun5_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.1)
      = k5_pay2 (k5_pay6 x0 x1 x2 x4 x6 x7 x3 x5) x8 xs0 := by
  rw [View.read_writes_eq_canon _ _ _ (covC5_o10 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun5_C
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S128x128) hz2, View.ld_unit_zero (S := S1x128) hz2, shapeCast_self]

/-- Case C: the stores into that buffer cover it. -/
theorem covC5_o11 (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond5_0 i) (hc1 : cond5_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1 S1x128.size (by sl_kernel_rfl) y

set_option maxHeartbeats 4000000 in
/-- Case C: row output 11's staging buffer ends holding accumulator row 1 as this point leaves it. -/
theorem pieceC5_o11 (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond5_0 i) (hc1 : cond5_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) :
    VO5_11.read (Elt F) (VO5_11.writes (Elt F) VO5_11.junk (kernelRun5_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.1)
      = k5_pay3 (k5_pay6 x0 x1 x2 x4 x6 x7 x3 x5) x8 xs1 := by
  rw [View.read_writes_eq_canon _ _ _ (covC5_o11 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun5_C
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S128x128) hz2, View.ld_unit_zero (S := S1x128) hz2, shapeCast_self]

/-- Case C: the stores into that buffer cover it. -/
theorem covC5_s0 (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond5_0 i) (hc1 : cond5_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1 S1x128.size (by sl_kernel_rfl) y

set_option maxHeartbeats 4000000 in
/-- Case C: accumulator row 0 ends holding what accumulator row 0 held plus the block's column sums. -/
theorem pieceC5_s0 (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond5_0 i) (hc1 : cond5_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) :
    VS5_0.read (Elt F) (VS5_0.writes (Elt F) VS5_0.junk (kernelRun5_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.1)
      = k5_pay2 (k5_pay6 x0 x1 x2 x4 x6 x7 x3 x5) x8 xs0 := by
  rw [View.read_writes_eq_canon _ _ _ (covC5_s0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun5_C
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S128x128) hz2, View.ld_unit_zero (S := S1x128) hz2, shapeCast_self]

/-- Case C: the stores into that buffer cover it. -/
theorem covC5_s1 (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond5_0 i) (hc1 : cond5_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.2.1 S1x128.size (by sl_kernel_rfl) y

set_option maxHeartbeats 4000000 in
/-- Case C: accumulator row 1 ends holding what accumulator row 1 held plus the column sums of the block's squares. -/
theorem pieceC5_s1 (c : Dev nD) (i : grid5.Coords) (arg1 : Memref sig .tc .vmem S4000x128 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S4000x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (hc0 : ¬cond5_0 i) (hc1 : cond5_1 i) (x0 : Vec F S4000x128 .f32) (x1 : Vec F S4000x128 .f32) (x2 : Vec F S128x128 .f32) (x3 : Vec F S1x128 .f32) (x4 : Vec F S128x128 .f32) (x5 : Vec F S1x128 .f32) (x6 : Vec F S128x128 .f32) (x7 : Vec F S128x128 .f32) (x8 : Vec F S1x128 .f32) (xs0 xs1 : Vec F S1x128 .f32) :
    VS5_1.read (Elt F) (VS5_1.writes (Elt F) VS5_1.junk (kernelRun5_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1).2.2.2.2.1)
      = k5_pay3 (k5_pay6 x0 x1 x2 x4 x6 x7 x3 x5) x8 xs1 := by
  rw [View.read_writes_eq_canon _ _ _ (covC5_s1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun5_C
  dsimp only
  try sl_unfold_words
  first | rw [View.canon_unit_zero hz2] | rw [View.canon_cons_unit_zero hz2]
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4000x128) hz2, View.ld_unit_zero (S := S128x128) hz2, View.ld_unit_zero (S := S1x128) hz2, shapeCast_self]

end Cert.KernelIdeal.Hand

end
-- ==== Proof.KI.Value5A.lean ====
import proofs.«154353_j88940182765819_1_alg».proof.Proof.KI.Pieces5
import proofs.«154353_j88940182765819_1_alg».proof.Proof.KI.ConvCommon
import proofs.«154353_j88940182765819_1_alg».proof.Proof.Math.BlockSums
import proofs.«154353_j88940182765819_1_alg».proof.Proof.Math.ConvRead

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Bridge
open scoped BigOperators

variable (V : (c : Dev nD) → (b : Ref sig .tc) → Buf (Elt Ideal) ((c : Thread nD τ).loc b))

/-! # Region 5 at the ideal values

The block output's array ends holding the convolution's closed form over the arrays the region finds; the two
row outputs end holding the column sums of that array and of its squares: each grid point adds its block's column
sums to an accumulator row that the first point zeroes and the last point copies out. -/

/-! ## The body's payloads at an element -/

/-- The two stacked products: the destination rows through `wd`, `bd` and the first half of the update weight, plus the
    aggregated rows through `ws`, `bs` and the second half. (Rounding the factors to bf16 is the identity at the
    ideal values.) -/
theorem pay6_5_apply (x0 : Vec Ideal S4000x128 .f32) (x1 : Vec Ideal S4000x128 .f32) (x2 : Vec Ideal S128x128 .f32) (x3 : Vec Ideal S1x128 .f32)
    (x4 : Vec Ideal S128x128 .f32) (x5 : Vec Ideal S1x128 .f32) (x6 x7 : Vec Ideal S128x128 .f32) (r : Fin 4000) (j : Fin 128) :
    k5_pay6 x0 x1 x2 x4 x6 x7 x3 x5 (ix2 r j)
      = (∑ k : Fin 128, ((∑ l : Fin 128, x0 (ix2 r l) * x2 (ix2 l k)) + x3 (ix2 (0 : Fin 1) k)) * x6 (ix2 k j))
        + (∑ k : Fin 128, ((∑ l : Fin 128, x1 (ix2 r l) * x4 (ix2 l k)) + x5 (ix2 (0 : Fin 1) k)) * x7 (ix2 k j)) := by
  unfold k5_pay6
  simp only [shapeCast_self, addf_apply, truncf_apply, broadcastTo_1b_ab_apply, mm_4000_128, mm_4000_256]

/-- The block of `h`: the stacked products plus the update bias row. -/
theorem pay1_5_apply (p : FVec Ideal S4000x128 .f32) (x8 : Vec Ideal S1x128 .f32) (r : Fin 4000) (j : Fin 128) :
    k5_pay1 p x8 (ix2 r j) = p (ix2 r j) + x8 (ix2 (0 : Fin 1) j) := by
  unfold k5_pay1
  simp only [shapeCast_self, addf_apply, broadcastTo_1b_ab_apply]

/-- The first accumulator row after a point: what it held plus the block's column sums. -/
theorem pay2_5_apply (p : FVec Ideal S4000x128 .f32) (x8 a : Vec Ideal S1x128 .f32) (j : Fin 128) :
    k5_pay2 p x8 a (ix2 (0 : Fin 1) j) = a (ix2 (0 : Fin 1) j) + ∑ r : Fin 4000, k5_pay1 p x8 (ix2 r j) := by
  unfold k5_pay2
  simp only [shapeCast_self, addf_apply]
  rw [shapeCast_a_1a_apply]
  exact congrArg (a (ix2 (0 : Fin 1) j) + ·) (colsum_apply _ _ _ _ j)

/-- The second accumulator row after a point: what it held plus the column sums of the block's squares. -/
theorem pay3_5_apply (p : FVec Ideal S4000x128 .f32) (x8 a : Vec Ideal S1x128 .f32) (j : Fin 128) :
    k5_pay3 p x8 a (ix2 (0 : Fin 1) j)
      = a (ix2 (0 : Fin 1) j) + ∑ r : Fin 4000, k5_pay1 p x8 (ix2 r j) * k5_pay1 p x8 (ix2 r j) := by
  unfold k5_pay3
  simp only [shapeCast_self, addf_apply]
  rw [shapeCast_a_1a_apply]
  exact congrArg (a (ix2 (0 : Fin 1) j) + ·) (colsum_apply _ _ _ _ j)

/-- The zero rows the first point stores into the accumulators. -/
theorem pay4_5_apply (j : Fin 128) : k5_pay4 (F := Ideal) (ix2 (0 : Fin 1) j) = 0 := by
  unfold k5_pay4
  simp only [shapeCast_self, broadcast_apply]
  exact Ideal.ofBits_zero_f32
theorem pay5_5_apply (j : Fin 128) : k5_pay5 (F := Ideal) (ix2 (0 : Fin 1) j) = 0 := by
  unfold k5_pay5
  simp only [shapeCast_self, broadcast_apply]
  exact Ideal.ofBits_zero_f32

/-! ## The windows' blocks as parts of their arrays -/

/-- The index maps over the grid: the two row-blocked inputs' and the block output's block at point `t` is row block
    `t`; every other window's block is the one block there is. -/
theorem idx5 : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ (win5_6.index t (0 : Fin 2) = 0 ∧ win5_6.index t (1 : Fin 2) = 0)
    ∧ (win5_7.index t (0 : Fin 2) = 0 ∧ win5_7.index t (1 : Fin 2) = 0)
    ∧ (win5_8.index t (0 : Fin 2) = 0 ∧ win5_8.index t (1 : Fin 2) = 0)
    ∧ (win5_9.index t (0 : Fin 2) = t.val ∧ win5_9.index t (1 : Fin 2) = 0)
    ∧ (win5_10.index t (0 : Fin 2) = 0 ∧ win5_10.index t (1 : Fin 2) = 0)
    ∧ (win5_11.index t (0 : Fin 2) = 0 ∧ win5_11.index t (1 : Fin 2) = 0) :=
  (by decide +kernel : ∀ t : Fin grid5.N, _)

/-- Row-blocked input 0's block at point `t` is rows `4000 t … 4000 t + 3999` of its array. -/
theorem iblk5_0_apply (c : Dev nD) (t : Fin cfg5.N) (r : Fin 4000) (l : Fin 128) (k : S100000x128.Idx)
    (hk0 : (k 0).val = 4000 * t.val + r.val) (hk1 : (k 1).val = l.val) :
    (iblk5 V c 0 t : Vec Ideal S4000x128 .f32) (ix2 r l) = (V c (Pipeline.arrRef spec5 0) : S100000x128.Idx → EReal) k := by
  obtain ⟨⟨e0, e1⟩, -, -, -, -, -, -, -, -, -, -, -⟩ := idx5 t
  unfold iblk5
  rw [View.read_apply]
  show (V c (Pipeline.arrRef spec5 0) : S100000x128.Idx → EReal) _ = _
  refine congrArg _ (funext fun a => Fin.ext ?_)
  match a with
  | ⟨0, _⟩ => show win5_0.index t (0 : Fin 2) * 4000 + 1 * r.val = (k 0).val; rw [e0, hk0]; omega
  | ⟨1, _⟩ => show win5_0.index t (1 : Fin 2) * 128 + 1 * l.val = (k 1).val; rw [e1, hk1]; omega

/-- Row-blocked input 1's block at point `t` is rows `4000 t … 4000 t + 3999` of its array. -/
theorem iblk5_1_apply (c : Dev nD) (t : Fin cfg5.N) (r : Fin 4000) (l : Fin 128) (k : S100000x128.Idx)
    (hk0 : (k 0).val = 4000 * t.val + r.val) (hk1 : (k 1).val = l.val) :
    (iblk5 V c 1 t : Vec Ideal S4000x128 .f32) (ix2 r l) = (V c (Pipeline.arrRef spec5 1) : S100000x128.Idx → EReal) k := by
  obtain ⟨-, ⟨e0, e1⟩, -, -, -, -, -, -, -, -, -, -⟩ := idx5 t
  unfold iblk5
  rw [View.read_apply]
  show (V c (Pipeline.arrRef spec5 1) : S100000x128.Idx → EReal) _ = _
  refine congrArg _ (funext fun a => Fin.ext ?_)
  match a with
  | ⟨0, _⟩ => show win5_1.index t (0 : Fin 2) * 4000 + 1 * r.val = (k 0).val; rw [e0, hk0]; omega
  | ⟨1, _⟩ => show win5_1.index t (1 : Fin 2) * 128 + 1 * l.val = (k 1).val; rw [e1, hk1]; omega

/-- Resident input 2's block, at every point, is its whole array. -/
theorem iblk5_2_apply (c : Dev nD) (t : Fin cfg5.N) (l : Fin 128) (k : Fin 128) :
    (iblk5 V c 2 t : Vec Ideal S128x128 .f32) (ix2 l k) = (V c (Pipeline.arrRef spec5 2) : S128x128.Idx → EReal) (ix2 l k) := by
  obtain ⟨-, -, ⟨e0, e1⟩, -, -, -, -, -, -, -, -, -⟩ := idx5 t
  unfold iblk5
  rw [View.read_apply]
  show (V c (Pipeline.arrRef spec5 2) : S128x128.Idx → EReal) _ = _
  refine congrArg _ (funext fun a => Fin.ext ?_)
  match a with
  | ⟨0, _⟩ => show win5_2.index t (0 : Fin 2) * 128 + 1 * l.val = l.val; rw [e0]; omega
  | ⟨1, _⟩ => show win5_2.index t (1 : Fin 2) * 128 + 1 * k.val = k.val; rw [e1]; omega

/-- Resident input 4's block, at every point, is its whole array. -/
theorem iblk5_4_apply (c : Dev nD) (t : Fin cfg5.N) (l : Fin 128) (k : Fin 128) :
    (iblk5 V c 4 t : Vec Ideal S128x128 .f32) (ix2 l k) = (V c (Pipeline.arrRef spec5 4) : S128x128.Idx → EReal) (ix2 l k) := by
  obtain ⟨-, -, -, -, ⟨e0, e1⟩, -, -, -, -, -, -, -⟩ := idx5 t
  unfold iblk5
  rw [View.read_apply]
  show (V c (Pipeline.arrRef spec5 4) : S128x128.Idx → EReal) _ = _
  refine congrArg _ (funext fun a => Fin.ext ?_)
  match a with
  | ⟨0, _⟩ => show win5_4.index t (0 : Fin 2) * 128 + 1 * l.val = l.val; rw [e0]; omega
  | ⟨1, _⟩ => show win5_4.index t (1 : Fin 2) * 128 + 1 * k.val = k.val; rw [e1]; omega

/-- Resident input 6's block, at every point, is its whole array. -/
theorem iblk5_6_apply (c : Dev nD) (t : Fin cfg5.N) (l : Fin 128) (k : Fin 128) :
    (iblk5 V c 6 t : Vec Ideal S128x128 .f32) (ix2 l k) = (V c (Pipeline.arrRef spec5 6) : S128x128.Idx → EReal) (ix2 l k) := by
  obtain ⟨-, -, -, -, -, -, ⟨e0, e1⟩, -, -, -, -, -⟩ := idx5 t
  unfold iblk5
  rw [View.read_apply]
  show (V c (Pipeline.arrRef spec5 6) : S128x128.Idx → EReal) _ = _
  refine congrArg _ (funext fun a => Fin.ext ?_)
  match a with
  | ⟨0, _⟩ => show win5_6.index t (0 : Fin 2) * 128 + 1 * l.val = l.val; rw [e0]; omega
  | ⟨1, _⟩ => show win5_6.index t (1 : Fin 2) * 128 + 1 * k.val = k.val; rw [e1]; omega

/-- Resident input 7's block, at every point, is its whole array. -/
theorem iblk5_7_apply (c : Dev nD) (t : Fin cfg5.N) (l : Fin 128) (k : Fin 128) :
    (iblk5 V c 7 t : Vec Ideal S128x128 .f32) (ix2 l k) = (V c (Pipeline.arrRef spec5 7) : S128x128.Idx → EReal) (ix2 l k) := by
  obtain ⟨-, -, -, -, -, -, -, ⟨e0, e1⟩, -, -, -, -⟩ := idx5 t
  unfold iblk5
  rw [View.read_apply]
  show (V c (Pipeline.arrRef spec5 7) : S128x128.Idx → EReal) _ = _
  refine congrArg _ (funext fun a => Fin.ext ?_)
  match a with
  | ⟨0, _⟩ => show win5_7.index t (0 : Fin 2) * 128 + 1 * l.val = l.val; rw [e0]; omega
  | ⟨1, _⟩ => show win5_7.index t (1 : Fin 2) * 128 + 1 * k.val = k.val; rw [e1]; omega

/-- Resident bias row 3's block, at every point, is its whole one-row array. -/
theorem iblk5_3_apply (c : Dev nD) (t : Fin cfg5.N) (k : Fin 128) :
    (iblk5 V c 3 t : Vec Ideal S1x128 .f32) (ix2 (0 : Fin 1) k) = (V c (Pipeline.arrRef spec5 3) : S1x128.Idx → EReal) (ix2 (0 : Fin 1) k) := by
  obtain ⟨-, -, -, ⟨e0, e1⟩, -, -, -, -, -, -, -, -⟩ := idx5 t
  unfold iblk5
  rw [View.read_apply]
  show (V c (Pipeline.arrRef spec5 3) : S1x128.Idx → EReal) _ = _
  refine congrArg _ (funext fun a => Fin.ext ?_)
  match a with
  | ⟨0, _⟩ => show win5_3.index t (0 : Fin 2) * 1 + 1 * 0 = 0; rw [e0]
  | ⟨1, _⟩ => show win5_3.index t (1 : Fin 2) * 128 + 1 * k.val = k.val; rw [e1]; omega

/-- Resident bias row 5's block, at every point, is its whole one-row array. -/
theorem iblk5_5_apply (c : Dev nD) (t : Fin cfg5.N) (k : Fin 128) :
    (iblk5 V c 5 t : Vec Ideal S1x128 .f32) (ix2 (0 : Fin 1) k) = (V c (Pipeline.arrRef spec5 5) : S1x128.Idx → EReal) (ix2 (0 : Fin 1) k) := by
  obtain ⟨-, -, -, -, -, ⟨e0, e1⟩, -, -, -, -, -, -⟩ := idx5 t
  unfold iblk5
  rw [View.read_apply]
  show (V c (Pipeline.arrRef spec5 5) : S1x128.Idx → EReal) _ = _
  refine congrArg _ (funext fun a => Fin.ext ?_)
  match a with
  | ⟨0, _⟩ => show win5_5.index t (0 : Fin 2) * 1 + 1 * 0 = 0; rw [e0]
  | ⟨1, _⟩ => show win5_5.index t (1 : Fin 2) * 128 + 1 * k.val = k.val; rw [e1]; omega

/-- Resident bias row 8's block, at every point, is its whole one-row array. -/
theorem iblk5_8_apply (c : Dev nD) (t : Fin cfg5.N) (k : Fin 128) :
    (iblk5 V c 8 t : Vec Ideal S1x128 .f32) (ix2 (0 : Fin 1) k) = (V c (Pipeline.arrRef spec5 8) : S1x128.Idx → EReal) (ix2 (0 : Fin 1) k) := by
  obtain ⟨-, -, -, -, -, -, -, -, ⟨e0, e1⟩, -, -, -⟩ := idx5 t
  unfold iblk5
  rw [View.read_apply]
  show (V c (Pipeline.arrRef spec5 8) : S1x128.Idx → EReal) _ = _
  refine congrArg _ (funext fun a => Fin.ext ?_)
  match a with
  | ⟨0, _⟩ => show win5_8.index t (0 : Fin 2) * 1 + 1 * 0 = 0; rw [e0]
  | ⟨1, _⟩ => show win5_8.index t (1 : Fin 2) * 128 + 1 * k.val = k.val; rw [e1]; omega

/-! ## The block output's array -/

/-- What the block output's array ends holding: the convolution's closed form over the nine input arrays as the
    region finds them. -/
def G9_5 (c : Dev nD) : S100000x128.Idx → EReal :=
  convArr (Kd := 128) (Ka := 128) (V c (Pipeline.arrRef spec5 0)) (V c (Pipeline.arrRef spec5 1)) (V c (Pipeline.arrRef spec5 2)) (V c (Pipeline.arrRef spec5 3))
    (V c (Pipeline.arrRef spec5 4)) (V c (Pipeline.arrRef spec5 5)) (V c (Pipeline.arrRef spec5 6)) (V c (Pipeline.arrRef spec5 7)) (V c (Pipeline.arrRef spec5 8))

/-- The block of `h` the body computes at point `t`, over the input blocks there. -/
def H5 (c : Dev nD) (t : Fin cfg5.N) : FVec Ideal S4000x128 .f32 :=
  k5_pay1 (k5_pay6 (iblk5 V c 0 t) (iblk5 V c 1 t) (iblk5 V c 2 t) (iblk5 V c 4 t) (iblk5 V c 6 t) (iblk5 V c 7 t) (iblk5 V c 3 t) (iblk5 V c 5 t)) (iblk5 V c 8 t)

/-- At row `r`, column `j` it is `G9_5` at the array index the output's block puts there (row `4000 t + r`). -/
theorem H5_blocks (c : Dev nD) (t : Fin cfg5.N) (r : Fin 4000) (j : Fin 128) (k : S100000x128.Idx)
    (hk0 : (k 0).val = 4000 * t.val + r.val) (hk1 : (k 1).val = j.val) :
    H5 V c t (ix2 r j) = G9_5 V c k := by
  have hkj : k 1 = j := Fin.ext hk1
  unfold H5
  refine (pay1_5_apply _ _ r j).trans ?_
  rw [pay6_5_apply, iblk5_8_apply V c t j]
  simp only [G9_5, convArr]
  rw [hkj]
  refine congrArg (· + _) (congrArg₂ (· + ·) (Finset.sum_congr rfl fun q _ => ?_) (Finset.sum_congr rfl fun q _ => ?_))
  · rw [iblk5_3_apply V c t q, iblk5_6_apply V c t q j]
    refine congrArg (fun z => (z + _) * _) (Finset.sum_congr rfl fun l _ => ?_)
    rw [iblk5_0_apply V c t r l (ix2 (k 0) l) hk0 rfl, iblk5_2_apply V c t l q]
  · rw [iblk5_5_apply V c t q, iblk5_7_apply V c t q j]
    refine congrArg (fun z => (z + _) * _) (Finset.sum_congr rfl fun l _ => ?_)
    rw [iblk5_1_apply V c t r l (ix2 (k 0) l) hk0 rfl, iblk5_4_apply V c t l q]

end Cert.KernelIdeal.Hand

end
-- ==== Proof.KI.Value5B.lean ====
import proofs.«154353_j88940182765819_1_alg».proof.Proof.KI.Value5A

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Bridge
open scoped BigOperators

variable (V : (c : Dev nD) → (b : Ref sig .tc) → Buf (Elt Ideal) ((c : Thread nD τ).loc b))
set_option maxHeartbeats 2000000 in
/-- After the body at any point the block output's staging buffer holds the block of `h` there. -/
theorem o9_5_eq (c : Dev nD) (t : Fin cfg5.N) : (outsAt5 V c t.val t.isLt).1 = H5 V c t := by
  by_cases h0 : t.val = 0
  · rw [outsAt5_A V c t h0]
    dsimp only
    unfold o9A5 runA5 H5
    exact pieceA5_o9 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) scM5_0 (Memref.isWhole_whole _) scM5_1 (Memref.isWhole_whole _) _ _ (iblk5 V c 0 t) (iblk5 V c 1 t) (iblk5 V c 2 t) (iblk5 V c 3 t) (iblk5 V c 4 t) (iblk5 V c 5 t) (iblk5 V c 6 t) (iblk5 V c 7 t) (iblk5 V c 8 t)
  · by_cases h1 : t.val = 24
    · rw [outsAt5_C V c t h0 h1]
      dsimp only
      unfold o9C5 runC5 H5
      exact pieceC5_o9 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) scM5_0 (Memref.isWhole_whole _) scM5_1 (Memref.isWhole_whole _) _ _ (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.2.2.1 (outsAt5 V c (t.val - 1) (Nat.lt_of_le_of_lt (Nat.sub_le _ _) t.isLt)).2.2.2.2
    · rw [outsAt5_B V c t h0 h1]
      dsimp only
      unfold o9B5 runB5 H5
      exact pieceB5_o9 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) scM5_0 (Memref.isWhole_whole _) scM5_1 (Memref.isWhole_whole _) _ _ (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.2.2.1 (outsAt5 V c (t.val - 1) (Nat.lt_of_le_of_lt (Nat.sub_le _ _) t.isLt)).2.2.2.2

/-- What point `t` writes back is block `t` of `G9_5`. -/
theorem flushed9_5_eq (c : Dev nD) (t : Fin cfg5.N) :
    (dat5 V c).flushed 9 t = ((cfg5.win 9).blk t).view.read (Elt Ideal) (G9_5 V c) := by
  show (cfg5.win 9).cut (grid5.coords t) ((dat5 V c).after 9 t) = _
  rw [after5_9, o9_5_eq]
  obtain ⟨-, -, -, -, -, -, -, -, -, ⟨e0, e1⟩, -, -⟩ := idx5 t
  funext (y : S4000x128.Idx)
  obtain ⟨r, j, rfl⟩ : ∃ (r : Fin 4000) (j : Fin 128), y = ix2 r j := ⟨y 0, y 1, eq_ix2 y⟩
  show H5 V c t (ix2 r j) = G9_5 V c (((cfg5.win 9).blk t).view.emb (ix2 r j))
  refine H5_blocks V c t r j _ ?_ ?_
  · show win5_9.index t (0 : Fin 2) * 4000 + 1 * r.val = 4000 * t.val + r.val; rw [e0]; omega
  · show win5_9.index t (1 : Fin 2) * 128 + 1 * j.val = j.val; rw [e1]; omega

/-- An index of the block output's array is in point `t`'s block iff each coordinate is in the block's range. -/
theorem mem_blk9_5 (t : Fin cfg5.N) (i : S100000x128.Idx) :
    i ∈ ((cfg5.win 9).blk t).view.set ↔ ∀ a : Fin 2, win5_9.index t a * S4000x128.size a ≤ (i a).val ∧ (i a).val < win5_9.index t a * S4000x128.size a + S4000x128.size a := by
  show i ∈ ((View.whole main_v129_0).slice (win5_9.rect t)).set ↔ _
  rw [View.set_slice_whole, Rect.mem_set_unit]
  exact Iff.rfl

/-- Every row of the block output's array is in some point's block: row `i` is in row block `i / 4000`. -/
theorem cover9_5 (i : S100000x128.Idx) :
    ∃ t : Fin cfg5.N, (cfg5.win 9).flush t = true ∧ i ∈ ((cfg5.win 9).blk t).view.set := by
  have hi0 : (i 0).val < 100000 := (i 0).isLt
  have hi1 : (i 1).val < 128 := (i 1).isLt
  have hN : cfg5.N = 25 := N_5
  obtain ⟨t, ht⟩ : ∃ t : Fin cfg5.N, t.val = (i 0).val / 4000 := ⟨⟨(i 0).val / 4000, by rw [hN]; omega⟩, rfl⟩
  obtain ⟨-, -, -, -, -, -, -, -, -, ⟨e0, e1⟩, -, -⟩ := idx5 t
  refine ⟨t, flush5_9 t, ?_⟩
  rw [mem_blk9_5]
  intro a
  match a with
  | ⟨0, _⟩ => show win5_9.index t (0 : Fin 2) * 4000 ≤ (i 0).val ∧ (i 0).val < win5_9.index t (0 : Fin 2) * 4000 + 4000; rw [e0, ht]; omega
  | ⟨1, _⟩ => show win5_9.index t (1 : Fin 2) * 128 ≤ (i 1).val ∧ (i 1).val < win5_9.index t (1 : Fin 2) * 128 + 128; rw [e1]; omega

/-- The block output's array after the region is `G9_5`. -/
theorem final9_5 (c : Dev nD) : (dat5 V c).arrAt 9 cfg5.N = G9_5 V c :=
  (dat5 V c).arrAt_eq_of_cover 9 (G9_5 V c) (fun t _ => flushed9_5_eq V c t) (cover9_5)

end Cert.KernelIdeal.Hand

end
-- ==== Proof.KI.Value5C.lean ====
import proofs.«154353_j88940182765819_1_alg».proof.Proof.KI.Value5B

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Bridge
open scoped BigOperators

variable (V : (c : Dev nD) → (b : Ref sig .tc) → Buf (Elt Ideal) ((c : Thread nD τ).loc b))

/-! ## The two accumulator rows, point by point -/

/-- Accumulator row 0 after the first point: the zero row plus the first block's column sums. -/
theorem s0_5_first (c : Dev nD) (t : Fin cfg5.N) (h0 : t.val = 0) :
    (outsAt5 V c t.val t.isLt).2.2.2.1 = k5_pay2 (k5_pay6 (iblk5 V c 0 t) (iblk5 V c 1 t) (iblk5 V c 2 t) (iblk5 V c 4 t) (iblk5 V c 6 t) (iblk5 V c 7 t) (iblk5 V c 3 t) (iblk5 V c 5 t)) (iblk5 V c 8 t) (k5_pay4 (F := Ideal)) := by
  rw [outsAt5_A V c t h0]
  dsimp only
  unfold s0A5 runA5
  exact pieceA5_s0 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) scM5_0 (Memref.isWhole_whole _) scM5_1 (Memref.isWhole_whole _) _ _ (iblk5 V c 0 t) (iblk5 V c 1 t) (iblk5 V c 2 t) (iblk5 V c 3 t) (iblk5 V c 4 t) (iblk5 V c 5 t) (iblk5 V c 6 t) (iblk5 V c 7 t) (iblk5 V c 8 t)

/-- Accumulator row 0 after a later point: what the point before left plus this block's column sums. -/
theorem s0_5_later (c : Dev nD) (t : Fin cfg5.N) (h0 : ¬t.val = 0) :
    (outsAt5 V c t.val t.isLt).2.2.2.1 = k5_pay2 (k5_pay6 (iblk5 V c 0 t) (iblk5 V c 1 t) (iblk5 V c 2 t) (iblk5 V c 4 t) (iblk5 V c 6 t) (iblk5 V c 7 t) (iblk5 V c 3 t) (iblk5 V c 5 t)) (iblk5 V c 8 t) (outsAt5 V c (t.val - 1) (Nat.lt_of_le_of_lt (Nat.sub_le _ _) t.isLt)).2.2.2.1 := by
  by_cases h1 : t.val = 24
  · rw [outsAt5_C V c t h0 h1]
    dsimp only
    unfold s0C5 runC5
    exact pieceC5_s0 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) scM5_0 (Memref.isWhole_whole _) scM5_1 (Memref.isWhole_whole _) _ _ (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.2.2.1 (outsAt5 V c (t.val - 1) (Nat.lt_of_le_of_lt (Nat.sub_le _ _) t.isLt)).2.2.2.2
  · rw [outsAt5_B V c t h0 h1]
    dsimp only
    unfold s0B5 runB5
    exact pieceB5_s0 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) scM5_0 (Memref.isWhole_whole _) scM5_1 (Memref.isWhole_whole _) _ _ (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.2.2.1 (outsAt5 V c (t.val - 1) (Nat.lt_of_le_of_lt (Nat.sub_le _ _) t.isLt)).2.2.2.2

/-- Accumulator row 1 after the first point: the zero row plus the first block's column sums. -/
theorem s1_5_first (c : Dev nD) (t : Fin cfg5.N) (h0 : t.val = 0) :
    (outsAt5 V c t.val t.isLt).2.2.2.2 = k5_pay3 (k5_pay6 (iblk5 V c 0 t) (iblk5 V c 1 t) (iblk5 V c 2 t) (iblk5 V c 4 t) (iblk5 V c 6 t) (iblk5 V c 7 t) (iblk5 V c 3 t) (iblk5 V c 5 t)) (iblk5 V c 8 t) (k5_pay5 (F := Ideal)) := by
  rw [outsAt5_A V c t h0]
  dsimp only
  unfold s1A5 runA5
  exact pieceA5_s1 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) scM5_0 (Memref.isWhole_whole _) scM5_1 (Memref.isWhole_whole _) _ _ (iblk5 V c 0 t) (iblk5 V c 1 t) (iblk5 V c 2 t) (iblk5 V c 3 t) (iblk5 V c 4 t) (iblk5 V c 5 t) (iblk5 V c 6 t) (iblk5 V c 7 t) (iblk5 V c 8 t)

/-- Accumulator row 1 after a later point: what the point before left plus this block's column sums. -/
theorem s1_5_later (c : Dev nD) (t : Fin cfg5.N) (h0 : ¬t.val = 0) :
    (outsAt5 V c t.val t.isLt).2.2.2.2 = k5_pay3 (k5_pay6 (iblk5 V c 0 t) (iblk5 V c 1 t) (iblk5 V c 2 t) (iblk5 V c 4 t) (iblk5 V c 6 t) (iblk5 V c 7 t) (iblk5 V c 3 t) (iblk5 V c 5 t)) (iblk5 V c 8 t) (outsAt5 V c (t.val - 1) (Nat.lt_of_le_of_lt (Nat.sub_le _ _) t.isLt)).2.2.2.2 := by
  by_cases h1 : t.val = 24
  · rw [outsAt5_C V c t h0 h1]
    dsimp only
    unfold s1C5 runC5
    exact pieceC5_s1 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) scM5_0 (Memref.isWhole_whole _) scM5_1 (Memref.isWhole_whole _) _ _ (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.2.2.1 (outsAt5 V c (t.val - 1) (Nat.lt_of_le_of_lt (Nat.sub_le _ _) t.isLt)).2.2.2.2
  · rw [outsAt5_B V c t h0 h1]
    dsimp only
    unfold s1B5 runB5
    exact pieceB5_s1 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) scM5_0 (Memref.isWhole_whole _) scM5_1 (Memref.isWhole_whole _) _ _ (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.2.2.1 (outsAt5 V c (t.val - 1) (Nat.lt_of_le_of_lt (Nat.sub_le _ _) t.isLt)).2.2.2.2

/-- At the last point the two row outputs receive the two accumulator rows as the point leaves them. -/
theorem o10_5_last (c : Dev nD) (t : Fin cfg5.N) (h0 : ¬t.val = 0) (h1 : t.val = 24) :
    (outsAt5 V c t.val t.isLt).2.1 = (outsAt5 V c t.val t.isLt).2.2.2.1 := by
  rw [outsAt5_C V c t h0 h1]
  dsimp only
  unfold o10C5 s0C5 runC5
  exact (pieceC5_o10 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) scM5_0 (Memref.isWhole_whole _) scM5_1 (Memref.isWhole_whole _) _ _ (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.2.2.1 (outsAt5 V c (t.val - 1) (Nat.lt_of_le_of_lt (Nat.sub_le _ _) t.isLt)).2.2.2.2).trans
    (pieceC5_s0 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) scM5_0 (Memref.isWhole_whole _) scM5_1 (Memref.isWhole_whole _) _ _ (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.2.2.1 (outsAt5 V c (t.val - 1) (Nat.lt_of_le_of_lt (Nat.sub_le _ _) t.isLt)).2.2.2.2).symm
theorem o11_5_last (c : Dev nD) (t : Fin cfg5.N) (h0 : ¬t.val = 0) (h1 : t.val = 24) :
    (outsAt5 V c t.val t.isLt).2.2.1 = (outsAt5 V c t.val t.isLt).2.2.2.2 := by
  rw [outsAt5_C V c t h0 h1]
  dsimp only
  unfold o11C5 s1C5 runC5
  exact (pieceC5_o11 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) scM5_0 (Memref.isWhole_whole _) scM5_1 (Memref.isWhole_whole _) _ _ (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.2.2.1 (outsAt5 V c (t.val - 1) (Nat.lt_of_le_of_lt (Nat.sub_le _ _) t.isLt)).2.2.2.2).trans
    (pieceC5_s1 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) scM5_0 (Memref.isWhole_whole _) scM5_1 (Memref.isWhole_whole _) _ _ (iblk5 V c 0 t) (iblk5 V c 1 t) (iblk5 V c 2 t) (iblk5 V c 3 t) (iblk5 V c 4 t) (iblk5 V c 5 t) (iblk5 V c 6 t) (iblk5 V c 7 t) (iblk5 V c 8 t) (outsAt5 V c (t.val - 1) (Nat.lt_of_le_of_lt (Nat.sub_le _ _) t.isLt)).2.2.2.1 (outsAt5 V c (t.val - 1) (Nat.lt_of_le_of_lt (Nat.sub_le _ _) t.isLt)).2.2.2.2).symm

/-! ## The column sums as one sum over the 100000 rows -/

/-- A block's column sum is the sum of that row block of `G9_5`'s column. -/
theorem Hsum_5 (c : Dev nD) (t : Fin cfg5.N) (j : Fin 128) :
    ∑ r : Fin 4000, H5 V c t (ix2 r j) = s4000 (fun i : Fin 100000 => G9_5 V c (ix2 i j)) t.val := by
  have hN : cfg5.N = 25 := N_5
  have ht : t.val < 25 := by have := t.isLt; omega
  exact (Finset.sum_congr rfl fun r _ => H5_blocks V c t r j (ix2 ⟨4000 * t.val + r.val, by have := r.isLt; omega⟩ j) rfl rfl).trans
    (s4000_eq (fun i : Fin 100000 => G9_5 V c (ix2 i j)) ⟨t.val, ht⟩).symm

/-- The same for the squares. -/
theorem Hsqsum_5 (c : Dev nD) (t : Fin cfg5.N) (j : Fin 128) :
    ∑ r : Fin 4000, H5 V c t (ix2 r j) * H5 V c t (ix2 r j)
      = s4000 (fun i : Fin 100000 => G9_5 V c (ix2 i j) * G9_5 V c (ix2 i j)) t.val := by
  have hN : cfg5.N = 25 := N_5
  have ht : t.val < 25 := by have := t.isLt; omega
  exact (Finset.sum_congr rfl fun r _ => by
      rw [H5_blocks V c t r j (ix2 ⟨4000 * t.val + r.val, by have := r.isLt; omega⟩ j) rfl rfl]).trans
    (s4000_eq (fun i : Fin 100000 => G9_5 V c (ix2 i j) * G9_5 V c (ix2 i j)) ⟨t.val, ht⟩).symm

/-- Column `j` of accumulator row 0 before point `n`: zero before the first point, then what point `n - 1` left. -/
def acc0_5 (c : Dev nD) (j : Fin 128) : ℕ → EReal
  | 0 => 0
  | n + 1 => if h : n < cfg5.N then (outsAt5 V c n h).2.2.2.1 (ix2 (0 : Fin 1) j) else 0

/-- Each point adds its block's column sum. -/
theorem acc0_5_step (c : Dev nD) (j : Fin 128) (n : ℕ) (hn : n < 25) :
    acc0_5 V c j (n + 1) = acc0_5 V c j n + s4000 (fun i : Fin 100000 => G9_5 V c (ix2 i j)) n := by
  have hN : cfg5.N = 25 := N_5
  have hn' : n < cfg5.N := by omega
  refine (dif_pos hn').trans ?_
  cases n with
  | zero =>
    refine (congrFun (s0_5_first V c ⟨0, hn'⟩ rfl) (ix2 (0 : Fin 1) j)).trans ?_
    rw [pay2_5_apply, pay4_5_apply]
    exact congrArg (0 + ·) (Hsum_5 V c ⟨0, hn'⟩ j)
  | succ m =>
    refine (congrFun (s0_5_later V c ⟨m + 1, hn'⟩ (Nat.succ_ne_zero m)) (ix2 (0 : Fin 1) j)).trans ?_
    rw [pay2_5_apply]
    have e1 : acc0_5 V c j (m + 1) = (outsAt5 V c m (by omega)).2.2.2.1 (ix2 (0 : Fin 1) j) := dif_pos (by omega)
    rw [e1]
    exact congrArg (_ + ·) (Hsum_5 V c ⟨m + 1, hn'⟩ j)

/-- Column `j` of accumulator row 1 before point `n`: zero before the first point, then what point `n - 1` left. -/
def acc1_5 (c : Dev nD) (j : Fin 128) : ℕ → EReal
  | 0 => 0
  | n + 1 => if h : n < cfg5.N then (outsAt5 V c n h).2.2.2.2 (ix2 (0 : Fin 1) j) else 0

/-- Each point adds its block's column sum. -/
theorem acc1_5_step (c : Dev nD) (j : Fin 128) (n : ℕ) (hn : n < 25) :
    acc1_5 V c j (n + 1) = acc1_5 V c j n + s4000 (fun i : Fin 100000 => G9_5 V c (ix2 i j) * G9_5 V c (ix2 i j)) n := by
  have hN : cfg5.N = 25 := N_5
  have hn' : n < cfg5.N := by omega
  refine (dif_pos hn').trans ?_
  cases n with
  | zero =>
    refine (congrFun (s1_5_first V c ⟨0, hn'⟩ rfl) (ix2 (0 : Fin 1) j)).trans ?_
    rw [pay3_5_apply, pay5_5_apply]
    exact congrArg (0 + ·) (Hsqsum_5 V c ⟨0, hn'⟩ j)
  | succ m =>
    refine (congrFun (s1_5_later V c ⟨m + 1, hn'⟩ (Nat.succ_ne_zero m)) (ix2 (0 : Fin 1) j)).trans ?_
    rw [pay3_5_apply]
    have e1 : acc1_5 V c j (m + 1) = (outsAt5 V c m (by omega)).2.2.2.2 (ix2 (0 : Fin 1) j) := dif_pos (by omega)
    rw [e1]
    exact congrArg (_ + ·) (Hsqsum_5 V c ⟨m + 1, hn'⟩ j)

/-- What row output 10's array ends holding: what the last point stores into its staging buffer. -/
def R10_5 (c : Dev nD) : S1x128.Idx → EReal :=
  (outsAt5 V c 24 (by rw [show cfg5.N = 25 from N_5]; decide)).2.1

/-- The one write-back of row output 10, at the last point, writes that row: the block is the whole array. -/
theorem flushed10_5_eq (c : Dev nD) (t : Fin cfg5.N) (hf : (cfg5.win 10).flush t = true) :
    (dat5 V c).flushed 10 t = ((cfg5.win 10).blk t).view.read (Elt Ideal) (R10_5 V c) := by
  have hN : cfg5.N = 25 := N_5
  have h1 : t.val = 24 := by have h := (flush5_10 t).mp hf; have := t.isLt; omega
  obtain ⟨-, -, -, -, -, -, -, -, -, -, ⟨e0, e1⟩, -⟩ := idx5 t
  have hz' : (fun a => win5_10.index t a * main_v129_1.ty.shape.size a) = fun _ => 0 := funext fun a => by
    match a with
    | ⟨0, _⟩ => show win5_10.index t (0 : Fin 2) * 1 = 0; rw [e0]
    | ⟨1, _⟩ => show win5_10.index t (1 : Fin 2) * 128 = 0; rw [e1]
  show (cfg5.win 10).cut (grid5.coords t) ((dat5 V c).after 10 t) = _
  rw [after5_10]
  have et : (outsAt5 V c t.val t.isLt).2.1 = R10_5 V c := by
    obtain ⟨n, hn⟩ := t
    obtain rfl : n = 24 := h1
    rfl
  rw [et]
  exact (Memref.read_access_unit_zero (Elt Ideal) main_v129_1 hz' (fun a => by rw [congrFun hz' a]; simp) (R10_5 V c)).symm

/-- Row output 10's array after the region is that row. -/
theorem final10_5 (c : Dev nD) : (dat5 V c).arrAt 10 cfg5.N = R10_5 V c :=
  (dat5 V c).arrAt_eq_of_cover 10 (R10_5 V c) (flushed10_5_eq V c) fun i => by
    have hN : cfg5.N = 25 := N_5
    let t : Fin cfg5.N := ⟨24, by omega⟩
    obtain ⟨-, -, -, -, -, -, -, -, -, -, ⟨e0, e1⟩, -⟩ := idx5 t
    refine ⟨t, (flush5_10 t).mpr rfl, ?_⟩
    show i ∈ ((View.whole main_v129_1).slice (win5_10.rect t)).set
    rw [View.set_slice_whole, Rect.mem_set_unit]
    intro a
    have h0 : (i 0 : Nat) < 1 := (i 0).isLt
    have h1 : (i 1 : Nat) < 128 := (i 1).isLt
    match a with
    | ⟨0, _⟩ => show win5_10.index t (0 : Fin 2) * 1 ≤ (i 0 : Nat) ∧ (i 0 : Nat) < win5_10.index t (0 : Fin 2) * 1 + 1; rw [e0]; omega
    | ⟨1, _⟩ => show win5_10.index t (1 : Fin 2) * 128 ≤ (i 1 : Nat) ∧ (i 1 : Nat) < win5_10.index t (1 : Fin 2) * 128 + 128; rw [e1]; omega

/-- That row, at column `j`, is the accumulator's column after all 25 points. -/
theorem R10_5_apply (c : Dev nD) (j : Fin 128) : R10_5 V c (ix2 (0 : Fin 1) j) = acc0_5 V c j 25 := by
  have hN : cfg5.N = 25 := N_5
  have hlt : 24 < cfg5.N := by omega
  refine (congrFun (o10_5_last V c ⟨24, hlt⟩ (by show ¬(24 : ℕ) = 0; omega) rfl) (ix2 (0 : Fin 1) j)).trans ?_
  show _ = acc0_5 V c j (24 + 1)
  rw [acc0_5, dif_pos hlt]

/-- What row output 11's array ends holding: what the last point stores into its staging buffer. -/
def R11_5 (c : Dev nD) : S1x128.Idx → EReal :=
  (outsAt5 V c 24 (by rw [show cfg5.N = 25 from N_5]; decide)).2.2.1

/-- The one write-back of row output 11, at the last point, writes that row: the block is the whole array. -/
theorem flushed11_5_eq (c : Dev nD) (t : Fin cfg5.N) (hf : (cfg5.win 11).flush t = true) :
    (dat5 V c).flushed 11 t = ((cfg5.win 11).blk t).view.read (Elt Ideal) (R11_5 V c) := by
  have hN : cfg5.N = 25 := N_5
  have h1 : t.val = 24 := by have h := (flush5_11 t).mp hf; have := t.isLt; omega
  obtain ⟨-, -, -, -, -, -, -, -, -, -, -, ⟨e0, e1⟩⟩ := idx5 t
  have hz' : (fun a => win5_11.index t a * main_v129_2.ty.shape.size a) = fun _ => 0 := funext fun a => by
    match a with
    | ⟨0, _⟩ => show win5_11.index t (0 : Fin 2) * 1 = 0; rw [e0]
    | ⟨1, _⟩ => show win5_11.index t (1 : Fin 2) * 128 = 0; rw [e1]
  show (cfg5.win 11).cut (grid5.coords t) ((dat5 V c).after 11 t) = _
  rw [after5_11]
  have et : (outsAt5 V c t.val t.isLt).2.2.1 = R11_5 V c := by
    obtain ⟨n, hn⟩ := t
    obtain rfl : n = 24 := h1
    rfl
  rw [et]
  exact (Memref.read_access_unit_zero (Elt Ideal) main_v129_2 hz' (fun a => by rw [congrFun hz' a]; simp) (R11_5 V c)).symm

/-- Row output 11's array after the region is that row. -/
theorem final11_5 (c : Dev nD) : (dat5 V c).arrAt 11 cfg5.N = R11_5 V c :=
  (dat5 V c).arrAt_eq_of_cover 11 (R11_5 V c) (flushed11_5_eq V c) fun i => by
    have hN : cfg5.N = 25 := N_5
    let t : Fin cfg5.N := ⟨24, by omega⟩
    obtain ⟨-, -, -, -, -, -, -, -, -, -, -, ⟨e0, e1⟩⟩ := idx5 t
    refine ⟨t, (flush5_11 t).mpr rfl, ?_⟩
    show i ∈ ((View.whole main_v129_2).slice (win5_11.rect t)).set
    rw [View.set_slice_whole, Rect.mem_set_unit]
    intro a
    have h0 : (i 0 : Nat) < 1 := (i 0).isLt
    have h1 : (i 1 : Nat) < 128 := (i 1).isLt
    match a with
    | ⟨0, _⟩ => show win5_11.index t (0 : Fin 2) * 1 ≤ (i 0 : Nat) ∧ (i 0 : Nat) < win5_11.index t (0 : Fin 2) * 1 + 1; rw [e0]; omega
    | ⟨1, _⟩ => show win5_11.index t (1 : Fin 2) * 128 ≤ (i 1 : Nat) ∧ (i 1 : Nat) < win5_11.index t (1 : Fin 2) * 128 + 128; rw [e1]; omega

/-- That row, at column `j`, is the accumulator's column after all 25 points. -/
theorem R11_5_apply (c : Dev nD) (j : Fin 128) : R11_5 V c (ix2 (0 : Fin 1) j) = acc1_5 V c j 25 := by
  have hN : cfg5.N = 25 := N_5
  have hlt : 24 < cfg5.N := by omega
  refine (congrFun (o11_5_last V c ⟨24, hlt⟩ (by show ¬(24 : ℕ) = 0; omega) rfl) (ix2 (0 : Fin 1) j)).trans ?_
  show _ = acc1_5 V c j (24 + 1)
  rw [acc1_5, dif_pos hlt]

end Cert.KernelIdeal.Hand

end
-- ==== Proof.KI.Value5.lean ====
import proofs.«154353_j88940182765819_1_alg».proof.Proof.KI.Value5C
import proofs.«154353_j88940182765819_1_alg».proof.Proof.Math.RefRead

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Bridge
open scoped BigOperators

variable (V : (c : Dev nD) → (b : Ref sig .tc) → Buf (Elt Ideal) ((c : Thread nD τ).loc b))

/-! ## The statements the run is assembled from -/

/-- The two row outputs hold the column sums of the block output's array and of its squares. -/
theorem sums5 (c : Dev nD) (h : S100000x128.Idx → EReal) (s q : S1x128.Idx → EReal)
    (hh : h = (dat5 V c).arrAt 9 cfg5.N) (hs : s = (dat5 V c).arrAt 10 cfg5.N) (hq : q = (dat5 V c).arrAt 11 cfg5.N) :
    (∀ j : Fin 128, s (ix2 (0 : Fin 1) j) = ∑ i : Fin 100000, h (ix2 i j)) ∧ (∀ j : Fin 128, q (ix2 (0 : Fin 1) j) = ∑ i : Fin 100000, h (ix2 i j) * h (ix2 i j)) := by
  have e9 : h = G9_5 V c := hh.trans (final9_5 V c)
  have e10 : s = R10_5 V c := hs.trans (final10_5 V c)
  have e11 : q = R11_5 V c := hq.trans (final11_5 V c)
  subst e9 e10 e11
  refine ⟨fun j => ?_, fun j => ?_⟩
  · rw [R10_5_apply]
    exact fold_25 (fun i : Fin 100000 => G9_5 V c (ix2 i j)) (acc0_5 V c j) rfl (acc0_5_step V c j)
  · rw [R11_5_apply]
    exact fold_25 (fun i : Fin 100000 => G9_5 V c (ix2 i j) * G9_5 V c (ix2 i j)) (acc1_5 V c j) rfl (acc1_5_step V c j)

/-- The block output's array is the reference's convolution of the arrays the region finds, when the three bias
    windows hold the bias vectors as one-row arrays and the two update-weight windows the two halves of `wu`. -/
theorem conv5 (c : Dev nD) (bd bs bu : KTen Ideal S128 .f32) (wu : KTen Ideal S256x128 .f32)
    (h3 : V c main_v126 = kRow bd) (h5 : V c main_v127 = kRow bs) (h8 : V c main_v128 = kRow bu) (h6 : V c main_v124 = kWu0 wu) (h7 : V c main_v125 = kWu1 wu) :
    (dat5 V c).arrAt 9 cfg5.N = Cert.ReferenceIdeal.RefRun.refConv (F := Ideal) Cert.ReferenceIdeal.dot_S100000x128_S128x128_S100000x128_1_0_0_1_n_n Cert.ReferenceIdeal.dot_S100000x128_S128x128_S100000x128_1_0_0_1_n_n
      (V c main_v79) (V c main_v117) (V c main_arg24) bd (V c main_arg22) bs wu bu := by
  rw [final9_5]
  funext (i : S100000x128.Idx)
  obtain ⟨r, j, rfl⟩ : ∃ (r : Fin 100000) (j : Fin 128), i = ix2 r j := ⟨i 0, i 1, eq_ix2 i⟩
  rw [refConv_apply_128_128]
  show convArr (Kd := 128) (Ka := 128) (V c main_v79) (V c main_v117) (V c main_arg24) (V c main_v126) (V c main_arg22) (V c main_v127) (V c main_v124) (V c main_v125) (V c main_v128) (ix2 r j) = _
  rw [convArr_apply, h3, h5, h8, h6, h7]
  simp only [kRow_apply, kWu0_apply, kWu1_apply]

end Cert.KernelIdeal.Hand

end
-- ==== Proof.KI.Value6.lean ====
import proofs.«154353_j88940182765819_1_alg».proof.Proof.KI.Region6
import proofs.«154353_j88940182765819_1_alg».proof.Proof.KI.ValueCommon
import proofs.«154353_j88940182765819_1_alg».proof.Proof.KI.BnRead
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Bridge

variable (V : (c : Dev nD) → (b : Ref sig .tc) → Buf (Elt Ideal) ((c : Thread nD τ).loc b))

/-! # Region 6 at the ideal values: the output array, element by element

The output array after the region is, at row `i` and column `j`, the normalise-and-leaky-relu arithmetic
(`bnLreluAt`) of the activation at `(i, j)` and of the four rows at column `j`. -/

/-! ## The body's payload at an element -/

/-- The payload at row `r`, column `j` of the block: the arithmetic of the block's element there and of the four
    rows' elements at column `j` (a row broadcast down the block reads its one row). -/
theorem pay6_apply (x0 : Vec Ideal S4000x128 .f32) (x1 x2 x3 x4 : Vec Ideal S1x128 .f32) (r : Fin 4000) (j : Fin 128) :
    k6_pay1 x0 x1 x2 x3 x4 (ix2 r j)
      = bnLreluAt (x0 (ix2 r j)) (x1 (ix2 (0 : Fin 1) j)) (x2 (ix2 (0 : Fin 1) j)) (x3 (ix2 (0 : Fin 1) j)) (x4 (ix2 (0 : Fin 1) j)) := by
  unfold k6_pay1 bnLreluAt
  simp only [shapeCast_self, select_apply, cmpf_apply, mulf_apply, addf_apply, divf_apply, subf_apply, broadcast_apply,
    broadcastTo_1b_ab_apply]
  rfl

/-! ## The windows' blocks as parts of their arrays -/

/-- The index maps over the grid: the activation's and the output's block at point `t` is row block `t`; the four
    rows' block is always the one block there is. -/
theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- The activation's block at point `t` is rows `4000 t … 4000 t + 3999` of its array. -/
theorem iblk6_0_apply (c : Dev nD) (t : Fin cfg6.N) (r : Fin 4000) (j : Fin 128) (k : S100000x128.Idx)
    (hk0 : (k 0).val = 4000 * t.val + r.val) (hk1 : (k 1).val = j.val) :
    (iblk6 V c 0 t : Vec Ideal S4000x128 .f32) (ix2 r j) = (V c (Pipeline.arrRef spec6 0) : S100000x128.Idx → EReal) k := by
  obtain ⟨e0, e1, -, -, -, -, -, -, -, -, -, -⟩ := idx6 t
  unfold iblk6
  rw [View.read_apply]
  show (V c (Pipeline.arrRef spec6 0) : S100000x128.Idx → EReal) _ = _
  refine congrArg _ (funext fun a => Fin.ext ?_)
  match a with
  | ⟨0, _⟩ => show win6_0.index t (0 : Fin 2) * 4000 + 1 * r.val = (k 0).val; rw [e0, hk0]; omega
  | ⟨1, _⟩ => show win6_0.index t (1 : Fin 2) * 128 + 1 * j.val = (k 1).val; rw [e1, hk1]; omega

/-! Each row window's block, at every point, is its whole one-row array. -/

theorem iblk6_1_apply (c : Dev nD) (t : Fin cfg6.N) (j : Fin 128) :
    (iblk6 V c 1 t : Vec Ideal S1x128 .f32) (ix2 (0 : Fin 1) j)
      = (V c (Pipeline.arrRef spec6 1) : S1x128.Idx → EReal) (ix2 (0 : Fin 1) j) := by
  obtain ⟨-, -, e0, e1, -, -, -, -, -, -, -, -⟩ := idx6 t
  unfold iblk6
  rw [View.read_apply]
  show (V c (Pipeline.arrRef spec6 1) : S1x128.Idx → EReal) _ = _
  refine congrArg _ (funext fun a => Fin.ext ?_)
  match a with
  | ⟨0, _⟩ => show win6_1.index t (0 : Fin 2) * 1 + 1 * 0 = 0; rw [e0]
  | ⟨1, _⟩ => show win6_1.index t (1 : Fin 2) * 128 + 1 * j.val = j.val; rw [e1]; omega

theorem iblk6_2_apply (c : Dev nD) (t : Fin cfg6.N) (j : Fin 128) :
    (iblk6 V c 2 t : Vec Ideal S1x128 .f32) (ix2 (0 : Fin 1) j)
      = (V c (Pipeline.arrRef spec6 2) : S1x128.Idx → EReal) (ix2 (0 : Fin 1) j) := by
  obtain ⟨-, -, -, -, e0, e1, -, -, -, -, -, -⟩ := idx6 t
  unfold iblk6
  rw [View.read_apply]
  show (V c (Pipeline.arrRef spec6 2) : S1x128.Idx → EReal) _ = _
  refine congrArg _ (funext fun a => Fin.ext ?_)
  match a with
  | ⟨0, _⟩ => show win6_2.index t (0 : Fin 2) * 1 + 1 * 0 = 0; rw [e0]
  | ⟨1, _⟩ => show win6_2.index t (1 : Fin 2) * 128 + 1 * j.val = j.val; rw [e1]; omega

theorem iblk6_3_apply (c : Dev nD) (t : Fin cfg6.N) (j : Fin 128) :
    (iblk6 V c 3 t : Vec Ideal S1x128 .f32) (ix2 (0 : Fin 1) j)
      = (V c (Pipeline.arrRef spec6 3) : S1x128.Idx → EReal) (ix2 (0 : Fin 1) j) := by
  obtain ⟨-, -, -, -, -, -, e0, e1, -, -, -, -⟩ := idx6 t
  unfold iblk6
  rw [View.read_apply]
  show (V c (Pipeline.arrRef spec6 3) : S1x128.Idx → EReal) _ = _
  refine congrArg _ (funext fun a => Fin.ext ?_)
  match a with
  | ⟨0, _⟩ => show win6_3.index t (0 : Fin 2) * 1 + 1 * 0 = 0; rw [e0]
  | ⟨1, _⟩ => show win6_3.index t (1 : Fin 2) * 128 + 1 * j.val = j.val; rw [e1]; omega

theorem iblk6_4_apply (c : Dev nD) (t : Fin cfg6.N) (j : Fin 128) :
    (iblk6 V c 4 t : Vec Ideal S1x128 .f32) (ix2 (0 : Fin 1) j)
      = (V c (Pipeline.arrRef spec6 4) : S1x128.Idx → EReal) (ix2 (0 : Fin 1) j) := by
  obtain ⟨-, -, -, -, -, -, -, -, e0, e1, -, -⟩ := idx6 t
  unfold iblk6
  rw [View.read_apply]
  show (V c (Pipeline.arrRef spec6 4) : S1x128.Idx → EReal) _ = _
  refine congrArg _ (funext fun a => Fin.ext ?_)
  match a with
  | ⟨0, _⟩ => show win6_4.index t (0 : Fin 2) * 1 + 1 * 0 = 0; rw [e0]
  | ⟨1, _⟩ => show win6_4.index t (1 : Fin 2) * 128 + 1 * j.val = j.val; rw [e1]; omega

/-! ## The output array -/

/-- What the output array ends holding: `bnArr` of the five input arrays as the region finds them. -/
def G6 (c : Dev nD) : S100000x128.Idx → EReal :=
  bnArr (V c (Pipeline.arrRef spec6 0)) (V c (Pipeline.arrRef spec6 1)) (V c (Pipeline.arrRef spec6 2))
    (V c (Pipeline.arrRef spec6 3)) (V c (Pipeline.arrRef spec6 4))

/-- The payload over the blocks at point `t`, at row `r` and column `j`, is `G6` at the array index `k` that the
    output's block puts there (row `4000 t + r`, column `j`). -/
theorem pay6_blocks (c : Dev nD) (t : Fin cfg6.N) (r : Fin 4000) (j : Fin 128) (k : S100000x128.Idx)
    (hk0 : (k 0).val = 4000 * t.val + r.val) (hk1 : (k 1).val = j.val) :
    k6_pay1 (iblk6 V c 0 t) (iblk6 V c 1 t) (iblk6 V c 2 t) (iblk6 V c 3 t) (iblk6 V c 4 t) (ix2 r j) = G6 V c k := by
  refine (pay6_apply (iblk6 V c 0 t) (iblk6 V c 1 t) (iblk6 V c 2 t) (iblk6 V c 3 t) (iblk6 V c 4 t) r j).trans ?_
  have hkj : k 1 = j := Fin.ext hk1
  unfold G6 bnArr
  rw [iblk6_0_apply V c t r j k hk0 hk1, iblk6_1_apply V c t j, iblk6_2_apply V c t j, iblk6_3_apply V c t j,
    iblk6_4_apply V c t j, hkj]

/-- What point `t` writes back is block `t` of `G6`. -/
theorem flushed6_eq (c : Dev nD) (t : Fin cfg6.N) :
    (dat6 V c).flushed 5 t = ((cfg6.win 5).blk t).view.read (Elt Ideal) (G6 V c) := by
  show (cfg6.win 5).cut (grid6.coords t) ((dat6 V c).after 5 t) = _
  rw [after6_5]
  unfold out6_5
  rw [View.canon_unit_zero hz2]
  simp only [View.ld_unit_zero (S := S4000x128) hz2, View.ld_unit_zero (S := S1x128) hz2]
  obtain ⟨-, -, -, -, -, -, -, -, -, -, e0, e1⟩ := idx6 t
  funext (y : S4000x128.Idx)
  obtain ⟨r, j, rfl⟩ : ∃ (r : Fin 4000) (j : Fin 128), y = ix2 r j := ⟨y 0, y 1, eq_ix2 y⟩
  show k6_pay1 (iblk6 V c 0 t) (iblk6 V c 1 t) (iblk6 V c 2 t) (iblk6 V c 3 t) (iblk6 V c 4 t) (ix2 r j) = G6 V c (((cfg6.win 5).blk t).view.emb (ix2 r j))
  refine pay6_blocks V c t r j _ ?_ ?_
  · show win6_5.index t (0 : Fin 2) * 4000 + 1 * r.val = 4000 * t.val + r.val; rw [e0]; omega
  · show win6_5.index t (1 : Fin 2) * 128 + 1 * j.val = j.val; rw [e1]; omega

/-- An index of the output array is in point `t`'s block iff each coordinate is in the block's range on its axis. -/
theorem mem_blk6 (t : Fin cfg6.N) (i : S100000x128.Idx) :
    i ∈ ((cfg6.win 5).blk t).view.set ↔ ∀ a : Fin 2, win6_5.index t a * S4000x128.size a ≤ (i a).val ∧ (i a).val < win6_5.index t a * S4000x128.size a + S4000x128.size a := by
  show i ∈ ((View.whole main_v148).slice (win6_5.rect t)).set ↔ _
  rw [View.set_slice_whole, Rect.mem_set_unit]
  exact Iff.rfl

/-- Every index of the output array is in some point's block: row `i` is in row block `i / 4000`. -/
theorem cover6 (i : S100000x128.Idx) :
    ∃ t : Fin cfg6.N, (cfg6.win 5).flush t = true ∧ i ∈ ((cfg6.win 5).blk t).view.set := by
  have hi0 : (i 0).val < 100000 := (i 0).isLt
  have hi1 : (i 1).val < 128 := (i 1).isLt
  have hN : cfg6.N = 25 := N_6
  obtain ⟨t, ht⟩ : ∃ t : Fin cfg6.N, t.val = (i 0).val / 4000 := ⟨⟨(i 0).val / 4000, by rw [hN]; omega⟩, rfl⟩
  obtain ⟨-, -, -, -, -, -, -, -, -, -, e0, e1⟩ := idx6 t
  refine ⟨t, flush6_5 t, ?_⟩
  rw [mem_blk6]
  intro a
  match a with
  | ⟨0, _⟩ => show win6_5.index t (0 : Fin 2) * 4000 ≤ (i 0).val ∧ (i 0).val < win6_5.index t (0 : Fin 2) * 4000 + 4000; rw [e0, ht]; omega
  | ⟨1, _⟩ => show win6_5.index t (1 : Fin 2) * 128 ≤ (i 1).val ∧ (i 1).val < win6_5.index t (1 : Fin 2) * 128 + 128; rw [e1]; omega

/-- The output array after the region is `G6`. -/
theorem final6 (c : Dev nD) : (dat6 V c).arrAt 5 cfg6.N = G6 V c :=
  (dat6 V c).arrAt_eq_of_cover 5 (G6 V c) (fun t _ => flushed6_eq V c t) (cover6)

/-! ## Against the reference's stage -/

/-- The region's output array is the reference's normalise-and-leaky-relu stage of the activations `x` the region
    finds (real-valued) with scale `g` and shift `b`, when the four row windows' arrays are `g` and `b` as one-row
    arrays and the mean and variance the host program computes from the column sums `s` and sums of squares `q` of `x`. -/
theorem bn6 (c : Dev nD) (x : S100000x128.Idx → EReal) (g b : KTen Ideal S128 .f32) (s q : KTen Ideal S1x128 .f32)
    (hxV : V c main_v123_0 = x) (hx : Cert.RealValued.IsReal x) (hg : V c main_v146 = kRow g) (hb : V c main_v147 = kRow b)
    (hm : V c main_v131 = kMean s) (hv : V c main_v137 = kVar s q)
    (hs : ∀ j : Fin 128, s (ix2 (0 : Fin 1) j) = ∑ i : Fin 100000, x (ix2 i j))
    (hq : ∀ j : Fin 128, q (ix2 (0 : Fin 1) j) = ∑ i : Fin 100000, x (ix2 i j) * x (ix2 i j)) :
    (dat6 V c).arrAt 5 cfg6.N = Cert.ReferenceIdeal.RefRun.refBN (F := Ideal) x g b := by
  rw [final6]
  show bnArr (V c main_v123_0) (V c main_v146) (V c main_v147) (V c main_v131) (V c main_v137) = _
  rw [hxV, hg, hb, hm, hv]
  exact (refBN_eq x hx g b s q hs hq).symm

end Cert.KernelIdeal.Hand

end
-- ==== Proof.KI.Value7.lean ====
import proofs.«154353_j88940182765819_1_alg».proof.Proof.KI.Region7
import proofs.«154353_j88940182765819_1_alg».proof.Proof.KI.ValueCommon
import proofs.«154353_j88940182765819_1_alg».proof.Proof.KI.BnRead
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Bridge

variable (V : (c : Dev nD) → (b : Ref sig .tc) → Buf (Elt Ideal) ((c : Thread nD τ).loc b))

/-! # Region 7 at the ideal values: the output array, element by element

The output array after the region is, at row `i` and column `j`, the normalise-and-leaky-relu arithmetic
(`bnLreluAt`) of the activation at `(i, j)` and of the four rows at column `j`. -/

/-! ## The body's payload at an element -/

/-- The payload at row `r`, column `j` of the block: the arithmetic of the block's element there and of the four
    rows' elements at column `j` (a row broadcast down the block reads its one row). -/
theorem pay7_apply (x0 : Vec Ideal S4000x128 .f32) (x1 x2 x3 x4 : Vec Ideal S1x128 .f32) (r : Fin 4000) (j : Fin 128) :
    k7_pay1 x0 x1 x2 x3 x4 (ix2 r j)
      = bnLreluAt (x0 (ix2 r j)) (x1 (ix2 (0 : Fin 1) j)) (x2 (ix2 (0 : Fin 1) j)) (x3 (ix2 (0 : Fin 1) j)) (x4 (ix2 (0 : Fin 1) j)) := by
  unfold k7_pay1 bnLreluAt
  simp only [shapeCast_self, select_apply, cmpf_apply, mulf_apply, addf_apply, divf_apply, subf_apply, broadcast_apply,
    broadcastTo_1b_ab_apply]
  rfl

/-! ## The windows' blocks as parts of their arrays -/

/-- The index maps over the grid: the activation's and the output's block at point `t` is row block `t`; the four
    rows' block is always the one block there is. -/
theorem idx7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- The activation's block at point `t` is rows `4000 t … 4000 t + 3999` of its array. -/
theorem iblk7_0_apply (c : Dev nD) (t : Fin cfg7.N) (r : Fin 4000) (j : Fin 128) (k : S100000x128.Idx)
    (hk0 : (k 0).val = 4000 * t.val + r.val) (hk1 : (k 1).val = j.val) :
    (iblk7 V c 0 t : Vec Ideal S4000x128 .f32) (ix2 r j) = (V c (Pipeline.arrRef spec7 0) : S100000x128.Idx → EReal) k := by
  obtain ⟨e0, e1, -, -, -, -, -, -, -, -, -, -⟩ := idx7 t
  unfold iblk7
  rw [View.read_apply]
  show (V c (Pipeline.arrRef spec7 0) : S100000x128.Idx → EReal) _ = _
  refine congrArg _ (funext fun a => Fin.ext ?_)
  match a with
  | ⟨0, _⟩ => show win7_0.index t (0 : Fin 2) * 4000 + 1 * r.val = (k 0).val; rw [e0, hk0]; omega
  | ⟨1, _⟩ => show win7_0.index t (1 : Fin 2) * 128 + 1 * j.val = (k 1).val; rw [e1, hk1]; omega

/-! Each row window's block, at every point, is its whole one-row array. -/

theorem iblk7_1_apply (c : Dev nD) (t : Fin cfg7.N) (j : Fin 128) :
    (iblk7 V c 1 t : Vec Ideal S1x128 .f32) (ix2 (0 : Fin 1) j)
      = (V c (Pipeline.arrRef spec7 1) : S1x128.Idx → EReal) (ix2 (0 : Fin 1) j) := by
  obtain ⟨-, -, e0, e1, -, -, -, -, -, -, -, -⟩ := idx7 t
  unfold iblk7
  rw [View.read_apply]
  show (V c (Pipeline.arrRef spec7 1) : S1x128.Idx → EReal) _ = _
  refine congrArg _ (funext fun a => Fin.ext ?_)
  match a with
  | ⟨0, _⟩ => show win7_1.index t (0 : Fin 2) * 1 + 1 * 0 = 0; rw [e0]
  | ⟨1, _⟩ => show win7_1.index t (1 : Fin 2) * 128 + 1 * j.val = j.val; rw [e1]; omega

theorem iblk7_2_apply (c : Dev nD) (t : Fin cfg7.N) (j : Fin 128) :
    (iblk7 V c 2 t : Vec Ideal S1x128 .f32) (ix2 (0 : Fin 1) j)
      = (V c (Pipeline.arrRef spec7 2) : S1x128.Idx → EReal) (ix2 (0 : Fin 1) j) := by
  obtain ⟨-, -, -, -, e0, e1, -, -, -, -, -, -⟩ := idx7 t
  unfold iblk7
  rw [View.read_apply]
  show (V c (Pipeline.arrRef spec7 2) : S1x128.Idx → EReal) _ = _
  refine congrArg _ (funext fun a => Fin.ext ?_)
  match a with
  | ⟨0, _⟩ => show win7_2.index t (0 : Fin 2) * 1 + 1 * 0 = 0; rw [e0]
  | ⟨1, _⟩ => show win7_2.index t (1 : Fin 2) * 128 + 1 * j.val = j.val; rw [e1]; omega

theorem iblk7_3_apply (c : Dev nD) (t : Fin cfg7.N) (j : Fin 128) :
    (iblk7 V c 3 t : Vec Ideal S1x128 .f32) (ix2 (0 : Fin 1) j)
      = (V c (Pipeline.arrRef spec7 3) : S1x128.Idx → EReal) (ix2 (0 : Fin 1) j) := by
  obtain ⟨-, -, -, -, -, -, e0, e1, -, -, -, -⟩ := idx7 t
  unfold iblk7
  rw [View.read_apply]
  show (V c (Pipeline.arrRef spec7 3) : S1x128.Idx → EReal) _ = _
  refine congrArg _ (funext fun a => Fin.ext ?_)
  match a with
  | ⟨0, _⟩ => show win7_3.index t (0 : Fin 2) * 1 + 1 * 0 = 0; rw [e0]
  | ⟨1, _⟩ => show win7_3.index t (1 : Fin 2) * 128 + 1 * j.val = j.val; rw [e1]; omega

theorem iblk7_4_apply (c : Dev nD) (t : Fin cfg7.N) (j : Fin 128) :
    (iblk7 V c 4 t : Vec Ideal S1x128 .f32) (ix2 (0 : Fin 1) j)
      = (V c (Pipeline.arrRef spec7 4) : S1x128.Idx → EReal) (ix2 (0 : Fin 1) j) := by
  obtain ⟨-, -, -, -, -, -, -, -, e0, e1, -, -⟩ := idx7 t
  unfold iblk7
  rw [View.read_apply]
  show (V c (Pipeline.arrRef spec7 4) : S1x128.Idx → EReal) _ = _
  refine congrArg _ (funext fun a => Fin.ext ?_)
  match a with
  | ⟨0, _⟩ => show win7_4.index t (0 : Fin 2) * 1 + 1 * 0 = 0; rw [e0]
  | ⟨1, _⟩ => show win7_4.index t (1 : Fin 2) * 128 + 1 * j.val = j.val; rw [e1]; omega

/-! ## The output array -/

/-- What the output array ends holding: `bnArr` of the five input arrays as the region finds them. -/
def G7 (c : Dev nD) : S100000x128.Idx → EReal :=
  bnArr (V c (Pipeline.arrRef spec7 0)) (V c (Pipeline.arrRef spec7 1)) (V c (Pipeline.arrRef spec7 2))
    (V c (Pipeline.arrRef spec7 3)) (V c (Pipeline.arrRef spec7 4))

/-- The payload over the blocks at point `t`, at row `r` and column `j`, is `G7` at the array index `k` that the
    output's block puts there (row `4000 t + r`, column `j`). -/
theorem pay7_blocks (c : Dev nD) (t : Fin cfg7.N) (r : Fin 4000) (j : Fin 128) (k : S100000x128.Idx)
    (hk0 : (k 0).val = 4000 * t.val + r.val) (hk1 : (k 1).val = j.val) :
    k7_pay1 (iblk7 V c 0 t) (iblk7 V c 1 t) (iblk7 V c 2 t) (iblk7 V c 3 t) (iblk7 V c 4 t) (ix2 r j) = G7 V c k := by
  refine (pay7_apply (iblk7 V c 0 t) (iblk7 V c 1 t) (iblk7 V c 2 t) (iblk7 V c 3 t) (iblk7 V c 4 t) r j).trans ?_
  have hkj : k 1 = j := Fin.ext hk1
  unfold G7 bnArr
  rw [iblk7_0_apply V c t r j k hk0 hk1, iblk7_1_apply V c t j, iblk7_2_apply V c t j, iblk7_3_apply V c t j,
    iblk7_4_apply V c t j, hkj]

/-- What point `t` writes back is block `t` of `G7`. -/
theorem flushed7_eq (c : Dev nD) (t : Fin cfg7.N) :
    (dat7 V c).flushed 5 t = ((cfg7.win 5).blk t).view.read (Elt Ideal) (G7 V c) := by
  show (cfg7.win 5).cut (grid7.coords t) ((dat7 V c).after 5 t) = _
  rw [after7_5]
  unfold out7_5
  rw [View.canon_unit_zero hz2]
  simp only [View.ld_unit_zero (S := S4000x128) hz2, View.ld_unit_zero (S := S1x128) hz2]
  obtain ⟨-, -, -, -, -, -, -, -, -, -, e0, e1⟩ := idx7 t
  funext (y : S4000x128.Idx)
  obtain ⟨r, j, rfl⟩ : ∃ (r : Fin 4000) (j : Fin 128), y = ix2 r j := ⟨y 0, y 1, eq_ix2 y⟩
  show k7_pay1 (iblk7 V c 0 t) (iblk7 V c 1 t) (iblk7 V c 2 t) (iblk7 V c 3 t) (iblk7 V c 4 t) (ix2 r j) = G7 V c (((cfg7.win 5).blk t).view.emb (ix2 r j))
  refine pay7_blocks V c t r j _ ?_ ?_
  · show win7_5.index t (0 : Fin 2) * 4000 + 1 * r.val = 4000 * t.val + r.val; rw [e0]; omega
  · show win7_5.index t (1 : Fin 2) * 128 + 1 * j.val = j.val; rw [e1]; omega

/-- An index of the output array is in point `t`'s block iff each coordinate is in the block's range on its axis. -/
theorem mem_blk7 (t : Fin cfg7.N) (i : S100000x128.Idx) :
    i ∈ ((cfg7.win 5).blk t).view.set ↔ ∀ a : Fin 2, win7_5.index t a * S4000x128.size a ≤ (i a).val ∧ (i a).val < win7_5.index t a * S4000x128.size a + S4000x128.size a := by
  show i ∈ ((View.whole main_v151).slice (win7_5.rect t)).set ↔ _
  rw [View.set_slice_whole, Rect.mem_set_unit]
  exact Iff.rfl

/-- Every index of the output array is in some point's block: row `i` is in row block `i / 4000`. -/
theorem cover7 (i : S100000x128.Idx) :
    ∃ t : Fin cfg7.N, (cfg7.win 5).flush t = true ∧ i ∈ ((cfg7.win 5).blk t).view.set := by
  have hi0 : (i 0).val < 100000 := (i 0).isLt
  have hi1 : (i 1).val < 128 := (i 1).isLt
  have hN : cfg7.N = 25 := N_7
  obtain ⟨t, ht⟩ : ∃ t : Fin cfg7.N, t.val = (i 0).val / 4000 := ⟨⟨(i 0).val / 4000, by rw [hN]; omega⟩, rfl⟩
  obtain ⟨-, -, -, -, -, -, -, -, -, -, e0, e1⟩ := idx7 t
  refine ⟨t, flush7_5 t, ?_⟩
  rw [mem_blk7]
  intro a
  match a with
  | ⟨0, _⟩ => show win7_5.index t (0 : Fin 2) * 4000 ≤ (i 0).val ∧ (i 0).val < win7_5.index t (0 : Fin 2) * 4000 + 4000; rw [e0, ht]; omega
  | ⟨1, _⟩ => show win7_5.index t (1 : Fin 2) * 128 ≤ (i 1).val ∧ (i 1).val < win7_5.index t (1 : Fin 2) * 128 + 128; rw [e1]; omega

/-- The output array after the region is `G7`. -/
theorem final7 (c : Dev nD) : (dat7 V c).arrAt 5 cfg7.N = G7 V c :=
  (dat7 V c).arrAt_eq_of_cover 5 (G7 V c) (fun t _ => flushed7_eq V c t) (cover7)

/-! ## Against the reference's stage -/

/-- The region's output array is the reference's normalise-and-leaky-relu stage of the activations `x` the region
    finds (real-valued) with scale `g` and shift `b`, when the four row windows' arrays are `g` and `b` as one-row
    arrays and the mean and variance the host program computes from the column sums `s` and sums of squares `q` of `x`. -/
theorem bn7 (c : Dev nD) (x : S100000x128.Idx → EReal) (g b : KTen Ideal S128 .f32) (s q : KTen Ideal S1x128 .f32)
    (hxV : V c main_v129_0 = x) (hx : Cert.RealValued.IsReal x) (hg : V c main_v149 = kRow g) (hb : V c main_v150 = kRow b)
    (hm : V c main_v139 = kMean s) (hv : V c main_v145 = kVar s q)
    (hs : ∀ j : Fin 128, s (ix2 (0 : Fin 1) j) = ∑ i : Fin 100000, x (ix2 i j))
    (hq : ∀ j : Fin 128, q (ix2 (0 : Fin 1) j) = ∑ i : Fin 100000, x (ix2 i j) * x (ix2 i j)) :
    (dat7 V c).arrAt 5 cfg7.N = Cert.ReferenceIdeal.RefRun.refBN (F := Ideal) x g b := by
  rw [final7]
  show bnArr (V c main_v129_0) (V c main_v149) (V c main_v150) (V c main_v139) (V c main_v145) = _
  rw [hxV, hg, hb, hm, hv]
  exact (refBN_eq x hx g b s q hs hq).symm

end Cert.KernelIdeal.Hand

end
-- ==== Proof.KI.HeadRead.lean ====
import proofs.«154353_j88940182765819_1_alg».proof.Proof.Ref.Stages
import proofs.«154353_j88940182765819_1_alg».proof.Proof.Gen.ReferenceIdeal
import proofs.«154353_j88940182765819_1_alg».proof.Proof.Gen.KernelIdeal
import proofs.«154353_j88940182765819_1_alg».proof.Proof.Math.KStages
import proofs.«154353_j88940182765819_1_alg».proof.Proof.KI.ValueCommon
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

set_option maxRecDepth 16384

noncomputable section

namespace Cert.KernelIdeal.Hand

open Cert.Bridge
open Idealize.ShloMosaic Idealize.ShloMosaic.ValueIdx

/-! # The reference's two heads read against the kernel's closed form, at the ideal values

The reference computes `x @ w + b` with the bias broadcast along the rows; the kernel's closed form (`headArr`) is
the same sum of products plus the bias read off its one-row reshape. -/

/-! ## 4 labels -/

/-- The bias vector as a one-row array, read at column `j`: the reshape keeps the entry. -/
theorem kRow4_at (b : KTen Ideal Cert.KernelIdeal.S4 .f32) (j : Fin 4) : kRow4 b (ix2 (0 : Fin 1) j) = b (ix1 j) := by
  unfold kRow4
  exact shapeCast_apply b _ (ix2 (0 : Fin 1) j) (ix1 j) (by
    rw [Shape.rowMajor_val_two, Shape.rowMajor_val_one]; show j.val = 0 * 4 + j.val; omega)

/-- The reference's product of the activations by the weights, read at row `r`, column `j`: the sum over the
    contracted coordinate of the entries' products. -/
theorem refDot4_apply (x : FVec Ideal ⟨2, ![100000, 128]⟩ .f32) (w : FVec Ideal ⟨2, ![128, 4]⟩ .f32)
    (r : Fin 100000) (j : Fin 4) :
    Host.dotGeneral (F := Ideal) Cert.ReferenceIdeal.dot_S100000x128_S128x4_S100000x4_1_0_0_1_n_n none x w (ix2 r j) = ∑ k : Fin 128, x (ix2 r k) * w (ix2 k j) := by
  show FloatOps.dotGeneral _ none _ x w (ix2 r j) = _
  rw [Ideal.dotGeneral_apply, ← Equiv.sum_comp (contrEquiv1 Cert.ReferenceIdeal.dot_S100000x128_S128x4_S100000x4_1_0_0_1_n_n 128 rfl rfl).symm]
  refine Finset.sum_congr rfl fun k _ => ?_
  have c2 := contrEquiv1_symm_val Cert.ReferenceIdeal.dot_S100000x128_S128x4_S100000x4_1_0_0_1_n_n 128 rfl rfl k
  have l2 : (Cert.ReferenceIdeal.dot_S100000x128_S128x4_S100000x4_1_0_0_1_n_n).lhsIdx (ix2 r j) ((contrEquiv1 _ 128 rfl rfl).symm k) = ix2 r k := by
    funext ax; apply Fin.ext
    match ax with
    | ⟨0, _⟩ => simp [DotDims.lhsIdx, Cert.ReferenceIdeal.dot_S100000x128_S128x4_S100000x4_1_0_0_1_n_n]; rfl
    | ⟨1, _⟩ => simp [DotDims.lhsIdx, Cert.ReferenceIdeal.dot_S100000x128_S128x4_S100000x4_1_0_0_1_n_n]; exact c2
  have r2 : (Cert.ReferenceIdeal.dot_S100000x128_S128x4_S100000x4_1_0_0_1_n_n).rhsIdx (ix2 r j) ((contrEquiv1 _ 128 rfl rfl).symm k) = ix2 k j := by
    funext ax; apply Fin.ext
    match ax with
    | ⟨0, _⟩ => simp [DotDims.rhsIdx, Cert.ReferenceIdeal.dot_S100000x128_S128x4_S100000x4_1_0_0_1_n_n]; exact c2
    | ⟨1, _⟩ => simp [DotDims.rhsIdx, Cert.ReferenceIdeal.dot_S100000x128_S128x4_S100000x4_1_0_0_1_n_n]; rfl
  rw [l2, r2]

/-- The reference's bias, broadcast to one row and then down the rows, read at row `r`, column `j`, is the bias at `j`. -/
theorem refBias4_apply (b : FVec Ideal ⟨1, ![4]⟩ .f32) (r : Fin 100000) (j : Fin 4) :
    broadcastInDim Cert.ReferenceIdeal.S100000x4 ![0, 1] Cert.ReferenceIdeal.Facts₀.bcast_S1x4_S100000x4_0_1
      (broadcastInDim Cert.ReferenceIdeal.S1x4 ![1] Cert.ReferenceIdeal.Facts₀.bcast_S4_S1x4_1 b) (ix2 r j) = b (ix1 j) := by
  rw [broadcastInDim_oneRow_apply]
  refine broadcastInDim_apply ![1] _ b (ix2 (0 : Fin 1) j) (ix1 j) fun a => ?_
  match a with
  | ⟨0, _⟩ =>
    show j.val = if (4 : ℕ) = 1 then 0 else j.val
    split
    · omega
    · rfl

/-- The reference's head over plain arrays is the kernel's closed form over the same activations and weights and the
    bias as a one-row array. -/
theorem refHeadA_eq (x : FVec Ideal ⟨2, ![100000, 128]⟩ .f32) (w : FVec Ideal ⟨2, ![128, 4]⟩ .f32)
    (b : KTen Ideal Cert.KernelIdeal.S4 .f32) :
    Cert.ReferenceIdeal.RefRun.refHeadA (F := Ideal) x w b = headArr (n := 4) x w (kRow4 b) := by
  funext i
  obtain ⟨r, j, rfl⟩ : ∃ (r : Fin 100000) (j : Fin 4), i = ix2 r j := ⟨i 0, i 1, eq_ix2 i⟩
  unfold headArr
  show Host.dotGeneral (F := Ideal) Cert.ReferenceIdeal.dot_S100000x128_S128x4_S100000x4_1_0_0_1_n_n none x w (ix2 r j)
      + broadcastInDim Cert.ReferenceIdeal.S100000x4 ![0, 1] Cert.ReferenceIdeal.Facts₀.bcast_S1x4_S100000x4_0_1
          (broadcastInDim Cert.ReferenceIdeal.S1x4 ![1] Cert.ReferenceIdeal.Facts₀.bcast_S4_S1x4_1 b) (ix2 r j) = _
  rw [refDot4_apply x w r j, refBias4_apply b r j, kRow4_at b j]

/-! ## 7 labels -/

/-- The bias vector as a one-row array, read at column `j`: the reshape keeps the entry. -/
theorem kRow7_at (b : KTen Ideal Cert.KernelIdeal.S7 .f32) (j : Fin 7) : kRow7 b (ix2 (0 : Fin 1) j) = b (ix1 j) := by
  unfold kRow7
  exact shapeCast_apply b _ (ix2 (0 : Fin 1) j) (ix1 j) (by
    rw [Shape.rowMajor_val_two, Shape.rowMajor_val_one]; show j.val = 0 * 7 + j.val; omega)

/-- The reference's product of the activations by the weights, read at row `r`, column `j`: the sum over the
    contracted coordinate of the entries' products. -/
theorem refDot7_apply (x : FVec Ideal ⟨2, ![100000, 128]⟩ .f32) (w : FVec Ideal ⟨2, ![128, 7]⟩ .f32)
    (r : Fin 100000) (j : Fin 7) :
    Host.dotGeneral (F := Ideal) Cert.ReferenceIdeal.dot_S100000x128_S128x7_S100000x7_1_0_0_1_n_n none x w (ix2 r j) = ∑ k : Fin 128, x (ix2 r k) * w (ix2 k j) := by
  show FloatOps.dotGeneral _ none _ x w (ix2 r j) = _
  rw [Ideal.dotGeneral_apply, ← Equiv.sum_comp (contrEquiv1 Cert.ReferenceIdeal.dot_S100000x128_S128x7_S100000x7_1_0_0_1_n_n 128 rfl rfl).symm]
  refine Finset.sum_congr rfl fun k _ => ?_
  have c2 := contrEquiv1_symm_val Cert.ReferenceIdeal.dot_S100000x128_S128x7_S100000x7_1_0_0_1_n_n 128 rfl rfl k
  have l2 : (Cert.ReferenceIdeal.dot_S100000x128_S128x7_S100000x7_1_0_0_1_n_n).lhsIdx (ix2 r j) ((contrEquiv1 _ 128 rfl rfl).symm k) = ix2 r k := by
    funext ax; apply Fin.ext
    match ax with
    | ⟨0, _⟩ => simp [DotDims.lhsIdx, Cert.ReferenceIdeal.dot_S100000x128_S128x7_S100000x7_1_0_0_1_n_n]; rfl
    | ⟨1, _⟩ => simp [DotDims.lhsIdx, Cert.ReferenceIdeal.dot_S100000x128_S128x7_S100000x7_1_0_0_1_n_n]; exact c2
  have r2 : (Cert.ReferenceIdeal.dot_S100000x128_S128x7_S100000x7_1_0_0_1_n_n).rhsIdx (ix2 r j) ((contrEquiv1 _ 128 rfl rfl).symm k) = ix2 k j := by
    funext ax; apply Fin.ext
    match ax with
    | ⟨0, _⟩ => simp [DotDims.rhsIdx, Cert.ReferenceIdeal.dot_S100000x128_S128x7_S100000x7_1_0_0_1_n_n]; exact c2
    | ⟨1, _⟩ => simp [DotDims.rhsIdx, Cert.ReferenceIdeal.dot_S100000x128_S128x7_S100000x7_1_0_0_1_n_n]; rfl
  rw [l2, r2]

/-- The reference's bias, broadcast to one row and then down the rows, read at row `r`, column `j`, is the bias at `j`. -/
theorem refBias7_apply (b : FVec Ideal ⟨1, ![7]⟩ .f32) (r : Fin 100000) (j : Fin 7) :
    broadcastInDim Cert.ReferenceIdeal.S100000x7 ![0, 1] Cert.ReferenceIdeal.Facts₀.bcast_S1x7_S100000x7_0_1
      (broadcastInDim Cert.ReferenceIdeal.S1x7 ![1] Cert.ReferenceIdeal.Facts₀.bcast_S7_S1x7_1 b) (ix2 r j) = b (ix1 j) := by
  rw [broadcastInDim_oneRow_apply]
  refine broadcastInDim_apply ![1] _ b (ix2 (0 : Fin 1) j) (ix1 j) fun a => ?_
  match a with
  | ⟨0, _⟩ =>
    show j.val = if (7 : ℕ) = 1 then 0 else j.val
    split
    · omega
    · rfl

/-- The reference's head over plain arrays is the kernel's closed form over the same activations and weights and the
    bias as a one-row array. -/
theorem refHeadP_eq (x : FVec Ideal ⟨2, ![100000, 128]⟩ .f32) (w : FVec Ideal ⟨2, ![128, 7]⟩ .f32)
    (b : KTen Ideal Cert.KernelIdeal.S7 .f32) :
    Cert.ReferenceIdeal.RefRun.refHeadP (F := Ideal) x w b = headArr (n := 7) x w (kRow7 b) := by
  funext i
  obtain ⟨r, j, rfl⟩ : ∃ (r : Fin 100000) (j : Fin 7), i = ix2 r j := ⟨i 0, i 1, eq_ix2 i⟩
  unfold headArr
  show Host.dotGeneral (F := Ideal) Cert.ReferenceIdeal.dot_S100000x128_S128x7_S100000x7_1_0_0_1_n_n none x w (ix2 r j)
      + broadcastInDim Cert.ReferenceIdeal.S100000x7 ![0, 1] Cert.ReferenceIdeal.Facts₀.bcast_S1x7_S100000x7_0_1
          (broadcastInDim Cert.ReferenceIdeal.S1x7 ![1] Cert.ReferenceIdeal.Facts₀.bcast_S7_S1x7_1 b) (ix2 r j) = _
  rw [refDot7_apply x w r j, refBias7_apply b r j, kRow7_at b j]

end Cert.KernelIdeal.Hand

end
-- ==== Proof.KI.Value8.lean ====
import proofs.«154353_j88940182765819_1_alg».proof.Proof.KI.Region8
import proofs.«154353_j88940182765819_1_alg».proof.Proof.KI.ValueCommon
import proofs.«154353_j88940182765819_1_alg».proof.Proof.KI.HeadRead
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Bridge

variable (V : (c : Dev nD) → (b : Ref sig .tc) → Buf (Elt Ideal) ((c : Thread nD τ).loc b))

/-! # Region 8 at the ideal values: the output array, element by element

The output array after the region is, at row `i` and column `j`, the sum over `k` of the activation at `(i, k)`
times the weight at `(k, j)`, plus the bias at column `j`. (At the ideal values the rounding of the two factors to
bf16 on the way into the product is the identity, and the product has no accumulation order.) -/

/-! ## The body's payload at an element -/

/-- The payload at row `r`, column `j` of the block: row `r` of the block times column `j` of the weights, plus
    the bias at column `j`. -/
theorem pay8_apply (x0 : Vec Ideal S4000x128 .f32) (x1 : Vec Ideal S128x4 .f32) (x2 : Vec Ideal S1x4 .f32) (r : Fin 4000) (j : Fin 4) :
    k8_pay1 x0 x1 x2 (ix2 r j) = (∑ k : Fin 128, x0 (ix2 r k) * x1 (ix2 k j)) + x2 (ix2 (0 : Fin 1) j) := by
  unfold k8_pay1
  simp only [shapeCast_self, addf_apply, broadcastTo_1b_ab_apply, matmul]
  rw [Ideal.matmul_constant_zero_apply, ← Equiv.sum_comp (contrEquiv1 dot_S4000x128_S128x4_S4000x4_1_0_0_1_n_n 128 rfl rfl).symm]
  refine congrArg (· + x2 (ix2 (0 : Fin 1) j)) (Finset.sum_congr rfl fun k _ => ?_)
  have c2 := contrEquiv1_symm_val dot_S4000x128_S128x4_S4000x4_1_0_0_1_n_n 128 rfl rfl k
  have l2 : dot_S4000x128_S128x4_S4000x4_1_0_0_1_n_n.lhsIdx (ix2 r j) ((contrEquiv1 _ 128 rfl rfl).symm k) = ix2 r k := by
    funext ax; apply Fin.ext
    match ax with
    | ⟨0, _⟩ => simp [DotDims.lhsIdx, dot_S4000x128_S128x4_S4000x4_1_0_0_1_n_n]; rfl
    | ⟨1, _⟩ => simp [DotDims.lhsIdx, dot_S4000x128_S128x4_S4000x4_1_0_0_1_n_n]; exact c2
  have r2 : dot_S4000x128_S128x4_S4000x4_1_0_0_1_n_n.rhsIdx (ix2 r j) ((contrEquiv1 _ 128 rfl rfl).symm k) = ix2 k j := by
    funext ax; apply Fin.ext
    match ax with
    | ⟨0, _⟩ => simp [DotDims.rhsIdx, dot_S4000x128_S128x4_S4000x4_1_0_0_1_n_n]; exact c2
    | ⟨1, _⟩ => simp [DotDims.rhsIdx, dot_S4000x128_S128x4_S4000x4_1_0_0_1_n_n]; rfl
  show x0 (dot_S4000x128_S128x4_S4000x4_1_0_0_1_n_n.lhsIdx (ix2 r j) ((contrEquiv1 _ 128 rfl rfl).symm k)) * x1 (dot_S4000x128_S128x4_S4000x4_1_0_0_1_n_n.rhsIdx (ix2 r j) ((contrEquiv1 _ 128 rfl rfl).symm k)) = _
  rw [l2, r2]

/-! ## The windows' blocks as parts of their arrays -/

/-- The index maps over the grid: the activation's and the output's block at point `t` is row block `t`; the
    weights' and the bias's block is always the one block there is. -/
theorem idx8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- The activation's block at point `t` is rows `4000 t … 4000 t + 3999` of its array. -/
theorem iblk8_0_apply (c : Dev nD) (t : Fin cfg8.N) (r : Fin 4000) (j : Fin 128) (k : S100000x128.Idx)
    (hk0 : (k 0).val = 4000 * t.val + r.val) (hk1 : (k 1).val = j.val) :
    (iblk8 V c 0 t : Vec Ideal S4000x128 .f32) (ix2 r j) = (V c (Pipeline.arrRef spec8 0) : S100000x128.Idx → EReal) k := by
  obtain ⟨e0, e1, -, -, -, -, -, -⟩ := idx8 t
  unfold iblk8
  rw [View.read_apply]
  show (V c (Pipeline.arrRef spec8 0) : S100000x128.Idx → EReal) _ = _
  refine congrArg _ (funext fun a => Fin.ext ?_)
  match a with
  | ⟨0, _⟩ => show win8_0.index t (0 : Fin 2) * 4000 + 1 * r.val = (k 0).val; rw [e0, hk0]; omega
  | ⟨1, _⟩ => show win8_0.index t (1 : Fin 2) * 128 + 1 * j.val = (k 1).val; rw [e1, hk1]; omega

/-- The weights' block, at every point, is the whole weight matrix. -/
theorem iblk8_1_apply (c : Dev nD) (t : Fin cfg8.N) (k : Fin 128) (j : Fin 4) :
    (iblk8 V c 1 t : Vec Ideal S128x4 .f32) (ix2 k j) = (V c (Pipeline.arrRef spec8 1) : S128x4.Idx → EReal) (ix2 k j) := by
  obtain ⟨-, -, e0, e1, -, -, -, -⟩ := idx8 t
  unfold iblk8
  rw [View.read_apply]
  show (V c (Pipeline.arrRef spec8 1) : S128x4.Idx → EReal) _ = _
  refine congrArg _ (funext fun a => Fin.ext ?_)
  match a with
  | ⟨0, _⟩ => show win8_1.index t (0 : Fin 2) * 128 + 1 * k.val = k.val; rw [e0]; omega
  | ⟨1, _⟩ => show win8_1.index t (1 : Fin 2) * 4 + 1 * j.val = j.val; rw [e1]; omega

/-- The bias's block, at every point, is the whole bias row. -/
theorem iblk8_2_apply (c : Dev nD) (t : Fin cfg8.N) (j : Fin 4) :
    (iblk8 V c 2 t : Vec Ideal S1x4 .f32) (ix2 (0 : Fin 1) j) = (V c (Pipeline.arrRef spec8 2) : S1x4.Idx → EReal) (ix2 (0 : Fin 1) j) := by
  obtain ⟨-, -, -, -, e0, e1, -, -⟩ := idx8 t
  unfold iblk8
  rw [View.read_apply]
  show (V c (Pipeline.arrRef spec8 2) : S1x4.Idx → EReal) _ = _
  refine congrArg _ (funext fun a => Fin.ext ?_)
  match a with
  | ⟨0, _⟩ => show win8_2.index t (0 : Fin 2) * 1 + 1 * 0 = 0; rw [e0]
  | ⟨1, _⟩ => show win8_2.index t (1 : Fin 2) * 4 + 1 * j.val = j.val; rw [e1]; omega

/-! ## The output array -/

/-- What the output array ends holding: `headArr` of the three input arrays as the region finds them. -/
def G8 (c : Dev nD) : S100000x4.Idx → EReal :=
  headArr (n := 4) (V c (Pipeline.arrRef spec8 0)) (V c (Pipeline.arrRef spec8 1)) (V c (Pipeline.arrRef spec8 2))

/-- The payload over the blocks at point `t`, at row `r` and column `j`, is `G8` at the array index `k` that the
    output's block puts there (row `4000 t + r`, column `j`). -/
theorem pay8_blocks (c : Dev nD) (t : Fin cfg8.N) (r : Fin 4000) (j : Fin 4) (k : S100000x4.Idx)
    (hk0 : (k 0).val = 4000 * t.val + r.val) (hk1 : (k 1).val = j.val) :
    k8_pay1 (iblk8 V c 0 t) (iblk8 V c 1 t) (iblk8 V c 2 t) (ix2 r j) = G8 V c k := by
  refine (pay8_apply (iblk8 V c 0 t) (iblk8 V c 1 t) (iblk8 V c 2 t) r j).trans ?_
  have hkj : k 1 = j := Fin.ext hk1
  unfold G8 headArr
  rw [iblk8_2_apply V c t j, hkj]
  refine congrArg (· + _) (Finset.sum_congr rfl fun q _ => ?_)
  rw [iblk8_0_apply V c t r q (ix2 (k 0) q) hk0 rfl, iblk8_1_apply V c t q j]

/-- What point `t` writes back is block `t` of `G8`. -/
theorem flushed8_eq (c : Dev nD) (t : Fin cfg8.N) :
    (dat8 V c).flushed 3 t = ((cfg8.win 3).blk t).view.read (Elt Ideal) (G8 V c) := by
  show (cfg8.win 3).cut (grid8.coords t) ((dat8 V c).after 3 t) = _
  rw [after8_3]
  unfold out8_3
  rw [View.canon_unit_zero hz2]
  simp only [View.ld_unit_zero (S := S4000x128) hz2, View.ld_unit_zero (S := S128x4) hz2, View.ld_unit_zero (S := S1x4) hz2]
  obtain ⟨-, -, -, -, -, -, e0, e1⟩ := idx8 t
  funext (y : S4000x4.Idx)
  obtain ⟨r, j, rfl⟩ : ∃ (r : Fin 4000) (j : Fin 4), y = ix2 r j := ⟨y 0, y 1, eq_ix2 y⟩
  show k8_pay1 (iblk8 V c 0 t) (iblk8 V c 1 t) (iblk8 V c 2 t) (ix2 r j) = G8 V c (((cfg8.win 3).blk t).view.emb (ix2 r j))
  refine pay8_blocks V c t r j _ ?_ ?_
  · show win8_3.index t (0 : Fin 2) * 4000 + 1 * r.val = 4000 * t.val + r.val; rw [e0]; omega
  · show win8_3.index t (1 : Fin 2) * 4 + 1 * j.val = j.val; rw [e1]; omega

/-- An index of the output array is in point `t`'s block iff each coordinate is in the block's range on its axis. -/
theorem mem_blk8 (t : Fin cfg8.N) (i : S100000x4.Idx) :
    i ∈ ((cfg8.win 3).blk t).view.set ↔ ∀ a : Fin 2, win8_3.index t a * S4000x4.size a ≤ (i a).val ∧ (i a).val < win8_3.index t a * S4000x4.size a + S4000x4.size a := by
  show i ∈ ((View.whole main_v153).slice (win8_3.rect t)).set ↔ _
  rw [View.set_slice_whole, Rect.mem_set_unit]
  exact Iff.rfl

/-- Every index of the output array is in some point's block: row `i` is in row block `i / 4000`. -/
theorem cover8 (i : S100000x4.Idx) :
    ∃ t : Fin cfg8.N, (cfg8.win 3).flush t = true ∧ i ∈ ((cfg8.win 3).blk t).view.set := by
  have hi0 : (i 0).val < 100000 := (i 0).isLt
  have hi1 : (i 1).val < 4 := (i 1).isLt
  have hN : cfg8.N = 25 := N_8
  obtain ⟨t, ht⟩ : ∃ t : Fin cfg8.N, t.val = (i 0).val / 4000 := ⟨⟨(i 0).val / 4000, by rw [hN]; omega⟩, rfl⟩
  obtain ⟨-, -, -, -, -, -, e0, e1⟩ := idx8 t
  refine ⟨t, flush8_3 t, ?_⟩
  rw [mem_blk8]
  intro a
  match a with
  | ⟨0, _⟩ => show win8_3.index t (0 : Fin 2) * 4000 ≤ (i 0).val ∧ (i 0).val < win8_3.index t (0 : Fin 2) * 4000 + 4000; rw [e0, ht]; omega
  | ⟨1, _⟩ => show win8_3.index t (1 : Fin 2) * 4 ≤ (i 1).val ∧ (i 1).val < win8_3.index t (1 : Fin 2) * 4 + 4; rw [e1]; omega

/-- The output array after the region is `G8`. -/
theorem final8 (c : Dev nD) : (dat8 V c).arrAt 3 cfg8.N = G8 V c :=
  (dat8 V c).arrAt_eq_of_cover 3 (G8 V c) (fun t _ => flushed8_eq V c t) (cover8)

/-! ## Against the reference's head -/

/-- The region's output array is the reference's head of the activations and weights the region finds and of the
    bias vector `b`, when the bias window's array is `b` as a one-row array. -/
theorem head8 (c : Dev nD) (b : KTen Ideal S4 .f32) (hb : V c main_v152 = kRow4 b) :
    (dat8 V c).arrAt 3 cfg8.N = Cert.ReferenceIdeal.RefRun.refHeadA (F := Ideal) (V c main_v148) (V c main_arg36) b := by
  rw [final8]
  show headArr (n := 4) (V c main_v148) (V c main_arg36) (V c main_v152) = _
  rw [hb]
  exact (refHeadA_eq _ _ b).symm

end Cert.KernelIdeal.Hand

end
-- ==== Proof.KI.Value9.lean ====
import proofs.«154353_j88940182765819_1_alg».proof.Proof.KI.Region9
import proofs.«154353_j88940182765819_1_alg».proof.Proof.KI.ValueCommon
import proofs.«154353_j88940182765819_1_alg».proof.Proof.KI.HeadRead
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Bridge

variable (V : (c : Dev nD) → (b : Ref sig .tc) → Buf (Elt Ideal) ((c : Thread nD τ).loc b))

/-! # Region 9 at the ideal values: the output array, element by element

The output array after the region is, at row `i` and column `j`, the sum over `k` of the activation at `(i, k)`
times the weight at `(k, j)`, plus the bias at column `j`. (At the ideal values the rounding of the two factors to
bf16 on the way into the product is the identity, and the product has no accumulation order.) -/

/-! ## The body's payload at an element -/

/-- The payload at row `r`, column `j` of the block: row `r` of the block times column `j` of the weights, plus
    the bias at column `j`. -/
theorem pay9_apply (x0 : Vec Ideal S4000x128 .f32) (x1 : Vec Ideal S128x7 .f32) (x2 : Vec Ideal S1x7 .f32) (r : Fin 4000) (j : Fin 7) :
    k9_pay1 x0 x1 x2 (ix2 r j) = (∑ k : Fin 128, x0 (ix2 r k) * x1 (ix2 k j)) + x2 (ix2 (0 : Fin 1) j) := by
  unfold k9_pay1
  simp only [shapeCast_self, addf_apply, broadcastTo_1b_ab_apply, matmul]
  rw [Ideal.matmul_constant_zero_apply, ← Equiv.sum_comp (contrEquiv1 dot_S4000x128_S128x7_S4000x7_1_0_0_1_n_n 128 rfl rfl).symm]
  refine congrArg (· + x2 (ix2 (0 : Fin 1) j)) (Finset.sum_congr rfl fun k _ => ?_)
  have c2 := contrEquiv1_symm_val dot_S4000x128_S128x7_S4000x7_1_0_0_1_n_n 128 rfl rfl k
  have l2 : dot_S4000x128_S128x7_S4000x7_1_0_0_1_n_n.lhsIdx (ix2 r j) ((contrEquiv1 _ 128 rfl rfl).symm k) = ix2 r k := by
    funext ax; apply Fin.ext
    match ax with
    | ⟨0, _⟩ => simp [DotDims.lhsIdx, dot_S4000x128_S128x7_S4000x7_1_0_0_1_n_n]; rfl
    | ⟨1, _⟩ => simp [DotDims.lhsIdx, dot_S4000x128_S128x7_S4000x7_1_0_0_1_n_n]; exact c2
  have r2 : dot_S4000x128_S128x7_S4000x7_1_0_0_1_n_n.rhsIdx (ix2 r j) ((contrEquiv1 _ 128 rfl rfl).symm k) = ix2 k j := by
    funext ax; apply Fin.ext
    match ax with
    | ⟨0, _⟩ => simp [DotDims.rhsIdx, dot_S4000x128_S128x7_S4000x7_1_0_0_1_n_n]; exact c2
    | ⟨1, _⟩ => simp [DotDims.rhsIdx, dot_S4000x128_S128x7_S4000x7_1_0_0_1_n_n]; rfl
  show x0 (dot_S4000x128_S128x7_S4000x7_1_0_0_1_n_n.lhsIdx (ix2 r j) ((contrEquiv1 _ 128 rfl rfl).symm k)) * x1 (dot_S4000x128_S128x7_S4000x7_1_0_0_1_n_n.rhsIdx (ix2 r j) ((contrEquiv1 _ 128 rfl rfl).symm k)) = _
  rw [l2, r2]

/-! ## The windows' blocks as parts of their arrays -/

/-- The index maps over the grid: the activation's and the output's block at point `t` is row block `t`; the
    weights' and the bias's block is always the one block there is. -/
theorem idx9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- The activation's block at point `t` is rows `4000 t … 4000 t + 3999` of its array. -/
theorem iblk9_0_apply (c : Dev nD) (t : Fin cfg9.N) (r : Fin 4000) (j : Fin 128) (k : S100000x128.Idx)
    (hk0 : (k 0).val = 4000 * t.val + r.val) (hk1 : (k 1).val = j.val) :
    (iblk9 V c 0 t : Vec Ideal S4000x128 .f32) (ix2 r j) = (V c (Pipeline.arrRef spec9 0) : S100000x128.Idx → EReal) k := by
  obtain ⟨e0, e1, -, -, -, -, -, -⟩ := idx9 t
  unfold iblk9
  rw [View.read_apply]
  show (V c (Pipeline.arrRef spec9 0) : S100000x128.Idx → EReal) _ = _
  refine congrArg _ (funext fun a => Fin.ext ?_)
  match a with
  | ⟨0, _⟩ => show win9_0.index t (0 : Fin 2) * 4000 + 1 * r.val = (k 0).val; rw [e0, hk0]; omega
  | ⟨1, _⟩ => show win9_0.index t (1 : Fin 2) * 128 + 1 * j.val = (k 1).val; rw [e1, hk1]; omega

/-- The weights' block, at every point, is the whole weight matrix. -/
theorem iblk9_1_apply (c : Dev nD) (t : Fin cfg9.N) (k : Fin 128) (j : Fin 7) :
    (iblk9 V c 1 t : Vec Ideal S128x7 .f32) (ix2 k j) = (V c (Pipeline.arrRef spec9 1) : S128x7.Idx → EReal) (ix2 k j) := by
  obtain ⟨-, -, e0, e1, -, -, -, -⟩ := idx9 t
  unfold iblk9
  rw [View.read_apply]
  show (V c (Pipeline.arrRef spec9 1) : S128x7.Idx → EReal) _ = _
  refine congrArg _ (funext fun a => Fin.ext ?_)
  match a with
  | ⟨0, _⟩ => show win9_1.index t (0 : Fin 2) * 128 + 1 * k.val = k.val; rw [e0]; omega
  | ⟨1, _⟩ => show win9_1.index t (1 : Fin 2) * 7 + 1 * j.val = j.val; rw [e1]; omega

/-- The bias's block, at every point, is the whole bias row. -/
theorem iblk9_2_apply (c : Dev nD) (t : Fin cfg9.N) (j : Fin 7) :
    (iblk9 V c 2 t : Vec Ideal S1x7 .f32) (ix2 (0 : Fin 1) j) = (V c (Pipeline.arrRef spec9 2) : S1x7.Idx → EReal) (ix2 (0 : Fin 1) j) := by
  obtain ⟨-, -, -, -, e0, e1, -, -⟩ := idx9 t
  unfold iblk9
  rw [View.read_apply]
  show (V c (Pipeline.arrRef spec9 2) : S1x7.Idx → EReal) _ = _
  refine congrArg _ (funext fun a => Fin.ext ?_)
  match a with
  | ⟨0, _⟩ => show win9_2.index t (0 : Fin 2) * 1 + 1 * 0 = 0; rw [e0]
  | ⟨1, _⟩ => show win9_2.index t (1 : Fin 2) * 7 + 1 * j.val = j.val; rw [e1]; omega

/-! ## The output array -/

/-- What the output array ends holding: `headArr` of the three input arrays as the region finds them. -/
def G9 (c : Dev nD) : S100000x7.Idx → EReal :=
  headArr (n := 7) (V c (Pipeline.arrRef spec9 0)) (V c (Pipeline.arrRef spec9 1)) (V c (Pipeline.arrRef spec9 2))

/-- The payload over the blocks at point `t`, at row `r` and column `j`, is `G9` at the array index `k` that the
    output's block puts there (row `4000 t + r`, column `j`). -/
theorem pay9_blocks (c : Dev nD) (t : Fin cfg9.N) (r : Fin 4000) (j : Fin 7) (k : S100000x7.Idx)
    (hk0 : (k 0).val = 4000 * t.val + r.val) (hk1 : (k 1).val = j.val) :
    k9_pay1 (iblk9 V c 0 t) (iblk9 V c 1 t) (iblk9 V c 2 t) (ix2 r j) = G9 V c k := by
  refine (pay9_apply (iblk9 V c 0 t) (iblk9 V c 1 t) (iblk9 V c 2 t) r j).trans ?_
  have hkj : k 1 = j := Fin.ext hk1
  unfold G9 headArr
  rw [iblk9_2_apply V c t j, hkj]
  refine congrArg (· + _) (Finset.sum_congr rfl fun q _ => ?_)
  rw [iblk9_0_apply V c t r q (ix2 (k 0) q) hk0 rfl, iblk9_1_apply V c t q j]

/-- What point `t` writes back is block `t` of `G9`. -/
theorem flushed9_eq (c : Dev nD) (t : Fin cfg9.N) :
    (dat9 V c).flushed 3 t = ((cfg9.win 3).blk t).view.read (Elt Ideal) (G9 V c) := by
  show (cfg9.win 3).cut (grid9.coords t) ((dat9 V c).after 3 t) = _
  rw [after9_3]
  unfold out9_3
  rw [View.canon_unit_zero hz2]
  simp only [View.ld_unit_zero (S := S4000x128) hz2, View.ld_unit_zero (S := S128x7) hz2, View.ld_unit_zero (S := S1x7) hz2]
  obtain ⟨-, -, -, -, -, -, e0, e1⟩ := idx9 t
  funext (y : S4000x7.Idx)
  obtain ⟨r, j, rfl⟩ : ∃ (r : Fin 4000) (j : Fin 7), y = ix2 r j := ⟨y 0, y 1, eq_ix2 y⟩
  show k9_pay1 (iblk9 V c 0 t) (iblk9 V c 1 t) (iblk9 V c 2 t) (ix2 r j) = G9 V c (((cfg9.win 3).blk t).view.emb (ix2 r j))
  refine pay9_blocks V c t r j _ ?_ ?_
  · show win9_3.index t (0 : Fin 2) * 4000 + 1 * r.val = 4000 * t.val + r.val; rw [e0]; omega
  · show win9_3.index t (1 : Fin 2) * 7 + 1 * j.val = j.val; rw [e1]; omega

/-- An index of the output array is in point `t`'s block iff each coordinate is in the block's range on its axis. -/
theorem mem_blk9 (t : Fin cfg9.N) (i : S100000x7.Idx) :
    i ∈ ((cfg9.win 3).blk t).view.set ↔ ∀ a : Fin 2, win9_3.index t a * S4000x7.size a ≤ (i a).val ∧ (i a).val < win9_3.index t a * S4000x7.size a + S4000x7.size a := by
  show i ∈ ((View.whole main_v155).slice (win9_3.rect t)).set ↔ _
  rw [View.set_slice_whole, Rect.mem_set_unit]
  exact Iff.rfl

/-- Every index of the output array is in some point's block: row `i` is in row block `i / 4000`. -/
theorem cover9 (i : S100000x7.Idx) :
    ∃ t : Fin cfg9.N, (cfg9.win 3).flush t = true ∧ i ∈ ((cfg9.win 3).blk t).view.set := by
  have hi0 : (i 0).val < 100000 := (i 0).isLt
  have hi1 : (i 1).val < 7 := (i 1).isLt
  have hN : cfg9.N = 25 := N_9
  obtain ⟨t, ht⟩ : ∃ t : Fin cfg9.N, t.val = (i 0).val / 4000 := ⟨⟨(i 0).val / 4000, by rw [hN]; omega⟩, rfl⟩
  obtain ⟨-, -, -, -, -, -, e0, e1⟩ := idx9 t
  refine ⟨t, flush9_3 t, ?_⟩
  rw [mem_blk9]
  intro a
  match a with
  | ⟨0, _⟩ => show win9_3.index t (0 : Fin 2) * 4000 ≤ (i 0).val ∧ (i 0).val < win9_3.index t (0 : Fin 2) * 4000 + 4000; rw [e0, ht]; omega
  | ⟨1, _⟩ => show win9_3.index t (1 : Fin 2) * 7 ≤ (i 1).val ∧ (i 1).val < win9_3.index t (1 : Fin 2) * 7 + 7; rw [e1]; omega

/-- The output array after the region is `G9`. -/
theorem final9 (c : Dev nD) : (dat9 V c).arrAt 3 cfg9.N = G9 V c :=
  (dat9 V c).arrAt_eq_of_cover 3 (G9 V c) (fun t _ => flushed9_eq V c t) (cover9)

/-! ## Against the reference's head -/

/-- The region's output array is the reference's head of the activations and weights the region finds and of the
    bias vector `b`, when the bias window's array is `b` as a one-row array. -/
theorem head9 (c : Dev nD) (b : KTen Ideal S7 .f32) (hb : V c main_v154 = kRow7 b) :
    (dat9 V c).arrAt 3 cfg9.N = Cert.ReferenceIdeal.RefRun.refHeadP (F := Ideal) (V c main_v151) (V c main_arg38) b := by
  rw [final9]
  show headArr (n := 7) (V c main_v151) (V c main_arg38) (V c main_v154) = _
  rw [hb]
  exact (refHeadP_eq _ _ b).symm

end Cert.KernelIdeal.Hand

end
-- ==== Proof.KI.HostA.lean ====
/- What the kernel program's host stretches 0 to 3 leave in the buffers the regions (and later stretches) read, each as a named pure function of the contents the stretch reads: the segment means by the reference's own stage functions (the operations are the same ones), the operands' reshapes and slices and the batch statistics by the bridge's. -/
import proofs.«154353_j88940182765819_1_alg».proof.Proof.Gen.KernelIdeal.Launch
import proofs.«154353_j88940182765819_1_alg».proof.Proof.Ref.Stages
import proofs.«154353_j88940182765819_1_alg».proof.Proof.Gen.ReferenceIdeal
import proofs.«154353_j88940182765819_1_alg».proof.Proof.Math.KStages
import Idealize.ShloMosaic.Lib.StableHlo.Run

set_option maxRecDepth 16384

noncomputable section

namespace Cert.KernelIdeal.Hand

open Cert.KernelIdeal Cert.KernelIdeal.Gen Cert.Bridge Cert.ReferenceIdeal.RefRun
open Idealize.ShloMosaic Idealize.ShloMosaic.TcCoe Idealize.SL.Sem Idealize.ShloMosaic.StableHlo

variable {F : FTy → Type} [FloatOps F]

/-! ## Host stretch 0 -/

attribute [local irreducible] Host.gather Host.scatterAdd Host.reduceAdd in
set_option maxHeartbeats 4000000 in
/-- Host stretch 0 leaves in `main_v1` the named function of the contents it reads: the operations that make it, read
    back in order, are that function's own (the two programs' dimension records have equal fields). -/
theorem host0_main_v1 (V : Valuation τ sig (Elt F)) :
    after hostOps0 V (Proc.devRef .tc main_v1) = refRow0 (V (Proc.devRef .tc main_arg2)) := by
  simp only [hostOps0]
  after_results_simp
  rfl

attribute [local irreducible] Host.gather Host.scatterAdd Host.reduceAdd in
set_option maxHeartbeats 4000000 in
/-- Host stretch 0 leaves in `main_v3` the named function of the contents it reads: the operations that make it, read
    back in order, are that function's own (the two programs' dimension records have equal fields). -/
theorem host0_main_v3 (V : Valuation τ sig (Elt F)) :
    after hostOps0 V (Proc.devRef .tc main_v3) = refRow1 (V (Proc.devRef .tc main_arg2)) := by
  simp only [hostOps0]
  after_results_simp
  rfl

attribute [local irreducible] Host.gather Host.scatterAdd Host.reduceAdd in
set_option maxHeartbeats 4000000 in
/-- Host stretch 0 leaves in `main_v5` the named function of the contents it reads: the operations that make it, read
    back in order, are that function's own (the two programs' dimension records have equal fields). -/
theorem host0_main_v5 (V : Valuation τ sig (Elt F)) :
    after hostOps0 V (Proc.devRef .tc main_v5) = refRow0 (V (Proc.devRef .tc main_arg3)) := by
  simp only [hostOps0]
  after_results_simp
  rfl

attribute [local irreducible] Host.gather Host.scatterAdd Host.reduceAdd in
set_option maxHeartbeats 4000000 in
/-- Host stretch 0 leaves in `main_v7` the named function of the contents it reads: the operations that make it, read
    back in order, are that function's own (the two programs' dimension records have equal fields). -/
theorem host0_main_v7 (V : Valuation τ sig (Elt F)) :
    after hostOps0 V (Proc.devRef .tc main_v7) = refRow1 (V (Proc.devRef .tc main_arg3)) := by
  simp only [hostOps0]
  after_results_simp
  rfl

attribute [local irreducible] Host.gather Host.scatterAdd Host.reduceAdd in
set_option maxHeartbeats 4000000 in
/-- Host stretch 0 leaves in `main_v26` the named function of the contents it reads: the operations that make it, read
    back in order, are that function's own (the two programs' dimension records have equal fields). -/
theorem host0_main_v26 (V : Valuation τ sig (Elt F)) :
    after hostOps0 V (Proc.devRef .tc main_v26) = refAgg128 (V (Proc.devRef .tc main_arg1)) (V (Proc.devRef .tc main_arg2)) := by
  simp only [hostOps0]
  after_results_simp
  rfl

attribute [local irreducible] Host.gather Host.scatterAdd Host.reduceAdd in
set_option maxHeartbeats 4000000 in
/-- Host stretch 0 leaves in `main_v45` the named function of the contents it reads: the operations that make it, read
    back in order, are that function's own (the two programs' dimension records have equal fields). -/
theorem host0_main_v45 (V : Valuation τ sig (Elt F)) :
    after hostOps0 V (Proc.devRef .tc main_v45) = refAgg256 (V (Proc.devRef .tc main_arg0)) (V (Proc.devRef .tc main_arg3)) := by
  simp only [hostOps0]
  after_results_simp
  rfl

attribute [local irreducible] Host.gather Host.scatterAdd Host.reduceAdd in
set_option maxHeartbeats 4000000 in
/-- Host stretch 0 leaves in `main_v46` the named function of the contents it reads: the operations that make it, read
    back in order, are that function's own (the two programs' dimension records have equal fields). -/
theorem host0_main_v46 (V : Valuation τ sig (Elt F)) :
    after hostOps0 V (Proc.devRef .tc main_v46) = kWu0 (V (Proc.devRef .tc main_arg8)) := by
  simp only [hostOps0]
  after_results_simp
  rfl

attribute [local irreducible] Host.gather Host.scatterAdd Host.reduceAdd in
set_option maxHeartbeats 4000000 in
/-- Host stretch 0 leaves in `main_v47` the named function of the contents it reads: the operations that make it, read
    back in order, are that function's own (the two programs' dimension records have equal fields). -/
theorem host0_main_v47 (V : Valuation τ sig (Elt F)) :
    after hostOps0 V (Proc.devRef .tc main_v47) = kWu1 (V (Proc.devRef .tc main_arg8)) := by
  simp only [hostOps0]
  after_results_simp
  rfl

attribute [local irreducible] Host.gather Host.scatterAdd Host.reduceAdd in
set_option maxHeartbeats 4000000 in
/-- Host stretch 0 leaves in `main_v48` the named function of the contents it reads: the operations that make it, read
    back in order, are that function's own (the two programs' dimension records have equal fields). -/
theorem host0_main_v48 (V : Valuation τ sig (Elt F)) :
    after hostOps0 V (Proc.devRef .tc main_v48) = kRow (V (Proc.devRef .tc main_arg7)) := by
  simp only [hostOps0]
  after_results_simp
  rfl

attribute [local irreducible] Host.gather Host.scatterAdd Host.reduceAdd in
set_option maxHeartbeats 4000000 in
/-- Host stretch 0 leaves in `main_v49` the named function of the contents it reads: the operations that make it, read
    back in order, are that function's own (the two programs' dimension records have equal fields). -/
theorem host0_main_v49 (V : Valuation τ sig (Elt F)) :
    after hostOps0 V (Proc.devRef .tc main_v49) = kRow (V (Proc.devRef .tc main_arg5)) := by
  simp only [hostOps0]
  after_results_simp
  rfl

attribute [local irreducible] Host.gather Host.scatterAdd Host.reduceAdd in
set_option maxHeartbeats 4000000 in
/-- Host stretch 0 leaves in `main_v50` the named function of the contents it reads: the operations that make it, read
    back in order, are that function's own (the two programs' dimension records have equal fields). -/
theorem host0_main_v50 (V : Valuation τ sig (Elt F)) :
    after hostOps0 V (Proc.devRef .tc main_v50) = kRow (V (Proc.devRef .tc main_arg9)) := by
  simp only [hostOps0]
  after_results_simp
  rfl

/-! ## Host stretch 1 -/

attribute [local irreducible] Host.gather Host.scatterAdd Host.reduceAdd in
set_option maxHeartbeats 4000000 in
/-- Host stretch 1 leaves in `main_v52` the named function of the contents it reads: the operations that make it, read
    back in order, are that function's own (the two programs' dimension records have equal fields). -/
theorem host1_main_v52 (V : Valuation τ sig (Elt F)) :
    after hostOps1 V (Proc.devRef .tc main_v52) = kWu0 (V (Proc.devRef .tc main_arg14)) := by
  simp only [hostOps1]
  after_results_simp
  rfl

attribute [local irreducible] Host.gather Host.scatterAdd Host.reduceAdd in
set_option maxHeartbeats 4000000 in
/-- Host stretch 1 leaves in `main_v53` the named function of the contents it reads: the operations that make it, read
    back in order, are that function's own (the two programs' dimension records have equal fields). -/
theorem host1_main_v53 (V : Valuation τ sig (Elt F)) :
    after hostOps1 V (Proc.devRef .tc main_v53) = kWu1 (V (Proc.devRef .tc main_arg14)) := by
  simp only [hostOps1]
  after_results_simp
  rfl

attribute [local irreducible] Host.gather Host.scatterAdd Host.reduceAdd in
set_option maxHeartbeats 4000000 in
/-- Host stretch 1 leaves in `main_v54` the named function of the contents it reads: the operations that make it, read
    back in order, are that function's own (the two programs' dimension records have equal fields). -/
theorem host1_main_v54 (V : Valuation τ sig (Elt F)) :
    after hostOps1 V (Proc.devRef .tc main_v54) = kRow (V (Proc.devRef .tc main_arg13)) := by
  simp only [hostOps1]
  after_results_simp
  rfl

attribute [local irreducible] Host.gather Host.scatterAdd Host.reduceAdd in
set_option maxHeartbeats 4000000 in
/-- Host stretch 1 leaves in `main_v55` the named function of the contents it reads: the operations that make it, read
    back in order, are that function's own (the two programs' dimension records have equal fields). -/
theorem host1_main_v55 (V : Valuation τ sig (Elt F)) :
    after hostOps1 V (Proc.devRef .tc main_v55) = kRow (V (Proc.devRef .tc main_arg11)) := by
  simp only [hostOps1]
  after_results_simp
  rfl

attribute [local irreducible] Host.gather Host.scatterAdd Host.reduceAdd in
set_option maxHeartbeats 4000000 in
/-- Host stretch 1 leaves in `main_v56` the named function of the contents it reads: the operations that make it, read
    back in order, are that function's own (the two programs' dimension records have equal fields). -/
theorem host1_main_v56 (V : Valuation τ sig (Elt F)) :
    after hostOps1 V (Proc.devRef .tc main_v56) = kRow (V (Proc.devRef .tc main_arg15)) := by
  simp only [hostOps1]
  after_results_simp
  rfl

/-! ## Host stretch 2 -/

attribute [local irreducible] Host.gather Host.scatterAdd Host.reduceAdd in
set_option maxHeartbeats 4000000 in
/-- Host stretch 2 leaves in `main_v59` the named function of the contents it reads: the operations that make it, read
    back in order, are that function's own (the two programs' dimension records have equal fields). -/
theorem host2_main_v59 (V : Valuation τ sig (Elt F)) :
    after hostOps2 V (Proc.devRef .tc main_v59) = kMean (V (Proc.devRef .tc main_v51_1)) := by
  simp only [hostOps2]
  after_results_simp
  rfl

attribute [local irreducible] Host.gather Host.scatterAdd Host.reduceAdd in
set_option maxHeartbeats 4000000 in
/-- Host stretch 2 leaves in `main_v65` the named function of the contents it reads: the operations that make it, read
    back in order, are that function's own (the two programs' dimension records have equal fields). -/
theorem host2_main_v65 (V : Valuation τ sig (Elt F)) :
    after hostOps2 V (Proc.devRef .tc main_v65) = kVar (V (Proc.devRef .tc main_v51_1)) (V (Proc.devRef .tc main_v51_2)) := by
  simp only [hostOps2]
  after_results_simp
  rfl

attribute [local irreducible] Host.gather Host.scatterAdd Host.reduceAdd in
set_option maxHeartbeats 4000000 in
/-- Host stretch 2 leaves in `main_v67` the named function of the contents it reads: the operations that make it, read
    back in order, are that function's own (the two programs' dimension records have equal fields). -/
theorem host2_main_v67 (V : Valuation τ sig (Elt F)) :
    after hostOps2 V (Proc.devRef .tc main_v67) = kMean (V (Proc.devRef .tc main_v57_1)) := by
  simp only [hostOps2]
  after_results_simp
  rfl

attribute [local irreducible] Host.gather Host.scatterAdd Host.reduceAdd in
set_option maxHeartbeats 4000000 in
/-- Host stretch 2 leaves in `main_v73` the named function of the contents it reads: the operations that make it, read
    back in order, are that function's own (the two programs' dimension records have equal fields). -/
theorem host2_main_v73 (V : Valuation τ sig (Elt F)) :
    after hostOps2 V (Proc.devRef .tc main_v73) = kVar (V (Proc.devRef .tc main_v57_1)) (V (Proc.devRef .tc main_v57_2)) := by
  simp only [hostOps2]
  after_results_simp
  rfl

attribute [local irreducible] Host.gather Host.scatterAdd Host.reduceAdd in
set_option maxHeartbeats 4000000 in
/-- Host stretch 2 leaves in `main_v74` the named function of the contents it reads: the operations that make it, read
    back in order, are that function's own (the two programs' dimension records have equal fields). -/
theorem host2_main_v74 (V : Valuation τ sig (Elt F)) :
    after hostOps2 V (Proc.devRef .tc main_v74) = kRow (V (Proc.devRef .tc main_arg28)) := by
  simp only [hostOps2]
  after_results_simp
  rfl

attribute [local irreducible] Host.gather Host.scatterAdd Host.reduceAdd in
set_option maxHeartbeats 4000000 in
/-- Host stretch 2 leaves in `main_v75` the named function of the contents it reads: the operations that make it, read
    back in order, are that function's own (the two programs' dimension records have equal fields). -/
theorem host2_main_v75 (V : Valuation τ sig (Elt F)) :
    after hostOps2 V (Proc.devRef .tc main_v75) = kRow (V (Proc.devRef .tc main_arg29)) := by
  simp only [hostOps2]
  after_results_simp
  rfl

/-! ## Host stretch 3 -/

attribute [local irreducible] Host.gather Host.scatterAdd Host.reduceAdd in
set_option maxHeartbeats 4000000 in
/-- Host stretch 3 leaves in `main_v77` the named function of the contents it reads: the operations that make it, read
    back in order, are that function's own (the two programs' dimension records have equal fields). -/
theorem host3_main_v77 (V : Valuation τ sig (Elt F)) :
    after hostOps3 V (Proc.devRef .tc main_v77) = kRow (V (Proc.devRef .tc main_arg30)) := by
  simp only [hostOps3]
  after_results_simp
  rfl

attribute [local irreducible] Host.gather Host.scatterAdd Host.reduceAdd in
set_option maxHeartbeats 4000000 in
/-- Host stretch 3 leaves in `main_v78` the named function of the contents it reads: the operations that make it, read
    back in order, are that function's own (the two programs' dimension records have equal fields). -/
theorem host3_main_v78 (V : Valuation τ sig (Elt F)) :
    after hostOps3 V (Proc.devRef .tc main_v78) = kRow (V (Proc.devRef .tc main_arg31)) := by
  simp only [hostOps3]
  after_results_simp
  rfl

end Cert.KernelIdeal.Hand

end
-- ==== Proof.KI.HostB.lean ====
/- What the kernel program's host stretches 4 to 9 leave in the buffers the regions read, each as a named pure function of the contents the stretch reads. -/
import proofs.«154353_j88940182765819_1_alg».proof.Proof.Gen.KernelIdeal.Launch
import proofs.«154353_j88940182765819_1_alg».proof.Proof.Ref.Stages
import proofs.«154353_j88940182765819_1_alg».proof.Proof.Gen.ReferenceIdeal
import proofs.«154353_j88940182765819_1_alg».proof.Proof.Math.KStages
import Idealize.ShloMosaic.Lib.StableHlo.Run

set_option maxRecDepth 16384

noncomputable section

namespace Cert.KernelIdeal.Hand

open Cert.KernelIdeal Cert.KernelIdeal.Gen Cert.Bridge Cert.ReferenceIdeal.RefRun
open Idealize.ShloMosaic Idealize.ShloMosaic.TcCoe Idealize.SL.Sem Idealize.ShloMosaic.StableHlo

variable {F : FTy → Type} [FloatOps F]

/-! ## Host stretch 4 -/

attribute [local irreducible] Host.gather Host.scatterAdd Host.reduceAdd in
set_option maxHeartbeats 4000000 in
/-- Host stretch 4 leaves in `main_v98` the named function of the contents it reads: the operations that make it, read
    back in order, are that function's own (the two programs' dimension records have equal fields). -/
theorem host4_main_v98 (V : Valuation τ sig (Elt F)) :
    after hostOps4 V (Proc.devRef .tc main_v98) = refAggOf Cert.ReferenceIdeal.gather_S100000x128_S500000x1_S500000x128_1_0_n_n_0_1_1128 Cert.ReferenceIdeal.scatter_S100000x128_S500000x1_S500000x128_1_0_0_1 Cert.ReferenceIdeal.Facts₀.bcast_S_S100000x128 ![0, 1] Cert.ReferenceIdeal.Facts₀.bcast_S100000x1_S100000x128_0_1 (V (Proc.devRef .tc main_v79)) (V (Proc.devRef .tc main_v1)) (V (Proc.devRef .tc main_v3)) := by
  simp only [hostOps4]
  after_results_simp
  rfl

attribute [local irreducible] Host.gather Host.scatterAdd Host.reduceAdd in
set_option maxHeartbeats 4000000 in
/-- Host stretch 4 leaves in `main_v117` the named function of the contents it reads: the operations that make it, read
    back in order, are that function's own (the two programs' dimension records have equal fields). -/
theorem host4_main_v117 (V : Valuation τ sig (Elt F)) :
    after hostOps4 V (Proc.devRef .tc main_v117) = refAggOf Cert.ReferenceIdeal.gather_S100000x128_S500000x1_S500000x128_1_0_n_n_0_1_1128 Cert.ReferenceIdeal.scatter_S100000x128_S500000x1_S500000x128_1_0_0_1 Cert.ReferenceIdeal.Facts₀.bcast_S_S100000x128 ![0, 1] Cert.ReferenceIdeal.Facts₀.bcast_S100000x1_S100000x128_0_1 (V (Proc.devRef .tc main_v76)) (V (Proc.devRef .tc main_v5)) (V (Proc.devRef .tc main_v7)) := by
  simp only [hostOps4]
  after_results_simp
  rfl

attribute [local irreducible] Host.gather Host.scatterAdd Host.reduceAdd in
set_option maxHeartbeats 4000000 in
/-- Host stretch 4 leaves in `main_v118` the named function of the contents it reads: the operations that make it, read
    back in order, are that function's own (the two programs' dimension records have equal fields). -/
theorem host4_main_v118 (V : Valuation τ sig (Elt F)) :
    after hostOps4 V (Proc.devRef .tc main_v118) = kWu0 (V (Proc.devRef .tc main_arg20)) := by
  simp only [hostOps4]
  after_results_simp
  rfl

attribute [local irreducible] Host.gather Host.scatterAdd Host.reduceAdd in
set_option maxHeartbeats 4000000 in
/-- Host stretch 4 leaves in `main_v119` the named function of the contents it reads: the operations that make it, read
    back in order, are that function's own (the two programs' dimension records have equal fields). -/
theorem host4_main_v119 (V : Valuation τ sig (Elt F)) :
    after hostOps4 V (Proc.devRef .tc main_v119) = kWu1 (V (Proc.devRef .tc main_arg20)) := by
  simp only [hostOps4]
  after_results_simp
  rfl

attribute [local irreducible] Host.gather Host.scatterAdd Host.reduceAdd in
set_option maxHeartbeats 4000000 in
/-- Host stretch 4 leaves in `main_v120` the named function of the contents it reads: the operations that make it, read
    back in order, are that function's own (the two programs' dimension records have equal fields). -/
theorem host4_main_v120 (V : Valuation τ sig (Elt F)) :
    after hostOps4 V (Proc.devRef .tc main_v120) = kRow (V (Proc.devRef .tc main_arg19)) := by
  simp only [hostOps4]
  after_results_simp
  rfl

attribute [local irreducible] Host.gather Host.scatterAdd Host.reduceAdd in
set_option maxHeartbeats 4000000 in
/-- Host stretch 4 leaves in `main_v121` the named function of the contents it reads: the operations that make it, read
    back in order, are that function's own (the two programs' dimension records have equal fields). -/
theorem host4_main_v121 (V : Valuation τ sig (Elt F)) :
    after hostOps4 V (Proc.devRef .tc main_v121) = kRow (V (Proc.devRef .tc main_arg17)) := by
  simp only [hostOps4]
  after_results_simp
  rfl

attribute [local irreducible] Host.gather Host.scatterAdd Host.reduceAdd in
set_option maxHeartbeats 4000000 in
/-- Host stretch 4 leaves in `main_v122` the named function of the contents it reads: the operations that make it, read
    back in order, are that function's own (the two programs' dimension records have equal fields). -/
theorem host4_main_v122 (V : Valuation τ sig (Elt F)) :
    after hostOps4 V (Proc.devRef .tc main_v122) = kRow (V (Proc.devRef .tc main_arg21)) := by
  simp only [hostOps4]
  after_results_simp
  rfl

/-! ## Host stretch 5 -/

attribute [local irreducible] Host.gather Host.scatterAdd Host.reduceAdd in
set_option maxHeartbeats 4000000 in
/-- Host stretch 5 leaves in `main_v124` the named function of the contents it reads: the operations that make it, read
    back in order, are that function's own (the two programs' dimension records have equal fields). -/
theorem host5_main_v124 (V : Valuation τ sig (Elt F)) :
    after hostOps5 V (Proc.devRef .tc main_v124) = kWu0 (V (Proc.devRef .tc main_arg26)) := by
  simp only [hostOps5]
  after_results_simp
  rfl

attribute [local irreducible] Host.gather Host.scatterAdd Host.reduceAdd in
set_option maxHeartbeats 4000000 in
/-- Host stretch 5 leaves in `main_v125` the named function of the contents it reads: the operations that make it, read
    back in order, are that function's own (the two programs' dimension records have equal fields). -/
theorem host5_main_v125 (V : Valuation τ sig (Elt F)) :
    after hostOps5 V (Proc.devRef .tc main_v125) = kWu1 (V (Proc.devRef .tc main_arg26)) := by
  simp only [hostOps5]
  after_results_simp
  rfl

attribute [local irreducible] Host.gather Host.scatterAdd Host.reduceAdd in
set_option maxHeartbeats 4000000 in
/-- Host stretch 5 leaves in `main_v126` the named function of the contents it reads: the operations that make it, read
    back in order, are that function's own (the two programs' dimension records have equal fields). -/
theorem host5_main_v126 (V : Valuation τ sig (Elt F)) :
    after hostOps5 V (Proc.devRef .tc main_v126) = kRow (V (Proc.devRef .tc main_arg25)) := by
  simp only [hostOps5]
  after_results_simp
  rfl

attribute [local irreducible] Host.gather Host.scatterAdd Host.reduceAdd in
set_option maxHeartbeats 4000000 in
/-- Host stretch 5 leaves in `main_v127` the named function of the contents it reads: the operations that make it, read
    back in order, are that function's own (the two programs' dimension records have equal fields). -/
theorem host5_main_v127 (V : Valuation τ sig (Elt F)) :
    after hostOps5 V (Proc.devRef .tc main_v127) = kRow (V (Proc.devRef .tc main_arg23)) := by
  simp only [hostOps5]
  after_results_simp
  rfl

attribute [local irreducible] Host.gather Host.scatterAdd Host.reduceAdd in
set_option maxHeartbeats 4000000 in
/-- Host stretch 5 leaves in `main_v128` the named function of the contents it reads: the operations that make it, read
    back in order, are that function's own (the two programs' dimension records have equal fields). -/
theorem host5_main_v128 (V : Valuation τ sig (Elt F)) :
    after hostOps5 V (Proc.devRef .tc main_v128) = kRow (V (Proc.devRef .tc main_arg27)) := by
  simp only [hostOps5]
  after_results_simp
  rfl

/-! ## Host stretch 6 -/

attribute [local irreducible] Host.gather Host.scatterAdd Host.reduceAdd in
set_option maxHeartbeats 4000000 in
/-- Host stretch 6 leaves in `main_v131` the named function of the contents it reads: the operations that make it, read
    back in order, are that function's own (the two programs' dimension records have equal fields). -/
theorem host6_main_v131 (V : Valuation τ sig (Elt F)) :
    after hostOps6 V (Proc.devRef .tc main_v131) = kMean (V (Proc.devRef .tc main_v123_1)) := by
  simp only [hostOps6]
  after_results_simp
  rfl

attribute [local irreducible] Host.gather Host.scatterAdd Host.reduceAdd in
set_option maxHeartbeats 4000000 in
/-- Host stretch 6 leaves in `main_v137` the named function of the contents it reads: the operations that make it, read
    back in order, are that function's own (the two programs' dimension records have equal fields). -/
theorem host6_main_v137 (V : Valuation τ sig (Elt F)) :
    after hostOps6 V (Proc.devRef .tc main_v137) = kVar (V (Proc.devRef .tc main_v123_1)) (V (Proc.devRef .tc main_v123_2)) := by
  simp only [hostOps6]
  after_results_simp
  rfl

attribute [local irreducible] Host.gather Host.scatterAdd Host.reduceAdd in
set_option maxHeartbeats 4000000 in
/-- Host stretch 6 leaves in `main_v139` the named function of the contents it reads: the operations that make it, read
    back in order, are that function's own (the two programs' dimension records have equal fields). -/
theorem host6_main_v139 (V : Valuation τ sig (Elt F)) :
    after hostOps6 V (Proc.devRef .tc main_v139) = kMean (V (Proc.devRef .tc main_v129_1)) := by
  simp only [hostOps6]
  after_results_simp
  rfl

attribute [local irreducible] Host.gather Host.scatterAdd Host.reduceAdd in
set_option maxHeartbeats 4000000 in
/-- Host stretch 6 leaves in `main_v145` the named function of the contents it reads: the operations that make it, read
    back in order, are that function's own (the two programs' dimension records have equal fields). -/
theorem host6_main_v145 (V : Valuation τ sig (Elt F)) :
    after hostOps6 V (Proc.devRef .tc main_v145) = kVar (V (Proc.devRef .tc main_v129_1)) (V (Proc.devRef .tc main_v129_2)) := by
  simp only [hostOps6]
  after_results_simp
  rfl

attribute [local irreducible] Host.gather Host.scatterAdd Host.reduceAdd in
set_option maxHeartbeats 4000000 in
/-- Host stretch 6 leaves in `main_v146` the named function of the contents it reads: the operations that make it, read
    back in order, are that function's own (the two programs' dimension records have equal fields). -/
theorem host6_main_v146 (V : Valuation τ sig (Elt F)) :
    after hostOps6 V (Proc.devRef .tc main_v146) = kRow (V (Proc.devRef .tc main_arg32)) := by
  simp only [hostOps6]
  after_results_simp
  rfl

attribute [local irreducible] Host.gather Host.scatterAdd Host.reduceAdd in
set_option maxHeartbeats 4000000 in
/-- Host stretch 6 leaves in `main_v147` the named function of the contents it reads: the operations that make it, read
    back in order, are that function's own (the two programs' dimension records have equal fields). -/
theorem host6_main_v147 (V : Valuation τ sig (Elt F)) :
    after hostOps6 V (Proc.devRef .tc main_v147) = kRow (V (Proc.devRef .tc main_arg33)) := by
  simp only [hostOps6]
  after_results_simp
  rfl

/-! ## Host stretch 7 -/

attribute [local irreducible] Host.gather Host.scatterAdd Host.reduceAdd in
set_option maxHeartbeats 4000000 in
/-- Host stretch 7 leaves in `main_v149` the named function of the contents it reads: the operations that make it, read
    back in order, are that function's own (the two programs' dimension records have equal fields). -/
theorem host7_main_v149 (V : Valuation τ sig (Elt F)) :
    after hostOps7 V (Proc.devRef .tc main_v149) = kRow (V (Proc.devRef .tc main_arg34)) := by
  simp only [hostOps7]
  after_results_simp
  rfl

attribute [local irreducible] Host.gather Host.scatterAdd Host.reduceAdd in
set_option maxHeartbeats 4000000 in
/-- Host stretch 7 leaves in `main_v150` the named function of the contents it reads: the operations that make it, read
    back in order, are that function's own (the two programs' dimension records have equal fields). -/
theorem host7_main_v150 (V : Valuation τ sig (Elt F)) :
    after hostOps7 V (Proc.devRef .tc main_v150) = kRow (V (Proc.devRef .tc main_arg35)) := by
  simp only [hostOps7]
  after_results_simp
  rfl

/-! ## Host stretch 8 -/

attribute [local irreducible] Host.gather Host.scatterAdd Host.reduceAdd in
set_option maxHeartbeats 4000000 in
/-- Host stretch 8 leaves in `main_v152` the named function of the contents it reads: the operations that make it, read
    back in order, are that function's own (the two programs' dimension records have equal fields). -/
theorem host8_main_v152 (V : Valuation τ sig (Elt F)) :
    after hostOps8 V (Proc.devRef .tc main_v152) = kRow4 (V (Proc.devRef .tc main_arg37)) := by
  simp only [hostOps8]
  after_results_simp
  rfl

/-! ## Host stretch 9 -/

attribute [local irreducible] Host.gather Host.scatterAdd Host.reduceAdd in
set_option maxHeartbeats 4000000 in
/-- Host stretch 9 leaves in `main_v154` the named function of the contents it reads: the operations that make it, read
    back in order, are that function's own (the two programs' dimension records have equal fields). -/
theorem host9_main_v154 (V : Valuation τ sig (Elt F)) :
    after hostOps9 V (Proc.devRef .tc main_v154) = kRow7 (V (Proc.devRef .tc main_arg39)) := by
  simp only [hostOps9]
  after_results_simp
  rfl

end Cert.KernelIdeal.Hand

end
-- ==== Proof.KI.ChainDefs.lean ====
/- The network over the kernel program's launch contents (the reference's stage functions at the kernel program's arguments), the names of the convolution regions' column sums, the real-valuedness the normalisation regions ask for, and the buffers no item of the run writes. -/
import proofs.«154353_j88940182765819_1_alg».proof.Proof.KI.Fold
import proofs.«154353_j88940182765819_1_alg».proof.Proof.KI.Value0
import proofs.«154353_j88940182765819_1_alg».proof.Proof.KI.Value1
import proofs.«154353_j88940182765819_1_alg».proof.Proof.KI.Value2
import proofs.«154353_j88940182765819_1_alg».proof.Proof.KI.Value3
import proofs.«154353_j88940182765819_1_alg».proof.Proof.KI.Value4
import proofs.«154353_j88940182765819_1_alg».proof.Proof.KI.Value5
import proofs.«154353_j88940182765819_1_alg».proof.Proof.KI.Value6
import proofs.«154353_j88940182765819_1_alg».proof.Proof.KI.Value7
import proofs.«154353_j88940182765819_1_alg».proof.Proof.KI.Value8
import proofs.«154353_j88940182765819_1_alg».proof.Proof.KI.Value9
import proofs.«154353_j88940182765819_1_alg».proof.Proof.KI.HostA
import proofs.«154353_j88940182765819_1_alg».proof.Proof.KI.HostB
import proofs.«154353_j88940182765819_1_alg».proof.Proof.Ref.Stages
import proofs.«154353_j88940182765819_1_alg».proof.Proof.Math.KStages
import proofs.«154353_j88940182765819_1_alg».proof.Proof.Math.RealValued

set_option maxRecDepth 16384

noncomputable section

namespace Cert.KernelIdeal.Hand

open Cert.KernelIdeal Cert.KernelIdeal.Gen Cert.Bridge Cert.ReferenceIdeal.RefRun
open Idealize.ShloMosaic Idealize.ShloMosaic.TcCoe Idealize.SL.Sem Idealize.ShloMosaic.StableHlo

open Idealize.ShloMosaic.ValueIdx

variable (m : (ℓ : Loc nD τ sig) → Buf (Elt Ideal) ℓ) (c : Dev nD)

/-! ## The network over the kernel program's launch contents -/

/-- Layer 1, author nodes, before normalisation: the reference's stage functions at the launch contents of the kernel program's arguments. -/
def kA1c : Ten Ideal Cert.ReferenceIdeal.S100000x128 .f32 :=
  refConv (F := Ideal) Cert.ReferenceIdeal.dot_S100000x256_S256x128_S100000x128_1_0_0_1_n_n Cert.ReferenceIdeal.dot_S100000x128_S128x128_S100000x128_1_0_0_1_n_n (m ((c : Thread nD τ).loc main_arg0)) (refAgg128 (m ((c : Thread nD τ).loc main_arg1)) (m ((c : Thread nD τ).loc main_arg2))) (m ((c : Thread nD τ).loc main_arg6)) (m ((c : Thread nD τ).loc main_arg7)) (m ((c : Thread nD τ).loc main_arg4)) (m ((c : Thread nD τ).loc main_arg5)) (m ((c : Thread nD τ).loc main_arg8)) (m ((c : Thread nD τ).loc main_arg9))

/-- Layer 1, paper nodes, before normalisation: the reference's stage functions at the launch contents of the kernel program's arguments. -/
def kP1c : Ten Ideal Cert.ReferenceIdeal.S100000x128 .f32 :=
  refConv (F := Ideal) Cert.ReferenceIdeal.dot_S100000x128_S128x128_S100000x128_1_0_0_1_n_n Cert.ReferenceIdeal.dot_S100000x256_S256x128_S100000x128_1_0_0_1_n_n (m ((c : Thread nD τ).loc main_arg1)) (refAgg256 (m ((c : Thread nD τ).loc main_arg0)) (m ((c : Thread nD τ).loc main_arg3))) (m ((c : Thread nD τ).loc main_arg12)) (m ((c : Thread nD τ).loc main_arg13)) (m ((c : Thread nD τ).loc main_arg10)) (m ((c : Thread nD τ).loc main_arg11)) (m ((c : Thread nD τ).loc main_arg14)) (m ((c : Thread nD τ).loc main_arg15))

/-- Layer 1, author nodes: the reference's stage functions at the launch contents of the kernel program's arguments. -/
def kA1 : Ten Ideal Cert.ReferenceIdeal.S100000x128 .f32 :=
  refBN (F := Ideal) (kA1c m c) (m ((c : Thread nD τ).loc main_arg28)) (m ((c : Thread nD τ).loc main_arg29))

/-- Layer 1, paper nodes: the reference's stage functions at the launch contents of the kernel program's arguments. -/
def kP1 : Ten Ideal Cert.ReferenceIdeal.S100000x128 .f32 :=
  refBN (F := Ideal) (kP1c m c) (m ((c : Thread nD τ).loc main_arg30)) (m ((c : Thread nD τ).loc main_arg31))

/-- Layer 2, author nodes, before normalisation: the reference's stage functions at the launch contents of the kernel program's arguments. -/
def kA2c : Ten Ideal Cert.ReferenceIdeal.S100000x128 .f32 :=
  refConv (F := Ideal) Cert.ReferenceIdeal.dot_S100000x128_S128x128_S100000x128_1_0_0_1_n_n Cert.ReferenceIdeal.dot_S100000x128_S128x128_S100000x128_1_0_0_1_n_n (kA1 m c) (refAgg128 (kP1 m c) (m ((c : Thread nD τ).loc main_arg2))) (m ((c : Thread nD τ).loc main_arg18)) (m ((c : Thread nD τ).loc main_arg19)) (m ((c : Thread nD τ).loc main_arg16)) (m ((c : Thread nD τ).loc main_arg17)) (m ((c : Thread nD τ).loc main_arg20)) (m ((c : Thread nD τ).loc main_arg21))

/-- Layer 2, paper nodes, before normalisation: the reference's stage functions at the launch contents of the kernel program's arguments. -/
def kP2c : Ten Ideal Cert.ReferenceIdeal.S100000x128 .f32 :=
  refConv (F := Ideal) Cert.ReferenceIdeal.dot_S100000x128_S128x128_S100000x128_1_0_0_1_n_n Cert.ReferenceIdeal.dot_S100000x128_S128x128_S100000x128_1_0_0_1_n_n (kP1 m c) (refAgg128 (kA1 m c) (m ((c : Thread nD τ).loc main_arg3))) (m ((c : Thread nD τ).loc main_arg24)) (m ((c : Thread nD τ).loc main_arg25)) (m ((c : Thread nD τ).loc main_arg22)) (m ((c : Thread nD τ).loc main_arg23)) (m ((c : Thread nD τ).loc main_arg26)) (m ((c : Thread nD τ).loc main_arg27))

/-- Layer 2, author nodes: the reference's stage functions at the launch contents of the kernel program's arguments. -/
def kA2 : Ten Ideal Cert.ReferenceIdeal.S100000x128 .f32 :=
  refBN (F := Ideal) (kA2c m c) (m ((c : Thread nD τ).loc main_arg32)) (m ((c : Thread nD τ).loc main_arg33))

/-- Layer 2, paper nodes: the reference's stage functions at the launch contents of the kernel program's arguments. -/
def kP2 : Ten Ideal Cert.ReferenceIdeal.S100000x128 .f32 :=
  refBN (F := Ideal) (kP2c m c) (m ((c : Thread nD τ).loc main_arg34)) (m ((c : Thread nD τ).loc main_arg35))

/-! The convolution regions' second and third results (the column sums of the first and of its squares), named: only
    that they are those sums is used. -/
def sA1 : KTen Ideal S1x128 .f32 := (dat0 (E1 m) c).arrAt 10 cfg0.N
def qA1 : KTen Ideal S1x128 .f32 := (dat0 (E1 m) c).arrAt 11 cfg0.N
def sP1 : KTen Ideal S1x128 .f32 := (dat1 (E3 m) c).arrAt 10 cfg1.N
def qP1 : KTen Ideal S1x128 .f32 := (dat1 (E3 m) c).arrAt 11 cfg1.N
def sA2 : KTen Ideal S1x128 .f32 := (dat4 (E9 m) c).arrAt 10 cfg4.N
def qA2 : KTen Ideal S1x128 .f32 := (dat4 (E9 m) c).arrAt 11 cfg4.N
def sP2 : KTen Ideal S1x128 .f32 := (dat5 (E11 m) c).arrAt 10 cfg5.N
def qP2 : KTen Ideal S1x128 .f32 := (dat5 (E11 m) c).arrAt 11 cfg5.N

/-- The four convolution outputs are real-valued (no infinity, no NaN): what the normalisation regions' value lemmas ask of
    their input. It follows from the arguments being finite. -/
structure ConvReal : Prop where
  a1 : Cert.RealValued.IsReal (kA1c m c)
  p1 : Cert.RealValued.IsReal (kP1c m c)
  a2 : Cert.RealValued.IsReal (kA2c m c)
  p2 : Cert.RealValued.IsReal (kP2c m c)

/-! ## Buffers no item writes -/

/-- Every buffer some item writes. -/
abbrev KWall : List (Ref sig .tc) := hostOps0_W ++ (([main_v51_0, main_v51_1, main_v51_2] : List (Ref sig .tc)) ++ (hostOps1_W ++ (([main_v57_0, main_v57_1, main_v57_2] : List (Ref sig .tc)) ++ (hostOps2_W ++ (([main_v76] : List (Ref sig .tc)) ++ (hostOps3_W ++ (([main_v79] : List (Ref sig .tc)) ++ (hostOps4_W ++ (([main_v123_0, main_v123_1, main_v123_2] : List (Ref sig .tc)) ++ (hostOps5_W ++ (([main_v129_0, main_v129_1, main_v129_2] : List (Ref sig .tc)) ++ (hostOps6_W ++ (([main_v148] : List (Ref sig .tc)) ++ (hostOps7_W ++ (([main_v151] : List (Ref sig .tc)) ++ (hostOps8_W ++ (([main_v153] : List (Ref sig .tc)) ++ (hostOps9_W ++ (([main_v155] : List (Ref sig .tc)))))))))))))))))))))
theorem arg0_notKW : main_arg0 ∉ (KWall) := by decide
theorem arg1_notKW : main_arg1 ∉ (KWall) := by decide
theorem arg2_notKW : main_arg2 ∉ (KWall) := by decide
theorem arg3_notKW : main_arg3 ∉ (KWall) := by decide
theorem arg4_notKW : main_arg4 ∉ (KWall) := by decide
theorem arg5_notKW : main_arg5 ∉ (KWall) := by decide
theorem arg6_notKW : main_arg6 ∉ (KWall) := by decide
theorem arg7_notKW : main_arg7 ∉ (KWall) := by decide
theorem arg8_notKW : main_arg8 ∉ (KWall) := by decide
theorem arg9_notKW : main_arg9 ∉ (KWall) := by decide
theorem arg10_notKW : main_arg10 ∉ (KWall) := by decide
theorem arg11_notKW : main_arg11 ∉ (KWall) := by decide
theorem arg12_notKW : main_arg12 ∉ (KWall) := by decide
theorem arg13_notKW : main_arg13 ∉ (KWall) := by decide
theorem arg14_notKW : main_arg14 ∉ (KWall) := by decide
theorem arg15_notKW : main_arg15 ∉ (KWall) := by decide
theorem arg16_notKW : main_arg16 ∉ (KWall) := by decide
theorem arg17_notKW : main_arg17 ∉ (KWall) := by decide
theorem arg18_notKW : main_arg18 ∉ (KWall) := by decide
theorem arg19_notKW : main_arg19 ∉ (KWall) := by decide
theorem arg20_notKW : main_arg20 ∉ (KWall) := by decide
theorem arg21_notKW : main_arg21 ∉ (KWall) := by decide
theorem arg22_notKW : main_arg22 ∉ (KWall) := by decide
theorem arg23_notKW : main_arg23 ∉ (KWall) := by decide
theorem arg24_notKW : main_arg24 ∉ (KWall) := by decide
theorem arg25_notKW : main_arg25 ∉ (KWall) := by decide
theorem arg26_notKW : main_arg26 ∉ (KWall) := by decide
theorem arg27_notKW : main_arg27 ∉ (KWall) := by decide
theorem arg28_notKW : main_arg28 ∉ (KWall) := by decide
theorem arg29_notKW : main_arg29 ∉ (KWall) := by decide
theorem arg30_notKW : main_arg30 ∉ (KWall) := by decide
theorem arg31_notKW : main_arg31 ∉ (KWall) := by decide
theorem arg32_notKW : main_arg32 ∉ (KWall) := by decide
theorem arg33_notKW : main_arg33 ∉ (KWall) := by decide
theorem arg34_notKW : main_arg34 ∉ (KWall) := by decide
theorem arg35_notKW : main_arg35 ∉ (KWall) := by decide
theorem arg36_notKW : main_arg36 ∉ (KWall) := by decide
theorem arg37_notKW : main_arg37 ∉ (KWall) := by decide
theorem arg38_notKW : main_arg38 ∉ (KWall) := by decide
theorem arg39_notKW : main_arg39 ∉ (KWall) := by decide

end Cert.KernelIdeal.Hand

end
-- ==== Proof.KI.ChainItems.lean ====
/- Through the twenty items of the kernel program's run (ten host stretches, ten regions): each buffer a later item reads, at a named term over the launch contents — a host stretch's by reading its operations back, a region's by its value lemma at the contents it is entered from, every other buffer unchanged. -/
import proofs.«154353_j88940182765819_1_alg».proof.Proof.KI.ChainDefs

set_option maxRecDepth 16384

noncomputable section

namespace Cert.KernelIdeal.Hand

open Cert.KernelIdeal Cert.KernelIdeal.Gen Cert.Bridge Cert.ReferenceIdeal.RefRun
open Idealize.ShloMosaic Idealize.ShloMosaic.TcCoe Idealize.SL.Sem Idealize.ShloMosaic.StableHlo

open Idealize.ShloMosaic.ValueIdx

variable (m : (ℓ : Loc nD τ sig) → Buf (Elt Ideal) ℓ) (c : Dev nD)

variable (hr : ConvReal m c)
include hr

/-! ## Item 1: host stretch 0 -/

theorem W1_arg (r : Ref sig .tc) (h : r ∉ (KWall)) : W1 m c (Proc.devRef .tc r) = m ((c : Thread nD τ).loc r) :=
  W1_keep m c r (fun hk => h (List.mem_append_left _ hk))
theorem W1_main_v1 : W1 m c (Proc.devRef .tc main_v1) = refRow0 (m ((c : Thread nD τ).loc main_arg2)) := by
  have h := host0_main_v1 (W0 m c)
  exact h
theorem W1_main_v3 : W1 m c (Proc.devRef .tc main_v3) = refRow1 (m ((c : Thread nD τ).loc main_arg2)) := by
  have h := host0_main_v3 (W0 m c)
  exact h
theorem W1_main_v5 : W1 m c (Proc.devRef .tc main_v5) = refRow0 (m ((c : Thread nD τ).loc main_arg3)) := by
  have h := host0_main_v5 (W0 m c)
  exact h
theorem W1_main_v7 : W1 m c (Proc.devRef .tc main_v7) = refRow1 (m ((c : Thread nD τ).loc main_arg3)) := by
  have h := host0_main_v7 (W0 m c)
  exact h
theorem W1_main_v26 : W1 m c (Proc.devRef .tc main_v26) = refAgg128 (m ((c : Thread nD τ).loc main_arg1)) (m ((c : Thread nD τ).loc main_arg2)) := by
  have h := host0_main_v26 (W0 m c)
  exact h
theorem W1_main_v45 : W1 m c (Proc.devRef .tc main_v45) = refAgg256 (m ((c : Thread nD τ).loc main_arg0)) (m ((c : Thread nD τ).loc main_arg3)) := by
  have h := host0_main_v45 (W0 m c)
  exact h
theorem W1_main_v46 : W1 m c (Proc.devRef .tc main_v46) = kWu0 (m ((c : Thread nD τ).loc main_arg8)) := by
  have h := host0_main_v46 (W0 m c)
  exact h
theorem W1_main_v47 : W1 m c (Proc.devRef .tc main_v47) = kWu1 (m ((c : Thread nD τ).loc main_arg8)) := by
  have h := host0_main_v47 (W0 m c)
  exact h
theorem W1_main_v48 : W1 m c (Proc.devRef .tc main_v48) = kRow (m ((c : Thread nD τ).loc main_arg7)) := by
  have h := host0_main_v48 (W0 m c)
  exact h
theorem W1_main_v49 : W1 m c (Proc.devRef .tc main_v49) = kRow (m ((c : Thread nD τ).loc main_arg5)) := by
  have h := host0_main_v49 (W0 m c)
  exact h
theorem W1_main_v50 : W1 m c (Proc.devRef .tc main_v50) = kRow (m ((c : Thread nD τ).loc main_arg9)) := by
  have h := host0_main_v50 (W0 m c)
  exact h

/-! ## Item 2: region 0 -/

theorem W2_arg (r : Ref sig .tc) (h : r ∉ (KWall)) : W2 m c (Proc.devRef .tc r) = m ((c : Thread nD τ).loc r) :=
  (W2_keep m c r (fun hk => h (List.mem_append_right _ (List.mem_append_left _ hk)))).trans (W1_arg m c hr r h)
/-- Region 0's first result: the convolution's linear maps of the contents it is entered from. -/
theorem conv0_eq : (dat0 (E1 m) c).arrAt 9 cfg0.N = kA1c m c := by
  have h := conv0 (E1 m) c (m ((c : Thread nD τ).loc main_arg7)) (m ((c : Thread nD τ).loc main_arg5)) (m ((c : Thread nD τ).loc main_arg9)) (m ((c : Thread nD τ).loc main_arg8)) (W1_main_v48 m c hr) (W1_main_v49 m c hr) (W1_main_v50 m c hr) (W1_main_v46 m c hr) (W1_main_v47 m c hr)
  dsimp only [E1] at h
  rw [W1_arg m c hr main_arg0 arg0_notKW, W1_main_v26 m c hr, W1_arg m c hr main_arg6 arg6_notKW, W1_arg m c hr main_arg4 arg4_notKW] at h
  exact h
theorem W2_main_v51_0 : W2 m c (Proc.devRef .tc main_v51_0) = kA1c m c := (W2_arr m c 9).trans (conv0_eq m c hr)
theorem W2_main_v51_1 : W2 m c (Proc.devRef .tc main_v51_1) = sA1 m c := W2_arr m c 10
theorem W2_main_v51_2 : W2 m c (Proc.devRef .tc main_v51_2) = qA1 m c := W2_arr m c 11
theorem W2_main_v1 : W2 m c (Proc.devRef .tc main_v1) = refRow0 (m ((c : Thread nD τ).loc main_arg2)) :=
  (W2_keep m c main_v1 (by decide)).trans (W1_main_v1 m c hr)
theorem W2_main_v3 : W2 m c (Proc.devRef .tc main_v3) = refRow1 (m ((c : Thread nD τ).loc main_arg2)) :=
  (W2_keep m c main_v3 (by decide)).trans (W1_main_v3 m c hr)
theorem W2_main_v5 : W2 m c (Proc.devRef .tc main_v5) = refRow0 (m ((c : Thread nD τ).loc main_arg3)) :=
  (W2_keep m c main_v5 (by decide)).trans (W1_main_v5 m c hr)
theorem W2_main_v7 : W2 m c (Proc.devRef .tc main_v7) = refRow1 (m ((c : Thread nD τ).loc main_arg3)) :=
  (W2_keep m c main_v7 (by decide)).trans (W1_main_v7 m c hr)
theorem W2_main_v45 : W2 m c (Proc.devRef .tc main_v45) = refAgg256 (m ((c : Thread nD τ).loc main_arg0)) (m ((c : Thread nD τ).loc main_arg3)) :=
  (W2_keep m c main_v45 (by decide)).trans (W1_main_v45 m c hr)

/-! ## Item 3: host stretch 1 -/

theorem W3_arg (r : Ref sig .tc) (h : r ∉ (KWall)) : W3 m c (Proc.devRef .tc r) = m ((c : Thread nD τ).loc r) :=
  (W3_keep m c r (fun hk => h (List.mem_append_right _ (List.mem_append_right _ (List.mem_append_left _ hk))))).trans (W2_arg m c hr r h)
theorem W3_main_v52 : W3 m c (Proc.devRef .tc main_v52) = kWu0 (m ((c : Thread nD τ).loc main_arg14)) := by
  have h := host1_main_v52 (W2 m c)
  rw [W2_arg m c hr main_arg14 arg14_notKW] at h
  exact h
theorem W3_main_v53 : W3 m c (Proc.devRef .tc main_v53) = kWu1 (m ((c : Thread nD τ).loc main_arg14)) := by
  have h := host1_main_v53 (W2 m c)
  rw [W2_arg m c hr main_arg14 arg14_notKW] at h
  exact h
theorem W3_main_v54 : W3 m c (Proc.devRef .tc main_v54) = kRow (m ((c : Thread nD τ).loc main_arg13)) := by
  have h := host1_main_v54 (W2 m c)
  rw [W2_arg m c hr main_arg13 arg13_notKW] at h
  exact h
theorem W3_main_v55 : W3 m c (Proc.devRef .tc main_v55) = kRow (m ((c : Thread nD τ).loc main_arg11)) := by
  have h := host1_main_v55 (W2 m c)
  rw [W2_arg m c hr main_arg11 arg11_notKW] at h
  exact h
theorem W3_main_v56 : W3 m c (Proc.devRef .tc main_v56) = kRow (m ((c : Thread nD τ).loc main_arg15)) := by
  have h := host1_main_v56 (W2 m c)
  rw [W2_arg m c hr main_arg15 arg15_notKW] at h
  exact h
theorem W3_main_v1 : W3 m c (Proc.devRef .tc main_v1) = refRow0 (m ((c : Thread nD τ).loc main_arg2)) :=
  (W3_keep m c main_v1 (by decide)).trans (W2_main_v1 m c hr)
theorem W3_main_v3 : W3 m c (Proc.devRef .tc main_v3) = refRow1 (m ((c : Thread nD τ).loc main_arg2)) :=
  (W3_keep m c main_v3 (by decide)).trans (W2_main_v3 m c hr)
theorem W3_main_v5 : W3 m c (Proc.devRef .tc main_v5) = refRow0 (m ((c : Thread nD τ).loc main_arg3)) :=
  (W3_keep m c main_v5 (by decide)).trans (W2_main_v5 m c hr)
theorem W3_main_v7 : W3 m c (Proc.devRef .tc main_v7) = refRow1 (m ((c : Thread nD τ).loc main_arg3)) :=
  (W3_keep m c main_v7 (by decide)).trans (W2_main_v7 m c hr)
theorem W3_main_v45 : W3 m c (Proc.devRef .tc main_v45) = refAgg256 (m ((c : Thread nD τ).loc main_arg0)) (m ((c : Thread nD τ).loc main_arg3)) :=
  (W3_keep m c main_v45 (by decide)).trans (W2_main_v45 m c hr)
theorem W3_main_v51_0 : W3 m c (Proc.devRef .tc main_v51_0) = kA1c m c :=
  (W3_keep m c main_v51_0 (by decide)).trans (W2_main_v51_0 m c hr)
theorem W3_main_v51_1 : W3 m c (Proc.devRef .tc main_v51_1) = sA1 m c :=
  (W3_keep m c main_v51_1 (by decide)).trans (W2_main_v51_1 m c hr)
theorem W3_main_v51_2 : W3 m c (Proc.devRef .tc main_v51_2) = qA1 m c :=
  (W3_keep m c main_v51_2 (by decide)).trans (W2_main_v51_2 m c hr)

/-! ## Item 4: region 1 -/

theorem W4_arg (r : Ref sig .tc) (h : r ∉ (KWall)) : W4 m c (Proc.devRef .tc r) = m ((c : Thread nD τ).loc r) :=
  (W4_keep m c r (fun hk => h (List.mem_append_right _ (List.mem_append_right _ (List.mem_append_right _ (List.mem_append_left _ hk)))))).trans (W3_arg m c hr r h)
/-- Region 1's first result: the convolution's linear maps of the contents it is entered from. -/
theorem conv1_eq : (dat1 (E3 m) c).arrAt 9 cfg1.N = kP1c m c := by
  have h := conv1 (E3 m) c (m ((c : Thread nD τ).loc main_arg13)) (m ((c : Thread nD τ).loc main_arg11)) (m ((c : Thread nD τ).loc main_arg15)) (m ((c : Thread nD τ).loc main_arg14)) (W3_main_v54 m c hr) (W3_main_v55 m c hr) (W3_main_v56 m c hr) (W3_main_v52 m c hr) (W3_main_v53 m c hr)
  dsimp only [E3] at h
  rw [W3_arg m c hr main_arg1 arg1_notKW, W3_main_v45 m c hr, W3_arg m c hr main_arg12 arg12_notKW, W3_arg m c hr main_arg10 arg10_notKW] at h
  exact h
theorem W4_main_v57_0 : W4 m c (Proc.devRef .tc main_v57_0) = kP1c m c := (W4_arr m c 9).trans (conv1_eq m c hr)
theorem W4_main_v57_1 : W4 m c (Proc.devRef .tc main_v57_1) = sP1 m c := W4_arr m c 10
theorem W4_main_v57_2 : W4 m c (Proc.devRef .tc main_v57_2) = qP1 m c := W4_arr m c 11
theorem W4_main_v1 : W4 m c (Proc.devRef .tc main_v1) = refRow0 (m ((c : Thread nD τ).loc main_arg2)) :=
  (W4_keep m c main_v1 (by decide)).trans (W3_main_v1 m c hr)
theorem W4_main_v3 : W4 m c (Proc.devRef .tc main_v3) = refRow1 (m ((c : Thread nD τ).loc main_arg2)) :=
  (W4_keep m c main_v3 (by decide)).trans (W3_main_v3 m c hr)
theorem W4_main_v5 : W4 m c (Proc.devRef .tc main_v5) = refRow0 (m ((c : Thread nD τ).loc main_arg3)) :=
  (W4_keep m c main_v5 (by decide)).trans (W3_main_v5 m c hr)
theorem W4_main_v7 : W4 m c (Proc.devRef .tc main_v7) = refRow1 (m ((c : Thread nD τ).loc main_arg3)) :=
  (W4_keep m c main_v7 (by decide)).trans (W3_main_v7 m c hr)
theorem W4_main_v51_0 : W4 m c (Proc.devRef .tc main_v51_0) = kA1c m c :=
  (W4_keep m c main_v51_0 (by decide)).trans (W3_main_v51_0 m c hr)
theorem W4_main_v51_1 : W4 m c (Proc.devRef .tc main_v51_1) = sA1 m c :=
  (W4_keep m c main_v51_1 (by decide)).trans (W3_main_v51_1 m c hr)
theorem W4_main_v51_2 : W4 m c (Proc.devRef .tc main_v51_2) = qA1 m c :=
  (W4_keep m c main_v51_2 (by decide)).trans (W3_main_v51_2 m c hr)

/-! ## Item 5: host stretch 2 -/

theorem W5_arg (r : Ref sig .tc) (h : r ∉ (KWall)) : W5 m c (Proc.devRef .tc r) = m ((c : Thread nD τ).loc r) :=
  (W5_keep m c r (fun hk => h (List.mem_append_right _ (List.mem_append_right _ (List.mem_append_right _ (List.mem_append_right _ (List.mem_append_left _ hk))))))).trans (W4_arg m c hr r h)
theorem W5_main_v59 : W5 m c (Proc.devRef .tc main_v59) = kMean (sA1 m c) := by
  have h := host2_main_v59 (W4 m c)
  rw [W4_main_v51_1 m c hr] at h
  exact h
theorem W5_main_v65 : W5 m c (Proc.devRef .tc main_v65) = kVar (sA1 m c) (qA1 m c) := by
  have h := host2_main_v65 (W4 m c)
  rw [W4_main_v51_1 m c hr, W4_main_v51_2 m c hr] at h
  exact h
theorem W5_main_v67 : W5 m c (Proc.devRef .tc main_v67) = kMean (sP1 m c) := by
  have h := host2_main_v67 (W4 m c)
  rw [W4_main_v57_1 m c hr] at h
  exact h
theorem W5_main_v73 : W5 m c (Proc.devRef .tc main_v73) = kVar (sP1 m c) (qP1 m c) := by
  have h := host2_main_v73 (W4 m c)
  rw [W4_main_v57_1 m c hr, W4_main_v57_2 m c hr] at h
  exact h
theorem W5_main_v74 : W5 m c (Proc.devRef .tc main_v74) = kRow (m ((c : Thread nD τ).loc main_arg28)) := by
  have h := host2_main_v74 (W4 m c)
  rw [W4_arg m c hr main_arg28 arg28_notKW] at h
  exact h
theorem W5_main_v75 : W5 m c (Proc.devRef .tc main_v75) = kRow (m ((c : Thread nD τ).loc main_arg29)) := by
  have h := host2_main_v75 (W4 m c)
  rw [W4_arg m c hr main_arg29 arg29_notKW] at h
  exact h
theorem W5_main_v1 : W5 m c (Proc.devRef .tc main_v1) = refRow0 (m ((c : Thread nD τ).loc main_arg2)) :=
  (W5_keep m c main_v1 (by decide)).trans (W4_main_v1 m c hr)
theorem W5_main_v3 : W5 m c (Proc.devRef .tc main_v3) = refRow1 (m ((c : Thread nD τ).loc main_arg2)) :=
  (W5_keep m c main_v3 (by decide)).trans (W4_main_v3 m c hr)
theorem W5_main_v5 : W5 m c (Proc.devRef .tc main_v5) = refRow0 (m ((c : Thread nD τ).loc main_arg3)) :=
  (W5_keep m c main_v5 (by decide)).trans (W4_main_v5 m c hr)
theorem W5_main_v7 : W5 m c (Proc.devRef .tc main_v7) = refRow1 (m ((c : Thread nD τ).loc main_arg3)) :=
  (W5_keep m c main_v7 (by decide)).trans (W4_main_v7 m c hr)
theorem W5_main_v51_0 : W5 m c (Proc.devRef .tc main_v51_0) = kA1c m c :=
  (W5_keep m c main_v51_0 (by decide)).trans (W4_main_v51_0 m c hr)
theorem W5_main_v57_0 : W5 m c (Proc.devRef .tc main_v57_0) = kP1c m c :=
  (W5_keep m c main_v57_0 (by decide)).trans (W4_main_v57_0 m c hr)

/-! ## Item 6: region 2 -/

theorem W6_arg (r : Ref sig .tc) (h : r ∉ (KWall)) : W6 m c (Proc.devRef .tc r) = m ((c : Thread nD τ).loc r) :=
  (W6_keep m c r (fun hk => h (List.mem_append_right _ (List.mem_append_right _ (List.mem_append_right _ (List.mem_append_right _ (List.mem_append_right _ (List.mem_append_left _ hk)))))))).trans (W5_arg m c hr r h)
/-- Region 2's result: the normalisation and LeakyReLU of region 0's, the batch statistics being its column sums'. -/
theorem W6_main_v76 : W6 m c (Proc.devRef .tc main_v76) = kA1 m c :=
  (W6_arr m c 5).trans
    (bn2 (E5 m) c (kA1c m c) (m ((c : Thread nD τ).loc main_arg28)) (m ((c : Thread nD τ).loc main_arg29)) (sA1 m c) (qA1 m c) (W5_main_v51_0 m c hr) hr.a1 (W5_main_v74 m c hr) (W5_main_v75 m c hr)
      (W5_main_v59 m c hr) (W5_main_v65 m c hr)
      (sums0 (E1 m) c (kA1c m c) (sA1 m c) (qA1 m c) (conv0_eq m c hr).symm rfl rfl).1
      (sums0 (E1 m) c (kA1c m c) (sA1 m c) (qA1 m c) (conv0_eq m c hr).symm rfl rfl).2)
theorem W6_main_v1 : W6 m c (Proc.devRef .tc main_v1) = refRow0 (m ((c : Thread nD τ).loc main_arg2)) :=
  (W6_keep m c main_v1 (by decide)).trans (W5_main_v1 m c hr)
theorem W6_main_v3 : W6 m c (Proc.devRef .tc main_v3) = refRow1 (m ((c : Thread nD τ).loc main_arg2)) :=
  (W6_keep m c main_v3 (by decide)).trans (W5_main_v3 m c hr)
theorem W6_main_v5 : W6 m c (Proc.devRef .tc main_v5) = refRow0 (m ((c : Thread nD τ).loc main_arg3)) :=
  (W6_keep m c main_v5 (by decide)).trans (W5_main_v5 m c hr)
theorem W6_main_v7 : W6 m c (Proc.devRef .tc main_v7) = refRow1 (m ((c : Thread nD τ).loc main_arg3)) :=
  (W6_keep m c main_v7 (by decide)).trans (W5_main_v7 m c hr)
theorem W6_main_v57_0 : W6 m c (Proc.devRef .tc main_v57_0) = kP1c m c :=
  (W6_keep m c main_v57_0 (by decide)).trans (W5_main_v57_0 m c hr)
theorem W6_main_v67 : W6 m c (Proc.devRef .tc main_v67) = kMean (sP1 m c) :=
  (W6_keep m c main_v67 (by decide)).trans (W5_main_v67 m c hr)
theorem W6_main_v73 : W6 m c (Proc.devRef .tc main_v73) = kVar (sP1 m c) (qP1 m c) :=
  (W6_keep m c main_v73 (by decide)).trans (W5_main_v73 m c hr)

/-! ## Item 7: host stretch 3 -/

theorem W7_arg (r : Ref sig .tc) (h : r ∉ (KWall)) : W7 m c (Proc.devRef .tc r) = m ((c : Thread nD τ).loc r) :=
  (W7_keep m c r (fun hk => h (List.mem_append_right _ (List.mem_append_right _ (List.mem_append_right _ (List.mem_append_right _ (List.mem_append_right _ (List.mem_append_right _ (List.mem_append_left _ hk))))))))).trans (W6_arg m c hr r h)
theorem W7_main_v77 : W7 m c (Proc.devRef .tc main_v77) = kRow (m ((c : Thread nD τ).loc main_arg30)) := by
  have h := host3_main_v77 (W6 m c)
  rw [W6_arg m c hr main_arg30 arg30_notKW] at h
  exact h
theorem W7_main_v78 : W7 m c (Proc.devRef .tc main_v78) = kRow (m ((c : Thread nD τ).loc main_arg31)) := by
  have h := host3_main_v78 (W6 m c)
  rw [W6_arg m c hr main_arg31 arg31_notKW] at h
  exact h
theorem W7_main_v1 : W7 m c (Proc.devRef .tc main_v1) = refRow0 (m ((c : Thread nD τ).loc main_arg2)) :=
  (W7_keep m c main_v1 (by decide)).trans (W6_main_v1 m c hr)
theorem W7_main_v3 : W7 m c (Proc.devRef .tc main_v3) = refRow1 (m ((c : Thread nD τ).loc main_arg2)) :=
  (W7_keep m c main_v3 (by decide)).trans (W6_main_v3 m c hr)
theorem W7_main_v5 : W7 m c (Proc.devRef .tc main_v5) = refRow0 (m ((c : Thread nD τ).loc main_arg3)) :=
  (W7_keep m c main_v5 (by decide)).trans (W6_main_v5 m c hr)
theorem W7_main_v7 : W7 m c (Proc.devRef .tc main_v7) = refRow1 (m ((c : Thread nD τ).loc main_arg3)) :=
  (W7_keep m c main_v7 (by decide)).trans (W6_main_v7 m c hr)
theorem W7_main_v57_0 : W7 m c (Proc.devRef .tc main_v57_0) = kP1c m c :=
  (W7_keep m c main_v57_0 (by decide)).trans (W6_main_v57_0 m c hr)
theorem W7_main_v67 : W7 m c (Proc.devRef .tc main_v67) = kMean (sP1 m c) :=
  (W7_keep m c main_v67 (by decide)).trans (W6_main_v67 m c hr)
theorem W7_main_v73 : W7 m c (Proc.devRef .tc main_v73) = kVar (sP1 m c) (qP1 m c) :=
  (W7_keep m c main_v73 (by decide)).trans (W6_main_v73 m c hr)
theorem W7_main_v76 : W7 m c (Proc.devRef .tc main_v76) = kA1 m c :=
  (W7_keep m c main_v76 (by decide)).trans (W6_main_v76 m c hr)

/-! ## Item 8: region 3 -/

theorem W8_arg (r : Ref sig .tc) (h : r ∉ (KWall)) : W8 m c (Proc.devRef .tc r) = m ((c : Thread nD τ).loc r) :=
  (W8_keep m c r (fun hk => h (List.mem_append_right _ (List.mem_append_right _ (List.mem_append_right _ (List.mem_append_right _ (List.mem_append_right _ (List.mem_append_right _ (List.mem_append_right _ (List.mem_append_left _ hk)))))))))).trans (W7_arg m c hr r h)
/-- Region 3's result: the normalisation and LeakyReLU of region 1's, the batch statistics being its column sums'. -/
theorem W8_main_v79 : W8 m c (Proc.devRef .tc main_v79) = kP1 m c :=
  (W8_arr m c 5).trans
    (bn3 (E7 m) c (kP1c m c) (m ((c : Thread nD τ).loc main_arg30)) (m ((c : Thread nD τ).loc main_arg31)) (sP1 m c) (qP1 m c) (W7_main_v57_0 m c hr) hr.p1 (W7_main_v77 m c hr) (W7_main_v78 m c hr)
      (W7_main_v67 m c hr) (W7_main_v73 m c hr)
      (sums1 (E3 m) c (kP1c m c) (sP1 m c) (qP1 m c) (conv1_eq m c hr).symm rfl rfl).1
      (sums1 (E3 m) c (kP1c m c) (sP1 m c) (qP1 m c) (conv1_eq m c hr).symm rfl rfl).2)
theorem W8_main_v1 : W8 m c (Proc.devRef .tc main_v1) = refRow0 (m ((c : Thread nD τ).loc main_arg2)) :=
  (W8_keep m c main_v1 (by decide)).trans (W7_main_v1 m c hr)
theorem W8_main_v3 : W8 m c (Proc.devRef .tc main_v3) = refRow1 (m ((c : Thread nD τ).loc main_arg2)) :=
  (W8_keep m c main_v3 (by decide)).trans (W7_main_v3 m c hr)
theorem W8_main_v5 : W8 m c (Proc.devRef .tc main_v5) = refRow0 (m ((c : Thread nD τ).loc main_arg3)) :=
  (W8_keep m c main_v5 (by decide)).trans (W7_main_v5 m c hr)
theorem W8_main_v7 : W8 m c (Proc.devRef .tc main_v7) = refRow1 (m ((c : Thread nD τ).loc main_arg3)) :=
  (W8_keep m c main_v7 (by decide)).trans (W7_main_v7 m c hr)
theorem W8_main_v76 : W8 m c (Proc.devRef .tc main_v76) = kA1 m c :=
  (W8_keep m c main_v76 (by decide)).trans (W7_main_v76 m c hr)

/-! ## Item 9: host stretch 4 -/

theorem W9_arg (r : Ref sig .tc) (h : r ∉ (KWall)) : W9 m c (Proc.devRef .tc r) = m ((c : Thread nD τ).loc r) :=
  (W9_keep m c r (fun hk => h (List.mem_append_right _ (List.mem_append_right _ (List.mem_append_right _ (List.mem_append_right _ (List.mem_append_right _ (List.mem_append_right _ (List.mem_append_right _ (List.mem_append_right _ (List.mem_append_left _ hk))))))))))).trans (W8_arg m c hr r h)
theorem W9_main_v98 : W9 m c (Proc.devRef .tc main_v98) = refAgg128 (kP1 m c) (m ((c : Thread nD τ).loc main_arg2)) := by
  have h := host4_main_v98 (W8 m c)
  rw [W8_main_v79 m c hr, W8_main_v1 m c hr, W8_main_v3 m c hr] at h
  exact h
theorem W9_main_v117 : W9 m c (Proc.devRef .tc main_v117) = refAgg128 (kA1 m c) (m ((c : Thread nD τ).loc main_arg3)) := by
  have h := host4_main_v117 (W8 m c)
  rw [W8_main_v76 m c hr, W8_main_v5 m c hr, W8_main_v7 m c hr] at h
  exact h
theorem W9_main_v118 : W9 m c (Proc.devRef .tc main_v118) = kWu0 (m ((c : Thread nD τ).loc main_arg20)) := by
  have h := host4_main_v118 (W8 m c)
  rw [W8_arg m c hr main_arg20 arg20_notKW] at h
  exact h
theorem W9_main_v119 : W9 m c (Proc.devRef .tc main_v119) = kWu1 (m ((c : Thread nD τ).loc main_arg20)) := by
  have h := host4_main_v119 (W8 m c)
  rw [W8_arg m c hr main_arg20 arg20_notKW] at h
  exact h
theorem W9_main_v120 : W9 m c (Proc.devRef .tc main_v120) = kRow (m ((c : Thread nD τ).loc main_arg19)) := by
  have h := host4_main_v120 (W8 m c)
  rw [W8_arg m c hr main_arg19 arg19_notKW] at h
  exact h
theorem W9_main_v121 : W9 m c (Proc.devRef .tc main_v121) = kRow (m ((c : Thread nD τ).loc main_arg17)) := by
  have h := host4_main_v121 (W8 m c)
  rw [W8_arg m c hr main_arg17 arg17_notKW] at h
  exact h
theorem W9_main_v122 : W9 m c (Proc.devRef .tc main_v122) = kRow (m ((c : Thread nD τ).loc main_arg21)) := by
  have h := host4_main_v122 (W8 m c)
  rw [W8_arg m c hr main_arg21 arg21_notKW] at h
  exact h
theorem W9_main_v76 : W9 m c (Proc.devRef .tc main_v76) = kA1 m c :=
  (W9_keep m c main_v76 (by decide)).trans (W8_main_v76 m c hr)
theorem W9_main_v79 : W9 m c (Proc.devRef .tc main_v79) = kP1 m c :=
  (W9_keep m c main_v79 (by decide)).trans (W8_main_v79 m c hr)

/-! ## Item 10: region 4 -/

theorem W10_arg (r : Ref sig .tc) (h : r ∉ (KWall)) : W10 m c (Proc.devRef .tc r) = m ((c : Thread nD τ).loc r) :=
  (W10_keep m c r (fun hk => h (List.mem_append_right _ (List.mem_append_right _ (List.mem_append_right _ (List.mem_append_right _ (List.mem_append_right _ (List.mem_append_right _ (List.mem_append_right _ (List.mem_append_right _ (List.mem_append_right _ (List.mem_append_left _ hk)))))))))))).trans (W9_arg m c hr r h)
/-- Region 4's first result: the convolution's linear maps of the contents it is entered from. -/
theorem conv4_eq : (dat4 (E9 m) c).arrAt 9 cfg4.N = kA2c m c := by
  have h := conv4 (E9 m) c (m ((c : Thread nD τ).loc main_arg19)) (m ((c : Thread nD τ).loc main_arg17)) (m ((c : Thread nD τ).loc main_arg21)) (m ((c : Thread nD τ).loc main_arg20)) (W9_main_v120 m c hr) (W9_main_v121 m c hr) (W9_main_v122 m c hr) (W9_main_v118 m c hr) (W9_main_v119 m c hr)
  dsimp only [E9] at h
  rw [W9_main_v76 m c hr, W9_main_v98 m c hr, W9_arg m c hr main_arg18 arg18_notKW, W9_arg m c hr main_arg16 arg16_notKW] at h
  exact h
theorem W10_main_v123_0 : W10 m c (Proc.devRef .tc main_v123_0) = kA2c m c := (W10_arr m c 9).trans (conv4_eq m c hr)
theorem W10_main_v123_1 : W10 m c (Proc.devRef .tc main_v123_1) = sA2 m c := W10_arr m c 10
theorem W10_main_v123_2 : W10 m c (Proc.devRef .tc main_v123_2) = qA2 m c := W10_arr m c 11
theorem W10_main_v79 : W10 m c (Proc.devRef .tc main_v79) = kP1 m c :=
  (W10_keep m c main_v79 (by decide)).trans (W9_main_v79 m c hr)
theorem W10_main_v117 : W10 m c (Proc.devRef .tc main_v117) = refAgg128 (kA1 m c) (m ((c : Thread nD τ).loc main_arg3)) :=
  (W10_keep m c main_v117 (by decide)).trans (W9_main_v117 m c hr)

/-! ## Item 11: host stretch 5 -/

theorem W11_arg (r : Ref sig .tc) (h : r ∉ (KWall)) : W11 m c (Proc.devRef .tc r) = m ((c : Thread nD τ).loc r) :=
  (W11_keep m c r (fun hk => h (List.mem_append_right _ (List.mem_append_right _ (List.mem_append_right _ (List.mem_append_right _ (List.mem_append_right _ (List.mem_append_right _ (List.mem_append_right _ (List.mem_append_right _ (List.mem_append_right _ (List.mem_append_right _ (List.mem_append_left _ hk))))))))))))).trans (W10_arg m c hr r h)
theorem W11_main_v124 : W11 m c (Proc.devRef .tc main_v124) = kWu0 (m ((c : Thread nD τ).loc main_arg26)) := by
  have h := host5_main_v124 (W10 m c)
  rw [W10_arg m c hr main_arg26 arg26_notKW] at h
  exact h
theorem W11_main_v125 : W11 m c (Proc.devRef .tc main_v125) = kWu1 (m ((c : Thread nD τ).loc main_arg26)) := by
  have h := host5_main_v125 (W10 m c)
  rw [W10_arg m c hr main_arg26 arg26_notKW] at h
  exact h
theorem W11_main_v126 : W11 m c (Proc.devRef .tc main_v126) = kRow (m ((c : Thread nD τ).loc main_arg25)) := by
  have h := host5_main_v126 (W10 m c)
  rw [W10_arg m c hr main_arg25 arg25_notKW] at h
  exact h
theorem W11_main_v127 : W11 m c (Proc.devRef .tc main_v127) = kRow (m ((c : Thread nD τ).loc main_arg23)) := by
  have h := host5_main_v127 (W10 m c)
  rw [W10_arg m c hr main_arg23 arg23_notKW] at h
  exact h
theorem W11_main_v128 : W11 m c (Proc.devRef .tc main_v128) = kRow (m ((c : Thread nD τ).loc main_arg27)) := by
  have h := host5_main_v128 (W10 m c)
  rw [W10_arg m c hr main_arg27 arg27_notKW] at h
  exact h
theorem W11_main_v79 : W11 m c (Proc.devRef .tc main_v79) = kP1 m c :=
  (W11_keep m c main_v79 (by decide)).trans (W10_main_v79 m c hr)
theorem W11_main_v117 : W11 m c (Proc.devRef .tc main_v117) = refAgg128 (kA1 m c) (m ((c : Thread nD τ).loc main_arg3)) :=
  (W11_keep m c main_v117 (by decide)).trans (W10_main_v117 m c hr)
theorem W11_main_v123_0 : W11 m c (Proc.devRef .tc main_v123_0) = kA2c m c :=
  (W11_keep m c main_v123_0 (by decide)).trans (W10_main_v123_0 m c hr)
theorem W11_main_v123_1 : W11 m c (Proc.devRef .tc main_v123_1) = sA2 m c :=
  (W11_keep m c main_v123_1 (by decide)).trans (W10_main_v123_1 m c hr)
theorem W11_main_v123_2 : W11 m c (Proc.devRef .tc main_v123_2) = qA2 m c :=
  (W11_keep m c main_v123_2 (by decide)).trans (W10_main_v123_2 m c hr)

/-! ## Item 12: region 5 -/

theorem W12_arg (r : Ref sig .tc) (h : r ∉ (KWall)) : W12 m c (Proc.devRef .tc r) = m ((c : Thread nD τ).loc r) :=
  (W12_keep m c r (fun hk => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hk)))))))))))))).trans (W11_arg m c hr r h)
/-- Region 5's first result: the convolution's linear maps of the contents it is entered from. -/
theorem conv5_eq : (dat5 (E11 m) c).arrAt 9 cfg5.N = kP2c m c := by
  have h := conv5 (E11 m) c (m ((c : Thread nD τ).loc main_arg25)) (m ((c : Thread nD τ).loc main_arg23)) (m ((c : Thread nD τ).loc main_arg27)) (m ((c : Thread nD τ).loc main_arg26)) (W11_main_v126 m c hr) (W11_main_v127 m c hr) (W11_main_v128 m c hr) (W11_main_v124 m c hr) (W11_main_v125 m c hr)
  dsimp only [E11] at h
  rw [W11_main_v79 m c hr, W11_main_v117 m c hr, W11_arg m c hr main_arg24 arg24_notKW, W11_arg m c hr main_arg22 arg22_notKW] at h
  exact h
theorem W12_main_v129_0 : W12 m c (Proc.devRef .tc main_v129_0) = kP2c m c := (W12_arr m c 9).trans (conv5_eq m c hr)
theorem W12_main_v129_1 : W12 m c (Proc.devRef .tc main_v129_1) = sP2 m c := W12_arr m c 10
theorem W12_main_v129_2 : W12 m c (Proc.devRef .tc main_v129_2) = qP2 m c := W12_arr m c 11
theorem W12_main_v123_0 : W12 m c (Proc.devRef .tc main_v123_0) = kA2c m c :=
  (W12_keep m c main_v123_0 (by decide)).trans (W11_main_v123_0 m c hr)
theorem W12_main_v123_1 : W12 m c (Proc.devRef .tc main_v123_1) = sA2 m c :=
  (W12_keep m c main_v123_1 (by decide)).trans (W11_main_v123_1 m c hr)
theorem W12_main_v123_2 : W12 m c (Proc.devRef .tc main_v123_2) = qA2 m c :=
  (W12_keep m c main_v123_2 (by decide)).trans (W11_main_v123_2 m c hr)

/-! ## Item 13: host stretch 6 -/

theorem W13_arg (r : Ref sig .tc) (h : r ∉ (KWall)) : W13 m c (Proc.devRef .tc r) = m ((c : Thread nD τ).loc r) :=
  (W13_keep m c r (fun hk => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hk))))))))))))))).trans (W12_arg m c hr r h)
theorem W13_main_v131 : W13 m c (Proc.devRef .tc main_v131) = kMean (sA2 m c) := by
  have h := host6_main_v131 (W12 m c)
  rw [W12_main_v123_1 m c hr] at h
  exact h
theorem W13_main_v137 : W13 m c (Proc.devRef .tc main_v137) = kVar (sA2 m c) (qA2 m c) := by
  have h := host6_main_v137 (W12 m c)
  rw [W12_main_v123_1 m c hr, W12_main_v123_2 m c hr] at h
  exact h
theorem W13_main_v139 : W13 m c (Proc.devRef .tc main_v139) = kMean (sP2 m c) := by
  have h := host6_main_v139 (W12 m c)
  rw [W12_main_v129_1 m c hr] at h
  exact h
theorem W13_main_v145 : W13 m c (Proc.devRef .tc main_v145) = kVar (sP2 m c) (qP2 m c) := by
  have h := host6_main_v145 (W12 m c)
  rw [W12_main_v129_1 m c hr, W12_main_v129_2 m c hr] at h
  exact h
theorem W13_main_v146 : W13 m c (Proc.devRef .tc main_v146) = kRow (m ((c : Thread nD τ).loc main_arg32)) := by
  have h := host6_main_v146 (W12 m c)
  rw [W12_arg m c hr main_arg32 arg32_notKW] at h
  exact h
theorem W13_main_v147 : W13 m c (Proc.devRef .tc main_v147) = kRow (m ((c : Thread nD τ).loc main_arg33)) := by
  have h := host6_main_v147 (W12 m c)
  rw [W12_arg m c hr main_arg33 arg33_notKW] at h
  exact h
theorem W13_main_v123_0 : W13 m c (Proc.devRef .tc main_v123_0) = kA2c m c :=
  (W13_keep m c main_v123_0 (by decide)).trans (W12_main_v123_0 m c hr)
theorem W13_main_v129_0 : W13 m c (Proc.devRef .tc main_v129_0) = kP2c m c :=
  (W13_keep m c main_v129_0 (by decide)).trans (W12_main_v129_0 m c hr)

/-! ## Item 14: region 6 -/

theorem W14_arg (r : Ref sig .tc) (h : r ∉ (KWall)) : W14 m c (Proc.devRef .tc r) = m ((c : Thread nD τ).loc r) :=
  (W14_keep m c r (fun hk => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hk)))))))))))))))).trans (W13_arg m c hr r h)
/-- Region 6's result: the normalisation and LeakyReLU of region 4's, the batch statistics being its column sums'. -/
theorem W14_main_v148 : W14 m c (Proc.devRef .tc main_v148) = kA2 m c :=
  (W14_arr m c 5).trans
    (bn6 (E13 m) c (kA2c m c) (m ((c : Thread nD τ).loc main_arg32)) (m ((c : Thread nD τ).loc main_arg33)) (sA2 m c) (qA2 m c) (W13_main_v123_0 m c hr) hr.a2 (W13_main_v146 m c hr) (W13_main_v147 m c hr)
      (W13_main_v131 m c hr) (W13_main_v137 m c hr)
      (sums4 (E9 m) c (kA2c m c) (sA2 m c) (qA2 m c) (conv4_eq m c hr).symm rfl rfl).1
      (sums4 (E9 m) c (kA2c m c) (sA2 m c) (qA2 m c) (conv4_eq m c hr).symm rfl rfl).2)
theorem W14_main_v129_0 : W14 m c (Proc.devRef .tc main_v129_0) = kP2c m c :=
  (W14_keep m c main_v129_0 (by decide)).trans (W13_main_v129_0 m c hr)
theorem W14_main_v139 : W14 m c (Proc.devRef .tc main_v139) = kMean (sP2 m c) :=
  (W14_keep m c main_v139 (by decide)).trans (W13_main_v139 m c hr)
theorem W14_main_v145 : W14 m c (Proc.devRef .tc main_v145) = kVar (sP2 m c) (qP2 m c) :=
  (W14_keep m c main_v145 (by decide)).trans (W13_main_v145 m c hr)

/-! ## Item 15: host stretch 7 -/

theorem W15_arg (r : Ref sig .tc) (h : r ∉ (KWall)) : W15 m c (Proc.devRef .tc r) = m ((c : Thread nD τ).loc r) :=
  (W15_keep m c r (fun hk => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hk))))))))))))))))).trans (W14_arg m c hr r h)
theorem W15_main_v149 : W15 m c (Proc.devRef .tc main_v149) = kRow (m ((c : Thread nD τ).loc main_arg34)) := by
  have h := host7_main_v149 (W14 m c)
  rw [W14_arg m c hr main_arg34 arg34_notKW] at h
  exact h
theorem W15_main_v150 : W15 m c (Proc.devRef .tc main_v150) = kRow (m ((c : Thread nD τ).loc main_arg35)) := by
  have h := host7_main_v150 (W14 m c)
  rw [W14_arg m c hr main_arg35 arg35_notKW] at h
  exact h
theorem W15_main_v129_0 : W15 m c (Proc.devRef .tc main_v129_0) = kP2c m c :=
  (W15_keep m c main_v129_0 (by decide)).trans (W14_main_v129_0 m c hr)
theorem W15_main_v139 : W15 m c (Proc.devRef .tc main_v139) = kMean (sP2 m c) :=
  (W15_keep m c main_v139 (by decide)).trans (W14_main_v139 m c hr)
theorem W15_main_v145 : W15 m c (Proc.devRef .tc main_v145) = kVar (sP2 m c) (qP2 m c) :=
  (W15_keep m c main_v145 (by decide)).trans (W14_main_v145 m c hr)
theorem W15_main_v148 : W15 m c (Proc.devRef .tc main_v148) = kA2 m c :=
  (W15_keep m c main_v148 (by decide)).trans (W14_main_v148 m c hr)

/-! ## Item 16: region 7 -/

theorem W16_arg (r : Ref sig .tc) (h : r ∉ (KWall)) : W16 m c (Proc.devRef .tc r) = m ((c : Thread nD τ).loc r) :=
  (W16_keep m c r (fun hk => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hk)))))))))))))))))).trans (W15_arg m c hr r h)
/-- Region 7's result: the normalisation and LeakyReLU of region 5's, the batch statistics being its column sums'. -/
theorem W16_main_v151 : W16 m c (Proc.devRef .tc main_v151) = kP2 m c :=
  (W16_arr m c 5).trans
    (bn7 (E15 m) c (kP2c m c) (m ((c : Thread nD τ).loc main_arg34)) (m ((c : Thread nD τ).loc main_arg35)) (sP2 m c) (qP2 m c) (W15_main_v129_0 m c hr) hr.p2 (W15_main_v149 m c hr) (W15_main_v150 m c hr)
      (W15_main_v139 m c hr) (W15_main_v145 m c hr)
      (sums5 (E11 m) c (kP2c m c) (sP2 m c) (qP2 m c) (conv5_eq m c hr).symm rfl rfl).1
      (sums5 (E11 m) c (kP2c m c) (sP2 m c) (qP2 m c) (conv5_eq m c hr).symm rfl rfl).2)
theorem W16_main_v148 : W16 m c (Proc.devRef .tc main_v148) = kA2 m c :=
  (W16_keep m c main_v148 (by decide)).trans (W15_main_v148 m c hr)

/-! ## Item 17: host stretch 8 -/

theorem W17_arg (r : Ref sig .tc) (h : r ∉ (KWall)) : W17 m c (Proc.devRef .tc r) = m ((c : Thread nD τ).loc r) :=
  (W17_keep m c r (fun hk => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hk))))))))))))))))))).trans (W16_arg m c hr r h)
theorem W17_main_v152 : W17 m c (Proc.devRef .tc main_v152) = kRow4 (m ((c : Thread nD τ).loc main_arg37)) := by
  have h := host8_main_v152 (W16 m c)
  rw [W16_arg m c hr main_arg37 arg37_notKW] at h
  exact h
theorem W17_main_v148 : W17 m c (Proc.devRef .tc main_v148) = kA2 m c :=
  (W17_keep m c main_v148 (by decide)).trans (W16_main_v148 m c hr)
theorem W17_main_v151 : W17 m c (Proc.devRef .tc main_v151) = kP2 m c :=
  (W17_keep m c main_v151 (by decide)).trans (W16_main_v151 m c hr)

/-! ## Item 18: region 8 -/

theorem W18_arg (r : Ref sig .tc) (h : r ∉ (KWall)) : W18 m c (Proc.devRef .tc r) = m ((c : Thread nD τ).loc r) :=
  (W18_keep m c r (fun hk => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hk)))))))))))))))))))).trans (W17_arg m c hr r h)
/-- Region 8's result: the head's linear map. -/
theorem W18_main_v153 : W18 m c (Proc.devRef .tc main_v153) = refHeadA (F := Ideal) (kA2 m c) (m ((c : Thread nD τ).loc main_arg36)) (m ((c : Thread nD τ).loc main_arg37)) := by
  refine (W18_arr m c 3).trans ?_
  have h := head8 (E17 m) c (m ((c : Thread nD τ).loc main_arg37)) (W17_main_v152 m c hr)
  dsimp only [E17] at h
  rw [W17_main_v148 m c hr, W17_arg m c hr main_arg36 arg36_notKW] at h
  exact h
theorem W18_main_v151 : W18 m c (Proc.devRef .tc main_v151) = kP2 m c :=
  (W18_keep m c main_v151 (by decide)).trans (W17_main_v151 m c hr)

/-! ## Item 19: host stretch 9 -/

theorem W19_arg (r : Ref sig .tc) (h : r ∉ (KWall)) : W19 m c (Proc.devRef .tc r) = m ((c : Thread nD τ).loc r) :=
  (W19_keep m c r (fun hk => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hk))))))))))))))))))))).trans (W18_arg m c hr r h)
theorem W19_main_v154 : W19 m c (Proc.devRef .tc main_v154) = kRow7 (m ((c : Thread nD τ).loc main_arg39)) := by
  have h := host9_main_v154 (W18 m c)
  rw [W18_arg m c hr main_arg39 arg39_notKW] at h
  exact h
theorem W19_main_v151 : W19 m c (Proc.devRef .tc main_v151) = kP2 m c :=
  (W19_keep m c main_v151 (by decide)).trans (W18_main_v151 m c hr)
theorem W19_main_v153 : W19 m c (Proc.devRef .tc main_v153) = refHeadA (F := Ideal) (kA2 m c) (m ((c : Thread nD τ).loc main_arg36)) (m ((c : Thread nD τ).loc main_arg37)) :=
  (W19_keep m c main_v153 (by decide)).trans (W18_main_v153 m c hr)

/-! ## Item 20: region 9 -/

theorem W20_arg (r : Ref sig .tc) (h : r ∉ (KWall)) : W20 m c (Proc.devRef .tc r) = m ((c : Thread nD τ).loc r) :=
  (W20_keep m c r (fun hk => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (hk)))))))))))))))))))))).trans (W19_arg m c hr r h)
/-- Region 9's result: the head's linear map. -/
theorem W20_main_v155 : W20 m c (Proc.devRef .tc main_v155) = refHeadP (F := Ideal) (kP2 m c) (m ((c : Thread nD τ).loc main_arg38)) (m ((c : Thread nD τ).loc main_arg39)) := by
  refine (W20_arr m c 3).trans ?_
  have h := head9 (E19 m) c (m ((c : Thread nD τ).loc main_arg39)) (W19_main_v154 m c hr)
  dsimp only [E19] at h
  rw [W19_main_v151 m c hr, W19_arg m c hr main_arg38 arg38_notKW] at h
  exact h
theorem W20_main_v153 : W20 m c (Proc.devRef .tc main_v153) = refHeadA (F := Ideal) (kA2 m c) (m ((c : Thread nD τ).loc main_arg36)) (m ((c : Thread nD τ).loc main_arg37)) :=
  (W20_keep m c main_v153 (by decide)).trans (W19_main_v153 m c hr)

end Cert.KernelIdeal.Hand

end
-- ==== Proof.Math.Real2.lean ====
/- Real-valuedness of the reference's stages.

   Each stage of the reference keeps real-valued arrays real-valued. The segment mean divides by an in-degree that is
   a maximum with one, hence a real at least one. The linear maps are finite sums of products. The batch mean is a
   finite sum over the positive real 100000. The batch variance is a sum of squares over 100000, a nonnegative real,
   so variance plus one is at least one and so is its square root: the normalisation never divides by zero. The
   rectifier returns either the normalised entry or a real multiple of it. -/
import proofs.«154353_j88940182765819_1_alg».proof.Proof.Math.RefRead

noncomputable section

namespace Cert.Bridge

open Idealize.ShloMosaic Idealize.ShloMosaic.ValueIdx Cert.RealValued
open Cert.ReferenceIdeal.RefRun
open scoped BigOperators

/-! ### Every index is built from its coordinates (over variable extents) -/

theorem exists_ix1 {n : ℕ} (j : (⟨1, ![n]⟩ : Shape).Idx) : ∃ j' : Fin n, j = ix1 j' := ⟨j 0, eq_ix1 j⟩

theorem exists_ix2 {m n : ℕ} (i : (⟨2, ![m, n]⟩ : Shape).Idx) : ∃ (a : Fin m) (b : Fin n), i = ix2 a b :=
  ⟨i 0, i 1, eq_ix2 i⟩

/-! ### Broadcasts keep the sign predicates -/

theorem isGeOne_broadcastInDim {s t : Shape} (dims : Fin s.rank → Fin t.rank) (h : s.BroadcastsInDim t dims)
    {x : s.Idx → EReal} (hx : IsGeOne x) : IsGeOne (broadcastInDim t dims h x) := fun _ => hx _

theorem isNonneg_broadcastInDim {s t : Shape} (dims : Fin s.rank → Fin t.rank) (h : s.BroadcastsInDim t dims)
    {x : s.Idx → EReal} (hx : IsNonneg x) : IsNonneg (broadcastInDim t dims h x) := fun _ => hx _

/-- The word of 100000 is a positive real. -/
theorem B1e5_real_pos : ∃ r : ℝ, 0 < r ∧ B1e5 = r := ⟨100000, by norm_num, ofBits_1e5⟩

theorem B1e5_real_ne : ∃ r : ℝ, r ≠ 0 ∧ B1e5 = r := ⟨100000, by norm_num, ofBits_1e5⟩

variable [Cert.ReferenceIdeal.Facts]

/-! ### The segment mean -/

theorem isReal_refRows {v : Ten Ideal Cert.ReferenceIdeal.S128 .f32} (hv : IsReal v) : IsReal (refRows v) :=
  isReal_broadcastInDim _ _ (isReal_broadcastInDim _ _ hv)

/-- The in-degree, a maximum with one, is a real at least one. -/
theorem isGeOne_refCount (d : Ten Ideal Cert.ReferenceIdeal.S500000 .i32) : IsGeOne (refCount (F := Ideal) d) := by
  unfold refCount
  exact isGeOne_maximumf_one
    (isReal_scatterAdd _ _ (isReal_broadcastInDim _ _ (isReal_constant_zero _))
      (isReal_broadcastInDim _ _ (isReal_constant_one _)))
    (fun _ => ofBits_one)

/-- The segment mean of a real-valued array is real-valued: a scatter-added sum over an in-degree at least one. -/
theorem isReal_refAggOf {Sx Sg : Shape} (gd : GatherDims Sx Cert.ReferenceIdeal.S500000x1 Sg)
    (sd : ScatterDims Sx Cert.ReferenceIdeal.S500000x1 Sg)
    (hz : Cert.ReferenceIdeal.S_.BroadcastsInDim Sx (![] : Fin 0 → Fin Sx.rank)) (dims : Fin 2 → Fin Sx.rank)
    (hb : Cert.ReferenceIdeal.S100000x1.BroadcastsInDim Sx dims) {x : Ten Ideal Sx .f32}
    (s d : Ten Ideal Cert.ReferenceIdeal.S500000 .i32) (hx : IsReal x) :
    IsReal (refAggOf gd sd hz dims hb x s d) := by
  unfold refAggOf
  exact isReal_hostDivf_geOne
    (isReal_scatterAdd _ _ (isReal_broadcastInDim _ _ (isReal_constant_zero _)) (isReal_gather _ _ hx))
    (isGeOne_broadcastInDim _ _ (isGeOne_broadcastInDim _ _ (isGeOne_refCount d)))

theorem isReal_refAgg128 {x : Ten Ideal Cert.ReferenceIdeal.S100000x128 .f32}
    (e : Ten Ideal Cert.ReferenceIdeal.S2x500000 .i32) (hx : IsReal x) : IsReal (refAgg128 x e) :=
  isReal_refAggOf _ _ _ _ _ _ _ hx

theorem isReal_refAgg256 {x : Ten Ideal Cert.ReferenceIdeal.S100000x256 .f32}
    (e : Ten Ideal Cert.ReferenceIdeal.S2x500000 .i32) (hx : IsReal x) : IsReal (refAgg256 x e) :=
  isReal_refAggOf _ _ _ _ _ _ _ hx

/-! ### The linear maps -/

theorem isReal_refConv {Sd Swd Sa Sws : Shape} (dd : DotDims Sd Swd Cert.ReferenceIdeal.S100000x128)
    (da : DotDims Sa Sws Cert.ReferenceIdeal.S100000x128)
    {xd : Ten Ideal Sd .f32} {agg : Ten Ideal Sa .f32} {wd : Ten Ideal Swd .f32}
    {bd : Ten Ideal Cert.ReferenceIdeal.S128 .f32} {ws : Ten Ideal Sws .f32}
    {bs : Ten Ideal Cert.ReferenceIdeal.S128 .f32} {wu : Ten Ideal Cert.ReferenceIdeal.S256x128 .f32}
    {bu : Ten Ideal Cert.ReferenceIdeal.S128 .f32}
    (hxd : IsReal xd) (hagg : IsReal agg) (hwd : IsReal wd) (hbd : IsReal bd) (hws : IsReal ws) (hbs : IsReal bs)
    (hwu : IsReal wu) (hbu : IsReal bu) : IsReal (refConv dd da xd agg wd bd ws bs wu bu) := by
  unfold refConv
  exact isReal_addf
    (isReal_dotGeneral _ _
      (isReal_concatenate2 _ _
        (isReal_addf (isReal_dotGeneral _ _ hxd hwd) (isReal_refRows hbd))
        (isReal_addf (isReal_dotGeneral _ _ hagg hws) (isReal_refRows hbs)))
      hwu)
    (isReal_refRows hbu)

/-! ### Batch statistics -/

theorem real_colMean {x : Ten Ideal Cert.ReferenceIdeal.S100000x128 .f32} (hx : IsReal x) (j : Fin 128) :
    ∃ r : ℝ, Ideal.div (∑ k : Fin 100000, x (ix2 k j)) B1e5 = r :=
  real_div (real_sum _ _ fun _ _ => hx _) B1e5_real_ne

theorem isReal_refMean {x : Ten Ideal Cert.ReferenceIdeal.S100000x128 .f32} (hx : IsReal x) : IsReal (refMean x) :=
  fun j => by
    obtain ⟨j', rfl⟩ := exists_ix1 j
    rw [refMean_apply]
    exact real_colMean hx j'

/-- The batch variance of a real-valued array is a nonnegative real: a sum of squares over 100000. -/
theorem isNonneg_refVar {x : Ten Ideal Cert.ReferenceIdeal.S100000x128 .f32} (hx : IsReal x) :
    IsNonneg (refVar x (constantI Cert.ReferenceIdeal.S_ 32 0#32)) := fun j => by
  obtain ⟨j', rfl⟩ := exists_ix1 j
  rw [refVar_apply]
  exact nonneg_div (nonneg_sum _ _ fun _ _ => nonneg_mul_self (real_sub (hx _) (real_colMean hx j'))) B1e5_real_pos

/-! ### Normalisation and the rectifier -/

theorem isReal_refNorm {x : Ten Ideal Cert.ReferenceIdeal.S100000x128 .f32}
    {g b : Ten Ideal Cert.ReferenceIdeal.S128 .f32} (hx : IsReal x) (hg : IsReal g) (hb : IsReal b) :
    IsReal (refNorm x g b) := fun idx => by
  obtain ⟨i, j, rfl⟩ := exists_ix2 idx
  rw [refNorm_apply, ofBits_one]
  obtain ⟨r, h1, hr⟩ := geOne_sqrt (geOne_add_one (isNonneg_refVar hx (ix1 j)))
  exact real_add
    (real_div (real_mul (hg _) (real_sub (hx _) (isReal_refMean hx _))) ⟨r, (zero_lt_one.trans_le h1).ne', hr⟩)
    (hb _)

/-- The one-element formula returns the normalised entry or the word of 0.01 times it: real when that entry is. -/
theorem real_bnLreluAt {x g b mean var : EReal}
    (hy : ∃ r : ℝ, Ideal.div (g * (x - mean)) (Ideal.sqrt (var + Ideal.ofBits .f32 0x3F800000#32)) + b = r) :
    ∃ r : ℝ, Cert.KernelIdeal.Hand.bnLreluAt x g b mean var = r := by
  unfold Cert.KernelIdeal.Hand.bnLreluAt Scalar.select
  split_ifs
  exacts [hy, real_mul real_ofBits_hundredth hy]

theorem isReal_refBN {x : Ten Ideal Cert.ReferenceIdeal.S100000x128 .f32}
    {g b : Ten Ideal Cert.ReferenceIdeal.S128 .f32} (hx : IsReal x) (hg : IsReal g) (hb : IsReal b) :
    IsReal (refBN x g b) := fun idx => by
  obtain ⟨i, j, rfl⟩ := exists_ix2 idx
  rw [refBN_apply]
  refine real_bnLreluAt ?_
  rw [← refNorm_apply]
  exact isReal_refNorm hx hg hb _

/-! ### The hidden layers -/

/-- Every float argument of the reference is real-valued. -/
structure RefArgsReal (a : Args Ideal) : Prop where
  h0 : IsReal (a Cert.ReferenceIdeal.main_arg0)
  h1 : IsReal (a Cert.ReferenceIdeal.main_arg1)
  h4 : IsReal (a Cert.ReferenceIdeal.main_arg4)
  h5 : IsReal (a Cert.ReferenceIdeal.main_arg5)
  h6 : IsReal (a Cert.ReferenceIdeal.main_arg6)
  h7 : IsReal (a Cert.ReferenceIdeal.main_arg7)
  h8 : IsReal (a Cert.ReferenceIdeal.main_arg8)
  h9 : IsReal (a Cert.ReferenceIdeal.main_arg9)
  h10 : IsReal (a Cert.ReferenceIdeal.main_arg10)
  h11 : IsReal (a Cert.ReferenceIdeal.main_arg11)
  h12 : IsReal (a Cert.ReferenceIdeal.main_arg12)
  h13 : IsReal (a Cert.ReferenceIdeal.main_arg13)
  h14 : IsReal (a Cert.ReferenceIdeal.main_arg14)
  h15 : IsReal (a Cert.ReferenceIdeal.main_arg15)
  h16 : IsReal (a Cert.ReferenceIdeal.main_arg16)
  h17 : IsReal (a Cert.ReferenceIdeal.main_arg17)
  h18 : IsReal (a Cert.ReferenceIdeal.main_arg18)
  h19 : IsReal (a Cert.ReferenceIdeal.main_arg19)
  h20 : IsReal (a Cert.ReferenceIdeal.main_arg20)
  h21 : IsReal (a Cert.ReferenceIdeal.main_arg21)
  h22 : IsReal (a Cert.ReferenceIdeal.main_arg22)
  h23 : IsReal (a Cert.ReferenceIdeal.main_arg23)
  h24 : IsReal (a Cert.ReferenceIdeal.main_arg24)
  h25 : IsReal (a Cert.ReferenceIdeal.main_arg25)
  h26 : IsReal (a Cert.ReferenceIdeal.main_arg26)
  h27 : IsReal (a Cert.ReferenceIdeal.main_arg27)
  h28 : IsReal (a Cert.ReferenceIdeal.main_arg28)
  h29 : IsReal (a Cert.ReferenceIdeal.main_arg29)
  h30 : IsReal (a Cert.ReferenceIdeal.main_arg30)
  h31 : IsReal (a Cert.ReferenceIdeal.main_arg31)
  h32 : IsReal (a Cert.ReferenceIdeal.main_arg32)
  h33 : IsReal (a Cert.ReferenceIdeal.main_arg33)
  h34 : IsReal (a Cert.ReferenceIdeal.main_arg34)
  h35 : IsReal (a Cert.ReferenceIdeal.main_arg35)
  h36 : IsReal (a Cert.ReferenceIdeal.main_arg36)
  h37 : IsReal (a Cert.ReferenceIdeal.main_arg37)
  h38 : IsReal (a Cert.ReferenceIdeal.main_arg38)
  h39 : IsReal (a Cert.ReferenceIdeal.main_arg39)

theorem isReal_hA1 {a : Args Ideal} (h : RefArgsReal a) : IsReal (hA1 a) := by
  unfold hA1
  exact isReal_refBN (isReal_refConv _ _ h.h0 (isReal_refAgg128 _ h.h1) h.h6 h.h7 h.h4 h.h5 h.h8 h.h9) h.h28 h.h29

theorem isReal_hP1 {a : Args Ideal} (h : RefArgsReal a) : IsReal (hP1 a) := by
  unfold hP1
  exact isReal_refBN (isReal_refConv _ _ h.h1 (isReal_refAgg256 _ h.h0) h.h12 h.h13 h.h10 h.h11 h.h14 h.h15) h.h30 h.h31

theorem isReal_hA2 {a : Args Ideal} (h : RefArgsReal a) : IsReal (hA2 a) := by
  unfold hA2
  exact isReal_refBN
    (isReal_refConv _ _ (isReal_hA1 h) (isReal_refAgg128 _ (isReal_hP1 h)) h.h18 h.h19 h.h16 h.h17 h.h20 h.h21)
    h.h32 h.h33

theorem isReal_hP2 {a : Args Ideal} (h : RefArgsReal a) : IsReal (hP2 a) := by
  unfold hP2
  exact isReal_refBN
    (isReal_refConv _ _ (isReal_hP1 h) (isReal_refAgg128 _ (isReal_hA1 h)) h.h24 h.h25 h.h22 h.h23 h.h26 h.h27)
    h.h34 h.h35

end Cert.Bridge

end
-- ==== Proof.Math.Finite.lean ====
/- From the finiteness precondition to real-valued arguments.

   The precondition conjoins, for each float argument x, the test "every entry of |x| is below +infinity". An
   extended real whose absolute value max(x, −x) is below +infinity is neither infinity, so it is a real number.
   The conjunction of tests being true makes each test true, and a test over all entries being true makes it
   true at each entry. -/
import proofs.«154353_j88940182765819_1_alg».proof.Pre_finite_inputs
import proofs.«154353_j88940182765819_1_alg».proof.Proof.LibRealDef
import Idealize.ShloMosaic.Lib.ReduceAll
import Idealize.ShloMosaic.Lib.ValueIdx
import Idealize.ShloMosaic.PureOps.Ideal
import Idealize.ShloMosaic.PureOps.Ideal.Laws

namespace Cert.Bridge

open Idealize.ShloMosaic Cert.RealValued Cert.Pre_finite_inputs

/-- The rank-zero shape has one index. -/
instance subsingleton_S_ : Subsingleton S_.Idx := ⟨fun a b => funext fun d => d.elim0⟩

/-- The single-precision word `0x7F800000` (exponent all ones, significand zero) denotes +infinity. -/
theorem ofBits_inf : Ideal.ofBits .f32 0x7F800000#32 = ⊤ := by
  simp [Ideal.ofBits, Ideal.ieee]

/-- An extended real whose absolute value is below +infinity is a real number. -/
theorem real_of_abs_lt_inf (a : EReal)
    (h : Ideal.cmp .olt (max a (-a)) (Ideal.ofBits .f32 0x7F800000#32) = 1#1) : ∃ r : ℝ, a = r := by
  rw [ofBits_inf] at h
  induction a using EReal.rec with
  | bot => simp [Ideal.cmp] at h
  | coe r => exact ⟨r, rfl⟩
  | top => simp [Ideal.cmp] at h

/-- One test of the precondition: if "|x| < +infinity at every entry" came out true, x is real-valued. -/
theorem isReal_of_all_finite {s : Shape} {axes : List (Fin s.rank)} (x : FVec Ideal s .f32)
    (dims : Fin S_.rank → Fin s.rank) (hb : S_.BroadcastsInDim s dims) (hr : s.ReducesTo axes S_)
    (h0 : 0 < S_.numel) (init : IVec S_ 1)
    (h : Host.reduce IntOp.andi
          (cmpf .olt (Host.absf x) (broadcastInDim s dims hb (constant (F := Ideal) S_ .f32 0x7F800000#32)))
          init hr h0 ValueIdx.ix0 = 1#1) : IsReal x := fun i =>
  real_of_abs_lt_inf (x i) (Host.reduce_andi_all _ _ hr h0 _ h i)

variable [Cert.Pre_finite_inputs.Facts]

/-- Every float argument is real-valued. -/
structure ArgsReal (a0 : FVec Ideal S100000x256 .f32) (a1 : FVec Ideal S100000x128 .f32) (a2 : IVec S2x500000 32) (a3 : IVec S2x500000 32) (a4 : FVec Ideal S128x128 .f32) (a5 : FVec Ideal S128 .f32) (a6 : FVec Ideal S256x128 .f32) (a7 : FVec Ideal S128 .f32) (a8 : FVec Ideal S256x128 .f32) (a9 : FVec Ideal S128 .f32) (a10 : FVec Ideal S256x128 .f32) (a11 : FVec Ideal S128 .f32) (a12 : FVec Ideal S128x128 .f32) (a13 : FVec Ideal S128 .f32) (a14 : FVec Ideal S256x128 .f32) (a15 : FVec Ideal S128 .f32) (a16 : FVec Ideal S128x128 .f32) (a17 : FVec Ideal S128 .f32) (a18 : FVec Ideal S128x128 .f32) (a19 : FVec Ideal S128 .f32) (a20 : FVec Ideal S256x128 .f32) (a21 : FVec Ideal S128 .f32) (a22 : FVec Ideal S128x128 .f32) (a23 : FVec Ideal S128 .f32) (a24 : FVec Ideal S128x128 .f32) (a25 : FVec Ideal S128 .f32) (a26 : FVec Ideal S256x128 .f32) (a27 : FVec Ideal S128 .f32) (a28 : FVec Ideal S128 .f32) (a29 : FVec Ideal S128 .f32) (a30 : FVec Ideal S128 .f32) (a31 : FVec Ideal S128 .f32) (a32 : FVec Ideal S128 .f32) (a33 : FVec Ideal S128 .f32) (a34 : FVec Ideal S128 .f32) (a35 : FVec Ideal S128 .f32) (a36 : FVec Ideal S128x4 .f32) (a37 : FVec Ideal S4 .f32) (a38 : FVec Ideal S128x7 .f32) (a39 : FVec Ideal S7 .f32) : Prop where
  h0 : IsReal a0
  h1 : IsReal a1
  h4 : IsReal a4
  h5 : IsReal a5
  h6 : IsReal a6
  h7 : IsReal a7
  h8 : IsReal a8
  h9 : IsReal a9
  h10 : IsReal a10
  h11 : IsReal a11
  h12 : IsReal a12
  h13 : IsReal a13
  h14 : IsReal a14
  h15 : IsReal a15
  h16 : IsReal a16
  h17 : IsReal a17
  h18 : IsReal a18
  h19 : IsReal a19
  h20 : IsReal a20
  h21 : IsReal a21
  h22 : IsReal a22
  h23 : IsReal a23
  h24 : IsReal a24
  h25 : IsReal a25
  h26 : IsReal a26
  h27 : IsReal a27
  h28 : IsReal a28
  h29 : IsReal a29
  h30 : IsReal a30
  h31 : IsReal a31
  h32 : IsReal a32
  h33 : IsReal a33
  h34 : IsReal a34
  h35 : IsReal a35
  h36 : IsReal a36
  h37 : IsReal a37
  h38 : IsReal a38
  h39 : IsReal a39

/-- The precondition being all ones makes every float argument real-valued. -/
theorem argsReal_of_pre (a0 : FVec Ideal S100000x256 .f32) (a1 : FVec Ideal S100000x128 .f32) (a2 : IVec S2x500000 32) (a3 : IVec S2x500000 32) (a4 : FVec Ideal S128x128 .f32) (a5 : FVec Ideal S128 .f32) (a6 : FVec Ideal S256x128 .f32) (a7 : FVec Ideal S128 .f32) (a8 : FVec Ideal S256x128 .f32) (a9 : FVec Ideal S128 .f32) (a10 : FVec Ideal S256x128 .f32) (a11 : FVec Ideal S128 .f32) (a12 : FVec Ideal S128x128 .f32) (a13 : FVec Ideal S128 .f32) (a14 : FVec Ideal S256x128 .f32) (a15 : FVec Ideal S128 .f32) (a16 : FVec Ideal S128x128 .f32) (a17 : FVec Ideal S128 .f32) (a18 : FVec Ideal S128x128 .f32) (a19 : FVec Ideal S128 .f32) (a20 : FVec Ideal S256x128 .f32) (a21 : FVec Ideal S128 .f32) (a22 : FVec Ideal S128x128 .f32) (a23 : FVec Ideal S128 .f32) (a24 : FVec Ideal S128x128 .f32) (a25 : FVec Ideal S128 .f32) (a26 : FVec Ideal S256x128 .f32) (a27 : FVec Ideal S128 .f32) (a28 : FVec Ideal S128 .f32) (a29 : FVec Ideal S128 .f32) (a30 : FVec Ideal S128 .f32) (a31 : FVec Ideal S128 .f32) (a32 : FVec Ideal S128 .f32) (a33 : FVec Ideal S128 .f32) (a34 : FVec Ideal S128 .f32) (a35 : FVec Ideal S128 .f32) (a36 : FVec Ideal S128x4 .f32) (a37 : FVec Ideal S4 .f32) (a38 : FVec Ideal S128x7 .f32) (a39 : FVec Ideal S7 .f32)
    (h : Cert.Pre_finite_inputs.fn (F := Ideal) a0 a1 a2 a3 a4 a5 a6 a7 a8 a9 a10 a11 a12 a13 a14 a15 a16 a17 a18 a19 a20 a21 a22 a23 a24 a25 a26 a27 a28 a29 a30 a31 a32 a33 a34 a35 a36 a37 a38 a39 = fun _ => 1#1) :
    ArgsReal a0 a1 a2 a3 a4 a5 a6 a7 a8 a9 a10 a11 a12 a13 a14 a15 a16 a17 a18 a19 a20 a21 a22 a23 a24 a25 a26 a27 a28 a29 a30 a31 a32 a33 a34 a35 a36 a37 a38 a39 := by
  have h' := congrFun h ValueIdx.ix0
  dsimp only [fn, fn_part1, fn_part2, fn_part3, fn_part4, fn_part5, fn_part6, fn_part7, fn_part8, fn_part9, fn_part10, fn_part11] at h'
  simp only [Idealize.ShloMosaic.andi, IntOp.andi_eq_one] at h'
  obtain ⟨⟨⟨⟨⟨⟨⟨⟨⟨⟨⟨⟨⟨⟨⟨⟨⟨⟨⟨⟨⟨⟨⟨⟨⟨⟨⟨⟨⟨⟨⟨⟨⟨⟨⟨⟨⟨hb0, hb1⟩, hb4⟩, hb5⟩, hb6⟩, hb7⟩, hb8⟩, hb9⟩, hb10⟩, hb11⟩, hb12⟩, hb13⟩, hb14⟩, hb15⟩, hb16⟩, hb17⟩, hb18⟩, hb19⟩, hb20⟩, hb21⟩, hb22⟩, hb23⟩, hb24⟩, hb25⟩, hb26⟩, hb27⟩, hb28⟩, hb29⟩, hb30⟩, hb31⟩, hb32⟩, hb33⟩, hb34⟩, hb35⟩, hb36⟩, hb37⟩, hb38⟩, hb39⟩ := h'
  exact {
    h0 := isReal_of_all_finite a0 _ _ _ _ _ hb0
    h1 := isReal_of_all_finite a1 _ _ _ _ _ hb1
    h4 := isReal_of_all_finite a4 _ _ _ _ _ hb4
    h5 := isReal_of_all_finite a5 _ _ _ _ _ hb5
    h6 := isReal_of_all_finite a6 _ _ _ _ _ hb6
    h7 := isReal_of_all_finite a7 _ _ _ _ _ hb7
    h8 := isReal_of_all_finite a8 _ _ _ _ _ hb8
    h9 := isReal_of_all_finite a9 _ _ _ _ _ hb9
    h10 := isReal_of_all_finite a10 _ _ _ _ _ hb10
    h11 := isReal_of_all_finite a11 _ _ _ _ _ hb11
    h12 := isReal_of_all_finite a12 _ _ _ _ _ hb12
    h13 := isReal_of_all_finite a13 _ _ _ _ _ hb13
    h14 := isReal_of_all_finite a14 _ _ _ _ _ hb14
    h15 := isReal_of_all_finite a15 _ _ _ _ _ hb15
    h16 := isReal_of_all_finite a16 _ _ _ _ _ hb16
    h17 := isReal_of_all_finite a17 _ _ _ _ _ hb17
    h18 := isReal_of_all_finite a18 _ _ _ _ _ hb18
    h19 := isReal_of_all_finite a19 _ _ _ _ _ hb19
    h20 := isReal_of_all_finite a20 _ _ _ _ _ hb20
    h21 := isReal_of_all_finite a21 _ _ _ _ _ hb21
    h22 := isReal_of_all_finite a22 _ _ _ _ _ hb22
    h23 := isReal_of_all_finite a23 _ _ _ _ _ hb23
    h24 := isReal_of_all_finite a24 _ _ _ _ _ hb24
    h25 := isReal_of_all_finite a25 _ _ _ _ _ hb25
    h26 := isReal_of_all_finite a26 _ _ _ _ _ hb26
    h27 := isReal_of_all_finite a27 _ _ _ _ _ hb27
    h28 := isReal_of_all_finite a28 _ _ _ _ _ hb28
    h29 := isReal_of_all_finite a29 _ _ _ _ _ hb29
    h30 := isReal_of_all_finite a30 _ _ _ _ _ hb30
    h31 := isReal_of_all_finite a31 _ _ _ _ _ hb31
    h32 := isReal_of_all_finite a32 _ _ _ _ _ hb32
    h33 := isReal_of_all_finite a33 _ _ _ _ _ hb33
    h34 := isReal_of_all_finite a34 _ _ _ _ _ hb34
    h35 := isReal_of_all_finite a35 _ _ _ _ _ hb35
    h36 := isReal_of_all_finite a36 _ _ _ _ _ hb36
    h37 := isReal_of_all_finite a37 _ _ _ _ _ hb37
    h38 := isReal_of_all_finite a38 _ _ _ _ _ hb38
    h39 := isReal_of_all_finite a39 _ _ _ _ _ hb39 }

end Cert.Bridge
-- ==== Proof.KI.Chain.lean ====
/- The kernel program's two results, read off the last contents of its run, are the reference's results of the same arguments. -/
import proofs.«154353_j88940182765819_1_alg».proof.Proof.KI.ChainItems
import proofs.«154353_j88940182765819_1_alg».proof.Proof.Math.Real2
import proofs.«154353_j88940182765819_1_alg».proof.Proof.Math.Finite
import proofs.«154353_j88940182765819_1_alg».proof.Proof.Gen.Pre_finite_inputs

set_option maxRecDepth 16384

noncomputable section

namespace Cert.KernelIdeal.Hand

open Cert.KernelIdeal Cert.KernelIdeal.Gen Cert.Bridge Cert.ReferenceIdeal.RefRun
open Idealize.ShloMosaic Idealize.ShloMosaic.TcCoe Idealize.SL.Sem Idealize.ShloMosaic.StableHlo

open Idealize.ShloMosaic.ValueIdx

variable (m : (ℓ : Loc nD τ sig) → Buf (Elt Ideal) ℓ) (c : Dev nD)

/-- The kernel program's two results, read off the last contents of its run, are the reference's results of the same
    arguments: each argument's launch contents is the reference's, and the convolution outputs are real-valued. -/
theorem kernel_out (a : Cert.ReferenceIdeal.RefRun.Args Ideal)
    (ha0 : a Cert.ReferenceIdeal.main_arg0 = m ((c : Thread nD τ).loc main_arg0))
    (ha1 : a Cert.ReferenceIdeal.main_arg1 = m ((c : Thread nD τ).loc main_arg1))
    (ha2 : a Cert.ReferenceIdeal.main_arg2 = m ((c : Thread nD τ).loc main_arg2))
    (ha3 : a Cert.ReferenceIdeal.main_arg3 = m ((c : Thread nD τ).loc main_arg3))
    (ha4 : a Cert.ReferenceIdeal.main_arg4 = m ((c : Thread nD τ).loc main_arg4))
    (ha5 : a Cert.ReferenceIdeal.main_arg5 = m ((c : Thread nD τ).loc main_arg5))
    (ha6 : a Cert.ReferenceIdeal.main_arg6 = m ((c : Thread nD τ).loc main_arg6))
    (ha7 : a Cert.ReferenceIdeal.main_arg7 = m ((c : Thread nD τ).loc main_arg7))
    (ha8 : a Cert.ReferenceIdeal.main_arg8 = m ((c : Thread nD τ).loc main_arg8))
    (ha9 : a Cert.ReferenceIdeal.main_arg9 = m ((c : Thread nD τ).loc main_arg9))
    (ha10 : a Cert.ReferenceIdeal.main_arg10 = m ((c : Thread nD τ).loc main_arg10))
    (ha11 : a Cert.ReferenceIdeal.main_arg11 = m ((c : Thread nD τ).loc main_arg11))
    (ha12 : a Cert.ReferenceIdeal.main_arg12 = m ((c : Thread nD τ).loc main_arg12))
    (ha13 : a Cert.ReferenceIdeal.main_arg13 = m ((c : Thread nD τ).loc main_arg13))
    (ha14 : a Cert.ReferenceIdeal.main_arg14 = m ((c : Thread nD τ).loc main_arg14))
    (ha15 : a Cert.ReferenceIdeal.main_arg15 = m ((c : Thread nD τ).loc main_arg15))
    (ha16 : a Cert.ReferenceIdeal.main_arg16 = m ((c : Thread nD τ).loc main_arg16))
    (ha17 : a Cert.ReferenceIdeal.main_arg17 = m ((c : Thread nD τ).loc main_arg17))
    (ha18 : a Cert.ReferenceIdeal.main_arg18 = m ((c : Thread nD τ).loc main_arg18))
    (ha19 : a Cert.ReferenceIdeal.main_arg19 = m ((c : Thread nD τ).loc main_arg19))
    (ha20 : a Cert.ReferenceIdeal.main_arg20 = m ((c : Thread nD τ).loc main_arg20))
    (ha21 : a Cert.ReferenceIdeal.main_arg21 = m ((c : Thread nD τ).loc main_arg21))
    (ha22 : a Cert.ReferenceIdeal.main_arg22 = m ((c : Thread nD τ).loc main_arg22))
    (ha23 : a Cert.ReferenceIdeal.main_arg23 = m ((c : Thread nD τ).loc main_arg23))
    (ha24 : a Cert.ReferenceIdeal.main_arg24 = m ((c : Thread nD τ).loc main_arg24))
    (ha25 : a Cert.ReferenceIdeal.main_arg25 = m ((c : Thread nD τ).loc main_arg25))
    (ha26 : a Cert.ReferenceIdeal.main_arg26 = m ((c : Thread nD τ).loc main_arg26))
    (ha27 : a Cert.ReferenceIdeal.main_arg27 = m ((c : Thread nD τ).loc main_arg27))
    (ha28 : a Cert.ReferenceIdeal.main_arg28 = m ((c : Thread nD τ).loc main_arg28))
    (ha29 : a Cert.ReferenceIdeal.main_arg29 = m ((c : Thread nD τ).loc main_arg29))
    (ha30 : a Cert.ReferenceIdeal.main_arg30 = m ((c : Thread nD τ).loc main_arg30))
    (ha31 : a Cert.ReferenceIdeal.main_arg31 = m ((c : Thread nD τ).loc main_arg31))
    (ha32 : a Cert.ReferenceIdeal.main_arg32 = m ((c : Thread nD τ).loc main_arg32))
    (ha33 : a Cert.ReferenceIdeal.main_arg33 = m ((c : Thread nD τ).loc main_arg33))
    (ha34 : a Cert.ReferenceIdeal.main_arg34 = m ((c : Thread nD τ).loc main_arg34))
    (ha35 : a Cert.ReferenceIdeal.main_arg35 = m ((c : Thread nD τ).loc main_arg35))
    (ha36 : a Cert.ReferenceIdeal.main_arg36 = m ((c : Thread nD τ).loc main_arg36))
    (ha37 : a Cert.ReferenceIdeal.main_arg37 = m ((c : Thread nD τ).loc main_arg37))
    (ha38 : a Cert.ReferenceIdeal.main_arg38 = m ((c : Thread nD τ).loc main_arg38))
    (ha39 : a Cert.ReferenceIdeal.main_arg39 = m ((c : Thread nD τ).loc main_arg39))
    (hr : ConvReal m c) :
    W20 m c (Proc.devRef .tc main_v153) = Cert.ReferenceIdeal.RefRun.outA a
    ∧ W20 m c (Proc.devRef .tc main_v155) = Cert.ReferenceIdeal.RefRun.outP a := by
  refine ⟨(W20_main_v153 m c hr).trans ?_, (W20_main_v155 m c hr).trans ?_⟩
  · simp only [kA2, kA2c, kA1, kA1c, kP1, kP1c, ← ha0, ← ha1, ← ha2, ← ha3, ← ha4, ← ha5, ← ha6, ← ha7, ← ha8, ← ha9, ← ha10, ← ha11, ← ha12, ← ha13, ← ha14, ← ha15, ← ha16, ← ha17, ← ha18, ← ha19, ← ha20, ← ha21, ← ha22, ← ha23, ← ha24, ← ha25, ← ha26, ← ha27, ← ha28, ← ha29, ← ha30, ← ha31, ← ha32, ← ha33, ← ha34, ← ha35, ← ha36, ← ha37, ← ha38, ← ha39]
    rfl
  · simp only [kP2, kP2c, kA1, kA1c, kP1, kP1c, ← ha0, ← ha1, ← ha2, ← ha3, ← ha4, ← ha5, ← ha6, ← ha7, ← ha8, ← ha9, ← ha10, ← ha11, ← ha12, ← ha13, ← ha14, ← ha15, ← ha16, ← ha17, ← ha18, ← ha19, ← ha20, ← ha21, ← ha22, ← ha23, ← ha24, ← ha25, ← ha26, ← ha27, ← ha28, ← ha29, ← ha30, ← ha31, ← ha32, ← ha33, ← ha34, ← ha35, ← ha36, ← ha37, ← ha38, ← ha39]
    rfl

set_option maxHeartbeats 4000000 in
/-- The precondition (every float argument finite) makes the four convolution outputs real-valued: the arguments are
    real-valued, and the segment mean, the linear maps and the normalisation each keep real-valuedness. -/
theorem convReal_of_pre [Cert.Pre_finite_inputs.Facts]
    (h : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) (m ((c.tc : Thread nD τ).loc main_arg36)) (m ((c.tc : Thread nD τ).loc main_arg37)) (m ((c.tc : Thread nD τ).loc main_arg38)) (m ((c.tc : Thread nD τ).loc main_arg39)) = fun _ => 1#1) :
    ConvReal m c := by
  have A := Cert.Bridge.argsReal_of_pre (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) (m ((c.tc : Thread nD τ).loc main_arg36)) (m ((c.tc : Thread nD τ).loc main_arg37)) (m ((c.tc : Thread nD τ).loc main_arg38)) (m ((c.tc : Thread nD τ).loc main_arg39)) h
  have a1 : Cert.RealValued.IsReal (kA1c m c) := by
    unfold kA1c; exact isReal_refConv _ _ A.h0 (isReal_refAgg128 _ A.h1) A.h6 A.h7 A.h4 A.h5 A.h8 A.h9
  have p1 : Cert.RealValued.IsReal (kP1c m c) := by
    unfold kP1c; exact isReal_refConv _ _ A.h1 (isReal_refAgg256 _ A.h0) A.h12 A.h13 A.h10 A.h11 A.h14 A.h15
  have ha1 : Cert.RealValued.IsReal (kA1 m c) := by unfold kA1; exact isReal_refBN a1 A.h28 A.h29
  have hp1 : Cert.RealValued.IsReal (kP1 m c) := by unfold kP1; exact isReal_refBN p1 A.h30 A.h31
  have a2 : Cert.RealValued.IsReal (kA2c m c) := by
    unfold kA2c; exact isReal_refConv _ _ ha1 (isReal_refAgg128 _ hp1) A.h18 A.h19 A.h16 A.h17 A.h20 A.h21
  have p2 : Cert.RealValued.IsReal (kP2c m c) := by
    unfold kP2c; exact isReal_refConv _ _ hp1 (isReal_refAgg128 _ ha1) A.h24 A.h25 A.h22 A.h23 A.h26 A.h27
  exact ⟨a1, p1, a2, p2⟩

end Cert.KernelIdeal.Hand

end
-- ==== Proof.Ref.Ops.lean ====
/- @main of the reference program as a list of its host operations: the printed windows `main_part0` … `main_part4`,
   each call's operations standing in the call's place over the call's buffer record (the callee's body, its typed
   references read at the record's buffers). The lists are cut where a window or a stage of the computation ends, so
   that the same pieces assemble both the windows (for the equation with the printed program) and the stages (for
   reading the results back). -/
import proofs.«154353_j88940182765819_1_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F] [Facts]

/-- Operations of window 0, stage Rows (8). -/
abbrev chunk0 : List (HloOp τ sig (Elt F)) :=
  [ StableHlo.unary main_arg2 main_v0 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v0 main_v1 rfl shapeCasts_S1x500000_S500000,
    StableHlo.unary main_arg2 main_v2 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v2 main_v3 rfl shapeCasts_S1x500000_S500000,
    StableHlo.unary main_arg3 main_v4 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v4 main_v5 rfl shapeCasts_S1x500000_S500000,
    StableHlo.unary main_arg3 main_v6 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v6 main_v7 rfl shapeCasts_S1x500000_S500000 ]

/-- Operations of window 0, stage AggA1 (25). -/
abbrev chunk1 : List (HloOp τ sig (Elt F)) :=
  [ StableHlo.nullary main_c (constantI S_ 32 0#32),
    StableHlo.unary main_c main_v8 (broadcastInDim S500000 ![] bcast_S_S500000 : (⟨S_, .i32⟩ : BufTy).Contents (Elt F) → (⟨S500000, .i32⟩ : BufTy).Contents (Elt F)),
    StableHlo.binary main_v1 main_v8 main_v9 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 100000#32),
    StableHlo.unary main_c_0 main_v10 (broadcastInDim S500000 ![] bcast_S_S500000 : (⟨S_, .i32⟩ : BufTy).Contents (Elt F) → (⟨S500000, .i32⟩ : BufTy).Contents (Elt F)),
    StableHlo.binary main_v1 main_v10 main_v11 (addi : (⟨S500000, .i32⟩ : BufTy).Contents (Elt F) → (⟨S500000, .i32⟩ : BufTy).Contents (Elt F) → (⟨S500000, .i32⟩ : BufTy).Contents (Elt F)),
    StableHlo.ternary main_v9 main_v11 main_v1 main_v12 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v12 main_v13 (broadcastInDim S500000x1 ![0] bcast_S500000_S500000x1_0 : (⟨S500000, .i32⟩ : BufTy).Contents (Elt F) → (⟨S500000x1, .i32⟩ : BufTy).Contents (Elt F)),
    StableHlo.binary main_arg1 main_v13 main_v14 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.nullary main_cst (constant S_ .f32 0x00000000#32),
    StableHlo.unary main_cst main_v15 (broadcastInDim S100000x128 ![] bcast_S_S100000x128 : (⟨S_, .f32⟩ : BufTy).Contents (Elt F) → (⟨S100000x128, .f32⟩ : BufTy).Contents (Elt F)),
    StableHlo.unary main_v3 main_v16 (broadcastInDim S500000x1 ![0] bcast_S500000_S500000x1_0 : (⟨S500000, .i32⟩ : BufTy).Contents (Elt F) → (⟨S500000x1, .i32⟩ : BufTy).Contents (Elt F)),
    StableHlo.ternary main_v15 main_v16 main_v14 main_v17 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    StableHlo.nullary main_cst_1 (constant S_ .f32 0x3F800000#32),
    StableHlo.unary main_cst_1 main_v18 (broadcastInDim S500000 ![] bcast_S_S500000 : (⟨S_, .f32⟩ : BufTy).Contents (Elt F) → (⟨S500000, .f32⟩ : BufTy).Contents (Elt F)),
    StableHlo.nullary main_cst_2 (constant S_ .f32 0x00000000#32),
    StableHlo.unary main_cst_2 main_v19 (broadcastInDim S100000 ![] bcast_S_S100000 : (⟨S_, .f32⟩ : BufTy).Contents (Elt F) → (⟨S100000, .f32⟩ : BufTy).Contents (Elt F)),
    StableHlo.unary main_v3 main_v20 (broadcastInDim S500000x1 ![0] bcast_S500000_S500000x1_0 : (⟨S500000, .i32⟩ : BufTy).Contents (Elt F) → (⟨S500000x1, .i32⟩ : BufTy).Contents (Elt F)),
    StableHlo.ternary main_v19 main_v20 main_v18 main_v21 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    StableHlo.nullary main_cst_3 (constant S_ .f32 0x3F800000#32),
    StableHlo.unary main_cst_3 main_v22 (broadcastInDim S100000 ![] bcast_S_S100000 : (⟨S_, .f32⟩ : BufTy).Contents (Elt F) → (⟨S100000, .f32⟩ : BufTy).Contents (Elt F)),
    StableHlo.binary main_v21 main_v22 main_v23 (maximumf : (⟨S100000, .f32⟩ : BufTy).Contents (Elt F) → (⟨S100000, .f32⟩ : BufTy).Contents (Elt F) → (⟨S100000, .f32⟩ : BufTy).Contents (Elt F)),
    StableHlo.unary main_v23 main_v24 (broadcastInDim S100000x1 ![0] bcast_S100000_S100000x1_0 : (⟨S100000, .f32⟩ : BufTy).Contents (Elt F) → (⟨S100000x1, .f32⟩ : BufTy).Contents (Elt F)),
    StableHlo.unary main_v24 main_v25 (broadcastInDim S100000x128 ![0, 1] bcast_S100000x1_S100000x128_0_1 : (⟨S100000x1, .f32⟩ : BufTy).Contents (Elt F) → (⟨S100000x128, .f32⟩ : BufTy).Contents (Elt F)),
    StableHlo.binary main_v17 main_v25 main_v26 (Host.divf : (⟨S100000x128, .f32⟩ : BufTy).Contents (Elt F) → (⟨S100000x128, .f32⟩ : BufTy).Contents (Elt F) → (⟨S100000x128, .f32⟩ : BufTy).Contents (Elt F)) ]

/-- Operations of window 0, stage ConvA1 (13). -/
abbrev chunk2 : List (HloOp τ sig (Elt F)) :=
  [ StableHlo.binary main_arg0 main_arg6 main_v27 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg7 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S100000x128 ![0, 1] bcast_S1x128_S100000x128_0_1 : (⟨S1x128, .f32⟩ : BufTy).Contents (Elt F) → (⟨S100000x128, .f32⟩ : BufTy).Contents (Elt F)),
    StableHlo.binary main_v27 main_v29 main_v30 (addf : (⟨S100000x128, .f32⟩ : BufTy).Contents (Elt F) → (⟨S100000x128, .f32⟩ : BufTy).Contents (Elt F) → (⟨S100000x128, .f32⟩ : BufTy).Contents (Elt F)),
    StableHlo.binary main_v26 main_arg4 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v33 main_v34 (addf : (⟨S100000x128, .f32⟩ : BufTy).Contents (Elt F) → (⟨S100000x128, .f32⟩ : BufTy).Contents (Elt F) → (⟨S100000x128, .f32⟩ : BufTy).Contents (Elt F)),
    StableHlo.binary main_v30 main_v34 main_v35 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.binary main_v35 main_arg8 main_v36 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg9 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v38 main_v39 (addf : (⟨S100000x128, .f32⟩ : BufTy).Contents (Elt F) → (⟨S100000x128, .f32⟩ : BufTy).Contents (Elt F) → (⟨S100000x128, .f32⟩ : BufTy).Contents (Elt F)) ]

/-- Operations of window 0, stage AggP1 (14). -/
abbrev chunk3 : List (HloOp τ sig (Elt F)) :=
  [ StableHlo.nullary main_c_4 (constantI S_ 32 0#32),
    StableHlo.unary main_c_4 main_v40 (broadcastInDim S500000 ![] bcast_S_S500000 : (⟨S_, .i32⟩ : BufTy).Contents (Elt F) → (⟨S500000, .i32⟩ : BufTy).Contents (Elt F)),
    StableHlo.binary main_v5 main_v40 main_v41 (cmpi .slt : (⟨S500000, .i32⟩ : BufTy).Contents (Elt F) → (⟨S500000, .i32⟩ : BufTy).Contents (Elt F) → (⟨S500000, .i1⟩ : BufTy).Contents (Elt F)),
    StableHlo.nullary main_c_5 (constantI S_ 32 100000#32),
    StableHlo.unary main_c_5 main_v42 (broadcastInDim S500000 ![] bcast_S_S500000 : (⟨S_, .i32⟩ : BufTy).Contents (Elt F) → (⟨S500000, .i32⟩ : BufTy).Contents (Elt F)),
    StableHlo.binary main_v5 main_v42 main_v43 (addi : (⟨S500000, .i32⟩ : BufTy).Contents (Elt F) → (⟨S500000, .i32⟩ : BufTy).Contents (Elt F) → (⟨S500000, .i32⟩ : BufTy).Contents (Elt F)),
    StableHlo.ternary main_v41 main_v43 main_v5 main_v44 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v44 main_v45 (broadcastInDim S500000x1 ![0] bcast_S500000_S500000x1_0 : (⟨S500000, .i32⟩ : BufTy).Contents (Elt F) → (⟨S500000x1, .i32⟩ : BufTy).Contents (Elt F)),
    StableHlo.binary main_arg0 main_v45 main_v46 ((fun x i => Host.gather gather_S100000x256_S500000x1_S500000x256_1_0_n_n_0_1_1256 x i) : (⟨S100000x256, .f32⟩ : BufTy).Contents (Elt F) → (⟨S500000x1, .i32⟩ : BufTy).Contents (Elt F) → (⟨S500000x256, .f32⟩ : BufTy).Contents (Elt F)),
    StableHlo.nullary main_cst_6 (constant S_ .f32 0x00000000#32),
    StableHlo.unary main_cst_6 main_v47 (broadcastInDim S100000x256 ![] bcast_S_S100000x256 : (⟨S_, .f32⟩ : BufTy).Contents (Elt F) → (⟨S100000x256, .f32⟩ : BufTy).Contents (Elt F)),
    StableHlo.unary main_v7 main_v48 (broadcastInDim S500000x1 ![0] bcast_S500000_S500000x1_0 : (⟨S500000, .i32⟩ : BufTy).Contents (Elt F) → (⟨S500000x1, .i32⟩ : BufTy).Contents (Elt F)),
    StableHlo.ternary main_v47 main_v48 main_v46 main_v49 ((fun x i u => Host.scatterAdd scatter_S100000x256_S500000x1_S500000x256_1_0_0_1 x i u) : (⟨S100000x256, .f32⟩ : BufTy).Contents (Elt F) → (⟨S500000x1, .i32⟩ : BufTy).Contents (Elt F) → (⟨S500000x256, .f32⟩ : BufTy).Contents (Elt F) → (⟨S100000x256, .f32⟩ : BufTy).Contents (Elt F)),
    StableHlo.nullary main_cst_7 (constant S_ .f32 0x3F800000#32) ]

/-- Operations of window 1, stage AggP1 (11). -/
abbrev chunk4 : List (HloOp τ sig (Elt F)) :=
  [ StableHlo.unary main_cst_7 main_v50 (broadcastInDim S500000 ![] bcast_S_S500000 : (⟨S_, .f32⟩ : BufTy).Contents (Elt F) → (⟨S500000, .f32⟩ : BufTy).Contents (Elt F)),
    StableHlo.nullary main_cst_8 (constant S_ .f32 0x00000000#32),
    StableHlo.unary main_cst_8 main_v51 (broadcastInDim S100000 ![] bcast_S_S100000 : (⟨S_, .f32⟩ : BufTy).Contents (Elt F) → (⟨S100000, .f32⟩ : BufTy).Contents (Elt F)),
    StableHlo.unary main_v7 main_v52 (broadcastInDim S500000x1 ![0] bcast_S500000_S500000x1_0 : (⟨S500000, .i32⟩ : BufTy).Contents (Elt F) → (⟨S500000x1, .i32⟩ : BufTy).Contents (Elt F)),
    StableHlo.ternary main_v51 main_v52 main_v50 main_v53 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    StableHlo.nullary main_cst_9 (constant S_ .f32 0x3F800000#32),
    StableHlo.unary main_cst_9 main_v54 (broadcastInDim S100000 ![] bcast_S_S100000 : (⟨S_, .f32⟩ : BufTy).Contents (Elt F) → (⟨S100000, .f32⟩ : BufTy).Contents (Elt F)),
    StableHlo.binary main_v53 main_v54 main_v55 (maximumf : (⟨S100000, .f32⟩ : BufTy).Contents (Elt F) → (⟨S100000, .f32⟩ : BufTy).Contents (Elt F) → (⟨S100000, .f32⟩ : BufTy).Contents (Elt F)),
    StableHlo.unary main_v55 main_v56 (broadcastInDim S100000x1 ![0] bcast_S100000_S100000x1_0 : (⟨S100000, .f32⟩ : BufTy).Contents (Elt F) → (⟨S100000x1, .f32⟩ : BufTy).Contents (Elt F)),
    StableHlo.unary main_v56 main_v57 (broadcastInDim S100000x256 ![0, 1] bcast_S100000x1_S100000x256_0_1 : (⟨S100000x1, .f32⟩ : BufTy).Contents (Elt F) → (⟨S100000x256, .f32⟩ : BufTy).Contents (Elt F)),
    StableHlo.binary main_v49 main_v57 main_v58 (Host.divf : (⟨S100000x256, .f32⟩ : BufTy).Contents (Elt F) → (⟨S100000x256, .f32⟩ : BufTy).Contents (Elt F) → (⟨S100000x256, .f32⟩ : BufTy).Contents (Elt F)) ]

/-- Operations of window 1, stage ConvP1 (13). -/
abbrev chunk5 : List (HloOp τ sig (Elt F)) :=
  [ StableHlo.binary main_arg1 main_arg12 main_v59 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg13 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S100000x128 ![0, 1] bcast_S1x128_S100000x128_0_1 : (⟨S1x128, .f32⟩ : BufTy).Contents (Elt F) → (⟨S100000x128, .f32⟩ : BufTy).Contents (Elt F)),
    StableHlo.binary main_v59 main_v61 main_v62 (addf : (⟨S100000x128, .f32⟩ : BufTy).Contents (Elt F) → (⟨S100000x128, .f32⟩ : BufTy).Contents (Elt F) → (⟨S100000x128, .f32⟩ : BufTy).Contents (Elt F)),
    StableHlo.binary main_v58 main_arg10 main_v63 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg11 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v65 main_v66 (addf : (⟨S100000x128, .f32⟩ : BufTy).Contents (Elt F) → (⟨S100000x128, .f32⟩ : BufTy).Contents (Elt F) → (⟨S100000x128, .f32⟩ : BufTy).Contents (Elt F)),
    StableHlo.binary main_v62 main_v66 main_v67 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.binary main_v67 main_arg14 main_v68 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg15 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v68 main_v70 main_v71 (addf : (⟨S100000x128, .f32⟩ : BufTy).Contents (Elt F) → (⟨S100000x128, .f32⟩ : BufTy).Contents (Elt F) → (⟨S100000x128, .f32⟩ : BufTy).Contents (Elt F)) ]

/-- Operations of window 1, stage BnA1 (51). -/
abbrev chunk6 : List (HloOp τ sig (Elt F)) :=
  [ StableHlo.nullary main_cst_10 (constant S_ .f32 0x00000000#32),
    StableHlo.binary main_v39 main_cst_10 main_v72 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_11 (constant S_ .f32 0x47C35000#32),
    StableHlo.unary main_cst_11 main_v73 (broadcastInDim S128 ![] bcast_S_S128 : (⟨S_, .f32⟩ : BufTy).Contents (Elt F) → (⟨S128, .f32⟩ : BufTy).Contents (Elt F)),
    StableHlo.binary main_v72 main_v73 main_v74 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.nullary main_call0_cst (constant S_ .f32 0x00000000#32 : (⟨S_, .f32⟩ : BufTy).Contents (Elt F)),
    StableHlo.binary main_v39 main_call0_cst main_call0_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call0_v0 main_call0_v1 ((broadcastInDim S1x128 ![1] bcast_S128_S1x128_1) : (⟨S128, .f32⟩ : BufTy).Contents (Elt F) → (⟨S1x128, .f32⟩ : BufTy).Contents (Elt F)),
    StableHlo.nullary main_call0_cst_0 (constant S_ .f32 0x47C35000#32 : (⟨S_, .f32⟩ : BufTy).Contents (Elt F)),
    StableHlo.unary main_call0_cst_0 main_call0_v2 ((broadcastInDim S1x128 ![] bcast_S_S1x128) : (⟨S_, .f32⟩ : BufTy).Contents (Elt F) → (⟨S1x128, .f32⟩ : BufTy).Contents (Elt F)),
    StableHlo.binary main_call0_v1 main_call0_v2 main_call0_v3 ((Host.divf) : (⟨S1x128, .f32⟩ : BufTy).Contents (Elt F) → (⟨S1x128, .f32⟩ : BufTy).Contents (Elt F) → (⟨S1x128, .f32⟩ : BufTy).Contents (Elt F)),
    StableHlo.unary main_call0_v3 main_call0_v4 ((broadcastInDim S100000x128 ![0, 1] bcast_S1x128_S100000x128_0_1) : (⟨S1x128, .f32⟩ : BufTy).Contents (Elt F) → (⟨S100000x128, .f32⟩ : BufTy).Contents (Elt F)),
    StableHlo.binary main_v39 main_call0_v4 main_call0_v5 ((subf) : (⟨S100000x128, .f32⟩ : BufTy).Contents (Elt F) → (⟨S100000x128, .f32⟩ : BufTy).Contents (Elt F) → (⟨S100000x128, .f32⟩ : BufTy).Contents (Elt F)),
    StableHlo.binary main_call0_v5 main_call0_v5 main_call0_v6 ((mulf) : (⟨S100000x128, .f32⟩ : BufTy).Contents (Elt F) → (⟨S100000x128, .f32⟩ : BufTy).Contents (Elt F) → (⟨S100000x128, .f32⟩ : BufTy).Contents (Elt F)),
    StableHlo.unary main_c_12 main_call0_v7 ((sitofp .f32) : (⟨S_, .i32⟩ : BufTy).Contents (Elt F) → (⟨S_, .f32⟩ : BufTy).Contents (Elt F)),
    StableHlo.nullary main_call0_cst_1 (constant S_ .f32 0x47C35000#32 : (⟨S_, .f32⟩ : BufTy).Contents (Elt F)),
    StableHlo.binary main_call0_cst_1 main_call0_v7 main_call0_v8 ((subf) : (⟨S_, .f32⟩ : BufTy).Contents (Elt F) → (⟨S_, .f32⟩ : BufTy).Contents (Elt F) → (⟨S_, .f32⟩ : BufTy).Contents (Elt F)),
    StableHlo.nullary main_call0_cst_2 (constant S_ .f32 0x00000000#32 : (⟨S_, .f32⟩ : BufTy).Contents (Elt F)),
    StableHlo.binary main_call0_v6 main_call0_cst_2 main_call0_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call0_v8 main_call0_v10 ((broadcastInDim S128 ![] bcast_S_S128) : (⟨S_, .f32⟩ : BufTy).Contents (Elt F) → (⟨S128, .f32⟩ : BufTy).Contents (Elt F)),
    StableHlo.binary main_call0_v9 main_call0_v10 main_call0_v11 ((Host.divf) : (⟨S128, .f32⟩ : BufTy).Contents (Elt F) → (⟨S128, .f32⟩ : BufTy).Contents (Elt F) → (⟨S128, .f32⟩ : BufTy).Contents (Elt F)),
    StableHlo.nullary main_call0_cst_3 (constant S_ .f32 0x00000000#32 : (⟨S_, .f32⟩ : BufTy).Contents (Elt F)),
    StableHlo.binary main_call0_v8 main_call0_cst_3 main_call0_v12 ((cmpf .ogt) : (⟨S_, .f32⟩ : BufTy).Contents (Elt F) → (⟨S_, .f32⟩ : BufTy).Contents (Elt F) → (⟨S_, .i1⟩ : BufTy).Contents (Elt F)),
    StableHlo.nullary main_call0_cst_4 (constant S_ .f32 0x7FC00000#32 : (⟨S_, .f32⟩ : BufTy).Contents (Elt F)),
    StableHlo.unary main_call0_cst_4 main_call0_call0_v0 ((id) : (⟨S_, .f32⟩ : BufTy).Contents (Elt F) → (⟨S_, .f32⟩ : BufTy).Contents (Elt F)),
    StableHlo.unary main_call0_call0_v0 main_call0_call0_v1 ((broadcastInDim S128 ![] bcast_S_S128) : (⟨S_, .f32⟩ : BufTy).Contents (Elt F) → (⟨S128, .f32⟩ : BufTy).Contents (Elt F)),
    StableHlo.ternary main_call0_v12 main_call0_v11 main_call0_call0_v1 main_v75 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v74 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v77 main_v78 (subf : (⟨S100000x128, .f32⟩ : BufTy).Contents (Elt F) → (⟨S100000x128, .f32⟩ : BufTy).Contents (Elt F) → (⟨S100000x128, .f32⟩ : BufTy).Contents (Elt F)),
    StableHlo.unary main_arg28 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v78 main_v81 (mulf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x3F800000#32),
    StableHlo.unary main_cst_13 main_v82 (broadcastInDim S128 ![] bcast_S_S128 : (⟨S_, .f32⟩ : BufTy).Contents (Elt F) → (⟨S128, .f32⟩ : BufTy).Contents (Elt F)),
    StableHlo.binary main_v75 main_v82 main_v83 (addf : (⟨S128, .f32⟩ : BufTy).Contents (Elt F) → (⟨S128, .f32⟩ : BufTy).Contents (Elt F) → (⟨S128, .f32⟩ : BufTy).Contents (Elt F)),
    StableHlo.unary main_v83 main_v84 (Host.sqrt : (⟨S128, .f32⟩ : BufTy).Contents (Elt F) → (⟨S128, .f32⟩ : BufTy).Contents (Elt F)),
    StableHlo.unary main_v84 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S100000x128 ![0, 1] bcast_S1x128_S100000x128_0_1 : (⟨S1x128, .f32⟩ : BufTy).Contents (Elt F) → (⟨S100000x128, .f32⟩ : BufTy).Contents (Elt F)),
    StableHlo.binary main_v81 main_v86 main_v87 (Host.divf : (⟨S100000x128, .f32⟩ : BufTy).Contents (Elt F) → (⟨S100000x128, .f32⟩ : BufTy).Contents (Elt F) → (⟨S100000x128, .f32⟩ : BufTy).Contents (Elt F)),
    StableHlo.unary main_arg29 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S100000x128 ![0, 1] bcast_S1x128_S100000x128_0_1 : (⟨S1x128, .f32⟩ : BufTy).Contents (Elt F) → (⟨S100000x128, .f32⟩ : BufTy).Contents (Elt F)),
    StableHlo.binary main_v87 main_v89 main_v90 (addf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x00000000#32),
    StableHlo.unary main_cst_14 main_v91 (broadcastInDim S100000x128 ![] bcast_S_S100000x128 : (⟨S_, .f32⟩ : BufTy).Contents (Elt F) → (⟨S100000x128, .f32⟩ : BufTy).Contents (Elt F)),
    StableHlo.binary main_v90 main_v91 main_v92 (cmpf .oge : (⟨S100000x128, .f32⟩ : BufTy).Contents (Elt F) → (⟨S100000x128, .f32⟩ : BufTy).Contents (Elt F) → (⟨S100000x128, .i1⟩ : BufTy).Contents (Elt F)),
    StableHlo.nullary main_cst_15 (constant S_ .f32 0x3C23D70A#32),
    StableHlo.unary main_cst_15 main_v93 (broadcastInDim S100000x128 ![] bcast_S_S100000x128 : (⟨S_, .f32⟩ : BufTy).Contents (Elt F) → (⟨S100000x128, .f32⟩ : BufTy).Contents (Elt F)),
    StableHlo.binary main_v93 main_v90 main_v94 (mulf : (⟨S100000x128, .f32⟩ : BufTy).Contents (Elt F) → (⟨S100000x128, .f32⟩ : BufTy).Contents (Elt F) → (⟨S100000x128, .f32⟩ : BufTy).Contents (Elt F)),
    StableHlo.ternary main_v92 main_v90 main_v94 main_v95 ((select) : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) ]

/-- Operations of window 1, stage BnP1 (6). -/
abbrev chunk7 : List (HloOp τ sig (Elt F)) :=
  [ StableHlo.nullary main_cst_16 (constant S_ .f32 0x00000000#32),
    StableHlo.binary main_v71 main_cst_16 main_v96 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_17 (constant S_ .f32 0x47C35000#32),
    StableHlo.unary main_cst_17 main_v97 (broadcastInDim S128 ![] bcast_S_S128 : (⟨S_, .f32⟩ : BufTy).Contents (Elt F) → (⟨S128, .f32⟩ : BufTy).Contents (Elt F)),
    StableHlo.binary main_v96 main_v97 main_v98 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32) ]

/-- Operations of window 2, stage BnP1 (45). -/
abbrev chunk8 : List (HloOp τ sig (Elt F)) :=
  [ StableHlo.nullary main_call2_cst (constant S_ .f32 0x00000000#32 : (⟨S_, .f32⟩ : BufTy).Contents (Elt F)),
    StableHlo.binary main_v71 main_call2_cst main_call2_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call2_v0 main_call2_v1 ((broadcastInDim S1x128 ![1] bcast_S128_S1x128_1) : (⟨S128, .f32⟩ : BufTy).Contents (Elt F) → (⟨S1x128, .f32⟩ : BufTy).Contents (Elt F)),
    StableHlo.nullary main_call2_cst_0 (constant S_ .f32 0x47C35000#32 : (⟨S_, .f32⟩ : BufTy).Contents (Elt F)),
    StableHlo.unary main_call2_cst_0 main_call2_v2 ((broadcastInDim S1x128 ![] bcast_S_S1x128) : (⟨S_, .f32⟩ : BufTy).Contents (Elt F) → (⟨S1x128, .f32⟩ : BufTy).Contents (Elt F)),
    StableHlo.binary main_call2_v1 main_call2_v2 main_call2_v3 ((Host.divf) : (⟨S1x128, .f32⟩ : BufTy).Contents (Elt F) → (⟨S1x128, .f32⟩ : BufTy).Contents (Elt F) → (⟨S1x128, .f32⟩ : BufTy).Contents (Elt F)),
    StableHlo.unary main_call2_v3 main_call2_v4 ((broadcastInDim S100000x128 ![0, 1] bcast_S1x128_S100000x128_0_1) : (⟨S1x128, .f32⟩ : BufTy).Contents (Elt F) → (⟨S100000x128, .f32⟩ : BufTy).Contents (Elt F)),
    StableHlo.binary main_v71 main_call2_v4 main_call2_v5 ((subf) : (⟨S100000x128, .f32⟩ : BufTy).Contents (Elt F) → (⟨S100000x128, .f32⟩ : BufTy).Contents (Elt F) → (⟨S100000x128, .f32⟩ : BufTy).Contents (Elt F)),
    StableHlo.binary main_call2_v5 main_call2_v5 main_call2_v6 ((mulf) : (⟨S100000x128, .f32⟩ : BufTy).Contents (Elt F) → (⟨S100000x128, .f32⟩ : BufTy).Contents (Elt F) → (⟨S100000x128, .f32⟩ : BufTy).Contents (Elt F)),
    StableHlo.unary main_c_18 main_call2_v7 ((sitofp .f32) : (⟨S_, .i32⟩ : BufTy).Contents (Elt F) → (⟨S_, .f32⟩ : BufTy).Contents (Elt F)),
    StableHlo.nullary main_call2_cst_1 (constant S_ .f32 0x47C35000#32 : (⟨S_, .f32⟩ : BufTy).Contents (Elt F)),
    StableHlo.binary main_call2_cst_1 main_call2_v7 main_call2_v8 ((subf) : (⟨S_, .f32⟩ : BufTy).Contents (Elt F) → (⟨S_, .f32⟩ : BufTy).Contents (Elt F) → (⟨S_, .f32⟩ : BufTy).Contents (Elt F)),
    StableHlo.nullary main_call2_cst_2 (constant S_ .f32 0x00000000#32 : (⟨S_, .f32⟩ : BufTy).Contents (Elt F)),
    StableHlo.binary main_call2_v6 main_call2_cst_2 main_call2_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call2_v8 main_call2_v10 ((broadcastInDim S128 ![] bcast_S_S128) : (⟨S_, .f32⟩ : BufTy).Contents (Elt F) → (⟨S128, .f32⟩ : BufTy).Contents (Elt F)),
    StableHlo.binary main_call2_v9 main_call2_v10 main_call2_v11 ((Host.divf) : (⟨S128, .f32⟩ : BufTy).Contents (Elt F) → (⟨S128, .f32⟩ : BufTy).Contents (Elt F) → (⟨S128, .f32⟩ : BufTy).Contents (Elt F)),
    StableHlo.nullary main_call2_cst_3 (constant S_ .f32 0x00000000#32 : (⟨S_, .f32⟩ : BufTy).Contents (Elt F)),
    StableHlo.binary main_call2_v8 main_call2_cst_3 main_call2_v12 ((cmpf .ogt) : (⟨S_, .f32⟩ : BufTy).Contents (Elt F) → (⟨S_, .f32⟩ : BufTy).Contents (Elt F) → (⟨S_, .i1⟩ : BufTy).Contents (Elt F)),
    StableHlo.nullary main_call2_cst_4 (constant S_ .f32 0x7FC00000#32 : (⟨S_, .f32⟩ : BufTy).Contents (Elt F)),
    StableHlo.unary main_call2_cst_4 main_call2_call0_v0 ((id) : (⟨S_, .f32⟩ : BufTy).Contents (Elt F) → (⟨S_, .f32⟩ : BufTy).Contents (Elt F)),
    StableHlo.unary main_call2_call0_v0 main_call2_call0_v1 ((broadcastInDim S128 ![] bcast_S_S128) : (⟨S_, .f32⟩ : BufTy).Contents (Elt F) → (⟨S128, .f32⟩ : BufTy).Contents (Elt F)),
    StableHlo.ternary main_call2_v12 main_call2_v11 main_call2_call0_v1 main_v99 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v98 main_v100 (broadcastInDim S1x128 ![1] bcast_S128_S1x128_1 : (⟨S128, .f32⟩ : BufTy).Contents (Elt F) → (⟨S1x128, .f32⟩ : BufTy).Contents (Elt F)),
    StableHlo.unary main_v100 main_v101 (broadcastInDim S100000x128 ![0, 1] bcast_S1x128_S100000x128_0_1 : (⟨S1x128, .f32⟩ : BufTy).Contents (Elt F) → (⟨S100000x128, .f32⟩ : BufTy).Contents (Elt F)),
    StableHlo.binary main_v71 main_v101 main_v102 (subf : (⟨S100000x128, .f32⟩ : BufTy).Contents (Elt F) → (⟨S100000x128, .f32⟩ : BufTy).Contents (Elt F) → (⟨S100000x128, .f32⟩ : BufTy).Contents (Elt F)),
    StableHlo.unary main_arg30 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S100000x128 ![0, 1] bcast_S1x128_S100000x128_0_1 : (⟨S1x128, .f32⟩ : BufTy).Contents (Elt F) → (⟨S100000x128, .f32⟩ : BufTy).Contents (Elt F)),
    StableHlo.binary main_v104 main_v102 main_v105 (mulf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x3F800000#32),
    StableHlo.unary main_cst_19 main_v106 (broadcastInDim S128 ![] bcast_S_S128 : (⟨S_, .f32⟩ : BufTy).Contents (Elt F) → (⟨S128, .f32⟩ : BufTy).Contents (Elt F)),
    StableHlo.binary main_v99 main_v106 main_v107 (addf : (⟨S128, .f32⟩ : BufTy).Contents (Elt F) → (⟨S128, .f32⟩ : BufTy).Contents (Elt F) → (⟨S128, .f32⟩ : BufTy).Contents (Elt F)),
    StableHlo.unary main_v107 main_v108 (Host.sqrt : (⟨S128, .f32⟩ : BufTy).Contents (Elt F) → (⟨S128, .f32⟩ : BufTy).Contents (Elt F)),
    StableHlo.unary main_v108 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S100000x128 ![0, 1] bcast_S1x128_S100000x128_0_1 : (⟨S1x128, .f32⟩ : BufTy).Contents (Elt F) → (⟨S100000x128, .f32⟩ : BufTy).Contents (Elt F)),
    StableHlo.binary main_v105 main_v110 main_v111 (Host.divf : (⟨S100000x128, .f32⟩ : BufTy).Contents (Elt F) → (⟨S100000x128, .f32⟩ : BufTy).Contents (Elt F) → (⟨S100000x128, .f32⟩ : BufTy).Contents (Elt F)),
    StableHlo.unary main_arg31 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S100000x128 ![0, 1] bcast_S1x128_S100000x128_0_1 : (⟨S1x128, .f32⟩ : BufTy).Contents (Elt F) → (⟨S100000x128, .f32⟩ : BufTy).Contents (Elt F)),
    StableHlo.binary main_v111 main_v113 main_v114 (addf : (⟨S100000x128, .f32⟩ : BufTy).Contents (Elt F) → (⟨S100000x128, .f32⟩ : BufTy).Contents (Elt F) → (⟨S100000x128, .f32⟩ : BufTy).Contents (Elt F)),
    StableHlo.nullary main_cst_20 (constant S_ .f32 0x00000000#32),
    StableHlo.unary main_cst_20 main_v115 (broadcastInDim S100000x128 ![] bcast_S_S100000x128 : (⟨S_, .f32⟩ : BufTy).Contents (Elt F) → (⟨S100000x128, .f32⟩ : BufTy).Contents (Elt F)),
    StableHlo.binary main_v114 main_v115 main_v116 (cmpf .oge : (⟨S100000x128, .f32⟩ : BufTy).Contents (Elt F) → (⟨S100000x128, .f32⟩ : BufTy).Contents (Elt F) → (⟨S100000x128, .i1⟩ : BufTy).Contents (Elt F)),
    StableHlo.nullary main_cst_21 (constant S_ .f32 0x3C23D70A#32),
    StableHlo.unary main_cst_21 main_v117 (broadcastInDim S100000x128 ![] bcast_S_S100000x128 : (⟨S_, .f32⟩ : BufTy).Contents (Elt F) → (⟨S100000x128, .f32⟩ : BufTy).Contents (Elt F)),
    StableHlo.binary main_v117 main_v114 main_v118 (mulf : (⟨S100000x128, .f32⟩ : BufTy).Contents (Elt F) → (⟨S100000x128, .f32⟩ : BufTy).Contents (Elt F) → (⟨S100000x128, .f32⟩ : BufTy).Contents (Elt F)),
    StableHlo.ternary main_v116 main_v114 main_v118 main_v119 ((select) : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) ]

/-- Operations of window 2, stage AggA2 (25). -/
abbrev chunk9 : List (HloOp τ sig (Elt F)) :=
  [ StableHlo.nullary main_c_22 (constantI S_ 32 0#32),
    StableHlo.unary main_c_22 main_v120 (broadcastInDim S500000 ![] bcast_S_S500000 : (⟨S_, .i32⟩ : BufTy).Contents (Elt F) → (⟨S500000, .i32⟩ : BufTy).Contents (Elt F)),
    StableHlo.binary main_v1 main_v120 main_v121 (cmpi .slt : (⟨S500000, .i32⟩ : BufTy).Contents (Elt F) → (⟨S500000, .i32⟩ : BufTy).Contents (Elt F) → (⟨S500000, .i1⟩ : BufTy).Contents (Elt F)),
    StableHlo.nullary main_c_23 (constantI S_ 32 100000#32),
    StableHlo.unary main_c_23 main_v122 (broadcastInDim S500000 ![] bcast_S_S500000 : (⟨S_, .i32⟩ : BufTy).Contents (Elt F) → (⟨S500000, .i32⟩ : BufTy).Contents (Elt F)),
    StableHlo.binary main_v1 main_v122 main_v123 (addi : (⟨S500000, .i32⟩ : BufTy).Contents (Elt F) → (⟨S500000, .i32⟩ : BufTy).Contents (Elt F) → (⟨S500000, .i32⟩ : BufTy).Contents (Elt F)),
    StableHlo.ternary main_v121 main_v123 main_v1 main_v124 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v124 main_v125 (broadcastInDim S500000x1 ![0] bcast_S500000_S500000x1_0 : (⟨S500000, .i32⟩ : BufTy).Contents (Elt F) → (⟨S500000x1, .i32⟩ : BufTy).Contents (Elt F)),
    StableHlo.binary main_v119 main_v125 main_v126 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.nullary main_cst_24 (constant S_ .f32 0x00000000#32),
    StableHlo.unary main_cst_24 main_v127 (broadcastInDim S100000x128 ![] bcast_S_S100000x128 : (⟨S_, .f32⟩ : BufTy).Contents (Elt F) → (⟨S100000x128, .f32⟩ : BufTy).Contents (Elt F)),
    StableHlo.unary main_v3 main_v128 (broadcastInDim S500000x1 ![0] bcast_S500000_S500000x1_0 : (⟨S500000, .i32⟩ : BufTy).Contents (Elt F) → (⟨S500000x1, .i32⟩ : BufTy).Contents (Elt F)),
    StableHlo.ternary main_v127 main_v128 main_v126 main_v129 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    StableHlo.nullary main_cst_25 (constant S_ .f32 0x3F800000#32),
    StableHlo.unary main_cst_25 main_v130 (broadcastInDim S500000 ![] bcast_S_S500000 : (⟨S_, .f32⟩ : BufTy).Contents (Elt F) → (⟨S500000, .f32⟩ : BufTy).Contents (Elt F)),
    StableHlo.nullary main_cst_26 (constant S_ .f32 0x00000000#32),
    StableHlo.unary main_cst_26 main_v131 (broadcastInDim S100000 ![] bcast_S_S100000 : (⟨S_, .f32⟩ : BufTy).Contents (Elt F) → (⟨S100000, .f32⟩ : BufTy).Contents (Elt F)),
    StableHlo.unary main_v3 main_v132 (broadcastInDim S500000x1 ![0] bcast_S500000_S500000x1_0 : (⟨S500000, .i32⟩ : BufTy).Contents (Elt F) → (⟨S500000x1, .i32⟩ : BufTy).Contents (Elt F)),
    StableHlo.ternary main_v131 main_v132 main_v130 main_v133 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    StableHlo.nullary main_cst_27 (constant S_ .f32 0x3F800000#32),
    StableHlo.unary main_cst_27 main_v134 (broadcastInDim S100000 ![] bcast_S_S100000 : (⟨S_, .f32⟩ : BufTy).Contents (Elt F) → (⟨S100000, .f32⟩ : BufTy).Contents (Elt F)),
    StableHlo.binary main_v133 main_v134 main_v135 (maximumf : (⟨S100000, .f32⟩ : BufTy).Contents (Elt F) → (⟨S100000, .f32⟩ : BufTy).Contents (Elt F) → (⟨S100000, .f32⟩ : BufTy).Contents (Elt F)),
    StableHlo.unary main_v135 main_v136 (broadcastInDim S100000x1 ![0] bcast_S100000_S100000x1_0 : (⟨S100000, .f32⟩ : BufTy).Contents (Elt F) → (⟨S100000x1, .f32⟩ : BufTy).Contents (Elt F)),
    StableHlo.unary main_v136 main_v137 (broadcastInDim S100000x128 ![0, 1] bcast_S100000x1_S100000x128_0_1 : (⟨S100000x1, .f32⟩ : BufTy).Contents (Elt F) → (⟨S100000x128, .f32⟩ : BufTy).Contents (Elt F)),
    StableHlo.binary main_v129 main_v137 main_v138 (Host.divf : (⟨S100000x128, .f32⟩ : BufTy).Contents (Elt F) → (⟨S100000x128, .f32⟩ : BufTy).Contents (Elt F) → (⟨S100000x128, .f32⟩ : BufTy).Contents (Elt F)) ]

/-- Operations of window 2, stage ConvA2 (11). -/
abbrev chunk10 : List (HloOp τ sig (Elt F)) :=
  [ StableHlo.binary main_v95 main_arg18 main_v139 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg19 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S100000x128 ![0, 1] bcast_S1x128_S100000x128_0_1 : (⟨S1x128, .f32⟩ : BufTy).Contents (Elt F) → (⟨S100000x128, .f32⟩ : BufTy).Contents (Elt F)),
    StableHlo.binary main_v139 main_v141 main_v142 (addf : (⟨S100000x128, .f32⟩ : BufTy).Contents (Elt F) → (⟨S100000x128, .f32⟩ : BufTy).Contents (Elt F) → (⟨S100000x128, .f32⟩ : BufTy).Contents (Elt F)),
    StableHlo.binary main_v138 main_arg16 main_v143 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg17 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S100000x128 ![0, 1] bcast_S1x128_S100000x128_0_1 : (⟨S1x128, .f32⟩ : BufTy).Contents (Elt F) → (⟨S100000x128, .f32⟩ : BufTy).Contents (Elt F)),
    StableHlo.binary main_v143 main_v145 main_v146 (addf : (⟨S100000x128, .f32⟩ : BufTy).Contents (Elt F) → (⟨S100000x128, .f32⟩ : BufTy).Contents (Elt F) → (⟨S100000x128, .f32⟩ : BufTy).Contents (Elt F)),
    StableHlo.binary main_v142 main_v146 main_v147 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.binary main_v147 main_arg20 main_v148 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg21 main_v149 (broadcastInDim S1x128 ![1] bcast_S128_S1x128_1 : (⟨S128, .f32⟩ : BufTy).Contents (Elt F) → (⟨S1x128, .f32⟩ : BufTy).Contents (Elt F)) ]

/-- Operations of window 3, stage ConvA2 (2). -/
abbrev chunk11 : List (HloOp τ sig (Elt F)) :=
  [ StableHlo.unary main_v149 main_v150 (broadcastInDim S100000x128 ![0, 1] bcast_S1x128_S100000x128_0_1 : (⟨S1x128, .f32⟩ : BufTy).Contents (Elt F) → (⟨S100000x128, .f32⟩ : BufTy).Contents (Elt F)),
    StableHlo.binary main_v148 main_v150 main_v151 (addf : (⟨S100000x128, .f32⟩ : BufTy).Contents (Elt F) → (⟨S100000x128, .f32⟩ : BufTy).Contents (Elt F) → (⟨S100000x128, .f32⟩ : BufTy).Contents (Elt F)) ]

/-- Operations of window 3, stage AggP2 (25). -/
abbrev chunk12 : List (HloOp τ sig (Elt F)) :=
  [ StableHlo.nullary main_c_28 (constantI S_ 32 0#32),
    StableHlo.unary main_c_28 main_v152 (broadcastInDim S500000 ![] bcast_S_S500000 : (⟨S_, .i32⟩ : BufTy).Contents (Elt F) → (⟨S500000, .i32⟩ : BufTy).Contents (Elt F)),
    StableHlo.binary main_v5 main_v152 main_v153 (cmpi .slt : (⟨S500000, .i32⟩ : BufTy).Contents (Elt F) → (⟨S500000, .i32⟩ : BufTy).Contents (Elt F) → (⟨S500000, .i1⟩ : BufTy).Contents (Elt F)),
    StableHlo.nullary main_c_29 (constantI S_ 32 100000#32),
    StableHlo.unary main_c_29 main_v154 (broadcastInDim S500000 ![] bcast_S_S500000 : (⟨S_, .i32⟩ : BufTy).Contents (Elt F) → (⟨S500000, .i32⟩ : BufTy).Contents (Elt F)),
    StableHlo.binary main_v5 main_v154 main_v155 (addi : (⟨S500000, .i32⟩ : BufTy).Contents (Elt F) → (⟨S500000, .i32⟩ : BufTy).Contents (Elt F) → (⟨S500000, .i32⟩ : BufTy).Contents (Elt F)),
    StableHlo.ternary main_v153 main_v155 main_v5 main_v156 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v156 main_v157 (broadcastInDim S500000x1 ![0] bcast_S500000_S500000x1_0 : (⟨S500000, .i32⟩ : BufTy).Contents (Elt F) → (⟨S500000x1, .i32⟩ : BufTy).Contents (Elt F)),
    StableHlo.binary main_v95 main_v157 main_v158 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.nullary main_cst_30 (constant S_ .f32 0x00000000#32),
    StableHlo.unary main_cst_30 main_v159 (broadcastInDim S100000x128 ![] bcast_S_S100000x128 : (⟨S_, .f32⟩ : BufTy).Contents (Elt F) → (⟨S100000x128, .f32⟩ : BufTy).Contents (Elt F)),
    StableHlo.unary main_v7 main_v160 (broadcastInDim S500000x1 ![0] bcast_S500000_S500000x1_0 : (⟨S500000, .i32⟩ : BufTy).Contents (Elt F) → (⟨S500000x1, .i32⟩ : BufTy).Contents (Elt F)),
    StableHlo.ternary main_v159 main_v160 main_v158 main_v161 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    StableHlo.nullary main_cst_31 (constant S_ .f32 0x3F800000#32),
    StableHlo.unary main_cst_31 main_v162 (broadcastInDim S500000 ![] bcast_S_S500000 : (⟨S_, .f32⟩ : BufTy).Contents (Elt F) → (⟨S500000, .f32⟩ : BufTy).Contents (Elt F)),
    StableHlo.nullary main_cst_32 (constant S_ .f32 0x00000000#32),
    StableHlo.unary main_cst_32 main_v163 (broadcastInDim S100000 ![] bcast_S_S100000 : (⟨S_, .f32⟩ : BufTy).Contents (Elt F) → (⟨S100000, .f32⟩ : BufTy).Contents (Elt F)),
    StableHlo.unary main_v7 main_v164 (broadcastInDim S500000x1 ![0] bcast_S500000_S500000x1_0 : (⟨S500000, .i32⟩ : BufTy).Contents (Elt F) → (⟨S500000x1, .i32⟩ : BufTy).Contents (Elt F)),
    StableHlo.ternary main_v163 main_v164 main_v162 main_v165 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    StableHlo.nullary main_cst_33 (constant S_ .f32 0x3F800000#32),
    StableHlo.unary main_cst_33 main_v166 (broadcastInDim S100000 ![] bcast_S_S100000 : (⟨S_, .f32⟩ : BufTy).Contents (Elt F) → (⟨S100000, .f32⟩ : BufTy).Contents (Elt F)),
    StableHlo.binary main_v165 main_v166 main_v167 (maximumf : (⟨S100000, .f32⟩ : BufTy).Contents (Elt F) → (⟨S100000, .f32⟩ : BufTy).Contents (Elt F) → (⟨S100000, .f32⟩ : BufTy).Contents (Elt F)),
    StableHlo.unary main_v167 main_v168 (broadcastInDim S100000x1 ![0] bcast_S100000_S100000x1_0 : (⟨S100000, .f32⟩ : BufTy).Contents (Elt F) → (⟨S100000x1, .f32⟩ : BufTy).Contents (Elt F)),
    StableHlo.unary main_v168 main_v169 (broadcastInDim S100000x128 ![0, 1] bcast_S100000x1_S100000x128_0_1 : (⟨S100000x1, .f32⟩ : BufTy).Contents (Elt F) → (⟨S100000x128, .f32⟩ : BufTy).Contents (Elt F)),
    StableHlo.binary main_v161 main_v169 main_v170 (Host.divf : (⟨S100000x128, .f32⟩ : BufTy).Contents (Elt F) → (⟨S100000x128, .f32⟩ : BufTy).Contents (Elt F) → (⟨S100000x128, .f32⟩ : BufTy).Contents (Elt F)) ]

/-- Operations of window 3, stage ConvP2 (13). -/
abbrev chunk13 : List (HloOp τ sig (Elt F)) :=
  [ StableHlo.binary main_v119 main_arg24 main_v171 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg25 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S100000x128 ![0, 1] bcast_S1x128_S100000x128_0_1 : (⟨S1x128, .f32⟩ : BufTy).Contents (Elt F) → (⟨S100000x128, .f32⟩ : BufTy).Contents (Elt F)),
    StableHlo.binary main_v171 main_v173 main_v174 (addf : (⟨S100000x128, .f32⟩ : BufTy).Contents (Elt F) → (⟨S100000x128, .f32⟩ : BufTy).Contents (Elt F) → (⟨S100000x128, .f32⟩ : BufTy).Contents (Elt F)),
    StableHlo.binary main_v170 main_arg22 main_v175 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg23 main_v176 (broadcastInDim S1x128 ![1] bcast_S128_S1x128_1 : (⟨S128, .f32⟩ : BufTy).Contents (Elt F) → (⟨S1x128, .f32⟩ : BufTy).Contents (Elt F)),
    StableHlo.unary main_v176 main_v177 (broadcastInDim S100000x128 ![0, 1] bcast_S1x128_S100000x128_0_1 : (⟨S1x128, .f32⟩ : BufTy).Contents (Elt F) → (⟨S100000x128, .f32⟩ : BufTy).Contents (Elt F)),
    StableHlo.binary main_v175 main_v177 main_v178 (addf : (⟨S100000x128, .f32⟩ : BufTy).Contents (Elt F) → (⟨S100000x128, .f32⟩ : BufTy).Contents (Elt F) → (⟨S100000x128, .f32⟩ : BufTy).Contents (Elt F)),
    StableHlo.binary main_v174 main_v178 main_v179 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.binary main_v179 main_arg26 main_v180 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg27 main_v181 (broadcastInDim S1x128 ![1] bcast_S128_S1x128_1 : (⟨S128, .f32⟩ : BufTy).Contents (Elt F) → (⟨S1x128, .f32⟩ : BufTy).Contents (Elt F)),
    StableHlo.unary main_v181 main_v182 (broadcastInDim S100000x128 ![0, 1] bcast_S1x128_S100000x128_0_1 : (⟨S1x128, .f32⟩ : BufTy).Contents (Elt F) → (⟨S100000x128, .f32⟩ : BufTy).Contents (Elt F)),
    StableHlo.binary main_v180 main_v182 main_v183 (addf : (⟨S100000x128, .f32⟩ : BufTy).Contents (Elt F) → (⟨S100000x128, .f32⟩ : BufTy).Contents (Elt F) → (⟨S100000x128, .f32⟩ : BufTy).Contents (Elt F)) ]

/-- Operations of window 3, stage BnA2 (41). -/
abbrev chunk14 : List (HloOp τ sig (Elt F)) :=
  [ StableHlo.nullary main_cst_34 (constant S_ .f32 0x00000000#32),
    StableHlo.binary main_v151 main_cst_34 main_v184 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_35 (constant S_ .f32 0x47C35000#32),
    StableHlo.unary main_cst_35 main_v185 (broadcastInDim S128 ![] bcast_S_S128 : (⟨S_, .f32⟩ : BufTy).Contents (Elt F) → (⟨S128, .f32⟩ : BufTy).Contents (Elt F)),
    StableHlo.binary main_v184 main_v185 main_v186 (Host.divf : (⟨S128, .f32⟩ : BufTy).Contents (Elt F) → (⟨S128, .f32⟩ : BufTy).Contents (Elt F) → (⟨S128, .f32⟩ : BufTy).Contents (Elt F)),
    StableHlo.nullary main_c_36 (constantI S_ 32 0#32),
    StableHlo.nullary main_call4_cst (constant S_ .f32 0x00000000#32 : (⟨S_, .f32⟩ : BufTy).Contents (Elt F)),
    StableHlo.binary main_v151 main_call4_cst main_call4_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call4_v0 main_call4_v1 ((broadcastInDim S1x128 ![1] bcast_S128_S1x128_1) : (⟨S128, .f32⟩ : BufTy).Contents (Elt F) → (⟨S1x128, .f32⟩ : BufTy).Contents (Elt F)),
    StableHlo.nullary main_call4_cst_0 (constant S_ .f32 0x47C35000#32 : (⟨S_, .f32⟩ : BufTy).Contents (Elt F)),
    StableHlo.unary main_call4_cst_0 main_call4_v2 ((broadcastInDim S1x128 ![] bcast_S_S1x128) : (⟨S_, .f32⟩ : BufTy).Contents (Elt F) → (⟨S1x128, .f32⟩ : BufTy).Contents (Elt F)),
    StableHlo.binary main_call4_v1 main_call4_v2 main_call4_v3 ((Host.divf) : (⟨S1x128, .f32⟩ : BufTy).Contents (Elt F) → (⟨S1x128, .f32⟩ : BufTy).Contents (Elt F) → (⟨S1x128, .f32⟩ : BufTy).Contents (Elt F)),
    StableHlo.unary main_call4_v3 main_call4_v4 ((broadcastInDim S100000x128 ![0, 1] bcast_S1x128_S100000x128_0_1) : (⟨S1x128, .f32⟩ : BufTy).Contents (Elt F) → (⟨S100000x128, .f32⟩ : BufTy).Contents (Elt F)),
    StableHlo.binary main_v151 main_call4_v4 main_call4_v5 ((subf) : (⟨S100000x128, .f32⟩ : BufTy).Contents (Elt F) → (⟨S100000x128, .f32⟩ : BufTy).Contents (Elt F) → (⟨S100000x128, .f32⟩ : BufTy).Contents (Elt F)),
    StableHlo.binary main_call4_v5 main_call4_v5 main_call4_v6 ((mulf) : (⟨S100000x128, .f32⟩ : BufTy).Contents (Elt F) → (⟨S100000x128, .f32⟩ : BufTy).Contents (Elt F) → (⟨S100000x128, .f32⟩ : BufTy).Contents (Elt F)),
    StableHlo.unary main_c_36 main_call4_v7 ((sitofp .f32) : (⟨S_, .i32⟩ : BufTy).Contents (Elt F) → (⟨S_, .f32⟩ : BufTy).Contents (Elt F)),
    StableHlo.nullary main_call4_cst_1 (constant S_ .f32 0x47C35000#32 : (⟨S_, .f32⟩ : BufTy).Contents (Elt F)),
    StableHlo.binary main_call4_cst_1 main_call4_v7 main_call4_v8 ((subf) : (⟨S_, .f32⟩ : BufTy).Contents (Elt F) → (⟨S_, .f32⟩ : BufTy).Contents (Elt F) → (⟨S_, .f32⟩ : BufTy).Contents (Elt F)),
    StableHlo.nullary main_call4_cst_2 (constant S_ .f32 0x00000000#32 : (⟨S_, .f32⟩ : BufTy).Contents (Elt F)),
    StableHlo.binary main_call4_v6 main_call4_cst_2 main_call4_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call4_v8 main_call4_v10 ((broadcastInDim S128 ![] bcast_S_S128) : (⟨S_, .f32⟩ : BufTy).Contents (Elt F) → (⟨S128, .f32⟩ : BufTy).Contents (Elt F)),
    StableHlo.binary main_call4_v9 main_call4_v10 main_call4_v11 ((Host.divf) : (⟨S128, .f32⟩ : BufTy).Contents (Elt F) → (⟨S128, .f32⟩ : BufTy).Contents (Elt F) → (⟨S128, .f32⟩ : BufTy).Contents (Elt F)),
    StableHlo.nullary main_call4_cst_3 (constant S_ .f32 0x00000000#32 : (⟨S_, .f32⟩ : BufTy).Contents (Elt F)),
    StableHlo.binary main_call4_v8 main_call4_cst_3 main_call4_v12 ((cmpf .ogt) : (⟨S_, .f32⟩ : BufTy).Contents (Elt F) → (⟨S_, .f32⟩ : BufTy).Contents (Elt F) → (⟨S_, .i1⟩ : BufTy).Contents (Elt F)),
    StableHlo.nullary main_call4_cst_4 (constant S_ .f32 0x7FC00000#32 : (⟨S_, .f32⟩ : BufTy).Contents (Elt F)),
    StableHlo.unary main_call4_cst_4 main_call4_call0_v0 ((id) : (⟨S_, .f32⟩ : BufTy).Contents (Elt F) → (⟨S_, .f32⟩ : BufTy).Contents (Elt F)),
    StableHlo.unary main_call4_call0_v0 main_call4_call0_v1 ((broadcastInDim S128 ![] bcast_S_S128) : (⟨S_, .f32⟩ : BufTy).Contents (Elt F) → (⟨S128, .f32⟩ : BufTy).Contents (Elt F)),
    StableHlo.ternary main_call4_v12 main_call4_v11 main_call4_call0_v1 main_v187 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v186 main_v188 (broadcastInDim S1x128 ![1] bcast_S128_S1x128_1 : (⟨S128, .f32⟩ : BufTy).Contents (Elt F) → (⟨S1x128, .f32⟩ : BufTy).Contents (Elt F)),
    StableHlo.unary main_v188 main_v189 (broadcastInDim S100000x128 ![0, 1] bcast_S1x128_S100000x128_0_1 : (⟨S1x128, .f32⟩ : BufTy).Contents (Elt F) → (⟨S100000x128, .f32⟩ : BufTy).Contents (Elt F)),
    StableHlo.binary main_v151 main_v189 main_v190 (subf : (⟨S100000x128, .f32⟩ : BufTy).Contents (Elt F) → (⟨S100000x128, .f32⟩ : BufTy).Contents (Elt F) → (⟨S100000x128, .f32⟩ : BufTy).Contents (Elt F)),
    StableHlo.unary main_arg32 main_v191 (broadcastInDim S1x128 ![1] bcast_S128_S1x128_1 : (⟨S128, .f32⟩ : BufTy).Contents (Elt F) → (⟨S1x128, .f32⟩ : BufTy).Contents (Elt F)),
    StableHlo.unary main_v191 main_v192 (broadcastInDim S100000x128 ![0, 1] bcast_S1x128_S100000x128_0_1 : (⟨S1x128, .f32⟩ : BufTy).Contents (Elt F) → (⟨S100000x128, .f32⟩ : BufTy).Contents (Elt F)),
    StableHlo.binary main_v192 main_v190 main_v193 (mulf : (⟨S100000x128, .f32⟩ : BufTy).Contents (Elt F) → (⟨S100000x128, .f32⟩ : BufTy).Contents (Elt F) → (⟨S100000x128, .f32⟩ : BufTy).Contents (Elt F)),
    StableHlo.nullary main_cst_37 (constant S_ .f32 0x3F800000#32),
    StableHlo.unary main_cst_37 main_v194 (broadcastInDim S128 ![] bcast_S_S128 : (⟨S_, .f32⟩ : BufTy).Contents (Elt F) → (⟨S128, .f32⟩ : BufTy).Contents (Elt F)),
    StableHlo.binary main_v187 main_v194 main_v195 (addf : (⟨S128, .f32⟩ : BufTy).Contents (Elt F) → (⟨S128, .f32⟩ : BufTy).Contents (Elt F) → (⟨S128, .f32⟩ : BufTy).Contents (Elt F)),
    StableHlo.unary main_v195 main_v196 (Host.sqrt : (⟨S128, .f32⟩ : BufTy).Contents (Elt F) → (⟨S128, .f32⟩ : BufTy).Contents (Elt F)),
    StableHlo.unary main_v196 main_v197 (broadcastInDim S1x128 ![1] bcast_S128_S1x128_1 : (⟨S128, .f32⟩ : BufTy).Contents (Elt F) → (⟨S1x128, .f32⟩ : BufTy).Contents (Elt F)),
    StableHlo.unary main_v197 main_v198 (broadcastInDim S100000x128 ![0, 1] bcast_S1x128_S100000x128_0_1 : (⟨S1x128, .f32⟩ : BufTy).Contents (Elt F) → (⟨S100000x128, .f32⟩ : BufTy).Contents (Elt F)),
    StableHlo.binary main_v193 main_v198 main_v199 (Host.divf : (⟨S100000x128, .f32⟩ : BufTy).Contents (Elt F) → (⟨S100000x128, .f32⟩ : BufTy).Contents (Elt F) → (⟨S100000x128, .f32⟩ : BufTy).Contents (Elt F)) ]

/-- Operations of window 4, stage BnA2 (10). -/
abbrev chunk15 : List (HloOp τ sig (Elt F)) :=
  [ StableHlo.unary main_arg33 main_v200 (broadcastInDim S1x128 ![1] bcast_S128_S1x128_1 : (⟨S128, .f32⟩ : BufTy).Contents (Elt F) → (⟨S1x128, .f32⟩ : BufTy).Contents (Elt F)),
    StableHlo.unary main_v200 main_v201 (broadcastInDim S100000x128 ![0, 1] bcast_S1x128_S100000x128_0_1 : (⟨S1x128, .f32⟩ : BufTy).Contents (Elt F) → (⟨S100000x128, .f32⟩ : BufTy).Contents (Elt F)),
    StableHlo.binary main_v199 main_v201 main_v202 (addf : (⟨S100000x128, .f32⟩ : BufTy).Contents (Elt F) → (⟨S100000x128, .f32⟩ : BufTy).Contents (Elt F) → (⟨S100000x128, .f32⟩ : BufTy).Contents (Elt F)),
    StableHlo.nullary main_cst_38 (constant S_ .f32 0x00000000#32),
    StableHlo.unary main_cst_38 main_v203 (broadcastInDim S100000x128 ![] bcast_S_S100000x128 : (⟨S_, .f32⟩ : BufTy).Contents (Elt F) → (⟨S100000x128, .f32⟩ : BufTy).Contents (Elt F)),
    StableHlo.binary main_v202 main_v203 main_v204 (cmpf .oge : (⟨S100000x128, .f32⟩ : BufTy).Contents (Elt F) → (⟨S100000x128, .f32⟩ : BufTy).Contents (Elt F) → (⟨S100000x128, .i1⟩ : BufTy).Contents (Elt F)),
    StableHlo.nullary main_cst_39 (constant S_ .f32 0x3C23D70A#32),
    StableHlo.unary main_cst_39 main_v205 (broadcastInDim S100000x128 ![] bcast_S_S100000x128 : (⟨S_, .f32⟩ : BufTy).Contents (Elt F) → (⟨S100000x128, .f32⟩ : BufTy).Contents (Elt F)),
    StableHlo.binary main_v205 main_v202 main_v206 (mulf : (⟨S100000x128, .f32⟩ : BufTy).Contents (Elt F) → (⟨S100000x128, .f32⟩ : BufTy).Contents (Elt F) → (⟨S100000x128, .f32⟩ : BufTy).Contents (Elt F)),
    StableHlo.ternary main_v204 main_v202 main_v206 main_v207 ((select) : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) ]

/-- Operations of window 4, stage BnP2 (51). -/
abbrev chunk16 : List (HloOp τ sig (Elt F)) :=
  [ StableHlo.nullary main_cst_40 (constant S_ .f32 0x00000000#32),
    StableHlo.binary main_v183 main_cst_40 main_v208 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_41 (constant S_ .f32 0x47C35000#32),
    StableHlo.unary main_cst_41 main_v209 (broadcastInDim S128 ![] bcast_S_S128 : (⟨S_, .f32⟩ : BufTy).Contents (Elt F) → (⟨S128, .f32⟩ : BufTy).Contents (Elt F)),
    StableHlo.binary main_v208 main_v209 main_v210 (Host.divf : (⟨S128, .f32⟩ : BufTy).Contents (Elt F) → (⟨S128, .f32⟩ : BufTy).Contents (Elt F) → (⟨S128, .f32⟩ : BufTy).Contents (Elt F)),
    StableHlo.nullary main_c_42 (constantI S_ 32 0#32),
    StableHlo.nullary main_call6_cst (constant S_ .f32 0x00000000#32 : (⟨S_, .f32⟩ : BufTy).Contents (Elt F)),
    StableHlo.binary main_v183 main_call6_cst main_call6_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call6_v0 main_call6_v1 ((broadcastInDim S1x128 ![1] bcast_S128_S1x128_1) : (⟨S128, .f32⟩ : BufTy).Contents (Elt F) → (⟨S1x128, .f32⟩ : BufTy).Contents (Elt F)),
    StableHlo.nullary main_call6_cst_0 (constant S_ .f32 0x47C35000#32 : (⟨S_, .f32⟩ : BufTy).Contents (Elt F)),
    StableHlo.unary main_call6_cst_0 main_call6_v2 ((broadcastInDim S1x128 ![] bcast_S_S1x128) : (⟨S_, .f32⟩ : BufTy).Contents (Elt F) → (⟨S1x128, .f32⟩ : BufTy).Contents (Elt F)),
    StableHlo.binary main_call6_v1 main_call6_v2 main_call6_v3 ((Host.divf) : (⟨S1x128, .f32⟩ : BufTy).Contents (Elt F) → (⟨S1x128, .f32⟩ : BufTy).Contents (Elt F) → (⟨S1x128, .f32⟩ : BufTy).Contents (Elt F)),
    StableHlo.unary main_call6_v3 main_call6_v4 ((broadcastInDim S100000x128 ![0, 1] bcast_S1x128_S100000x128_0_1) : (⟨S1x128, .f32⟩ : BufTy).Contents (Elt F) → (⟨S100000x128, .f32⟩ : BufTy).Contents (Elt F)),
    StableHlo.binary main_v183 main_call6_v4 main_call6_v5 ((subf) : (⟨S100000x128, .f32⟩ : BufTy).Contents (Elt F) → (⟨S100000x128, .f32⟩ : BufTy).Contents (Elt F) → (⟨S100000x128, .f32⟩ : BufTy).Contents (Elt F)),
    StableHlo.binary main_call6_v5 main_call6_v5 main_call6_v6 ((mulf) : (⟨S100000x128, .f32⟩ : BufTy).Contents (Elt F) → (⟨S100000x128, .f32⟩ : BufTy).Contents (Elt F) → (⟨S100000x128, .f32⟩ : BufTy).Contents (Elt F)),
    StableHlo.unary main_c_42 main_call6_v7 ((sitofp .f32) : (⟨S_, .i32⟩ : BufTy).Contents (Elt F) → (⟨S_, .f32⟩ : BufTy).Contents (Elt F)),
    StableHlo.nullary main_call6_cst_1 (constant S_ .f32 0x47C35000#32 : (⟨S_, .f32⟩ : BufTy).Contents (Elt F)),
    StableHlo.binary main_call6_cst_1 main_call6_v7 main_call6_v8 ((subf) : (⟨S_, .f32⟩ : BufTy).Contents (Elt F) → (⟨S_, .f32⟩ : BufTy).Contents (Elt F) → (⟨S_, .f32⟩ : BufTy).Contents (Elt F)),
    StableHlo.nullary main_call6_cst_2 (constant S_ .f32 0x00000000#32 : (⟨S_, .f32⟩ : BufTy).Contents (Elt F)),
    StableHlo.binary main_call6_v6 main_call6_cst_2 main_call6_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call6_v8 main_call6_v10 ((broadcastInDim S128 ![] bcast_S_S128) : (⟨S_, .f32⟩ : BufTy).Contents (Elt F) → (⟨S128, .f32⟩ : BufTy).Contents (Elt F)),
    StableHlo.binary main_call6_v9 main_call6_v10 main_call6_v11 ((Host.divf) : (⟨S128, .f32⟩ : BufTy).Contents (Elt F) → (⟨S128, .f32⟩ : BufTy).Contents (Elt F) → (⟨S128, .f32⟩ : BufTy).Contents (Elt F)),
    StableHlo.nullary main_call6_cst_3 (constant S_ .f32 0x00000000#32 : (⟨S_, .f32⟩ : BufTy).Contents (Elt F)),
    StableHlo.binary main_call6_v8 main_call6_cst_3 main_call6_v12 ((cmpf .ogt) : (⟨S_, .f32⟩ : BufTy).Contents (Elt F) → (⟨S_, .f32⟩ : BufTy).Contents (Elt F) → (⟨S_, .i1⟩ : BufTy).Contents (Elt F)),
    StableHlo.nullary main_call6_cst_4 (constant S_ .f32 0x7FC00000#32 : (⟨S_, .f32⟩ : BufTy).Contents (Elt F)),
    StableHlo.unary main_call6_cst_4 main_call6_call0_v0 ((id) : (⟨S_, .f32⟩ : BufTy).Contents (Elt F) → (⟨S_, .f32⟩ : BufTy).Contents (Elt F)),
    StableHlo.unary main_call6_call0_v0 main_call6_call0_v1 ((broadcastInDim S128 ![] bcast_S_S128) : (⟨S_, .f32⟩ : BufTy).Contents (Elt F) → (⟨S128, .f32⟩ : BufTy).Contents (Elt F)),
    StableHlo.ternary main_call6_v12 main_call6_v11 main_call6_call0_v1 main_v211 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v210 main_v212 (broadcastInDim S1x128 ![1] bcast_S128_S1x128_1 : (⟨S128, .f32⟩ : BufTy).Contents (Elt F) → (⟨S1x128, .f32⟩ : BufTy).Contents (Elt F)),
    StableHlo.unary main_v212 main_v213 (broadcastInDim S100000x128 ![0, 1] bcast_S1x128_S100000x128_0_1 : (⟨S1x128, .f32⟩ : BufTy).Contents (Elt F) → (⟨S100000x128, .f32⟩ : BufTy).Contents (Elt F)),
    StableHlo.binary main_v183 main_v213 main_v214 (subf : (⟨S100000x128, .f32⟩ : BufTy).Contents (Elt F) → (⟨S100000x128, .f32⟩ : BufTy).Contents (Elt F) → (⟨S100000x128, .f32⟩ : BufTy).Contents (Elt F)),
    StableHlo.unary main_arg34 main_v215 (broadcastInDim S1x128 ![1] bcast_S128_S1x128_1 : (⟨S128, .f32⟩ : BufTy).Contents (Elt F) → (⟨S1x128, .f32⟩ : BufTy).Contents (Elt F)),
    StableHlo.unary main_v215 main_v216 (broadcastInDim S100000x128 ![0, 1] bcast_S1x128_S100000x128_0_1 : (⟨S1x128, .f32⟩ : BufTy).Contents (Elt F) → (⟨S100000x128, .f32⟩ : BufTy).Contents (Elt F)),
    StableHlo.binary main_v216 main_v214 main_v217 (mulf : (⟨S100000x128, .f32⟩ : BufTy).Contents (Elt F) → (⟨S100000x128, .f32⟩ : BufTy).Contents (Elt F) → (⟨S100000x128, .f32⟩ : BufTy).Contents (Elt F)),
    StableHlo.nullary main_cst_43 (constant S_ .f32 0x3F800000#32),
    StableHlo.unary main_cst_43 main_v218 (broadcastInDim S128 ![] bcast_S_S128 : (⟨S_, .f32⟩ : BufTy).Contents (Elt F) → (⟨S128, .f32⟩ : BufTy).Contents (Elt F)),
    StableHlo.binary main_v211 main_v218 main_v219 (addf : (⟨S128, .f32⟩ : BufTy).Contents (Elt F) → (⟨S128, .f32⟩ : BufTy).Contents (Elt F) → (⟨S128, .f32⟩ : BufTy).Contents (Elt F)),
    StableHlo.unary main_v219 main_v220 (Host.sqrt : (⟨S128, .f32⟩ : BufTy).Contents (Elt F) → (⟨S128, .f32⟩ : BufTy).Contents (Elt F)),
    StableHlo.unary main_v220 main_v221 (broadcastInDim S1x128 ![1] bcast_S128_S1x128_1 : (⟨S128, .f32⟩ : BufTy).Contents (Elt F) → (⟨S1x128, .f32⟩ : BufTy).Contents (Elt F)),
    StableHlo.unary main_v221 main_v222 (broadcastInDim S100000x128 ![0, 1] bcast_S1x128_S100000x128_0_1 : (⟨S1x128, .f32⟩ : BufTy).Contents (Elt F) → (⟨S100000x128, .f32⟩ : BufTy).Contents (Elt F)),
    StableHlo.binary main_v217 main_v222 main_v223 (Host.divf : (⟨S100000x128, .f32⟩ : BufTy).Contents (Elt F) → (⟨S100000x128, .f32⟩ : BufTy).Contents (Elt F) → (⟨S100000x128, .f32⟩ : BufTy).Contents (Elt F)),
    StableHlo.unary main_arg35 main_v224 (broadcastInDim S1x128 ![1] bcast_S128_S1x128_1 : (⟨S128, .f32⟩ : BufTy).Contents (Elt F) → (⟨S1x128, .f32⟩ : BufTy).Contents (Elt F)),
    StableHlo.unary main_v224 main_v225 (broadcastInDim S100000x128 ![0, 1] bcast_S1x128_S100000x128_0_1 : (⟨S1x128, .f32⟩ : BufTy).Contents (Elt F) → (⟨S100000x128, .f32⟩ : BufTy).Contents (Elt F)),
    StableHlo.binary main_v223 main_v225 main_v226 (addf : (⟨S100000x128, .f32⟩ : BufTy).Contents (Elt F) → (⟨S100000x128, .f32⟩ : BufTy).Contents (Elt F) → (⟨S100000x128, .f32⟩ : BufTy).Contents (Elt F)),
    StableHlo.nullary main_cst_44 (constant S_ .f32 0x00000000#32),
    StableHlo.unary main_cst_44 main_v227 (broadcastInDim S100000x128 ![] bcast_S_S100000x128 : (⟨S_, .f32⟩ : BufTy).Contents (Elt F) → (⟨S100000x128, .f32⟩ : BufTy).Contents (Elt F)),
    StableHlo.binary main_v226 main_v227 main_v228 (cmpf .oge : (⟨S100000x128, .f32⟩ : BufTy).Contents (Elt F) → (⟨S100000x128, .f32⟩ : BufTy).Contents (Elt F) → (⟨S100000x128, .i1⟩ : BufTy).Contents (Elt F)),
    StableHlo.nullary main_cst_45 (constant S_ .f32 0x3C23D70A#32),
    StableHlo.unary main_cst_45 main_v229 (broadcastInDim S100000x128 ![] bcast_S_S100000x128 : (⟨S_, .f32⟩ : BufTy).Contents (Elt F) → (⟨S100000x128, .f32⟩ : BufTy).Contents (Elt F)),
    StableHlo.binary main_v229 main_v226 main_v230 (mulf : (⟨S100000x128, .f32⟩ : BufTy).Contents (Elt F) → (⟨S100000x128, .f32⟩ : BufTy).Contents (Elt F) → (⟨S100000x128, .f32⟩ : BufTy).Contents (Elt F)),
    StableHlo.ternary main_v228 main_v226 main_v230 main_v231 ((select) : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) ]

/-- Operations of window 4, stage HeadA (4). -/
abbrev chunk17 : List (HloOp τ sig (Elt F)) :=
  [ StableHlo.binary main_v207 main_arg36 main_v232 ((fun l r => Host.dotGeneral dot_S100000x128_S128x4_S100000x4_1_0_0_1_n_n none l r) : (⟨S100000x128, .f32⟩ : BufTy).Contents (Elt F) → (⟨S128x4, .f32⟩ : BufTy).Contents (Elt F) → (⟨S100000x4, .f32⟩ : BufTy).Contents (Elt F)),
    StableHlo.unary main_arg37 main_v233 (broadcastInDim S1x4 ![1] bcast_S4_S1x4_1 : (⟨S4, .f32⟩ : BufTy).Contents (Elt F) → (⟨S1x4, .f32⟩ : BufTy).Contents (Elt F)),
    StableHlo.unary main_v233 main_v234 (broadcastInDim S100000x4 ![0, 1] bcast_S1x4_S100000x4_0_1 : (⟨S1x4, .f32⟩ : BufTy).Contents (Elt F) → (⟨S100000x4, .f32⟩ : BufTy).Contents (Elt F)),
    StableHlo.binary main_v232 main_v234 main_v235 (addf : (⟨S100000x4, .f32⟩ : BufTy).Contents (Elt F) → (⟨S100000x4, .f32⟩ : BufTy).Contents (Elt F) → (⟨S100000x4, .f32⟩ : BufTy).Contents (Elt F)) ]

/-- Operations of window 4, stage HeadP (4). -/
abbrev chunk18 : List (HloOp τ sig (Elt F)) :=
  [ StableHlo.binary main_v231 main_arg38 main_v236 ((fun l r => Host.dotGeneral dot_S100000x128_S128x7_S100000x7_1_0_0_1_n_n none l r) : (⟨S100000x128, .f32⟩ : BufTy).Contents (Elt F) → (⟨S128x7, .f32⟩ : BufTy).Contents (Elt F) → (⟨S100000x7, .f32⟩ : BufTy).Contents (Elt F)),
    StableHlo.unary main_arg39 main_v237 (broadcastInDim S1x7 ![1] bcast_S7_S1x7_1 : (⟨S7, .f32⟩ : BufTy).Contents (Elt F) → (⟨S1x7, .f32⟩ : BufTy).Contents (Elt F)),
    StableHlo.unary main_v237 main_v238 (broadcastInDim S100000x7 ![0, 1] bcast_S1x7_S100000x7_0_1 : (⟨S1x7, .f32⟩ : BufTy).Contents (Elt F) → (⟨S100000x7, .f32⟩ : BufTy).Contents (Elt F)),
    StableHlo.binary main_v236 main_v238 main_v239 (addf : (⟨S100000x7, .f32⟩ : BufTy).Contents (Elt F) → (⟨S100000x7, .f32⟩ : BufTy).Contents (Elt F) → (⟨S100000x7, .f32⟩ : BufTy).Contents (Elt F)) ]

/-- The operations of window `main_part0`. -/
abbrev ops_part0 : List (HloOp τ sig (Elt F)) := chunk0 ++ (chunk1 ++ (chunk2 ++ (chunk3)))

/-- The operations of window `main_part1`. -/
abbrev ops_part1 : List (HloOp τ sig (Elt F)) := chunk4 ++ (chunk5 ++ (chunk6 ++ (chunk7)))

/-- The operations of window `main_part2`. -/
abbrev ops_part2 : List (HloOp τ sig (Elt F)) := chunk8 ++ (chunk9 ++ (chunk10))

/-- The operations of window `main_part3`. -/
abbrev ops_part3 : List (HloOp τ sig (Elt F)) := chunk11 ++ (chunk12 ++ (chunk13 ++ (chunk14)))

/-- The operations of window `main_part4`. -/
abbrev ops_part4 : List (HloOp τ sig (Elt F)) := chunk15 ++ (chunk16 ++ (chunk17 ++ (chunk18)))

/-- @main's operations, in order. -/
abbrev ops : List (HloOp τ sig (Elt F)) := ops_part0 ++ (ops_part1 ++ (ops_part2 ++ (ops_part3 ++ ops_part4)))

set_option maxRecDepth 8192 in
/-- Window 0 is its list run in order: the calls' bodies unfold to their operations (definitional). -/
theorem main_part0_eq (c : Dev nD) : main_part0 (F := F) c = seq ops_part0 := rfl
set_option maxRecDepth 8192 in
/-- Window 1 is its list run in order: the calls' bodies unfold to their operations (definitional). -/
theorem main_part1_eq (c : Dev nD) : main_part1 (F := F) c = seq ops_part1 := rfl
set_option maxRecDepth 8192 in
/-- Window 2 is its list run in order: the calls' bodies unfold to their operations (definitional). -/
theorem main_part2_eq (c : Dev nD) : main_part2 (F := F) c = seq ops_part2 := rfl
set_option maxRecDepth 8192 in
/-- Window 3 is its list run in order: the calls' bodies unfold to their operations (definitional). -/
theorem main_part3_eq (c : Dev nD) : main_part3 (F := F) c = seq ops_part3 := rfl
set_option maxRecDepth 8192 in
/-- Window 4 is its list run in order: the calls' bodies unfold to their operations (definitional). -/
theorem main_part4_eq (c : Dev nD) : main_part4 (F := F) c = seq ops_part4 := rfl

set_option maxRecDepth 8192 in
theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem chunk0_sub : (chunk0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub ..⟩
set_option maxRecDepth 8192 in
theorem chunk1_sub : (chunk1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
set_option maxRecDepth 8192 in
theorem chunk2_sub : (chunk2 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub ..⟩
set_option maxRecDepth 8192 in
theorem chunk3_sub : (chunk3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub ..⟩
set_option maxRecDepth 8192 in
theorem chunk4_sub : (chunk4 : List (HloOp τ sig (Elt F))).Forall fun op => op.bufs ⊆ tcRefs τ sig :=
  ⟨unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
set_option maxRecDepth 8192 in
theorem chunk5_sub : (chunk5 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub ..⟩
set_option maxRecDepth 8192 in
theorem chunk6_sub : (chunk6 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
set_option maxRecDepth 8192 in
theorem chunk7_sub : (chunk7 : List (HloOp τ sig (Elt F))).Forall fun op => op.bufs ⊆ tcRefs τ sig :=
  ⟨nullary_bufs_sub .., binary_bufs_sub .., nullary_bufs_sub .., unary_bufs_sub .., binary_bufs_sub .., nullary_bufs_sub ..⟩
set_option maxRecDepth 8192 in
theorem chunk8_sub : (chunk8 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
set_option maxRecDepth 8192 in
theorem chunk9_sub : (chunk9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
set_option maxRecDepth 8192 in
theorem chunk10_sub : (chunk10 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., binary_bufs_sub .., unary_bufs_sub ..⟩
set_option maxRecDepth 8192 in
theorem chunk11_sub : (chunk11 : List (HloOp τ sig (Elt F))).Forall fun op => op.bufs ⊆ tcRefs τ sig :=
  ⟨unary_bufs_sub .., binary_bufs_sub ..⟩
set_option maxRecDepth 8192 in
theorem chunk12_sub : (chunk12 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
set_option maxRecDepth 8192 in
theorem chunk13_sub : (chunk13 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub ..⟩
set_option maxRecDepth 8192 in
theorem chunk14_sub : (chunk14 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub ..⟩
set_option maxRecDepth 8192 in
theorem chunk15_sub : (chunk15 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub ..⟩
set_option maxRecDepth 8192 in
theorem chunk16_sub : (chunk16 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
set_option maxRecDepth 8192 in
theorem chunk17_sub : (chunk17 : List (HloOp τ sig (Elt F))).Forall fun op => op.bufs ⊆ tcRefs τ sig :=
  ⟨binary_bufs_sub .., unary_bufs_sub .., unary_bufs_sub .., binary_bufs_sub ..⟩
set_option maxRecDepth 8192 in
theorem chunk18_sub : (chunk18 : List (HloOp τ sig (Elt F))).Forall fun op => op.bufs ⊆ tcRefs τ sig :=
  ⟨binary_bufs_sub .., unary_bufs_sub .., unary_bufs_sub .., binary_bufs_sub ..⟩

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append (forall_append chunk0_sub (forall_append chunk1_sub (forall_append chunk2_sub (chunk3_sub)))) (forall_append (forall_append chunk4_sub (forall_append chunk5_sub (forall_append chunk6_sub (chunk7_sub)))) (forall_append (forall_append chunk8_sub (forall_append chunk9_sub (chunk10_sub))) (forall_append (forall_append chunk11_sub (forall_append chunk12_sub (forall_append chunk13_sub (chunk14_sub)))) (forall_append chunk15_sub (forall_append chunk16_sub (forall_append chunk17_sub (chunk18_sub)))))))

end Cert.ReferenceIdeal.RefRun

end
-- ==== Proof.Ref.Val1.lean ====
/- What the first layer's aggregation and convolution stages leave in the buffers they write. Each stage is a run of @main's operations; its result buffer holds the stage function (Ref/Stages) of the contents the stage reads, and every buffer it does not write keeps its contents. -/
import proofs.«154353_j88940182765819_1_alg».proof.Proof.Ref.Ops
import proofs.«154353_j88940182765819_1_alg».proof.Proof.Ref.Stages

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F] [Facts]

/-- An operation's written buffer is in the given list (by the builders' `writes`, then membership by computation). -/
local macro "writes_mem" : tactic =>
  `(tactic| (simp only [nullary_writes, unary_writes, binary_writes, ternary_writes, reshape_writes, Finset.singleton_subset_iff, List.mem_toFinset]; exact List.mem_map_of_mem (by decide)))

/-! ## Stage Rows -/

/-- The stage's operations. -/
abbrev LRows : List (HloOp τ sig (Elt F)) := chunk0
/-- The buffers the stage's operations write. -/
abbrev WRows : List (Ref sig .tc) := [main_v0, main_v1, main_v2, main_v3, main_v4, main_v5, main_v6, main_v7]
set_option maxRecDepth 8192 in
theorem LRows_writes : (LRows : List (HloOp τ sig (Elt F))).Forall fun op => op.writes ⊆ ((WRows).map (Proc.devRef (τ := τ) .tc)).toFinset := by
  simp only [LRows, chunk0, List.cons_append, List.nil_append, List.Forall]
  exact ⟨by writes_mem, by writes_mem, by writes_mem, by writes_mem, by writes_mem, by writes_mem, by writes_mem, by writes_mem⟩
/-- A buffer the stage does not write keeps its contents through it. -/
theorem LRows_keep (V : Valuation τ sig (Elt F)) (r : Ref sig .tc) (h : r ∉ WRows) :
    after LRows V (Proc.devRef .tc r) = V (Proc.devRef .tc r) :=
  after_of_writes_sub LRows V LRows_writes h

attribute [local irreducible] Host.gather Host.scatterAdd Host.reduceAdd in
set_option maxRecDepth 8192 in
set_option maxHeartbeats 4000000 in
/-- What the stage leaves in `main_v1`: the stage function of the contents it reads (the fold read back operation by
    operation, then the two sides agree by unfolding the stage function). -/
theorem LRows_main_v1 (V : Valuation τ sig (Elt F)) :
    after LRows V (Proc.devRef .tc main_v1) = refRow0 (V (Proc.devRef .tc main_arg2)) := by
  simp only [LRows, chunk0, List.cons_append, List.nil_append]
  after_results_simp
  rfl

attribute [local irreducible] Host.gather Host.scatterAdd Host.reduceAdd in
set_option maxRecDepth 8192 in
set_option maxHeartbeats 4000000 in
/-- What the stage leaves in `main_v3`: the stage function of the contents it reads (the fold read back operation by
    operation, then the two sides agree by unfolding the stage function). -/
theorem LRows_main_v3 (V : Valuation τ sig (Elt F)) :
    after LRows V (Proc.devRef .tc main_v3) = refRow1 (V (Proc.devRef .tc main_arg2)) := by
  simp only [LRows, chunk0, List.cons_append, List.nil_append]
  after_results_simp
  rfl

attribute [local irreducible] Host.gather Host.scatterAdd Host.reduceAdd in
set_option maxRecDepth 8192 in
set_option maxHeartbeats 4000000 in
/-- What the stage leaves in `main_v5`: the stage function of the contents it reads (the fold read back operation by
    operation, then the two sides agree by unfolding the stage function). -/
theorem LRows_main_v5 (V : Valuation τ sig (Elt F)) :
    after LRows V (Proc.devRef .tc main_v5) = refRow0 (V (Proc.devRef .tc main_arg3)) := by
  simp only [LRows, chunk0, List.cons_append, List.nil_append]
  after_results_simp
  rfl

attribute [local irreducible] Host.gather Host.scatterAdd Host.reduceAdd in
set_option maxRecDepth 8192 in
set_option maxHeartbeats 4000000 in
/-- What the stage leaves in `main_v7`: the stage function of the contents it reads (the fold read back operation by
    operation, then the two sides agree by unfolding the stage function). -/
theorem LRows_main_v7 (V : Valuation τ sig (Elt F)) :
    after LRows V (Proc.devRef .tc main_v7) = refRow1 (V (Proc.devRef .tc main_arg3)) := by
  simp only [LRows, chunk0, List.cons_append, List.nil_append]
  after_results_simp
  rfl

/-! ## Stage AggA1 -/

/-- The stage's operations. -/
abbrev LAggA1 : List (HloOp τ sig (Elt F)) := chunk1
/-- The buffers the stage's operations write. -/
abbrev WAggA1 : List (Ref sig .tc) := [main_c, main_v8, main_v9, main_c_0, main_v10, main_v11, main_v12, main_v13, main_v14, main_cst, main_v15, main_v16, main_v17, main_cst_1, main_v18, main_cst_2, main_v19, main_v20, main_v21, main_cst_3, main_v22, main_v23, main_v24, main_v25, main_v26]
set_option maxRecDepth 8192 in
theorem LAggA1_writes : (LAggA1 : List (HloOp τ sig (Elt F))).Forall fun op => op.writes ⊆ ((WAggA1).map (Proc.devRef (τ := τ) .tc)).toFinset := by
  simp only [LAggA1, chunk1, List.cons_append, List.nil_append, List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
/-- A buffer the stage does not write keeps its contents through it. -/
theorem LAggA1_keep (V : Valuation τ sig (Elt F)) (r : Ref sig .tc) (h : r ∉ WAggA1) :
    after LAggA1 V (Proc.devRef .tc r) = V (Proc.devRef .tc r) :=
  after_of_writes_sub LAggA1 V LAggA1_writes h

attribute [local irreducible] Host.gather Host.scatterAdd Host.reduceAdd in
set_option maxRecDepth 8192 in
set_option maxHeartbeats 4000000 in
/-- What the stage leaves in `main_v26`: the stage function of the contents it reads (the fold read back operation by
    operation, then the two sides agree by unfolding the stage function). -/
theorem LAggA1_main_v26 (V : Valuation τ sig (Elt F)) :
    after LAggA1 V (Proc.devRef .tc main_v26) = refAggOf gather_S100000x128_S500000x1_S500000x128_1_0_n_n_0_1_1128 scatter_S100000x128_S500000x1_S500000x128_1_0_0_1 bcast_S_S100000x128 ![0, 1] bcast_S100000x1_S100000x128_0_1 (V (Proc.devRef .tc main_arg1)) (V (Proc.devRef .tc main_v1)) (V (Proc.devRef .tc main_v3)) := by
  simp only [LAggA1, chunk1, List.cons_append, List.nil_append]
  after_results_simp
  rfl

/-! ## Stage ConvA1 -/

/-- The stage's operations. -/
abbrev LConvA1 : List (HloOp τ sig (Elt F)) := chunk2
/-- The buffers the stage's operations write. -/
abbrev WConvA1 : List (Ref sig .tc) := [main_v27, main_v28, main_v29, main_v30, main_v31, main_v32, main_v33, main_v34, main_v35, main_v36, main_v37, main_v38, main_v39]
set_option maxRecDepth 8192 in
theorem LConvA1_writes : (LConvA1 : List (HloOp τ sig (Elt F))).Forall fun op => op.writes ⊆ ((WConvA1).map (Proc.devRef (τ := τ) .tc)).toFinset := by
  simp only [LConvA1, chunk2, List.cons_append, List.nil_append, List.Forall]
  exact ⟨by writes_mem, by writes_mem, by writes_mem, by writes_mem, by writes_mem, by writes_mem, by writes_mem, by writes_mem, by writes_mem, by writes_mem, by writes_mem, by writes_mem, by writes_mem⟩
/-- A buffer the stage does not write keeps its contents through it. -/
theorem LConvA1_keep (V : Valuation τ sig (Elt F)) (r : Ref sig .tc) (h : r ∉ WConvA1) :
    after LConvA1 V (Proc.devRef .tc r) = V (Proc.devRef .tc r) :=
  after_of_writes_sub LConvA1 V LConvA1_writes h

attribute [local irreducible] Host.gather Host.scatterAdd Host.reduceAdd in
set_option maxRecDepth 8192 in
set_option maxHeartbeats 4000000 in
/-- What the stage leaves in `main_v39`: the stage function of the contents it reads (the fold read back operation by
    operation, then the two sides agree by unfolding the stage function). -/
theorem LConvA1_main_v39 (V : Valuation τ sig (Elt F)) :
    after LConvA1 V (Proc.devRef .tc main_v39) = refConv dot_S100000x256_S256x128_S100000x128_1_0_0_1_n_n dot_S100000x128_S128x128_S100000x128_1_0_0_1_n_n (V (Proc.devRef .tc main_arg0)) (V (Proc.devRef .tc main_v26)) (V (Proc.devRef .tc main_arg6)) (V (Proc.devRef .tc main_arg7)) (V (Proc.devRef .tc main_arg4)) (V (Proc.devRef .tc main_arg5)) (V (Proc.devRef .tc main_arg8)) (V (Proc.devRef .tc main_arg9)) := by
  simp only [LConvA1, chunk2, List.cons_append, List.nil_append]
  after_results_simp
  rfl

/-! ## Stage AggP1 -/

/-- The stage's operations. -/
abbrev LAggP1 : List (HloOp τ sig (Elt F)) := chunk3 ++ chunk4
/-- The buffers the stage's operations write. -/
abbrev WAggP1 : List (Ref sig .tc) := [main_c_4, main_v40, main_v41, main_c_5, main_v42, main_v43, main_v44, main_v45, main_v46, main_cst_6, main_v47, main_v48, main_v49, main_cst_7, main_v50, main_cst_8, main_v51, main_v52, main_v53, main_cst_9, main_v54, main_v55, main_v56, main_v57, main_v58]
set_option maxRecDepth 8192 in
theorem LAggP1_writes : (LAggP1 : List (HloOp τ sig (Elt F))).Forall fun op => op.writes ⊆ ((WAggP1).map (Proc.devRef (τ := τ) .tc)).toFinset := by
  simp only [LAggP1, chunk3, chunk4, List.cons_append, List.nil_append, List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
/-- A buffer the stage does not write keeps its contents through it. -/
theorem LAggP1_keep (V : Valuation τ sig (Elt F)) (r : Ref sig .tc) (h : r ∉ WAggP1) :
    after LAggP1 V (Proc.devRef .tc r) = V (Proc.devRef .tc r) :=
  after_of_writes_sub LAggP1 V LAggP1_writes h

attribute [local irreducible] Host.gather Host.scatterAdd Host.reduceAdd in
set_option maxRecDepth 8192 in
set_option maxHeartbeats 4000000 in
/-- What the stage leaves in `main_v58`: the stage function of the contents it reads (the fold read back operation by
    operation, then the two sides agree by unfolding the stage function). -/
theorem LAggP1_main_v58 (V : Valuation τ sig (Elt F)) :
    after LAggP1 V (Proc.devRef .tc main_v58) = refAggOf gather_S100000x256_S500000x1_S500000x256_1_0_n_n_0_1_1256 scatter_S100000x256_S500000x1_S500000x256_1_0_0_1 bcast_S_S100000x256 ![0, 1] bcast_S100000x1_S100000x256_0_1 (V (Proc.devRef .tc main_arg0)) (V (Proc.devRef .tc main_v5)) (V (Proc.devRef .tc main_v7)) := by
  simp only [LAggP1, chunk3, chunk4, List.cons_append, List.nil_append]
  after_results_simp
  rfl

/-! ## Stage ConvP1 -/

/-- The stage's operations. -/
abbrev LConvP1 : List (HloOp τ sig (Elt F)) := chunk5
/-- The buffers the stage's operations write. -/
abbrev WConvP1 : List (Ref sig .tc) := [main_v59, main_v60, main_v61, main_v62, main_v63, main_v64, main_v65, main_v66, main_v67, main_v68, main_v69, main_v70, main_v71]
set_option maxRecDepth 8192 in
theorem LConvP1_writes : (LConvP1 : List (HloOp τ sig (Elt F))).Forall fun op => op.writes ⊆ ((WConvP1).map (Proc.devRef (τ := τ) .tc)).toFinset := by
  simp only [LConvP1, chunk5, List.cons_append, List.nil_append, List.Forall]
  exact ⟨by writes_mem, by writes_mem, by writes_mem, by writes_mem, by writes_mem, by writes_mem, by writes_mem, by writes_mem, by writes_mem, by writes_mem, by writes_mem, by writes_mem, by writes_mem⟩
/-- A buffer the stage does not write keeps its contents through it. -/
theorem LConvP1_keep (V : Valuation τ sig (Elt F)) (r : Ref sig .tc) (h : r ∉ WConvP1) :
    after LConvP1 V (Proc.devRef .tc r) = V (Proc.devRef .tc r) :=
  after_of_writes_sub LConvP1 V LConvP1_writes h

attribute [local irreducible] Host.gather Host.scatterAdd Host.reduceAdd in
set_option maxRecDepth 8192 in
set_option maxHeartbeats 4000000 in
/-- What the stage leaves in `main_v71`: the stage function of the contents it reads (the fold read back operation by
    operation, then the two sides agree by unfolding the stage function). -/
theorem LConvP1_main_v71 (V : Valuation τ sig (Elt F)) :
    after LConvP1 V (Proc.devRef .tc main_v71) = refConv dot_S100000x128_S128x128_S100000x128_1_0_0_1_n_n dot_S100000x256_S256x128_S100000x128_1_0_0_1_n_n (V (Proc.devRef .tc main_arg1)) (V (Proc.devRef .tc main_v58)) (V (Proc.devRef .tc main_arg12)) (V (Proc.devRef .tc main_arg13)) (V (Proc.devRef .tc main_arg10)) (V (Proc.devRef .tc main_arg11)) (V (Proc.devRef .tc main_arg14)) (V (Proc.devRef .tc main_arg15)) := by
  simp only [LConvP1, chunk5, List.cons_append, List.nil_append]
  after_results_simp
  rfl

end Cert.ReferenceIdeal.RefRun

end
-- ==== Proof.Ref.Val2.lean ====
/- What the first layer's normalisation stages leave in the buffers they write. Each stage is a run of @main's operations; its result buffer holds the stage function (Ref/Stages) of the contents the stage reads, and every buffer it does not write keeps its contents. -/
import proofs.«154353_j88940182765819_1_alg».proof.Proof.Ref.Ops
import proofs.«154353_j88940182765819_1_alg».proof.Proof.Ref.Stages

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F] [Facts]

/-- An operation's written buffer is in the given list (by the builders' `writes`, then membership by computation). -/
local macro "writes_mem" : tactic =>
  `(tactic| (simp only [nullary_writes, unary_writes, binary_writes, ternary_writes, reshape_writes, Finset.singleton_subset_iff, List.mem_toFinset]; exact List.mem_map_of_mem (by decide)))

/-! ## Stage BnA1 -/

/-- The stage's operations. -/
abbrev LBnA1 : List (HloOp τ sig (Elt F)) := chunk6
/-- The buffers the stage's operations write. -/
abbrev WBnA1 : List (Ref sig .tc) := [main_cst_10, main_v72, main_cst_11, main_v73, main_v74, main_c_12, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v75, main_v76, main_v77, main_v78, main_v79, main_v80, main_v81, main_cst_13, main_v82, main_v83, main_v84, main_v85, main_v86, main_v87, main_v88, main_v89, main_v90, main_cst_14, main_v91, main_v92, main_cst_15, main_v93, main_v94, main_v95]
set_option maxRecDepth 8192 in
theorem LBnA1_writes : (LBnA1 : List (HloOp τ sig (Elt F))).Forall fun op => op.writes ⊆ ((WBnA1).map (Proc.devRef (τ := τ) .tc)).toFinset := by
  simp only [LBnA1, chunk6, List.cons_append, List.nil_append, List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
/-- A buffer the stage does not write keeps its contents through it. -/
theorem LBnA1_keep (V : Valuation τ sig (Elt F)) (r : Ref sig .tc) (h : r ∉ WBnA1) :
    after LBnA1 V (Proc.devRef .tc r) = V (Proc.devRef .tc r) :=
  after_of_writes_sub LBnA1 V LBnA1_writes h

attribute [local irreducible] Host.gather Host.scatterAdd Host.reduceAdd in
set_option maxRecDepth 8192 in
set_option maxHeartbeats 4000000 in
/-- What the stage leaves in `main_v95`: the stage function of the contents it reads (the fold read back operation by
    operation, then the two sides agree by unfolding the stage function). -/
theorem LBnA1_main_v95 (V : Valuation τ sig (Elt F)) :
    after LBnA1 V (Proc.devRef .tc main_v95) = refBN (V (Proc.devRef .tc main_v39)) (V (Proc.devRef .tc main_arg28)) (V (Proc.devRef .tc main_arg29)) := by
  simp only [LBnA1, chunk6, List.cons_append, List.nil_append]
  after_results_simp
  rfl

/-! ## Stage BnP1 -/

/-- The stage's operations. -/
abbrev LBnP1 : List (HloOp τ sig (Elt F)) := chunk7 ++ chunk8
/-- The buffers the stage's operations write. -/
abbrev WBnP1 : List (Ref sig .tc) := [main_cst_16, main_v96, main_cst_17, main_v97, main_v98, main_c_18, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v99, main_v100, main_v101, main_v102, main_v103, main_v104, main_v105, main_cst_19, main_v106, main_v107, main_v108, main_v109, main_v110, main_v111, main_v112, main_v113, main_v114, main_cst_20, main_v115, main_v116, main_cst_21, main_v117, main_v118, main_v119]
set_option maxRecDepth 8192 in
theorem LBnP1_writes : (LBnP1 : List (HloOp τ sig (Elt F))).Forall fun op => op.writes ⊆ ((WBnP1).map (Proc.devRef (τ := τ) .tc)).toFinset := by
  simp only [LBnP1, chunk7, chunk8, List.cons_append, List.nil_append, List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
/-- A buffer the stage does not write keeps its contents through it. -/
theorem LBnP1_keep (V : Valuation τ sig (Elt F)) (r : Ref sig .tc) (h : r ∉ WBnP1) :
    after LBnP1 V (Proc.devRef .tc r) = V (Proc.devRef .tc r) :=
  after_of_writes_sub LBnP1 V LBnP1_writes h

attribute [local irreducible] Host.gather Host.scatterAdd Host.reduceAdd in
set_option maxRecDepth 8192 in
set_option maxHeartbeats 4000000 in
/-- What the stage leaves in `main_v119`: the stage function of the contents it reads (the fold read back operation by
    operation, then the two sides agree by unfolding the stage function). -/
theorem LBnP1_main_v119 (V : Valuation τ sig (Elt F)) :
    after LBnP1 V (Proc.devRef .tc main_v119) = refBN (V (Proc.devRef .tc main_v71)) (V (Proc.devRef .tc main_arg30)) (V (Proc.devRef .tc main_arg31)) := by
  simp only [LBnP1, chunk7, chunk8, List.cons_append, List.nil_append]
  after_results_simp
  rfl

end Cert.ReferenceIdeal.RefRun

end
-- ==== Proof.Ref.Val3.lean ====
/- What the second layer's aggregation and convolution stages leave in the buffers they write. Each stage is a run of @main's operations; its result buffer holds the stage function (Ref/Stages) of the contents the stage reads, and every buffer it does not write keeps its contents. -/
import proofs.«154353_j88940182765819_1_alg».proof.Proof.Ref.Ops
import proofs.«154353_j88940182765819_1_alg».proof.Proof.Ref.Stages

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F] [Facts]

/-- An operation's written buffer is in the given list (by the builders' `writes`, then membership by computation). -/
local macro "writes_mem" : tactic =>
  `(tactic| (simp only [nullary_writes, unary_writes, binary_writes, ternary_writes, reshape_writes, Finset.singleton_subset_iff, List.mem_toFinset]; exact List.mem_map_of_mem (by decide)))

/-! ## Stage AggA2 -/

/-- The stage's operations. -/
abbrev LAggA2 : List (HloOp τ sig (Elt F)) := chunk9
/-- The buffers the stage's operations write. -/
abbrev WAggA2 : List (Ref sig .tc) := [main_c_22, main_v120, main_v121, main_c_23, main_v122, main_v123, main_v124, main_v125, main_v126, main_cst_24, main_v127, main_v128, main_v129, main_cst_25, main_v130, main_cst_26, main_v131, main_v132, main_v133, main_cst_27, main_v134, main_v135, main_v136, main_v137, main_v138]
set_option maxRecDepth 8192 in
theorem LAggA2_writes : (LAggA2 : List (HloOp τ sig (Elt F))).Forall fun op => op.writes ⊆ ((WAggA2).map (Proc.devRef (τ := τ) .tc)).toFinset := by
  simp only [LAggA2, chunk9, List.cons_append, List.nil_append, List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
/-- A buffer the stage does not write keeps its contents through it. -/
theorem LAggA2_keep (V : Valuation τ sig (Elt F)) (r : Ref sig .tc) (h : r ∉ WAggA2) :
    after LAggA2 V (Proc.devRef .tc r) = V (Proc.devRef .tc r) :=
  after_of_writes_sub LAggA2 V LAggA2_writes h

attribute [local irreducible] Host.gather Host.scatterAdd Host.reduceAdd in
set_option maxRecDepth 8192 in
set_option maxHeartbeats 4000000 in
/-- What the stage leaves in `main_v138`: the stage function of the contents it reads (the fold read back operation by
    operation, then the two sides agree by unfolding the stage function). -/
theorem LAggA2_main_v138 (V : Valuation τ sig (Elt F)) :
    after LAggA2 V (Proc.devRef .tc main_v138) = refAggOf gather_S100000x128_S500000x1_S500000x128_1_0_n_n_0_1_1128 scatter_S100000x128_S500000x1_S500000x128_1_0_0_1 bcast_S_S100000x128 ![0, 1] bcast_S100000x1_S100000x128_0_1 (V (Proc.devRef .tc main_v119)) (V (Proc.devRef .tc main_v1)) (V (Proc.devRef .tc main_v3)) := by
  simp only [LAggA2, chunk9, List.cons_append, List.nil_append]
  after_results_simp
  rfl

/-! ## Stage ConvA2 -/

/-- The stage's operations. -/
abbrev LConvA2 : List (HloOp τ sig (Elt F)) := chunk10 ++ chunk11
/-- The buffers the stage's operations write. -/
abbrev WConvA2 : List (Ref sig .tc) := [main_v139, main_v140, main_v141, main_v142, main_v143, main_v144, main_v145, main_v146, main_v147, main_v148, main_v149, main_v150, main_v151]
set_option maxRecDepth 8192 in
theorem LConvA2_writes : (LConvA2 : List (HloOp τ sig (Elt F))).Forall fun op => op.writes ⊆ ((WConvA2).map (Proc.devRef (τ := τ) .tc)).toFinset := by
  simp only [LConvA2, chunk10, chunk11, List.cons_append, List.nil_append, List.Forall]
  exact ⟨by writes_mem, by writes_mem, by writes_mem, by writes_mem, by writes_mem, by writes_mem, by writes_mem, by writes_mem, by writes_mem, by writes_mem, by writes_mem, by writes_mem, by writes_mem⟩
/-- A buffer the stage does not write keeps its contents through it. -/
theorem LConvA2_keep (V : Valuation τ sig (Elt F)) (r : Ref sig .tc) (h : r ∉ WConvA2) :
    after LConvA2 V (Proc.devRef .tc r) = V (Proc.devRef .tc r) :=
  after_of_writes_sub LConvA2 V LConvA2_writes h

attribute [local irreducible] Host.gather Host.scatterAdd Host.reduceAdd in
set_option maxRecDepth 8192 in
set_option maxHeartbeats 4000000 in
/-- What the stage leaves in `main_v151`: the stage function of the contents it reads (the fold read back operation by
    operation, then the two sides agree by unfolding the stage function). -/
theorem LConvA2_main_v151 (V : Valuation τ sig (Elt F)) :
    after LConvA2 V (Proc.devRef .tc main_v151) = refConv dot_S100000x128_S128x128_S100000x128_1_0_0_1_n_n dot_S100000x128_S128x128_S100000x128_1_0_0_1_n_n (V (Proc.devRef .tc main_v95)) (V (Proc.devRef .tc main_v138)) (V (Proc.devRef .tc main_arg18)) (V (Proc.devRef .tc main_arg19)) (V (Proc.devRef .tc main_arg16)) (V (Proc.devRef .tc main_arg17)) (V (Proc.devRef .tc main_arg20)) (V (Proc.devRef .tc main_arg21)) := by
  simp only [LConvA2, chunk10, chunk11, List.cons_append, List.nil_append]
  after_results_simp
  rfl

/-! ## Stage AggP2 -/

/-- The stage's operations. -/
abbrev LAggP2 : List (HloOp τ sig (Elt F)) := chunk12
/-- The buffers the stage's operations write. -/
abbrev WAggP2 : List (Ref sig .tc) := [main_c_28, main_v152, main_v153, main_c_29, main_v154, main_v155, main_v156, main_v157, main_v158, main_cst_30, main_v159, main_v160, main_v161, main_cst_31, main_v162, main_cst_32, main_v163, main_v164, main_v165, main_cst_33, main_v166, main_v167, main_v168, main_v169, main_v170]
set_option maxRecDepth 8192 in
theorem LAggP2_writes : (LAggP2 : List (HloOp τ sig (Elt F))).Forall fun op => op.writes ⊆ ((WAggP2).map (Proc.devRef (τ := τ) .tc)).toFinset := by
  simp only [LAggP2, chunk12, List.cons_append, List.nil_append, List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
/-- A buffer the stage does not write keeps its contents through it. -/
theorem LAggP2_keep (V : Valuation τ sig (Elt F)) (r : Ref sig .tc) (h : r ∉ WAggP2) :
    after LAggP2 V (Proc.devRef .tc r) = V (Proc.devRef .tc r) :=
  after_of_writes_sub LAggP2 V LAggP2_writes h

attribute [local irreducible] Host.gather Host.scatterAdd Host.reduceAdd in
set_option maxRecDepth 8192 in
set_option maxHeartbeats 4000000 in
/-- What the stage leaves in `main_v170`: the stage function of the contents it reads (the fold read back operation by
    operation, then the two sides agree by unfolding the stage function). -/
theorem LAggP2_main_v170 (V : Valuation τ sig (Elt F)) :
    after LAggP2 V (Proc.devRef .tc main_v170) = refAggOf gather_S100000x128_S500000x1_S500000x128_1_0_n_n_0_1_1128 scatter_S100000x128_S500000x1_S500000x128_1_0_0_1 bcast_S_S100000x128 ![0, 1] bcast_S100000x1_S100000x128_0_1 (V (Proc.devRef .tc main_v95)) (V (Proc.devRef .tc main_v5)) (V (Proc.devRef .tc main_v7)) := by
  simp only [LAggP2, chunk12, List.cons_append, List.nil_append]
  after_results_simp
  rfl

/-! ## Stage ConvP2 -/

/-- The stage's operations. -/
abbrev LConvP2 : List (HloOp τ sig (Elt F)) := chunk13
/-- The buffers the stage's operations write. -/
abbrev WConvP2 : List (Ref sig .tc) := [main_v171, main_v172, main_v173, main_v174, main_v175, main_v176, main_v177, main_v178, main_v179, main_v180, main_v181, main_v182, main_v183]
set_option maxRecDepth 8192 in
theorem LConvP2_writes : (LConvP2 : List (HloOp τ sig (Elt F))).Forall fun op => op.writes ⊆ ((WConvP2).map (Proc.devRef (τ := τ) .tc)).toFinset := by
  simp only [LConvP2, chunk13, List.cons_append, List.nil_append, List.Forall]
  exact ⟨by writes_mem, by writes_mem, by writes_mem, by writes_mem, by writes_mem, by writes_mem, by writes_mem, by writes_mem, by writes_mem, by writes_mem, by writes_mem, by writes_mem, by writes_mem⟩
/-- A buffer the stage does not write keeps its contents through it. -/
theorem LConvP2_keep (V : Valuation τ sig (Elt F)) (r : Ref sig .tc) (h : r ∉ WConvP2) :
    after LConvP2 V (Proc.devRef .tc r) = V (Proc.devRef .tc r) :=
  after_of_writes_sub LConvP2 V LConvP2_writes h

attribute [local irreducible] Host.gather Host.scatterAdd Host.reduceAdd in
set_option maxRecDepth 8192 in
set_option maxHeartbeats 4000000 in
/-- What the stage leaves in `main_v183`: the stage function of the contents it reads (the fold read back operation by
    operation, then the two sides agree by unfolding the stage function). -/
theorem LConvP2_main_v183 (V : Valuation τ sig (Elt F)) :
    after LConvP2 V (Proc.devRef .tc main_v183) = refConv dot_S100000x128_S128x128_S100000x128_1_0_0_1_n_n dot_S100000x128_S128x128_S100000x128_1_0_0_1_n_n (V (Proc.devRef .tc main_v119)) (V (Proc.devRef .tc main_v170)) (V (Proc.devRef .tc main_arg24)) (V (Proc.devRef .tc main_arg25)) (V (Proc.devRef .tc main_arg22)) (V (Proc.devRef .tc main_arg23)) (V (Proc.devRef .tc main_arg26)) (V (Proc.devRef .tc main_arg27)) := by
  simp only [LConvP2, chunk13, List.cons_append, List.nil_append]
  after_results_simp
  rfl

end Cert.ReferenceIdeal.RefRun

end
-- ==== Proof.Ref.Val4.lean ====
/- What the second layer's normalisation stages and the heads leave in the buffers they write. Each stage is a run of @main's operations; its result buffer holds the stage function (Ref/Stages) of the contents the stage reads, and every buffer it does not write keeps its contents. -/
import proofs.«154353_j88940182765819_1_alg».proof.Proof.Ref.Ops
import proofs.«154353_j88940182765819_1_alg».proof.Proof.Ref.Stages

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F] [Facts]

/-- An operation's written buffer is in the given list (by the builders' `writes`, then membership by computation). -/
local macro "writes_mem" : tactic =>
  `(tactic| (simp only [nullary_writes, unary_writes, binary_writes, ternary_writes, reshape_writes, Finset.singleton_subset_iff, List.mem_toFinset]; exact List.mem_map_of_mem (by decide)))

/-! ## Stage BnA2 -/

/-- The stage's operations. -/
abbrev LBnA2 : List (HloOp τ sig (Elt F)) := chunk14 ++ chunk15
/-- The buffers the stage's operations write. -/
abbrev WBnA2 : List (Ref sig .tc) := [main_cst_34, main_v184, main_cst_35, main_v185, main_v186, main_c_36, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v187, main_v188, main_v189, main_v190, main_v191, main_v192, main_v193, main_cst_37, main_v194, main_v195, main_v196, main_v197, main_v198, main_v199, main_v200, main_v201, main_v202, main_cst_38, main_v203, main_v204, main_cst_39, main_v205, main_v206, main_v207]
set_option maxRecDepth 8192 in
theorem LBnA2_writes : (LBnA2 : List (HloOp τ sig (Elt F))).Forall fun op => op.writes ⊆ ((WBnA2).map (Proc.devRef (τ := τ) .tc)).toFinset := by
  simp only [LBnA2, chunk14, chunk15, List.cons_append, List.nil_append, List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
/-- A buffer the stage does not write keeps its contents through it. -/
theorem LBnA2_keep (V : Valuation τ sig (Elt F)) (r : Ref sig .tc) (h : r ∉ WBnA2) :
    after LBnA2 V (Proc.devRef .tc r) = V (Proc.devRef .tc r) :=
  after_of_writes_sub LBnA2 V LBnA2_writes h

attribute [local irreducible] Host.gather Host.scatterAdd Host.reduceAdd in
set_option maxRecDepth 8192 in
set_option maxHeartbeats 4000000 in
/-- What the stage leaves in `main_v207`: the stage function of the contents it reads (the fold read back operation by
    operation, then the two sides agree by unfolding the stage function). -/
theorem LBnA2_main_v207 (V : Valuation τ sig (Elt F)) :
    after LBnA2 V (Proc.devRef .tc main_v207) = refBN (V (Proc.devRef .tc main_v151)) (V (Proc.devRef .tc main_arg32)) (V (Proc.devRef .tc main_arg33)) := by
  simp only [LBnA2, chunk14, chunk15, List.cons_append, List.nil_append]
  after_results_simp
  rfl

/-! ## Stage BnP2 -/

/-- The stage's operations. -/
abbrev LBnP2 : List (HloOp τ sig (Elt F)) := chunk16
/-- The buffers the stage's operations write. -/
abbrev WBnP2 : List (Ref sig .tc) := [main_cst_40, main_v208, main_cst_41, main_v209, main_v210, main_c_42, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v211, main_v212, main_v213, main_v214, main_v215, main_v216, main_v217, main_cst_43, main_v218, main_v219, main_v220, main_v221, main_v222, main_v223, main_v224, main_v225, main_v226, main_cst_44, main_v227, main_v228, main_cst_45, main_v229, main_v230, main_v231]
set_option maxRecDepth 8192 in
theorem LBnP2_writes : (LBnP2 : List (HloOp τ sig (Elt F))).Forall fun op => op.writes ⊆ ((WBnP2).map (Proc.devRef (τ := τ) .tc)).toFinset := by
  simp only [LBnP2, chunk16, List.cons_append, List.nil_append, List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
/-- A buffer the stage does not write keeps its contents through it. -/
theorem LBnP2_keep (V : Valuation τ sig (Elt F)) (r : Ref sig .tc) (h : r ∉ WBnP2) :
    after LBnP2 V (Proc.devRef .tc r) = V (Proc.devRef .tc r) :=
  after_of_writes_sub LBnP2 V LBnP2_writes h

attribute [local irreducible] Host.gather Host.scatterAdd Host.reduceAdd in
set_option maxRecDepth 8192 in
set_option maxHeartbeats 4000000 in
/-- What the stage leaves in `main_v231`: the stage function of the contents it reads (the fold read back operation by
    operation, then the two sides agree by unfolding the stage function). -/
theorem LBnP2_main_v231 (V : Valuation τ sig (Elt F)) :
    after LBnP2 V (Proc.devRef .tc main_v231) = refBN (V (Proc.devRef .tc main_v183)) (V (Proc.devRef .tc main_arg34)) (V (Proc.devRef .tc main_arg35)) := by
  simp only [LBnP2, chunk16, List.cons_append, List.nil_append]
  after_results_simp
  rfl

/-! ## Stage HeadA -/

/-- The stage's operations. -/
abbrev LHeadA : List (HloOp τ sig (Elt F)) := chunk17
/-- The buffers the stage's operations write. -/
abbrev WHeadA : List (Ref sig .tc) := [main_v232, main_v233, main_v234, main_v235]
set_option maxRecDepth 8192 in
theorem LHeadA_writes : (LHeadA : List (HloOp τ sig (Elt F))).Forall fun op => op.writes ⊆ ((WHeadA).map (Proc.devRef (τ := τ) .tc)).toFinset := by
  simp only [LHeadA, chunk17, List.cons_append, List.nil_append, List.Forall]
  exact ⟨by writes_mem, by writes_mem, by writes_mem, by writes_mem⟩
/-- A buffer the stage does not write keeps its contents through it. -/
theorem LHeadA_keep (V : Valuation τ sig (Elt F)) (r : Ref sig .tc) (h : r ∉ WHeadA) :
    after LHeadA V (Proc.devRef .tc r) = V (Proc.devRef .tc r) :=
  after_of_writes_sub LHeadA V LHeadA_writes h

attribute [local irreducible] Host.gather Host.scatterAdd Host.reduceAdd in
set_option maxRecDepth 8192 in
set_option maxHeartbeats 4000000 in
/-- What the stage leaves in `main_v235`: the stage function of the contents it reads (the fold read back operation by
    operation, then the two sides agree by unfolding the stage function). -/
theorem LHeadA_main_v235 (V : Valuation τ sig (Elt F)) :
    after LHeadA V (Proc.devRef .tc main_v235) = refHeadA (V (Proc.devRef .tc main_v207)) (V (Proc.devRef .tc main_arg36)) (V (Proc.devRef .tc main_arg37)) := by
  simp only [LHeadA, chunk17, List.cons_append, List.nil_append]
  after_results_simp
  rfl

/-! ## Stage HeadP -/

/-- The stage's operations. -/
abbrev LHeadP : List (HloOp τ sig (Elt F)) := chunk18
/-- The buffers the stage's operations write. -/
abbrev WHeadP : List (Ref sig .tc) := [main_v236, main_v237, main_v238, main_v239]
set_option maxRecDepth 8192 in
theorem LHeadP_writes : (LHeadP : List (HloOp τ sig (Elt F))).Forall fun op => op.writes ⊆ ((WHeadP).map (Proc.devRef (τ := τ) .tc)).toFinset := by
  simp only [LHeadP, chunk18, List.cons_append, List.nil_append, List.Forall]
  exact ⟨by writes_mem, by writes_mem, by writes_mem, by writes_mem⟩
/-- A buffer the stage does not write keeps its contents through it. -/
theorem LHeadP_keep (V : Valuation τ sig (Elt F)) (r : Ref sig .tc) (h : r ∉ WHeadP) :
    after LHeadP V (Proc.devRef .tc r) = V (Proc.devRef .tc r) :=
  after_of_writes_sub LHeadP V LHeadP_writes h

attribute [local irreducible] Host.gather Host.scatterAdd Host.reduceAdd in
set_option maxRecDepth 8192 in
set_option maxHeartbeats 4000000 in
/-- What the stage leaves in `main_v239`: the stage function of the contents it reads (the fold read back operation by
    operation, then the two sides agree by unfolding the stage function). -/
theorem LHeadP_main_v239 (V : Valuation τ sig (Elt F)) :
    after LHeadP V (Proc.devRef .tc main_v239) = refHeadP (V (Proc.devRef .tc main_v231)) (V (Proc.devRef .tc main_arg38)) (V (Proc.devRef .tc main_arg39)) := by
  simp only [LHeadP, chunk18, List.cons_append, List.nil_append]
  after_results_simp
  rfl

end Cert.ReferenceIdeal.RefRun

end
-- ==== Proof.Ref.Chain.lean ====
/- The reference program's buffer contents stage by stage: from any contents `V0`, the buffers a later stage (or the
   result) reads, each at its stage function of the arguments' contents; a buffer no stage writes keeps its contents. -/
import Idealize.ShloMosaic.Lib.Pipeline.Frame
import proofs.«154353_j88940182765819_1_alg».proof.Proof.Ref.Val1
import proofs.«154353_j88940182765819_1_alg».proof.Proof.Ref.Val2
import proofs.«154353_j88940182765819_1_alg».proof.Proof.Ref.Val3
import proofs.«154353_j88940182765819_1_alg».proof.Proof.Ref.Val4

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F] [Facts]

/-- The contents `V0` gives the TensorCore references. -/
abbrev argsOf (V0 : Valuation τ sig (Elt F)) : Args F := fun b => V0 (Proc.devRef .tc b)

/-- Every buffer some stage writes. -/
abbrev Wall : List (Ref sig .tc) := WRows ++ (WAggA1 ++ (WConvA1 ++ (WAggP1 ++ (WConvP1 ++ (WBnA1 ++ (WBnP1 ++ (WAggA2 ++ (WConvA2 ++ (WAggP2 ++ (WConvP2 ++ (WBnA2 ++ (WBnP2 ++ (WHeadA ++ (WHeadP))))))))))))))

set_option maxRecDepth 16384 in
theorem arg0_notW : main_arg0 ∉ (Wall) := by decide
set_option maxRecDepth 16384 in
theorem arg1_notW : main_arg1 ∉ (Wall) := by decide
set_option maxRecDepth 16384 in
theorem arg2_notW : main_arg2 ∉ (Wall) := by decide
set_option maxRecDepth 16384 in
theorem arg3_notW : main_arg3 ∉ (Wall) := by decide
set_option maxRecDepth 16384 in
theorem arg4_notW : main_arg4 ∉ (Wall) := by decide
set_option maxRecDepth 16384 in
theorem arg5_notW : main_arg5 ∉ (Wall) := by decide
set_option maxRecDepth 16384 in
theorem arg6_notW : main_arg6 ∉ (Wall) := by decide
set_option maxRecDepth 16384 in
theorem arg7_notW : main_arg7 ∉ (Wall) := by decide
set_option maxRecDepth 16384 in
theorem arg8_notW : main_arg8 ∉ (Wall) := by decide
set_option maxRecDepth 16384 in
theorem arg9_notW : main_arg9 ∉ (Wall) := by decide
set_option maxRecDepth 16384 in
theorem arg10_notW : main_arg10 ∉ (Wall) := by decide
set_option maxRecDepth 16384 in
theorem arg11_notW : main_arg11 ∉ (Wall) := by decide
set_option maxRecDepth 16384 in
theorem arg12_notW : main_arg12 ∉ (Wall) := by decide
set_option maxRecDepth 16384 in
theorem arg13_notW : main_arg13 ∉ (Wall) := by decide
set_option maxRecDepth 16384 in
theorem arg14_notW : main_arg14 ∉ (Wall) := by decide
set_option maxRecDepth 16384 in
theorem arg15_notW : main_arg15 ∉ (Wall) := by decide
set_option maxRecDepth 16384 in
theorem arg16_notW : main_arg16 ∉ (Wall) := by decide
set_option maxRecDepth 16384 in
theorem arg17_notW : main_arg17 ∉ (Wall) := by decide
set_option maxRecDepth 16384 in
theorem arg18_notW : main_arg18 ∉ (Wall) := by decide
set_option maxRecDepth 16384 in
theorem arg19_notW : main_arg19 ∉ (Wall) := by decide
set_option maxRecDepth 16384 in
theorem arg20_notW : main_arg20 ∉ (Wall) := by decide
set_option maxRecDepth 16384 in
theorem arg21_notW : main_arg21 ∉ (Wall) := by decide
set_option maxRecDepth 16384 in
theorem arg22_notW : main_arg22 ∉ (Wall) := by decide
set_option maxRecDepth 16384 in
theorem arg23_notW : main_arg23 ∉ (Wall) := by decide
set_option maxRecDepth 16384 in
theorem arg24_notW : main_arg24 ∉ (Wall) := by decide
set_option maxRecDepth 16384 in
theorem arg25_notW : main_arg25 ∉ (Wall) := by decide
set_option maxRecDepth 16384 in
theorem arg26_notW : main_arg26 ∉ (Wall) := by decide
set_option maxRecDepth 16384 in
theorem arg27_notW : main_arg27 ∉ (Wall) := by decide
set_option maxRecDepth 16384 in
theorem arg28_notW : main_arg28 ∉ (Wall) := by decide
set_option maxRecDepth 16384 in
theorem arg29_notW : main_arg29 ∉ (Wall) := by decide
set_option maxRecDepth 16384 in
theorem arg30_notW : main_arg30 ∉ (Wall) := by decide
set_option maxRecDepth 16384 in
theorem arg31_notW : main_arg31 ∉ (Wall) := by decide
set_option maxRecDepth 16384 in
theorem arg32_notW : main_arg32 ∉ (Wall) := by decide
set_option maxRecDepth 16384 in
theorem arg33_notW : main_arg33 ∉ (Wall) := by decide
set_option maxRecDepth 16384 in
theorem arg34_notW : main_arg34 ∉ (Wall) := by decide
set_option maxRecDepth 16384 in
theorem arg35_notW : main_arg35 ∉ (Wall) := by decide
set_option maxRecDepth 16384 in
theorem arg36_notW : main_arg36 ∉ (Wall) := by decide
set_option maxRecDepth 16384 in
theorem arg37_notW : main_arg37 ∉ (Wall) := by decide
set_option maxRecDepth 16384 in
theorem arg38_notW : main_arg38 ∉ (Wall) := by decide
set_option maxRecDepth 16384 in
theorem arg39_notW : main_arg39 ∉ (Wall) := by decide

/-! ## After stage Rows -/

/-- The buffers' contents after the first 1 stages. -/
def val1 (V0 : Valuation τ sig (Elt F)) : Valuation τ sig (Elt F) := after LRows V0
theorem val1_keep (V0 : Valuation τ sig (Elt F)) (r : Ref sig .tc) (h : r ∉ WRows) :
    val1 V0 (Proc.devRef .tc r) = V0 (Proc.devRef .tc r) := LRows_keep _ r h
theorem val1_arg (V0 : Valuation τ sig (Elt F)) (r : Ref sig .tc) (h : r ∉ (Wall)) :
    val1 V0 (Proc.devRef .tc r) = V0 (Proc.devRef .tc r) :=
  val1_keep V0 r (fun hk => h (List.mem_append_left _ hk))
set_option maxRecDepth 8192 in
theorem val1_main_v1 (V0 : Valuation τ sig (Elt F)) : val1 V0 (Proc.devRef .tc main_v1) = refRow0 (argsOf V0 main_arg2) := by
  unfold val1
  rw [LRows_main_v1] <;> rfl
set_option maxRecDepth 8192 in
theorem val1_main_v3 (V0 : Valuation τ sig (Elt F)) : val1 V0 (Proc.devRef .tc main_v3) = refRow1 (argsOf V0 main_arg2) := by
  unfold val1
  rw [LRows_main_v3] <;> rfl
set_option maxRecDepth 8192 in
theorem val1_main_v5 (V0 : Valuation τ sig (Elt F)) : val1 V0 (Proc.devRef .tc main_v5) = refRow0 (argsOf V0 main_arg3) := by
  unfold val1
  rw [LRows_main_v5] <;> rfl
set_option maxRecDepth 8192 in
theorem val1_main_v7 (V0 : Valuation τ sig (Elt F)) : val1 V0 (Proc.devRef .tc main_v7) = refRow1 (argsOf V0 main_arg3) := by
  unfold val1
  rw [LRows_main_v7] <;> rfl

/-! ## After stage AggA1 -/

/-- The buffers' contents after the first 2 stages. -/
def val2 (V0 : Valuation τ sig (Elt F)) : Valuation τ sig (Elt F) := after LAggA1 (val1 V0)
theorem val2_keep (V0 : Valuation τ sig (Elt F)) (r : Ref sig .tc) (h : r ∉ WAggA1) :
    val2 V0 (Proc.devRef .tc r) = val1 V0 (Proc.devRef .tc r) := LAggA1_keep _ r h
theorem val2_arg (V0 : Valuation τ sig (Elt F)) (r : Ref sig .tc) (h : r ∉ (Wall)) :
    val2 V0 (Proc.devRef .tc r) = V0 (Proc.devRef .tc r) :=
  (val2_keep V0 r (fun hk => h (List.mem_append_right _ (List.mem_append_left _ hk)))).trans (val1_arg V0 r h)
set_option maxRecDepth 8192 in
theorem val2_main_v26 (V0 : Valuation τ sig (Elt F)) : val2 V0 (Proc.devRef .tc main_v26) = refAgg128 (argsOf V0 main_arg1) (argsOf V0 main_arg2) := by
  unfold val2
  rw [LAggA1_main_v26]
  rw [val1_main_v1 V0, val1_arg V0 main_arg1 arg1_notW, val1_main_v3 V0] <;> rfl
theorem val2_main_v1 (V0 : Valuation τ sig (Elt F)) : val2 V0 (Proc.devRef .tc main_v1) = refRow0 (argsOf V0 main_arg2) :=
  (val2_keep V0 main_v1 (by decide)).trans (val1_main_v1 V0)
theorem val2_main_v3 (V0 : Valuation τ sig (Elt F)) : val2 V0 (Proc.devRef .tc main_v3) = refRow1 (argsOf V0 main_arg2) :=
  (val2_keep V0 main_v3 (by decide)).trans (val1_main_v3 V0)
theorem val2_main_v5 (V0 : Valuation τ sig (Elt F)) : val2 V0 (Proc.devRef .tc main_v5) = refRow0 (argsOf V0 main_arg3) :=
  (val2_keep V0 main_v5 (by decide)).trans (val1_main_v5 V0)
theorem val2_main_v7 (V0 : Valuation τ sig (Elt F)) : val2 V0 (Proc.devRef .tc main_v7) = refRow1 (argsOf V0 main_arg3) :=
  (val2_keep V0 main_v7 (by decide)).trans (val1_main_v7 V0)

/-! ## After stage ConvA1 -/

/-- The buffers' contents after the first 3 stages. -/
def val3 (V0 : Valuation τ sig (Elt F)) : Valuation τ sig (Elt F) := after LConvA1 (val2 V0)
theorem val3_keep (V0 : Valuation τ sig (Elt F)) (r : Ref sig .tc) (h : r ∉ WConvA1) :
    val3 V0 (Proc.devRef .tc r) = val2 V0 (Proc.devRef .tc r) := LConvA1_keep _ r h
theorem val3_arg (V0 : Valuation τ sig (Elt F)) (r : Ref sig .tc) (h : r ∉ (Wall)) :
    val3 V0 (Proc.devRef .tc r) = V0 (Proc.devRef .tc r) :=
  (val3_keep V0 r (fun hk => h (List.mem_append_right _ (List.mem_append_right _ (List.mem_append_left _ hk))))).trans (val2_arg V0 r h)
set_option maxRecDepth 8192 in
theorem val3_main_v39 (V0 : Valuation τ sig (Elt F)) : val3 V0 (Proc.devRef .tc main_v39) = refConv dot_S100000x256_S256x128_S100000x128_1_0_0_1_n_n dot_S100000x128_S128x128_S100000x128_1_0_0_1_n_n (argsOf V0 main_arg0) (refAgg128 (argsOf V0 main_arg1) (argsOf V0 main_arg2)) (argsOf V0 main_arg6) (argsOf V0 main_arg7) (argsOf V0 main_arg4) (argsOf V0 main_arg5) (argsOf V0 main_arg8) (argsOf V0 main_arg9) := by
  unfold val3
  rw [LConvA1_main_v39]
  rw [val2_arg V0 main_arg0 arg0_notW, val2_arg V0 main_arg6 arg6_notW, val2_arg V0 main_arg7 arg7_notW, val2_main_v26 V0, val2_arg V0 main_arg4 arg4_notW, val2_arg V0 main_arg5 arg5_notW, val2_arg V0 main_arg8 arg8_notW, val2_arg V0 main_arg9 arg9_notW] <;> rfl
theorem val3_main_v1 (V0 : Valuation τ sig (Elt F)) : val3 V0 (Proc.devRef .tc main_v1) = refRow0 (argsOf V0 main_arg2) :=
  (val3_keep V0 main_v1 (by decide)).trans (val2_main_v1 V0)
theorem val3_main_v3 (V0 : Valuation τ sig (Elt F)) : val3 V0 (Proc.devRef .tc main_v3) = refRow1 (argsOf V0 main_arg2) :=
  (val3_keep V0 main_v3 (by decide)).trans (val2_main_v3 V0)
theorem val3_main_v5 (V0 : Valuation τ sig (Elt F)) : val3 V0 (Proc.devRef .tc main_v5) = refRow0 (argsOf V0 main_arg3) :=
  (val3_keep V0 main_v5 (by decide)).trans (val2_main_v5 V0)
theorem val3_main_v7 (V0 : Valuation τ sig (Elt F)) : val3 V0 (Proc.devRef .tc main_v7) = refRow1 (argsOf V0 main_arg3) :=
  (val3_keep V0 main_v7 (by decide)).trans (val2_main_v7 V0)

/-! ## After stage AggP1 -/

/-- The buffers' contents after the first 4 stages. -/
def val4 (V0 : Valuation τ sig (Elt F)) : Valuation τ sig (Elt F) := after LAggP1 (val3 V0)
theorem val4_keep (V0 : Valuation τ sig (Elt F)) (r : Ref sig .tc) (h : r ∉ WAggP1) :
    val4 V0 (Proc.devRef .tc r) = val3 V0 (Proc.devRef .tc r) := LAggP1_keep _ r h
theorem val4_arg (V0 : Valuation τ sig (Elt F)) (r : Ref sig .tc) (h : r ∉ (Wall)) :
    val4 V0 (Proc.devRef .tc r) = V0 (Proc.devRef .tc r) :=
  (val4_keep V0 r (fun hk => h (List.mem_append_right _ (List.mem_append_right _ (List.mem_append_right _ (List.mem_append_left _ hk)))))).trans (val3_arg V0 r h)
set_option maxRecDepth 8192 in
theorem val4_main_v58 (V0 : Valuation τ sig (Elt F)) : val4 V0 (Proc.devRef .tc main_v58) = refAgg256 (argsOf V0 main_arg0) (argsOf V0 main_arg3) := by
  unfold val4
  rw [LAggP1_main_v58]
  rw [val3_main_v5 V0, val3_arg V0 main_arg0 arg0_notW, val3_main_v7 V0] <;> rfl
theorem val4_main_v1 (V0 : Valuation τ sig (Elt F)) : val4 V0 (Proc.devRef .tc main_v1) = refRow0 (argsOf V0 main_arg2) :=
  (val4_keep V0 main_v1 (by decide)).trans (val3_main_v1 V0)
theorem val4_main_v3 (V0 : Valuation τ sig (Elt F)) : val4 V0 (Proc.devRef .tc main_v3) = refRow1 (argsOf V0 main_arg2) :=
  (val4_keep V0 main_v3 (by decide)).trans (val3_main_v3 V0)
theorem val4_main_v5 (V0 : Valuation τ sig (Elt F)) : val4 V0 (Proc.devRef .tc main_v5) = refRow0 (argsOf V0 main_arg3) :=
  (val4_keep V0 main_v5 (by decide)).trans (val3_main_v5 V0)
theorem val4_main_v7 (V0 : Valuation τ sig (Elt F)) : val4 V0 (Proc.devRef .tc main_v7) = refRow1 (argsOf V0 main_arg3) :=
  (val4_keep V0 main_v7 (by decide)).trans (val3_main_v7 V0)
theorem val4_main_v39 (V0 : Valuation τ sig (Elt F)) : val4 V0 (Proc.devRef .tc main_v39) = refConv dot_S100000x256_S256x128_S100000x128_1_0_0_1_n_n dot_S100000x128_S128x128_S100000x128_1_0_0_1_n_n (argsOf V0 main_arg0) (refAgg128 (argsOf V0 main_arg1) (argsOf V0 main_arg2)) (argsOf V0 main_arg6) (argsOf V0 main_arg7) (argsOf V0 main_arg4) (argsOf V0 main_arg5) (argsOf V0 main_arg8) (argsOf V0 main_arg9) :=
  (val4_keep V0 main_v39 (by decide)).trans (val3_main_v39 V0)

/-! ## After stage ConvP1 -/

/-- The buffers' contents after the first 5 stages. -/
def val5 (V0 : Valuation τ sig (Elt F)) : Valuation τ sig (Elt F) := after LConvP1 (val4 V0)
theorem val5_keep (V0 : Valuation τ sig (Elt F)) (r : Ref sig .tc) (h : r ∉ WConvP1) :
    val5 V0 (Proc.devRef .tc r) = val4 V0 (Proc.devRef .tc r) := LConvP1_keep _ r h
theorem val5_arg (V0 : Valuation τ sig (Elt F)) (r : Ref sig .tc) (h : r ∉ (Wall)) :
    val5 V0 (Proc.devRef .tc r) = V0 (Proc.devRef .tc r) :=
  (val5_keep V0 r (fun hk => h (List.mem_append_right _ (List.mem_append_right _ (List.mem_append_right _ (List.mem_append_right _ (List.mem_append_left _ hk))))))).trans (val4_arg V0 r h)
set_option maxRecDepth 8192 in
theorem val5_main_v71 (V0 : Valuation τ sig (Elt F)) : val5 V0 (Proc.devRef .tc main_v71) = refConv dot_S100000x128_S128x128_S100000x128_1_0_0_1_n_n dot_S100000x256_S256x128_S100000x128_1_0_0_1_n_n (argsOf V0 main_arg1) (refAgg256 (argsOf V0 main_arg0) (argsOf V0 main_arg3)) (argsOf V0 main_arg12) (argsOf V0 main_arg13) (argsOf V0 main_arg10) (argsOf V0 main_arg11) (argsOf V0 main_arg14) (argsOf V0 main_arg15) := by
  unfold val5
  rw [LConvP1_main_v71]
  rw [val4_arg V0 main_arg1 arg1_notW, val4_arg V0 main_arg12 arg12_notW, val4_arg V0 main_arg13 arg13_notW, val4_main_v58 V0, val4_arg V0 main_arg10 arg10_notW, val4_arg V0 main_arg11 arg11_notW, val4_arg V0 main_arg14 arg14_notW, val4_arg V0 main_arg15 arg15_notW] <;> rfl
theorem val5_main_v1 (V0 : Valuation τ sig (Elt F)) : val5 V0 (Proc.devRef .tc main_v1) = refRow0 (argsOf V0 main_arg2) :=
  (val5_keep V0 main_v1 (by decide)).trans (val4_main_v1 V0)
theorem val5_main_v3 (V0 : Valuation τ sig (Elt F)) : val5 V0 (Proc.devRef .tc main_v3) = refRow1 (argsOf V0 main_arg2) :=
  (val5_keep V0 main_v3 (by decide)).trans (val4_main_v3 V0)
theorem val5_main_v5 (V0 : Valuation τ sig (Elt F)) : val5 V0 (Proc.devRef .tc main_v5) = refRow0 (argsOf V0 main_arg3) :=
  (val5_keep V0 main_v5 (by decide)).trans (val4_main_v5 V0)
theorem val5_main_v7 (V0 : Valuation τ sig (Elt F)) : val5 V0 (Proc.devRef .tc main_v7) = refRow1 (argsOf V0 main_arg3) :=
  (val5_keep V0 main_v7 (by decide)).trans (val4_main_v7 V0)
theorem val5_main_v39 (V0 : Valuation τ sig (Elt F)) : val5 V0 (Proc.devRef .tc main_v39) = refConv dot_S100000x256_S256x128_S100000x128_1_0_0_1_n_n dot_S100000x128_S128x128_S100000x128_1_0_0_1_n_n (argsOf V0 main_arg0) (refAgg128 (argsOf V0 main_arg1) (argsOf V0 main_arg2)) (argsOf V0 main_arg6) (argsOf V0 main_arg7) (argsOf V0 main_arg4) (argsOf V0 main_arg5) (argsOf V0 main_arg8) (argsOf V0 main_arg9) :=
  (val5_keep V0 main_v39 (by decide)).trans (val4_main_v39 V0)

/-! ## After stage BnA1 -/

/-- The buffers' contents after the first 6 stages. -/
def val6 (V0 : Valuation τ sig (Elt F)) : Valuation τ sig (Elt F) := after LBnA1 (val5 V0)
theorem val6_keep (V0 : Valuation τ sig (Elt F)) (r : Ref sig .tc) (h : r ∉ WBnA1) :
    val6 V0 (Proc.devRef .tc r) = val5 V0 (Proc.devRef .tc r) := LBnA1_keep _ r h
theorem val6_arg (V0 : Valuation τ sig (Elt F)) (r : Ref sig .tc) (h : r ∉ (Wall)) :
    val6 V0 (Proc.devRef .tc r) = V0 (Proc.devRef .tc r) :=
  (val6_keep V0 r (fun hk => h (List.mem_append_right _ (List.mem_append_right _ (List.mem_append_right _ (List.mem_append_right _ (List.mem_append_right _ (List.mem_append_left _ hk)))))))).trans (val5_arg V0 r h)
set_option maxRecDepth 8192 in
theorem val6_main_v95 (V0 : Valuation τ sig (Elt F)) : val6 V0 (Proc.devRef .tc main_v95) = hA1 (argsOf V0) := by
  unfold val6
  rw [LBnA1_main_v95]
  rw [val5_main_v39 V0, val5_arg V0 main_arg28 arg28_notW, val5_arg V0 main_arg29 arg29_notW] <;> rfl
theorem val6_main_v1 (V0 : Valuation τ sig (Elt F)) : val6 V0 (Proc.devRef .tc main_v1) = refRow0 (argsOf V0 main_arg2) :=
  (val6_keep V0 main_v1 (by decide)).trans (val5_main_v1 V0)
theorem val6_main_v3 (V0 : Valuation τ sig (Elt F)) : val6 V0 (Proc.devRef .tc main_v3) = refRow1 (argsOf V0 main_arg2) :=
  (val6_keep V0 main_v3 (by decide)).trans (val5_main_v3 V0)
theorem val6_main_v5 (V0 : Valuation τ sig (Elt F)) : val6 V0 (Proc.devRef .tc main_v5) = refRow0 (argsOf V0 main_arg3) :=
  (val6_keep V0 main_v5 (by decide)).trans (val5_main_v5 V0)
theorem val6_main_v7 (V0 : Valuation τ sig (Elt F)) : val6 V0 (Proc.devRef .tc main_v7) = refRow1 (argsOf V0 main_arg3) :=
  (val6_keep V0 main_v7 (by decide)).trans (val5_main_v7 V0)
theorem val6_main_v71 (V0 : Valuation τ sig (Elt F)) : val6 V0 (Proc.devRef .tc main_v71) = refConv dot_S100000x128_S128x128_S100000x128_1_0_0_1_n_n dot_S100000x256_S256x128_S100000x128_1_0_0_1_n_n (argsOf V0 main_arg1) (refAgg256 (argsOf V0 main_arg0) (argsOf V0 main_arg3)) (argsOf V0 main_arg12) (argsOf V0 main_arg13) (argsOf V0 main_arg10) (argsOf V0 main_arg11) (argsOf V0 main_arg14) (argsOf V0 main_arg15) :=
  (val6_keep V0 main_v71 (by decide)).trans (val5_main_v71 V0)

/-! ## After stage BnP1 -/

/-- The buffers' contents after the first 7 stages. -/
def val7 (V0 : Valuation τ sig (Elt F)) : Valuation τ sig (Elt F) := after LBnP1 (val6 V0)
theorem val7_keep (V0 : Valuation τ sig (Elt F)) (r : Ref sig .tc) (h : r ∉ WBnP1) :
    val7 V0 (Proc.devRef .tc r) = val6 V0 (Proc.devRef .tc r) := LBnP1_keep _ r h
theorem val7_arg (V0 : Valuation τ sig (Elt F)) (r : Ref sig .tc) (h : r ∉ (Wall)) :
    val7 V0 (Proc.devRef .tc r) = V0 (Proc.devRef .tc r) :=
  (val7_keep V0 r (fun hk => h (List.mem_append_right _ (List.mem_append_right _ (List.mem_append_right _ (List.mem_append_right _ (List.mem_append_right _ (List.mem_append_right _ (List.mem_append_left _ hk))))))))).trans (val6_arg V0 r h)
set_option maxRecDepth 8192 in
theorem val7_main_v119 (V0 : Valuation τ sig (Elt F)) : val7 V0 (Proc.devRef .tc main_v119) = hP1 (argsOf V0) := by
  unfold val7
  rw [LBnP1_main_v119]
  rw [val6_main_v71 V0, val6_arg V0 main_arg30 arg30_notW, val6_arg V0 main_arg31 arg31_notW] <;> rfl
theorem val7_main_v1 (V0 : Valuation τ sig (Elt F)) : val7 V0 (Proc.devRef .tc main_v1) = refRow0 (argsOf V0 main_arg2) :=
  (val7_keep V0 main_v1 (by decide)).trans (val6_main_v1 V0)
theorem val7_main_v3 (V0 : Valuation τ sig (Elt F)) : val7 V0 (Proc.devRef .tc main_v3) = refRow1 (argsOf V0 main_arg2) :=
  (val7_keep V0 main_v3 (by decide)).trans (val6_main_v3 V0)
theorem val7_main_v5 (V0 : Valuation τ sig (Elt F)) : val7 V0 (Proc.devRef .tc main_v5) = refRow0 (argsOf V0 main_arg3) :=
  (val7_keep V0 main_v5 (by decide)).trans (val6_main_v5 V0)
theorem val7_main_v7 (V0 : Valuation τ sig (Elt F)) : val7 V0 (Proc.devRef .tc main_v7) = refRow1 (argsOf V0 main_arg3) :=
  (val7_keep V0 main_v7 (by decide)).trans (val6_main_v7 V0)
theorem val7_main_v95 (V0 : Valuation τ sig (Elt F)) : val7 V0 (Proc.devRef .tc main_v95) = hA1 (argsOf V0) :=
  (val7_keep V0 main_v95 (by decide)).trans (val6_main_v95 V0)

/-! ## After stage AggA2 -/

/-- The buffers' contents after the first 8 stages. -/
def val8 (V0 : Valuation τ sig (Elt F)) : Valuation τ sig (Elt F) := after LAggA2 (val7 V0)
theorem val8_keep (V0 : Valuation τ sig (Elt F)) (r : Ref sig .tc) (h : r ∉ WAggA2) :
    val8 V0 (Proc.devRef .tc r) = val7 V0 (Proc.devRef .tc r) := LAggA2_keep _ r h
theorem val8_arg (V0 : Valuation τ sig (Elt F)) (r : Ref sig .tc) (h : r ∉ (Wall)) :
    val8 V0 (Proc.devRef .tc r) = V0 (Proc.devRef .tc r) :=
  (val8_keep V0 r (fun hk => h (List.mem_append_right _ (List.mem_append_right _ (List.mem_append_right _ (List.mem_append_right _ (List.mem_append_right _ (List.mem_append_right _ (List.mem_append_right _ (List.mem_append_left _ hk)))))))))).trans (val7_arg V0 r h)
set_option maxRecDepth 8192 in
theorem val8_main_v138 (V0 : Valuation τ sig (Elt F)) : val8 V0 (Proc.devRef .tc main_v138) = refAgg128 (hP1 (argsOf V0)) (argsOf V0 main_arg2) := by
  unfold val8
  rw [LAggA2_main_v138]
  rw [val7_main_v1 V0, val7_main_v119 V0, val7_main_v3 V0] <;> rfl
theorem val8_main_v5 (V0 : Valuation τ sig (Elt F)) : val8 V0 (Proc.devRef .tc main_v5) = refRow0 (argsOf V0 main_arg3) :=
  (val8_keep V0 main_v5 (by decide)).trans (val7_main_v5 V0)
theorem val8_main_v7 (V0 : Valuation τ sig (Elt F)) : val8 V0 (Proc.devRef .tc main_v7) = refRow1 (argsOf V0 main_arg3) :=
  (val8_keep V0 main_v7 (by decide)).trans (val7_main_v7 V0)
theorem val8_main_v95 (V0 : Valuation τ sig (Elt F)) : val8 V0 (Proc.devRef .tc main_v95) = hA1 (argsOf V0) :=
  (val8_keep V0 main_v95 (by decide)).trans (val7_main_v95 V0)
theorem val8_main_v119 (V0 : Valuation τ sig (Elt F)) : val8 V0 (Proc.devRef .tc main_v119) = hP1 (argsOf V0) :=
  (val8_keep V0 main_v119 (by decide)).trans (val7_main_v119 V0)

/-! ## After stage ConvA2 -/

/-- The buffers' contents after the first 9 stages. -/
def val9 (V0 : Valuation τ sig (Elt F)) : Valuation τ sig (Elt F) := after LConvA2 (val8 V0)
theorem val9_keep (V0 : Valuation τ sig (Elt F)) (r : Ref sig .tc) (h : r ∉ WConvA2) :
    val9 V0 (Proc.devRef .tc r) = val8 V0 (Proc.devRef .tc r) := LConvA2_keep _ r h
theorem val9_arg (V0 : Valuation τ sig (Elt F)) (r : Ref sig .tc) (h : r ∉ (Wall)) :
    val9 V0 (Proc.devRef .tc r) = V0 (Proc.devRef .tc r) :=
  (val9_keep V0 r (fun hk => h (List.mem_append_right _ (List.mem_append_right _ (List.mem_append_right _ (List.mem_append_right _ (List.mem_append_right _ (List.mem_append_right _ (List.mem_append_right _ (List.mem_append_right _ (List.mem_append_left _ hk))))))))))).trans (val8_arg V0 r h)
set_option maxRecDepth 8192 in
theorem val9_main_v151 (V0 : Valuation τ sig (Elt F)) : val9 V0 (Proc.devRef .tc main_v151) = refConv dot_S100000x128_S128x128_S100000x128_1_0_0_1_n_n dot_S100000x128_S128x128_S100000x128_1_0_0_1_n_n (hA1 (argsOf V0)) (refAgg128 (hP1 (argsOf V0)) (argsOf V0 main_arg2)) (argsOf V0 main_arg18) (argsOf V0 main_arg19) (argsOf V0 main_arg16) (argsOf V0 main_arg17) (argsOf V0 main_arg20) (argsOf V0 main_arg21) := by
  unfold val9
  rw [LConvA2_main_v151]
  rw [val8_main_v95 V0, val8_arg V0 main_arg18 arg18_notW, val8_arg V0 main_arg19 arg19_notW, val8_main_v138 V0, val8_arg V0 main_arg16 arg16_notW, val8_arg V0 main_arg17 arg17_notW, val8_arg V0 main_arg20 arg20_notW, val8_arg V0 main_arg21 arg21_notW] <;> rfl
theorem val9_main_v5 (V0 : Valuation τ sig (Elt F)) : val9 V0 (Proc.devRef .tc main_v5) = refRow0 (argsOf V0 main_arg3) :=
  (val9_keep V0 main_v5 (by decide)).trans (val8_main_v5 V0)
theorem val9_main_v7 (V0 : Valuation τ sig (Elt F)) : val9 V0 (Proc.devRef .tc main_v7) = refRow1 (argsOf V0 main_arg3) :=
  (val9_keep V0 main_v7 (by decide)).trans (val8_main_v7 V0)
theorem val9_main_v95 (V0 : Valuation τ sig (Elt F)) : val9 V0 (Proc.devRef .tc main_v95) = hA1 (argsOf V0) :=
  (val9_keep V0 main_v95 (by decide)).trans (val8_main_v95 V0)
theorem val9_main_v119 (V0 : Valuation τ sig (Elt F)) : val9 V0 (Proc.devRef .tc main_v119) = hP1 (argsOf V0) :=
  (val9_keep V0 main_v119 (by decide)).trans (val8_main_v119 V0)

/-! ## After stage AggP2 -/

/-- The buffers' contents after the first 10 stages. -/
def val10 (V0 : Valuation τ sig (Elt F)) : Valuation τ sig (Elt F) := after LAggP2 (val9 V0)
theorem val10_keep (V0 : Valuation τ sig (Elt F)) (r : Ref sig .tc) (h : r ∉ WAggP2) :
    val10 V0 (Proc.devRef .tc r) = val9 V0 (Proc.devRef .tc r) := LAggP2_keep _ r h
theorem val10_arg (V0 : Valuation τ sig (Elt F)) (r : Ref sig .tc) (h : r ∉ (Wall)) :
    val10 V0 (Proc.devRef .tc r) = V0 (Proc.devRef .tc r) :=
  (val10_keep V0 r (fun hk => h (List.mem_append_right _ (List.mem_append_right _ (List.mem_append_right _ (List.mem_append_right _ (List.mem_append_right _ (List.mem_append_right _ (List.mem_append_right _ (List.mem_append_right _ (List.mem_append_right _ (List.mem_append_left _ hk)))))))))))).trans (val9_arg V0 r h)
set_option maxRecDepth 8192 in
theorem val10_main_v170 (V0 : Valuation τ sig (Elt F)) : val10 V0 (Proc.devRef .tc main_v170) = refAgg128 (hA1 (argsOf V0)) (argsOf V0 main_arg3) := by
  unfold val10
  rw [LAggP2_main_v170]
  rw [val9_main_v5 V0, val9_main_v95 V0, val9_main_v7 V0] <;> rfl
theorem val10_main_v119 (V0 : Valuation τ sig (Elt F)) : val10 V0 (Proc.devRef .tc main_v119) = hP1 (argsOf V0) :=
  (val10_keep V0 main_v119 (by decide)).trans (val9_main_v119 V0)
theorem val10_main_v151 (V0 : Valuation τ sig (Elt F)) : val10 V0 (Proc.devRef .tc main_v151) = refConv dot_S100000x128_S128x128_S100000x128_1_0_0_1_n_n dot_S100000x128_S128x128_S100000x128_1_0_0_1_n_n (hA1 (argsOf V0)) (refAgg128 (hP1 (argsOf V0)) (argsOf V0 main_arg2)) (argsOf V0 main_arg18) (argsOf V0 main_arg19) (argsOf V0 main_arg16) (argsOf V0 main_arg17) (argsOf V0 main_arg20) (argsOf V0 main_arg21) :=
  (val10_keep V0 main_v151 (by decide)).trans (val9_main_v151 V0)

/-! ## After stage ConvP2 -/

/-- The buffers' contents after the first 11 stages. -/
def val11 (V0 : Valuation τ sig (Elt F)) : Valuation τ sig (Elt F) := after LConvP2 (val10 V0)
theorem val11_keep (V0 : Valuation τ sig (Elt F)) (r : Ref sig .tc) (h : r ∉ WConvP2) :
    val11 V0 (Proc.devRef .tc r) = val10 V0 (Proc.devRef .tc r) := LConvP2_keep _ r h
theorem val11_arg (V0 : Valuation τ sig (Elt F)) (r : Ref sig .tc) (h : r ∉ (Wall)) :
    val11 V0 (Proc.devRef .tc r) = V0 (Proc.devRef .tc r) :=
  (val11_keep V0 r (fun hk => h (List.mem_append_right _ (List.mem_append_right _ (List.mem_append_right _ (List.mem_append_right _ (List.mem_append_right _ (List.mem_append_right _ (List.mem_append_right _ (List.mem_append_right _ (List.mem_append_right _ (List.mem_append_right _ (List.mem_append_left _ hk))))))))))))).trans (val10_arg V0 r h)
set_option maxRecDepth 8192 in
theorem val11_main_v183 (V0 : Valuation τ sig (Elt F)) : val11 V0 (Proc.devRef .tc main_v183) = refConv dot_S100000x128_S128x128_S100000x128_1_0_0_1_n_n dot_S100000x128_S128x128_S100000x128_1_0_0_1_n_n (hP1 (argsOf V0)) (refAgg128 (hA1 (argsOf V0)) (argsOf V0 main_arg3)) (argsOf V0 main_arg24) (argsOf V0 main_arg25) (argsOf V0 main_arg22) (argsOf V0 main_arg23) (argsOf V0 main_arg26) (argsOf V0 main_arg27) := by
  unfold val11
  rw [LConvP2_main_v183]
  rw [val10_main_v119 V0, val10_arg V0 main_arg24 arg24_notW, val10_arg V0 main_arg25 arg25_notW, val10_main_v170 V0, val10_arg V0 main_arg22 arg22_notW, val10_arg V0 main_arg23 arg23_notW, val10_arg V0 main_arg26 arg26_notW, val10_arg V0 main_arg27 arg27_notW] <;> rfl
theorem val11_main_v151 (V0 : Valuation τ sig (Elt F)) : val11 V0 (Proc.devRef .tc main_v151) = refConv dot_S100000x128_S128x128_S100000x128_1_0_0_1_n_n dot_S100000x128_S128x128_S100000x128_1_0_0_1_n_n (hA1 (argsOf V0)) (refAgg128 (hP1 (argsOf V0)) (argsOf V0 main_arg2)) (argsOf V0 main_arg18) (argsOf V0 main_arg19) (argsOf V0 main_arg16) (argsOf V0 main_arg17) (argsOf V0 main_arg20) (argsOf V0 main_arg21) :=
  (val11_keep V0 main_v151 (by decide)).trans (val10_main_v151 V0)

/-! ## After stage BnA2 -/

/-- The buffers' contents after the first 12 stages. -/
def val12 (V0 : Valuation τ sig (Elt F)) : Valuation τ sig (Elt F) := after LBnA2 (val11 V0)
theorem val12_keep (V0 : Valuation τ sig (Elt F)) (r : Ref sig .tc) (h : r ∉ WBnA2) :
    val12 V0 (Proc.devRef .tc r) = val11 V0 (Proc.devRef .tc r) := LBnA2_keep _ r h
theorem val12_arg (V0 : Valuation τ sig (Elt F)) (r : Ref sig .tc) (h : r ∉ (Wall)) :
    val12 V0 (Proc.devRef .tc r) = V0 (Proc.devRef .tc r) :=
  (val12_keep V0 r (fun hk => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hk)))))))))))))).trans (val11_arg V0 r h)
set_option maxRecDepth 8192 in
theorem val12_main_v207 (V0 : Valuation τ sig (Elt F)) : val12 V0 (Proc.devRef .tc main_v207) = hA2 (argsOf V0) := by
  unfold val12
  rw [LBnA2_main_v207]
  rw [val11_main_v151 V0, val11_arg V0 main_arg32 arg32_notW, val11_arg V0 main_arg33 arg33_notW] <;> rfl
theorem val12_main_v183 (V0 : Valuation τ sig (Elt F)) : val12 V0 (Proc.devRef .tc main_v183) = refConv dot_S100000x128_S128x128_S100000x128_1_0_0_1_n_n dot_S100000x128_S128x128_S100000x128_1_0_0_1_n_n (hP1 (argsOf V0)) (refAgg128 (hA1 (argsOf V0)) (argsOf V0 main_arg3)) (argsOf V0 main_arg24) (argsOf V0 main_arg25) (argsOf V0 main_arg22) (argsOf V0 main_arg23) (argsOf V0 main_arg26) (argsOf V0 main_arg27) :=
  (val12_keep V0 main_v183 (by decide)).trans (val11_main_v183 V0)

/-! ## After stage BnP2 -/

/-- The buffers' contents after the first 13 stages. -/
def val13 (V0 : Valuation τ sig (Elt F)) : Valuation τ sig (Elt F) := after LBnP2 (val12 V0)
theorem val13_keep (V0 : Valuation τ sig (Elt F)) (r : Ref sig .tc) (h : r ∉ WBnP2) :
    val13 V0 (Proc.devRef .tc r) = val12 V0 (Proc.devRef .tc r) := LBnP2_keep _ r h
theorem val13_arg (V0 : Valuation τ sig (Elt F)) (r : Ref sig .tc) (h : r ∉ (Wall)) :
    val13 V0 (Proc.devRef .tc r) = V0 (Proc.devRef .tc r) :=
  (val13_keep V0 r (fun hk => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hk))))))))))))))).trans (val12_arg V0 r h)
set_option maxRecDepth 8192 in
theorem val13_main_v231 (V0 : Valuation τ sig (Elt F)) : val13 V0 (Proc.devRef .tc main_v231) = hP2 (argsOf V0) := by
  unfold val13
  rw [LBnP2_main_v231]
  rw [val12_main_v183 V0, val12_arg V0 main_arg34 arg34_notW, val12_arg V0 main_arg35 arg35_notW] <;> rfl
theorem val13_main_v207 (V0 : Valuation τ sig (Elt F)) : val13 V0 (Proc.devRef .tc main_v207) = hA2 (argsOf V0) :=
  (val13_keep V0 main_v207 (by decide)).trans (val12_main_v207 V0)

/-! ## After stage HeadA -/

/-- The buffers' contents after the first 14 stages. -/
def val14 (V0 : Valuation τ sig (Elt F)) : Valuation τ sig (Elt F) := after LHeadA (val13 V0)
theorem val14_keep (V0 : Valuation τ sig (Elt F)) (r : Ref sig .tc) (h : r ∉ WHeadA) :
    val14 V0 (Proc.devRef .tc r) = val13 V0 (Proc.devRef .tc r) := LHeadA_keep _ r h
theorem val14_arg (V0 : Valuation τ sig (Elt F)) (r : Ref sig .tc) (h : r ∉ (Wall)) :
    val14 V0 (Proc.devRef .tc r) = V0 (Proc.devRef .tc r) :=
  (val14_keep V0 r (fun hk => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hk)))))))))))))))).trans (val13_arg V0 r h)
set_option maxRecDepth 8192 in
theorem val14_main_v235 (V0 : Valuation τ sig (Elt F)) : val14 V0 (Proc.devRef .tc main_v235) = outA (argsOf V0) := by
  unfold val14
  rw [LHeadA_main_v235]
  rw [val13_main_v207 V0, val13_arg V0 main_arg36 arg36_notW, val13_arg V0 main_arg37 arg37_notW] <;> rfl
theorem val14_main_v231 (V0 : Valuation τ sig (Elt F)) : val14 V0 (Proc.devRef .tc main_v231) = hP2 (argsOf V0) :=
  (val14_keep V0 main_v231 (by decide)).trans (val13_main_v231 V0)

/-! ## After stage HeadP -/

/-- The buffers' contents after the first 15 stages. -/
def val15 (V0 : Valuation τ sig (Elt F)) : Valuation τ sig (Elt F) := after LHeadP (val14 V0)
theorem val15_keep (V0 : Valuation τ sig (Elt F)) (r : Ref sig .tc) (h : r ∉ WHeadP) :
    val15 V0 (Proc.devRef .tc r) = val14 V0 (Proc.devRef .tc r) := LHeadP_keep _ r h
theorem val15_arg (V0 : Valuation τ sig (Elt F)) (r : Ref sig .tc) (h : r ∉ (Wall)) :
    val15 V0 (Proc.devRef .tc r) = V0 (Proc.devRef .tc r) :=
  (val15_keep V0 r (fun hk => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (hk))))))))))))))))).trans (val14_arg V0 r h)
set_option maxRecDepth 8192 in
theorem val15_main_v239 (V0 : Valuation τ sig (Elt F)) : val15 V0 (Proc.devRef .tc main_v239) = outP (argsOf V0) := by
  unfold val15
  rw [LHeadP_main_v239]
  rw [val14_main_v231 V0, val14_arg V0 main_arg38 arg38_notW, val14_arg V0 main_arg39 arg39_notW] <;> rfl
theorem val15_main_v235 (V0 : Valuation τ sig (Elt F)) : val15 V0 (Proc.devRef .tc main_v235) = outA (argsOf V0) :=
  (val15_keep V0 main_v235 (by decide)).trans (val14_main_v235 V0)

/-- The contents after all of @main's operations are those after the fifteen stages: the same pieces, regrouped. -/
theorem after_ops (V0 : Valuation τ sig (Elt F)) : after ops V0 = val15 V0 := by
  simp only [ops, ops_part0, ops_part1, ops_part2, ops_part3, ops_part4, val1, val2, val3, val4, val5, val6, val7, val8, val9, val10, val11, val12, val13, val14, val15, LRows, LAggA1, LConvA1, LAggP1, LConvP1, LBnA1, LBnP1, LAggA2, LConvA2, LAggP2, LConvP2, LBnA2, LBnP2, LHeadA, LHeadP, after_append]

end Cert.ReferenceIdeal.RefRun

end
-- ==== Proof.Ref.Run.lean ====
/- The reference program's run, read back: every weakly fair execution of @main terminates, each of its two result
   buffers holds the network's stage functions (Ref/Stages) composed over the arguments' launch contents, and every
   argument buffer is unchanged. The frame conjunct of the reference is the last forty conjuncts. -/
import proofs.«154353_j88940182765819_1_alg».proof.Proof.Ref.Chain
import proofs.«154353_j88940182765819_1_alg».proof.Proof.Gen.ReferenceIdeal
import proofs.«154353_j88940182765819_1_alg».proof.Proof.Gen.Pre_finite_inputs
import proofs.«154353_j88940182765819_1_alg».proof.Defs

noncomputable section

namespace Cert.ReferenceIdeal.RefRun

open Cert.ReferenceIdeal Idealize.ShloMosaic Idealize.ShloMosaic.TcCoe Idealize.SL.Sem Idealize.ShloMosaic.StableHlo

variable {F : FTy → Type} [FloatOps F]

set_option maxRecDepth 8192 in
/-- On every device, for any float values, from any memory with zero counters: every weakly fair execution of @main
    terminates with its results at `outA` / `outP` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v235) = outA (fun b => m ((c.tc : Thread nD τ).loc b))
      ∧ r.2.mem ((c.tc : Thread nD τ).loc main_v239) = outP (fun b => m ((c.tc : Thread nD τ).loc b))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)) :=
  (θ_run defs _ _).mono (fun _ h c => ⟨(h c main_v235).trans (by rw [after_ops]; exact val15_main_v235 (launchContents m c)),
      (h c main_v239).trans (by rw [after_ops]; exact val15_main_v239 (launchContents m c)),
      (h c main_arg0).trans (by rw [after_ops]; exact val15_arg (launchContents m c) main_arg0 arg0_notW),
      (h c main_arg1).trans (by rw [after_ops]; exact val15_arg (launchContents m c) main_arg1 arg1_notW),
      (h c main_arg2).trans (by rw [after_ops]; exact val15_arg (launchContents m c) main_arg2 arg2_notW),
      (h c main_arg3).trans (by rw [after_ops]; exact val15_arg (launchContents m c) main_arg3 arg3_notW),
      (h c main_arg4).trans (by rw [after_ops]; exact val15_arg (launchContents m c) main_arg4 arg4_notW),
      (h c main_arg5).trans (by rw [after_ops]; exact val15_arg (launchContents m c) main_arg5 arg5_notW),
      (h c main_arg6).trans (by rw [after_ops]; exact val15_arg (launchContents m c) main_arg6 arg6_notW),
      (h c main_arg7).trans (by rw [after_ops]; exact val15_arg (launchContents m c) main_arg7 arg7_notW),
      (h c main_arg8).trans (by rw [after_ops]; exact val15_arg (launchContents m c) main_arg8 arg8_notW),
      (h c main_arg9).trans (by rw [after_ops]; exact val15_arg (launchContents m c) main_arg9 arg9_notW),
      (h c main_arg10).trans (by rw [after_ops]; exact val15_arg (launchContents m c) main_arg10 arg10_notW),
      (h c main_arg11).trans (by rw [after_ops]; exact val15_arg (launchContents m c) main_arg11 arg11_notW),
      (h c main_arg12).trans (by rw [after_ops]; exact val15_arg (launchContents m c) main_arg12 arg12_notW),
      (h c main_arg13).trans (by rw [after_ops]; exact val15_arg (launchContents m c) main_arg13 arg13_notW),
      (h c main_arg14).trans (by rw [after_ops]; exact val15_arg (launchContents m c) main_arg14 arg14_notW),
      (h c main_arg15).trans (by rw [after_ops]; exact val15_arg (launchContents m c) main_arg15 arg15_notW),
      (h c main_arg16).trans (by rw [after_ops]; exact val15_arg (launchContents m c) main_arg16 arg16_notW),
      (h c main_arg17).trans (by rw [after_ops]; exact val15_arg (launchContents m c) main_arg17 arg17_notW),
      (h c main_arg18).trans (by rw [after_ops]; exact val15_arg (launchContents m c) main_arg18 arg18_notW),
      (h c main_arg19).trans (by rw [after_ops]; exact val15_arg (launchContents m c) main_arg19 arg19_notW),
      (h c main_arg20).trans (by rw [after_ops]; exact val15_arg (launchContents m c) main_arg20 arg20_notW),
      (h c main_arg21).trans (by rw [after_ops]; exact val15_arg (launchContents m c) main_arg21 arg21_notW),
      (h c main_arg22).trans (by rw [after_ops]; exact val15_arg (launchContents m c) main_arg22 arg22_notW),
      (h c main_arg23).trans (by rw [after_ops]; exact val15_arg (launchContents m c) main_arg23 arg23_notW),
      (h c main_arg24).trans (by rw [after_ops]; exact val15_arg (launchContents m c) main_arg24 arg24_notW),
      (h c main_arg25).trans (by rw [after_ops]; exact val15_arg (launchContents m c) main_arg25 arg25_notW),
      (h c main_arg26).trans (by rw [after_ops]; exact val15_arg (launchContents m c) main_arg26 arg26_notW),
      (h c main_arg27).trans (by rw [after_ops]; exact val15_arg (launchContents m c) main_arg27 arg27_notW),
      (h c main_arg28).trans (by rw [after_ops]; exact val15_arg (launchContents m c) main_arg28 arg28_notW),
      (h c main_arg29).trans (by rw [after_ops]; exact val15_arg (launchContents m c) main_arg29 arg29_notW),
      (h c main_arg30).trans (by rw [after_ops]; exact val15_arg (launchContents m c) main_arg30 arg30_notW),
      (h c main_arg31).trans (by rw [after_ops]; exact val15_arg (launchContents m c) main_arg31 arg31_notW),
      (h c main_arg32).trans (by rw [after_ops]; exact val15_arg (launchContents m c) main_arg32 arg32_notW),
      (h c main_arg33).trans (by rw [after_ops]; exact val15_arg (launchContents m c) main_arg33 arg33_notW),
      (h c main_arg34).trans (by rw [after_ops]; exact val15_arg (launchContents m c) main_arg34 arg34_notW),
      (h c main_arg35).trans (by rw [after_ops]; exact val15_arg (launchContents m c) main_arg35 arg35_notW),
      (h c main_arg36).trans (by rw [after_ops]; exact val15_arg (launchContents m c) main_arg36 arg36_notW),
      (h c main_arg37).trans (by rw [after_ops]; exact val15_arg (launchContents m c) main_arg37 arg37_notW),
      (h c main_arg38).trans (by rw [after_ops]; exact val15_arg (launchContents m c) main_arg38 arg38_notW),
      (h c main_arg39).trans (by rw [after_ops]; exact val15_arg (launchContents m c) main_arg39 arg39_notW)⟩)
    (run_seq scopedRefs_eq scopedSems_eq defs main (fun _ => ops) main_eq (fun _ => ops_sub) m ρ)

/-- The reference's frame conjunct: the run's last forty conjuncts. -/
theorem frame_ri : Cert.frame_ReferenceIdeal := fun m ρ _ =>
  (θ_run _ _ _).mono (fun _ h c => (h c).2.2) (run m ρ)

end Cert.ReferenceIdeal.RefRun

end
-- ==== Proof.lean ====
/-
  The kernel program (a two-layer message-passing network whose dense parts run as ten pipelined kernels over 25
  blocks of 4000 rows, with the irregular gather and segment mean left to host operations) against its plain
  reference, at the ideal values (floats are extended reals, operations exact, changes of format the identity).

  Frames. Each of the two kernel programs is a chain of twenty items, a stretch of host operations and a kernel region
  alternating; between items every unscoped buffer of a core is held at a known contents. A region's body is run once
  per control case (the accumulating kernels: the first point, which zeroes the two scratch rows, the middle points,
  and the last, which copies the rows out) and the pipeline's launch theorem does the rest; no item writes an argument.
  The reference is one straight line of host operations.

  Values. Region by region the kernel's result is the reference's stage of the same inputs: a product with the
  concatenation [x·Wd + bd | agg·Ws + bs] is the sum of the two halves' products with the upper and lower rows of the
  update weight; the column sums accumulated block by block from a zero row are the sums over all 100000 rows; and,
  every entry of the summed array being a real number because every input is finite, the mean of squared deviations is
  the mean of squares minus the squared mean, which is nonnegative, so the kernel's clamp at zero changes nothing.
  The gather, the segment sums and their division by the in-degree (at least one) are the same host operations in both
  programs and are carried as one function.
-/
import proofs.«154353_j88940182765819_1_alg».proof.Defs
import proofs.«154353_j88940182765819_1_alg».proof.Proof.Gen.Kernel
import proofs.«154353_j88940182765819_1_alg».proof.Proof.Gen.KernelIdeal
import proofs.«154353_j88940182765819_1_alg».proof.Proof.Gen.ReferenceIdeal
import proofs.«154353_j88940182765819_1_alg».proof.Proof.Gen.Pre_finite_inputs
import proofs.«154353_j88940182765819_1_alg».proof.Proof.K.Run
import proofs.«154353_j88940182765819_1_alg».proof.Proof.KI.Run
import proofs.«154353_j88940182765819_1_alg».proof.Proof.KI.Chain
import proofs.«154353_j88940182765819_1_alg».proof.Proof.Ref.Run
import proofs.«154353_j88940182765819_1_alg».proof.Proof.Math.Finite
import Idealize.ShloMosaic.Adequacy
import Idealize.ShloMosaic.Init

set_option maxRecDepth 16384

noncomputable section

namespace Cert.Proof

open Idealize.ShloMosaic Idealize.SL.Sem

/-- The word-level kernel program runs to the end and leaves its arguments as launched. -/
theorem frame_k : Cert.frame_Kernel (hKernel := Cert.Kernel.Gen.facts) (hPre_finite_inputs := Cert.Pre_finite_inputs.Gen.facts) :=
  fun m ρ _ => Cert.Kernel.Hand.frameH m ρ

/-- The same program read at the ideal values. -/
theorem frame_ki : Cert.frame_KernelIdeal (hKernelIdeal := Cert.KernelIdeal.Gen.facts) (hPre_finite_inputs := Cert.Pre_finite_inputs.Gen.facts) :=
  fun m ρ _ => Cert.KernelIdeal.Hand.frameH m ρ

/-- The ideal pass rewrote nothing. -/
theorem preserves : Cert.preserves_Kernel_KernelIdeal := trivial

/-- From memories that agree on the arguments, all of them finite, both programs end with the reference's stage
    functions of the arguments in their two result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.RefRun.outA (fun b => m' ((c.tc : Thread Cert.ReferenceIdeal.nD Cert.ReferenceIdeal.τ).loc b)),
    fun c => Cert.ReferenceIdeal.RefRun.outP (fun b => m' ((c.tc : Thread Cert.ReferenceIdeal.nD Cert.ReferenceIdeal.τ).loc b)), ?_,
    Cert.ReferenceIdeal.RefRun.run m' ρ'⟩
  refine Cert.KernelIdeal.Hand.run_all m ρ (fun s h c => ?_)
  obtain ⟨g0, g1, g2, g3, g4, g5, g6, g7, g8, g9, g10, g11, g12, g13, g14, g15, g16, g17, g18, g19, g20, g21, g22, g23, g24, g25, g26, g27, g28, g29, g30, g31, g32, g33, g34, g35, g36, g37, g38, g39⟩ := hagree c
  have ko := Cert.KernelIdeal.Hand.kernel_out m c (fun b => m' ((c.tc : Thread Cert.ReferenceIdeal.nD Cert.ReferenceIdeal.τ).loc b))
    g0 g1 g2 g3 g4 g5 g6 g7 g8 g9 g10 g11 g12 g13 g14 g15 g16 g17 g18 g19 g20 g21 g22 g23 g24 g25 g26 g27 g28 g29 g30 g31 g32 g33 g34 g35 g36 g37 g38 g39 (Cert.KernelIdeal.Hand.convReal_of_pre m c (hpre c))
  exact ⟨(h c _ (Cert.KernelIdeal.Hand.mem_ucH Cert.KernelIdeal.main_v153 (by decide))).trans ko.1,
    (h c _ (Cert.KernelIdeal.Hand.mem_ucH Cert.KernelIdeal.main_v155 (by decide))).trans ko.2,
    (h c _ (Cert.KernelIdeal.Hand.mem_ucH Cert.KernelIdeal.main_arg0 (by decide))).trans (Cert.KernelIdeal.Hand.W20_main_arg0 m c),
    (h c _ (Cert.KernelIdeal.Hand.mem_ucH Cert.KernelIdeal.main_arg1 (by decide))).trans (Cert.KernelIdeal.Hand.W20_main_arg1 m c),
    (h c _ (Cert.KernelIdeal.Hand.mem_ucH Cert.KernelIdeal.main_arg2 (by decide))).trans (Cert.KernelIdeal.Hand.W20_main_arg2 m c),
    (h c _ (Cert.KernelIdeal.Hand.mem_ucH Cert.KernelIdeal.main_arg3 (by decide))).trans (Cert.KernelIdeal.Hand.W20_main_arg3 m c),
    (h c _ (Cert.KernelIdeal.Hand.mem_ucH Cert.KernelIdeal.main_arg4 (by decide))).trans (Cert.KernelIdeal.Hand.W20_main_arg4 m c),
    (h c _ (Cert.KernelIdeal.Hand.mem_ucH Cert.KernelIdeal.main_arg5 (by decide))).trans (Cert.KernelIdeal.Hand.W20_main_arg5 m c),
    (h c _ (Cert.KernelIdeal.Hand.mem_ucH Cert.KernelIdeal.main_arg6 (by decide))).trans (Cert.KernelIdeal.Hand.W20_main_arg6 m c),
    (h c _ (Cert.KernelIdeal.Hand.mem_ucH Cert.KernelIdeal.main_arg7 (by decide))).trans (Cert.KernelIdeal.Hand.W20_main_arg7 m c),
    (h c _ (Cert.KernelIdeal.Hand.mem_ucH Cert.KernelIdeal.main_arg8 (by decide))).trans (Cert.KernelIdeal.Hand.W20_main_arg8 m c),
    (h c _ (Cert.KernelIdeal.Hand.mem_ucH Cert.KernelIdeal.main_arg9 (by decide))).trans (Cert.KernelIdeal.Hand.W20_main_arg9 m c),
    (h c _ (Cert.KernelIdeal.Hand.mem_ucH Cert.KernelIdeal.main_arg10 (by decide))).trans (Cert.KernelIdeal.Hand.W20_main_arg10 m c),
    (h c _ (Cert.KernelIdeal.Hand.mem_ucH Cert.KernelIdeal.main_arg11 (by decide))).trans (Cert.KernelIdeal.Hand.W20_main_arg11 m c),
    (h c _ (Cert.KernelIdeal.Hand.mem_ucH Cert.KernelIdeal.main_arg12 (by decide))).trans (Cert.KernelIdeal.Hand.W20_main_arg12 m c),
    (h c _ (Cert.KernelIdeal.Hand.mem_ucH Cert.KernelIdeal.main_arg13 (by decide))).trans (Cert.KernelIdeal.Hand.W20_main_arg13 m c),
    (h c _ (Cert.KernelIdeal.Hand.mem_ucH Cert.KernelIdeal.main_arg14 (by decide))).trans (Cert.KernelIdeal.Hand.W20_main_arg14 m c),
    (h c _ (Cert.KernelIdeal.Hand.mem_ucH Cert.KernelIdeal.main_arg15 (by decide))).trans (Cert.KernelIdeal.Hand.W20_main_arg15 m c),
    (h c _ (Cert.KernelIdeal.Hand.mem_ucH Cert.KernelIdeal.main_arg16 (by decide))).trans (Cert.KernelIdeal.Hand.W20_main_arg16 m c),
    (h c _ (Cert.KernelIdeal.Hand.mem_ucH Cert.KernelIdeal.main_arg17 (by decide))).trans (Cert.KernelIdeal.Hand.W20_main_arg17 m c),
    (h c _ (Cert.KernelIdeal.Hand.mem_ucH Cert.KernelIdeal.main_arg18 (by decide))).trans (Cert.KernelIdeal.Hand.W20_main_arg18 m c),
    (h c _ (Cert.KernelIdeal.Hand.mem_ucH Cert.KernelIdeal.main_arg19 (by decide))).trans (Cert.KernelIdeal.Hand.W20_main_arg19 m c),
    (h c _ (Cert.KernelIdeal.Hand.mem_ucH Cert.KernelIdeal.main_arg20 (by decide))).trans (Cert.KernelIdeal.Hand.W20_main_arg20 m c),
    (h c _ (Cert.KernelIdeal.Hand.mem_ucH Cert.KernelIdeal.main_arg21 (by decide))).trans (Cert.KernelIdeal.Hand.W20_main_arg21 m c),
    (h c _ (Cert.KernelIdeal.Hand.mem_ucH Cert.KernelIdeal.main_arg22 (by decide))).trans (Cert.KernelIdeal.Hand.W20_main_arg22 m c),
    (h c _ (Cert.KernelIdeal.Hand.mem_ucH Cert.KernelIdeal.main_arg23 (by decide))).trans (Cert.KernelIdeal.Hand.W20_main_arg23 m c),
    (h c _ (Cert.KernelIdeal.Hand.mem_ucH Cert.KernelIdeal.main_arg24 (by decide))).trans (Cert.KernelIdeal.Hand.W20_main_arg24 m c),
    (h c _ (Cert.KernelIdeal.Hand.mem_ucH Cert.KernelIdeal.main_arg25 (by decide))).trans (Cert.KernelIdeal.Hand.W20_main_arg25 m c),
    (h c _ (Cert.KernelIdeal.Hand.mem_ucH Cert.KernelIdeal.main_arg26 (by decide))).trans (Cert.KernelIdeal.Hand.W20_main_arg26 m c),
    (h c _ (Cert.KernelIdeal.Hand.mem_ucH Cert.KernelIdeal.main_arg27 (by decide))).trans (Cert.KernelIdeal.Hand.W20_main_arg27 m c),
    (h c _ (Cert.KernelIdeal.Hand.mem_ucH Cert.KernelIdeal.main_arg28 (by decide))).trans (Cert.KernelIdeal.Hand.W20_main_arg28 m c),
    (h c _ (Cert.KernelIdeal.Hand.mem_ucH Cert.KernelIdeal.main_arg29 (by decide))).trans (Cert.KernelIdeal.Hand.W20_main_arg29 m c),
    (h c _ (Cert.KernelIdeal.Hand.mem_ucH Cert.KernelIdeal.main_arg30 (by decide))).trans (Cert.KernelIdeal.Hand.W20_main_arg30 m c),
    (h c _ (Cert.KernelIdeal.Hand.mem_ucH Cert.KernelIdeal.main_arg31 (by decide))).trans (Cert.KernelIdeal.Hand.W20_main_arg31 m c),
    (h c _ (Cert.KernelIdeal.Hand.mem_ucH Cert.KernelIdeal.main_arg32 (by decide))).trans (Cert.KernelIdeal.Hand.W20_main_arg32 m c),
    (h c _ (Cert.KernelIdeal.Hand.mem_ucH Cert.KernelIdeal.main_arg33 (by decide))).trans (Cert.KernelIdeal.Hand.W20_main_arg33 m c),
    (h c _ (Cert.KernelIdeal.Hand.mem_ucH Cert.KernelIdeal.main_arg34 (by decide))).trans (Cert.KernelIdeal.Hand.W20_main_arg34 m c),
    (h c _ (Cert.KernelIdeal.Hand.mem_ucH Cert.KernelIdeal.main_arg35 (by decide))).trans (Cert.KernelIdeal.Hand.W20_main_arg35 m c),
    (h c _ (Cert.KernelIdeal.Hand.mem_ucH Cert.KernelIdeal.main_arg36 (by decide))).trans (Cert.KernelIdeal.Hand.W20_main_arg36 m c),
    (h c _ (Cert.KernelIdeal.Hand.mem_ucH Cert.KernelIdeal.main_arg37 (by decide))).trans (Cert.KernelIdeal.Hand.W20_main_arg37 m c),
    (h c _ (Cert.KernelIdeal.Hand.mem_ucH Cert.KernelIdeal.main_arg38 (by decide))).trans (Cert.KernelIdeal.Hand.W20_main_arg38 m c),
    (h c _ (Cert.KernelIdeal.Hand.mem_ucH Cert.KernelIdeal.main_arg39 (by decide))).trans (Cert.KernelIdeal.Hand.W20_main_arg39 m c)⟩

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefRun.frame_ri, preserves, algebraic⟩

end Cert.Proof

end
